-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40)) (m ((c.tc : Thread Cert.Kernel.nD Cert.Kernel.τ).loc Cert.Kernel.main_arg41)) (m ((c.tc : Thread Cert.Kernel.nD Cert.Kernel.τ).loc Cert.Kernel.main_arg42)) (m ((c.tc : Thread Cert.Kernel.nD Cert.Kernel.τ).loc Cert.Kernel.main_arg43)) (m ((c.tc : Thread Cert.Kernel.nD Cert.Kernel.τ).loc Cert.Kernel.main_arg44)) (m ((c.tc : Thread Cert.Kernel.nD Cert.Kernel.τ).loc Cert.Kernel.main_arg45)) (m ((c.tc : Thread Cert.Kernel.nD Cert.Kernel.τ).loc Cert.Kernel.main_arg46)) (m ((c.tc : Thread Cert.Kernel.nD Cert.Kernel.τ).loc Cert.Kernel.main_arg47))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41)) (m ((c.tc : Thread Cert.KernelIdeal.nD Cert.KernelIdeal.τ).loc Cert.KernelIdeal.main_arg42)) (m ((c.tc : Thread Cert.KernelIdeal.nD Cert.KernelIdeal.τ).loc Cert.KernelIdeal.main_arg43)) (m ((c.tc : Thread Cert.KernelIdeal.nD Cert.KernelIdeal.τ).loc Cert.KernelIdeal.main_arg44)) (m ((c.tc : Thread Cert.KernelIdeal.nD Cert.KernelIdeal.τ).loc Cert.KernelIdeal.main_arg45)) (m ((c.tc : Thread Cert.KernelIdeal.nD Cert.KernelIdeal.τ).loc Cert.KernelIdeal.main_arg46)) (m ((c.tc : Thread Cert.KernelIdeal.nD Cert.KernelIdeal.τ).loc Cert.KernelIdeal.main_arg47))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41)) (m ((c.tc : Thread Cert.ReferenceIdeal.nD Cert.ReferenceIdeal.τ).loc Cert.ReferenceIdeal.main_arg42)) (m ((c.tc : Thread Cert.ReferenceIdeal.nD Cert.ReferenceIdeal.τ).loc Cert.ReferenceIdeal.main_arg43)) (m ((c.tc : Thread Cert.ReferenceIdeal.nD Cert.ReferenceIdeal.τ).loc Cert.ReferenceIdeal.main_arg44)) (m ((c.tc : Thread Cert.ReferenceIdeal.nD Cert.ReferenceIdeal.τ).loc Cert.ReferenceIdeal.main_arg45)) (m ((c.tc : Thread Cert.ReferenceIdeal.nD Cert.ReferenceIdeal.τ).loc Cert.ReferenceIdeal.main_arg46)) (m ((c.tc : Thread Cert.ReferenceIdeal.nD Cert.ReferenceIdeal.τ).loc Cert.ReferenceIdeal.main_arg47))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41)
      ∧ r.2.mem ((c.tc : Thread Cert.Kernel.nD Cert.Kernel.τ).loc Cert.Kernel.main_arg42) = m ((c.tc : Thread Cert.Kernel.nD Cert.Kernel.τ).loc Cert.Kernel.main_arg42)
      ∧ r.2.mem ((c.tc : Thread Cert.Kernel.nD Cert.Kernel.τ).loc Cert.Kernel.main_arg43) = m ((c.tc : Thread Cert.Kernel.nD Cert.Kernel.τ).loc Cert.Kernel.main_arg43)
      ∧ r.2.mem ((c.tc : Thread Cert.Kernel.nD Cert.Kernel.τ).loc Cert.Kernel.main_arg44) = m ((c.tc : Thread Cert.Kernel.nD Cert.Kernel.τ).loc Cert.Kernel.main_arg44)
      ∧ r.2.mem ((c.tc : Thread Cert.Kernel.nD Cert.Kernel.τ).loc Cert.Kernel.main_arg45) = m ((c.tc : Thread Cert.Kernel.nD Cert.Kernel.τ).loc Cert.Kernel.main_arg45)
      ∧ r.2.mem ((c.tc : Thread Cert.Kernel.nD Cert.Kernel.τ).loc Cert.Kernel.main_arg46) = m ((c.tc : Thread Cert.Kernel.nD Cert.Kernel.τ).loc Cert.Kernel.main_arg46)
      ∧ r.2.mem ((c.tc : Thread Cert.Kernel.nD Cert.Kernel.τ).loc Cert.Kernel.main_arg47) = m ((c.tc : Thread Cert.Kernel.nD Cert.Kernel.τ).loc Cert.Kernel.main_arg47))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
      ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
      ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
      ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
      ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
      ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
      ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41)
      ∧ r.2.mem ((c.tc : Thread Cert.ReferenceIdeal.nD Cert.ReferenceIdeal.τ).loc Cert.ReferenceIdeal.main_arg42) = m ((c.tc : Thread Cert.ReferenceIdeal.nD Cert.ReferenceIdeal.τ).loc Cert.ReferenceIdeal.main_arg42)
      ∧ r.2.mem ((c.tc : Thread Cert.ReferenceIdeal.nD Cert.ReferenceIdeal.τ).loc Cert.ReferenceIdeal.main_arg43) = m ((c.tc : Thread Cert.ReferenceIdeal.nD Cert.ReferenceIdeal.τ).loc Cert.ReferenceIdeal.main_arg43)
      ∧ r.2.mem ((c.tc : Thread Cert.ReferenceIdeal.nD Cert.ReferenceIdeal.τ).loc Cert.ReferenceIdeal.main_arg44) = m ((c.tc : Thread Cert.ReferenceIdeal.nD Cert.ReferenceIdeal.τ).loc Cert.ReferenceIdeal.main_arg44)
      ∧ r.2.mem ((c.tc : Thread Cert.ReferenceIdeal.nD Cert.ReferenceIdeal.τ).loc Cert.ReferenceIdeal.main_arg45) = m ((c.tc : Thread Cert.ReferenceIdeal.nD Cert.ReferenceIdeal.τ).loc Cert.ReferenceIdeal.main_arg45)
      ∧ r.2.mem ((c.tc : Thread Cert.ReferenceIdeal.nD Cert.ReferenceIdeal.τ).loc Cert.ReferenceIdeal.main_arg46) = m ((c.tc : Thread Cert.ReferenceIdeal.nD Cert.ReferenceIdeal.τ).loc Cert.ReferenceIdeal.main_arg46)
      ∧ r.2.mem ((c.tc : Thread Cert.ReferenceIdeal.nD Cert.ReferenceIdeal.τ).loc Cert.ReferenceIdeal.main_arg47) = m ((c.tc : Thread Cert.ReferenceIdeal.nD Cert.ReferenceIdeal.τ).loc Cert.ReferenceIdeal.main_arg47))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)
      ∧ m' ((c.tc : Thread Cert.ReferenceIdeal.nD Cert.ReferenceIdeal.τ).loc Cert.ReferenceIdeal.main_arg43) = m ((c.tc : Thread Cert.KernelIdeal.nD Cert.KernelIdeal.τ).loc Cert.KernelIdeal.main_arg43)
      ∧ m' ((c.tc : Thread Cert.ReferenceIdeal.nD Cert.ReferenceIdeal.τ).loc Cert.ReferenceIdeal.main_arg44) = m ((c.tc : Thread Cert.KernelIdeal.nD Cert.KernelIdeal.τ).loc Cert.KernelIdeal.main_arg44)
      ∧ m' ((c.tc : Thread Cert.ReferenceIdeal.nD Cert.ReferenceIdeal.τ).loc Cert.ReferenceIdeal.main_arg45) = m ((c.tc : Thread Cert.KernelIdeal.nD Cert.KernelIdeal.τ).loc Cert.KernelIdeal.main_arg45)
      ∧ m' ((c.tc : Thread Cert.ReferenceIdeal.nD Cert.ReferenceIdeal.τ).loc Cert.ReferenceIdeal.main_arg46) = m ((c.tc : Thread Cert.KernelIdeal.nD Cert.KernelIdeal.τ).loc Cert.KernelIdeal.main_arg46)
      ∧ m' ((c.tc : Thread Cert.ReferenceIdeal.nD Cert.ReferenceIdeal.τ).loc Cert.ReferenceIdeal.main_arg47) = m ((c.tc : Thread Cert.KernelIdeal.nD Cert.KernelIdeal.τ).loc Cert.KernelIdeal.main_arg47)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
          ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42)
          ∧ r.2.mem ((c.tc : Thread Cert.KernelIdeal.nD Cert.KernelIdeal.τ).loc Cert.KernelIdeal.main_arg43) = m ((c.tc : Thread Cert.KernelIdeal.nD Cert.KernelIdeal.τ).loc Cert.KernelIdeal.main_arg43)
          ∧ r.2.mem ((c.tc : Thread Cert.KernelIdeal.nD Cert.KernelIdeal.τ).loc Cert.KernelIdeal.main_arg44) = m ((c.tc : Thread Cert.KernelIdeal.nD Cert.KernelIdeal.τ).loc Cert.KernelIdeal.main_arg44)
          ∧ r.2.mem ((c.tc : Thread Cert.KernelIdeal.nD Cert.KernelIdeal.τ).loc Cert.KernelIdeal.main_arg45) = m ((c.tc : Thread Cert.KernelIdeal.nD Cert.KernelIdeal.τ).loc Cert.KernelIdeal.main_arg45)
          ∧ r.2.mem ((c.tc : Thread Cert.KernelIdeal.nD Cert.KernelIdeal.τ).loc Cert.KernelIdeal.main_arg46) = m ((c.tc : Thread Cert.KernelIdeal.nD Cert.KernelIdeal.τ).loc Cert.KernelIdeal.main_arg46)
          ∧ r.2.mem ((c.tc : Thread Cert.KernelIdeal.nD Cert.KernelIdeal.τ).loc Cert.KernelIdeal.main_arg47) = m ((c.tc : Thread Cert.KernelIdeal.nD Cert.KernelIdeal.τ).loc Cert.KernelIdeal.main_arg47))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41)
          ∧ r.2.mem ((c.tc : Thread Cert.ReferenceIdeal.nD Cert.ReferenceIdeal.τ).loc Cert.ReferenceIdeal.main_arg42) = m' ((c.tc : Thread Cert.ReferenceIdeal.nD Cert.ReferenceIdeal.τ).loc Cert.ReferenceIdeal.main_arg42)
          ∧ r.2.mem ((c.tc : Thread Cert.ReferenceIdeal.nD Cert.ReferenceIdeal.τ).loc Cert.ReferenceIdeal.main_arg43) = m' ((c.tc : Thread Cert.ReferenceIdeal.nD Cert.ReferenceIdeal.τ).loc Cert.ReferenceIdeal.main_arg43)
          ∧ r.2.mem ((c.tc : Thread Cert.ReferenceIdeal.nD Cert.ReferenceIdeal.τ).loc Cert.ReferenceIdeal.main_arg44) = m' ((c.tc : Thread Cert.ReferenceIdeal.nD Cert.ReferenceIdeal.τ).loc Cert.ReferenceIdeal.main_arg44)
          ∧ r.2.mem ((c.tc : Thread Cert.ReferenceIdeal.nD Cert.ReferenceIdeal.τ).loc Cert.ReferenceIdeal.main_arg45) = m' ((c.tc : Thread Cert.ReferenceIdeal.nD Cert.ReferenceIdeal.τ).loc Cert.ReferenceIdeal.main_arg45)
          ∧ r.2.mem ((c.tc : Thread Cert.ReferenceIdeal.nD Cert.ReferenceIdeal.τ).loc Cert.ReferenceIdeal.main_arg46) = m' ((c.tc : Thread Cert.ReferenceIdeal.nD Cert.ReferenceIdeal.τ).loc Cert.ReferenceIdeal.main_arg46)
          ∧ r.2.mem ((c.tc : Thread Cert.ReferenceIdeal.nD Cert.ReferenceIdeal.τ).loc Cert.ReferenceIdeal.main_arg47) = m' ((c.tc : Thread Cert.ReferenceIdeal.nD Cert.ReferenceIdeal.τ).loc Cert.ReferenceIdeal.main_arg47))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x65536x6 : Shape := ⟨3, ![2, 65536, 6]⟩
abbrev S2x131072x6 : Shape := ⟨3, ![2, 131072, 6]⟩
abbrev S2x65536x16 : Shape := ⟨3, ![2, 65536, 16]⟩
abbrev S8x6 : Shape := ⟨2, ![8, 6]⟩
abbrev S8 : Shape := ⟨1, ![8]⟩
abbrev S8x8 : Shape := ⟨2, ![8, 8]⟩
abbrev S16x20 : Shape := ⟨2, ![16, 20]⟩
abbrev S16 : Shape := ⟨1, ![16]⟩
abbrev S8x16 : Shape := ⟨2, ![8, 16]⟩
abbrev S16x16 : Shape := ⟨2, ![16, 16]⟩
abbrev S32x8 : Shape := ⟨2, ![32, 8]⟩
abbrev S32 : Shape := ⟨1, ![32]⟩
abbrev S32x16 : Shape := ⟨2, ![32, 16]⟩
abbrev S24x24 : Shape := ⟨2, ![24, 24]⟩
abbrev S32x24 : Shape := ⟨2, ![32, 24]⟩
abbrev S32x32 : Shape := ⟨2, ![32, 32]⟩
abbrev S_ : Shape := ⟨0, ![]⟩

class Facts : Prop where
  bcast_S_S2x65536x6 : S_.BroadcastsInDim S2x65536x6 (![] : Fin 0 → Fin S2x65536x6.rank)
  reducesTo_S2x65536x6_S_d0_1_2 : S2x65536x6.ReducesTo [0, 1, 2] S_
  h_S_ : 0 < S_.numel
  bcast_S_S2x131072x6 : S_.BroadcastsInDim S2x131072x6 (![] : Fin 0 → Fin S2x131072x6.rank)
  reducesTo_S2x131072x6_S_d0_1_2 : S2x131072x6.ReducesTo [0, 1, 2] S_
  bcast_S_S8x6 : S_.BroadcastsInDim S8x6 (![] : Fin 0 → Fin S8x6.rank)
  reducesTo_S8x6_S_d0_1 : S8x6.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S16x20 : S_.BroadcastsInDim S16x20 (![] : Fin 0 → Fin S16x20.rank)
  reducesTo_S16x20_S_d0_1 : S16x20.ReducesTo [0, 1] S_
  bcast_S_S16 : S_.BroadcastsInDim S16 (![] : Fin 0 → Fin S16.rank)
  reducesTo_S16_S_d0 : S16.ReducesTo [0] S_
  bcast_S_S8x16 : S_.BroadcastsInDim S8x16 (![] : Fin 0 → Fin S8x16.rank)
  reducesTo_S8x16_S_d0_1 : S8x16.ReducesTo [0, 1] S_
  bcast_S_S16x16 : S_.BroadcastsInDim S16x16 (![] : Fin 0 → Fin S16x16.rank)
  reducesTo_S16x16_S_d0_1 : S16x16.ReducesTo [0, 1] S_
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S24x24 : S_.BroadcastsInDim S24x24 (![] : Fin 0 → Fin S24x24.rank)
  reducesTo_S24x24_S_d0_1 : S24x24.ReducesTo [0, 1] S_
  bcast_S_S32x24 : S_.BroadcastsInDim S32x24 (![] : Fin 0 → Fin S32x24.rank)
  reducesTo_S32x24_S_d0_1 : S32x24.ReducesTo [0, 1] S_
  bcast_S_S32x32 : S_.BroadcastsInDim S32x32 (![] : Fin 0 → Fin S32x32.rank)
  reducesTo_S32x32_S_d0_1 : S32x32.ReducesTo [0, 1] S_

variable [Facts]

def fn_part13 {F : FTy → Type} [FloatOps F] (main_arg46 : FVec F S32x32 .f32) (main_arg47 : FVec F S32 .f32) (main_v218 : IVec S_ 1) (main_v221 : IVec S32 1) (main_c_87 : IVec S_ 1) : IVec S_ 1 :=
  let main_v222 : IVec S_ 1 := (fun x v => Host.reduce IntOp.andi x v reducesTo_S32_S_d0 h_S_) main_v221 main_c_87
  let main_v223 : IVec S_ 1 := andi main_v218 main_v222
  let main_v224 : FVec F S32x32 .f32 := Host.absf main_arg46
  let main_cst_88 : FVec F S_ .f32 := constant S_ .f32 0x7F800000#32
  let main_v225 : FVec F S32x32 .f32 := broadcastInDim S32x32 ![] bcast_S_S32x32 main_cst_88
  let main_v226 : IVec S32x32 1 := cmpf .olt main_v224 main_v225
  let main_c_89 : IVec S_ 1 := constantI S_ 1 1#1
  let main_v227 : IVec S_ 1 := (fun x v => Host.reduce IntOp.andi x v reducesTo_S32x32_S_d0_1 h_S_) main_v226 main_c_89
  let main_v228 : IVec S_ 1 := andi main_v223 main_v227
  let main_v229 : FVec F S32 .f32 := Host.absf main_arg47
  let main_cst_90 : FVec F S_ .f32 := constant S_ .f32 0x7F800000#32
  let main_v230 : FVec F S32 .f32 := broadcastInDim S32 ![] bcast_S_S32 main_cst_90
  let main_v231 : IVec S32 1 := cmpf .olt main_v229 main_v230
  let main_c_91 : IVec S_ 1 := constantI S_ 1 1#1
  let main_v232 : IVec S_ 1 := (fun x v => Host.reduce IntOp.andi x v reducesTo_S32_S_d0 h_S_) main_v231 main_c_91
  let main_v233 : IVec S_ 1 := andi main_v228 main_v232
  main_v233

def fn_part12 {F : FTy → Type} [FloatOps F] (main_arg43 : FVec F S32 .f32) (main_arg44 : FVec F S32x32 .f32) (main_arg45 : FVec F S32 .f32) (main_arg46 : FVec F S32x32 .f32) (main_arg47 : FVec F S32 .f32) (main_v203 : IVec S_ 1) (main_v204 : FVec F S32x32 .f32) (main_cst_80 : FVec F S_ .f32) : IVec S_ 1 :=
  let main_v205 : FVec F S32x32 .f32 := broadcastInDim S32x32 ![] bcast_S_S32x32 main_cst_80
  let main_v206 : IVec S32x32 1 := cmpf .olt main_v204 main_v205
  let main_c_81 : IVec S_ 1 := constantI S_ 1 1#1
  let main_v207 : IVec S_ 1 := (fun x v => Host.reduce IntOp.andi x v reducesTo_S32x32_S_d0_1 h_S_) main_v206 main_c_81
  let main_v208 : IVec S_ 1 := andi main_v203 main_v207
  let main_v209 : FVec F S32 .f32 := Host.absf main_arg43
  let main_cst_82 : FVec F S_ .f32 := constant S_ .f32 0x7F800000#32
  let main_v210 : FVec F S32 .f32 := broadcastInDim S32 ![] bcast_S_S32 main_cst_82
  let main_v211 : IVec S32 1 := cmpf .olt main_v209 main_v210
  let main_c_83 : IVec S_ 1 := constantI S_ 1 1#1
  let main_v212 : IVec S_ 1 := (fun x v => Host.reduce IntOp.andi x v reducesTo_S32_S_d0 h_S_) main_v211 main_c_83
  let main_v213 : IVec S_ 1 := andi main_v208 main_v212
  let main_v214 : FVec F S32x32 .f32 := Host.absf main_arg44
  let main_cst_84 : FVec F S_ .f32 := constant S_ .f32 0x7F800000#32
  let main_v215 : FVec F S32x32 .f32 := broadcastInDim S32x32 ![] bcast_S_S32x32 main_cst_84
  let main_v216 : IVec S32x32 1 := cmpf .olt main_v214 main_v215
  let main_c_85 : IVec S_ 1 := constantI S_ 1 1#1
  let main_v217 : IVec S_ 1 := (fun x v => Host.reduce IntOp.andi x v reducesTo_S32x32_S_d0_1 h_S_) main_v216 main_c_85
  let main_v218 : IVec S_ 1 := andi main_v213 main_v217
  let main_v219 : FVec F S32 .f32 := Host.absf main_arg45
  let main_cst_86 : FVec F S_ .f32 := constant S_ .f32 0x7F800000#32
  let main_v220 : FVec F S32 .f32 := broadcastInDim S32 ![] bcast_S_S32 main_cst_86
  let main_v221 : IVec S32 1 := cmpf .olt main_v219 main_v220
  let main_c_87 : IVec S_ 1 := constantI S_ 1 1#1
  fn_part13 (F := F) main_arg46 main_arg47 main_v218 main_v221 main_c_87

def fn_part11 {F : FTy → Type} [FloatOps F] (main_arg39 : FVec F S32 .f32) (main_arg40 : FVec F S32 .f32) (main_arg41 : FVec F S32 .f32) (main_arg42 : FVec F S32x32 .f32) (main_arg43 : FVec F S32 .f32) (main_arg44 : FVec F S32x32 .f32) (main_arg45 : FVec F S32 .f32) (main_arg46 : FVec F S32x32 .f32) (main_arg47 : FVec F S32 .f32) (main_v183 : IVec S_ 1) (main_v187 : IVec S_ 1) : IVec S_ 1 :=
  let main_v188 : IVec S_ 1 := andi main_v183 main_v187
  let main_v189 : FVec F S32 .f32 := Host.absf main_arg39
  let main_cst_74 : FVec F S_ .f32 := constant S_ .f32 0x7F800000#32
  let main_v190 : FVec F S32 .f32 := broadcastInDim S32 ![] bcast_S_S32 main_cst_74
  let main_v191 : IVec S32 1 := cmpf .olt main_v189 main_v190
  let main_c_75 : IVec S_ 1 := constantI S_ 1 1#1
  let main_v192 : IVec S_ 1 := (fun x v => Host.reduce IntOp.andi x v reducesTo_S32_S_d0 h_S_) main_v191 main_c_75
  let main_v193 : IVec S_ 1 := andi main_v188 main_v192
  let main_v194 : FVec F S32 .f32 := Host.absf main_arg40
  let main_cst_76 : FVec F S_ .f32 := constant S_ .f32 0x7F800000#32
  let main_v195 : FVec F S32 .f32 := broadcastInDim S32 ![] bcast_S_S32 main_cst_76
  let main_v196 : IVec S32 1 := cmpf .olt main_v194 main_v195
  let main_c_77 : IVec S_ 1 := constantI S_ 1 1#1
  let main_v197 : IVec S_ 1 := (fun x v => Host.reduce IntOp.andi x v reducesTo_S32_S_d0 h_S_) main_v196 main_c_77
  let main_v198 : IVec S_ 1 := andi main_v193 main_v197
  let main_v199 : FVec F S32 .f32 := Host.absf main_arg41
  let main_cst_78 : FVec F S_ .f32 := constant S_ .f32 0x7F800000#32
  let main_v200 : FVec F S32 .f32 := broadcastInDim S32 ![] bcast_S_S32 main_cst_78
  let main_v201 : IVec S32 1 := cmpf .olt main_v199 main_v200
  let main_c_79 : IVec S_ 1 := constantI S_ 1 1#1
  let main_v202 : IVec S_ 1 := (fun x v => Host.reduce IntOp.andi x v reducesTo_S32_S_d0 h_S_) main_v201 main_c_79
  let main_v203 : IVec S_ 1 := andi main_v198 main_v202
  let main_v204 : FVec F S32x32 .f32 := Host.absf main_arg42
  let main_cst_80 : FVec F S_ .f32 := constant S_ .f32 0x7F800000#32
  fn_part12 (F := F) main_arg43 main_arg44 main_arg45 main_arg46 main_arg47 main_v203 main_v204 main_cst_80

def fn_part10 {F : FTy → Type} [FloatOps F] (main_arg36 : FVec F S32 .f32) (main_arg37 : FVec F S24x24 .f32) (main_arg38 : FVec F S32x24 .f32) (main_arg39 : FVec F S32 .f32) (main_arg40 : FVec F S32 .f32) (main_arg41 : FVec F S32 .f32) (main_arg42 : FVec F S32x32 .f32) (main_arg43 : FVec F S32 .f32) (main_arg44 : FVec F S32x32 .f32) (main_arg45 : FVec F S32 .f32) (main_arg46 : FVec F S32x32 .f32) (main_arg47 : FVec F S32 .f32) (main_v168 : IVec S_ 1) (main_v169 : FVec F S32 .f32) (main_v170 : FVec F S32 .f32) : IVec S_ 1 :=
  let main_v171 : IVec S32 1 := cmpf .olt main_v169 main_v170
  let main_c_67 : IVec S_ 1 := constantI S_ 1 1#1
  let main_v172 : IVec S_ 1 := (fun x v => Host.reduce IntOp.andi x v reducesTo_S32_S_d0 h_S_) main_v171 main_c_67
  let main_v173 : IVec S_ 1 := andi main_v168 main_v172
  let main_v174 : FVec F S32 .f32 := Host.absf main_arg36
  let main_cst_68 : FVec F S_ .f32 := constant S_ .f32 0x7F800000#32
  let main_v175 : FVec F S32 .f32 := broadcastInDim S32 ![] bcast_S_S32 main_cst_68
  let main_v176 : IVec S32 1 := cmpf .olt main_v174 main_v175
  let main_c_69 : IVec S_ 1 := constantI S_ 1 1#1
  let main_v177 : IVec S_ 1 := (fun x v => Host.reduce IntOp.andi x v reducesTo_S32_S_d0 h_S_) main_v176 main_c_69
  let main_v178 : IVec S_ 1 := andi main_v173 main_v177
  let main_v179 : FVec F S24x24 .f32 := Host.absf main_arg37
  let main_cst_70 : FVec F S_ .f32 := constant S_ .f32 0x7F800000#32
  let main_v180 : FVec F S24x24 .f32 := broadcastInDim S24x24 ![] bcast_S_S24x24 main_cst_70
  let main_v181 : IVec S24x24 1 := cmpf .olt main_v179 main_v180
  let main_c_71 : IVec S_ 1 := constantI S_ 1 1#1
  let main_v182 : IVec S_ 1 := (fun x v => Host.reduce IntOp.andi x v reducesTo_S24x24_S_d0_1 h_S_) main_v181 main_c_71
  let main_v183 : IVec S_ 1 := andi main_v178 main_v182
  let main_v184 : FVec F S32x24 .f32 := Host.absf main_arg38
  let main_cst_72 : FVec F S_ .f32 := constant S_ .f32 0x7F800000#32
  let main_v185 : FVec F S32x24 .f32 := broadcastInDim S32x24 ![] bcast_S_S32x24 main_cst_72
  let main_v186 : IVec S32x24 1 := cmpf .olt main_v184 main_v185
  let main_c_73 : IVec S_ 1 := constantI S_ 1 1#1
  let main_v187 : IVec S_ 1 := (fun x v => Host.reduce IntOp.andi x v reducesTo_S32x24_S_d0_1 h_S_) main_v186 main_c_73
  fn_part11 (F := F) main_arg39 main_arg40 main_arg41 main_arg42 main_arg43 main_arg44 main_arg45 main_arg46 main_arg47 main_v183 main_v187

def fn_part9 {F : FTy → Type} [FloatOps F] (main_arg32 : FVec F S16 .f32) (main_arg33 : FVec F S32x16 .f32) (main_arg34 : FVec F S32 .f32) (main_arg35 : FVec F S32 .f32) (main_arg36 : FVec F S32 .f32) (main_arg37 : FVec F S24x24 .f32) (main_arg38 : FVec F S32x24 .f32) (main_arg39 : FVec F S32 .f32) (main_arg40 : FVec F S32 .f32) (main_arg41 : FVec F S32 .f32) (main_arg42 : FVec F S32x32 .f32) (main_arg43 : FVec F S32 .f32) (main_arg44 : FVec F S32x32 .f32) (main_arg45 : FVec F S32 .f32) (main_arg46 : FVec F S32x32 .f32) (main_arg47 : FVec F S32 .f32) (main_v153 : IVec S_ 1) : IVec S_ 1 :=
  let main_v154 : FVec F S16 .f32 := Host.absf main_arg32
  let main_cst_60 : FVec F S_ .f32 := constant S_ .f32 0x7F800000#32
  let main_v155 : FVec F S16 .f32 := broadcastInDim S16 ![] bcast_S_S16 main_cst_60
  let main_v156 : IVec S16 1 := cmpf .olt main_v154 main_v155
  let main_c_61 : IVec S_ 1 := constantI S_ 1 1#1
  let main_v157 : IVec S_ 1 := (fun x v => Host.reduce IntOp.andi x v reducesTo_S16_S_d0 h_S_) main_v156 main_c_61
  let main_v158 : IVec S_ 1 := andi main_v153 main_v157
  let main_v159 : FVec F S32x16 .f32 := Host.absf main_arg33
  let main_cst_62 : FVec F S_ .f32 := constant S_ .f32 0x7F800000#32
  let main_v160 : FVec F S32x16 .f32 := broadcastInDim S32x16 ![] bcast_S_S32x16 main_cst_62
  let main_v161 : IVec S32x16 1 := cmpf .olt main_v159 main_v160
  let main_c_63 : IVec S_ 1 := constantI S_ 1 1#1
  let main_v162 : IVec S_ 1 := (fun x v => Host.reduce IntOp.andi x v reducesTo_S32x16_S_d0_1 h_S_) main_v161 main_c_63
  let main_v163 : IVec S_ 1 := andi main_v158 main_v162
  let main_v164 : FVec F S32 .f32 := Host.absf main_arg34
  let main_cst_64 : FVec F S_ .f32 := constant S_ .f32 0x7F800000#32
  let main_v165 : FVec F S32 .f32 := broadcastInDim S32 ![] bcast_S_S32 main_cst_64
  let main_v166 : IVec S32 1 := cmpf .olt main_v164 main_v165
  let main_c_65 : IVec S_ 1 := constantI S_ 1 1#1
  let main_v167 : IVec S_ 1 := (fun x v => Host.reduce IntOp.andi x v reducesTo_S32_S_d0 h_S_) main_v166 main_c_65
  let main_v168 : IVec S_ 1 := andi main_v163 main_v167
  let main_v169 : FVec F S32 .f32 := Host.absf main_arg35
  let main_cst_66 : FVec F S_ .f32 := constant S_ .f32 0x7F800000#32
  let main_v170 : FVec F S32 .f32 := broadcastInDim S32 ![] bcast_S_S32 main_cst_66
  fn_part10 (F := F) main_arg36 main_arg37 main_arg38 main_arg39 main_arg40 main_arg41 main_arg42 main_arg43 main_arg44 main_arg45 main_arg46 main_arg47 main_v168 main_v169 main_v170

def fn_part8 {F : FTy → Type} [FloatOps F] (main_arg29 : FVec F S16 .f32) (main_arg30 : FVec F S16 .f32) (main_arg31 : FVec F S16x16 .f32) (main_arg32 : FVec F S16 .f32) (main_arg33 : FVec F S32x16 .f32) (main_arg34 : FVec F S32 .f32) (main_arg35 : FVec F S32 .f32) (main_arg36 : FVec F S32 .f32) (main_arg37 : FVec F S24x24 .f32) (main_arg38 : FVec F S32x24 .f32) (main_arg39 : FVec F S32 .f32) (main_arg40 : FVec F S32 .f32) (main_arg41 : FVec F S32 .f32) (main_arg42 : FVec F S32x32 .f32) (main_arg43 : FVec F S32 .f32) (main_arg44 : FVec F S32x32 .f32) (main_arg45 : FVec F S32 .f32) (main_arg46 : FVec F S32x32 .f32) (main_arg47 : FVec F S32 .f32) (main_v133 : IVec S_ 1) (main_v136 : IVec S16 1) : IVec S_ 1 :=
  let main_c_53 : IVec S_ 1 := constantI S_ 1 1#1
  let main_v137 : IVec S_ 1 := (fun x v => Host.reduce IntOp.andi x v reducesTo_S16_S_d0 h_S_) main_v136 main_c_53
  let main_v138 : IVec S_ 1 := andi main_v133 main_v137
  let main_v139 : FVec F S16 .f32 := Host.absf main_arg29
  let main_cst_54 : FVec F S_ .f32 := constant S_ .f32 0x7F800000#32
  let main_v140 : FVec F S16 .f32 := broadcastInDim S16 ![] bcast_S_S16 main_cst_54
  let main_v141 : IVec S16 1 := cmpf .olt main_v139 main_v140
  let main_c_55 : IVec S_ 1 := constantI S_ 1 1#1
  let main_v142 : IVec S_ 1 := (fun x v => Host.reduce IntOp.andi x v reducesTo_S16_S_d0 h_S_) main_v141 main_c_55
  let main_v143 : IVec S_ 1 := andi main_v138 main_v142
  let main_v144 : FVec F S16 .f32 := Host.absf main_arg30
  let main_cst_56 : FVec F S_ .f32 := constant S_ .f32 0x7F800000#32
  let main_v145 : FVec F S16 .f32 := broadcastInDim S16 ![] bcast_S_S16 main_cst_56
  let main_v146 : IVec S16 1 := cmpf .olt main_v144 main_v145
  let main_c_57 : IVec S_ 1 := constantI S_ 1 1#1
  let main_v147 : IVec S_ 1 := (fun x v => Host.reduce IntOp.andi x v reducesTo_S16_S_d0 h_S_) main_v146 main_c_57
  let main_v148 : IVec S_ 1 := andi main_v143 main_v147
  let main_v149 : FVec F S16x16 .f32 := Host.absf main_arg31
  let main_cst_58 : FVec F S_ .f32 := constant S_ .f32 0x7F800000#32
  let main_v150 : FVec F S16x16 .f32 := broadcastInDim S16x16 ![] bcast_S_S16x16 main_cst_58
  let main_v151 : IVec S16x16 1 := cmpf .olt main_v149 main_v150
  let main_c_59 : IVec S_ 1 := constantI S_ 1 1#1
  let main_v152 : IVec S_ 1 := (fun x v => Host.reduce IntOp.andi x v reducesTo_S16x16_S_d0_1 h_S_) main_v151 main_c_59
  let main_v153 : IVec S_ 1 := andi main_v148 main_v152
  fn_part9 (F := F) main_arg32 main_arg33 main_arg34 main_arg35 main_arg36 main_arg37 main_arg38 main_arg39 main_arg40 main_arg41 main_arg42 main_arg43 main_arg44 main_arg45 main_arg46 main_arg47 main_v153

def fn_part7 {F : FTy → Type} [FloatOps F] (main_arg26 : FVec F S16x16 .f32) (main_arg27 : FVec F S16x16 .f32) (main_arg28 : FVec F S16 .f32) (main_arg29 : FVec F S16 .f32) (main_arg30 : FVec F S16 .f32) (main_arg31 : FVec F S16x16 .f32) (main_arg32 : FVec F S16 .f32) (main_arg33 : FVec F S32x16 .f32) (main_arg34 : FVec F S32 .f32) (main_arg35 : FVec F S32 .f32) (main_arg36 : FVec F S32 .f32) (main_arg37 : FVec F S24x24 .f32) (main_arg38 : FVec F S32x24 .f32) (main_arg39 : FVec F S32 .f32) (main_arg40 : FVec F S32 .f32) (main_arg41 : FVec F S32 .f32) (main_arg42 : FVec F S32x32 .f32) (main_arg43 : FVec F S32 .f32) (main_arg44 : FVec F S32x32 .f32) (main_arg45 : FVec F S32 .f32) (main_arg46 : FVec F S32x32 .f32) (main_arg47 : FVec F S32 .f32) (main_v118 : IVec S_ 1) (main_v119 : FVec F S32 .f32) : IVec S_ 1 :=
  let main_cst_46 : FVec F S_ .f32 := constant S_ .f32 0x7F800000#32
  let main_v120 : FVec F S32 .f32 := broadcastInDim S32 ![] bcast_S_S32 main_cst_46
  let main_v121 : IVec S32 1 := cmpf .olt main_v119 main_v120
  let main_c_47 : IVec S_ 1 := constantI S_ 1 1#1
  let main_v122 : IVec S_ 1 := (fun x v => Host.reduce IntOp.andi x v reducesTo_S32_S_d0 h_S_) main_v121 main_c_47
  let main_v123 : IVec S_ 1 := andi main_v118 main_v122
  let main_v124 : FVec F S16x16 .f32 := Host.absf main_arg26
  let main_cst_48 : FVec F S_ .f32 := constant S_ .f32 0x7F800000#32
  let main_v125 : FVec F S16x16 .f32 := broadcastInDim S16x16 ![] bcast_S_S16x16 main_cst_48
  let main_v126 : IVec S16x16 1 := cmpf .olt main_v124 main_v125
  let main_c_49 : IVec S_ 1 := constantI S_ 1 1#1
  let main_v127 : IVec S_ 1 := (fun x v => Host.reduce IntOp.andi x v reducesTo_S16x16_S_d0_1 h_S_) main_v126 main_c_49
  let main_v128 : IVec S_ 1 := andi main_v123 main_v127
  let main_v129 : FVec F S16x16 .f32 := Host.absf main_arg27
  let main_cst_50 : FVec F S_ .f32 := constant S_ .f32 0x7F800000#32
  let main_v130 : FVec F S16x16 .f32 := broadcastInDim S16x16 ![] bcast_S_S16x16 main_cst_50
  let main_v131 : IVec S16x16 1 := cmpf .olt main_v129 main_v130
  let main_c_51 : IVec S_ 1 := constantI S_ 1 1#1
  let main_v132 : IVec S_ 1 := (fun x v => Host.reduce IntOp.andi x v reducesTo_S16x16_S_d0_1 h_S_) main_v131 main_c_51
  let main_v133 : IVec S_ 1 := andi main_v128 main_v132
  let main_v134 : FVec F S16 .f32 := Host.absf main_arg28
  let main_cst_52 : FVec F S_ .f32 := constant S_ .f32 0x7F800000#32
  let main_v135 : FVec F S16 .f32 := broadcastInDim S16 ![] bcast_S_S16 main_cst_52
  let main_v136 : IVec S16 1 := cmpf .olt main_v134 main_v135
  fn_part8 (F := F) main_arg29 main_arg30 main_arg31 main_arg32 main_arg33 main_arg34 main_arg35 main_arg36 main_arg37 main_arg38 main_arg39 main_arg40 main_arg41 main_arg42 main_arg43 main_arg44 main_arg45 main_arg46 main_arg47 main_v133 main_v136

def fn_part6 {F : FTy → Type} [FloatOps F] (main_arg22 : FVec F S32x8 .f32) (main_arg23 : FVec F S32 .f32) (main_arg24 : FVec F S32 .f32) (main_arg25 : FVec F S32 .f32) (main_arg26 : FVec F S16x16 .f32) (main_arg27 : FVec F S16x16 .f32) (main_arg28 : FVec F S16 .f32) (main_arg29 : FVec F S16 .f32) (main_arg30 : FVec F S16 .f32) (main_arg31 : FVec F S16x16 .f32) (main_arg32 : FVec F S16 .f32) (main_arg33 : FVec F S32x16 .f32) (main_arg34 : FVec F S32 .f32) (main_arg35 : FVec F S32 .f32) (main_arg36 : FVec F S32 .f32) (main_arg37 : FVec F S24x24 .f32) (main_arg38 : FVec F S32x24 .f32) (main_arg39 : FVec F S32 .f32) (main_arg40 : FVec F S32 .f32) (main_arg41 : FVec F S32 .f32) (main_arg42 : FVec F S32x32 .f32) (main_arg43 : FVec F S32 .f32) (main_arg44 : FVec F S32x32 .f32) (main_arg45 : FVec F S32 .f32) (main_arg46 : FVec F S32x32 .f32) (main_arg47 : FVec F S32 .f32) (main_v98 : IVec S_ 1) (main_v101 : IVec S8 1) (main_c_39 : IVec S_ 1) : IVec S_ 1 :=
  let main_v102 : IVec S_ 1 := (fun x v => Host.reduce IntOp.andi x v reducesTo_S8_S_d0 h_S_) main_v101 main_c_39
  let main_v103 : IVec S_ 1 := andi main_v98 main_v102
  let main_v104 : FVec F S32x8 .f32 := Host.absf main_arg22
  let main_cst_40 : FVec F S_ .f32 := constant S_ .f32 0x7F800000#32
  let main_v105 : FVec F S32x8 .f32 := broadcastInDim S32x8 ![] bcast_S_S32x8 main_cst_40
  let main_v106 : IVec S32x8 1 := cmpf .olt main_v104 main_v105
  let main_c_41 : IVec S_ 1 := constantI S_ 1 1#1
  let main_v107 : IVec S_ 1 := (fun x v => Host.reduce IntOp.andi x v reducesTo_S32x8_S_d0_1 h_S_) main_v106 main_c_41
  let main_v108 : IVec S_ 1 := andi main_v103 main_v107
  let main_v109 : FVec F S32 .f32 := Host.absf main_arg23
  let main_cst_42 : FVec F S_ .f32 := constant S_ .f32 0x7F800000#32
  let main_v110 : FVec F S32 .f32 := broadcastInDim S32 ![] bcast_S_S32 main_cst_42
  let main_v111 : IVec S32 1 := cmpf .olt main_v109 main_v110
  let main_c_43 : IVec S_ 1 := constantI S_ 1 1#1
  let main_v112 : IVec S_ 1 := (fun x v => Host.reduce IntOp.andi x v reducesTo_S32_S_d0 h_S_) main_v111 main_c_43
  let main_v113 : IVec S_ 1 := andi main_v108 main_v112
  let main_v114 : FVec F S32 .f32 := Host.absf main_arg24
  let main_cst_44 : FVec F S_ .f32 := constant S_ .f32 0x7F800000#32
  let main_v115 : FVec F S32 .f32 := broadcastInDim S32 ![] bcast_S_S32 main_cst_44
  let main_v116 : IVec S32 1 := cmpf .olt main_v114 main_v115
  let main_c_45 : IVec S_ 1 := constantI S_ 1 1#1
  let main_v117 : IVec S_ 1 := (fun x v => Host.reduce IntOp.andi x v reducesTo_S32_S_d0 h_S_) main_v116 main_c_45
  let main_v118 : IVec S_ 1 := andi main_v113 main_v117
  let main_v119 : FVec F S32 .f32 := Host.absf main_arg25
  fn_part7 (F := F) main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_v118 main_v119

def fn_part5 {F : FTy → Type} [FloatOps F] (main_arg19 : FVec F S8 .f32) (main_arg20 : FVec F S8x8 .f32) (main_arg21 : FVec F S8 .f32) (main_arg22 : FVec F S32x8 .f32) (main_arg23 : FVec F S32 .f32) (main_arg24 : FVec F S32 .f32) (main_arg25 : FVec F S32 .f32) (main_arg26 : FVec F S16x16 .f32) (main_arg27 : FVec F S16x16 .f32) (main_arg28 : FVec F S16 .f32) (main_arg29 : FVec F S16 .f32) (main_arg30 : FVec F S16 .f32) (main_arg31 : FVec F S16x16 .f32) (main_arg32 : FVec F S16 .f32) (main_arg33 : FVec F S32x16 .f32) (main_arg34 : FVec F S32 .f32) (main_arg35 : FVec F S32 .f32) (main_arg36 : FVec F S32 .f32) (main_arg37 : FVec F S24x24 .f32) (main_arg38 : FVec F S32x24 .f32) (main_arg39 : FVec F S32 .f32) (main_arg40 : FVec F S32 .f32) (main_arg41 : FVec F S32 .f32) (main_arg42 : FVec F S32x32 .f32) (main_arg43 : FVec F S32 .f32) (main_arg44 : FVec F S32x32 .f32) (main_arg45 : FVec F S32 .f32) (main_arg46 : FVec F S32x32 .f32) (main_arg47 : FVec F S32 .f32) (main_v83 : IVec S_ 1) (main_v84 : FVec F S8 .f32) (main_cst_32 : FVec F S_ .f32) : IVec S_ 1 :=
  let main_v85 : FVec F S8 .f32 := broadcastInDim S8 ![] bcast_S_S8 main_cst_32
  let main_v86 : IVec S8 1 := cmpf .olt main_v84 main_v85
  let main_c_33 : IVec S_ 1 := constantI S_ 1 1#1
  let main_v87 : IVec S_ 1 := (fun x v => Host.reduce IntOp.andi x v reducesTo_S8_S_d0 h_S_) main_v86 main_c_33
  let main_v88 : IVec S_ 1 := andi main_v83 main_v87
  let main_v89 : FVec F S8 .f32 := Host.absf main_arg19
  let main_cst_34 : FVec F S_ .f32 := constant S_ .f32 0x7F800000#32
  let main_v90 : FVec F S8 .f32 := broadcastInDim S8 ![] bcast_S_S8 main_cst_34
  let main_v91 : IVec S8 1 := cmpf .olt main_v89 main_v90
  let main_c_35 : IVec S_ 1 := constantI S_ 1 1#1
  let main_v92 : IVec S_ 1 := (fun x v => Host.reduce IntOp.andi x v reducesTo_S8_S_d0 h_S_) main_v91 main_c_35
  let main_v93 : IVec S_ 1 := andi main_v88 main_v92
  let main_v94 : FVec F S8x8 .f32 := Host.absf main_arg20
  let main_cst_36 : FVec F S_ .f32 := constant S_ .f32 0x7F800000#32
  let main_v95 : FVec F S8x8 .f32 := broadcastInDim S8x8 ![] bcast_S_S8x8 main_cst_36
  let main_v96 : IVec S8x8 1 := cmpf .olt main_v94 main_v95
  let main_c_37 : IVec S_ 1 := constantI S_ 1 1#1
  let main_v97 : IVec S_ 1 := (fun x v => Host.reduce IntOp.andi x v reducesTo_S8x8_S_d0_1 h_S_) main_v96 main_c_37
  let main_v98 : IVec S_ 1 := andi main_v93 main_v97
  let main_v99 : FVec F S8 .f32 := Host.absf main_arg21
  let main_cst_38 : FVec F S_ .f32 := constant S_ .f32 0x7F800000#32
  let main_v100 : FVec F S8 .f32 := broadcastInDim S8 ![] bcast_S_S8 main_cst_38
  let main_v101 : IVec S8 1 := cmpf .olt main_v99 main_v100
  let main_c_39 : IVec S_ 1 := constantI S_ 1 1#1
  fn_part6 (F := F) main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_v98 main_v101 main_c_39

def fn_part4 {F : FTy → Type} [FloatOps F] (main_arg15 : FVec F S16x16 .f32) (main_arg16 : FVec F S8x16 .f32) (main_arg17 : FVec F S8 .f32) (main_arg18 : FVec F S8 .f32) (main_arg19 : FVec F S8 .f32) (main_arg20 : FVec F S8x8 .f32) (main_arg21 : FVec F S8 .f32) (main_arg22 : FVec F S32x8 .f32) (main_arg23 : FVec F S32 .f32) (main_arg24 : FVec F S32 .f32) (main_arg25 : FVec F S32 .f32) (main_arg26 : FVec F S16x16 .f32) (main_arg27 : FVec F S16x16 .f32) (main_arg28 : FVec F S16 .f32) (main_arg29 : FVec F S16 .f32) (main_arg30 : FVec F S16 .f32) (main_arg31 : FVec F S16x16 .f32) (main_arg32 : FVec F S16 .f32) (main_arg33 : FVec F S32x16 .f32) (main_arg34 : FVec F S32 .f32) (main_arg35 : FVec F S32 .f32) (main_arg36 : FVec F S32 .f32) (main_arg37 : FVec F S24x24 .f32) (main_arg38 : FVec F S32x24 .f32) (main_arg39 : FVec F S32 .f32) (main_arg40 : FVec F S32 .f32) (main_arg41 : FVec F S32 .f32) (main_arg42 : FVec F S32x32 .f32) (main_arg43 : FVec F S32 .f32) (main_arg44 : FVec F S32x32 .f32) (main_arg45 : FVec F S32 .f32) (main_arg46 : FVec F S32x32 .f32) (main_arg47 : FVec F S32 .f32) (main_v63 : IVec S_ 1) (main_v67 : IVec S_ 1) : IVec S_ 1 :=
  let main_v68 : IVec S_ 1 := andi main_v63 main_v67
  let main_v69 : FVec F S16x16 .f32 := Host.absf main_arg15
  let main_cst_26 : FVec F S_ .f32 := constant S_ .f32 0x7F800000#32
  let main_v70 : FVec F S16x16 .f32 := broadcastInDim S16x16 ![] bcast_S_S16x16 main_cst_26
  let main_v71 : IVec S16x16 1 := cmpf .olt main_v69 main_v70
  let main_c_27 : IVec S_ 1 := constantI S_ 1 1#1
  let main_v72 : IVec S_ 1 := (fun x v => Host.reduce IntOp.andi x v reducesTo_S16x16_S_d0_1 h_S_) main_v71 main_c_27
  let main_v73 : IVec S_ 1 := andi main_v68 main_v72
  let main_v74 : FVec F S8x16 .f32 := Host.absf main_arg16
  let main_cst_28 : FVec F S_ .f32 := constant S_ .f32 0x7F800000#32
  let main_v75 : FVec F S8x16 .f32 := broadcastInDim S8x16 ![] bcast_S_S8x16 main_cst_28
  let main_v76 : IVec S8x16 1 := cmpf .olt main_v74 main_v75
  let main_c_29 : IVec S_ 1 := constantI S_ 1 1#1
  let main_v77 : IVec S_ 1 := (fun x v => Host.reduce IntOp.andi x v reducesTo_S8x16_S_d0_1 h_S_) main_v76 main_c_29
  let main_v78 : IVec S_ 1 := andi main_v73 main_v77
  let main_v79 : FVec F S8 .f32 := Host.absf main_arg17
  let main_cst_30 : FVec F S_ .f32 := constant S_ .f32 0x7F800000#32
  let main_v80 : FVec F S8 .f32 := broadcastInDim S8 ![] bcast_S_S8 main_cst_30
  let main_v81 : IVec S8 1 := cmpf .olt main_v79 main_v80
  let main_c_31 : IVec S_ 1 := constantI S_ 1 1#1
  let main_v82 : IVec S_ 1 := (fun x v => Host.reduce IntOp.andi x v reducesTo_S8_S_d0 h_S_) main_v81 main_c_31
  let main_v83 : IVec S_ 1 := andi main_v78 main_v82
  let main_v84 : FVec F S8 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_v83 main_v84 main_cst_32

def fn_part3 {F : FTy → Type} [FloatOps F] (main_arg12 : FVec F S8 .f32) (main_arg13 : FVec F S8 .f32) (main_arg14 : FVec F S8 .f32) (main_arg15 : FVec F S16x16 .f32) (main_arg16 : FVec F S8x16 .f32) (main_arg17 : FVec F S8 .f32) (main_arg18 : FVec F S8 .f32) (main_arg19 : FVec F S8 .f32) (main_arg20 : FVec F S8x8 .f32) (main_arg21 : FVec F S8 .f32) (main_arg22 : FVec F S32x8 .f32) (main_arg23 : FVec F S32 .f32) (main_arg24 : FVec F S32 .f32) (main_arg25 : FVec F S32 .f32) (main_arg26 : FVec F S16x16 .f32) (main_arg27 : FVec F S16x16 .f32) (main_arg28 : FVec F S16 .f32) (main_arg29 : FVec F S16 .f32) (main_arg30 : FVec F S16 .f32) (main_arg31 : FVec F S16x16 .f32) (main_arg32 : FVec F S16 .f32) (main_arg33 : FVec F S32x16 .f32) (main_arg34 : FVec F S32 .f32) (main_arg35 : FVec F S32 .f32) (main_arg36 : FVec F S32 .f32) (main_arg37 : FVec F S24x24 .f32) (main_arg38 : FVec F S32x24 .f32) (main_arg39 : FVec F S32 .f32) (main_arg40 : FVec F S32 .f32) (main_arg41 : FVec F S32 .f32) (main_arg42 : FVec F S32x32 .f32) (main_arg43 : FVec F S32 .f32) (main_arg44 : FVec F S32x32 .f32) (main_arg45 : FVec F S32 .f32) (main_arg46 : FVec F S32x32 .f32) (main_arg47 : FVec F S32 .f32) (main_v48 : IVec S_ 1) (main_v49 : FVec F S8x16 .f32) (main_v50 : FVec F S8x16 .f32) : IVec S_ 1 :=
  let main_v51 : IVec S8x16 1 := cmpf .olt main_v49 main_v50
  let main_c_19 : IVec S_ 1 := constantI S_ 1 1#1
  let main_v52 : IVec S_ 1 := (fun x v => Host.reduce IntOp.andi x v reducesTo_S8x16_S_d0_1 h_S_) main_v51 main_c_19
  let main_v53 : IVec S_ 1 := andi main_v48 main_v52
  let main_v54 : FVec F S8 .f32 := Host.absf main_arg12
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S8 .f32 := Host.absf main_arg13
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S8 .f32 := Host.absf main_arg14
  let main_cst_24 : FVec F S_ .f32 := constant S_ .f32 0x7F800000#32
  let main_v65 : FVec F S8 .f32 := broadcastInDim S8 ![] bcast_S_S8 main_cst_24
  let main_v66 : IVec S8 1 := cmpf .olt main_v64 main_v65
  let main_c_25 : IVec S_ 1 := constantI S_ 1 1#1
  let main_v67 : IVec S_ 1 := (fun x v => Host.reduce IntOp.andi x v reducesTo_S8_S_d0 h_S_) main_v66 main_c_25
  fn_part4 (F := F) main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_v63 main_v67

def fn_part2 {F : FTy → Type} [FloatOps F] (main_arg8 : FVec F S16 .f32) (main_arg9 : FVec F S16 .f32) (main_arg10 : FVec F S16 .f32) (main_arg11 : FVec F S8x16 .f32) (main_arg12 : FVec F S8 .f32) (main_arg13 : FVec F S8 .f32) (main_arg14 : FVec F S8 .f32) (main_arg15 : FVec F S16x16 .f32) (main_arg16 : FVec F S8x16 .f32) (main_arg17 : FVec F S8 .f32) (main_arg18 : FVec F S8 .f32) (main_arg19 : FVec F S8 .f32) (main_arg20 : FVec F S8x8 .f32) (main_arg21 : FVec F S8 .f32) (main_arg22 : FVec F S32x8 .f32) (main_arg23 : FVec F S32 .f32) (main_arg24 : FVec F S32 .f32) (main_arg25 : FVec F S32 .f32) (main_arg26 : FVec F S16x16 .f32) (main_arg27 : FVec F S16x16 .f32) (main_arg28 : FVec F S16 .f32) (main_arg29 : FVec F S16 .f32) (main_arg30 : FVec F S16 .f32) (main_arg31 : FVec F S16x16 .f32) (main_arg32 : FVec F S16 .f32) (main_arg33 : FVec F S32x16 .f32) (main_arg34 : FVec F S32 .f32) (main_arg35 : FVec F S32 .f32) (main_arg36 : FVec F S32 .f32) (main_arg37 : FVec F S24x24 .f32) (main_arg38 : FVec F S32x24 .f32) (main_arg39 : FVec F S32 .f32) (main_arg40 : FVec F S32 .f32) (main_arg41 : FVec F S32 .f32) (main_arg42 : FVec F S32x32 .f32) (main_arg43 : FVec F S32 .f32) (main_arg44 : FVec F S32x32 .f32) (main_arg45 : FVec F S32 .f32) (main_arg46 : FVec F S32x32 .f32) (main_arg47 : FVec F S32 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S8x16 .f32 := Host.absf main_arg11
  let main_cst_18 : FVec F S_ .f32 := constant S_ .f32 0x7F800000#32
  let main_v50 : FVec F S8x16 .f32 := broadcastInDim S8x16 ![] bcast_S_S8x16 main_cst_18
  fn_part3 (F := F) main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_v48 main_v49 main_v50

def fn_part1 {F : FTy → Type} [FloatOps F] (main_arg5 : FVec F S8x8 .f32) (main_arg6 : FVec F S8 .f32) (main_arg7 : FVec F S16x20 .f32) (main_arg8 : FVec F S16 .f32) (main_arg9 : FVec F S16 .f32) (main_arg10 : FVec F S16 .f32) (main_arg11 : FVec F S8x16 .f32) (main_arg12 : FVec F S8 .f32) (main_arg13 : FVec F S8 .f32) (main_arg14 : FVec F S8 .f32) (main_arg15 : FVec F S16x16 .f32) (main_arg16 : FVec F S8x16 .f32) (main_arg17 : FVec F S8 .f32) (main_arg18 : FVec F S8 .f32) (main_arg19 : FVec F S8 .f32) (main_arg20 : FVec F S8x8 .f32) (main_arg21 : FVec F S8 .f32) (main_arg22 : FVec F S32x8 .f32) (main_arg23 : FVec F S32 .f32) (main_arg24 : FVec F S32 .f32) (main_arg25 : FVec F S32 .f32) (main_arg26 : FVec F S16x16 .f32) (main_arg27 : FVec F S16x16 .f32) (main_arg28 : FVec F S16 .f32) (main_arg29 : FVec F S16 .f32) (main_arg30 : FVec F S16 .f32) (main_arg31 : FVec F S16x16 .f32) (main_arg32 : FVec F S16 .f32) (main_arg33 : FVec F S32x16 .f32) (main_arg34 : FVec F S32 .f32) (main_arg35 : FVec F S32 .f32) (main_arg36 : FVec F S32 .f32) (main_arg37 : FVec F S24x24 .f32) (main_arg38 : FVec F S32x24 .f32) (main_arg39 : FVec F S32 .f32) (main_arg40 : FVec F S32 .f32) (main_arg41 : FVec F S32 .f32) (main_arg42 : FVec F S32x32 .f32) (main_arg43 : FVec F S32 .f32) (main_arg44 : FVec F S32x32 .f32) (main_arg45 : FVec F S32 .f32) (main_arg46 : FVec F S32x32 .f32) (main_arg47 : FVec F S32 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x8 .f32 := Host.absf main_arg5
  let main_cst_6 : FVec F S_ .f32 := constant S_ .f32 0x7F800000#32
  let main_v20 : FVec F S8x8 .f32 := broadcastInDim S8x8 ![] bcast_S_S8x8 main_cst_6
  let main_v21 : IVec S8x8 1 := cmpf .olt main_v19 main_v20
  let main_c_7 : IVec S_ 1 := constantI S_ 1 1#1
  let main_v22 : IVec S_ 1 := (fun x v => Host.reduce IntOp.andi x v reducesTo_S8x8_S_d0_1 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S16x20 .f32 := Host.absf main_arg7
  let main_cst_10 : FVec F S_ .f32 := constant S_ .f32 0x7F800000#32
  let main_v30 : FVec F S16x20 .f32 := broadcastInDim S16x20 ![] bcast_S_S16x20 main_cst_10
  let main_v31 : IVec S16x20 1 := cmpf .olt main_v29 main_v30
  let main_c_11 : IVec S_ 1 := constantI S_ 1 1#1
  let main_v32 : IVec S_ 1 := (fun x v => Host.reduce IntOp.andi x v reducesTo_S16x20_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_v33

def fn {F : FTy → Type} [FloatOps F] (main_arg0 : FVec F S2x65536x6 .f32) (main_arg1 : FVec F S2x131072x6 .f32) (main_arg2 : IVec S2x65536x16 32) (main_arg3 : FVec F S8x6 .f32) (main_arg4 : FVec F S8 .f32) (main_arg5 : FVec F S8x8 .f32) (main_arg6 : FVec F S8 .f32) (main_arg7 : FVec F S16x20 .f32) (main_arg8 : FVec F S16 .f32) (main_arg9 : FVec F S16 .f32) (main_arg10 : FVec F S16 .f32) (main_arg11 : FVec F S8x16 .f32) (main_arg12 : FVec F S8 .f32) (main_arg13 : FVec F S8 .f32) (main_arg14 : FVec F S8 .f32) (main_arg15 : FVec F S16x16 .f32) (main_arg16 : FVec F S8x16 .f32) (main_arg17 : FVec F S8 .f32) (main_arg18 : FVec F S8 .f32) (main_arg19 : FVec F S8 .f32) (main_arg20 : FVec F S8x8 .f32) (main_arg21 : FVec F S8 .f32) (main_arg22 : FVec F S32x8 .f32) (main_arg23 : FVec F S32 .f32) (main_arg24 : FVec F S32 .f32) (main_arg25 : FVec F S32 .f32) (main_arg26 : FVec F S16x16 .f32) (main_arg27 : FVec F S16x16 .f32) (main_arg28 : FVec F S16 .f32) (main_arg29 : FVec F S16 .f32) (main_arg30 : FVec F S16 .f32) (main_arg31 : FVec F S16x16 .f32) (main_arg32 : FVec F S16 .f32) (main_arg33 : FVec F S32x16 .f32) (main_arg34 : FVec F S32 .f32) (main_arg35 : FVec F S32 .f32) (main_arg36 : FVec F S32 .f32) (main_arg37 : FVec F S24x24 .f32) (main_arg38 : FVec F S32x24 .f32) (main_arg39 : FVec F S32 .f32) (main_arg40 : FVec F S32 .f32) (main_arg41 : FVec F S32 .f32) (main_arg42 : FVec F S32x32 .f32) (main_arg43 : FVec F S32 .f32) (main_arg44 : FVec F S32x32 .f32) (main_arg45 : FVec F S32 .f32) (main_arg46 : FVec F S32x32 .f32) (main_arg47 : FVec F S32 .f32) : IVec S_ 1 :=
  let main_v0 : FVec F S2x65536x6 .f32 := Host.absf main_arg0
  let main_cst : FVec F S_ .f32 := constant S_ .f32 0x7F800000#32
  let main_v1 : FVec F S2x65536x6 .f32 := broadcastInDim S2x65536x6 ![] bcast_S_S2x65536x6 main_cst
  let main_v2 : IVec S2x65536x6 1 := cmpf .olt main_v0 main_v1
  let main_c : IVec S_ 1 := constantI S_ 1 1#1
  let main_v3 : IVec S_ 1 := (fun x v => Host.reduce IntOp.andi x v reducesTo_S2x65536x6_S_d0_1_2 h_S_) main_v2 main_c
  let main_v4 : FVec F S2x131072x6 .f32 := Host.absf main_arg1
  let main_cst_0 : FVec F S_ .f32 := constant S_ .f32 0x7F800000#32
  let main_v5 : FVec F S2x131072x6 .f32 := broadcastInDim S2x131072x6 ![] bcast_S_S2x131072x6 main_cst_0
  let main_v6 : IVec S2x131072x6 1 := cmpf .olt main_v4 main_v5
  let main_c_1 : IVec S_ 1 := constantI S_ 1 1#1
  let main_v7 : IVec S_ 1 := (fun x v => Host.reduce IntOp.andi x v reducesTo_S2x131072x6_S_d0_1_2 h_S_) main_v6 main_c_1
  let main_v8 : IVec S_ 1 := andi main_v3 main_v7
  let main_v9 : FVec F S8x6 .f32 := Host.absf main_arg3
  let main_cst_2 : FVec F S_ .f32 := constant S_ .f32 0x7F800000#32
  let main_v10 : FVec F S8x6 .f32 := broadcastInDim S8x6 ![] bcast_S_S8x6 main_cst_2
  let main_v11 : IVec S8x6 1 := cmpf .olt main_v9 main_v10
  let main_c_3 : IVec S_ 1 := constantI S_ 1 1#1
  let main_v12 : IVec S_ 1 := (fun x v => Host.reduce IntOp.andi x v reducesTo_S8x6_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_arg41 main_arg42 main_arg43 main_arg44 main_arg45 main_arg46 main_arg47 main_v13 main_v16
-- ==== Kernel.lean ====
abbrev S2x65536x6 : Shape := ⟨3, ![2, 65536, 6]⟩
abbrev S2x131072x6 : Shape := ⟨3, ![2, 131072, 6]⟩
abbrev S2x65536x16 : Shape := ⟨3, ![2, 65536, 16]⟩
abbrev S8x6 : Shape := ⟨2, ![8, 6]⟩
abbrev S8 : Shape := ⟨1, ![8]⟩
abbrev S8x8 : Shape := ⟨2, ![8, 8]⟩
abbrev S16x20 : Shape := ⟨2, ![16, 20]⟩
abbrev S16 : Shape := ⟨1, ![16]⟩
abbrev S8x16 : Shape := ⟨2, ![8, 16]⟩
abbrev S16x16 : Shape := ⟨2, ![16, 16]⟩
abbrev S32x8 : Shape := ⟨2, ![32, 8]⟩
abbrev S32 : Shape := ⟨1, ![32]⟩
abbrev S32x16 : Shape := ⟨2, ![32, 16]⟩
abbrev S24x24 : Shape := ⟨2, ![24, 24]⟩
abbrev S32x24 : Shape := ⟨2, ![32, 24]⟩
abbrev S32x32 : Shape := ⟨2, ![32, 32]⟩
abbrev S_ : Shape := ⟨0, ![]⟩
abbrev S2x65536x16x1 : Shape := ⟨4, ![2, 65536, 16, 1]⟩
abbrev S2x65536x16x6 : Shape := ⟨4, ![2, 65536, 16, 6]⟩
abbrev S2x32x65536 : Shape := ⟨3, ![2, 32, 65536]⟩
abbrev S1x512x16x6 : Shape := ⟨4, ![1, 512, 16, 6]⟩
abbrev S1x512x6 : Shape := ⟨3, ![1, 512, 6]⟩
abbrev S1x32x512 : Shape := ⟨3, ![1, 32, 512]⟩
abbrev S512x16x6 : Shape := ⟨3, ![512, 16, 6]⟩
abbrev S512x6 : Shape := ⟨2, ![512, 6]⟩
abbrev S6x16x512 : Shape := ⟨3, ![6, 16, 512]⟩
abbrev S6x512 : Shape := ⟨2, ![6, 512]⟩
abbrev S6x1x512 : Shape := ⟨3, ![6, 1, 512]⟩
abbrev S3x16x512 : Shape := ⟨3, ![3, 16, 512]⟩
abbrev S16x512 : Shape := ⟨2, ![16, 512]⟩
abbrev S1x16x512 : Shape := ⟨3, ![1, 16, 512]⟩
abbrev S20x16x512 : Shape := ⟨3, ![20, 16, 512]⟩
abbrev S20x8192 : Shape := ⟨2, ![20, 8192]⟩
abbrev S16x8192 : Shape := ⟨2, ![16, 8192]⟩
abbrev S16x16x512 : Shape := ⟨3, ![16, 16, 512]⟩
abbrev S16x1x1 : Shape := ⟨3, ![16, 1, 1]⟩
abbrev S8x8192 : Shape := ⟨2, ![8, 8192]⟩
abbrev S8x16x512 : Shape := ⟨3, ![8, 16, 512]⟩
abbrev S8x1x1 : Shape := ⟨3, ![8, 1, 1]⟩
abbrev S8x512 : Shape := ⟨2, ![8, 512]⟩
abbrev S8x1 : Shape := ⟨2, ![8, 1]⟩
abbrev S8x1x512 : Shape := ⟨3, ![8, 1, 512]⟩
abbrev S16x1x512 : Shape := ⟨3, ![16, 1, 512]⟩
abbrev S32x512 : Shape := ⟨2, ![32, 512]⟩
abbrev S32x1 : Shape := ⟨2, ![32, 1]⟩
abbrev S16x1 : Shape := ⟨2, ![16, 1]⟩
abbrev S24x16x512 : Shape := ⟨3, ![24, 16, 512]⟩
abbrev S24x8192 : Shape := ⟨2, ![24, 8192]⟩
abbrev S24x512 : Shape := ⟨2, ![24, 512]⟩
abbrev S24x1x512 : Shape := ⟨3, ![24, 1, 512]⟩
abbrev S2x65536x32 : Shape := ⟨3, ![2, 65536, 32]⟩

abbrev nBuf : Space → Nat
  | .hbm => 60
  | .vmem => 51
  | .smem => 0
  | _ => 0

abbrev bufTy : (tb : Table) → Fin (tcTables nBuf tb) → BufTy
  | .hbm, ⟨0, _⟩ => ⟨S2x65536x6, .f32⟩
  | .hbm, ⟨1, _⟩ => ⟨S2x131072x6, .f32⟩
  | .hbm, ⟨2, _⟩ => ⟨S2x65536x16, .i32⟩
  | .hbm, ⟨3, _⟩ => ⟨S8x6, .f32⟩
  | .hbm, ⟨4, _⟩ => ⟨S8, .f32⟩
  | .hbm, ⟨5, _⟩ => ⟨S8x8, .f32⟩
  | .hbm, ⟨6, _⟩ => ⟨S8, .f32⟩
  | .hbm, ⟨7, _⟩ => ⟨S16x20, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S8x16, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S16x16, .f32⟩
  | .hbm, ⟨16, _⟩ => ⟨S8x16, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S8x8, .f32⟩
  | .hbm, ⟨21, _⟩ => ⟨S8, .f32⟩
  | .hbm, ⟨22, _⟩ => ⟨S32x8, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S16x16, .f32⟩
  | .hbm, ⟨27, _⟩ => ⟨S16x16, .f32⟩
  | .hbm, ⟨28, _⟩ => ⟨S16, .f32⟩
  | .hbm, ⟨29, _⟩ => ⟨S16, .f32⟩
  | .hbm, ⟨30, _⟩ => ⟨S16, .f32⟩
  | .hbm, ⟨31, _⟩ => ⟨S16x16, .f32⟩
  | .hbm, ⟨32, _⟩ => ⟨S16, .f32⟩
  | .hbm, ⟨33, _⟩ => ⟨S32x16, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S24x24, .f32⟩
  | .hbm, ⟨38, _⟩ => ⟨S32x24, .f32⟩
  | .hbm, ⟨39, _⟩ => ⟨S32, .f32⟩
  | .hbm, ⟨40, _⟩ => ⟨S32, .f32⟩
  | .hbm, ⟨41, _⟩ => ⟨S32, .f32⟩
  | .hbm, ⟨42, _⟩ => ⟨S32x32, .f32⟩
  | .hbm, ⟨43, _⟩ => ⟨S32, .f32⟩
  | .hbm, ⟨44, _⟩ => ⟨S32x32, .f32⟩
  | .hbm, ⟨45, _⟩ => ⟨S32, .f32⟩
  | .hbm, ⟨46, _⟩ => ⟨S32x32, .f32⟩
  | .hbm, ⟨47, _⟩ => ⟨S32, .f32⟩
  | .hbm, ⟨48, _⟩ => ⟨S2x131072x6, .bf16⟩
  | .hbm, ⟨49, _⟩ => ⟨S_, .i32⟩
  | .hbm, ⟨50, _⟩ => ⟨S2x65536x16, .i32⟩
  | .hbm, ⟨51, _⟩ => ⟨S2x65536x16, .i1⟩
  | .hbm, ⟨52, _⟩ => ⟨S_, .i32⟩
  | .hbm, ⟨53, _⟩ => ⟨S2x65536x16, .i32⟩
  | .hbm, ⟨54, _⟩ => ⟨S2x65536x16, .i32⟩
  | .hbm, ⟨55, _⟩ => ⟨S2x65536x16, .i32⟩
  | .hbm, ⟨56, _⟩ => ⟨S2x65536x16x1, .i32⟩
  | .hbm, ⟨57, _⟩ => ⟨S2x65536x16x6, .bf16⟩
  | .hbm, ⟨58, _⟩ => ⟨S2x32x65536, .f32⟩
  | .hbm, ⟨59, _⟩ => ⟨S2x65536x32, .f32⟩
  | .local _ .vmem, ⟨0, _⟩ => ⟨S1x512x16x6, .bf16⟩
  | .local _ .vmem, ⟨1, _⟩ => ⟨S1x512x16x6, .bf16⟩
  | .local _ .vmem, ⟨2, _⟩ => ⟨S1x512x6, .f32⟩
  | .local _ .vmem, ⟨3, _⟩ => ⟨S1x512x6, .f32⟩
  | .local _ .vmem, ⟨4, _⟩ => ⟨S8x6, .f32⟩
  | .local _ .vmem, ⟨5, _⟩ => ⟨S8, .f32⟩
  | .local _ .vmem, ⟨6, _⟩ => ⟨S8x8, .f32⟩
  | .local _ .vmem, ⟨7, _⟩ => ⟨S8, .f32⟩
  | .local _ .vmem, ⟨8, _⟩ => ⟨S16x20, .f32⟩
  | .local _ .vmem, ⟨9, _⟩ => ⟨S16, .f32⟩
  | .local _ .vmem, ⟨10, _⟩ => ⟨S16, .f32⟩
  | .local _ .vmem, ⟨11, _⟩ => ⟨S16, .f32⟩
  | .local _ .vmem, ⟨12, _⟩ => ⟨S8x16, .f32⟩
  | .local _ .vmem, ⟨13, _⟩ => ⟨S8, .f32⟩
  | .local _ .vmem, ⟨14, _⟩ => ⟨S8, .f32⟩
  | .local _ .vmem, ⟨15, _⟩ => ⟨S8, .f32⟩
  | .local _ .vmem, ⟨16, _⟩ => ⟨S16x16, .f32⟩
  | .local _ .vmem, ⟨17, _⟩ => ⟨S8x16, .f32⟩
  | .local _ .vmem, ⟨18, _⟩ => ⟨S8, .f32⟩
  | .local _ .vmem, ⟨19, _⟩ => ⟨S8, .f32⟩
  | .local _ .vmem, ⟨20, _⟩ => ⟨S8, .f32⟩
  | .local _ .vmem, ⟨21, _⟩ => ⟨S8x8, .f32⟩
  | .local _ .vmem, ⟨22, _⟩ => ⟨S8, .f32⟩
  | .local _ .vmem, ⟨23, _⟩ => ⟨S32x8, .f32⟩
  | .local _ .vmem, ⟨24, _⟩ => ⟨S32, .f32⟩
  | .local _ .vmem, ⟨25, _⟩ => ⟨S32, .f32⟩
  | .local _ .vmem, ⟨26, _⟩ => ⟨S32, .f32⟩
  | .local _ .vmem, ⟨27, _⟩ => ⟨S16x16, .f32⟩
  | .local _ .vmem, ⟨28, _⟩ => ⟨S16x16, .f32⟩
  | .local _ .vmem, ⟨29, _⟩ => ⟨S16, .f32⟩
  | .local _ .vmem, ⟨30, _⟩ => ⟨S16, .f32⟩
  | .local _ .vmem, ⟨31, _⟩ => ⟨S16, .f32⟩
  | .local _ .vmem, ⟨32, _⟩ => ⟨S16x16, .f32⟩
  | .local _ .vmem, ⟨33, _⟩ => ⟨S16, .f32⟩
  | .local _ .vmem, ⟨34, _⟩ => ⟨S32x16, .f32⟩
  | .local _ .vmem, ⟨35, _⟩ => ⟨S32, .f32⟩
  | .local _ .vmem, ⟨36, _⟩ => ⟨S32, .f32⟩
  | .local _ .vmem, ⟨37, _⟩ => ⟨S32, .f32⟩
  | .local _ .vmem, ⟨38, _⟩ => ⟨S24x24, .f32⟩
  | .local _ .vmem, ⟨39, _⟩ => ⟨S32x24, .f32⟩
  | .local _ .vmem, ⟨40, _⟩ => ⟨S32, .f32⟩
  | .local _ .vmem, ⟨41, _⟩ => ⟨S32, .f32⟩
  | .local _ .vmem, ⟨42, _⟩ => ⟨S32, .f32⟩
  | .local _ .vmem, ⟨43, _⟩ => ⟨S32x32, .f32⟩
  | .local _ .vmem, ⟨44, _⟩ => ⟨S32, .f32⟩
  | .local _ .vmem, ⟨45, _⟩ => ⟨S32x32, .f32⟩
  | .local _ .vmem, ⟨46, _⟩ => ⟨S32, .f32⟩
  | .local _ .vmem, ⟨47, _⟩ => ⟨S32x32, .f32⟩
  | .local _ .vmem, ⟨48, _⟩ => ⟨S32, .f32⟩
  | .local _ .vmem, ⟨49, _⟩ => ⟨S1x32x512, .f32⟩
  | .local _ .vmem, ⟨50, _⟩ => ⟨S1x32x512, .f32⟩
  | _, _ => ⟨S2x65536x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_v0 : Ref sig .tc := ⟨.hbm, 48, rfl⟩
abbrev main_c : Ref sig .tc := ⟨.hbm, 49, rfl⟩
abbrev main_v1 : Ref sig .tc := ⟨.hbm, 50, rfl⟩
abbrev main_v2 : Ref sig .tc := ⟨.hbm, 51, rfl⟩
abbrev main_c_0 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg29_0 : Ref sig .tc := ⟨.vmem, 31, rfl⟩
abbrev cc0_stg30_0 : Ref sig .tc := ⟨.vmem, 32, rfl⟩
abbrev cc0_stg31_0 : Ref sig .tc := ⟨.vmem, 33, rfl⟩
abbrev cc0_stg32_0 : Ref sig .tc := ⟨.vmem, 34, rfl⟩
abbrev cc0_stg33_0 : Ref sig .tc := ⟨.vmem, 35, rfl⟩
abbrev cc0_stg34_0 : Ref sig .tc := ⟨.vmem, 36, rfl⟩
abbrev cc0_stg35_0 : Ref sig .tc := ⟨.vmem, 37, rfl⟩
abbrev cc0_stg36_0 : Ref sig .tc := ⟨.vmem, 38, rfl⟩
abbrev cc0_stg37_0 : Ref sig .tc := ⟨.vmem, 39, rfl⟩
abbrev cc0_stg38_0 : Ref sig .tc := ⟨.vmem, 40, rfl⟩
abbrev cc0_stg39_0 : Ref sig .tc := ⟨.vmem, 41, rfl⟩
abbrev cc0_stg40_0 : Ref sig .tc := ⟨.vmem, 42, rfl⟩
abbrev cc0_stg41_0 : Ref sig .tc := ⟨.vmem, 43, rfl⟩
abbrev cc0_stg42_0 : Ref sig .tc := ⟨.vmem, 44, rfl⟩
abbrev cc0_stg43_0 : Ref sig .tc := ⟨.vmem, 45, rfl⟩
abbrev cc0_stg44_0 : Ref sig .tc := ⟨.vmem, 46, rfl⟩
abbrev cc0_stg45_0 : Ref sig .tc := ⟨.vmem, 47, rfl⟩
abbrev cc0_stg46_0 : Ref sig .tc := ⟨.vmem, 48, rfl⟩
abbrev cc0_stg47_0 : Ref sig .tc := ⟨.vmem, 49, rfl⟩
abbrev cc0_stg47_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem29_0 : DmaSem sig := 31
abbrev cc0_sem30_0 : DmaSem sig := 32
abbrev cc0_sem31_0 : DmaSem sig := 33
abbrev cc0_sem32_0 : DmaSem sig := 34
abbrev cc0_sem33_0 : DmaSem sig := 35
abbrev cc0_sem34_0 : DmaSem sig := 36
abbrev cc0_sem35_0 : DmaSem sig := 37
abbrev cc0_sem36_0 : DmaSem sig := 38
abbrev cc0_sem37_0 : DmaSem sig := 39
abbrev cc0_sem38_0 : DmaSem sig := 40
abbrev cc0_sem39_0 : DmaSem sig := 41
abbrev cc0_sem40_0 : DmaSem sig := 42
abbrev cc0_sem41_0 : DmaSem sig := 43
abbrev cc0_sem42_0 : DmaSem sig := 44
abbrev cc0_sem43_0 : DmaSem sig := 45
abbrev cc0_sem44_0 : DmaSem sig := 46
abbrev cc0_sem45_0 : DmaSem sig := 47
abbrev cc0_sem46_0 : DmaSem sig := 48
abbrev cc0_sem47_0 : DmaSem sig := 49
abbrev cc0_sem47_1 : DmaSem sig := 50

abbrev nD : Nat := 1
abbrev τ : Topo := Topo.v7x

variable {F : FTy → Type} [FloatOps F]

abbrev grid0 : Pipeline.Grid := ⟨2, ![2, 128], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_23 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_24 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_28 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_29 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_30 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_32 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_34 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_35 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_36 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_39 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_40 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_41 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_42 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_43 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_44 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_45 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_46 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_47 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x16x6 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S16x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S8x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S8x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S32x8 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S32 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S32 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S32 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S16x16 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S16x16 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S16 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 1 → Memref sig .tc .vmem S16 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 1 → Memref sig .tc .vmem S16 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false, false]

abbrev stage0_30 : Fin 1 → Memref sig .tc .vmem S16x16 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false, false]

abbrev stage0_31 : Fin 1 → Memref sig .tc .vmem S16 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false, false]

abbrev stage0_32 : Fin 1 → Memref sig .tc .vmem S32x16 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false, false]

abbrev stage0_33 : Fin 1 → Memref sig .tc .vmem S32 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false, false]

abbrev stage0_34 : Fin 1 → Memref sig .tc .vmem S32 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false, false]

abbrev stage0_35 : Fin 1 → Memref sig .tc .vmem S32 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false, false]

abbrev stage0_36 : Fin 1 → Memref sig .tc .vmem S24x24 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false, false]

abbrev stage0_37 : Fin 1 → Memref sig .tc .vmem S32x24 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false, false]

abbrev stage0_38 : Fin 1 → Memref sig .tc .vmem S32 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false, false]

abbrev stage0_39 : Fin 1 → Memref sig .tc .vmem S32 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
abbrev reads0_39 : Fin grid0.rank → Bool := ![false, false]

abbrev stage0_40 : Fin 1 → Memref sig .tc .vmem S32 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))
abbrev reads0_40 : Fin grid0.rank → Bool := ![false, false]

abbrev stage0_41 : Fin 1 → Memref sig .tc .vmem S32x32 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))
abbrev reads0_41 : Fin grid0.rank → Bool := ![false, false]

abbrev stage0_42 : Fin 1 → Memref sig .tc .vmem S32 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))
abbrev reads0_42 : Fin grid0.rank → Bool := ![false, false]

abbrev stage0_43 : Fin 1 → Memref sig .tc .vmem S32x32 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))
abbrev reads0_43 : Fin grid0.rank → Bool := ![false, false]

abbrev stage0_44 : Fin 1 → Memref sig .tc .vmem S32 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))
abbrev reads0_44 : Fin grid0.rank → Bool := ![false, false]

abbrev stage0_45 : Fin 1 → Memref sig .tc .vmem S32x32 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))
abbrev reads0_45 : Fin grid0.rank → Bool := ![false, false]

abbrev stage0_46 : Fin 1 → Memref sig .tc .vmem S32 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))
abbrev reads0_46 : Fin grid0.rank → Bool := ![false, false]

abbrev stage0_47 : Fin 2 → Memref sig .tc .vmem S1x32x512 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true, true]

class Facts₀ : Prop where
  bitsLt_bf16_f32 : FTy.bits .bf16 < FTy.bits .f32
  bcast_S_S2x65536x16 : S_.BroadcastsInDim S2x65536x16 (![] : Fin 0 → Fin S2x65536x16.rank)
  bcast_S2x65536x16_S2x65536x16x1_0_1_2 : S2x65536x16.BroadcastsInDim S2x65536x16x1 (![0, 1, 2] : Fin 3 → Fin S2x65536x16x1.rank)
  inb_S8x6_S8x6_0_0 : ∀ a, (![0, 0] : Fin 2 → Nat) a + S8x6.size a ≤ S8x6.size a
  h_S8x6 : 0 < S8x6.numel
  inb_S8_S8_0 : ∀ a, (![0] : Fin 1 → Nat) a + S8.size a ≤ S8.size a
  h_S8 : 0 < S8.numel
  inb_S8x8_S8x8_0_0 : ∀ a, (![0, 0] : Fin 2 → Nat) a + S8x8.size a ≤ S8x8.size a
  h_S8x8 : 0 < S8x8.numel
  inb_S16x20_S16x20_0_0 : ∀ a, (![0, 0] : Fin 2 → Nat) a + S16x20.size a ≤ S16x20.size a
  h_S16x20 : 0 < S16x20.numel
  inb_S16_S16_0 : ∀ a, (![0] : Fin 1 → Nat) a + S16.size a ≤ S16.size a
  h_S16 : 0 < S16.numel
  inb_S8x16_S8x16_0_0 : ∀ a, (![0, 0] : Fin 2 → Nat) a + S8x16.size a ≤ S8x16.size a
  h_S8x16 : 0 < S8x16.numel
  inb_S16x16_S16x16_0_0 : ∀ a, (![0, 0] : Fin 2 → Nat) a + S16x16.size a ≤ S16x16.size a
  h_S16x16 : 0 < S16x16.numel
  inb_S32x8_S32x8_0_0 : ∀ a, (![0, 0] : Fin 2 → Nat) a + S32x8.size a ≤ S32x8.size a
  h_S32x8 : 0 < S32x8.numel
  inb_S32_S32_0 : ∀ a, (![0] : Fin 1 → Nat) a + S32.size a ≤ S32.size a
  h_S32 : 0 < S32.numel
  inb_S32x16_S32x16_0_0 : ∀ a, (![0, 0] : Fin 2 → Nat) a + S32x16.size a ≤ S32x16.size a
  h_S32x16 : 0 < S32x16.numel
  inb_S24x24_S24x24_0_0 : ∀ a, (![0, 0] : Fin 2 → Nat) a + S24x24.size a ≤ S24x24.size a
  h_S24x24 : 0 < S24x24.numel
  inb_S32x24_S32x24_0_0 : ∀ a, (![0, 0] : Fin 2 → Nat) a + S32x24.size a ≤ S32x24.size a
  h_S32x24 : 0 < S32x24.numel
  inb_S32x32_S32x32_0_0 : ∀ a, (![0, 0] : Fin 2 → Nat) a + S32x32.size a ≤ S32x32.size a
  h_S32x32 : 0 < S32x32.numel
  inb_S1x512x16x6_S1x512x16x6_0_0_0_0 : ∀ a, (![0, 0, 0, 0] : Fin 4 → Nat) a + S1x512x16x6.size a ≤ S1x512x16x6.size a
  h_S1x512x16x6 : 0 < S1x512x16x6.numel
  shapeCasts_S1x512x16x6_S512x16x6 : S1x512x16x6.ShapeCasts S512x16x6
  inb_S1x512x6_S1x512x6_0_0_0 : ∀ a, (![0, 0, 0] : Fin 3 → Nat) a + S1x512x6.size a ≤ S1x512x6.size a
  h_S1x512x6 : 0 < S1x512x6.numel
  shapeCasts_S1x512x6_S512x6 : S1x512x6.ShapeCasts S512x6
  transposes_S512x16x6_p2_1_0_S6x16x512 : S512x16x6.Transposes [2, 1, 0] S6x16x512
  transposes_S512x6_p1_0_S6x512 : S512x6.Transposes [1, 0] S6x512
  shapeCasts_S6x512_S6x1x512 : S6x512.ShapeCasts S6x1x512
  shapeCasts_S6x1x512_S6x1x512 : S6x1x512.ShapeCasts S6x1x512
  broadcasts_S6x1x512_S6x16x512 : S6x1x512.Broadcasts S6x16x512
  slices_S6x16x512_o0_0_0_S3x16x512 : S6x16x512.Slices ![0, 0, 0] S3x16x512
  reduces_S3x16x512_S16x512 : S3x16x512.Reduces [0] S16x512
  shapeCasts_S16x512_S1x16x512 : S16x512.ShapeCasts S1x16x512
  slices_S6x16x512_o3_0_0_S3x16x512 : S6x16x512.Slices ![3, 0, 0] S3x16x512
  concatenates_S6x16x512_S6x16x512_S6x16x512_S1x16x512_S1x16x512_S20x16x512_d0 : Shape.Concatenates [S6x16x512, S6x16x512, S6x16x512, S1x16x512, S1x16x512] S20x16x512 0
  shapeCasts_S20x16x512_S20x8192 : S20x16x512.ShapeCasts S20x8192
  shapeCasts_S16x8192_S16x16x512 : S16x8192.ShapeCasts S16x16x512
  shapeCasts_S16_S16x1x1 : S16.ShapeCasts S16x1x1
  broadcasts_S16x1x1_S16x16x512 : S16x1x1.Broadcasts S16x16x512
  shapeCasts_S16x16x512_S16x8192 : S16x16x512.ShapeCasts S16x8192
  shapeCasts_S8x8192_S8x16x512 : S8x8192.ShapeCasts S8x16x512
  shapeCasts_S8_S8x1x1 : S8.ShapeCasts S8x1x1
  broadcasts_S8x1x1_S8x16x512 : S8x1x1.Broadcasts S8x16x512
  shapeCasts_S8_S8x1 : S8.ShapeCasts S8x1
  broadcasts_S8x1_S8x512 : S8x1.Broadcasts S8x512
  shapeCasts_S8x512_S8x1x512 : S8x512.ShapeCasts S8x1x512
  shapeCasts_S8x1x512_S8x1x512 : S8x1x512.ShapeCasts S8x1x512
  broadcasts_S8x1x512_S8x16x512 : S8x1x512.Broadcasts S8x16x512
  concatenates_S8x16x512_S8x16x512_S16x16x512_d0 : Shape.Concatenates [S8x16x512, S8x16x512] S16x16x512 0
  reduces_S16x16x512_S16x512 : S16x16x512.Reduces [1] S16x512
  shapeCasts_S16x512_S16x1x512 : S16x512.ShapeCasts S16x1x512
  broadcasts_S16x1x512_S16x16x512 : S16x1x512.Broadcasts S16x16x512
  shapeCasts_S32_S32x1 : S32.ShapeCasts S32x1
  broadcasts_S32x1_S32x512 : S32x1.Broadcasts S32x512
  shapeCasts_S16_S16x1 : S16.ShapeCasts S16x1
  broadcasts_S16x1_S16x512 : S16x1.Broadcasts S16x512
  shapeCasts_S16x1x512_S16x1x512 : S16x1x512.ShapeCasts S16x1x512
  concatenates_S8x16x512_S16x16x512_S24x16x512_d0 : Shape.Concatenates [S8x16x512, S16x16x512] S24x16x512 0
  shapeCasts_S24x16x512_S24x8192 : S24x16x512.ShapeCasts S24x8192
  shapeCasts_S24x8192_S24x16x512 : S24x8192.ShapeCasts S24x16x512
  reduces_S24x16x512_S24x512 : S24x16x512.Reduces [1] S24x512
  shapeCasts_S24x512_S24x1x512 : S24x512.ShapeCasts S24x1x512
  broadcasts_S24x1x512_S24x16x512 : S24x1x512.Broadcasts S24x16x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S1x32x512 : S32x512.ShapeCasts S1x32x512
  transposes_S2x32x65536_S2x65536x32_0_2_1 : S2x32x65536.Transposes [0, 2, 1] S2x65536x32
  gather_S2x131072x6_S2x65536x16x1_S2x65536x16x6_3_1_0_0_1_3_116_wf : GatherDims.WF S2x131072x6 S2x65536x16x1 S2x65536x16x6 [3] [1] [0] [1] [0] 3 ![1, 1, 6]
  dot_S16x20_S20x8192_S16x8192_1_0_0_1_n_n_wf : DotDims.WF S16x20 S20x8192 S16x8192 [1] [0] [0] [1] [] []
  dot_S8x16_S16x8192_S8x8192_1_0_0_1_n_n_wf : DotDims.WF S8x16 S16x8192 S8x8192 [1] [0] [0] [1] [] []
  dot_S8x6_S6x512_S8x512_1_0_0_1_n_n_wf : DotDims.WF S8x6 S6x512 S8x512 [1] [0] [0] [1] [] []
  dot_S8x8_S8x512_S8x512_1_0_0_1_n_n_wf : DotDims.WF S8x8 S8x512 S8x512 [1] [0] [0] [1] [] []
  dot_S16x16_S16x8192_S16x8192_1_0_0_1_n_n_wf : DotDims.WF S16x16 S16x8192 S16x8192 [1] [0] [0] [1] [] []
  dot_S8x16_S16x512_S8x512_1_0_0_1_n_n_wf : DotDims.WF S8x16 S16x512 S8x512 [1] [0] [0] [1] [] []
  dot_S32x8_S8x512_S32x512_1_0_0_1_n_n_wf : DotDims.WF S32x8 S8x512 S32x512 [1] [0] [0] [1] [] []
  dot_S16x16_S16x512_S16x512_1_0_0_1_n_n_wf : DotDims.WF S16x16 S16x512 S16x512 [1] [0] [0] [1] [] []
  dot_S32x16_S16x512_S32x512_1_0_0_1_n_n_wf : DotDims.WF S32x16 S16x512 S32x512 [1] [0] [0] [1] [] []
  dot_S24x24_S24x8192_S24x8192_1_0_0_1_n_n_wf : DotDims.WF S24x24 S24x8192 S24x8192 [1] [0] [0] [1] [] []
  dot_S32x24_S24x512_S32x512_1_0_0_1_n_n_wf : DotDims.WF S32x24 S24x512 S32x512 [1] [0] [0] [1] [] []
  dot_S32x32_S32x512_S32x512_1_0_0_1_n_n_wf : DotDims.WF S32x32 S32x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x16x6.size a ≤ S2x65536x16x6.size a
  hwx0_0 : ∀ i : grid0.Coords, EltTy.bits .bf16 = 32 ∨ (Rect.block (s := S2x65536x16x6) S1x512x16x6.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x6.size a ≤ S2x65536x6.size a
  hwx0_1 : ∀ i : grid0.Coords, EltTy.bits .f32 = 32 ∨ (Rect.block (s := S2x65536x6) S1x512x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x6.size a ≤ S8x6.size a
  hwx0_2 : ∀ i : grid0.Coords, EltTy.bits .f32 = 32 ∨ (Rect.block (s := S8x6) S8x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8.size a ≤ S8.size a
  hwx0_3 : ∀ i : grid0.Coords, EltTy.bits .f32 = 32 ∨ (Rect.block (s := S8) S8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x8.size a ≤ S8x8.size a
  hwx0_4 : ∀ i : grid0.Coords, EltTy.bits .f32 = 32 ∨ (Rect.block (s := S8x8) S8x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8.size a ≤ S8.size a
  hwx0_5 : ∀ i : grid0.Coords, EltTy.bits .f32 = 32 ∨ (Rect.block (s := S8) S8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x20.size a ≤ S16x20.size a
  hwx0_6 : ∀ i : grid0.Coords, EltTy.bits .f32 = 32 ∨ (Rect.block (s := S16x20) S16x20.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16.size a ≤ S16.size a
  hwx0_7 : ∀ i : grid0.Coords, EltTy.bits .f32 = 32 ∨ (Rect.block (s := S16) S16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16.size a ≤ S16.size a
  hwx0_8 : ∀ i : grid0.Coords, EltTy.bits .f32 = 32 ∨ (Rect.block (s := S16) S16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16.size a ≤ S16.size a
  hwx0_9 : ∀ i : grid0.Coords, EltTy.bits .f32 = 32 ∨ (Rect.block (s := S16) S16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x16.size a ≤ S8x16.size a
  hwx0_10 : ∀ i : grid0.Coords, EltTy.bits .f32 = 32 ∨ (Rect.block (s := S8x16) S8x16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8.size a ≤ S8.size a
  hwx0_11 : ∀ i : grid0.Coords, EltTy.bits .f32 = 32 ∨ (Rect.block (s := S8) S8.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S8.size a ≤ S8.size a
  hwx0_12 : ∀ i : grid0.Coords, EltTy.bits .f32 = 32 ∨ (Rect.block (s := S8) S8.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S8.size a ≤ S8.size a
  hwx0_13 : ∀ i : grid0.Coords, EltTy.bits .f32 = 32 ∨ (Rect.block (s := S8) S8.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S16x16.size a ≤ S16x16.size a
  hwx0_14 : ∀ i : grid0.Coords, EltTy.bits .f32 = 32 ∨ (Rect.block (s := S16x16) S16x16.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S8x16.size a ≤ S8x16.size a
  hwx0_15 : ∀ i : grid0.Coords, EltTy.bits .f32 = 32 ∨ (Rect.block (s := S8x16) S8x16.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S8.size a ≤ S8.size a
  hwx0_16 : ∀ i : grid0.Coords, EltTy.bits .f32 = 32 ∨ (Rect.block (s := S8) S8.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S8.size a ≤ S8.size a
  hwx0_17 : ∀ i : grid0.Coords, EltTy.bits .f32 = 32 ∨ (Rect.block (s := S8) S8.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S8.size a ≤ S8.size a
  hwx0_18 : ∀ i : grid0.Coords, EltTy.bits .f32 = 32 ∨ (Rect.block (s := S8) S8.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S8x8.size a ≤ S8x8.size a
  hwx0_19 : ∀ i : grid0.Coords, EltTy.bits .f32 = 32 ∨ (Rect.block (s := S8x8) S8x8.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S8.size a ≤ S8.size a
  hwx0_20 : ∀ i : grid0.Coords, EltTy.bits .f32 = 32 ∨ (Rect.block (s := S8) S8.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S32x8.size a ≤ S32x8.size a
  hwx0_21 : ∀ i : grid0.Coords, EltTy.bits .f32 = 32 ∨ (Rect.block (s := S32x8) S32x8.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S32.size a ≤ S32.size a
  hwx0_22 : ∀ i : grid0.Coords, EltTy.bits .f32 = 32 ∨ (Rect.block (s := S32) S32.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S32.size a ≤ S32.size a
  hwx0_23 : ∀ i : grid0.Coords, EltTy.bits .f32 = 32 ∨ (Rect.block (s := S32) S32.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S32.size a ≤ S32.size a
  hwx0_24 : ∀ i : grid0.Coords, EltTy.bits .f32 = 32 ∨ (Rect.block (s := S32) S32.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S16x16.size a ≤ S16x16.size a
  hwx0_25 : ∀ i : grid0.Coords, EltTy.bits .f32 = 32 ∨ (Rect.block (s := S16x16) S16x16.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S16x16.size a ≤ S16x16.size a
  hwx0_26 : ∀ i : grid0.Coords, EltTy.bits .f32 = 32 ∨ (Rect.block (s := S16x16) S16x16.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S16.size a ≤ S16.size a
  hwx0_27 : ∀ i : grid0.Coords, EltTy.bits .f32 = 32 ∨ (Rect.block (s := S16) S16.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S16.size a ≤ S16.size a
  hwx0_28 : ∀ i : grid0.Coords, EltTy.bits .f32 = 32 ∨ (Rect.block (s := S16) S16.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S16.size a ≤ S16.size a
  hwx0_29 : ∀ i : grid0.Coords, EltTy.bits .f32 = 32 ∨ (Rect.block (s := S16) S16.size (cc0_transform_29 i) (hinb0_29 i)).WholeWords (EltTy.packing .f32)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S16x16.size a ≤ S16x16.size a
  hwx0_30 : ∀ i : grid0.Coords, EltTy.bits .f32 = 32 ∨ (Rect.block (s := S16x16) S16x16.size (cc0_transform_30 i) (hinb0_30 i)).WholeWords (EltTy.packing .f32)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S16.size a ≤ S16.size a
  hwx0_31 : ∀ i : grid0.Coords, EltTy.bits .f32 = 32 ∨ (Rect.block (s := S16) S16.size (cc0_transform_31 i) (hinb0_31 i)).WholeWords (EltTy.packing .f32)
  hstage0_32 : ∀ j, (stage0_32 j).IsWhole
  nbuf0_32 : grid0.bufCount reads0_32 true = 1
  hreads0_32 : ∀ i i' : grid0.Coords, (∀ a, reads0_32 a = true → i a = i' a) → cc0_transform_32 i = cc0_transform_32 i'
  hinb0_32 : ∀ (i : grid0.Coords) a, (cc0_transform_32 i a + 1) * S32x16.size a ≤ S32x16.size a
  hwx0_32 : ∀ i : grid0.Coords, EltTy.bits .f32 = 32 ∨ (Rect.block (s := S32x16) S32x16.size (cc0_transform_32 i) (hinb0_32 i)).WholeWords (EltTy.packing .f32)
  hstage0_33 : ∀ j, (stage0_33 j).IsWhole
  nbuf0_33 : grid0.bufCount reads0_33 true = 1
  hreads0_33 : ∀ i i' : grid0.Coords, (∀ a, reads0_33 a = true → i a = i' a) → cc0_transform_33 i = cc0_transform_33 i'
  hinb0_33 : ∀ (i : grid0.Coords) a, (cc0_transform_33 i a + 1) * S32.size a ≤ S32.size a
  hwx0_33 : ∀ i : grid0.Coords, EltTy.bits .f32 = 32 ∨ (Rect.block (s := S32) S32.size (cc0_transform_33 i) (hinb0_33 i)).WholeWords (EltTy.packing .f32)
  hstage0_34 : ∀ j, (stage0_34 j).IsWhole
  nbuf0_34 : grid0.bufCount reads0_34 true = 1
  hreads0_34 : ∀ i i' : grid0.Coords, (∀ a, reads0_34 a = true → i a = i' a) → cc0_transform_34 i = cc0_transform_34 i'
  hinb0_34 : ∀ (i : grid0.Coords) a, (cc0_transform_34 i a + 1) * S32.size a ≤ S32.size a
  hwx0_34 : ∀ i : grid0.Coords, EltTy.bits .f32 = 32 ∨ (Rect.block (s := S32) S32.size (cc0_transform_34 i) (hinb0_34 i)).WholeWords (EltTy.packing .f32)
  hstage0_35 : ∀ j, (stage0_35 j).IsWhole
  nbuf0_35 : grid0.bufCount reads0_35 true = 1
  hreads0_35 : ∀ i i' : grid0.Coords, (∀ a, reads0_35 a = true → i a = i' a) → cc0_transform_35 i = cc0_transform_35 i'
  hinb0_35 : ∀ (i : grid0.Coords) a, (cc0_transform_35 i a + 1) * S32.size a ≤ S32.size a
  hwx0_35 : ∀ i : grid0.Coords, EltTy.bits .f32 = 32 ∨ (Rect.block (s := S32) S32.size (cc0_transform_35 i) (hinb0_35 i)).WholeWords (EltTy.packing .f32)
  hstage0_36 : ∀ j, (stage0_36 j).IsWhole
  nbuf0_36 : grid0.bufCount reads0_36 true = 1
  hreads0_36 : ∀ i i' : grid0.Coords, (∀ a, reads0_36 a = true → i a = i' a) → cc0_transform_36 i = cc0_transform_36 i'
  hinb0_36 : ∀ (i : grid0.Coords) a, (cc0_transform_36 i a + 1) * S24x24.size a ≤ S24x24.size a
  hwx0_36 : ∀ i : grid0.Coords, EltTy.bits .f32 = 32 ∨ (Rect.block (s := S24x24) S24x24.size (cc0_transform_36 i) (hinb0_36 i)).WholeWords (EltTy.packing .f32)
  hstage0_37 : ∀ j, (stage0_37 j).IsWhole
  nbuf0_37 : grid0.bufCount reads0_37 true = 1
  hreads0_37 : ∀ i i' : grid0.Coords, (∀ a, reads0_37 a = true → i a = i' a) → cc0_transform_37 i = cc0_transform_37 i'
  hinb0_37 : ∀ (i : grid0.Coords) a, (cc0_transform_37 i a + 1) * S32x24.size a ≤ S32x24.size a
  hwx0_37 : ∀ i : grid0.Coords, EltTy.bits .f32 = 32 ∨ (Rect.block (s := S32x24) S32x24.size (cc0_transform_37 i) (hinb0_37 i)).WholeWords (EltTy.packing .f32)
  hstage0_38 : ∀ j, (stage0_38 j).IsWhole
  nbuf0_38 : grid0.bufCount reads0_38 true = 1
  hreads0_38 : ∀ i i' : grid0.Coords, (∀ a, reads0_38 a = true → i a = i' a) → cc0_transform_38 i = cc0_transform_38 i'
  hinb0_38 : ∀ (i : grid0.Coords) a, (cc0_transform_38 i a + 1) * S32.size a ≤ S32.size a
  hwx0_38 : ∀ i : grid0.Coords, EltTy.bits .f32 = 32 ∨ (Rect.block (s := S32) S32.size (cc0_transform_38 i) (hinb0_38 i)).WholeWords (EltTy.packing .f32)
  hstage0_39 : ∀ j, (stage0_39 j).IsWhole
  nbuf0_39 : grid0.bufCount reads0_39 true = 1
  hreads0_39 : ∀ i i' : grid0.Coords, (∀ a, reads0_39 a = true → i a = i' a) → cc0_transform_39 i = cc0_transform_39 i'
  hinb0_39 : ∀ (i : grid0.Coords) a, (cc0_transform_39 i a + 1) * S32.size a ≤ S32.size a
  hwx0_39 : ∀ i : grid0.Coords, EltTy.bits .f32 = 32 ∨ (Rect.block (s := S32) S32.size (cc0_transform_39 i) (hinb0_39 i)).WholeWords (EltTy.packing .f32)
  hstage0_40 : ∀ j, (stage0_40 j).IsWhole
  nbuf0_40 : grid0.bufCount reads0_40 true = 1
  hreads0_40 : ∀ i i' : grid0.Coords, (∀ a, reads0_40 a = true → i a = i' a) → cc0_transform_40 i = cc0_transform_40 i'
  hinb0_40 : ∀ (i : grid0.Coords) a, (cc0_transform_40 i a + 1) * S32.size a ≤ S32.size a
  hwx0_40 : ∀ i : grid0.Coords, EltTy.bits .f32 = 32 ∨ (Rect.block (s := S32) S32.size (cc0_transform_40 i) (hinb0_40 i)).WholeWords (EltTy.packing .f32)
  hstage0_41 : ∀ j, (stage0_41 j).IsWhole
  nbuf0_41 : grid0.bufCount reads0_41 true = 1
  hreads0_41 : ∀ i i' : grid0.Coords, (∀ a, reads0_41 a = true → i a = i' a) → cc0_transform_41 i = cc0_transform_41 i'
  hinb0_41 : ∀ (i : grid0.Coords) a, (cc0_transform_41 i a + 1) * S32x32.size a ≤ S32x32.size a
  hwx0_41 : ∀ i : grid0.Coords, EltTy.bits .f32 = 32 ∨ (Rect.block (s := S32x32) S32x32.size (cc0_transform_41 i) (hinb0_41 i)).WholeWords (EltTy.packing .f32)
  hstage0_42 : ∀ j, (stage0_42 j).IsWhole
  nbuf0_42 : grid0.bufCount reads0_42 true = 1
  hreads0_42 : ∀ i i' : grid0.Coords, (∀ a, reads0_42 a = true → i a = i' a) → cc0_transform_42 i = cc0_transform_42 i'
  hinb0_42 : ∀ (i : grid0.Coords) a, (cc0_transform_42 i a + 1) * S32.size a ≤ S32.size a
  hwx0_42 : ∀ i : grid0.Coords, EltTy.bits .f32 = 32 ∨ (Rect.block (s := S32) S32.size (cc0_transform_42 i) (hinb0_42 i)).WholeWords (EltTy.packing .f32)
  hstage0_43 : ∀ j, (stage0_43 j).IsWhole
  nbuf0_43 : grid0.bufCount reads0_43 true = 1
  hreads0_43 : ∀ i i' : grid0.Coords, (∀ a, reads0_43 a = true → i a = i' a) → cc0_transform_43 i = cc0_transform_43 i'
  hinb0_43 : ∀ (i : grid0.Coords) a, (cc0_transform_43 i a + 1) * S32x32.size a ≤ S32x32.size a
  hwx0_43 : ∀ i : grid0.Coords, EltTy.bits .f32 = 32 ∨ (Rect.block (s := S32x32) S32x32.size (cc0_transform_43 i) (hinb0_43 i)).WholeWords (EltTy.packing .f32)
  hstage0_44 : ∀ j, (stage0_44 j).IsWhole
  nbuf0_44 : grid0.bufCount reads0_44 true = 1
  hreads0_44 : ∀ i i' : grid0.Coords, (∀ a, reads0_44 a = true → i a = i' a) → cc0_transform_44 i = cc0_transform_44 i'
  hinb0_44 : ∀ (i : grid0.Coords) a, (cc0_transform_44 i a + 1) * S32.size a ≤ S32.size a
  hwx0_44 : ∀ i : grid0.Coords, EltTy.bits .f32 = 32 ∨ (Rect.block (s := S32) S32.size (cc0_transform_44 i) (hinb0_44 i)).WholeWords (EltTy.packing .f32)
  hstage0_45 : ∀ j, (stage0_45 j).IsWhole
  nbuf0_45 : grid0.bufCount reads0_45 true = 1
  hreads0_45 : ∀ i i' : grid0.Coords, (∀ a, reads0_45 a = true → i a = i' a) → cc0_transform_45 i = cc0_transform_45 i'
  hinb0_45 : ∀ (i : grid0.Coords) a, (cc0_transform_45 i a + 1) * S32x32.size a ≤ S32x32.size a
  hwx0_45 : ∀ i : grid0.Coords, EltTy.bits .f32 = 32 ∨ (Rect.block (s := S32x32) S32x32.size (cc0_transform_45 i) (hinb0_45 i)).WholeWords (EltTy.packing .f32)
  hstage0_46 : ∀ j, (stage0_46 j).IsWhole
  nbuf0_46 : grid0.bufCount reads0_46 true = 1
  hreads0_46 : ∀ i i' : grid0.Coords, (∀ a, reads0_46 a = true → i a = i' a) → cc0_transform_46 i = cc0_transform_46 i'
  hinb0_46 : ∀ (i : grid0.Coords) a, (cc0_transform_46 i a + 1) * S32.size a ≤ S32.size a
  hwx0_46 : ∀ i : grid0.Coords, EltTy.bits .f32 = 32 ∨ (Rect.block (s := S32) S32.size (cc0_transform_46 i) (hinb0_46 i)).WholeWords (EltTy.packing .f32)
  hstage0_47 : ∀ j, (stage0_47 j).IsWhole
  nbuf0_47 : grid0.bufCount reads0_47 false = 2
  hreads0_47 : ∀ i i' : grid0.Coords, (∀ a, reads0_47 a = true → i a = i' a) → cc0_transform_47 i = cc0_transform_47 i'
  hinb0_47 : ∀ (i : grid0.Coords) a, (cc0_transform_47 i a + 1) * S1x32x512.size a ≤ S2x32x65536.size a
  hwx0_47 : ∀ i : grid0.Coords, EltTy.bits .f32 = 32 ∨ (Rect.block (s := S2x32x65536) S1x32x512.size (cc0_transform_47 i) (hinb0_47 i)).WholeWords (EltTy.packing .f32)

variable [Facts₀]

def gather_S2x131072x6_S2x65536x16x1_S2x65536x16x6_3_1_0_0_1_3_116 : GatherDims S2x131072x6 S2x65536x16x1 S2x65536x16x6 where
  offsetDims := [3]
  collapsedSliceDims := [1]
  operandBatchingDims := [0]
  startIndicesBatchingDims := [0]
  startIndexMap := [1]
  indexVectorDim := 3
  sliceSizes := ![1, 1, 6]
  wf := gather_S2x131072x6_S2x65536x16x1_S2x65536x16x6_3_1_0_0_1_3_116_wf
def dot_S16x20_S20x8192_S16x8192_1_0_0_1_n_n : DotDims S16x20 S20x8192 S16x8192 where
  lhsContracting := [1]
  rhsContracting := [0]
  lhsNonContracting := [0]
  rhsNonContracting := [1]
  lhsBatch := []
  rhsBatch := []
  wf := dot_S16x20_S20x8192_S16x8192_1_0_0_1_n_n_wf
def dot_S8x16_S16x8192_S8x8192_1_0_0_1_n_n : DotDims S8x16 S16x8192 S8x8192 where
  lhsContracting := [1]
  rhsContracting := [0]
  lhsNonContracting := [0]
  rhsNonContracting := [1]
  lhsBatch := []
  rhsBatch := []
  wf := dot_S8x16_S16x8192_S8x8192_1_0_0_1_n_n_wf
def dot_S8x6_S6x512_S8x512_1_0_0_1_n_n : DotDims S8x6 S6x512 S8x512 where
  lhsContracting := [1]
  rhsContracting := [0]
  lhsNonContracting := [0]
  rhsNonContracting := [1]
  lhsBatch := []
  rhsBatch := []
  wf := dot_S8x6_S6x512_S8x512_1_0_0_1_n_n_wf
def dot_S8x8_S8x512_S8x512_1_0_0_1_n_n : DotDims S8x8 S8x512 S8x512 where
  lhsContracting := [1]
  rhsContracting := [0]
  lhsNonContracting := [0]
  rhsNonContracting := [1]
  lhsBatch := []
  rhsBatch := []
  wf := dot_S8x8_S8x512_S8x512_1_0_0_1_n_n_wf
def dot_S16x16_S16x8192_S16x8192_1_0_0_1_n_n : DotDims S16x16 S16x8192 S16x8192 where
  lhsContracting := [1]
  rhsContracting := [0]
  lhsNonContracting := [0]
  rhsNonContracting := [1]
  lhsBatch := []
  rhsBatch := []
  wf := dot_S16x16_S16x8192_S16x8192_1_0_0_1_n_n_wf
def dot_S8x16_S16x512_S8x512_1_0_0_1_n_n : DotDims S8x16 S16x512 S8x512 where
  lhsContracting := [1]
  rhsContracting := [0]
  lhsNonContracting := [0]
  rhsNonContracting := [1]
  lhsBatch := []
  rhsBatch := []
  wf := dot_S8x16_S16x512_S8x512_1_0_0_1_n_n_wf
def dot_S32x8_S8x512_S32x512_1_0_0_1_n_n : DotDims S32x8 S8x512 S32x512 where
  lhsContracting := [1]
  rhsContracting := [0]
  lhsNonContracting := [0]
  rhsNonContracting := [1]
  lhsBatch := []
  rhsBatch := []
  wf := dot_S32x8_S8x512_S32x512_1_0_0_1_n_n_wf
def dot_S16x16_S16x512_S16x512_1_0_0_1_n_n : DotDims S16x16 S16x512 S16x512 where
  lhsContracting := [1]
  rhsContracting := [0]
  lhsNonContracting := [0]
  rhsNonContracting := [1]
  lhsBatch := []
  rhsBatch := []
  wf := dot_S16x16_S16x512_S16x512_1_0_0_1_n_n_wf
def dot_S32x16_S16x512_S32x512_1_0_0_1_n_n : DotDims S32x16 S16x512 S32x512 where
  lhsContracting := [1]
  rhsContracting := [0]
  lhsNonContracting := [0]
  rhsNonContracting := [1]
  lhsBatch := []
  rhsBatch := []
  wf := dot_S32x16_S16x512_S32x512_1_0_0_1_n_n_wf
def dot_S24x24_S24x8192_S24x8192_1_0_0_1_n_n : DotDims S24x24 S24x8192 S24x8192 where
  lhsContracting := [1]
  rhsContracting := [0]
  lhsNonContracting := [0]
  rhsNonContracting := [1]
  lhsBatch := []
  rhsBatch := []
  wf := dot_S24x24_S24x8192_S24x8192_1_0_0_1_n_n_wf
def dot_S32x24_S24x512_S32x512_1_0_0_1_n_n : DotDims S32x24 S24x512 S32x512 where
  lhsContracting := [1]
  rhsContracting := [0]
  lhsNonContracting := [0]
  rhsNonContracting := [1]
  lhsBatch := []
  rhsBatch := []
  wf := dot_S32x24_S24x512_S32x512_1_0_0_1_n_n_wf
def dot_S32x32_S32x512_S32x512_1_0_0_1_n_n : DotDims S32x32 S32x512 S32x512 where
  lhsContracting := [1]
  rhsContracting := [0]
  lhsNonContracting := [0]
  rhsNonContracting := [1]
  lhsBatch := []
  rhsBatch := []
  wf := dot_S32x32_S32x512_S32x512_1_0_0_1_n_n_wf

abbrev win0_0 : Pipeline.Window sig grid0 :=
  Pipeline.Window.ofSpec (Memref.whole main_v7) S1x512x16x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x6.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S8x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S16x20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S8x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S8.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S16x16.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg16) S8x16.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg17) S8.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg18) S8.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg19) S8.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg20) S8x8.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg21) S8.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg22) S32x8.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg23) S32.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg24) S32.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg25) S32.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg26) S16x16.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg27) S16x16.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_arg28) S16.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_arg29) S16.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_arg30) S16.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_arg31) S16x16.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_arg32) S16.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_arg33) S32x16.size cc0_transform_32 reads0_32 false true 1 stage0_32 sem0_32
    hrank0 hreads0_32 hinb0_32 nbuf0_32 (Memref.isWhole_whole _) hwx0_32 hstage0_32

abbrev win0_33 : Pipeline.Window sig grid0 :=
  Pipeline.Window.ofSpec (Memref.whole main_arg34) S32.size cc0_transform_33 reads0_33 false true 1 stage0_33 sem0_33
    hrank0 hreads0_33 hinb0_33 nbuf0_33 (Memref.isWhole_whole _) hwx0_33 hstage0_33

abbrev win0_34 : Pipeline.Window sig grid0 :=
  Pipeline.Window.ofSpec (Memref.whole main_arg35) S32.size cc0_transform_34 reads0_34 false true 1 stage0_34 sem0_34
    hrank0 hreads0_34 hinb0_34 nbuf0_34 (Memref.isWhole_whole _) hwx0_34 hstage0_34

abbrev win0_35 : Pipeline.Window sig grid0 :=
  Pipeline.Window.ofSpec (Memref.whole main_arg36) S32.size cc0_transform_35 reads0_35 false true 1 stage0_35 sem0_35
    hrank0 hreads0_35 hinb0_35 nbuf0_35 (Memref.isWhole_whole _) hwx0_35 hstage0_35

abbrev win0_36 : Pipeline.Window sig grid0 :=
  Pipeline.Window.ofSpec (Memref.whole main_arg37) S24x24.size cc0_transform_36 reads0_36 false true 1 stage0_36 sem0_36
    hrank0 hreads0_36 hinb0_36 nbuf0_36 (Memref.isWhole_whole _) hwx0_36 hstage0_36

abbrev win0_37 : Pipeline.Window sig grid0 :=
  Pipeline.Window.ofSpec (Memref.whole main_arg38) S32x24.size cc0_transform_37 reads0_37 false true 1 stage0_37 sem0_37
    hrank0 hreads0_37 hinb0_37 nbuf0_37 (Memref.isWhole_whole _) hwx0_37 hstage0_37

abbrev win0_38 : Pipeline.Window sig grid0 :=
  Pipeline.Window.ofSpec (Memref.whole main_arg39) S32.size cc0_transform_38 reads0_38 false true 1 stage0_38 sem0_38
    hrank0 hreads0_38 hinb0_38 nbuf0_38 (Memref.isWhole_whole _) hwx0_38 hstage0_38

abbrev win0_39 : Pipeline.Window sig grid0 :=
  Pipeline.Window.ofSpec (Memref.whole main_arg40) S32.size cc0_transform_39 reads0_39 false true 1 stage0_39 sem0_39
    hrank0 hreads0_39 hinb0_39 nbuf0_39 (Memref.isWhole_whole _) hwx0_39 hstage0_39

abbrev win0_40 : Pipeline.Window sig grid0 :=
  Pipeline.Window.ofSpec (Memref.whole main_arg41) S32.size cc0_transform_40 reads0_40 false true 1 stage0_40 sem0_40
    hrank0 hreads0_40 hinb0_40 nbuf0_40 (Memref.isWhole_whole _) hwx0_40 hstage0_40

abbrev win0_41 : Pipeline.Window sig grid0 :=
  Pipeline.Window.ofSpec (Memref.whole main_arg42) S32x32.size cc0_transform_41 reads0_41 false true 1 stage0_41 sem0_41
    hrank0 hreads0_41 hinb0_41 nbuf0_41 (Memref.isWhole_whole _) hwx0_41 hstage0_41

abbrev win0_42 : Pipeline.Window sig grid0 :=
  Pipeline.Window.ofSpec (Memref.whole main_arg43) S32.size cc0_transform_42 reads0_42 false true 1 stage0_42 sem0_42
    hrank0 hreads0_42 hinb0_42 nbuf0_42 (Memref.isWhole_whole _) hwx0_42 hstage0_42

abbrev win0_43 : Pipeline.Window sig grid0 :=
  Pipeline.Window.ofSpec (Memref.whole main_arg44) S32x32.size cc0_transform_43 reads0_43 false true 1 stage0_43 sem0_43
    hrank0 hreads0_43 hinb0_43 nbuf0_43 (Memref.isWhole_whole _) hwx0_43 hstage0_43

abbrev win0_44 : Pipeline.Window sig grid0 :=
  Pipeline.Window.ofSpec (Memref.whole main_arg45) S32.size cc0_transform_44 reads0_44 false true 1 stage0_44 sem0_44
    hrank0 hreads0_44 hinb0_44 nbuf0_44 (Memref.isWhole_whole _) hwx0_44 hstage0_44

abbrev win0_45 : Pipeline.Window sig grid0 :=
  Pipeline.Window.ofSpec (Memref.whole main_arg46) S32x32.size cc0_transform_45 reads0_45 false true 1 stage0_45 sem0_45
    hrank0 hreads0_45 hinb0_45 nbuf0_45 (Memref.isWhole_whole _) hwx0_45 hstage0_45

abbrev win0_46 : Pipeline.Window sig grid0 :=
  Pipeline.Window.ofSpec (Memref.whole main_arg47) S32.size cc0_transform_46 reads0_46 false true 1 stage0_46 sem0_46
    hrank0 hreads0_46 hinb0_46 nbuf0_46 (Memref.isWhole_whole _) hwx0_46 hstage0_46

abbrev win0_47 : Pipeline.Window sig grid0 :=
  Pipeline.Window.ofSpec (Memref.whole main_v8) S1x32x512.size cc0_transform_47 reads0_47 true false 2 stage0_47 sem0_47
    hrank0 hreads0_47 hinb0_47 nbuf0_47 (Memref.isWhole_whole _) hwx0_47 hstage0_47

abbrev win0 : Fin 48 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | 36 => win0_36 | 37 => win0_37 | 38 => win0_38 | 39 => win0_39 | 40 => win0_40 | 41 => win0_41 | 42 => win0_42 | 43 => win0_43 | 44 => win0_44 | 45 => win0_45 | 46 => win0_46 | 47 => win0_47 | ⟨_ + 48, h⟩ => absurd h (Nat.not_lt.2 (Nat.le_add_left _ _))
abbrev spec0 : Fin 48 → Pipeline.WinSpec sig grid0.rank := fun w => (win0 w).toWinSpec

class Facts : Prop extends Facts₀ where

variable [Facts]
-- ==== ReferenceIdeal.lean ====
abbrev S2x65536x6 : Shape := ⟨3, ![2, 65536, 6]⟩
abbrev S2x131072x6 : Shape := ⟨3, ![2, 131072, 6]⟩
abbrev S2x65536x16 : Shape := ⟨3, ![2, 65536, 16]⟩
abbrev S8x6 : Shape := ⟨2, ![8, 6]⟩
abbrev S8 : Shape := ⟨1, ![8]⟩
abbrev S8x8 : Shape := ⟨2, ![8, 8]⟩
abbrev S16x20 : Shape := ⟨2, ![16, 20]⟩
abbrev S16 : Shape := ⟨1, ![16]⟩
abbrev S8x16 : Shape := ⟨2, ![8, 16]⟩
abbrev S16x16 : Shape := ⟨2, ![16, 16]⟩
abbrev S32x8 : Shape := ⟨2, ![32, 8]⟩
abbrev S32 : Shape := ⟨1, ![32]⟩
abbrev S32x16 : Shape := ⟨2, ![32, 16]⟩
abbrev S24x24 : Shape := ⟨2, ![24, 24]⟩
abbrev S32x24 : Shape := ⟨2, ![32, 24]⟩
abbrev S32x32 : Shape := ⟨2, ![32, 32]⟩
abbrev S_ : Shape := ⟨0, ![]⟩
abbrev S2x65536x16x1 : Shape := ⟨4, ![2, 65536, 16, 1]⟩
abbrev S2x65536x16x6 : Shape := ⟨4, ![2, 65536, 16, 6]⟩
abbrev S2x65536x1x6 : Shape := ⟨4, ![2, 65536, 1, 6]⟩
abbrev S2x65536x16x3 : Shape := ⟨4, ![2, 65536, 16, 3]⟩
abbrev S2x65536x16x20 : Shape := ⟨4, ![2, 65536, 16, 20]⟩
abbrev S2x65536x16x16 : Shape := ⟨4, ![2, 65536, 16, 16]⟩
abbrev S1x1x1x16 : Shape := ⟨4, ![1, 1, 1, 16]⟩
abbrev S2x65536x16x8 : Shape := ⟨4, ![2, 65536, 16, 8]⟩
abbrev S1x1x1x8 : Shape := ⟨4, ![1, 1, 1, 8]⟩
abbrev S2x65536x8 : Shape := ⟨3, ![2, 65536, 8]⟩
abbrev S1x1x8 : Shape := ⟨3, ![1, 1, 8]⟩
abbrev S2x65536x1x8 : Shape := ⟨4, ![2, 65536, 1, 8]⟩
abbrev S2x65536x1x16 : Shape := ⟨4, ![2, 65536, 1, 16]⟩
abbrev S2x65536x32 : Shape := ⟨3, ![2, 65536, 32]⟩
abbrev S1x1x32 : Shape := ⟨3, ![1, 1, 32]⟩
abbrev S1x1x16 : Shape := ⟨3, ![1, 1, 16]⟩
abbrev S2x65536x16x24 : Shape := ⟨4, ![2, 65536, 16, 24]⟩
abbrev S2x65536x24 : Shape := ⟨3, ![2, 65536, 24]⟩
abbrev S2x65536x1x24 : Shape := ⟨4, ![2, 65536, 1, 24]⟩

abbrev nBuf : Space → Nat
  | .hbm => 267
  | .vmem => 0
  | .smem => 0
  | _ => 0

abbrev hbmTy0_0 (i : Nat) : BufTy := match i % 128 with
  | 0 => ⟨S2x65536x6, .f32⟩
  | 1 => ⟨S2x131072x6, .f32⟩
  | 2 => ⟨S2x65536x16, .i32⟩
  | 3 => ⟨S8x6, .f32⟩
  | 4 => ⟨S8, .f32⟩
  | 5 => ⟨S8x8, .f32⟩
  | 6 => ⟨S8, .f32⟩
  | 7 => ⟨S16x20, .f32⟩
  | 8 => ⟨S16, .f32⟩
  | 9 => ⟨S16, .f32⟩
  | 10 => ⟨S16, .f32⟩
  | 11 => ⟨S8x16, .f32⟩
  | 12 => ⟨S8, .f32⟩
  | 13 => ⟨S8, .f32⟩
  | 14 => ⟨S8, .f32⟩
  | 15 => ⟨S16x16, .f32⟩
  | 16 => ⟨S8x16, .f32⟩
  | 17 => ⟨S8, .f32⟩
  | 18 => ⟨S8, .f32⟩
  | 19 => ⟨S8, .f32⟩
  | 20 => ⟨S8x8, .f32⟩
  | 21 => ⟨S8, .f32⟩
  | 22 => ⟨S32x8, .f32⟩
  | 23 => ⟨S32, .f32⟩
  | 24 => ⟨S32, .f32⟩
  | 25 => ⟨S32, .f32⟩
  | 26 => ⟨S16x16, .f32⟩
  | 27 => ⟨S16x16, .f32⟩
  | 28 => ⟨S16, .f32⟩
  | 29 => ⟨S16, .f32⟩
  | 30 => ⟨S16, .f32⟩
  | 31 => ⟨S16x16, .f32⟩
  | 32 => ⟨S16, .f32⟩
  | 33 => ⟨S32x16, .f32⟩
  | 34 => ⟨S32, .f32⟩
  | 35 => ⟨S32, .f32⟩
  | 36 => ⟨S32, .f32⟩
  | 37 => ⟨S24x24, .f32⟩
  | 38 => ⟨S32x24, .f32⟩
  | 39 => ⟨S32, .f32⟩
  | 40 => ⟨S32, .f32⟩
  | 41 => ⟨S32, .f32⟩
  | 42 => ⟨S32x32, .f32⟩
  | 43 => ⟨S32, .f32⟩
  | 44 => ⟨S32x32, .f32⟩
  | 45 => ⟨S32, .f32⟩
  | 46 => ⟨S32x32, .f32⟩
  | 47 => ⟨S32, .f32⟩
  | 48 => ⟨S_, .i32⟩
  | 49 => ⟨S2x65536x16, .i32⟩
  | 50 => ⟨S2x65536x16, .i1⟩
  | 51 => ⟨S_, .i32⟩
  | 52 => ⟨S2x65536x16, .i32⟩
  | 53 => ⟨S2x65536x16, .i32⟩
  | 54 => ⟨S2x65536x16, .i32⟩
  | 55 => ⟨S2x65536x16x1, .i32⟩
  | 56 => ⟨S2x65536x16x6, .f32⟩
  | 57 => ⟨S2x65536x1x6, .f32⟩
  | 58 => ⟨S2x65536x16x6, .f32⟩
  | 59 => ⟨S2x65536x16x6, .f32⟩
  | 60 => ⟨S2x65536x16x3, .f32⟩
  | 61 => ⟨S2x65536x16x3, .f32⟩
  | 62 => ⟨S_, .f32⟩
  | 63 => ⟨S2x65536x16, .f32⟩
  | 64 => ⟨S2x65536x16x1, .f32⟩
  | 65 => ⟨S2x65536x16x1, .f32⟩
  | 66 => ⟨S2x65536x16x3, .f32⟩
  | 67 => ⟨S2x65536x16x3, .f32⟩
  | 68 => ⟨S_, .f32⟩
  | 69 => ⟨S2x65536x16, .f32⟩
  | 70 => ⟨S2x65536x16x1, .f32⟩
  | 71 => ⟨S2x65536x16x1, .f32⟩
  | 72 => ⟨S2x65536x16x20, .f32⟩
  | 73 => ⟨S2x65536x16x16, .f32⟩
  | 74 => ⟨S1x1x1x16, .f32⟩
  | 75 => ⟨S2x65536x16x16, .f32⟩
  | 76 => ⟨S2x65536x16x16, .f32⟩
  | 77 => ⟨S1x1x1x16, .f32⟩
  | 78 => ⟨S2x65536x16x16, .f32⟩
  | 79 => ⟨S2x65536x16x16, .f32⟩
  | 80 => ⟨S1x1x1x16, .f32⟩
  | 81 => ⟨S2x65536x16x16, .f32⟩
  | 82 => ⟨S2x65536x16x16, .f32⟩
  | 83 => ⟨S_, .f32⟩
  | 84 => ⟨S2x65536x16x16, .f32⟩
  | 85 => ⟨S2x65536x16x16, .f32⟩
  | 86 => ⟨S2x65536x16x8, .f32⟩
  | 87 => ⟨S1x1x1x8, .f32⟩
  | 88 => ⟨S2x65536x16x8, .f32⟩
  | 89 => ⟨S2x65536x16x8, .f32⟩
  | 90 => ⟨S1x1x1x8, .f32⟩
  | 91 => ⟨S2x65536x16x8, .f32⟩
  | 92 => ⟨S2x65536x16x8, .f32⟩
  | 93 => ⟨S1x1x1x8, .f32⟩
  | 94 => ⟨S2x65536x16x8, .f32⟩
  | 95 => ⟨S2x65536x16x8, .f32⟩
  | 96 => ⟨S_, .f32⟩
  | 97 => ⟨S2x65536x16x8, .f32⟩
  | 98 => ⟨S2x65536x16x8, .f32⟩
  | 99 => ⟨S2x65536x8, .f32⟩
  | 100 => ⟨S1x1x8, .f32⟩
  | 101 => ⟨S2x65536x8, .f32⟩
  | 102 => ⟨S2x65536x8, .f32⟩
  | 103 => ⟨S_, .f32⟩
  | 104 => ⟨S_, .f32⟩
  | 105 => ⟨S2x65536x8, .f32⟩
  | 106 => ⟨S2x65536x8, .i1⟩
  | 107 => ⟨S_, .f32⟩
  | 108 => ⟨S2x65536x8, .f32⟩
  | 109 => ⟨S2x65536x8, .f32⟩
  | 110 => ⟨S2x65536x8, .f32⟩
  | 111 => ⟨S2x65536x8, .f32⟩
  | 112 => ⟨S1x1x8, .f32⟩
  | 113 => ⟨S2x65536x8, .f32⟩
  | 114 => ⟨S2x65536x8, .f32⟩
  | 115 => ⟨S2x65536x1x8, .f32⟩
  | 116 => ⟨S2x65536x16x8, .f32⟩
  | 117 => ⟨S2x65536x16x16, .f32⟩
  | 118 => ⟨S2x65536x16x16, .f32⟩
  | 119 => ⟨S_, .f32⟩
  | 120 => ⟨S2x65536x16, .f32⟩
  | 121 => ⟨S_, .f32⟩
  | 122 => ⟨S2x65536x16, .f32⟩
  | 123 => ⟨S2x65536x16, .f32⟩
  | 124 => ⟨S2x65536x1x16, .f32⟩
  | 125 => ⟨S2x65536x16x16, .f32⟩
  | 126 => ⟨S2x65536x16x16, .f32⟩
  | 127 => ⟨S2x65536x16x16, .f32⟩
  | _ => ⟨S2x65536x6, .f32⟩

abbrev hbmTy0_1 (i : Nat) : BufTy := match i % 128 with
  | 0 => ⟨S_, .f32⟩
  | 1 => ⟨S2x65536x16, .f32⟩
  | 2 => ⟨S2x65536x1x16, .f32⟩
  | 3 => ⟨S2x65536x16x16, .f32⟩
  | 4 => ⟨S2x65536x16x16, .f32⟩
  | 5 => ⟨S2x65536x16x16, .f32⟩
  | 6 => ⟨S_, .f32⟩
  | 7 => ⟨S2x65536x16, .f32⟩
  | 8 => ⟨S2x65536x8, .f32⟩
  | 9 => ⟨S1x1x8, .f32⟩
  | 10 => ⟨S2x65536x8, .f32⟩
  | 11 => ⟨S2x65536x8, .f32⟩
  | 12 => ⟨S1x1x8, .f32⟩
  | 13 => ⟨S2x65536x8, .f32⟩
  | 14 => ⟨S2x65536x8, .f32⟩
  | 15 => ⟨S1x1x8, .f32⟩
  | 16 => ⟨S2x65536x8, .f32⟩
  | 17 => ⟨S2x65536x8, .f32⟩
  | 18 => ⟨S_, .f32⟩
  | 19 => ⟨S2x65536x8, .f32⟩
  | 20 => ⟨S2x65536x8, .f32⟩
  | 21 => ⟨S2x65536x8, .f32⟩
  | 22 => ⟨S1x1x8, .f32⟩
  | 23 => ⟨S2x65536x8, .f32⟩
  | 24 => ⟨S2x65536x8, .f32⟩
  | 25 => ⟨S2x65536x32, .f32⟩
  | 26 => ⟨S1x1x32, .f32⟩
  | 27 => ⟨S2x65536x32, .f32⟩
  | 28 => ⟨S2x65536x32, .f32⟩
  | 29 => ⟨S1x1x32, .f32⟩
  | 30 => ⟨S2x65536x32, .f32⟩
  | 31 => ⟨S2x65536x32, .f32⟩
  | 32 => ⟨S1x1x32, .f32⟩
  | 33 => ⟨S2x65536x32, .f32⟩
  | 34 => ⟨S2x65536x32, .f32⟩
  | 35 => ⟨S2x65536x1x8, .f32⟩
  | 36 => ⟨S2x65536x16x8, .f32⟩
  | 37 => ⟨S2x65536x16x16, .f32⟩
  | 38 => ⟨S2x65536x16x16, .f32⟩
  | 39 => ⟨S_, .f32⟩
  | 40 => ⟨S2x65536x16, .f32⟩
  | 41 => ⟨S_, .f32⟩
  | 42 => ⟨S2x65536x16, .f32⟩
  | 43 => ⟨S2x65536x16, .f32⟩
  | 44 => ⟨S2x65536x1x16, .f32⟩
  | 45 => ⟨S2x65536x16x16, .f32⟩
  | 46 => ⟨S2x65536x16x16, .f32⟩
  | 47 => ⟨S2x65536x16x16, .f32⟩
  | 48 => ⟨S_, .f32⟩
  | 49 => ⟨S2x65536x16, .f32⟩
  | 50 => ⟨S2x65536x1x16, .f32⟩
  | 51 => ⟨S2x65536x16x16, .f32⟩
  | 52 => ⟨S2x65536x16x16, .f32⟩
  | 53 => ⟨S2x65536x16x16, .f32⟩
  | 54 => ⟨S_, .f32⟩
  | 55 => ⟨S2x65536x16, .f32⟩
  | 56 => ⟨S2x65536x16, .f32⟩
  | 57 => ⟨S1x1x16, .f32⟩
  | 58 => ⟨S2x65536x16, .f32⟩
  | 59 => ⟨S2x65536x16, .f32⟩
  | 60 => ⟨S1x1x16, .f32⟩
  | 61 => ⟨S2x65536x16, .f32⟩
  | 62 => ⟨S2x65536x16, .f32⟩
  | 63 => ⟨S1x1x16, .f32⟩
  | 64 => ⟨S2x65536x16, .f32⟩
  | 65 => ⟨S2x65536x16, .f32⟩
  | 66 => ⟨S_, .f32⟩
  | 67 => ⟨S2x65536x16, .f32⟩
  | 68 => ⟨S2x65536x16, .f32⟩
  | 69 => ⟨S2x65536x16, .f32⟩
  | 70 => ⟨S1x1x16, .f32⟩
  | 71 => ⟨S2x65536x16, .f32⟩
  | 72 => ⟨S2x65536x16, .f32⟩
  | 73 => ⟨S2x65536x32, .f32⟩
  | 74 => ⟨S1x1x32, .f32⟩
  | 75 => ⟨S2x65536x32, .f32⟩
  | 76 => ⟨S2x65536x32, .f32⟩
  | 77 => ⟨S1x1x32, .f32⟩
  | 78 => ⟨S2x65536x32, .f32⟩
  | 79 => ⟨S2x65536x32, .f32⟩
  | 80 => ⟨S1x1x32, .f32⟩
  | 81 => ⟨S2x65536x32, .f32⟩
  | 82 => ⟨S2x65536x32, .f32⟩
  | 83 => ⟨S2x65536x1x16, .f32⟩
  | 84 => ⟨S2x65536x16x16, .f32⟩
  | 85 => ⟨S2x65536x16x24, .f32⟩
  | 86 => ⟨S2x65536x16x24, .f32⟩
  | 87 => ⟨S_, .f32⟩
  | 88 => ⟨S2x65536x24, .f32⟩
  | 89 => ⟨S_, .f32⟩
  | 90 => ⟨S2x65536x24, .f32⟩
  | 91 => ⟨S2x65536x24, .f32⟩
  | 92 => ⟨S2x65536x1x24, .f32⟩
  | 93 => ⟨S2x65536x16x24, .f32⟩
  | 94 => ⟨S2x65536x16x24, .f32⟩
  | 95 => ⟨S2x65536x16x24, .f32⟩
  | 96 => ⟨S_, .f32⟩
  | 97 => ⟨S2x65536x24, .f32⟩
  | 98 => ⟨S2x65536x1x24, .f32⟩
  | 99 => ⟨S2x65536x16x24, .f32⟩
  | 100 => ⟨S2x65536x16x24, .f32⟩
  | 101 => ⟨S2x65536x16x24, .f32⟩
  | 102 => ⟨S_, .f32⟩
  | 103 => ⟨S2x65536x24, .f32⟩
  | 104 => ⟨S2x65536x32, .f32⟩
  | 105 => ⟨S1x1x32, .f32⟩
  | 106 => ⟨S2x65536x32, .f32⟩
  | 107 => ⟨S2x65536x32, .f32⟩
  | 108 => ⟨S1x1x32, .f32⟩
  | 109 => ⟨S2x65536x32, .f32⟩
  | 110 => ⟨S2x65536x32, .f32⟩
  | 111 => ⟨S1x1x32, .f32⟩
  | 112 => ⟨S2x65536x32, .f32⟩
  | 113 => ⟨S2x65536x32, .f32⟩
  | 114 => ⟨S_, .f32⟩
  | 115 => ⟨S2x65536x32, .f32⟩
  | 116 => ⟨S2x65536x32, .f32⟩
  | 117 => ⟨S2x65536x32, .f32⟩
  | 118 => ⟨S1x1x32, .f32⟩
  | 119 => ⟨S2x65536x32, .f32⟩
  | 120 => ⟨S2x65536x32, .f32⟩
  | 121 => ⟨S2x65536x32, .f32⟩
  | 122 => ⟨S1x1x32, .f32⟩
  | 123 => ⟨S2x65536x32, .f32⟩
  | 124 => ⟨S2x65536x32, .f32⟩
  | 125 => ⟨S2x65536x32, .f32⟩
  | 126 => ⟨S1x1x32, .f32⟩
  | 127 => ⟨S2x65536x32, .f32⟩
  | _ => ⟨S2x65536x6, .f32⟩

abbrev hbmTy0_2 (i : Nat) : BufTy := match i % 128 with
  | 0 => ⟨S2x65536x32, .f32⟩
  | 1 => ⟨S2x65536x32, .f32⟩
  | 2 => ⟨S2x65536x32, .f32⟩
  | 3 => ⟨S_, .f32⟩
  | 4 => ⟨S_, .f32⟩
  | 5 => ⟨S2x65536x32, .f32⟩
  | 6 => ⟨S2x65536x32, .i1⟩
  | 7 => ⟨S_, .f32⟩
  | 8 => ⟨S2x65536x32, .f32⟩
  | 9 => ⟨S2x65536x32, .f32⟩
  | 10 => ⟨S2x65536x32, .f32⟩
  | _ => ⟨S2x65536x6, .f32⟩

abbrev hbmTy (i : Nat) : BufTy := match i / 128 with
  | 0 => hbmTy0_0 i
  | 1 => hbmTy0_1 i
  | 2 => hbmTy0_2 i
  | _ => ⟨S2x65536x6, .f32⟩

abbrev bufTy : (tb : Table) → Fin (tcTables nBuf tb) → BufTy
  | .hbm, ⟨i, _⟩ => hbmTy i
  | _, _ => ⟨S2x65536x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_c : Ref sig .tc := ⟨.hbm, 48, rfl⟩
abbrev main_v0 : Ref sig .tc := ⟨.hbm, 49, rfl⟩
abbrev main_v1 : Ref sig .tc := ⟨.hbm, 50, rfl⟩
abbrev main_c_0 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_cst : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_cst_1 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_call0_cst : Ref sig .tc := ⟨.hbm, 83, rfl⟩
abbrev main_call0_v0 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_call1_cst : Ref sig .tc := ⟨.hbm, 96, rfl⟩
abbrev main_call1_v0 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_cst_2 : Ref sig .tc := ⟨.hbm, 103, rfl⟩
abbrev main_call2_cst : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_cst_3 : Ref sig .tc := ⟨.hbm, 119, rfl⟩
abbrev main_v56 : Ref sig .tc := ⟨.hbm, 120, rfl⟩
abbrev main_cst_4 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_cst_5 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_cst_6 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_call3_cst : Ref sig .tc := ⟨.hbm, 146, rfl⟩
abbrev main_call3_v0 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_cst_7 : Ref sig .tc := ⟨.hbm, 167, rfl⟩
abbrev main_v98 : Ref sig .tc := ⟨.hbm, 168, rfl⟩
abbrev main_cst_8 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_cst_9 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_cst_10 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_call4_cst : Ref sig .tc := ⟨.hbm, 194, rfl⟩
abbrev main_call4_v0 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_cst_11 : Ref sig .tc := ⟨.hbm, 215, rfl⟩
abbrev main_v140 : Ref sig .tc := ⟨.hbm, 216, rfl⟩
abbrev main_cst_12 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_cst_13 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_cst_14 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_call5_cst : Ref sig .tc := ⟨.hbm, 242, rfl⟩
abbrev main_call5_v0 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_cst_15 : Ref sig .tc := ⟨.hbm, 259, rfl⟩
abbrev main_call6_cst : Ref sig .tc := ⟨.hbm, 260, rfl⟩
abbrev main_call6_v0 : Ref sig .tc := ⟨.hbm, 261, rfl⟩
abbrev main_call6_v1 : Ref sig .tc := ⟨.hbm, 262, rfl⟩
abbrev main_call6_v2 : Ref sig .tc := ⟨.hbm, 263, rfl⟩
abbrev main_call6_v3 : Ref sig .tc := ⟨.hbm, 264, rfl⟩
abbrev main_call6_v4 : Ref sig .tc := ⟨.hbm, 265, rfl⟩
abbrev main_v178 : Ref sig .tc := ⟨.hbm, 266, rfl⟩

abbrev nD : Nat := 1
abbrev τ : Topo := Topo.v7x

variable {F : FTy → Type} [FloatOps F]

class Facts₀ : Prop where
  bcast_S_S2x65536x16 : S_.BroadcastsInDim S2x65536x16 (![] : Fin 0 → Fin S2x65536x16.rank)
  bcast_S2x65536x16_S2x65536x16x1_0_1_2 : S2x65536x16.BroadcastsInDim S2x65536x16x1 (![0, 1, 2] : Fin 3 → Fin S2x65536x16x1.rank)
  bcast_S2x65536x6_S2x65536x1x6_0_1_3 : S2x65536x6.BroadcastsInDim S2x65536x1x6 (![0, 1, 3] : Fin 3 → Fin S2x65536x1x6.rank)
  bcast_S2x65536x1x6_S2x65536x16x6_0_1_2_3 : S2x65536x1x6.BroadcastsInDim S2x65536x16x6 (![0, 1, 2, 3] : Fin 4 → Fin S2x65536x16x6.rank)
  slices_S2x65536x16x6_S2x65536x16x3_0_0_0_0 : S2x65536x16x6.Slices ![0, 0, 0, 0] S2x65536x16x3
  reducesTo_S2x65536x16x3_S2x65536x16_d3 : S2x65536x16x3.ReducesTo [3] S2x65536x16
  h_S_ : 0 < S_.numel
  slices_S2x65536x16x6_S2x65536x16x3_0_0_0_3 : S2x65536x16x6.Slices ![0, 0, 0, 3] S2x65536x16x3
  concatenates_S2x65536x16x6_S2x65536x16x6_S2x65536x16x6_S2x65536x16x1_S2x65536x16x1_S2x65536x16x20_d3 : Shape.Concatenates [S2x65536x16x6, S2x65536x16x6, S2x65536x16x6, S2x65536x16x1, S2x65536x16x1] S2x65536x16x20 3
  bcast_S16_S1x1x1x16_3 : S16.BroadcastsInDim S1x1x1x16 (![3] : Fin 1 → Fin S1x1x1x16.rank)
  bcast_S1x1x1x16_S2x65536x16x16_0_1_2_3 : S1x1x1x16.BroadcastsInDim S2x65536x16x16 (![0, 1, 2, 3] : Fin 4 → Fin S2x65536x16x16.rank)
  bcast_S_S2x65536x16x16 : S_.BroadcastsInDim S2x65536x16x16 (![] : Fin 0 → Fin S2x65536x16x16.rank)
  bcast_S8_S1x1x1x8_3 : S8.BroadcastsInDim S1x1x1x8 (![3] : Fin 1 → Fin S1x1x1x8.rank)
  bcast_S1x1x1x8_S2x65536x16x8_0_1_2_3 : S1x1x1x8.BroadcastsInDim S2x65536x16x8 (![0, 1, 2, 3] : Fin 4 → Fin S2x65536x16x8.rank)
  bcast_S_S2x65536x16x8 : S_.BroadcastsInDim S2x65536x16x8 (![] : Fin 0 → Fin S2x65536x16x8.rank)
  bcast_S8_S1x1x8_2 : S8.BroadcastsInDim S1x1x8 (![2] : Fin 1 → Fin S1x1x8.rank)
  bcast_S1x1x8_S2x65536x8_0_1_2 : S1x1x8.BroadcastsInDim S2x65536x8 (![0, 1, 2] : Fin 3 → Fin S2x65536x8.rank)
  bcast_S_S2x65536x8 : S_.BroadcastsInDim S2x65536x8 (![] : Fin 0 → Fin S2x65536x8.rank)
  bcast_S2x65536x8_S2x65536x1x8_0_1_3 : S2x65536x8.BroadcastsInDim S2x65536x1x8 (![0, 1, 3] : Fin 3 → Fin S2x65536x1x8.rank)
  bcast_S2x65536x1x8_S2x65536x16x8_0_1_2_3 : S2x65536x1x8.BroadcastsInDim S2x65536x16x8 (![0, 1, 2, 3] : Fin 4 → Fin S2x65536x16x8.rank)
  concatenates_S2x65536x16x8_S2x65536x16x8_S2x65536x16x16_d3 : Shape.Concatenates [S2x65536x16x8, S2x65536x16x8] S2x65536x16x16 3
  reducesTo_S2x65536x16x16_S2x65536x16_d2 : S2x65536x16x16.ReducesTo [2] S2x65536x16
  bcast_S2x65536x16_S2x65536x1x16_0_1_3 : S2x65536x16.BroadcastsInDim S2x65536x1x16 (![0, 1, 3] : Fin 3 → Fin S2x65536x1x16.rank)
  bcast_S2x65536x1x16_S2x65536x16x16_0_1_2_3 : S2x65536x1x16.BroadcastsInDim S2x65536x16x16 (![0, 1, 2, 3] : Fin 4 → Fin S2x65536x16x16.rank)
  bcast_S32_S1x1x32_2 : S32.BroadcastsInDim S1x1x32 (![2] : Fin 1 → Fin S1x1x32.rank)
  bcast_S1x1x32_S2x65536x32_0_1_2 : S1x1x32.BroadcastsInDim S2x65536x32 (![0, 1, 2] : Fin 3 → Fin S2x65536x32.rank)
  bcast_S16_S1x1x16_2 : S16.BroadcastsInDim S1x1x16 (![2] : Fin 1 → Fin S1x1x16.rank)
  bcast_S1x1x16_S2x65536x16_0_1_2 : S1x1x16.BroadcastsInDim S2x65536x16 (![0, 1, 2] : Fin 3 → Fin S2x65536x16.rank)
  concatenates_S2x65536x16x8_S2x65536x16x16_S2x65536x16x24_d3 : Shape.Concatenates [S2x65536x16x8, S2x65536x16x16] S2x65536x16x24 3
  reducesTo_S2x65536x16x24_S2x65536x24_d2 : S2x65536x16x24.ReducesTo [2] S2x65536x24
  bcast_S_S2x65536x24 : S_.BroadcastsInDim S2x65536x24 (![] : Fin 0 → Fin S2x65536x24.rank)
  bcast_S2x65536x24_S2x65536x1x24_0_1_3 : S2x65536x24.BroadcastsInDim S2x65536x1x24 (![0, 1, 3] : Fin 3 → Fin S2x65536x1x24.rank)
  bcast_S2x65536x1x24_S2x65536x16x24_0_1_2_3 : S2x65536x1x24.BroadcastsInDim S2x65536x16x24 (![0, 1, 2, 3] : Fin 4 → Fin S2x65536x16x24.rank)
  bcast_S_S2x65536x32 : S_.BroadcastsInDim S2x65536x32 (![] : Fin 0 → Fin S2x65536x32.rank)
  gather_S2x131072x6_S2x65536x16x1_S2x65536x16x6_3_1_0_0_1_3_116_wf : GatherDims.WF S2x131072x6 S2x65536x16x1 S2x65536x16x6 [3] [1] [0] [1] [0] 3 ![1, 1, 6]
  dot_S2x65536x16x20_S16x20_S2x65536x16x16_3_1_012_0_n_n_wf : DotDims.WF S2x65536x16x20 S16x20 S2x65536x16x16 [3] [1] [0, 1, 2] [0] [] []
  dot_S2x65536x16x16_S8x16_S2x65536x16x8_3_1_012_0_n_n_wf : DotDims.WF S2x65536x16x16 S8x16 S2x65536x16x8 [3] [1] [0, 1, 2] [0] [] []
  dot_S2x65536x6_S8x6_S2x65536x8_2_1_01_0_n_n_wf : DotDims.WF S2x65536x6 S8x6 S2x65536x8 [2] [1] [0, 1] [0] [] []
  dot_S2x65536x8_S8x8_S2x65536x8_2_1_01_0_n_n_wf : DotDims.WF S2x65536x8 S8x8 S2x65536x8 [2] [1] [0, 1] [0] [] []
  dot_S2x65536x16x16_S16x16_S2x65536x16x16_3_1_012_0_n_n_wf : DotDims.WF S2x65536x16x16 S16x16 S2x65536x16x16 [3] [1] [0, 1, 2] [0] [] []
  dot_S2x65536x16_S8x16_S2x65536x8_2_1_01_0_n_n_wf : DotDims.WF S2x65536x16 S8x16 S2x65536x8 [2] [1] [0, 1] [0] [] []
  dot_S2x65536x8_S32x8_S2x65536x32_2_1_01_0_n_n_wf : DotDims.WF S2x65536x8 S32x8 S2x65536x32 [2] [1] [0, 1] [0] [] []
  dot_S2x65536x16_S16x16_S2x65536x16_2_1_01_0_n_n_wf : DotDims.WF S2x65536x16 S16x16 S2x65536x16 [2] [1] [0, 1] [0] [] []
  dot_S2x65536x16_S32x16_S2x65536x32_2_1_01_0_n_n_wf : DotDims.WF S2x65536x16 S32x16 S2x65536x32 [2] [1] [0, 1] [0] [] []
  dot_S2x65536x16x24_S24x24_S2x65536x16x24_3_1_012_0_n_n_wf : DotDims.WF S2x65536x16x24 S24x24 S2x65536x16x24 [3] [1] [0, 1, 2] [0] [] []
  dot_S2x65536x24_S32x24_S2x65536x32_2_1_01_0_n_n_wf : DotDims.WF S2x65536x24 S32x24 S2x65536x32 [2] [1] [0, 1] [0] [] []
  dot_S2x65536x32_S32x32_S2x65536x32_2_1_01_0_n_n_wf : DotDims.WF S2x65536x32 S32x32 S2x65536x32 [2] [1] [0, 1] [0] [] []

variable [Facts₀]

def gather_S2x131072x6_S2x65536x16x1_S2x65536x16x6_3_1_0_0_1_3_116 : GatherDims S2x131072x6 S2x65536x16x1 S2x65536x16x6 where
  offsetDims := [3]
  collapsedSliceDims := [1]
  operandBatchingDims := [0]
  startIndicesBatchingDims := [0]
  startIndexMap := [1]
  indexVectorDim := 3
  sliceSizes := ![1, 1, 6]
  wf := gather_S2x131072x6_S2x65536x16x1_S2x65536x16x6_3_1_0_0_1_3_116_wf
def dot_S2x65536x16x20_S16x20_S2x65536x16x16_3_1_012_0_n_n : DotDims S2x65536x16x20 S16x20 S2x65536x16x16 where
  lhsContracting := [3]
  rhsContracting := [1]
  lhsNonContracting := [0, 1, 2]
  rhsNonContracting := [0]
  lhsBatch := []
  rhsBatch := []
  wf := dot_S2x65536x16x20_S16x20_S2x65536x16x16_3_1_012_0_n_n_wf
def dot_S2x65536x16x16_S8x16_S2x65536x16x8_3_1_012_0_n_n : DotDims S2x65536x16x16 S8x16 S2x65536x16x8 where
  lhsContracting := [3]
  rhsContracting := [1]
  lhsNonContracting := [0, 1, 2]
  rhsNonContracting := [0]
  lhsBatch := []
  rhsBatch := []
  wf := dot_S2x65536x16x16_S8x16_S2x65536x16x8_3_1_012_0_n_n_wf
def dot_S2x65536x6_S8x6_S2x65536x8_2_1_01_0_n_n : DotDims S2x65536x6 S8x6 S2x65536x8 where
  lhsContracting := [2]
  rhsContracting := [1]
  lhsNonContracting := [0, 1]
  rhsNonContracting := [0]
  lhsBatch := []
  rhsBatch := []
  wf := dot_S2x65536x6_S8x6_S2x65536x8_2_1_01_0_n_n_wf
def dot_S2x65536x8_S8x8_S2x65536x8_2_1_01_0_n_n : DotDims S2x65536x8 S8x8 S2x65536x8 where
  lhsContracting := [2]
  rhsContracting := [1]
  lhsNonContracting := [0, 1]
  rhsNonContracting := [0]
  lhsBatch := []
  rhsBatch := []
  wf := dot_S2x65536x8_S8x8_S2x65536x8_2_1_01_0_n_n_wf
def dot_S2x65536x16x16_S16x16_S2x65536x16x16_3_1_012_0_n_n : DotDims S2x65536x16x16 S16x16 S2x65536x16x16 where
  lhsContracting := [3]
  rhsContracting := [1]
  lhsNonContracting := [0, 1, 2]
  rhsNonContracting := [0]
  lhsBatch := []
  rhsBatch := []
  wf := dot_S2x65536x16x16_S16x16_S2x65536x16x16_3_1_012_0_n_n_wf
def dot_S2x65536x16_S8x16_S2x65536x8_2_1_01_0_n_n : DotDims S2x65536x16 S8x16 S2x65536x8 where
  lhsContracting := [2]
  rhsContracting := [1]
  lhsNonContracting := [0, 1]
  rhsNonContracting := [0]
  lhsBatch := []
  rhsBatch := []
  wf := dot_S2x65536x16_S8x16_S2x65536x8_2_1_01_0_n_n_wf
def dot_S2x65536x8_S32x8_S2x65536x32_2_1_01_0_n_n : DotDims S2x65536x8 S32x8 S2x65536x32 where
  lhsContracting := [2]
  rhsContracting := [1]
  lhsNonContracting := [0, 1]
  rhsNonContracting := [0]
  lhsBatch := []
  rhsBatch := []
  wf := dot_S2x65536x8_S32x8_S2x65536x32_2_1_01_0_n_n_wf
def dot_S2x65536x16_S16x16_S2x65536x16_2_1_01_0_n_n : DotDims S2x65536x16 S16x16 S2x65536x16 where
  lhsContracting := [2]
  rhsContracting := [1]
  lhsNonContracting := [0, 1]
  rhsNonContracting := [0]
  lhsBatch := []
  rhsBatch := []
  wf := dot_S2x65536x16_S16x16_S2x65536x16_2_1_01_0_n_n_wf
def dot_S2x65536x16_S32x16_S2x65536x32_2_1_01_0_n_n : DotDims S2x65536x16 S32x16 S2x65536x32 where
  lhsContracting := [2]
  rhsContracting := [1]
  lhsNonContracting := [0, 1]
  rhsNonContracting := [0]
  lhsBatch := []
  rhsBatch := []
  wf := dot_S2x65536x16_S32x16_S2x65536x32_2_1_01_0_n_n_wf
def dot_S2x65536x16x24_S24x24_S2x65536x16x24_3_1_012_0_n_n : DotDims S2x65536x16x24 S24x24 S2x65536x16x24 where
  lhsContracting := [3]
  rhsContracting := [1]
  lhsNonContracting := [0, 1, 2]
  rhsNonContracting := [0]
  lhsBatch := []
  rhsBatch := []
  wf := dot_S2x65536x16x24_S24x24_S2x65536x16x24_3_1_012_0_n_n_wf
def dot_S2x65536x24_S32x24_S2x65536x32_2_1_01_0_n_n : DotDims S2x65536x24 S32x24 S2x65536x32 where
  lhsContracting := [2]
  rhsContracting := [1]
  lhsNonContracting := [0, 1]
  rhsNonContracting := [0]
  lhsBatch := []
  rhsBatch := []
  wf := dot_S2x65536x24_S32x24_S2x65536x32_2_1_01_0_n_n_wf
def dot_S2x65536x32_S32x32_S2x65536x32_2_1_01_0_n_n : DotDims S2x65536x32 S32x32 S2x65536x32 where
  lhsContracting := [2]
  rhsContracting := [1]
  lhsNonContracting := [0, 1]
  rhsNonContracting := [0]
  lhsBatch := []
  rhsBatch := []
  wf := dot_S2x65536x32_S32x32_S2x65536x32_2_1_01_0_n_n_wf

class Facts : Prop extends Facts₀ where

variable [Facts]
-- ==== Proof.Frames.lean ====
/-
  The two frame claims of the kernel's programs and the idealization claim.

  Under any precondition the kernel's program, read at words and read at extended reals, terminates from every launch
  memory without a fault and leaves its forty-eight argument arrays as it found them: the frame run of the program
  around its one region, whose body loads whole blocks, computes, and stores one whole block. The idealized program
  differs from the printed one by no rewrite, so the idealization claim has nothing to state.
-/
import proofs.«138937_j6992206758069_2_alg».proof.Defs
import proofs.«138937_j6992206758069_2_alg».proof.Proof.FrameK
import proofs.«138937_j6992206758069_2_alg».proof.Proof.FrameKI

noncomputable section

namespace Cert.Proof.Frames

open Idealize.ShloMosaic Idealize.SL.Sem

variable [Cert.Kernel.Facts] [Cert.KernelIdeal.Facts] [Cert.Pre_finite_inputs.Facts]

/-- The word-level program's frame. -/
theorem frame_k : Cert.frame_Kernel := fun m ρ _ => Cert.Kernel.GenP.frame m ρ

/-- The idealized program's frame. -/
theorem frame_ki : Cert.frame_KernelIdeal := fun m ρ _ => Cert.KernelIdeal.GenP.frame m ρ

/-- No rewrite was applied when the program was idealized. -/
theorem preserves : Cert.preserves_Kernel_KernelIdeal := trivial

end Cert.Proof.Frames

end
-- ==== Proof.Net.lean ====
/-
  The network both programs compute, at one point of the cloud, over the extended reals.

  A point has a row of six coordinates `q` and sixteen neighbours, each a row of six numbers `nbr k`. From them:
  the geometric feature of neighbour `k` (twenty numbers: the point's row, the neighbour's row, their difference,
  and the Euclidean norms of the difference's first and last three coordinates), two dense layers with a per-channel
  affine map and a rectifier (`ste`), a two-layer map of the point's own row (`feat0`), and three rounds of
  attentive pooling over the sixteen neighbours: scores by a square map, a softmax over the neighbours per channel
  (the row maximum taken from -inf, exponentials, their sum, the quotient), the score-weighted sum of the
  features, and two dense layers. The result adds the last round's two further dense layers to two affine
  side branches and applies a leaky rectifier.

  Everything is a function of `Fin`-indexed families of extended reals: no array, no layout. Sums are finite sums,
  in which order and grouping do not matter; products are written weight first.
-/
import Idealize.ShloMosaic.PureOps.Ideal
import Idealize.ShloMosaic.PureOps.Ideal.Laws

noncomputable section

namespace Cert.Net

open Idealize.ShloMosaic

/-- The f32 words the two programs share, read as extended reals. -/
abbrev zero32 : EReal := Ideal.ofBits .f32 0x00000000#32
abbrev ninf32 : EReal := Ideal.ofBits .f32 0xFF800000#32
abbrev slope1 : EReal := Ideal.ofBits .f32 0x3E4CCCCD#32
abbrev slope2 : EReal := Ideal.ofBits .f32 0x3C23D70A#32

/-- A matrix applied to a vector: `∑ i, W o i * x i`. -/
def mat {ci co : ℕ} (W : Fin co → Fin ci → EReal) (x : Fin ci → EReal) (o : Fin co) : EReal := ∑ i, W o i * x i

/-- A dense layer: the matrix applied, plus the bias. -/
def lin {ci co : ℕ} (W : Fin co → Fin ci → EReal) (b : Fin co → EReal) (x : Fin ci → EReal) (o : Fin co) : EReal :=
  mat W x o + b o

/-- The per-channel affine map `x * s + t`. -/
def aff {c : ℕ} (s t x : Fin c → EReal) (j : Fin c) : EReal := x j * s j + t j

/-- The rectifier `max x 0`. -/
def relu {c : ℕ} (x : Fin c → EReal) (j : Fin c) : EReal := max (x j) zero32

/-- The leaky rectifier: `x` where `x ≥ 0`, else `α * x`. -/
def leaky {c : ℕ} (α : EReal) (x : Fin c → EReal) (j : Fin c) : EReal :=
  Scalar.select (Ideal.cmp .oge (x j) zero32) (x j) (α * x j)

/-- Two families laid end to end. -/
def cat {a b n : ℕ} (hn : n = a + b) (x : Fin a → EReal) (y : Fin b → EReal) (c : Fin n) : EReal :=
  if h : c.val < a then x ⟨c.val, h⟩ else y ⟨c.val - a, by have := c.isLt; omega⟩

/-- The difference of the point's row and neighbour `k`'s. -/
def rel (q : Fin 6 → EReal) (nbr : Fin 16 → Fin 6 → EReal) (k : Fin 16) (j : Fin 6) : EReal := q j - nbr k j

/-- The Euclidean norm of three consecutive coordinates of the difference, from `off`. -/
def norm3 (off : ℕ) (hoff : off + 3 ≤ 6) (q : Fin 6 → EReal) (nbr : Fin 16 → Fin 6 → EReal) (k : Fin 16) : EReal :=
  Ideal.sqrt (∑ d : Fin 3, rel q nbr k ⟨off + d.val, by have := d.isLt; omega⟩ * rel q nbr k ⟨off + d.val, by have := d.isLt; omega⟩)

/-- The twenty geometric features of neighbour `k`. -/
def geo (q : Fin 6 → EReal) (nbr : Fin 16 → Fin 6 → EReal) (k : Fin 16) (c : Fin 20) : EReal :=
  if h0 : c.val < 6 then q ⟨c.val, h0⟩
  else if h1 : c.val < 12 then nbr k ⟨c.val - 6, by omega⟩
  else if h2 : c.val < 18 then rel q nbr k ⟨c.val - 12, by omega⟩
  else if c.val = 18 then norm3 0 (by omega) q nbr k
  else norm3 3 (by omega) q nbr k

/-- The softmax over the sixteen neighbours, channel by channel, of the scores `l`, as weights. -/
def rowMax {C : ℕ} (l : Fin 16 → Fin C → EReal) (c : Fin C) : EReal :=
  max ninf32 ((Finset.univ : Finset (Fin 16)).fold max ninf32 (fun k => l k c))

def expo {C : ℕ} (l : Fin 16 → Fin C → EReal) (k : Fin 16) (c : Fin C) : EReal := Ideal.exp (l k c - rowMax l c)

def weight {C : ℕ} (l : Fin 16 → Fin C → EReal) (k : Fin 16) (c : Fin C) : EReal :=
  Ideal.div (expo l k c) (∑ k' : Fin 16, expo l k' c)

/-- The score-weighted sum of the features over the neighbours. -/
def pool {C : ℕ} (Ws : Fin C → Fin C → EReal) (x : Fin 16 → Fin C → EReal) (c : Fin C) : EReal :=
  ∑ k : Fin 16, weight (fun k => mat Ws (x k)) k c * x k c

/-- One round of attentive pooling. -/
def attpool {C Ca Cb : ℕ} (Ws : Fin C → Fin C → EReal) (Wa : Fin Ca → Fin C → EReal) (ba sa ta : Fin Ca → EReal)
    (Wb : Fin Cb → Fin Ca → EReal) (bb : Fin Cb → EReal) (x : Fin 16 → Fin C → EReal) : Fin Cb → EReal :=
  lin Wb bb (relu (aff sa ta (lin Wa ba (pool Ws x))))

/-- The network's weights, as families. -/
structure Params where
  w_mlp1 : Fin 8 → Fin 6 → EReal
  b_mlp1 : Fin 8 → EReal
  w_mlp1_1 : Fin 8 → Fin 8 → EReal
  b_mlp1_1 : Fin 8 → EReal
  w_lse0 : Fin 16 → Fin 20 → EReal
  b_lse0 : Fin 16 → EReal
  s_lse0 : Fin 16 → EReal
  t_lse0 : Fin 16 → EReal
  w_lse1 : Fin 8 → Fin 16 → EReal
  b_lse1 : Fin 8 → EReal
  s_lse1 : Fin 8 → EReal
  t_lse1 : Fin 8 → EReal
  w_score1 : Fin 16 → Fin 16 → EReal
  w_p1a : Fin 8 → Fin 16 → EReal
  b_p1a : Fin 8 → EReal
  s_p1a : Fin 8 → EReal
  t_p1a : Fin 8 → EReal
  w_p1b : Fin 8 → Fin 8 → EReal
  b_p1b : Fin 8 → EReal
  w_sc0 : Fin 32 → Fin 8 → EReal
  b_sc0 : Fin 32 → EReal
  s_sc0 : Fin 32 → EReal
  t_sc0 : Fin 32 → EReal
  w_score2 : Fin 16 → Fin 16 → EReal
  w_p2a : Fin 16 → Fin 16 → EReal
  b_p2a : Fin 16 → EReal
  s_p2a : Fin 16 → EReal
  t_p2a : Fin 16 → EReal
  w_p2b : Fin 16 → Fin 16 → EReal
  b_p2b : Fin 16 → EReal
  w_sc1 : Fin 32 → Fin 16 → EReal
  b_sc1 : Fin 32 → EReal
  s_sc1 : Fin 32 → EReal
  t_sc1 : Fin 32 → EReal
  w_score3 : Fin 24 → Fin 24 → EReal
  w_p3a : Fin 32 → Fin 24 → EReal
  b_p3a : Fin 32 → EReal
  s_p3a : Fin 32 → EReal
  t_p3a : Fin 32 → EReal
  w_p3b : Fin 32 → Fin 32 → EReal
  b_p3b : Fin 32 → EReal
  w_mlp2 : Fin 32 → Fin 32 → EReal
  b_mlp2 : Fin 32 → EReal
  w_mlp2_2 : Fin 32 → Fin 32 → EReal
  b_mlp2_2 : Fin 32 → EReal

variable (P : Params) (q : Fin 6 → EReal) (nbr : Fin 16 → Fin 6 → EReal)

/-- The first dense layer on the geometric features, neighbour by neighbour. -/
def ste0 (k : Fin 16) : Fin 16 → EReal := relu (aff P.s_lse0 P.t_lse0 (lin P.w_lse0 P.b_lse0 (geo q nbr k)))
/-- The second: the eight neighbour features every pooling round reads. -/
def ste (k : Fin 16) : Fin 8 → EReal := relu (aff P.s_lse1 P.t_lse1 (lin P.w_lse1 P.b_lse1 (ste0 P q nbr k)))
/-- The point's own row through its first dense layer (before the leaky rectifier). -/
def pre0 : Fin 8 → EReal := lin P.w_mlp1 P.b_mlp1 q
/-- The point's own eight features. -/
def feat0 : Fin 8 → EReal := lin P.w_mlp1_1 P.b_mlp1_1 (leaky slope1 (pre0 P q))
/-- The three rounds. -/
def f1 : Fin 8 → EReal :=
  attpool P.w_score1 P.w_p1a P.b_p1a P.s_p1a P.t_p1a P.w_p1b P.b_p1b (fun k => cat (n := 16) rfl (ste P q nbr k) (feat0 P q))
def sc0 : Fin 32 → EReal := aff P.s_sc0 P.t_sc0 (lin P.w_sc0 P.b_sc0 (f1 P q nbr))
def f2 : Fin 16 → EReal :=
  attpool P.w_score2 P.w_p2a P.b_p2a P.s_p2a P.t_p2a P.w_p2b P.b_p2b (fun k => cat (n := 16) rfl (ste P q nbr k) (f1 P q nbr))
def sc1 : Fin 32 → EReal := aff P.s_sc1 P.t_sc1 (lin P.w_sc1 P.b_sc1 (f2 P q nbr))
def f3 : Fin 32 → EReal :=
  attpool P.w_score3 P.w_p3a P.b_p3a P.s_p3a P.t_p3a P.w_p3b P.b_p3b (fun k => cat (n := 24) rfl (ste P q nbr k) (f2 P q nbr))
/-- The sum the last rectifier is applied to. -/
def total (c : Fin 32) : EReal :=
  lin P.w_mlp2_2 P.b_mlp2_2 (lin P.w_mlp2 P.b_mlp2 (f3 P q nbr)) c + sc0 P q nbr c + sc1 P q nbr c
/-- The network's thirty-two outputs at the point. -/
def out : Fin 32 → EReal := leaky slope2 (total P q nbr)

end Cert.Net

end
-- ==== Proof.Pt.lean ====
/-
  Reading a point out of the arrays. The weight arrays become the network's families (a matrix `[co, ci]` read at
  `(o, i)`, a vector at `o`); point `p` of batch `b` has row `(b, p, ·)` of the coordinate array and rows `(b, p, k, ·)`
  of the gathered neighbour array; inside one block of 512 points, point `n` has row `(0, n, ·)` and rows `(0, n, k, ·)`.
-/
import Idealize.ShloMosaic.Lib.ValueIdx
import proofs.«138937_j6992206758069_2_alg».proof.Proof.Net

noncomputable section

namespace Cert.Pt

open Idealize.ShloMosaic Idealize.ShloMosaic.ValueIdx

/-- Arrays of extended reals of rank one to four, by their extents. -/
abbrev A1 (a : ℕ) := (⟨1, ![a]⟩ : Shape).Idx → EReal
abbrev A2 (a b : ℕ) := (⟨2, ![a, b]⟩ : Shape).Idx → EReal
abbrev A3 (a b c : ℕ) := (⟨3, ![a, b, c]⟩ : Shape).Idx → EReal
abbrev A4 (a b c d : ℕ) := (⟨4, ![a, b, c, d]⟩ : Shape).Idx → EReal

/-- The forty-five weight arrays, in the programs' argument order (arguments 3 to 47), as the network's families. -/
def params (a3 : A2 8 6) (a4 : A1 8) (a5 : A2 8 8) (a6 : A1 8) (a7 : A2 16 20) (a8 : A1 16) (a9 : A1 16) (a10 : A1 16) (a11 : A2 8 16) (a12 : A1 8) (a13 : A1 8) (a14 : A1 8) (a15 : A2 16 16) (a16 : A2 8 16) (a17 : A1 8) (a18 : A1 8) (a19 : A1 8) (a20 : A2 8 8) (a21 : A1 8) (a22 : A2 32 8) (a23 : A1 32) (a24 : A1 32) (a25 : A1 32) (a26 : A2 16 16) (a27 : A2 16 16) (a28 : A1 16) (a29 : A1 16) (a30 : A1 16) (a31 : A2 16 16) (a32 : A1 16) (a33 : A2 32 16) (a34 : A1 32) (a35 : A1 32) (a36 : A1 32) (a37 : A2 24 24) (a38 : A2 32 24) (a39 : A1 32) (a40 : A1 32) (a41 : A1 32) (a42 : A2 32 32) (a43 : A1 32) (a44 : A2 32 32) (a45 : A1 32) (a46 : A2 32 32) (a47 : A1 32) : Net.Params where
  w_mlp1 := fun o i => a3 (ix2 o i)
  b_mlp1 := fun o => a4 (ix1 o)
  w_mlp1_1 := fun o i => a5 (ix2 o i)
  b_mlp1_1 := fun o => a6 (ix1 o)
  w_lse0 := fun o i => a7 (ix2 o i)
  b_lse0 := fun o => a8 (ix1 o)
  s_lse0 := fun o => a9 (ix1 o)
  t_lse0 := fun o => a10 (ix1 o)
  w_lse1 := fun o i => a11 (ix2 o i)
  b_lse1 := fun o => a12 (ix1 o)
  s_lse1 := fun o => a13 (ix1 o)
  t_lse1 := fun o => a14 (ix1 o)
  w_score1 := fun o i => a15 (ix2 o i)
  w_p1a := fun o i => a16 (ix2 o i)
  b_p1a := fun o => a17 (ix1 o)
  s_p1a := fun o => a18 (ix1 o)
  t_p1a := fun o => a19 (ix1 o)
  w_p1b := fun o i => a20 (ix2 o i)
  b_p1b := fun o => a21 (ix1 o)
  w_sc0 := fun o i => a22 (ix2 o i)
  b_sc0 := fun o => a23 (ix1 o)
  s_sc0 := fun o => a24 (ix1 o)
  t_sc0 := fun o => a25 (ix1 o)
  w_score2 := fun o i => a26 (ix2 o i)
  w_p2a := fun o i => a27 (ix2 o i)
  b_p2a := fun o => a28 (ix1 o)
  s_p2a := fun o => a29 (ix1 o)
  t_p2a := fun o => a30 (ix1 o)
  w_p2b := fun o i => a31 (ix2 o i)
  b_p2b := fun o => a32 (ix1 o)
  w_sc1 := fun o i => a33 (ix2 o i)
  b_sc1 := fun o => a34 (ix1 o)
  s_sc1 := fun o => a35 (ix1 o)
  t_sc1 := fun o => a36 (ix1 o)
  w_score3 := fun o i => a37 (ix2 o i)
  w_p3a := fun o i => a38 (ix2 o i)
  b_p3a := fun o => a39 (ix1 o)
  s_p3a := fun o => a40 (ix1 o)
  t_p3a := fun o => a41 (ix1 o)
  w_p3b := fun o i => a42 (ix2 o i)
  b_p3b := fun o => a43 (ix1 o)
  w_mlp2 := fun o i => a44 (ix2 o i)
  b_mlp2 := fun o => a45 (ix1 o)
  w_mlp2_2 := fun o i => a46 (ix2 o i)
  b_mlp2_2 := fun o => a47 (ix1 o)

/-- Point `p` of batch `b`: its row of the coordinate array. -/
def qOf (a0 : A3 2 65536 6) (b : Fin 2) (p : Fin 65536) : Fin 6 → EReal := fun j => a0 (ix3 b p j)
/-- Its sixteen neighbours' rows of the gathered array. -/
def nbrOf (nb : A4 2 65536 16 6) (b : Fin 2) (p : Fin 65536) : Fin 16 → Fin 6 → EReal := fun k j => nb (ix4 b p k j)
/-- Point `n` of a block of 512: its row of the coordinate block. -/
def qBlk (x1 : A3 1 512 6) (n : Fin 512) : Fin 6 → EReal := fun j => x1 (ix3 0 n j)
/-- Its sixteen neighbours' rows of the neighbour block. -/
def nbrBlk (x0 : A4 1 512 16 6) (n : Fin 512) : Fin 16 → Fin 6 → EReal := fun k j => x0 (ix4 0 n k j)

end Cert.Pt

end
-- ==== Proof.KerHost.lean ====
/-
  The neighbour rows the kernel's region is handed. Before the region the host program wraps each negative
  neighbour number n to n + 131072, and gathers, for batch b, point p and neighbour k, the row of the second
  coordinate array at (b, wrapped number, ·); the change of that array to the narrower float format is the
  identity on extended reals. The gathered array has shape (2, 65536, 16, 6).
-/
import proofs.«138937_j6992206758069_2_alg».proof.Proof.FrameKI
import Idealize.ShloMosaic.Lib.Pipeline.Value
import Idealize.ShloMosaic.PureOps.Ideal
import Idealize.ShloMosaic.Lib.ValueIdx

set_option maxRecDepth 16384

noncomputable section

namespace Cert.KerRun

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable [Cert.KernelIdeal.Facts]
variable (m : (ℓ : Loc nD τ sig) → Buf (Elt Ideal) ℓ)

/-- The gathered neighbour rows, as a term of the launch memory: the second coordinate array read at the
    wrapped neighbour numbers. -/
def nbK (c : Dev nD) : S2x65536x16x6.Idx → EReal :=
  Host.gather gather_S2x131072x6_S2x65536x16x1_S2x65536x16x6_3_1_0_0_1_3_116
    (truncf (F := Ideal) .bf16 (m ((c.tc : Thread nD τ).loc main_arg1) : FVec Ideal S2x131072x6 .f32) bitsLt_bf16_f32 : FVec Ideal S2x131072x6 .bf16)
    (broadcastInDim S2x65536x16x1 ![0, 1, 2] bcast_S2x65536x16_S2x65536x16x1_0_1_2
      (select (cmpi .slt (m ((c.tc : Thread nD τ).loc main_arg2)) (broadcastInDim S2x65536x16 ![] bcast_S_S2x65536x16 (constantI S_ 32 0#32)))
        (addi (m ((c.tc : Thread nD τ).loc main_arg2)) (broadcastInDim S2x65536x16 ![] bcast_S_S2x65536x16 (constantI S_ 32 131072#32)))
        (m ((c.tc : Thread nD τ).loc main_arg2))))

/-- The region finds the gathered array in its first window's buffer. -/
theorem V_v7 (c : Dev nD) : (V m c main_v7 : S2x65536x16x6.Idx → EReal) = nbK m c := by
  dsimp only [V, V0]
  simp only [hostOps0, List.flatten_cons, List.flatten_nil, List.append_nil]
  after_results
  rfl

end Cert.KerRun

end
-- ==== Proof.KerBlocks.lean ====
/-
  The blocks the region's body is handed at a grid point (batch b, block i of 512 points), read off the arrays.
  The neighbour block (1, 512, 16, 6) sits in the gathered array at (b, 512 i, 0, 0) and the coordinate block
  (1, 512, 6) in the coordinate array at (b, 512 i, 0); the output block (1, 32, 512) sits in the channel-major
  result at (b, 0, 512 i). A block's element at coordinate y is the array's element at block index times block
  size plus y, axis by axis; the relations between the three index maps are decided once over the 256 points.
-/
import proofs.«138937_j6992206758069_2_alg».proof.Proof.FrameKI
import Idealize.ShloMosaic.Lib.Pipeline.Value
import Idealize.ShloMosaic.PureOps.Ideal
import Idealize.ShloMosaic.Lib.ValueIdx

set_option maxRecDepth 16384

noncomputable section

namespace Cert.KerRun

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable [Cert.KernelIdeal.Facts]
variable (m : (ℓ : Loc nD τ sig) → Buf (Elt Ideal) ℓ)

/-- The printed index maps over the grid: the neighbour and coordinate windows move with the output window
    (batch with batch, block of points with block of points), and every other axis stays at block zero. -/
theorem idx_facts : ∀ t : Fin cfg0.N,
    win0_0.index t (0 : Fin 4) = win0_47.index t (0 : Fin 3)
    ∧ win0_0.index t (1 : Fin 4) = win0_47.index t (2 : Fin 3)
    ∧ win0_0.index t (2 : Fin 4) = 0 ∧ win0_0.index t (3 : Fin 4) = 0
    ∧ win0_1.index t (0 : Fin 3) = win0_47.index t (0 : Fin 3)
    ∧ win0_1.index t (1 : Fin 3) = win0_47.index t (2 : Fin 3)
    ∧ win0_1.index t (2 : Fin 3) = 0
    ∧ win0_47.index t (1 : Fin 3) = 0
    ∧ win0_47.index t (0 : Fin 3) ≤ 1 ∧ win0_47.index t (2 : Fin 3) ≤ 127 :=
  (by decide +kernel : ∀ t : Fin grid0.N, _)

/-- Every pair (batch, block of points) is some grid point's output block. -/
theorem idx_onto : ∀ (q0 : Fin 2) (q2 : Fin 128), ∃ t : Fin cfg0.N, win0_47.index t = ![q0.val, 0, q2.val] :=
  (by decide +kernel : ∀ (q0 : Fin 2) (q2 : Fin 128), ∃ t : Fin grid0.N, win0_47.index t = ![q0.val, 0, q2.val])

/-- The neighbour block at a grid point, read at point n of the block, is the gathered array's row at the
    point the block's offset names: block index times 512 plus n, in the block's batch. -/
theorem iblk0_apply (c : Dev nD) (t : Fin cfg0.N) (n : Fin 512) (k : Fin 16) (j : Fin 6) (b : Fin 2) (p : Fin 65536)
    (hb : b.val = win0_47.index t (0 : Fin 3)) (hp : p.val = win0_47.index t (2 : Fin 3) * 512 + n.val) :
    iblk m c 0 t (ix4 0 n k j) = V m c main_v7 (ix4 b p k j) := by
  obtain ⟨e0, e1, e2, e3, e4, e5, e6, e7, e8, e9⟩ := idx_facts t
  show V m c main_v7 (((cfg0.win 0).blk t).view.emb (ix4 0 n k j)) = V m c main_v7 (ix4 b p k j)
  refine congrArg _ (funext fun a => Fin.ext ?_)
  match a with
  | ⟨0, _⟩ => show win0_0.index t (0 : Fin 4) * 1 + 1 * 0 = b.val; omega
  | ⟨1, _⟩ => show win0_0.index t (1 : Fin 4) * 512 + 1 * n.val = p.val; omega
  | ⟨2, _⟩ => show win0_0.index t (2 : Fin 4) * 16 + 1 * k.val = k.val; omega
  | ⟨3, _⟩ => show win0_0.index t (3 : Fin 4) * 6 + 1 * j.val = j.val; omega

/-- The coordinate block likewise: point n of the block is the coordinate array's row of that point. -/
theorem iblk1_apply (c : Dev nD) (t : Fin cfg0.N) (n : Fin 512) (j : Fin 6) (b : Fin 2) (p : Fin 65536)
    (hb : b.val = win0_47.index t (0 : Fin 3)) (hp : p.val = win0_47.index t (2 : Fin 3) * 512 + n.val) :
    iblk m c 1 t (ix3 0 n j) = m ((c.tc : Thread nD τ).loc main_arg0) (ix3 b p j) := by
  obtain ⟨e0, e1, e2, e3, e4, e5, e6, e7, e8, e9⟩ := idx_facts t
  refine Eq.trans ?_ (congrFun (V_main_arg0 m c) (ix3 b p j))
  show V m c main_arg0 (((cfg0.win 1).blk t).view.emb (ix3 0 n j)) = V m c main_arg0 (ix3 b p j)
  refine congrArg _ (funext fun a => Fin.ext ?_)
  match a with
  | ⟨0, _⟩ => show win0_1.index t (0 : Fin 3) * 1 + 1 * 0 = b.val; omega
  | ⟨1, _⟩ => show win0_1.index t (1 : Fin 3) * 512 + 1 * n.val = p.val; omega
  | ⟨2, _⟩ => show win0_1.index t (2 : Fin 3) * 6 + 1 * j.val = j.val; omega

end Cert.KerRun

end
-- ==== Proof.KerWhole.lean ====
/-
  The forty-five weight windows. Each stages its whole array at every grid point: its index map is constantly
  zero, so the block the body is handed is the array itself, as launched (no host operation writes a weight).
-/
import proofs.«138937_j6992206758069_2_alg».proof.Proof.FrameKI
import Idealize.ShloMosaic.Lib.Pipeline.Value
import Idealize.ShloMosaic.PureOps.Ideal
import Idealize.ShloMosaic.Lib.ValueIdx

set_option maxRecDepth 16384

noncomputable section

namespace Cert.KerRun

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable [Cert.KernelIdeal.Facts]
variable (m : (ℓ : Loc nD τ sig) → Buf (Elt Ideal) ℓ)

theorem iblk2_eq (c : Dev nD) (t : Fin cfg0.N) : (iblk m c 2 t : S8x6.Idx → EReal) = m ((c.tc : Thread nD τ).loc main_arg3) := by
  refine Eq.trans (funext fun (y : S8x6.Idx) => ?_) (V_main_arg3 m c)
  show V m c main_arg3 (((cfg0.win 2).blk t).view.emb y) = V m c main_arg3 y
  refine congrArg _ (funext fun a => Fin.ext ?_)
  match a with
  | ⟨0, _⟩ => show win0_2.index t (0 : Fin 2) * 8 + 1 * (y 0).val = (y 0).val; have h : win0_2.index t (0 : Fin 2) = 0 := rfl; omega
  | ⟨1, _⟩ => show win0_2.index t (1 : Fin 2) * 6 + 1 * (y 1).val = (y 1).val; have h : win0_2.index t (1 : Fin 2) = 0 := rfl; omega

theorem iblk3_eq (c : Dev nD) (t : Fin cfg0.N) : (iblk m c 3 t : S8.Idx → EReal) = m ((c.tc : Thread nD τ).loc main_arg4) := by
  refine Eq.trans (funext fun (y : S8.Idx) => ?_) (V_main_arg4 m c)
  show V m c main_arg4 (((cfg0.win 3).blk t).view.emb y) = V m c main_arg4 y
  refine congrArg _ (funext fun a => Fin.ext ?_)
  match a with
  | ⟨0, _⟩ => show win0_3.index t (0 : Fin 1) * 8 + 1 * (y 0).val = (y 0).val; have h : win0_3.index t (0 : Fin 1) = 0 := rfl; omega

theorem iblk4_eq (c : Dev nD) (t : Fin cfg0.N) : (iblk m c 4 t : S8x8.Idx → EReal) = m ((c.tc : Thread nD τ).loc main_arg5) := by
  refine Eq.trans (funext fun (y : S8x8.Idx) => ?_) (V_main_arg5 m c)
  show V m c main_arg5 (((cfg0.win 4).blk t).view.emb y) = V m c main_arg5 y
  refine congrArg _ (funext fun a => Fin.ext ?_)
  match a with
  | ⟨0, _⟩ => show win0_4.index t (0 : Fin 2) * 8 + 1 * (y 0).val = (y 0).val; have h : win0_4.index t (0 : Fin 2) = 0 := rfl; omega
  | ⟨1, _⟩ => show win0_4.index t (1 : Fin 2) * 8 + 1 * (y 1).val = (y 1).val; have h : win0_4.index t (1 : Fin 2) = 0 := rfl; omega

theorem iblk5_eq (c : Dev nD) (t : Fin cfg0.N) : (iblk m c 5 t : S8.Idx → EReal) = m ((c.tc : Thread nD τ).loc main_arg6) := by
  refine Eq.trans (funext fun (y : S8.Idx) => ?_) (V_main_arg6 m c)
  show V m c main_arg6 (((cfg0.win 5).blk t).view.emb y) = V m c main_arg6 y
  refine congrArg _ (funext fun a => Fin.ext ?_)
  match a with
  | ⟨0, _⟩ => show win0_5.index t (0 : Fin 1) * 8 + 1 * (y 0).val = (y 0).val; have h : win0_5.index t (0 : Fin 1) = 0 := rfl; omega

theorem iblk6_eq (c : Dev nD) (t : Fin cfg0.N) : (iblk m c 6 t : S16x20.Idx → EReal) = m ((c.tc : Thread nD τ).loc main_arg7) := by
  refine Eq.trans (funext fun (y : S16x20.Idx) => ?_) (V_main_arg7 m c)
  show V m c main_arg7 (((cfg0.win 6).blk t).view.emb y) = V m c main_arg7 y
  refine congrArg _ (funext fun a => Fin.ext ?_)
  match a with
  | ⟨0, _⟩ => show win0_6.index t (0 : Fin 2) * 16 + 1 * (y 0).val = (y 0).val; have h : win0_6.index t (0 : Fin 2) = 0 := rfl; omega
  | ⟨1, _⟩ => show win0_6.index t (1 : Fin 2) * 20 + 1 * (y 1).val = (y 1).val; have h : win0_6.index t (1 : Fin 2) = 0 := rfl; omega

theorem iblk7_eq (c : Dev nD) (t : Fin cfg0.N) : (iblk m c 7 t : S16.Idx → EReal) = m ((c.tc : Thread nD τ).loc main_arg8) := by
  refine Eq.trans (funext fun (y : S16.Idx) => ?_) (V_main_arg8 m c)
  show V m c main_arg8 (((cfg0.win 7).blk t).view.emb y) = V m c main_arg8 y
  refine congrArg _ (funext fun a => Fin.ext ?_)
  match a with
  | ⟨0, _⟩ => show win0_7.index t (0 : Fin 1) * 16 + 1 * (y 0).val = (y 0).val; have h : win0_7.index t (0 : Fin 1) = 0 := rfl; omega

theorem iblk8_eq (c : Dev nD) (t : Fin cfg0.N) : (iblk m c 8 t : S16.Idx → EReal) = m ((c.tc : Thread nD τ).loc main_arg9) := by
  refine Eq.trans (funext fun (y : S16.Idx) => ?_) (V_main_arg9 m c)
  show V m c main_arg9 (((cfg0.win 8).blk t).view.emb y) = V m c main_arg9 y
  refine congrArg _ (funext fun a => Fin.ext ?_)
  match a with
  | ⟨0, _⟩ => show win0_8.index t (0 : Fin 1) * 16 + 1 * (y 0).val = (y 0).val; have h : win0_8.index t (0 : Fin 1) = 0 := rfl; omega

theorem iblk9_eq (c : Dev nD) (t : Fin cfg0.N) : (iblk m c 9 t : S16.Idx → EReal) = m ((c.tc : Thread nD τ).loc main_arg10) := by
  refine Eq.trans (funext fun (y : S16.Idx) => ?_) (V_main_arg10 m c)
  show V m c main_arg10 (((cfg0.win 9).blk t).view.emb y) = V m c main_arg10 y
  refine congrArg _ (funext fun a => Fin.ext ?_)
  match a with
  | ⟨0, _⟩ => show win0_9.index t (0 : Fin 1) * 16 + 1 * (y 0).val = (y 0).val; have h : win0_9.index t (0 : Fin 1) = 0 := rfl; omega

theorem iblk10_eq (c : Dev nD) (t : Fin cfg0.N) : (iblk m c 10 t : S8x16.Idx → EReal) = m ((c.tc : Thread nD τ).loc main_arg11) := by
  refine Eq.trans (funext fun (y : S8x16.Idx) => ?_) (V_main_arg11 m c)
  show V m c main_arg11 (((cfg0.win 10).blk t).view.emb y) = V m c main_arg11 y
  refine congrArg _ (funext fun a => Fin.ext ?_)
  match a with
  | ⟨0, _⟩ => show win0_10.index t (0 : Fin 2) * 8 + 1 * (y 0).val = (y 0).val; have h : win0_10.index t (0 : Fin 2) = 0 := rfl; omega
  | ⟨1, _⟩ => show win0_10.index t (1 : Fin 2) * 16 + 1 * (y 1).val = (y 1).val; have h : win0_10.index t (1 : Fin 2) = 0 := rfl; omega

theorem iblk11_eq (c : Dev nD) (t : Fin cfg0.N) : (iblk m c 11 t : S8.Idx → EReal) = m ((c.tc : Thread nD τ).loc main_arg12) := by
  refine Eq.trans (funext fun (y : S8.Idx) => ?_) (V_main_arg12 m c)
  show V m c main_arg12 (((cfg0.win 11).blk t).view.emb y) = V m c main_arg12 y
  refine congrArg _ (funext fun a => Fin.ext ?_)
  match a with
  | ⟨0, _⟩ => show win0_11.index t (0 : Fin 1) * 8 + 1 * (y 0).val = (y 0).val; have h : win0_11.index t (0 : Fin 1) = 0 := rfl; omega

theorem iblk12_eq (c : Dev nD) (t : Fin cfg0.N) : (iblk m c 12 t : S8.Idx → EReal) = m ((c.tc : Thread nD τ).loc main_arg13) := by
  refine Eq.trans (funext fun (y : S8.Idx) => ?_) (V_main_arg13 m c)
  show V m c main_arg13 (((cfg0.win 12).blk t).view.emb y) = V m c main_arg13 y
  refine congrArg _ (funext fun a => Fin.ext ?_)
  match a with
  | ⟨0, _⟩ => show win0_12.index t (0 : Fin 1) * 8 + 1 * (y 0).val = (y 0).val; have h : win0_12.index t (0 : Fin 1) = 0 := rfl; omega

theorem iblk13_eq (c : Dev nD) (t : Fin cfg0.N) : (iblk m c 13 t : S8.Idx → EReal) = m ((c.tc : Thread nD τ).loc main_arg14) := by
  refine Eq.trans (funext fun (y : S8.Idx) => ?_) (V_main_arg14 m c)
  show V m c main_arg14 (((cfg0.win 13).blk t).view.emb y) = V m c main_arg14 y
  refine congrArg _ (funext fun a => Fin.ext ?_)
  match a with
  | ⟨0, _⟩ => show win0_13.index t (0 : Fin 1) * 8 + 1 * (y 0).val = (y 0).val; have h : win0_13.index t (0 : Fin 1) = 0 := rfl; omega

theorem iblk14_eq (c : Dev nD) (t : Fin cfg0.N) : (iblk m c 14 t : S16x16.Idx → EReal) = m ((c.tc : Thread nD τ).loc main_arg15) := by
  refine Eq.trans (funext fun (y : S16x16.Idx) => ?_) (V_main_arg15 m c)
  show V m c main_arg15 (((cfg0.win 14).blk t).view.emb y) = V m c main_arg15 y
  refine congrArg _ (funext fun a => Fin.ext ?_)
  match a with
  | ⟨0, _⟩ => show win0_14.index t (0 : Fin 2) * 16 + 1 * (y 0).val = (y 0).val; have h : win0_14.index t (0 : Fin 2) = 0 := rfl; omega
  | ⟨1, _⟩ => show win0_14.index t (1 : Fin 2) * 16 + 1 * (y 1).val = (y 1).val; have h : win0_14.index t (1 : Fin 2) = 0 := rfl; omega

theorem iblk15_eq (c : Dev nD) (t : Fin cfg0.N) : (iblk m c 15 t : S8x16.Idx → EReal) = m ((c.tc : Thread nD τ).loc main_arg16) := by
  refine Eq.trans (funext fun (y : S8x16.Idx) => ?_) (V_main_arg16 m c)
  show V m c main_arg16 (((cfg0.win 15).blk t).view.emb y) = V m c main_arg16 y
  refine congrArg _ (funext fun a => Fin.ext ?_)
  match a with
  | ⟨0, _⟩ => show win0_15.index t (0 : Fin 2) * 8 + 1 * (y 0).val = (y 0).val; have h : win0_15.index t (0 : Fin 2) = 0 := rfl; omega
  | ⟨1, _⟩ => show win0_15.index t (1 : Fin 2) * 16 + 1 * (y 1).val = (y 1).val; have h : win0_15.index t (1 : Fin 2) = 0 := rfl; omega

theorem iblk16_eq (c : Dev nD) (t : Fin cfg0.N) : (iblk m c 16 t : S8.Idx → EReal) = m ((c.tc : Thread nD τ).loc main_arg17) := by
  refine Eq.trans (funext fun (y : S8.Idx) => ?_) (V_main_arg17 m c)
  show V m c main_arg17 (((cfg0.win 16).blk t).view.emb y) = V m c main_arg17 y
  refine congrArg _ (funext fun a => Fin.ext ?_)
  match a with
  | ⟨0, _⟩ => show win0_16.index t (0 : Fin 1) * 8 + 1 * (y 0).val = (y 0).val; have h : win0_16.index t (0 : Fin 1) = 0 := rfl; omega

theorem iblk17_eq (c : Dev nD) (t : Fin cfg0.N) : (iblk m c 17 t : S8.Idx → EReal) = m ((c.tc : Thread nD τ).loc main_arg18) := by
  refine Eq.trans (funext fun (y : S8.Idx) => ?_) (V_main_arg18 m c)
  show V m c main_arg18 (((cfg0.win 17).blk t).view.emb y) = V m c main_arg18 y
  refine congrArg _ (funext fun a => Fin.ext ?_)
  match a with
  | ⟨0, _⟩ => show win0_17.index t (0 : Fin 1) * 8 + 1 * (y 0).val = (y 0).val; have h : win0_17.index t (0 : Fin 1) = 0 := rfl; omega

theorem iblk18_eq (c : Dev nD) (t : Fin cfg0.N) : (iblk m c 18 t : S8.Idx → EReal) = m ((c.tc : Thread nD τ).loc main_arg19) := by
  refine Eq.trans (funext fun (y : S8.Idx) => ?_) (V_main_arg19 m c)
  show V m c main_arg19 (((cfg0.win 18).blk t).view.emb y) = V m c main_arg19 y
  refine congrArg _ (funext fun a => Fin.ext ?_)
  match a with
  | ⟨0, _⟩ => show win0_18.index t (0 : Fin 1) * 8 + 1 * (y 0).val = (y 0).val; have h : win0_18.index t (0 : Fin 1) = 0 := rfl; omega

theorem iblk19_eq (c : Dev nD) (t : Fin cfg0.N) : (iblk m c 19 t : S8x8.Idx → EReal) = m ((c.tc : Thread nD τ).loc main_arg20) := by
  refine Eq.trans (funext fun (y : S8x8.Idx) => ?_) (V_main_arg20 m c)
  show V m c main_arg20 (((cfg0.win 19).blk t).view.emb y) = V m c main_arg20 y
  refine congrArg _ (funext fun a => Fin.ext ?_)
  match a with
  | ⟨0, _⟩ => show win0_19.index t (0 : Fin 2) * 8 + 1 * (y 0).val = (y 0).val; have h : win0_19.index t (0 : Fin 2) = 0 := rfl; omega
  | ⟨1, _⟩ => show win0_19.index t (1 : Fin 2) * 8 + 1 * (y 1).val = (y 1).val; have h : win0_19.index t (1 : Fin 2) = 0 := rfl; omega

theorem iblk20_eq (c : Dev nD) (t : Fin cfg0.N) : (iblk m c 20 t : S8.Idx → EReal) = m ((c.tc : Thread nD τ).loc main_arg21) := by
  refine Eq.trans (funext fun (y : S8.Idx) => ?_) (V_main_arg21 m c)
  show V m c main_arg21 (((cfg0.win 20).blk t).view.emb y) = V m c main_arg21 y
  refine congrArg _ (funext fun a => Fin.ext ?_)
  match a with
  | ⟨0, _⟩ => show win0_20.index t (0 : Fin 1) * 8 + 1 * (y 0).val = (y 0).val; have h : win0_20.index t (0 : Fin 1) = 0 := rfl; omega

theorem iblk21_eq (c : Dev nD) (t : Fin cfg0.N) : (iblk m c 21 t : S32x8.Idx → EReal) = m ((c.tc : Thread nD τ).loc main_arg22) := by
  refine Eq.trans (funext fun (y : S32x8.Idx) => ?_) (V_main_arg22 m c)
  show V m c main_arg22 (((cfg0.win 21).blk t).view.emb y) = V m c main_arg22 y
  refine congrArg _ (funext fun a => Fin.ext ?_)
  match a with
  | ⟨0, _⟩ => show win0_21.index t (0 : Fin 2) * 32 + 1 * (y 0).val = (y 0).val; have h : win0_21.index t (0 : Fin 2) = 0 := rfl; omega
  | ⟨1, _⟩ => show win0_21.index t (1 : Fin 2) * 8 + 1 * (y 1).val = (y 1).val; have h : win0_21.index t (1 : Fin 2) = 0 := rfl; omega

theorem iblk22_eq (c : Dev nD) (t : Fin cfg0.N) : (iblk m c 22 t : S32.Idx → EReal) = m ((c.tc : Thread nD τ).loc main_arg23) := by
  refine Eq.trans (funext fun (y : S32.Idx) => ?_) (V_main_arg23 m c)
  show V m c main_arg23 (((cfg0.win 22).blk t).view.emb y) = V m c main_arg23 y
  refine congrArg _ (funext fun a => Fin.ext ?_)
  match a with
  | ⟨0, _⟩ => show win0_22.index t (0 : Fin 1) * 32 + 1 * (y 0).val = (y 0).val; have h : win0_22.index t (0 : Fin 1) = 0 := rfl; omega

theorem iblk23_eq (c : Dev nD) (t : Fin cfg0.N) : (iblk m c 23 t : S32.Idx → EReal) = m ((c.tc : Thread nD τ).loc main_arg24) := by
  refine Eq.trans (funext fun (y : S32.Idx) => ?_) (V_main_arg24 m c)
  show V m c main_arg24 (((cfg0.win 23).blk t).view.emb y) = V m c main_arg24 y
  refine congrArg _ (funext fun a => Fin.ext ?_)
  match a with
  | ⟨0, _⟩ => show win0_23.index t (0 : Fin 1) * 32 + 1 * (y 0).val = (y 0).val; have h : win0_23.index t (0 : Fin 1) = 0 := rfl; omega

theorem iblk24_eq (c : Dev nD) (t : Fin cfg0.N) : (iblk m c 24 t : S32.Idx → EReal) = m ((c.tc : Thread nD τ).loc main_arg25) := by
  refine Eq.trans (funext fun (y : S32.Idx) => ?_) (V_main_arg25 m c)
  show V m c main_arg25 (((cfg0.win 24).blk t).view.emb y) = V m c main_arg25 y
  refine congrArg _ (funext fun a => Fin.ext ?_)
  match a with
  | ⟨0, _⟩ => show win0_24.index t (0 : Fin 1) * 32 + 1 * (y 0).val = (y 0).val; have h : win0_24.index t (0 : Fin 1) = 0 := rfl; omega

theorem iblk25_eq (c : Dev nD) (t : Fin cfg0.N) : (iblk m c 25 t : S16x16.Idx → EReal) = m ((c.tc : Thread nD τ).loc main_arg26) := by
  refine Eq.trans (funext fun (y : S16x16.Idx) => ?_) (V_main_arg26 m c)
  show V m c main_arg26 (((cfg0.win 25).blk t).view.emb y) = V m c main_arg26 y
  refine congrArg _ (funext fun a => Fin.ext ?_)
  match a with
  | ⟨0, _⟩ => show win0_25.index t (0 : Fin 2) * 16 + 1 * (y 0).val = (y 0).val; have h : win0_25.index t (0 : Fin 2) = 0 := rfl; omega
  | ⟨1, _⟩ => show win0_25.index t (1 : Fin 2) * 16 + 1 * (y 1).val = (y 1).val; have h : win0_25.index t (1 : Fin 2) = 0 := rfl; omega

theorem iblk26_eq (c : Dev nD) (t : Fin cfg0.N) : (iblk m c 26 t : S16x16.Idx → EReal) = m ((c.tc : Thread nD τ).loc main_arg27) := by
  refine Eq.trans (funext fun (y : S16x16.Idx) => ?_) (V_main_arg27 m c)
  show V m c main_arg27 (((cfg0.win 26).blk t).view.emb y) = V m c main_arg27 y
  refine congrArg _ (funext fun a => Fin.ext ?_)
  match a with
  | ⟨0, _⟩ => show win0_26.index t (0 : Fin 2) * 16 + 1 * (y 0).val = (y 0).val; have h : win0_26.index t (0 : Fin 2) = 0 := rfl; omega
  | ⟨1, _⟩ => show win0_26.index t (1 : Fin 2) * 16 + 1 * (y 1).val = (y 1).val; have h : win0_26.index t (1 : Fin 2) = 0 := rfl; omega

theorem iblk27_eq (c : Dev nD) (t : Fin cfg0.N) : (iblk m c 27 t : S16.Idx → EReal) = m ((c.tc : Thread nD τ).loc main_arg28) := by
  refine Eq.trans (funext fun (y : S16.Idx) => ?_) (V_main_arg28 m c)
  show V m c main_arg28 (((cfg0.win 27).blk t).view.emb y) = V m c main_arg28 y
  refine congrArg _ (funext fun a => Fin.ext ?_)
  match a with
  | ⟨0, _⟩ => show win0_27.index t (0 : Fin 1) * 16 + 1 * (y 0).val = (y 0).val; have h : win0_27.index t (0 : Fin 1) = 0 := rfl; omega

theorem iblk28_eq (c : Dev nD) (t : Fin cfg0.N) : (iblk m c 28 t : S16.Idx → EReal) = m ((c.tc : Thread nD τ).loc main_arg29) := by
  refine Eq.trans (funext fun (y : S16.Idx) => ?_) (V_main_arg29 m c)
  show V m c main_arg29 (((cfg0.win 28).blk t).view.emb y) = V m c main_arg29 y
  refine congrArg _ (funext fun a => Fin.ext ?_)
  match a with
  | ⟨0, _⟩ => show win0_28.index t (0 : Fin 1) * 16 + 1 * (y 0).val = (y 0).val; have h : win0_28.index t (0 : Fin 1) = 0 := rfl; omega

theorem iblk29_eq (c : Dev nD) (t : Fin cfg0.N) : (iblk m c 29 t : S16.Idx → EReal) = m ((c.tc : Thread nD τ).loc main_arg30) := by
  refine Eq.trans (funext fun (y : S16.Idx) => ?_) (V_main_arg30 m c)
  show V m c main_arg30 (((cfg0.win 29).blk t).view.emb y) = V m c main_arg30 y
  refine congrArg _ (funext fun a => Fin.ext ?_)
  match a with
  | ⟨0, _⟩ => show win0_29.index t (0 : Fin 1) * 16 + 1 * (y 0).val = (y 0).val; have h : win0_29.index t (0 : Fin 1) = 0 := rfl; omega

theorem iblk30_eq (c : Dev nD) (t : Fin cfg0.N) : (iblk m c 30 t : S16x16.Idx → EReal) = m ((c.tc : Thread nD τ).loc main_arg31) := by
  refine Eq.trans (funext fun (y : S16x16.Idx) => ?_) (V_main_arg31 m c)
  show V m c main_arg31 (((cfg0.win 30).blk t).view.emb y) = V m c main_arg31 y
  refine congrArg _ (funext fun a => Fin.ext ?_)
  match a with
  | ⟨0, _⟩ => show win0_30.index t (0 : Fin 2) * 16 + 1 * (y 0).val = (y 0).val; have h : win0_30.index t (0 : Fin 2) = 0 := rfl; omega
  | ⟨1, _⟩ => show win0_30.index t (1 : Fin 2) * 16 + 1 * (y 1).val = (y 1).val; have h : win0_30.index t (1 : Fin 2) = 0 := rfl; omega

theorem iblk31_eq (c : Dev nD) (t : Fin cfg0.N) : (iblk m c 31 t : S16.Idx → EReal) = m ((c.tc : Thread nD τ).loc main_arg32) := by
  refine Eq.trans (funext fun (y : S16.Idx) => ?_) (V_main_arg32 m c)
  show V m c main_arg32 (((cfg0.win 31).blk t).view.emb y) = V m c main_arg32 y
  refine congrArg _ (funext fun a => Fin.ext ?_)
  match a with
  | ⟨0, _⟩ => show win0_31.index t (0 : Fin 1) * 16 + 1 * (y 0).val = (y 0).val; have h : win0_31.index t (0 : Fin 1) = 0 := rfl; omega

theorem iblk32_eq (c : Dev nD) (t : Fin cfg0.N) : (iblk m c 32 t : S32x16.Idx → EReal) = m ((c.tc : Thread nD τ).loc main_arg33) := by
  refine Eq.trans (funext fun (y : S32x16.Idx) => ?_) (V_main_arg33 m c)
  show V m c main_arg33 (((cfg0.win 32).blk t).view.emb y) = V m c main_arg33 y
  refine congrArg _ (funext fun a => Fin.ext ?_)
  match a with
  | ⟨0, _⟩ => show win0_32.index t (0 : Fin 2) * 32 + 1 * (y 0).val = (y 0).val; have h : win0_32.index t (0 : Fin 2) = 0 := rfl; omega
  | ⟨1, _⟩ => show win0_32.index t (1 : Fin 2) * 16 + 1 * (y 1).val = (y 1).val; have h : win0_32.index t (1 : Fin 2) = 0 := rfl; omega

theorem iblk33_eq (c : Dev nD) (t : Fin cfg0.N) : (iblk m c 33 t : S32.Idx → EReal) = m ((c.tc : Thread nD τ).loc main_arg34) := by
  refine Eq.trans (funext fun (y : S32.Idx) => ?_) (V_main_arg34 m c)
  show V m c main_arg34 (((cfg0.win 33).blk t).view.emb y) = V m c main_arg34 y
  refine congrArg _ (funext fun a => Fin.ext ?_)
  match a with
  | ⟨0, _⟩ => show win0_33.index t (0 : Fin 1) * 32 + 1 * (y 0).val = (y 0).val; have h : win0_33.index t (0 : Fin 1) = 0 := rfl; omega

theorem iblk34_eq (c : Dev nD) (t : Fin cfg0.N) : (iblk m c 34 t : S32.Idx → EReal) = m ((c.tc : Thread nD τ).loc main_arg35) := by
  refine Eq.trans (funext fun (y : S32.Idx) => ?_) (V_main_arg35 m c)
  show V m c main_arg35 (((cfg0.win 34).blk t).view.emb y) = V m c main_arg35 y
  refine congrArg _ (funext fun a => Fin.ext ?_)
  match a with
  | ⟨0, _⟩ => show win0_34.index t (0 : Fin 1) * 32 + 1 * (y 0).val = (y 0).val; have h : win0_34.index t (0 : Fin 1) = 0 := rfl; omega

theorem iblk35_eq (c : Dev nD) (t : Fin cfg0.N) : (iblk m c 35 t : S32.Idx → EReal) = m ((c.tc : Thread nD τ).loc main_arg36) := by
  refine Eq.trans (funext fun (y : S32.Idx) => ?_) (V_main_arg36 m c)
  show V m c main_arg36 (((cfg0.win 35).blk t).view.emb y) = V m c main_arg36 y
  refine congrArg _ (funext fun a => Fin.ext ?_)
  match a with
  | ⟨0, _⟩ => show win0_35.index t (0 : Fin 1) * 32 + 1 * (y 0).val = (y 0).val; have h : win0_35.index t (0 : Fin 1) = 0 := rfl; omega

theorem iblk36_eq (c : Dev nD) (t : Fin cfg0.N) : (iblk m c 36 t : S24x24.Idx → EReal) = m ((c.tc : Thread nD τ).loc main_arg37) := by
  refine Eq.trans (funext fun (y : S24x24.Idx) => ?_) (V_main_arg37 m c)
  show V m c main_arg37 (((cfg0.win 36).blk t).view.emb y) = V m c main_arg37 y
  refine congrArg _ (funext fun a => Fin.ext ?_)
  match a with
  | ⟨0, _⟩ => show win0_36.index t (0 : Fin 2) * 24 + 1 * (y 0).val = (y 0).val; have h : win0_36.index t (0 : Fin 2) = 0 := rfl; omega
  | ⟨1, _⟩ => show win0_36.index t (1 : Fin 2) * 24 + 1 * (y 1).val = (y 1).val; have h : win0_36.index t (1 : Fin 2) = 0 := rfl; omega

theorem iblk37_eq (c : Dev nD) (t : Fin cfg0.N) : (iblk m c 37 t : S32x24.Idx → EReal) = m ((c.tc : Thread nD τ).loc main_arg38) := by
  refine Eq.trans (funext fun (y : S32x24.Idx) => ?_) (V_main_arg38 m c)
  show V m c main_arg38 (((cfg0.win 37).blk t).view.emb y) = V m c main_arg38 y
  refine congrArg _ (funext fun a => Fin.ext ?_)
  match a with
  | ⟨0, _⟩ => show win0_37.index t (0 : Fin 2) * 32 + 1 * (y 0).val = (y 0).val; have h : win0_37.index t (0 : Fin 2) = 0 := rfl; omega
  | ⟨1, _⟩ => show win0_37.index t (1 : Fin 2) * 24 + 1 * (y 1).val = (y 1).val; have h : win0_37.index t (1 : Fin 2) = 0 := rfl; omega

theorem iblk38_eq (c : Dev nD) (t : Fin cfg0.N) : (iblk m c 38 t : S32.Idx → EReal) = m ((c.tc : Thread nD τ).loc main_arg39) := by
  refine Eq.trans (funext fun (y : S32.Idx) => ?_) (V_main_arg39 m c)
  show V m c main_arg39 (((cfg0.win 38).blk t).view.emb y) = V m c main_arg39 y
  refine congrArg _ (funext fun a => Fin.ext ?_)
  match a with
  | ⟨0, _⟩ => show win0_38.index t (0 : Fin 1) * 32 + 1 * (y 0).val = (y 0).val; have h : win0_38.index t (0 : Fin 1) = 0 := rfl; omega

theorem iblk39_eq (c : Dev nD) (t : Fin cfg0.N) : (iblk m c 39 t : S32.Idx → EReal) = m ((c.tc : Thread nD τ).loc main_arg40) := by
  refine Eq.trans (funext fun (y : S32.Idx) => ?_) (V_main_arg40 m c)
  show V m c main_arg40 (((cfg0.win 39).blk t).view.emb y) = V m c main_arg40 y
  refine congrArg _ (funext fun a => Fin.ext ?_)
  match a with
  | ⟨0, _⟩ => show win0_39.index t (0 : Fin 1) * 32 + 1 * (y 0).val = (y 0).val; have h : win0_39.index t (0 : Fin 1) = 0 := rfl; omega

theorem iblk40_eq (c : Dev nD) (t : Fin cfg0.N) : (iblk m c 40 t : S32.Idx → EReal) = m ((c.tc : Thread nD τ).loc main_arg41) := by
  refine Eq.trans (funext fun (y : S32.Idx) => ?_) (V_main_arg41 m c)
  show V m c main_arg41 (((cfg0.win 40).blk t).view.emb y) = V m c main_arg41 y
  refine congrArg _ (funext fun a => Fin.ext ?_)
  match a with
  | ⟨0, _⟩ => show win0_40.index t (0 : Fin 1) * 32 + 1 * (y 0).val = (y 0).val; have h : win0_40.index t (0 : Fin 1) = 0 := rfl; omega

theorem iblk41_eq (c : Dev nD) (t : Fin cfg0.N) : (iblk m c 41 t : S32x32.Idx → EReal) = m ((c.tc : Thread nD τ).loc main_arg42) := by
  refine Eq.trans (funext fun (y : S32x32.Idx) => ?_) (V_main_arg42 m c)
  show V m c main_arg42 (((cfg0.win 41).blk t).view.emb y) = V m c main_arg42 y
  refine congrArg _ (funext fun a => Fin.ext ?_)
  match a with
  | ⟨0, _⟩ => show win0_41.index t (0 : Fin 2) * 32 + 1 * (y 0).val = (y 0).val; have h : win0_41.index t (0 : Fin 2) = 0 := rfl; omega
  | ⟨1, _⟩ => show win0_41.index t (1 : Fin 2) * 32 + 1 * (y 1).val = (y 1).val; have h : win0_41.index t (1 : Fin 2) = 0 := rfl; omega

theorem iblk42_eq (c : Dev nD) (t : Fin cfg0.N) : (iblk m c 42 t : S32.Idx → EReal) = m ((c.tc : Thread nD τ).loc main_arg43) := by
  refine Eq.trans (funext fun (y : S32.Idx) => ?_) (V_main_arg43 m c)
  show V m c main_arg43 (((cfg0.win 42).blk t).view.emb y) = V m c main_arg43 y
  refine congrArg _ (funext fun a => Fin.ext ?_)
  match a with
  | ⟨0, _⟩ => show win0_42.index t (0 : Fin 1) * 32 + 1 * (y 0).val = (y 0).val; have h : win0_42.index t (0 : Fin 1) = 0 := rfl; omega

theorem iblk43_eq (c : Dev nD) (t : Fin cfg0.N) : (iblk m c 43 t : S32x32.Idx → EReal) = m ((c.tc : Thread nD τ).loc main_arg44) := by
  refine Eq.trans (funext fun (y : S32x32.Idx) => ?_) (V_main_arg44 m c)
  show V m c main_arg44 (((cfg0.win 43).blk t).view.emb y) = V m c main_arg44 y
  refine congrArg _ (funext fun a => Fin.ext ?_)
  match a with
  | ⟨0, _⟩ => show win0_43.index t (0 : Fin 2) * 32 + 1 * (y 0).val = (y 0).val; have h : win0_43.index t (0 : Fin 2) = 0 := rfl; omega
  | ⟨1, _⟩ => show win0_43.index t (1 : Fin 2) * 32 + 1 * (y 1).val = (y 1).val; have h : win0_43.index t (1 : Fin 2) = 0 := rfl; omega

theorem iblk44_eq (c : Dev nD) (t : Fin cfg0.N) : (iblk m c 44 t : S32.Idx → EReal) = m ((c.tc : Thread nD τ).loc main_arg45) := by
  refine Eq.trans (funext fun (y : S32.Idx) => ?_) (V_main_arg45 m c)
  show V m c main_arg45 (((cfg0.win 44).blk t).view.emb y) = V m c main_arg45 y
  refine congrArg _ (funext fun a => Fin.ext ?_)
  match a with
  | ⟨0, _⟩ => show win0_44.index t (0 : Fin 1) * 32 + 1 * (y 0).val = (y 0).val; have h : win0_44.index t (0 : Fin 1) = 0 := rfl; omega

theorem iblk45_eq (c : Dev nD) (t : Fin cfg0.N) : (iblk m c 45 t : S32x32.Idx → EReal) = m ((c.tc : Thread nD τ).loc main_arg46) := by
  refine Eq.trans (funext fun (y : S32x32.Idx) => ?_) (V_main_arg46 m c)
  show V m c main_arg46 (((cfg0.win 45).blk t).view.emb y) = V m c main_arg46 y
  refine congrArg _ (funext fun a => Fin.ext ?_)
  match a with
  | ⟨0, _⟩ => show win0_45.index t (0 : Fin 2) * 32 + 1 * (y 0).val = (y 0).val; have h : win0_45.index t (0 : Fin 2) = 0 := rfl; omega
  | ⟨1, _⟩ => show win0_45.index t (1 : Fin 2) * 32 + 1 * (y 1).val = (y 1).val; have h : win0_45.index t (1 : Fin 2) = 0 := rfl; omega

theorem iblk46_eq (c : Dev nD) (t : Fin cfg0.N) : (iblk m c 46 t : S32.Idx → EReal) = m ((c.tc : Thread nD τ).loc main_arg47) := by
  refine Eq.trans (funext fun (y : S32.Idx) => ?_) (V_main_arg47 m c)
  show V m c main_arg47 (((cfg0.win 46).blk t).view.emb y) = V m c main_arg47 y
  refine congrArg _ (funext fun a => Fin.ext ?_)
  match a with
  | ⟨0, _⟩ => show win0_46.index t (0 : Fin 1) * 32 + 1 * (y 0).val = (y 0).val; have h : win0_46.index t (0 : Fin 1) = 0 := rfl; omega

end Cert.KerRun

end
-- ==== Proof.KerCover.lean ====
/-
  The channel-major result array the region leaves: at (batch b, channel ch, point p) the network's output ch
  at point p of batch b — a function of the weights, of the point's row of the coordinate array and of its
  sixteen gathered neighbour rows — given that the body, on any blocks, leaves in its output block at (0, ch, n)
  the network's output ch at the block's point n. Each grid point writes back the block of that one array its
  offset names (its input blocks are the arrays' blocks at the same batch and the same 512 points), and the
  256 output blocks cover the array.
-/
import proofs.«138937_j6992206758069_2_alg».proof.Proof.FrameKI
import proofs.«138937_j6992206758069_2_alg».proof.Proof.Net
import proofs.«138937_j6992206758069_2_alg».proof.Proof.Pt
import proofs.«138937_j6992206758069_2_alg».proof.Proof.KerHost
import proofs.«138937_j6992206758069_2_alg».proof.Proof.KerBlocks
import proofs.«138937_j6992206758069_2_alg».proof.Proof.KerWhole
import Idealize.ShloMosaic.Lib.Pipeline.Value
import Idealize.ShloMosaic.PureOps.Ideal
import Idealize.ShloMosaic.Lib.ValueIdx

set_option maxRecDepth 16384

noncomputable section

namespace Cert.KerRun

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable [Cert.KernelIdeal.Facts]
variable (m : (ℓ : Loc nD τ sig) → Buf (Elt Ideal) ℓ)

/-- What the body is assumed to leave in its output block, whatever blocks it is handed: at (0, ch, n) the
    network's output ch at the block's point n. -/
abbrev BodyOut : Prop :=
  ∀ (x0 : Vec Ideal S1x512x16x6 .bf16) (x1 : Vec Ideal S1x512x6 .f32) (x2 : Vec Ideal S8x6 .f32) (x3 : Vec Ideal S8 .f32) (x4 : Vec Ideal S8x8 .f32) (x5 : Vec Ideal S8 .f32) (x6 : Vec Ideal S16x20 .f32) (x7 : Vec Ideal S16 .f32) (x8 : Vec Ideal S16 .f32) (x9 : Vec Ideal S16 .f32) (x10 : Vec Ideal S8x16 .f32) (x11 : Vec Ideal S8 .f32) (x12 : Vec Ideal S8 .f32) (x13 : Vec Ideal S8 .f32) (x14 : Vec Ideal S16x16 .f32) (x15 : Vec Ideal S8x16 .f32) (x16 : Vec Ideal S8 .f32) (x17 : Vec Ideal S8 .f32) (x18 : Vec Ideal S8 .f32) (x19 : Vec Ideal S8x8 .f32) (x20 : Vec Ideal S8 .f32) (x21 : Vec Ideal S32x8 .f32) (x22 : Vec Ideal S32 .f32) (x23 : Vec Ideal S32 .f32) (x24 : Vec Ideal S32 .f32) (x25 : Vec Ideal S16x16 .f32) (x26 : Vec Ideal S16x16 .f32) (x27 : Vec Ideal S16 .f32) (x28 : Vec Ideal S16 .f32) (x29 : Vec Ideal S16 .f32) (x30 : Vec Ideal S16x16 .f32) (x31 : Vec Ideal S16 .f32) (x32 : Vec Ideal S32x16 .f32) (x33 : Vec Ideal S32 .f32) (x34 : Vec Ideal S32 .f32) (x35 : Vec Ideal S32 .f32) (x36 : Vec Ideal S24x24 .f32) (x37 : Vec Ideal S32x24 .f32) (x38 : Vec Ideal S32 .f32) (x39 : Vec Ideal S32 .f32) (x40 : Vec Ideal S32 .f32) (x41 : Vec Ideal S32x32 .f32) (x42 : Vec Ideal S32 .f32) (x43 : Vec Ideal S32x32 .f32) (x44 : Vec Ideal S32 .f32) (x45 : Vec Ideal S32x32 .f32) (x46 : Vec Ideal S32 .f32) (ch : Fin 32) (n : Fin 512),
    out0_47 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 (ix3 0 ch n)
      = Cert.Net.out (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) (Cert.Pt.qBlk x1 n) (Cert.Pt.nbrBlk x0 n) ch

/-- The network's output ch at point p of batch b, from the launch memory. -/
def Gf (c : Dev nD) (b : Fin 2) (ch : Fin 32) (p : Fin 65536) : EReal :=
  Cert.Net.out (Cert.Pt.params (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36)) (m ((c.tc : Thread nD τ).loc main_arg37)) (m ((c.tc : Thread nD τ).loc main_arg38)) (m ((c.tc : Thread nD τ).loc main_arg39)) (m ((c.tc : Thread nD τ).loc main_arg40)) (m ((c.tc : Thread nD τ).loc main_arg41)) (m ((c.tc : Thread nD τ).loc main_arg42)) (m ((c.tc : Thread nD τ).loc main_arg43)) (m ((c.tc : Thread nD τ).loc main_arg44)) (m ((c.tc : Thread nD τ).loc main_arg45)) (m ((c.tc : Thread nD τ).loc main_arg46)) (m ((c.tc : Thread nD τ).loc main_arg47)))
    (Cert.Pt.qOf (m ((c.tc : Thread nD τ).loc main_arg0)) b p) (Cert.Pt.nbrOf (nbK m c) b p) ch

/-- The channel-major result array. -/
def G (c : Dev nD) : S2x32x65536.Idx → EReal := fun i => Gf m c (i 0) (i 1) (i 2)

theorem G_ix3 (c : Dev nD) (b : Fin 2) (ch : Fin 32) (p : Fin 65536) : G m c (ix3 b ch p) = Gf m c b ch p := rfl

/-- The network's output at a block's point is its output at the array's point, once the blocks are the arrays'. -/
theorem point_eq (c : Dev nD) (b : Fin 2) (p : Fin 65536) (n : Fin 512) (ch : Fin 32)
    (x0 : Vec Ideal S1x512x16x6 .bf16) (x1 : Vec Ideal S1x512x6 .f32) (x2 : Vec Ideal S8x6 .f32) (x3 : Vec Ideal S8 .f32) (x4 : Vec Ideal S8x8 .f32) (x5 : Vec Ideal S8 .f32) (x6 : Vec Ideal S16x20 .f32) (x7 : Vec Ideal S16 .f32) (x8 : Vec Ideal S16 .f32) (x9 : Vec Ideal S16 .f32) (x10 : Vec Ideal S8x16 .f32) (x11 : Vec Ideal S8 .f32) (x12 : Vec Ideal S8 .f32) (x13 : Vec Ideal S8 .f32) (x14 : Vec Ideal S16x16 .f32) (x15 : Vec Ideal S8x16 .f32) (x16 : Vec Ideal S8 .f32) (x17 : Vec Ideal S8 .f32) (x18 : Vec Ideal S8 .f32) (x19 : Vec Ideal S8x8 .f32) (x20 : Vec Ideal S8 .f32) (x21 : Vec Ideal S32x8 .f32) (x22 : Vec Ideal S32 .f32) (x23 : Vec Ideal S32 .f32) (x24 : Vec Ideal S32 .f32) (x25 : Vec Ideal S16x16 .f32) (x26 : Vec Ideal S16x16 .f32) (x27 : Vec Ideal S16 .f32) (x28 : Vec Ideal S16 .f32) (x29 : Vec Ideal S16 .f32) (x30 : Vec Ideal S16x16 .f32) (x31 : Vec Ideal S16 .f32) (x32 : Vec Ideal S32x16 .f32) (x33 : Vec Ideal S32 .f32) (x34 : Vec Ideal S32 .f32) (x35 : Vec Ideal S32 .f32) (x36 : Vec Ideal S24x24 .f32) (x37 : Vec Ideal S32x24 .f32) (x38 : Vec Ideal S32 .f32) (x39 : Vec Ideal S32 .f32) (x40 : Vec Ideal S32 .f32) (x41 : Vec Ideal S32x32 .f32) (x42 : Vec Ideal S32 .f32) (x43 : Vec Ideal S32x32 .f32) (x44 : Vec Ideal S32 .f32) (x45 : Vec Ideal S32x32 .f32) (x46 : Vec Ideal S32 .f32)
    (h2 : x2 = m ((c.tc : Thread nD τ).loc main_arg3)) (h3 : x3 = m ((c.tc : Thread nD τ).loc main_arg4)) (h4 : x4 = m ((c.tc : Thread nD τ).loc main_arg5)) (h5 : x5 = m ((c.tc : Thread nD τ).loc main_arg6)) (h6 : x6 = m ((c.tc : Thread nD τ).loc main_arg7)) (h7 : x7 = m ((c.tc : Thread nD τ).loc main_arg8)) (h8 : x8 = m ((c.tc : Thread nD τ).loc main_arg9)) (h9 : x9 = m ((c.tc : Thread nD τ).loc main_arg10)) (h10 : x10 = m ((c.tc : Thread nD τ).loc main_arg11)) (h11 : x11 = m ((c.tc : Thread nD τ).loc main_arg12)) (h12 : x12 = m ((c.tc : Thread nD τ).loc main_arg13)) (h13 : x13 = m ((c.tc : Thread nD τ).loc main_arg14)) (h14 : x14 = m ((c.tc : Thread nD τ).loc main_arg15)) (h15 : x15 = m ((c.tc : Thread nD τ).loc main_arg16)) (h16 : x16 = m ((c.tc : Thread nD τ).loc main_arg17)) (h17 : x17 = m ((c.tc : Thread nD τ).loc main_arg18)) (h18 : x18 = m ((c.tc : Thread nD τ).loc main_arg19)) (h19 : x19 = m ((c.tc : Thread nD τ).loc main_arg20)) (h20 : x20 = m ((c.tc : Thread nD τ).loc main_arg21)) (h21 : x21 = m ((c.tc : Thread nD τ).loc main_arg22)) (h22 : x22 = m ((c.tc : Thread nD τ).loc main_arg23)) (h23 : x23 = m ((c.tc : Thread nD τ).loc main_arg24)) (h24 : x24 = m ((c.tc : Thread nD τ).loc main_arg25)) (h25 : x25 = m ((c.tc : Thread nD τ).loc main_arg26)) (h26 : x26 = m ((c.tc : Thread nD τ).loc main_arg27)) (h27 : x27 = m ((c.tc : Thread nD τ).loc main_arg28)) (h28 : x28 = m ((c.tc : Thread nD τ).loc main_arg29)) (h29 : x29 = m ((c.tc : Thread nD τ).loc main_arg30)) (h30 : x30 = m ((c.tc : Thread nD τ).loc main_arg31)) (h31 : x31 = m ((c.tc : Thread nD τ).loc main_arg32)) (h32 : x32 = m ((c.tc : Thread nD τ).loc main_arg33)) (h33 : x33 = m ((c.tc : Thread nD τ).loc main_arg34)) (h34 : x34 = m ((c.tc : Thread nD τ).loc main_arg35)) (h35 : x35 = m ((c.tc : Thread nD τ).loc main_arg36)) (h36 : x36 = m ((c.tc : Thread nD τ).loc main_arg37)) (h37 : x37 = m ((c.tc : Thread nD τ).loc main_arg38)) (h38 : x38 = m ((c.tc : Thread nD τ).loc main_arg39)) (h39 : x39 = m ((c.tc : Thread nD τ).loc main_arg40)) (h40 : x40 = m ((c.tc : Thread nD τ).loc main_arg41)) (h41 : x41 = m ((c.tc : Thread nD τ).loc main_arg42)) (h42 : x42 = m ((c.tc : Thread nD τ).loc main_arg43)) (h43 : x43 = m ((c.tc : Thread nD τ).loc main_arg44)) (h44 : x44 = m ((c.tc : Thread nD τ).loc main_arg45)) (h45 : x45 = m ((c.tc : Thread nD τ).loc main_arg46)) (h46 : x46 = m ((c.tc : Thread nD τ).loc main_arg47))
    (hq : Cert.Pt.qBlk x1 n = Cert.Pt.qOf (m ((c.tc : Thread nD τ).loc main_arg0)) b p)
    (hn : Cert.Pt.nbrBlk x0 n = Cert.Pt.nbrOf (nbK m c) b p) :
    Cert.Net.out (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) (Cert.Pt.qBlk x1 n) (Cert.Pt.nbrBlk x0 n) ch = Gf m c b ch p := by
  subst h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46
  rw [hq, hn]
  rfl

/-- The output block's element (0, ch, n) at a grid point sits in the result array at the block's batch, channel
    ch, and point block index times 512 plus n. -/
theorem emb47 (t : Fin cfg0.N) (ch : Fin 32) (n : Fin 512) (b : Fin 2) (p : Fin 65536)
    (hb : b.val = win0_47.index t (0 : Fin 3)) (hp : p.val = win0_47.index t (2 : Fin 3) * 512 + n.val) :
    (((cfg0.win 47).blk t).view.emb (ix3 0 ch n) : S2x32x65536.Idx) = ix3 b ch p := by
  obtain ⟨e0, e1, e2, e3, e4, e5, e6, e7, e8, e9⟩ := idx_facts t
  refine funext fun a => Fin.ext ?_
  match a with
  | ⟨0, _⟩ => show win0_47.index t (0 : Fin 3) * 1 + 1 * 0 = b.val; omega
  | ⟨1, _⟩ => show win0_47.index t (1 : Fin 3) * 32 + 1 * ch.val = ch.val; omega
  | ⟨2, _⟩ => show win0_47.index t (2 : Fin 3) * 512 + 1 * n.val = p.val; omega

set_option maxHeartbeats 1600000 in
/-- What a grid point writes back is its block of the one result array. -/
theorem flushed_eq (hout : BodyOut) (c : Dev nD) (t : Fin cfg0.N) :
    (dats m 0 c).flushed 47 t = ((cfg0.win 47).blk t).view.read (Elt Ideal) (G m c) := by
  show (cfg0.win 47).cut (grid0.coords t) ((dats m 0 c).after 47 t) = _
  rw [after0_47]
  refine funext fun (y : S1x32x512.Idx) => ?_
  obtain ⟨ch, n, rfl⟩ : ∃ (ch : Fin 32) (n : Fin 512), y = ix3 0 ch n :=
    ⟨y 1, y 2, (eq_ix3 y).trans (congrArg (fun z : Fin 1 => ix3 z (y 1) (y 2)) (Subsingleton.elim (α := Fin 1) (y 0) 0))⟩
  obtain ⟨e0, e1, e2, e3, e4, e5, e6, e7, e8, e9⟩ := idx_facts t
  have hbl : win0_47.index t (0 : Fin 3) < 2 := by omega
  have hpl : win0_47.index t (2 : Fin 3) * 512 + n.val < 65536 := by have := n.isLt; omega
  refine (hout (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t) ch n).trans ?_
  refine Eq.trans ?_ (congrArg (G m c) (emb47 t ch n ⟨_, hbl⟩ ⟨_, hpl⟩ rfl rfl).symm)
  rw [G_ix3]
  exact point_eq m c ⟨_, hbl⟩ ⟨_, hpl⟩ n ch (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t) (iblk m c 41 t) (iblk m c 42 t) (iblk m c 43 t) (iblk m c 44 t) (iblk m c 45 t) (iblk m c 46 t)
    (iblk2_eq m c t) (iblk3_eq m c t) (iblk4_eq m c t) (iblk5_eq m c t) (iblk6_eq m c t) (iblk7_eq m c t) (iblk8_eq m c t) (iblk9_eq m c t) (iblk10_eq m c t) (iblk11_eq m c t) (iblk12_eq m c t) (iblk13_eq m c t) (iblk14_eq m c t) (iblk15_eq m c t) (iblk16_eq m c t) (iblk17_eq m c t) (iblk18_eq m c t) (iblk19_eq m c t) (iblk20_eq m c t) (iblk21_eq m c t) (iblk22_eq m c t) (iblk23_eq m c t) (iblk24_eq m c t) (iblk25_eq m c t) (iblk26_eq m c t) (iblk27_eq m c t) (iblk28_eq m c t) (iblk29_eq m c t) (iblk30_eq m c t) (iblk31_eq m c t) (iblk32_eq m c t) (iblk33_eq m c t) (iblk34_eq m c t) (iblk35_eq m c t) (iblk36_eq m c t) (iblk37_eq m c t) (iblk38_eq m c t) (iblk39_eq m c t) (iblk40_eq m c t) (iblk41_eq m c t) (iblk42_eq m c t) (iblk43_eq m c t) (iblk44_eq m c t) (iblk45_eq m c t) (iblk46_eq m c t)
    (funext fun j => iblk1_apply m c t n j ⟨_, hbl⟩ ⟨_, hpl⟩ rfl rfl)
    (funext fun k => funext fun j =>
      (iblk0_apply m c t n k j ⟨_, hbl⟩ ⟨_, hpl⟩ rfl rfl).trans (congrFun (V_v7 m c) (ix4 ⟨_, hbl⟩ ⟨_, hpl⟩ k j)))

/-- An index of the result array lies in a grid point's block iff each coordinate lies in the block's range
    on its axis. -/
theorem mem_blk (t : Fin cfg0.N) (i : S2x32x65536.Idx) :
    i ∈ ((cfg0.win 47).blk t).view.set ↔ ∀ a : Fin 3, win0_47.index t a * S1x32x512.size a ≤ (i a).val ∧ (i a).val < win0_47.index t a * S1x32x512.size a + S1x32x512.size a := by
  show i ∈ ((View.whole main_v8).slice (win0_47.rect t)).set ↔ _
  rw [View.set_slice_whole, Rect.mem_set_unit]
  exact Iff.rfl

/-- Every index of the result array is in the block of the grid point of its batch and of its point's block
    of 512. -/
theorem cover (i : S2x32x65536.Idx) :
    ∃ t : Fin cfg0.N, (cfg0.win 47).flush t = true ∧ i ∈ ((cfg0.win 47).blk t).view.set := by
  have hi0 : (i 0).val < 2 := (i 0).isLt
  have hi1 : (i 1).val < 32 := (i 1).isLt
  have hi2 : (i 2).val < 65536 := (i 2).isLt
  obtain ⟨t, ht⟩ := idx_onto ⟨(i 0).val, hi0⟩ ⟨(i 2).val / 512, by omega⟩
  have q0 : win0_47.index t (0 : Fin 3) = (i 0).val := congrFun ht 0
  have q1 : win0_47.index t (1 : Fin 3) = 0 := congrFun ht 1
  have q2 : win0_47.index t (2 : Fin 3) = (i 2).val / 512 := congrFun ht 2
  refine ⟨t, flush0_47 t, ?_⟩
  rw [mem_blk]
  intro a
  match a with
  | ⟨0, _⟩ => show win0_47.index t (0 : Fin 3) * 1 ≤ (i 0).val ∧ (i 0).val < win0_47.index t (0 : Fin 3) * 1 + 1; omega
  | ⟨1, _⟩ => show win0_47.index t (1 : Fin 3) * 32 ≤ (i 1).val ∧ (i 1).val < win0_47.index t (1 : Fin 3) * 32 + 32; omega
  | ⟨2, _⟩ => show win0_47.index t (2 : Fin 3) * 512 ≤ (i 2).val ∧ (i 2).val < win0_47.index t (2 : Fin 3) * 512 + 512; omega

/-- The result array after the region is the one array. -/
theorem arr47 (hout : BodyOut) (c : Dev nD) : (dats m 0 c).arrAt 47 cfg0.N = G m c :=
  (dats m 0 c).arrAt_eq_of_cover 47 (G m c) (fun t _ => flushed_eq m hout c t) cover

end Cert.KerRun

end
-- ==== Proof.KerTail.lean ====
/-
  The kernel's program, run: after the region the host program transposes the channel-major result (2, 32, 65536)
  to (2, 65536, 32), so the result at (batch b, point p, channel ch) is the region's array at (b, ch, p) — the
  network's output ch at point p of batch b, given what the body leaves in a block. The argument arrays end as
  launched.
-/
import proofs.«138937_j6992206758069_2_alg».proof.Proof.FrameKI
import proofs.«138937_j6992206758069_2_alg».proof.Proof.Net
import proofs.«138937_j6992206758069_2_alg».proof.Proof.Pt
import proofs.«138937_j6992206758069_2_alg».proof.Proof.KerHost
import Idealize.ShloMosaic.Lib.Pipeline.Value
import Idealize.ShloMosaic.PureOps.Ideal
import Idealize.ShloMosaic.Lib.ValueIdx

set_option maxRecDepth 16384

noncomputable section

namespace Cert.KerRun

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable [Cert.KernelIdeal.Facts]
variable (m : (ℓ : Loc nD τ sig) → Buf (Elt Ideal) ℓ)

/-- What the program leaves in its result buffer: the host line after the region applied to the region's arrays. -/
def final (c : Dev nD) : S2x65536x32.Idx → EReal :=
  Pipeline.afterTail₀ cfgs (dats m) 0 (V0 m) [hostOps1] c main_v9

/-- It is the transpose of the region's channel-major array. -/
theorem final_eq (c : Dev nD) :
    final m c = transpose S2x65536x32 [0, 2, 1] ((dats m 0 c).arrAt 47 cfg0.N : S2x32x65536.Idx → EReal) transposes_S2x32x65536_S2x65536x32_0_2_1 := by
  unfold final Pipeline.afterTail₀
  show StableHlo.after hostOps1 _ (Proc.devRef .tc main_v9) = _
  after_results
  exact congrArg (fun x : S2x32x65536.Idx → EReal => transpose S2x65536x32 [0, 2, 1] x transposes_S2x32x65536_S2x65536x32_0_2_1)
    (Pipeline.withArrays_arr spec0 launch0.win.arr_inj c _ _ 47)

set_option maxHeartbeats 2880000 in
/-- Every weakly fair execution of the program ends with the result buffer at `final` and the arguments as launched. -/
theorem run (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v9) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)) :=
  (θ_run defs _ _).mono (fun r h c => ⟨(h c).2 main_v9 (Pipeline.mem_restRefs_of main_v9 (by decide) (by decide)),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c))),
      ((h c).1 8).trans (((dats m 0 c).arrAt_in 8 rfl _).trans ((A_eq m c 8).trans (V_main_arg9 m c))),
      ((h c).1 9).trans (((dats m 0 c).arrAt_in 9 rfl _).trans ((A_eq m c 9).trans (V_main_arg10 m c))),
      ((h c).1 10).trans (((dats m 0 c).arrAt_in 10 rfl _).trans ((A_eq m c 10).trans (V_main_arg11 m c))),
      ((h c).1 11).trans (((dats m 0 c).arrAt_in 11 rfl _).trans ((A_eq m c 11).trans (V_main_arg12 m c))),
      ((h c).1 12).trans (((dats m 0 c).arrAt_in 12 rfl _).trans ((A_eq m c 12).trans (V_main_arg13 m c))),
      ((h c).1 13).trans (((dats m 0 c).arrAt_in 13 rfl _).trans ((A_eq m c 13).trans (V_main_arg14 m c))),
      ((h c).1 14).trans (((dats m 0 c).arrAt_in 14 rfl _).trans ((A_eq m c 14).trans (V_main_arg15 m c))),
      ((h c).1 15).trans (((dats m 0 c).arrAt_in 15 rfl _).trans ((A_eq m c 15).trans (V_main_arg16 m c))),
      ((h c).1 16).trans (((dats m 0 c).arrAt_in 16 rfl _).trans ((A_eq m c 16).trans (V_main_arg17 m c))),
      ((h c).1 17).trans (((dats m 0 c).arrAt_in 17 rfl _).trans ((A_eq m c 17).trans (V_main_arg18 m c))),
      ((h c).1 18).trans (((dats m 0 c).arrAt_in 18 rfl _).trans ((A_eq m c 18).trans (V_main_arg19 m c))),
      ((h c).1 19).trans (((dats m 0 c).arrAt_in 19 rfl _).trans ((A_eq m c 19).trans (V_main_arg20 m c))),
      ((h c).1 20).trans (((dats m 0 c).arrAt_in 20 rfl _).trans ((A_eq m c 20).trans (V_main_arg21 m c))),
      ((h c).1 21).trans (((dats m 0 c).arrAt_in 21 rfl _).trans ((A_eq m c 21).trans (V_main_arg22 m c))),
      ((h c).1 22).trans (((dats m 0 c).arrAt_in 22 rfl _).trans ((A_eq m c 22).trans (V_main_arg23 m c))),
      ((h c).1 23).trans (((dats m 0 c).arrAt_in 23 rfl _).trans ((A_eq m c 23).trans (V_main_arg24 m c))),
      ((h c).1 24).trans (((dats m 0 c).arrAt_in 24 rfl _).trans ((A_eq m c 24).trans (V_main_arg25 m c))),
      ((h c).1 25).trans (((dats m 0 c).arrAt_in 25 rfl _).trans ((A_eq m c 25).trans (V_main_arg26 m c))),
      ((h c).1 26).trans (((dats m 0 c).arrAt_in 26 rfl _).trans ((A_eq m c 26).trans (V_main_arg27 m c))),
      ((h c).1 27).trans (((dats m 0 c).arrAt_in 27 rfl _).trans ((A_eq m c 27).trans (V_main_arg28 m c))),
      ((h c).1 28).trans (((dats m 0 c).arrAt_in 28 rfl _).trans ((A_eq m c 28).trans (V_main_arg29 m c))),
      ((h c).1 29).trans (((dats m 0 c).arrAt_in 29 rfl _).trans ((A_eq m c 29).trans (V_main_arg30 m c))),
      ((h c).1 30).trans (((dats m 0 c).arrAt_in 30 rfl _).trans ((A_eq m c 30).trans (V_main_arg31 m c))),
      ((h c).1 31).trans (((dats m 0 c).arrAt_in 31 rfl _).trans ((A_eq m c 31).trans (V_main_arg32 m c))),
      ((h c).1 32).trans (((dats m 0 c).arrAt_in 32 rfl _).trans ((A_eq m c 32).trans (V_main_arg33 m c))),
      ((h c).1 33).trans (((dats m 0 c).arrAt_in 33 rfl _).trans ((A_eq m c 33).trans (V_main_arg34 m c))),
      ((h c).1 34).trans (((dats m 0 c).arrAt_in 34 rfl _).trans ((A_eq m c 34).trans (V_main_arg35 m c))),
      ((h c).1 35).trans (((dats m 0 c).arrAt_in 35 rfl _).trans ((A_eq m c 35).trans (V_main_arg36 m c))),
      ((h c).1 36).trans (((dats m 0 c).arrAt_in 36 rfl _).trans ((A_eq m c 36).trans (V_main_arg37 m c))),
      ((h c).1 37).trans (((dats m 0 c).arrAt_in 37 rfl _).trans ((A_eq m c 37).trans (V_main_arg38 m c))),
      ((h c).1 38).trans (((dats m 0 c).arrAt_in 38 rfl _).trans ((A_eq m c 38).trans (V_main_arg39 m c))),
      ((h c).1 39).trans (((dats m 0 c).arrAt_in 39 rfl _).trans ((A_eq m c 39).trans (V_main_arg40 m c))),
      ((h c).1 40).trans (((dats m 0 c).arrAt_in 40 rfl _).trans ((A_eq m c 40).trans (V_main_arg41 m c))),
      ((h c).1 41).trans (((dats m 0 c).arrAt_in 41 rfl _).trans ((A_eq m c 41).trans (V_main_arg42 m c))),
      ((h c).1 42).trans (((dats m 0 c).arrAt_in 42 rfl _).trans ((A_eq m c 42).trans (V_main_arg43 m c))),
      ((h c).1 43).trans (((dats m 0 c).arrAt_in 43 rfl _).trans ((A_eq m c 43).trans (V_main_arg44 m c))),
      ((h c).1 44).trans (((dats m 0 c).arrAt_in 44 rfl _).trans ((A_eq m c 44).trans (V_main_arg45 m c))),
      ((h c).1 45).trans (((dats m 0 c).arrAt_in 45 rfl _).trans ((A_eq m c 45).trans (V_main_arg46 m c))),
      ((h c).1 46).trans (((dats m 0 c).arrAt_in 46 rfl _).trans ((A_eq m c 46).trans (V_main_arg47 m c)))⟩) (run_main m ρ)

end Cert.KerRun

end
-- ==== Proof.KerRun.lean ====
/-
  The kernel's result, index by index: at (batch b, point p, channel ch) the transposed result is the region's
  channel-major array at (b, ch, p), which is the network's output ch at point p of batch b, given what the body
  leaves in a block.
-/
import proofs.«138937_j6992206758069_2_alg».proof.Proof.FrameKI
import proofs.«138937_j6992206758069_2_alg».proof.Proof.Net
import proofs.«138937_j6992206758069_2_alg».proof.Proof.Pt
import proofs.«138937_j6992206758069_2_alg».proof.Proof.KerHost
import proofs.«138937_j6992206758069_2_alg».proof.Proof.KerCover
import proofs.«138937_j6992206758069_2_alg».proof.Proof.KerTail
import Idealize.ShloMosaic.Lib.Pipeline.Value
import Idealize.ShloMosaic.PureOps.Ideal
import Idealize.ShloMosaic.Lib.ValueIdx

set_option maxRecDepth 16384

noncomputable section

namespace Cert.KerRun

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable [Cert.KernelIdeal.Facts]

/-- The result at (batch, point, channel), given what the body leaves in a block. -/
theorem final_apply (hout : ∀ (x0 : Vec Ideal S1x512x16x6 .bf16) (x1 : Vec Ideal S1x512x6 .f32) (x2 : Vec Ideal S8x6 .f32) (x3 : Vec Ideal S8 .f32) (x4 : Vec Ideal S8x8 .f32) (x5 : Vec Ideal S8 .f32) (x6 : Vec Ideal S16x20 .f32) (x7 : Vec Ideal S16 .f32) (x8 : Vec Ideal S16 .f32) (x9 : Vec Ideal S16 .f32) (x10 : Vec Ideal S8x16 .f32) (x11 : Vec Ideal S8 .f32) (x12 : Vec Ideal S8 .f32) (x13 : Vec Ideal S8 .f32) (x14 : Vec Ideal S16x16 .f32) (x15 : Vec Ideal S8x16 .f32) (x16 : Vec Ideal S8 .f32) (x17 : Vec Ideal S8 .f32) (x18 : Vec Ideal S8 .f32) (x19 : Vec Ideal S8x8 .f32) (x20 : Vec Ideal S8 .f32) (x21 : Vec Ideal S32x8 .f32) (x22 : Vec Ideal S32 .f32) (x23 : Vec Ideal S32 .f32) (x24 : Vec Ideal S32 .f32) (x25 : Vec Ideal S16x16 .f32) (x26 : Vec Ideal S16x16 .f32) (x27 : Vec Ideal S16 .f32) (x28 : Vec Ideal S16 .f32) (x29 : Vec Ideal S16 .f32) (x30 : Vec Ideal S16x16 .f32) (x31 : Vec Ideal S16 .f32) (x32 : Vec Ideal S32x16 .f32) (x33 : Vec Ideal S32 .f32) (x34 : Vec Ideal S32 .f32) (x35 : Vec Ideal S32 .f32) (x36 : Vec Ideal S24x24 .f32) (x37 : Vec Ideal S32x24 .f32) (x38 : Vec Ideal S32 .f32) (x39 : Vec Ideal S32 .f32) (x40 : Vec Ideal S32 .f32) (x41 : Vec Ideal S32x32 .f32) (x42 : Vec Ideal S32 .f32) (x43 : Vec Ideal S32x32 .f32) (x44 : Vec Ideal S32 .f32) (x45 : Vec Ideal S32x32 .f32) (x46 : Vec Ideal S32 .f32) (ch : Fin 32) (n : Fin 512),
      out0_47 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 (ValueIdx.ix3 0 ch n)
        = Cert.Net.out (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) (Cert.Pt.qBlk x1 n) (Cert.Pt.nbrBlk x0 n) ch)
    (m : (ℓ : Loc nD τ sig) → Buf (Elt Ideal) ℓ) (c : Dev nD) (b : Fin 2) (p : Fin 65536) (ch : Fin 32) :
    final m c (ValueIdx.ix3 b p ch)
      = Cert.Net.out (Cert.Pt.params (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36)) (m ((c.tc : Thread nD τ).loc main_arg37)) (m ((c.tc : Thread nD τ).loc main_arg38)) (m ((c.tc : Thread nD τ).loc main_arg39)) (m ((c.tc : Thread nD τ).loc main_arg40)) (m ((c.tc : Thread nD τ).loc main_arg41)) (m ((c.tc : Thread nD τ).loc main_arg42)) (m ((c.tc : Thread nD τ).loc main_arg43)) (m ((c.tc : Thread nD τ).loc main_arg44)) (m ((c.tc : Thread nD τ).loc main_arg45)) (m ((c.tc : Thread nD τ).loc main_arg46)) (m ((c.tc : Thread nD τ).loc main_arg47)))
          (Cert.Pt.qOf (m ((c.tc : Thread nD τ).loc main_arg0)) b p) (Cert.Pt.nbrOf (nbK m c) b p) ch := by
  refine (congrFun (final_eq m c) (ix3 b p ch)).trans ?_
  refine (transpose_apply [0, 2, 1] _ transposes_S2x32x65536_S2x65536x32_0_2_1 (ix3 b p ch) (ix3 b ch p) ?_).trans ?_
  · intro a
    match a with
    | ⟨0, _⟩ => rfl
    | ⟨1, _⟩ => rfl
    | ⟨2, _⟩ => rfl
  · rw [arr47 m hout c, G_ix3]
    rfl

end Cert.KerRun

end
-- ==== Proof.KerLay.lean ====
/-
  Layout operations of a channel-major block read at one point.

  A tensor of shape (C, 16, 512) read at (c, k, n) is channel c of neighbour k of point n of the block; a tensor of
  shape (C, 512) read at (c, n) is channel c of point n. The lemmas here read, at such an index: a product of a
  weight matrix with the block flattened to (C, 8192) columns (column k * 512 + n) as the finite sum over the input
  channels; a per-channel vector laid over the block as its entry at the channel; a per-point feature laid over the
  sixteen neighbours as the feature at the point. Extents are natural-number variables wherever the pattern recurs.
-/
import Idealize.ShloMosaic.Lib.ValueIdx
import Idealize.ShloMosaic.Lib.Pipeline.Value
import Idealize.ShloMosaic.Lib.ValueLayout
import Idealize.ShloMosaic.PureOps.Ideal.Laws

noncomputable section

namespace Cert.KerA

open Idealize.ShloMosaic Idealize.ShloMosaic.ValueIdx

/-! ## A plain matrix product read at an index -/

section Plain
variable (M K N : ℕ)

/-- The left operand's row coordinate is the result's row. -/
theorem plain_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- Its column coordinate is the contraction coordinate. -/
theorem plain_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem plain_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Its column coordinate is the result's column. -/
theorem plain_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

end Plain

/-- A product of an (M, K) matrix with a (K, N) matrix into the zero accumulator, read at (o, n): the sum over the
    contraction coordinate of the entries' products. -/
theorem matmul_plain_apply {M K N : ℕ} (D : DotDims ⟨2, ![M, K]⟩ ⟨2, ![K, N]⟩ ⟨2, ![M, N]⟩) (hD : D = DotDims.plain M K N)
    (W : FVec Ideal ⟨2, ![M, K]⟩ .f32) (X : FVec Ideal ⟨2, ![K, N]⟩ .f32) (o : Fin M) (n : Fin N) :
    matmul D none W X (constant ⟨2, ![M, N]⟩ .f32 0x00000000#32) (ix2 o n) = ∑ i : Fin K, W (ix2 o i) * X (ix2 i n) := by
  subst hD
  refine (Ideal.matmul_constant_zero_apply (DotDims.plain M K N) none W X (ix2 o n)).trans ?_
  rw [← Equiv.sum_comp (contrEquiv1 (DotDims.plain M K N) K rfl rfl).symm]
  refine Finset.sum_congr rfl fun i _ => ?_
  have hk := contrEquiv1_symm_val (DotDims.plain M K N) K rfl rfl i
  have el : (DotDims.plain M K N).lhsIdx (ix2 o n) ((contrEquiv1 (DotDims.plain M K N) K rfl rfl).symm i) = ix2 o i :=
    funext fun a => Fin.ext (by
      match a with
      | ⟨0, _⟩ => exact plain_lhs_0 M K N _ _
      | ⟨1, _⟩ => exact (plain_lhs_1 M K N _ _).trans hk)
  have er : (DotDims.plain M K N).rhsIdx (ix2 o n) ((contrEquiv1 (DotDims.plain M K N) K rfl rfl).symm i) = ix2 i n :=
    funext fun a => Fin.ext (by
      match a with
      | ⟨0, _⟩ => exact (plain_rhs_0 M K N _ _).trans hk
      | ⟨1, _⟩ => exact plain_rhs_1 M K N _ _)
  rw [el, er]

/-! ## Layout patterns of a channel-major block -/

section Patterns
variable {α : Type}

/-- A dense layer on a (Ci, 16, 512) block: the block flattened to (Ci, 8192) columns, the weight matrix applied into
    the zero accumulator, the result cut back to (Co, 16, 512). At (o, k, n) — column k * 512 + n — it is the sum over
    the input channels of weight times input at the same neighbour and point. -/
theorem dense3_apply {Ci Co : ℕ} (D : DotDims ⟨2, ![Co, Ci]⟩ ⟨2, ![Ci, 8192]⟩ ⟨2, ![Co, 8192]⟩) (hD : D = DotDims.plain Co Ci 8192)
    (h1 : (⟨3, ![Ci, 16, 512]⟩ : Shape).ShapeCasts ⟨2, ![Ci, 8192]⟩)
    (h2 : (⟨2, ![Co, 8192]⟩ : Shape).ShapeCasts ⟨3, ![Co, 16, 512]⟩)
    (W : FVec Ideal ⟨2, ![Co, Ci]⟩ .f32) (X : FVec Ideal ⟨3, ![Ci, 16, 512]⟩ .f32) (o : Fin Co) (k : Fin 16) (n : Fin 512) :
    shapeCast ⟨3, ![Co, 16, 512]⟩
        (matmul D none W (shapeCast ⟨2, ![Ci, 8192]⟩ X h1) (constant ⟨2, ![Co, 8192]⟩ .f32 0x00000000#32)) h2 (ix3 o k n)
      = ∑ i : Fin Ci, W (ix2 o i) * X (ix3 i k n) := by
  have hcol : k.val * 512 + n.val < 8192 := by have := k.isLt; have := n.isLt; omega
  refine (shapeCast_apply _ h2 (ix3 o k n) (ix2 o ⟨k.val * 512 + n.val, hcol⟩) ?_).trans ?_
  · rw [Shape.rowMajor_val_two, Shape.rowMajor_val_three]
    show o.val * 8192 + (k.val * 512 + n.val) = (o.val * 16 + k.val) * 512 + n.val
    omega
  refine (matmul_plain_apply D hD W _ o ⟨k.val * 512 + n.val, hcol⟩).trans ?_
  refine Finset.sum_congr rfl fun i _ => ?_
  refine congrArg (W (ix2 o i) * ·) ?_
  refine shapeCast_apply X h1 (ix2 i ⟨k.val * 512 + n.val, hcol⟩) (ix3 i k n) ?_
  rw [Shape.rowMajor_val_three, Shape.rowMajor_val_two]
  show (i.val * 16 + k.val) * 512 + n.val = i.val * 8192 + (k.val * 512 + n.val)
  omega

/-- A per-channel vector laid over a (C, 16, 512) block reads its entry at the channel. -/
theorem chan3_apply {C : ℕ} (h1 : (⟨1, ![C]⟩ : Shape).ShapeCasts ⟨3, ![C, 1, 1]⟩)
    (h2 : (⟨3, ![C, 1, 1]⟩ : Shape).Broadcasts ⟨3, ![C, 16, 512]⟩)
    (v : (⟨1, ![C]⟩ : Shape).Idx → α) (c : Fin C) (k : Fin 16) (n : Fin 512) :
    broadcastTo ⟨3, ![C, 16, 512]⟩ (shapeCast ⟨3, ![C, 1, 1]⟩ v h1) h2 (ix3 c k n) = v (ix1 c) := by
  refine (broadcastTo_apply _ h2 (ix3 c k n) (ix3 c (0 : Fin 1) (0 : Fin 1)) (fun a => ?_)).trans ?_
  · match a with
    | ⟨0, _⟩ =>
      show c.val = if C = 1 then 0 else c.val
      have := c.isLt
      split <;> omega
    | ⟨1, _⟩ => rfl
    | ⟨2, _⟩ => rfl
  · refine shapeCast_apply v h1 (ix3 c (0 : Fin 1) (0 : Fin 1)) (ix1 c) ?_
    rw [Shape.rowMajor_val_one, Shape.rowMajor_val_three]
    show c.val = (c.val * 1 + 0) * 1 + 0
    omega

/-- A per-channel vector laid over a (C, 512) block reads its entry at the channel. -/
theorem chan2_apply {C : ℕ} (h1 : (⟨1, ![C]⟩ : Shape).ShapeCasts ⟨2, ![C, 1]⟩)
    (h2 : (⟨2, ![C, 1]⟩ : Shape).Broadcasts ⟨2, ![C, 512]⟩)
    (v : (⟨1, ![C]⟩ : Shape).Idx → α) (c : Fin C) (n : Fin 512) :
    broadcastTo ⟨2, ![C, 512]⟩ (shapeCast ⟨2, ![C, 1]⟩ v h1) h2 (ix2 c n) = v (ix1 c) := by
  refine (broadcastTo_apply _ h2 (ix2 c n) (ix2 c (0 : Fin 1)) (fun a => ?_)).trans ?_
  · match a with
    | ⟨0, _⟩ =>
      show c.val = if C = 1 then 0 else c.val
      have := c.isLt
      split <;> omega
    | ⟨1, _⟩ => rfl
  · refine shapeCast_apply v h1 (ix2 c (0 : Fin 1)) (ix1 c) ?_
    rw [Shape.rowMajor_val_one, Shape.rowMajor_val_two]
    show c.val = c.val * 1 + 0
    omega

/-- A per-point feature (C, 512) laid over the sixteen neighbours reads the feature at the point. -/
theorem point3_apply {C : ℕ} (h0 : (⟨2, ![C, 512]⟩ : Shape).ShapeCasts ⟨3, ![C, 1, 512]⟩)
    (h1 : (⟨3, ![C, 1, 512]⟩ : Shape).ShapeCasts ⟨3, ![C, 1, 512]⟩)
    (h2 : (⟨3, ![C, 1, 512]⟩ : Shape).Broadcasts ⟨3, ![C, 16, 512]⟩)
    (f : (⟨2, ![C, 512]⟩ : Shape).Idx → α) (c : Fin C) (k : Fin 16) (n : Fin 512) :
    broadcastTo ⟨3, ![C, 16, 512]⟩ (shapeCast ⟨3, ![C, 1, 512]⟩ (shapeCast ⟨3, ![C, 1, 512]⟩ f h0) h1) h2 (ix3 c k n)
      = f (ix2 c n) := by
  refine (broadcastTo_apply _ h2 (ix3 c k n) (ix3 c (0 : Fin 1) n) (fun a => ?_)).trans ?_
  · match a with
    | ⟨0, _⟩ =>
      show c.val = if C = 1 then 0 else c.val
      have := c.isLt
      split <;> omega
    | ⟨1, _⟩ => rfl
    | ⟨2, _⟩ => rfl
  · refine (shapeCast_apply _ h1 (ix3 c (0 : Fin 1) n) (ix3 c (0 : Fin 1) n) rfl).trans ?_
    refine shapeCast_apply f h0 (ix3 c (0 : Fin 1) n) (ix2 c n) ?_
    rw [Shape.rowMajor_val_two, Shape.rowMajor_val_three]
    show c.val * 512 + n.val = (c.val * 1 + 0) * 512 + n.val
    omega

end Patterns

/-! ## Whole layers read at one point -/

section Layers

/-- A dense layer with its bias, the per-channel affine map and the rectifier, on a (Ci, 16, 512) block, read at
    (o, k, n): `max ((∑ i, W o i * X i k n + b o) * s o + t o) 0`. -/
theorem layer3_apply {Ci Co : ℕ} (D : DotDims ⟨2, ![Co, Ci]⟩ ⟨2, ![Ci, 8192]⟩ ⟨2, ![Co, 8192]⟩) (hD : D = DotDims.plain Co Ci 8192)
    (h1 : (⟨3, ![Ci, 16, 512]⟩ : Shape).ShapeCasts ⟨2, ![Ci, 8192]⟩)
    (h2 : (⟨2, ![Co, 8192]⟩ : Shape).ShapeCasts ⟨3, ![Co, 16, 512]⟩)
    (hc : (⟨1, ![Co]⟩ : Shape).ShapeCasts ⟨3, ![Co, 1, 1]⟩)
    (hb : (⟨3, ![Co, 1, 1]⟩ : Shape).Broadcasts ⟨3, ![Co, 16, 512]⟩)
    (W : FVec Ideal ⟨2, ![Co, Ci]⟩ .f32) (b s t : FVec Ideal ⟨1, ![Co]⟩ .f32) (X : FVec Ideal ⟨3, ![Ci, 16, 512]⟩ .f32)
    (o : Fin Co) (k : Fin 16) (n : Fin 512) :
    maximumf
        (addf
          (mulf
            (addf
              (shapeCast ⟨3, ![Co, 16, 512]⟩
                (matmul D none W (shapeCast ⟨2, ![Ci, 8192]⟩ X h1) (constant ⟨2, ![Co, 8192]⟩ .f32 0x00000000#32)) h2)
              (broadcastTo ⟨3, ![Co, 16, 512]⟩ (shapeCast ⟨3, ![Co, 1, 1]⟩ b hc) hb))
            (broadcastTo ⟨3, ![Co, 16, 512]⟩ (shapeCast ⟨3, ![Co, 1, 1]⟩ s hc) hb))
          (broadcastTo ⟨3, ![Co, 16, 512]⟩ (shapeCast ⟨3, ![Co, 1, 1]⟩ t hc) hb))
        (broadcast ⟨3, ![Co, 16, 512]⟩ (Scalar.ofBits (F := Ideal) .f32 0x00000000#32)) (ix3 o k n)
      = max ((∑ i : Fin Ci, W (ix2 o i) * X (ix3 i k n) + b (ix1 o)) * s (ix1 o) + t (ix1 o))
          (Ideal.ofBits .f32 0x00000000#32) :=
  congrArg₂ max
    (congrArg₂ (· + ·)
      (congrArg₂ (· * ·)
        (congrArg₂ (· + ·) (dense3_apply D hD h1 h2 W X o k n) (chan3_apply hc hb b o k n))
        (chan3_apply hc hb s o k n))
      (chan3_apply hc hb t o k n))
    rfl

/-- A dense layer with its bias on a (Ci, 512) block, read at (o, n): `∑ i, W o i * X i n + b o`. -/
theorem layer2_apply {Ci Co : ℕ} (D : DotDims ⟨2, ![Co, Ci]⟩ ⟨2, ![Ci, 512]⟩ ⟨2, ![Co, 512]⟩) (hD : D = DotDims.plain Co Ci 512)
    (hc : (⟨1, ![Co]⟩ : Shape).ShapeCasts ⟨2, ![Co, 1]⟩)
    (hb : (⟨2, ![Co, 1]⟩ : Shape).Broadcasts ⟨2, ![Co, 512]⟩)
    (W : FVec Ideal ⟨2, ![Co, Ci]⟩ .f32) (b : FVec Ideal ⟨1, ![Co]⟩ .f32) (X : FVec Ideal ⟨2, ![Ci, 512]⟩ .f32)
    (o : Fin Co) (n : Fin 512) :
    addf (matmul D none W X (constant ⟨2, ![Co, 512]⟩ .f32 0x00000000#32))
        (broadcastTo ⟨2, ![Co, 512]⟩ (shapeCast ⟨2, ![Co, 1]⟩ b hc) hb) (ix2 o n)
      = ∑ i : Fin Ci, W (ix2 o i) * X (ix2 i n) + b (ix1 o) :=
  congrArg₂ (· + ·) (matmul_plain_apply D hD W X o n) (chan2_apply hc hb b o n)

end Layers

end Cert.KerA

end
-- ==== Proof.KerPre.lean ====
/-
  The kernel body's first values at one point of the block: the neighbour rows, the point's row in channel-major
  layout, the point's row through its first dense layer, and the zero block.
-/
import Idealize.ShloMosaic.Lib.ValueIdx
import Idealize.ShloMosaic.Lib.Pipeline.Value
import Idealize.ShloMosaic.Lib.ValueLayout
import Idealize.ShloMosaic.PureOps.Ideal.Laws
import proofs.«138937_j6992206758069_2_alg».proof.Proof.Gen.KernelIdeal.Skeleton
import proofs.«138937_j6992206758069_2_alg».proof.Proof.Net
import proofs.«138937_j6992206758069_2_alg».proof.Proof.KerLay

noncomputable section

namespace Cert.KerA

open Cert.KernelIdeal Cert.KernelIdeal.Gen Idealize.ShloMosaic Idealize.ShloMosaic.ValueIdx

variable [Cert.KernelIdeal.Facts]

/-- The neighbour block, its leading unit axis dropped and widened to f32 (the identity on extended reals), at
    (n, k, j): row j of neighbour k of point n. -/
theorem pay2_apply (v45 : Vec Ideal S1x512x16x6 .bf16) (n : Fin 512) (k : Fin 16) (j : Fin 6) :
    k0_pay2 v45 (ix3 n k j) = v45 (ix4 0 n k j) := by
  unfold k0_pay2
  show shapeCast S512x16x6 v45 _ (ix3 n k j) = _
  refine shapeCast_apply v45 _ (ix3 n k j) (ix4 0 n k j) ?_
  rw [Shape.rowMajor_val_four, Shape.rowMajor_val_three]
  show ((0 * 512 + n.val) * 16 + k.val) * 6 + j.val = (n.val * 16 + k.val) * 6 + j.val
  omega

/-- The coordinate block, its leading unit axis dropped and transposed to channel-major, at (j, n): coordinate j of
    point n. -/
theorem pay3_apply (v48 : Vec Ideal S1x512x6 .f32) (j : Fin 6) (n : Fin 512) :
    k0_pay3 v48 (ix2 j n) = v48 (ix3 0 n j) := by
  unfold k0_pay3
  refine (transpose_apply _ _ _ (ix2 j n) (ix2 n j) (fun b => by
    match b with
    | ⟨0, _⟩ => rfl
    | ⟨1, _⟩ => rfl)).trans ?_
  refine shapeCast_apply v48 _ (ix2 n j) (ix3 0 n j) ?_
  rw [Shape.rowMajor_val_three, Shape.rowMajor_val_two]
  show (0 * 512 + n.val) * 6 + j.val = n.val * 6 + j.val
  omega

/-- The point's own row through its first dense layer, at (c, n): the matrix applied to the row of point n, plus the
    bias. -/
theorem pay5_apply (P : Cert.Net.Params) (v0 : Vec Ideal S8x6 .f32) (v1 : Vec Ideal S8 .f32) (v48 : Vec Ideal S1x512x6 .f32)
    (h0 : ∀ o i, v0 (ix2 o i) = P.w_mlp1 o i) (h1 : ∀ o, v1 (ix1 o) = P.b_mlp1 o) (c : Fin 8) (n : Fin 512) :
    k0_pay5 v0 v1 v48 (ix2 c n) = Cert.Net.pre0 P (fun j => v48 (ix3 0 n j)) c := by
  unfold k0_pay5
  refine (layer2_apply dot_S8x6_S6x512_S8x512_1_0_0_1_n_n rfl _ _ v0 v1 (k0_pay3 v48) c n).trans ?_
  show _ = (∑ i, P.w_mlp1 c i * v48 (ix3 0 n i)) + P.b_mlp1 c
  rw [h1 c]
  refine congrArg (· + P.b_mlp1 c) (Finset.sum_congr rfl fun i _ => ?_)
  rw [h0 c i, pay3_apply]

/-- The zero block the first pooling round starts from. -/
theorem pay6_apply (c : Fin 8) (n : Fin 512) : (k0_pay6 (F := Ideal)) (ix2 c n) = Cert.Net.zero32 := rfl

end Cert.KerA

end
-- ==== Proof.KerGeo.lean ====
/-
  The geometric features of a neighbour, as the kernel lays them out: the norm of three rows of the difference, and
  the five pieces concatenated along the channel axis read as the network's twenty features.
-/
import Idealize.ShloMosaic.Lib.ValueIdx
import Idealize.ShloMosaic.Lib.Pipeline.Value
import Idealize.ShloMosaic.Lib.ValueLayout
import Idealize.ShloMosaic.PureOps.Ideal.Laws
import proofs.«138937_j6992206758069_2_alg».proof.Proof.Gen.KernelIdeal.Skeleton
import proofs.«138937_j6992206758069_2_alg».proof.Proof.Net
import proofs.«138937_j6992206758069_2_alg».proof.Proof.KerLay

noncomputable section

namespace Cert.KerA

open Cert.KernelIdeal Cert.KernelIdeal.Gen Idealize.ShloMosaic Idealize.ShloMosaic.ValueIdx

variable [Cert.KernelIdeal.Facts]

/-! ## The norm of three consecutive rows of the difference -/

/-- Three consecutive rows of a (6, 16, 512) tensor from row `off`, squared, summed over the rows, the (16, 512) sum
    given a leading unit axis, the square root taken: at (0, k, n) the square root of the sum of the three squares at
    (off + d, k, n). -/
theorem norm_apply (off : ℕ) (hoff : off + 3 ≤ 6) (X : FVec Ideal ⟨3, ![6, 16, 512]⟩ .f32)
    (hs : (⟨3, ![6, 16, 512]⟩ : Shape).Slices ![off, 0, 0] ⟨3, ![3, 16, 512]⟩)
    (hr : (⟨3, ![3, 16, 512]⟩ : Shape).Reduces [0] ⟨2, ![16, 512]⟩)
    (hφ : FKind.Formats .f32) (hacc : (0x00000000#32 : BitVec 32) = FKind.add.neutral .f32 hφ)
    (hc : (⟨2, ![16, 512]⟩ : Shape).ShapeCasts ⟨3, ![1, 16, 512]⟩)
    (r : Fin 6 → EReal) (k : Fin 16) (n : Fin 512) (hX : ∀ j, X (ix3 j k n) = r j) :
    sqrt (shapeCast ⟨3, ![1, 16, 512]⟩
          (multiReduction .add [0] ⟨2, ![16, 512]⟩
            (mulf (extractStridedSlice ⟨3, ![3, 16, 512]⟩ ![off, 0, 0] X hs)
              (extractStridedSlice ⟨3, ![3, 16, 512]⟩ ![off, 0, 0] X hs))
            0x00000000#32 hr hφ hacc) hc) (ix3 (0 : Fin 1) k n)
      = Ideal.sqrt (∑ d : Fin 3, r ⟨off + d.val, by have := d.isLt; omega⟩ * r ⟨off + d.val, by have := d.isLt; omega⟩) := by
  refine congrArg Ideal.sqrt ?_
  refine (shapeCast_ab_1ab_apply _ hc (0 : Fin 1) k n).trans ?_
  refine (Ideal.multiReduction_add_single _ _ hr hφ hacc (ix2 k n)).trans ?_
  refine Finset.sum_congr rfl fun d _ => ?_
  have e : hr.lift (ix2 k n) d = ix3 d k n := funext fun a => Fin.ext (by
    match a with
    | ⟨0, _⟩ => rfl
    | ⟨1, _⟩ => rfl
    | ⟨2, _⟩ => rfl)
  have hd3 : d.val < 3 := d.isLt
  have hd : off + d.val < 6 := by omega
  have es : extractStridedSlice ⟨3, ![3, 16, 512]⟩ ![off, 0, 0] X hs (ix3 d k n) = r ⟨off + d.val, hd⟩ :=
    (extractStridedSlice_apply _ X hs (ix3 d k n) (ix3 ⟨off + d.val, hd⟩ k n) (fun a => by
      match a with
      | ⟨0, _⟩ => rfl
      | ⟨1, _⟩ => show k.val = 0 + k.val; omega
      | ⟨2, _⟩ => show n.val = 0 + n.val; omega)).trans (hX _)
  rw [e]
  exact congrArg₂ (· * ·) es es

/-! ## The twenty geometric features, laid end to end along the channel axis -/

/-- Five tensors laid end to end along axis 0 — the point's row over the neighbours, the neighbours' rows, their
    difference, and the two norms — read at (c, k, n) are the twenty geometric features of neighbour k. -/
theorem geo_cat_apply (x54 x50 x55 : FVec Ideal S6x16x512 .f32) (x60 x65 : FVec Ideal S1x16x512 .f32)
    (h : Shape.Concatenates [S6x16x512, S6x16x512, S6x16x512, S1x16x512, S1x16x512] S20x16x512 0)
    (q : Fin 6 → EReal) (nbr : Fin 16 → Fin 6 → EReal) (k : Fin 16) (n : Fin 512)
    (h54 : ∀ j, x54 (ix3 j k n) = q j) (h50 : ∀ j, x50 (ix3 j k n) = nbr k j)
    (h55 : ∀ j, x55 (ix3 j k n) = Cert.Net.rel q nbr k j)
    (h60 : x60 (ix3 (0 : Fin 1) k n) = Cert.Net.norm3 0 (by omega) q nbr k)
    (h65 : x65 (ix3 (0 : Fin 1) k n) = Cert.Net.norm3 3 (by omega) q nbr k) (c : Fin 20) :
    concatenate S20x16x512 0 [⟨S6x16x512, x54⟩, ⟨S6x16x512, x50⟩, ⟨S6x16x512, x55⟩, ⟨S1x16x512, x60⟩, ⟨S1x16x512, x65⟩] h
        (ix3 c k n) = Cert.Net.geo q nbr k c := by
  have hc := c.isLt
  unfold Cert.Net.geo
  by_cases c0 : c.val < 6
  · rw [dif_pos c0]
    refine (concatenate_apply_piece 0 [⟨S6x16x512, x54⟩, ⟨S6x16x512, x50⟩, ⟨S6x16x512, x55⟩, ⟨S1x16x512, x60⟩, ⟨S1x16x512, x65⟩] h (ix3 c k n) 0 (by show 0 < 5; omega) S6x16x512 x54 rfl rfl 0 rfl (ix3 ⟨c.val, c0⟩ k n)
      (fun b hb => ?_) ?_).trans (h54 _)
    · match b with
      | ⟨0, _⟩ => exact absurd rfl hb
      | ⟨1, _⟩ => rfl
      | ⟨2, _⟩ => rfl
    · show 0 + c.val = c.val
      omega
  rw [dif_neg c0]
  by_cases c1 : c.val < 12
  · rw [dif_pos c1]
    refine (concatenate_apply_piece 0 [⟨S6x16x512, x54⟩, ⟨S6x16x512, x50⟩, ⟨S6x16x512, x55⟩, ⟨S1x16x512, x60⟩, ⟨S1x16x512, x65⟩] h (ix3 c k n) 1 (by show 1 < 5; omega) S6x16x512 x50 rfl rfl 6 rfl
      (ix3 ⟨c.val - 6, by omega⟩ k n) (fun b hb => ?_) ?_).trans (h50 _)
    · match b with
      | ⟨0, _⟩ => exact absurd rfl hb
      | ⟨1, _⟩ => rfl
      | ⟨2, _⟩ => rfl
    · show 6 + (c.val - 6) = c.val
      omega
  rw [dif_neg c1]
  by_cases c2 : c.val < 18
  · rw [dif_pos c2]
    refine (concatenate_apply_piece 0 [⟨S6x16x512, x54⟩, ⟨S6x16x512, x50⟩, ⟨S6x16x512, x55⟩, ⟨S1x16x512, x60⟩, ⟨S1x16x512, x65⟩] h (ix3 c k n) 2 (by show 2 < 5; omega) S6x16x512 x55 rfl rfl 12 rfl
      (ix3 ⟨c.val - 12, by omega⟩ k n) (fun b hb => ?_) ?_).trans (h55 _)
    · match b with
      | ⟨0, _⟩ => exact absurd rfl hb
      | ⟨1, _⟩ => rfl
      | ⟨2, _⟩ => rfl
    · show 12 + (c.val - 12) = c.val
      omega
  rw [dif_neg c2]
  by_cases c3 : c.val = 18
  · rw [if_pos c3]
    refine (concatenate_apply_piece 0 [⟨S6x16x512, x54⟩, ⟨S6x16x512, x50⟩, ⟨S6x16x512, x55⟩, ⟨S1x16x512, x60⟩, ⟨S1x16x512, x65⟩] h (ix3 c k n) 3 (by show 3 < 5; omega) S1x16x512 x60 rfl rfl 18 rfl
      (ix3 (0 : Fin 1) k n) (fun b hb => ?_) ?_).trans h60
    · match b with
      | ⟨0, _⟩ => exact absurd rfl hb
      | ⟨1, _⟩ => rfl
      | ⟨2, _⟩ => rfl
    · show 18 + 0 = c.val
      omega
  rw [if_neg c3]
  refine (concatenate_apply_piece 0 [⟨S6x16x512, x54⟩, ⟨S6x16x512, x50⟩, ⟨S6x16x512, x55⟩, ⟨S1x16x512, x60⟩, ⟨S1x16x512, x65⟩] h (ix3 c k n) 4 (by show 4 < 5; omega) S1x16x512 x65 rfl rfl 19 rfl
    (ix3 (0 : Fin 1) k n) (fun b hb => ?_) ?_).trans h65
  · match b with
    | ⟨0, _⟩ => exact absurd rfl hb
    | ⟨1, _⟩ => rfl
    | ⟨2, _⟩ => rfl
  · show 19 + 0 = c.val
    omega

end Cert.KerA

end
-- ==== Proof.KerSte.lean ====
/-
  The neighbour features at one point of the block: the geometric features through two dense layers, each with its
  bias, per-channel affine map and rectifier, equal the network's `ste` at the point's row and its neighbours' rows.
-/
import Idealize.ShloMosaic.Lib.ValueIdx
import Idealize.ShloMosaic.Lib.Pipeline.Value
import Idealize.ShloMosaic.Lib.ValueLayout
import Idealize.ShloMosaic.PureOps.Ideal.Laws
import proofs.«138937_j6992206758069_2_alg».proof.Proof.Gen.KernelIdeal.Skeleton
import proofs.«138937_j6992206758069_2_alg».proof.Proof.Net
import proofs.«138937_j6992206758069_2_alg».proof.Proof.KerLay
import proofs.«138937_j6992206758069_2_alg».proof.Proof.KerPre
import proofs.«138937_j6992206758069_2_alg».proof.Proof.KerGeo

noncomputable section

namespace Cert.KerA

open Cert.KernelIdeal Cert.KernelIdeal.Gen Idealize.ShloMosaic Idealize.ShloMosaic.ValueIdx

variable [Cert.KernelIdeal.Facts]

/-- The eight neighbour features every pooling round reads, at (c, k, n): the network's `ste` of point n's row and its
    sixteen neighbours' rows, at neighbour k and channel c. -/
theorem pay4_apply (P : Cert.Net.Params) (v4 : Vec Ideal S16x20 .f32) (v5 v6 v7 : Vec Ideal S16 .f32)
    (v8 : Vec Ideal S8x16 .f32) (v9 v10 v11 : Vec Ideal S8 .f32) (v47 : FVec Ideal S512x16x6 .f32)
    (v48 : Vec Ideal S1x512x6 .f32)
    (h4 : ∀ o i, v4 (ix2 o i) = P.w_lse0 o i) (h5 : ∀ o, v5 (ix1 o) = P.b_lse0 o) (h6 : ∀ o, v6 (ix1 o) = P.s_lse0 o)
    (h7 : ∀ o, v7 (ix1 o) = P.t_lse0 o) (h8 : ∀ o i, v8 (ix2 o i) = P.w_lse1 o i) (h9 : ∀ o, v9 (ix1 o) = P.b_lse1 o)
    (h10 : ∀ o, v10 (ix1 o) = P.s_lse1 o) (h11 : ∀ o, v11 (ix1 o) = P.t_lse1 o)
    (c : Fin 8) (k : Fin 16) (n : Fin 512) :
    k0_pay4 v4 v5 v6 v7 v8 v9 v10 v11 v47 v48 (ix3 c k n)
      = Cert.Net.ste P (fun j => v48 (ix3 0 n j)) (fun k' j => v47 (ix3 n k' j)) k c := by
  unfold k0_pay4
  -- the second dense layer, outermost
  refine (layer3_apply dot_S8x16_S16x8192_S8x8192_1_0_0_1_n_n rfl _ _ _ _ v8 v9 v10 v11 _ c k n).trans ?_
  show _ = max ((∑ i, P.w_lse1 c i
      * Cert.Net.ste0 P (fun j => v48 (ix3 0 n j)) (fun k' j => v47 (ix3 n k' j)) k i + P.b_lse1 c) * P.s_lse1 c + P.t_lse1 c)
    Cert.Net.zero32
  rw [h9 c, h10 c, h11 c]
  refine congrArg (fun s => max ((s + P.b_lse1 c) * P.s_lse1 c + P.t_lse1 c) Cert.Net.zero32)
    (Finset.sum_congr rfl fun i _ => ?_)
  rw [h8 c i]
  refine congrArg (P.w_lse1 c i * ·) ?_
  -- the first dense layer
  refine (layer3_apply dot_S16x20_S20x8192_S16x8192_1_0_0_1_n_n rfl _ _ _ _ v4 v5 v6 v7 _ i k n).trans ?_
  show _ = max ((∑ j, P.w_lse0 i j
      * Cert.Net.geo (fun j => v48 (ix3 0 n j)) (fun k' j => v47 (ix3 n k' j)) k j + P.b_lse0 i) * P.s_lse0 i + P.t_lse0 i)
    Cert.Net.zero32
  rw [h5 i, h6 i, h7 i]
  refine congrArg (fun s => max ((s + P.b_lse0 i) * P.s_lse0 i + P.t_lse0 i) Cert.Net.zero32)
    (Finset.sum_congr rfl fun j _ => ?_)
  rw [h4 i j]
  refine congrArg (P.w_lse0 i j * ·) ?_
  -- the geometric features: the five pieces at the point
  have h54 : ∀ j' : Fin 6, broadcastTo S6x16x512
      (shapeCast S6x1x512 (shapeCast S6x1x512 (k0_pay3 v48) shapeCasts_S6x512_S6x1x512) shapeCasts_S6x1x512_S6x1x512)
      broadcasts_S6x1x512_S6x16x512 (ix3 j' k n) = v48 (ix3 0 n j') := fun j' =>
    (point3_apply _ _ _ (k0_pay3 v48) j' k n).trans (pay3_apply v48 j' n)
  have h50 : ∀ j' : Fin 6, transpose S6x16x512 [2, 1, 0] v47 transposes_S512x16x6_p2_1_0_S6x16x512 (ix3 j' k n)
      = v47 (ix3 n k j') := fun j' =>
    transpose_apply _ v47 _ (ix3 j' k n) (ix3 n k j') (fun b => by
      match b with
      | ⟨0, _⟩ => rfl
      | ⟨1, _⟩ => rfl
      | ⟨2, _⟩ => rfl)
  have h55 : ∀ j' : Fin 6, subf
      (broadcastTo S6x16x512
        (shapeCast S6x1x512 (shapeCast S6x1x512 (k0_pay3 v48) shapeCasts_S6x512_S6x1x512) shapeCasts_S6x1x512_S6x1x512)
        broadcasts_S6x1x512_S6x16x512)
      (transpose S6x16x512 [2, 1, 0] v47 transposes_S512x16x6_p2_1_0_S6x16x512) (ix3 j' k n)
      = Cert.Net.rel (fun j => v48 (ix3 0 n j)) (fun k' j => v47 (ix3 n k' j)) k j' := fun j' =>
    congrArg₂ (· - ·) (h54 j') (h50 j')
  refine geo_cat_apply _ _ _ _ _ _ (fun j => v48 (ix3 0 n j)) (fun k' j => v47 (ix3 n k' j)) k n h54 h50 h55 ?_ ?_ j
  · exact norm_apply 0 (by omega) _ _ _ _ _ _ _ k n h55
  · exact norm_apply 3 (by omega) _ _ _ _ _ _ _ k n h55

end Cert.KerA

end
-- ==== Proof.KerLayB.lean ====
/-
  Layout operations of the kernel's second half, read at one index: a per-channel vector laid over a block of points,
  a per-point feature laid over the sixteen neighbours, a dense layer on channel-major data (flat column
  `k * 512 + n` for neighbour `k` of point `n`), a concatenation of channels, and the reductions over the
  neighbour axis. Channel counts are variables; the neighbour count sixteen and the block's 512 points are literal.
-/
import Idealize.ShloMosaic.Lib.ValueIdx
import Idealize.ShloMosaic.Lib.Pipeline.Value
import Idealize.ShloMosaic.PureOps.Ideal.Laws

noncomputable section

namespace Cert.KerB

open Idealize.ShloMosaic Idealize.ShloMosaic.ValueIdx

/-- A vector `[C]` cast to a column `[C, 1]` and laid over `N` points reads its channel. -/
theorem colBcast_apply {C N : ℕ} {α : Type} (v : (⟨1, ![C]⟩ : Shape).Idx → α)
    (hc : (⟨1, ![C]⟩ : Shape).ShapeCasts ⟨2, ![C, 1]⟩) (hb : (⟨2, ![C, 1]⟩ : Shape).Broadcasts ⟨2, ![C, N]⟩)
    (c : Fin C) (n : Fin N) :
    broadcastTo ⟨2, ![C, N]⟩ (shapeCast ⟨2, ![C, 1]⟩ v hc) hb (ix2 c n) = v (ix1 c) := by
  refine (broadcastTo_apply _ hb (ix2 c n) (ix2 c (0 : Fin 1)) ?_).trans ?_
  · intro a
    match a with
    | ⟨0, _⟩ =>
      show c.val = if C = 1 then 0 else c.val
      split
      · have := c.isLt; omega
      · rfl
    | ⟨1, _⟩ => rfl
  · refine shapeCast_apply v hc (ix2 c (0 : Fin 1)) (ix1 c) ?_
    rw [Shape.rowMajor_val_one, Shape.rowMajor_val_two]
    show c.val = c.val * 1 + 0
    omega

/-- A block `[C, N]` cast to `[C, 1, N]` reads the same channel and point. -/
theorem midUnit_apply {C N : ℕ} {α : Type} (f : (⟨2, ![C, N]⟩ : Shape).Idx → α)
    (hc : (⟨2, ![C, N]⟩ : Shape).ShapeCasts ⟨3, ![C, 1, N]⟩) (c : Fin C) (z : Fin 1) (n : Fin N) :
    shapeCast ⟨3, ![C, 1, N]⟩ f hc (ix3 c z n) = f (ix2 c n) := by
  refine shapeCast_apply f hc (ix3 c z n) (ix2 c n) ?_
  rw [Shape.rowMajor_val_two, Shape.rowMajor_val_three]
  show c.val * N + n.val = (c.val * 1 + z.val) * N + n.val
  have : z.val = 0 := by have := z.isLt; omega
  rw [this]; simp

/-- A block `[C, 1, N]` laid over `K` neighbours reads its one row. -/
theorem midBcast_apply {C K N : ℕ} {α : Type} (x : (⟨3, ![C, 1, N]⟩ : Shape).Idx → α)
    (hb : (⟨3, ![C, 1, N]⟩ : Shape).Broadcasts ⟨3, ![C, K, N]⟩) (c : Fin C) (k : Fin K) (n : Fin N) :
    broadcastTo ⟨3, ![C, K, N]⟩ x hb (ix3 c k n) = x (ix3 c (0 : Fin 1) n) := by
  refine broadcastTo_apply x hb (ix3 c k n) (ix3 c (0 : Fin 1) n) ?_
  intro a
  match a with
  | ⟨0, _⟩ =>
    show c.val = if C = 1 then 0 else c.val
    split
    · have := c.isLt; omega
    · rfl
  | ⟨1, _⟩ => rfl
  | ⟨2, _⟩ =>
    show n.val = if N = 1 then 0 else n.val
    split
    · have := n.isLt; omega
    · rfl

/-- A per-point feature `[C, N]` laid over the neighbours (cast to `[C, 1, N]`, cast to itself, broadcast). -/
theorem overNbr_apply {C K N : ℕ} {α : Type} (f : (⟨2, ![C, N]⟩ : Shape).Idx → α)
    (hc : (⟨2, ![C, N]⟩ : Shape).ShapeCasts ⟨3, ![C, 1, N]⟩) (hs : (⟨3, ![C, 1, N]⟩ : Shape).ShapeCasts ⟨3, ![C, 1, N]⟩)
    (hb : (⟨3, ![C, 1, N]⟩ : Shape).Broadcasts ⟨3, ![C, K, N]⟩) (c : Fin C) (k : Fin K) (n : Fin N) :
    broadcastTo ⟨3, ![C, K, N]⟩ (shapeCast ⟨3, ![C, 1, N]⟩ (shapeCast ⟨3, ![C, 1, N]⟩ f hc) hs) hb (ix3 c k n) = f (ix2 c n) := by
  rw [midBcast_apply, shapeCast_self, midUnit_apply]

/-- The same without the second cast (a row maximum or a row sum laid back over the neighbours). -/
theorem keepdims_apply {C K N : ℕ} {α : Type} (f : (⟨2, ![C, N]⟩ : Shape).Idx → α)
    (hc : (⟨2, ![C, N]⟩ : Shape).ShapeCasts ⟨3, ![C, 1, N]⟩)
    (hb : (⟨3, ![C, 1, N]⟩ : Shape).Broadcasts ⟨3, ![C, K, N]⟩) (c : Fin C) (k : Fin K) (n : Fin N) :
    broadcastTo ⟨3, ![C, K, N]⟩ (shapeCast ⟨3, ![C, 1, N]⟩ f hc) hb (ix3 c k n) = f (ix2 c n) := by
  rw [midBcast_apply, midUnit_apply]

/-- The dimension numbers of the plain matrix product: the left operand's columns contracted with the right
    operand's rows, no batch axis. -/
def Plain {a b c d e f : ℕ} (D : DotDims ⟨2, ![a, b]⟩ ⟨2, ![c, d]⟩ ⟨2, ![e, f]⟩) : Prop :=
  D.lhsContracting = [1] ∧ D.rhsContracting = [0] ∧ D.lhsNonContracting = [0] ∧ D.rhsNonContracting = [1] ∧
    D.lhsBatch = [] ∧ D.rhsBatch = []

/-- The plain matrix product `[Co, Ci] · [Ci, N]` into a zero accumulator, read at `(o, m)`: `∑ i, W o i * X i m`.
    -/
theorem matmul2_apply {Co Ci N : ℕ} (D : DotDims ⟨2, ![Co, Ci]⟩ ⟨2, ![Ci, N]⟩ ⟨2, ![Co, N]⟩)
    (hD : Plain D)
    (W : FVec Ideal ⟨2, ![Co, Ci]⟩ .f32) (X : FVec Ideal ⟨2, ![Ci, N]⟩ .f32) (o : Fin Co) (m : Fin N) :
    matmul D none W X (constant (F := Ideal) ⟨2, ![Co, N]⟩ .f32 0x00000000#32) (ix2 o m)
      = ∑ i : Fin Ci, W (ix2 o i) * X (ix2 i m) := by
  obtain ⟨h1, h2, h3, h4, h5, h6⟩ := hD
  obtain ⟨lc, rc, ln, rn, lb, rb, wf⟩ := D
  simp only at h1 h2 h3 h4 h5 h6
  subst h1 h2 h3 h4 h5 h6
  refine (Ideal.matmul_constant_zero_apply _ none W X (ix2 o m)).trans ?_
  have hr : (DotDims.mk [1] [0] [0] [1] [] [] wf : DotDims ⟨2, ![Co, Ci]⟩ ⟨2, ![Ci, N]⟩ ⟨2, ![Co, N]⟩).contr.rank = 1 := rfl
  have hs : (DotDims.mk [1] [0] [0] [1] [] [] wf : DotDims ⟨2, ![Co, Ci]⟩ ⟨2, ![Ci, N]⟩ ⟨2, ![Co, N]⟩).contr.size ⟨0, by omega⟩ = Ci := rfl
  rw [← Equiv.sum_comp (contrEquiv1 _ Ci hr hs).symm]
  refine Finset.sum_congr rfl fun i _ => ?_
  have e1 : (DotDims.mk [1] [0] [0] [1] [] [] wf : DotDims ⟨2, ![Co, Ci]⟩ ⟨2, ![Ci, N]⟩ ⟨2, ![Co, N]⟩).lhsIdx (ix2 o m)
      ((contrEquiv1 _ Ci hr hs).symm i) = ix2 o i := by
    funext a
    match a with
    | ⟨0, _⟩ => rfl
    | ⟨1, _⟩ => rfl
  have e2 : (DotDims.mk [1] [0] [0] [1] [] [] wf : DotDims ⟨2, ![Co, Ci]⟩ ⟨2, ![Ci, N]⟩ ⟨2, ![Co, N]⟩).rhsIdx (ix2 o m)
      ((contrEquiv1 _ Ci hr hs).symm i) = ix2 i m := by
    funext a
    match a with
    | ⟨0, _⟩ => rfl
    | ⟨1, _⟩ => rfl
  rw [e1, e2]

/-- A dense layer on channel-major data: `[Ci, 16, 512]` flattened to `[Ci, 8192]` (column `k * 512 + n`), the matrix
    product into a zero accumulator, and the result cast back to `[Co, 16, 512]`: at `(o, k, n)` it is
    `∑ i, W o i * X i k n`. -/
theorem dense3_apply {Co Ci : ℕ} (D : DotDims ⟨2, ![Co, Ci]⟩ ⟨2, ![Ci, 8192]⟩ ⟨2, ![Co, 8192]⟩)
    (hD : Plain D)
    (hc1 : (⟨3, ![Ci, 16, 512]⟩ : Shape).ShapeCasts ⟨2, ![Ci, 8192]⟩)
    (hc2 : (⟨2, ![Co, 8192]⟩ : Shape).ShapeCasts ⟨3, ![Co, 16, 512]⟩)
    (W : FVec Ideal ⟨2, ![Co, Ci]⟩ .f32) (X : FVec Ideal ⟨3, ![Ci, 16, 512]⟩ .f32) (o : Fin Co) (k : Fin 16) (n : Fin 512) :
    shapeCast ⟨3, ![Co, 16, 512]⟩
        (matmul D none W (shapeCast ⟨2, ![Ci, 8192]⟩ X hc1) (constant (F := Ideal) ⟨2, ![Co, 8192]⟩ .f32 0x00000000#32)) hc2
        (ix3 o k n)
      = ∑ i : Fin Ci, W (ix2 o i) * X (ix3 i k n) := by
  have hm : k.val * 512 + n.val < 8192 := by have := k.isLt; have := n.isLt; omega
  refine (shapeCast_apply _ hc2 (ix3 o k n) (ix2 o (⟨k.val * 512 + n.val, hm⟩ : Fin 8192)) ?_).trans ?_
  · rw [Shape.rowMajor_val_two, Shape.rowMajor_val_three]
    show o.val * 8192 + (k.val * 512 + n.val) = (o.val * 16 + k.val) * 512 + n.val
    omega
  · rw [matmul2_apply D hD]
    refine Finset.sum_congr rfl fun i _ => ?_
    refine congrArg (W (ix2 o i) * ·) ?_
    refine shapeCast_apply X hc1 (ix2 i (⟨k.val * 512 + n.val, hm⟩ : Fin 8192)) (ix3 i k n) ?_
    rw [Shape.rowMajor_val_two, Shape.rowMajor_val_three]
    show (i.val * 16 + k.val) * 512 + n.val = i.val * 8192 + (k.val * 512 + n.val)
    omega

/-- Two channel-major blocks stacked along the channels: below the first count the first block, from it on the
    second. -/
theorem concat0_apply {A B AB K N : ℕ} {α : Type} (hAB : AB = A + B) (x : (⟨3, ![A, K, N]⟩ : Shape).Idx → α)
    (y : (⟨3, ![B, K, N]⟩ : Shape).Idx → α)
    (h : Shape.Concatenates [(⟨3, ![A, K, N]⟩ : Shape), ⟨3, ![B, K, N]⟩] ⟨3, ![AB, K, N]⟩ 0)
    (c : Fin AB) (k : Fin K) (n : Fin N) :
    concatenate ⟨3, ![AB, K, N]⟩ 0 [⟨⟨3, ![A, K, N]⟩, x⟩, ⟨⟨3, ![B, K, N]⟩, y⟩] h (ix3 c k n)
      = if hlt : c.val < A then x (ix3 ⟨c.val, hlt⟩ k n)
        else y (ix3 ⟨c.val - A, by have := c.isLt; omega⟩ k n) := by
  split
  · next hlt =>
    refine concatenate_pair_apply_left 0 x y h (ix3 c k n) rfl (ix3 ⟨c.val, hlt⟩ k n) ?_
    intro b
    match b with
    | ⟨0, _⟩ => rfl
    | ⟨1, _⟩ => rfl
    | ⟨2, _⟩ => rfl
  · next hge =>
    refine concatenate_pair_apply_right 0 x y h (ix3 c k n) rfl rfl (ix3 ⟨c.val - A, by have := c.isLt; omega⟩ k n) ?_ ?_
    · intro b hb
      match b with
      | ⟨0, _⟩ => exact absurd rfl hb
      | ⟨1, _⟩ => rfl
      | ⟨2, _⟩ => rfl
    · show c.val - A + A = c.val
      omega

/-- The sum over the neighbour axis of a channel-major block. -/
theorem sumNbr_apply {C K N : ℕ} (src : FVec Ideal ⟨3, ![C, K, N]⟩ .f32)
    (h : (⟨3, ![C, K, N]⟩ : Shape).Reduces [1] ⟨2, ![C, N]⟩) (hφ : FKind.Formats .f32)
    (hacc : (0x00000000#32 : BitVec 32) = FKind.add.neutral .f32 hφ) (c : Fin C) (n : Fin N) :
    multiReduction .add [1] ⟨2, ![C, N]⟩ src 0x00000000#32 h hφ hacc (ix2 c n) = ∑ k : Fin K, src (ix3 c k n) := by
  refine (Ideal.multiReduction_add_single src _ h hφ hacc (ix2 c n)).trans ?_
  show ∑ k : Fin K, src (h.lift (ix2 c n) k) = _
  refine Finset.sum_congr rfl fun k _ => congrArg src ?_
  funext a
  match a with
  | ⟨0, _⟩ => rfl
  | ⟨1, _⟩ => rfl
  | ⟨2, _⟩ => rfl

/-- The maximum over the neighbour axis: the fold of `max` from the accumulator's value. -/
theorem maxNbr_apply {C K N : ℕ} (src : FVec Ideal ⟨3, ![C, K, N]⟩ .f32)
    (h : (⟨3, ![C, K, N]⟩ : Shape).Reduces [1] ⟨2, ![C, N]⟩) (hφ : FKind.Formats .f32)
    (hacc : (0xFF800000#32 : BitVec 32) = FKind.maximumf.neutral .f32 hφ) (c : Fin C) (n : Fin N) :
    multiReduction .maximumf [1] ⟨2, ![C, N]⟩ src 0xFF800000#32 h hφ hacc (ix2 c n)
      = (Finset.univ : Finset (Fin K)).fold max (Ideal.ofBits .f32 0xFF800000#32) (fun k => src (ix3 c k n)) := by
  refine (Ideal.multiReduction_maximumf_single src _ h hφ hacc (ix2 c n)).trans ?_
  show (Finset.univ : Finset (Fin K)).fold max (Ideal.ofBits .f32 0xFF800000#32) (fun k => src (h.lift (ix2 c n) k)) = _
  refine congrArg (fun f => (Finset.univ : Finset (Fin K)).fold max (Ideal.ofBits .f32 0xFF800000#32) f) (funext fun k => congrArg src ?_)
  funext a
  match a with
  | ⟨0, _⟩ => rfl
  | ⟨1, _⟩ => rfl
  | ⟨2, _⟩ => rfl

/-- A dense layer on a block `[Ci, N]`: the matrix product into a zero accumulator plus the bias laid over the points. -/
def denseB (Co Ci N : ℕ) (D : DotDims ⟨2, ![Co, Ci]⟩ ⟨2, ![Ci, N]⟩ ⟨2, ![Co, N]⟩)
    (hc : (⟨1, ![Co]⟩ : Shape).ShapeCasts ⟨2, ![Co, 1]⟩) (hb : (⟨2, ![Co, 1]⟩ : Shape).Broadcasts ⟨2, ![Co, N]⟩)
    (W : FVec Ideal ⟨2, ![Co, Ci]⟩ .f32) (b : FVec Ideal ⟨1, ![Co]⟩ .f32) (Y : FVec Ideal ⟨2, ![Ci, N]⟩ .f32) :
    FVec Ideal ⟨2, ![Co, N]⟩ .f32 :=
  addf (matmul D none W Y (constant (F := Ideal) ⟨2, ![Co, N]⟩ .f32 0x00000000#32))
    (broadcastTo ⟨2, ![Co, N]⟩ (shapeCast ⟨2, ![Co, 1]⟩ b hc) hb)

theorem denseB_apply {Co Ci N : ℕ} (D : DotDims ⟨2, ![Co, Ci]⟩ ⟨2, ![Ci, N]⟩ ⟨2, ![Co, N]⟩) (hD : Plain D)
    (hc : (⟨1, ![Co]⟩ : Shape).ShapeCasts ⟨2, ![Co, 1]⟩) (hb : (⟨2, ![Co, 1]⟩ : Shape).Broadcasts ⟨2, ![Co, N]⟩)
    (W : FVec Ideal ⟨2, ![Co, Ci]⟩ .f32) (b : FVec Ideal ⟨1, ![Co]⟩ .f32) (Y : FVec Ideal ⟨2, ![Ci, N]⟩ .f32)
    (o : Fin Co) (n : Fin N) :
    denseB Co Ci N D hc hb W b Y (ix2 o n) = (∑ i : Fin Ci, W (ix2 o i) * Y (ix2 i n)) + b (ix1 o) := by
  unfold denseB
  rw [addf_apply, matmul2_apply D hD, colBcast_apply]

/-- The per-channel affine map `y * s + t` with the two vectors laid over the points. -/
def affB (C N : ℕ) (hc : (⟨1, ![C]⟩ : Shape).ShapeCasts ⟨2, ![C, 1]⟩) (hb : (⟨2, ![C, 1]⟩ : Shape).Broadcasts ⟨2, ![C, N]⟩)
    (s t : FVec Ideal ⟨1, ![C]⟩ .f32) (Y : FVec Ideal ⟨2, ![C, N]⟩ .f32) : FVec Ideal ⟨2, ![C, N]⟩ .f32 :=
  addf (mulf Y (broadcastTo ⟨2, ![C, N]⟩ (shapeCast ⟨2, ![C, 1]⟩ s hc) hb))
    (broadcastTo ⟨2, ![C, N]⟩ (shapeCast ⟨2, ![C, 1]⟩ t hc) hb)

theorem affB_apply {C N : ℕ} (hc : (⟨1, ![C]⟩ : Shape).ShapeCasts ⟨2, ![C, 1]⟩)
    (hb : (⟨2, ![C, 1]⟩ : Shape).Broadcasts ⟨2, ![C, N]⟩) (s t : FVec Ideal ⟨1, ![C]⟩ .f32)
    (Y : FVec Ideal ⟨2, ![C, N]⟩ .f32) (c : Fin C) (n : Fin N) :
    affB C N hc hb s t Y (ix2 c n) = Y (ix2 c n) * s (ix1 c) + t (ix1 c) := by
  unfold affB
  rw [addf_apply, mulf_apply, colBcast_apply, colBcast_apply]

end Cert.KerB

end
-- ==== Proof.KerPool.lean ====
/-
  One round of attentive pooling as the kernel computes it, on a channel-major block `X : [C, 16, 512]` (channel,
  neighbour, point), read at one point `n` of the block: the scores by the square matrix, the softmax over the
  neighbour axis (the maximum taken from -inf, the exponentials, their sum, the quotient), the score-weighted sum of
  the features over the neighbours, a dense layer, the per-channel affine map, the rectifier, and a second dense
  layer. Each stage is the network's stage of the same name once every layout operation is read at its index; no
  algebra is used. The channel counts are variables.
-/
import proofs.«138937_j6992206758069_2_alg».proof.Proof.Net
import proofs.«138937_j6992206758069_2_alg».proof.Proof.KerLayB

noncomputable section

namespace Cert.KerB

open Idealize.ShloMosaic Idealize.ShloMosaic.ValueIdx

/-! ## Stages on a block `[C, N]`, against the network's stages -/

/-- A dense layer of the kernel at point `n` is the network's dense layer of the point's features. -/
theorem denseB_net {Co Ci N : ℕ} (D : DotDims ⟨2, ![Co, Ci]⟩ ⟨2, ![Ci, N]⟩ ⟨2, ![Co, N]⟩) (hD : Plain D)
    (hc : (⟨1, ![Co]⟩ : Shape).ShapeCasts ⟨2, ![Co, 1]⟩) (hb : (⟨2, ![Co, 1]⟩ : Shape).Broadcasts ⟨2, ![Co, N]⟩)
    (W : FVec Ideal ⟨2, ![Co, Ci]⟩ .f32) (b : FVec Ideal ⟨1, ![Co]⟩ .f32) (Y : FVec Ideal ⟨2, ![Ci, N]⟩ .f32)
    (w : Fin Co → Fin Ci → EReal) (b' : Fin Co → EReal) (y : Fin Ci → EReal) (n : Fin N)
    (hW : ∀ o i, W (ix2 o i) = w o i) (hb' : ∀ o, b (ix1 o) = b' o) (hY : ∀ i, Y (ix2 i n) = y i) (o : Fin Co) :
    denseB Co Ci N D hc hb W b Y (ix2 o n) = Net.lin w b' y o := by
  rw [denseB_apply D hD, hb' o]
  unfold Net.lin Net.mat
  refine congrArg (· + b' o) (Finset.sum_congr rfl fun i _ => ?_)
  rw [hW o i, hY i]

/-- The affine map of the kernel at point `n` is the network's. -/
theorem affB_net {C N : ℕ} (hc : (⟨1, ![C]⟩ : Shape).ShapeCasts ⟨2, ![C, 1]⟩)
    (hb : (⟨2, ![C, 1]⟩ : Shape).Broadcasts ⟨2, ![C, N]⟩) (s t : FVec Ideal ⟨1, ![C]⟩ .f32)
    (Y : FVec Ideal ⟨2, ![C, N]⟩ .f32) (s' t' y : Fin C → EReal) (n : Fin N)
    (hs : ∀ c, s (ix1 c) = s' c) (ht : ∀ c, t (ix1 c) = t' c) (hY : ∀ c, Y (ix2 c n) = y c) (c : Fin C) :
    affB C N hc hb s t Y (ix2 c n) = Net.aff s' t' y c := by
  rw [affB_apply, hs c, ht c, hY c]
  rfl

/-- The rectifier: the maximum with the zero word laid over the block. -/
def reluB (C N : ℕ) (Y : FVec Ideal ⟨2, ![C, N]⟩ .f32) : FVec Ideal ⟨2, ![C, N]⟩ .f32 :=
  maximumf Y (broadcast ⟨2, ![C, N]⟩ (Scalar.ofBits .f32 0x00000000#32 : Ideal .f32))

theorem reluB_net {C N : ℕ} (Y : FVec Ideal ⟨2, ![C, N]⟩ .f32) (y : Fin C → EReal) (n : Fin N)
    (hY : ∀ c, Y (ix2 c n) = y c) (c : Fin C) : reluB C N Y (ix2 c n) = Net.relu y c := by
  unfold reluB Net.relu
  rw [maximumf_apply, hY c]
  rfl

/-! ## The softmax over the neighbours and the pooled sum -/

/-- The scores: the square matrix applied to every neighbour's features. -/
def scoreV (C : ℕ) (hc1 : (⟨3, ![C, 16, 512]⟩ : Shape).ShapeCasts ⟨2, ![C, 8192]⟩)
    (D1 : DotDims ⟨2, ![C, C]⟩ ⟨2, ![C, 8192]⟩ ⟨2, ![C, 8192]⟩)
    (hc2 : (⟨2, ![C, 8192]⟩ : Shape).ShapeCasts ⟨3, ![C, 16, 512]⟩)
    (Ws : FVec Ideal ⟨2, ![C, C]⟩ .f32) (X : FVec Ideal ⟨3, ![C, 16, 512]⟩ .f32) : FVec Ideal ⟨3, ![C, 16, 512]⟩ .f32 :=
  shapeCast ⟨3, ![C, 16, 512]⟩
    (matmul D1 none Ws (shapeCast ⟨2, ![C, 8192]⟩ X hc1) (constant (F := Ideal) ⟨2, ![C, 8192]⟩ .f32 0x00000000#32)) hc2

/-- The row maximum over the neighbours, taken from -inf, and once more against -inf. -/
def rmaxV (C : ℕ) (hr : (⟨3, ![C, 16, 512]⟩ : Shape).Reduces [1] ⟨2, ![C, 512]⟩)
    (S : FVec Ideal ⟨3, ![C, 16, 512]⟩ .f32) : FVec Ideal ⟨2, ![C, 512]⟩ .f32 :=
  maximumf (broadcast ⟨2, ![C, 512]⟩ (Scalar.ofBits .f32 0xFF800000#32 : Ideal .f32))
    (multiReduction .maximumf [1] ⟨2, ![C, 512]⟩ S 0xFF800000#32 hr (.inl rfl) rfl)

/-- The exponentials of the scores less their row maximum. -/
def expV (C : ℕ) (hr : (⟨3, ![C, 16, 512]⟩ : Shape).Reduces [1] ⟨2, ![C, 512]⟩)
    (hc3 : (⟨2, ![C, 512]⟩ : Shape).ShapeCasts ⟨3, ![C, 1, 512]⟩)
    (hb3 : (⟨3, ![C, 1, 512]⟩ : Shape).Broadcasts ⟨3, ![C, 16, 512]⟩)
    (S : FVec Ideal ⟨3, ![C, 16, 512]⟩ .f32) : FVec Ideal ⟨3, ![C, 16, 512]⟩ .f32 :=
  exp (subf S (broadcastTo ⟨3, ![C, 16, 512]⟩ (shapeCast ⟨3, ![C, 1, 512]⟩ (rmaxV C hr S) hc3) hb3))

/-- The exponentials over their sum along the neighbours. -/
def wgtV (C : ℕ) (hr : (⟨3, ![C, 16, 512]⟩ : Shape).Reduces [1] ⟨2, ![C, 512]⟩)
    (hc3 : (⟨2, ![C, 512]⟩ : Shape).ShapeCasts ⟨3, ![C, 1, 512]⟩)
    (hb3 : (⟨3, ![C, 1, 512]⟩ : Shape).Broadcasts ⟨3, ![C, 16, 512]⟩)
    (E : FVec Ideal ⟨3, ![C, 16, 512]⟩ .f32) : FVec Ideal ⟨3, ![C, 16, 512]⟩ .f32 :=
  divf E (broadcastTo ⟨3, ![C, 16, 512]⟩
    (shapeCast ⟨3, ![C, 1, 512]⟩ (multiReduction .add [1] ⟨2, ![C, 512]⟩ E 0x00000000#32 hr (.inl rfl) rfl) hc3) hb3)

/-- The score-weighted sum of the features over the neighbours. -/
def poolV (C : ℕ) (hc1 : (⟨3, ![C, 16, 512]⟩ : Shape).ShapeCasts ⟨2, ![C, 8192]⟩)
    (D1 : DotDims ⟨2, ![C, C]⟩ ⟨2, ![C, 8192]⟩ ⟨2, ![C, 8192]⟩)
    (hc2 : (⟨2, ![C, 8192]⟩ : Shape).ShapeCasts ⟨3, ![C, 16, 512]⟩)
    (hr : (⟨3, ![C, 16, 512]⟩ : Shape).Reduces [1] ⟨2, ![C, 512]⟩)
    (hc3 : (⟨2, ![C, 512]⟩ : Shape).ShapeCasts ⟨3, ![C, 1, 512]⟩)
    (hb3 : (⟨3, ![C, 1, 512]⟩ : Shape).Broadcasts ⟨3, ![C, 16, 512]⟩)
    (Ws : FVec Ideal ⟨2, ![C, C]⟩ .f32) (X : FVec Ideal ⟨3, ![C, 16, 512]⟩ .f32) : FVec Ideal ⟨2, ![C, 512]⟩ .f32 :=
  multiReduction .add [1] ⟨2, ![C, 512]⟩
    (mulf (wgtV C hr hc3 hb3 (expV C hr hc3 hb3 (scoreV C hc1 D1 hc2 Ws X))) X) 0x00000000#32 hr (.inl rfl) rfl

section
variable {C : ℕ} (hc1 : (⟨3, ![C, 16, 512]⟩ : Shape).ShapeCasts ⟨2, ![C, 8192]⟩)
  (D1 : DotDims ⟨2, ![C, C]⟩ ⟨2, ![C, 8192]⟩ ⟨2, ![C, 8192]⟩) (hD1 : Plain D1)
  (hc2 : (⟨2, ![C, 8192]⟩ : Shape).ShapeCasts ⟨3, ![C, 16, 512]⟩)
  (hr : (⟨3, ![C, 16, 512]⟩ : Shape).Reduces [1] ⟨2, ![C, 512]⟩)
  (hc3 : (⟨2, ![C, 512]⟩ : Shape).ShapeCasts ⟨3, ![C, 1, 512]⟩)
  (hb3 : (⟨3, ![C, 1, 512]⟩ : Shape).Broadcasts ⟨3, ![C, 16, 512]⟩)
  (n : Fin 512)

include hD1 in
theorem scoreV_net (Ws : FVec Ideal ⟨2, ![C, C]⟩ .f32) (X : FVec Ideal ⟨3, ![C, 16, 512]⟩ .f32)
    (ws : Fin C → Fin C → EReal) (x : Fin 16 → Fin C → EReal)
    (hWs : ∀ o i, Ws (ix2 o i) = ws o i) (hX : ∀ c k, X (ix3 c k n) = x k c) (c : Fin C) (k : Fin 16) :
    scoreV C hc1 D1 hc2 Ws X (ix3 c k n) = Net.mat ws (x k) c := by
  unfold scoreV Net.mat
  rw [dense3_apply D1 hD1]
  refine Finset.sum_congr rfl fun i _ => ?_
  rw [hWs c i, hX i k]

theorem rmaxV_net (S : FVec Ideal ⟨3, ![C, 16, 512]⟩ .f32) (l : Fin 16 → Fin C → EReal)
    (hS : ∀ c k, S (ix3 c k n) = l k c) (c : Fin C) : rmaxV C hr S (ix2 c n) = Net.rowMax l c := by
  unfold rmaxV Net.rowMax
  rw [maximumf_apply]
  refine congrArg (max Net.ninf32 ·) ?_
  refine (maxNbr_apply S hr _ _ c n).trans ?_
  exact congrArg (fun f => (Finset.univ : Finset (Fin 16)).fold max Net.ninf32 f) (funext fun k => hS c k)

theorem expV_net (S : FVec Ideal ⟨3, ![C, 16, 512]⟩ .f32) (l : Fin 16 → Fin C → EReal)
    (hS : ∀ c k, S (ix3 c k n) = l k c) (c : Fin C) (k : Fin 16) :
    expV C hr hc3 hb3 S (ix3 c k n) = Net.expo l k c := by
  unfold expV Net.expo
  show Ideal.exp (S (ix3 c k n) - broadcastTo ⟨3, ![C, 16, 512]⟩ (shapeCast ⟨3, ![C, 1, 512]⟩ (rmaxV C hr S) hc3) hb3 (ix3 c k n)) = _
  rw [keepdims_apply, hS c k, rmaxV_net hr n S l hS c]

theorem wgtV_net (E : FVec Ideal ⟨3, ![C, 16, 512]⟩ .f32) (l : Fin 16 → Fin C → EReal)
    (hE : ∀ c k, E (ix3 c k n) = Net.expo l k c) (c : Fin C) (k : Fin 16) :
    wgtV C hr hc3 hb3 E (ix3 c k n) = Net.weight l k c := by
  unfold wgtV Net.weight
  rw [divf_apply, keepdims_apply, hE c k]
  refine congrArg (Ideal.div (Net.expo l k c) ·) ?_
  refine (sumNbr_apply E hr _ _ c n).trans ?_
  exact Finset.sum_congr rfl fun k' _ => hE c k'

include hD1 in
theorem poolV_net (Ws : FVec Ideal ⟨2, ![C, C]⟩ .f32) (X : FVec Ideal ⟨3, ![C, 16, 512]⟩ .f32)
    (ws : Fin C → Fin C → EReal) (x : Fin 16 → Fin C → EReal)
    (hWs : ∀ o i, Ws (ix2 o i) = ws o i) (hX : ∀ c k, X (ix3 c k n) = x k c) (c : Fin C) :
    poolV C hc1 D1 hc2 hr hc3 hb3 Ws X (ix2 c n) = Net.pool ws x c := by
  unfold poolV Net.pool
  refine (sumNbr_apply _ hr _ _ c n).trans ?_
  refine Finset.sum_congr rfl fun k _ => ?_
  rw [mulf_apply, hX c k]
  refine congrArg (· * x k c) ?_
  exact wgtV_net hr hc3 hb3 n _ (fun k => Net.mat ws (x k))
    (fun c' k' => expV_net hr hc3 hb3 n _ (fun k => Net.mat ws (x k))
      (fun c'' k'' => scoreV_net hc1 D1 hD1 hc2 n Ws X ws x hWs hX c'' k'') c' k') c k

end

/-! ## The round -/

/-- One round of attentive pooling on the block `X`: the pooled sum, a dense layer, the affine map, the rectifier,
    a second dense layer. -/
def round (C Ca Cb : ℕ) (hc1 : (⟨3, ![C, 16, 512]⟩ : Shape).ShapeCasts ⟨2, ![C, 8192]⟩)
    (D1 : DotDims ⟨2, ![C, C]⟩ ⟨2, ![C, 8192]⟩ ⟨2, ![C, 8192]⟩)
    (hc2 : (⟨2, ![C, 8192]⟩ : Shape).ShapeCasts ⟨3, ![C, 16, 512]⟩)
    (hr : (⟨3, ![C, 16, 512]⟩ : Shape).Reduces [1] ⟨2, ![C, 512]⟩)
    (hc3 : (⟨2, ![C, 512]⟩ : Shape).ShapeCasts ⟨3, ![C, 1, 512]⟩)
    (hb3 : (⟨3, ![C, 1, 512]⟩ : Shape).Broadcasts ⟨3, ![C, 16, 512]⟩)
    (D2 : DotDims ⟨2, ![Ca, C]⟩ ⟨2, ![C, 512]⟩ ⟨2, ![Ca, 512]⟩)
    (hca : (⟨1, ![Ca]⟩ : Shape).ShapeCasts ⟨2, ![Ca, 1]⟩) (hba : (⟨2, ![Ca, 1]⟩ : Shape).Broadcasts ⟨2, ![Ca, 512]⟩)
    (D3 : DotDims ⟨2, ![Cb, Ca]⟩ ⟨2, ![Ca, 512]⟩ ⟨2, ![Cb, 512]⟩)
    (hcb : (⟨1, ![Cb]⟩ : Shape).ShapeCasts ⟨2, ![Cb, 1]⟩) (hbb : (⟨2, ![Cb, 1]⟩ : Shape).Broadcasts ⟨2, ![Cb, 512]⟩)
    (Ws : FVec Ideal ⟨2, ![C, C]⟩ .f32) (Wa : FVec Ideal ⟨2, ![Ca, C]⟩ .f32) (ba sa ta : FVec Ideal ⟨1, ![Ca]⟩ .f32)
    (Wb : FVec Ideal ⟨2, ![Cb, Ca]⟩ .f32) (bb : FVec Ideal ⟨1, ![Cb]⟩ .f32)
    (X : FVec Ideal ⟨3, ![C, 16, 512]⟩ .f32) : FVec Ideal ⟨2, ![Cb, 512]⟩ .f32 :=
  denseB Cb Ca 512 D3 hcb hbb Wb bb
    (reluB Ca 512 (affB Ca 512 hca hba sa ta
      (denseB Ca C 512 D2 hca hba Wa ba (poolV C hc1 D1 hc2 hr hc3 hb3 Ws X))))

/-- THE ROUND at point `n`: the network's attentive pooling of the sixteen neighbours' features. -/
theorem round_apply {C Ca Cb : ℕ} (hc1 : (⟨3, ![C, 16, 512]⟩ : Shape).ShapeCasts ⟨2, ![C, 8192]⟩)
    (D1 : DotDims ⟨2, ![C, C]⟩ ⟨2, ![C, 8192]⟩ ⟨2, ![C, 8192]⟩) (hD1 : Plain D1)
    (hc2 : (⟨2, ![C, 8192]⟩ : Shape).ShapeCasts ⟨3, ![C, 16, 512]⟩)
    (hr : (⟨3, ![C, 16, 512]⟩ : Shape).Reduces [1] ⟨2, ![C, 512]⟩)
    (hc3 : (⟨2, ![C, 512]⟩ : Shape).ShapeCasts ⟨3, ![C, 1, 512]⟩)
    (hb3 : (⟨3, ![C, 1, 512]⟩ : Shape).Broadcasts ⟨3, ![C, 16, 512]⟩)
    (D2 : DotDims ⟨2, ![Ca, C]⟩ ⟨2, ![C, 512]⟩ ⟨2, ![Ca, 512]⟩) (hD2 : Plain D2)
    (hca : (⟨1, ![Ca]⟩ : Shape).ShapeCasts ⟨2, ![Ca, 1]⟩) (hba : (⟨2, ![Ca, 1]⟩ : Shape).Broadcasts ⟨2, ![Ca, 512]⟩)
    (D3 : DotDims ⟨2, ![Cb, Ca]⟩ ⟨2, ![Ca, 512]⟩ ⟨2, ![Cb, 512]⟩) (hD3 : Plain D3)
    (hcb : (⟨1, ![Cb]⟩ : Shape).ShapeCasts ⟨2, ![Cb, 1]⟩) (hbb : (⟨2, ![Cb, 1]⟩ : Shape).Broadcasts ⟨2, ![Cb, 512]⟩)
    (Ws : FVec Ideal ⟨2, ![C, C]⟩ .f32) (Wa : FVec Ideal ⟨2, ![Ca, C]⟩ .f32) (ba sa ta : FVec Ideal ⟨1, ![Ca]⟩ .f32)
    (Wb : FVec Ideal ⟨2, ![Cb, Ca]⟩ .f32) (bb : FVec Ideal ⟨1, ![Cb]⟩ .f32)
    (X : FVec Ideal ⟨3, ![C, 16, 512]⟩ .f32)
    (ws : Fin C → Fin C → EReal) (wa : Fin Ca → Fin C → EReal) (ba' sa' ta' : Fin Ca → EReal)
    (wb : Fin Cb → Fin Ca → EReal) (bb' : Fin Cb → EReal) (x : Fin 16 → Fin C → EReal) (n : Fin 512)
    (hWs : ∀ o i, Ws (ix2 o i) = ws o i) (hWa : ∀ o i, Wa (ix2 o i) = wa o i) (hba' : ∀ o, ba (ix1 o) = ba' o)
    (hsa : ∀ o, sa (ix1 o) = sa' o) (hta : ∀ o, ta (ix1 o) = ta' o) (hWb : ∀ o i, Wb (ix2 o i) = wb o i)
    (hbb' : ∀ o, bb (ix1 o) = bb' o) (hX : ∀ c k, X (ix3 c k n) = x k c) (o : Fin Cb) :
    round C Ca Cb hc1 D1 hc2 hr hc3 hb3 D2 hca hba D3 hcb hbb Ws Wa ba sa ta Wb bb X (ix2 o n)
      = Net.attpool ws wa ba' sa' ta' wb bb' x o := by
  unfold round Net.attpool
  exact denseB_net D3 hD3 hcb hbb Wb bb _ wb bb' _ n hWb hbb'
    (fun i => reluB_net _ _ n
      (fun c => affB_net hca hba sa ta _ sa' ta' _ n hsa hta
        (fun c' => denseB_net D2 hD2 hca hba Wa ba _ wa ba' _ n hWa hba'
          (fun i' => poolV_net hc1 D1 hD1 hc2 hr hc3 hb3 n Ws X ws x hWs hX i') c') c) i) o

end Cert.KerB

end
-- ==== Proof.KerRounds.lean ====
/-
  The kernel's three rounds of attentive pooling and their side branches, each payload read at one point `n` of the
  block against the network's stage of the same name.
-/
import proofs.«138937_j6992206758069_2_alg».proof.Proof.Gen.KernelIdeal.Skeleton
import proofs.«138937_j6992206758069_2_alg».proof.Proof.Net
import proofs.«138937_j6992206758069_2_alg».proof.Proof.KerPool

noncomputable section

namespace Cert.KerB

open Cert.KernelIdeal Cert.KernelIdeal.Gen Idealize.ShloMosaic Idealize.ShloMosaic.ValueIdx

/-- Every printed matrix-product record of this half is the plain product. -/
theorem plain_8_8 : Plain dot_S8x8_S8x512_S8x512_1_0_0_1_n_n := ⟨rfl, rfl, rfl, rfl, rfl, rfl⟩
theorem plain_16s : Plain dot_S16x16_S16x8192_S16x8192_1_0_0_1_n_n := ⟨rfl, rfl, rfl, rfl, rfl, rfl⟩
theorem plain_8_16 : Plain dot_S8x16_S16x512_S8x512_1_0_0_1_n_n := ⟨rfl, rfl, rfl, rfl, rfl, rfl⟩
theorem plain_32_8 : Plain dot_S32x8_S8x512_S32x512_1_0_0_1_n_n := ⟨rfl, rfl, rfl, rfl, rfl, rfl⟩
theorem plain_16_16 : Plain dot_S16x16_S16x512_S16x512_1_0_0_1_n_n := ⟨rfl, rfl, rfl, rfl, rfl, rfl⟩
theorem plain_32_16 : Plain dot_S32x16_S16x512_S32x512_1_0_0_1_n_n := ⟨rfl, rfl, rfl, rfl, rfl, rfl⟩
theorem plain_24s : Plain dot_S24x24_S24x8192_S24x8192_1_0_0_1_n_n := ⟨rfl, rfl, rfl, rfl, rfl, rfl⟩
theorem plain_32_24 : Plain dot_S32x24_S24x512_S32x512_1_0_0_1_n_n := ⟨rfl, rfl, rfl, rfl, rfl, rfl⟩
theorem plain_32_32 : Plain dot_S32x32_S32x512_S32x512_1_0_0_1_n_n := ⟨rfl, rfl, rfl, rfl, rfl, rfl⟩

/-- The leaky rectifier of the kernel (compare with the zeros, select between the value and the slope's multiple) at
    point `n` is the network's. -/
theorem leakyB_net {C N : ℕ} (Y Z : FVec Ideal ⟨2, ![C, N]⟩ .f32) (α : Ideal .f32) (α' : EReal) (y : Fin C → EReal)
    (n : Fin N) (hY : ∀ c, Y (ix2 c n) = y c) (hZ : ∀ c, Z (ix2 c n) = Net.zero32) (hα : α = α') (c : Fin C) :
    select (cmpf .oge Y Z) Y (mulf (broadcast ⟨2, ![C, N]⟩ α) Y) (ix2 c n) = Net.leaky α' y c := by
  show Scalar.select (Ideal.cmp .oge (Y (ix2 c n)) (Z (ix2 c n))) (Y (ix2 c n)) (α * Y (ix2 c n)) = _
  rw [hY c, hZ c, hα]
  rfl

/-- The first round: the point's own features (a leaky rectifier and a dense layer of its first layer's output) laid
    over the neighbours under the eight neighbour features, pooled. -/
theorem pay7_apply (P : Net.Params) (q : Fin 6 → EReal) (nbr : Fin 16 → Fin 6 → EReal) (n : Fin 512)
    (v2 : Vec Ideal S8x8 .f32) (v3 : Vec Ideal S8 .f32) (v12 : Vec Ideal S16x16 .f32) (v13 : Vec Ideal S8x16 .f32)
    (v14 v15 v16 : Vec Ideal S8 .f32) (v17 : Vec Ideal S8x8 .f32) (v18 : Vec Ideal S8 .f32)
    (v94 : FVec Ideal S8x16x512 .f32) (v98 : FVec Ideal S8x512 .f32) (cst_74 : Ideal .f32) (v99 : FVec Ideal S8x512 .f32)
    (h94 : ∀ c k, v94 (ix3 c k n) = Net.ste P q nbr k c) (h98 : ∀ c, v98 (ix2 c n) = Net.pre0 P q c)
    (h99 : ∀ c, v99 (ix2 c n) = Net.zero32) (hα : cst_74 = Net.slope1)
    (h2 : ∀ o i, v2 (ix2 o i) = P.w_mlp1_1 o i) (h3 : ∀ o, v3 (ix1 o) = P.b_mlp1_1 o)
    (h12 : ∀ o i, v12 (ix2 o i) = P.w_score1 o i) (h13 : ∀ o i, v13 (ix2 o i) = P.w_p1a o i)
    (h14 : ∀ o, v14 (ix1 o) = P.b_p1a o) (h15 : ∀ o, v15 (ix1 o) = P.s_p1a o) (h16 : ∀ o, v16 (ix1 o) = P.t_p1a o)
    (h17 : ∀ o i, v17 (ix2 o i) = P.w_p1b o i) (h18 : ∀ o, v18 (ix1 o) = P.b_p1b o) (c : Fin 8) :
    k0_pay7 v2 v3 v12 v13 v14 v15 v16 v17 v18 v94 v98 cst_74 v99 (ix2 c n) = Net.f1 P q nbr c := by
  show round 16 8 8 shapeCasts_S16x16x512_S16x8192 dot_S16x16_S16x8192_S16x8192_1_0_0_1_n_n
      shapeCasts_S16x8192_S16x16x512 reduces_S16x16x512_S16x512 shapeCasts_S16x512_S16x1x512
      broadcasts_S16x1x512_S16x16x512 dot_S8x16_S16x512_S8x512_1_0_0_1_n_n shapeCasts_S8_S8x1 broadcasts_S8x1_S8x512
      dot_S8x8_S8x512_S8x512_1_0_0_1_n_n shapeCasts_S8_S8x1 broadcasts_S8x1_S8x512 v12 v13 v14 v15 v16 v17 v18
      (concatenate S16x16x512 0 [⟨S8x16x512, v94⟩, ⟨S8x16x512,
        broadcastTo S8x16x512 (shapeCast S8x1x512 (shapeCast S8x1x512
          (denseB 8 8 512 dot_S8x8_S8x512_S8x512_1_0_0_1_n_n shapeCasts_S8_S8x1 broadcasts_S8x1_S8x512 v2 v3
            (select (cmpf .oge v98 v99) v98 (mulf (broadcast S8x512 cst_74) v98)))
          shapeCasts_S8x512_S8x1x512) shapeCasts_S8x1x512_S8x1x512) broadcasts_S8x1x512_S8x16x512⟩]
        concatenates_S8x16x512_S8x16x512_S16x16x512_d0) (ix2 c n) = _
  unfold Net.f1
  refine round_apply _ _ plain_16s _ _ _ _ _ plain_8_16 _ _ _ plain_8_8 _ _ v12 v13 v14 v15 v16 v17 v18 _
    P.w_score1 P.w_p1a P.b_p1a P.s_p1a P.t_p1a P.w_p1b P.b_p1b
    (fun k => Net.cat (n := 16) rfl (Net.ste P q nbr k) (Net.feat0 P q)) n h12 h13 h14 h15 h16 h17 h18 ?_ c
  intro c' k
  refine (concat0_apply (A := 8) (B := 8) rfl v94 _ concatenates_S8x16x512_S8x16x512_S16x16x512_d0 c' k n).trans ?_
  unfold Net.cat
  split
  · exact h94 _ k
  · rw [overNbr_apply]
    unfold Net.feat0
    exact denseB_net _ plain_8_8 _ _ v2 v3 _ P.w_mlp1_1 P.b_mlp1_1 _ n h2 h3
      (fun i => leakyB_net v98 v99 cst_74 Net.slope1 (Net.pre0 P q) n h98 h99 hα i) _

/-- The first side branch before its affine map: a dense layer of the first round's output. -/
theorem pay8_apply (P : Net.Params) (q : Fin 6 → EReal) (nbr : Fin 16 → Fin 6 → EReal) (n : Fin 512)
    (v2 : Vec Ideal S8x8 .f32) (v3 : Vec Ideal S8 .f32) (v12 : Vec Ideal S16x16 .f32) (v13 : Vec Ideal S8x16 .f32)
    (v14 v15 v16 : Vec Ideal S8 .f32) (v17 : Vec Ideal S8x8 .f32) (v18 : Vec Ideal S8 .f32)
    (v19 : Vec Ideal S32x8 .f32) (v20 : Vec Ideal S32 .f32)
    (v94 : FVec Ideal S8x16x512 .f32) (v98 : FVec Ideal S8x512 .f32) (cst_74 : Ideal .f32) (v99 : FVec Ideal S8x512 .f32)
    (h143 : ∀ c, k0_pay7 v2 v3 v12 v13 v14 v15 v16 v17 v18 v94 v98 cst_74 v99 (ix2 c n) = Net.f1 P q nbr c)
    (h19 : ∀ o i, v19 (ix2 o i) = P.w_sc0 o i) (h20 : ∀ o, v20 (ix1 o) = P.b_sc0 o) (c : Fin 32) :
    k0_pay8 v2 v3 v12 v13 v14 v15 v16 v17 v18 v19 v20 v94 v98 cst_74 v99 (ix2 c n)
      = Net.lin P.w_sc0 P.b_sc0 (Net.f1 P q nbr) c :=
  denseB_net dot_S32x8_S8x512_S32x512_1_0_0_1_n_n plain_32_8 shapeCasts_S32_S32x1 broadcasts_S32x1_S32x512 v19 v20
    (k0_pay7 v2 v3 v12 v13 v14 v15 v16 v17 v18 v94 v98 cst_74 v99) P.w_sc0 P.b_sc0 _ n h19 h20 h143 c

/-- A per-channel vector laid over the block reads its channel. -/
theorem pay9_apply (v21 : Vec Ideal S32 .f32) (c : Fin 32) (n : Fin 512) : k0_pay9 v21 (ix2 c n) = v21 (ix1 c) :=
  colBcast_apply (C := 32) (N := 512) v21 shapeCasts_S32_S32x1 broadcasts_S32x1_S32x512 c n

/-- The first side branch: the affine map of that dense layer. -/
theorem pay10_apply (P : Net.Params) (q : Fin 6 → EReal) (nbr : Fin 16 → Fin 6 → EReal) (n : Fin 512)
    (v22 : Vec Ideal S32 .f32) (v147 v149 : FVec Ideal S32x512 .f32)
    (h147 : ∀ c, v147 (ix2 c n) = Net.lin P.w_sc0 P.b_sc0 (Net.f1 P q nbr) c) (h149 : ∀ c, v149 (ix2 c n) = P.s_sc0 c)
    (h22 : ∀ o, v22 (ix1 o) = P.t_sc0 o) (c : Fin 32) :
    k0_pay10 v22 v147 v149 (ix2 c n) = Net.sc0 P q nbr c := by
  show v147 (ix2 c n) * v149 (ix2 c n)
      + broadcastTo S32x512 (shapeCast S32x1 v22 shapeCasts_S32_S32x1) broadcasts_S32x1_S32x512 (ix2 c n) = _
  rw [colBcast_apply (C := 32) (N := 512) v22, h147 c, h149 c, h22 c]
  rfl

/-- The second round: the first round's output laid over the neighbours under the neighbour features, pooled. -/
theorem pay11_apply (P : Net.Params) (q : Fin 6 → EReal) (nbr : Fin 16 → Fin 6 → EReal) (n : Fin 512)
    (v23 v24 : Vec Ideal S16x16 .f32) (v25 v26 v27 : Vec Ideal S16 .f32) (v28 : Vec Ideal S16x16 .f32)
    (v29 : Vec Ideal S16 .f32) (v94 : FVec Ideal S8x16x512 .f32) (v143 : FVec Ideal S8x512 .f32)
    (h94 : ∀ c k, v94 (ix3 c k n) = Net.ste P q nbr k c) (h143 : ∀ c, v143 (ix2 c n) = Net.f1 P q nbr c)
    (h23 : ∀ o i, v23 (ix2 o i) = P.w_score2 o i) (h24 : ∀ o i, v24 (ix2 o i) = P.w_p2a o i)
    (h25 : ∀ o, v25 (ix1 o) = P.b_p2a o) (h26 : ∀ o, v26 (ix1 o) = P.s_p2a o) (h27 : ∀ o, v27 (ix1 o) = P.t_p2a o)
    (h28 : ∀ o i, v28 (ix2 o i) = P.w_p2b o i) (h29 : ∀ o, v29 (ix1 o) = P.b_p2b o) (c : Fin 16) :
    k0_pay11 v23 v24 v25 v26 v27 v28 v29 v94 v143 (ix2 c n) = Net.f2 P q nbr c := by
  show round 16 16 16 shapeCasts_S16x16x512_S16x8192 dot_S16x16_S16x8192_S16x8192_1_0_0_1_n_n
      shapeCasts_S16x8192_S16x16x512 reduces_S16x16x512_S16x512 shapeCasts_S16x512_S16x1x512
      broadcasts_S16x1x512_S16x16x512 dot_S16x16_S16x512_S16x512_1_0_0_1_n_n shapeCasts_S16_S16x1 broadcasts_S16x1_S16x512
      dot_S16x16_S16x512_S16x512_1_0_0_1_n_n shapeCasts_S16_S16x1 broadcasts_S16x1_S16x512 v23 v24 v25 v26 v27 v28 v29
      (concatenate S16x16x512 0 [⟨S8x16x512, v94⟩, ⟨S8x16x512,
        broadcastTo S8x16x512 (shapeCast S8x1x512 (shapeCast S8x1x512 v143
          shapeCasts_S8x512_S8x1x512) shapeCasts_S8x1x512_S8x1x512) broadcasts_S8x1x512_S8x16x512⟩]
        concatenates_S8x16x512_S8x16x512_S16x16x512_d0) (ix2 c n) = _
  unfold Net.f2
  refine round_apply _ _ plain_16s _ _ _ _ _ plain_16_16 _ _ _ plain_16_16 _ _ v23 v24 v25 v26 v27 v28 v29 _
    P.w_score2 P.w_p2a P.b_p2a P.s_p2a P.t_p2a P.w_p2b P.b_p2b
    (fun k => Net.cat (n := 16) rfl (Net.ste P q nbr k) (Net.f1 P q nbr)) n h23 h24 h25 h26 h27 h28 h29 ?_ c
  intro c' k
  refine (concat0_apply (A := 8) (B := 8) rfl v94 _ concatenates_S8x16x512_S8x16x512_S16x16x512_d0 c' k n).trans ?_
  unfold Net.cat
  split
  · exact h94 _ k
  · rw [overNbr_apply]
    exact h143 _

/-- The second side branch: a dense layer of the second round's output and its affine map. -/
theorem pay12_apply (P : Net.Params) (q : Fin 6 → EReal) (nbr : Fin 16 → Fin 6 → EReal) (n : Fin 512)
    (v23 v24 : Vec Ideal S16x16 .f32) (v25 v26 v27 : Vec Ideal S16 .f32) (v28 : Vec Ideal S16x16 .f32)
    (v29 : Vec Ideal S16 .f32) (v30 : Vec Ideal S32x16 .f32) (v31 v32 v33 : Vec Ideal S32 .f32)
    (v94 : FVec Ideal S8x16x512 .f32) (v143 : FVec Ideal S8x512 .f32)
    (h189 : ∀ c, k0_pay11 v23 v24 v25 v26 v27 v28 v29 v94 v143 (ix2 c n) = Net.f2 P q nbr c)
    (h30 : ∀ o i, v30 (ix2 o i) = P.w_sc1 o i) (h31 : ∀ o, v31 (ix1 o) = P.b_sc1 o)
    (h32 : ∀ o, v32 (ix1 o) = P.s_sc1 o) (h33 : ∀ o, v33 (ix1 o) = P.t_sc1 o) (c : Fin 32) :
    k0_pay12 v23 v24 v25 v26 v27 v28 v29 v30 v31 v32 v33 v94 v143 (ix2 c n) = Net.sc1 P q nbr c :=
  affB_net shapeCasts_S32_S32x1 broadcasts_S32x1_S32x512 v32 v33
    (denseB 32 16 512 dot_S32x16_S16x512_S32x512_1_0_0_1_n_n shapeCasts_S32_S32x1 broadcasts_S32x1_S32x512 v30 v31
      (k0_pay11 v23 v24 v25 v26 v27 v28 v29 v94 v143)) P.s_sc1 P.t_sc1 _ n h32 h33
    (fun c' => denseB_net dot_S32x16_S16x512_S32x512_1_0_0_1_n_n plain_32_16 shapeCasts_S32_S32x1
      broadcasts_S32x1_S32x512 v30 v31 _ P.w_sc1 P.b_sc1 _ n h30 h31 h189 c') c

/-- The second round's output with a unit neighbour axis reads the same channel and point. -/
theorem pay13_apply (v23 v24 : Vec Ideal S16x16 .f32) (v25 v26 v27 : Vec Ideal S16 .f32) (v28 : Vec Ideal S16x16 .f32)
    (v29 : Vec Ideal S16 .f32) (v94 : FVec Ideal S8x16x512 .f32) (v143 : FVec Ideal S8x512 .f32)
    (c : Fin 16) (z : Fin 1) (n : Fin 512) :
    k0_pay13 v23 v24 v25 v26 v27 v28 v29 v94 v143 (ix3 c z n)
      = k0_pay11 v23 v24 v25 v26 v27 v28 v29 v94 v143 (ix2 c n) :=
  midUnit_apply (C := 16) (N := 512) (k0_pay11 v23 v24 v25 v26 v27 v28 v29 v94 v143) shapeCasts_S16x512_S16x1x512 c z n

/-- The third round (the second round's output under the neighbour features, pooled), two more dense layers, and the
    two side branches added. -/
theorem pay14_apply (P : Net.Params) (q : Fin 6 → EReal) (nbr : Fin 16 → Fin 6 → EReal) (n : Fin 512)
    (v34 : Vec Ideal S24x24 .f32) (v35 : Vec Ideal S32x24 .f32) (v36 v37 v38 : Vec Ideal S32 .f32)
    (v39 : Vec Ideal S32x32 .f32) (v40 : Vec Ideal S32 .f32) (v41 : Vec Ideal S32x32 .f32) (v42 : Vec Ideal S32 .f32)
    (v43 : Vec Ideal S32x32 .f32) (v44 : Vec Ideal S32 .f32) (v94 : FVec Ideal S8x16x512 .f32)
    (v153 v199 : FVec Ideal S32x512 .f32) (v200 : FVec Ideal S16x1x512 .f32)
    (h94 : ∀ c k, v94 (ix3 c k n) = Net.ste P q nbr k c) (h153 : ∀ c, v153 (ix2 c n) = Net.sc0 P q nbr c)
    (h199 : ∀ c, v199 (ix2 c n) = Net.sc1 P q nbr c) (h200 : ∀ c, v200 (ix3 c (0 : Fin 1) n) = Net.f2 P q nbr c)
    (h34 : ∀ o i, v34 (ix2 o i) = P.w_score3 o i) (h35 : ∀ o i, v35 (ix2 o i) = P.w_p3a o i)
    (h36 : ∀ o, v36 (ix1 o) = P.b_p3a o) (h37 : ∀ o, v37 (ix1 o) = P.s_p3a o) (h38 : ∀ o, v38 (ix1 o) = P.t_p3a o)
    (h39 : ∀ o i, v39 (ix2 o i) = P.w_p3b o i) (h40 : ∀ o, v40 (ix1 o) = P.b_p3b o)
    (h41 : ∀ o i, v41 (ix2 o i) = P.w_mlp2 o i) (h42 : ∀ o, v42 (ix1 o) = P.b_mlp2 o)
    (h43 : ∀ o i, v43 (ix2 o i) = P.w_mlp2_2 o i) (h44 : ∀ o, v44 (ix1 o) = P.b_mlp2_2 o) (c : Fin 32) :
    k0_pay14 v34 v35 v36 v37 v38 v39 v40 v41 v42 v43 v44 v94 v153 v199 v200 (ix2 c n) = Net.total P q nbr c := by
  show denseB 32 32 512 dot_S32x32_S32x512_S32x512_1_0_0_1_n_n shapeCasts_S32_S32x1 broadcasts_S32x1_S32x512 v43 v44
      (denseB 32 32 512 dot_S32x32_S32x512_S32x512_1_0_0_1_n_n shapeCasts_S32_S32x1 broadcasts_S32x1_S32x512 v41 v42
        (round 24 32 32 shapeCasts_S24x16x512_S24x8192 dot_S24x24_S24x8192_S24x8192_1_0_0_1_n_n
          shapeCasts_S24x8192_S24x16x512 reduces_S24x16x512_S24x512 shapeCasts_S24x512_S24x1x512
          broadcasts_S24x1x512_S24x16x512 dot_S32x24_S24x512_S32x512_1_0_0_1_n_n shapeCasts_S32_S32x1
          broadcasts_S32x1_S32x512 dot_S32x32_S32x512_S32x512_1_0_0_1_n_n shapeCasts_S32_S32x1 broadcasts_S32x1_S32x512
          v34 v35 v36 v37 v38 v39 v40
          (concatenate S24x16x512 0 [⟨S8x16x512, v94⟩, ⟨S16x16x512,
            broadcastTo S16x16x512 (shapeCast S16x1x512 v200 shapeCasts_S16x1x512_S16x1x512)
              broadcasts_S16x1x512_S16x16x512⟩] concatenates_S8x16x512_S16x16x512_S24x16x512_d0))) (ix2 c n)
      + v153 (ix2 c n) + v199 (ix2 c n) = _
  unfold Net.total
  rw [h153 c, h199 c]
  refine congrArg (· + Net.sc0 P q nbr c + Net.sc1 P q nbr c) ?_
  refine denseB_net _ plain_32_32 _ _ v43 v44 _ P.w_mlp2_2 P.b_mlp2_2 _ n h43 h44 (fun i => ?_) c
  refine denseB_net _ plain_32_32 _ _ v41 v42 _ P.w_mlp2 P.b_mlp2 _ n h41 h42 (fun i' => ?_) i
  unfold Net.f3
  refine round_apply _ _ plain_24s _ _ _ _ _ plain_32_24 _ _ _ plain_32_32 _ _ v34 v35 v36 v37 v38 v39 v40 _
    P.w_score3 P.w_p3a P.b_p3a P.s_p3a P.t_p3a P.w_p3b P.b_p3b
    (fun k => Net.cat (n := 24) rfl (Net.ste P q nbr k) (Net.f2 P q nbr)) n h34 h35 h36 h37 h38 h39 h40 ?_ i'
  intro c' k
  refine (concat0_apply (A := 8) (B := 16) rfl v94 _ concatenates_S8x16x512_S16x16x512_S24x16x512_d0 c' k n).trans ?_
  unfold Net.cat
  split
  · exact h94 _ k
  · rw [midBcast_apply, shapeCast_self]
    exact h200 _

/-- The comparison of the sum with zero, element by element. -/
theorem pay15_apply (v34 : Vec Ideal S24x24 .f32) (v35 : Vec Ideal S32x24 .f32) (v36 v37 v38 : Vec Ideal S32 .f32)
    (v39 : Vec Ideal S32x32 .f32) (v40 : Vec Ideal S32 .f32) (v41 : Vec Ideal S32x32 .f32) (v42 : Vec Ideal S32 .f32)
    (v43 : Vec Ideal S32x32 .f32) (v44 : Vec Ideal S32 .f32) (v94 : FVec Ideal S8x16x512 .f32)
    (v153 v199 : FVec Ideal S32x512 .f32) (v200 : FVec Ideal S16x1x512 .f32) (c : Fin 32) (n : Fin 512) :
    k0_pay15 v34 v35 v36 v37 v38 v39 v40 v41 v42 v43 v44 v94 v153 v199 v200 (ix2 c n)
      = Ideal.cmp .oge (k0_pay14 v34 v35 v36 v37 v38 v39 v40 v41 v42 v43 v44 v94 v153 v199 v200 (ix2 c n)) Net.zero32 :=
  rfl

/-- The last rectifier's slope laid over the block. -/
theorem pay16_apply (c : Fin 32) (n : Fin 512) : k0_pay16 (F := Ideal) (ix2 c n) = Net.slope2 := rfl

/-- The output block: the leaky rectifier of the sum, with a leading unit axis. -/
theorem pay1_apply (P : Net.Params) (q : Fin 6 → EReal) (nbr : Fin 16 → Fin 6 → EReal) (n : Fin 512)
    (v245 : FVec Ideal S32x512 .f32) (v247 : IVec S32x512 1) (v248 : FVec Ideal S32x512 .f32)
    (h245 : ∀ c, v245 (ix2 c n) = Net.total P q nbr c)
    (h247 : ∀ c, v247 (ix2 c n) = Ideal.cmp .oge (v245 (ix2 c n)) Net.zero32)
    (h248 : ∀ c, v248 (ix2 c n) = Net.slope2) (c : Fin 32) :
    k0_pay1 v245 v247 v248 (ix3 (0 : Fin 1) c n) = Net.out P q nbr c := by
  unfold k0_pay1
  refine (shapeCast_apply _ shapeCasts_S32x512_S1x32x512 (ix3 (0 : Fin 1) c n) (ix2 c n) ?_).trans ?_
  · rw [Shape.rowMajor_val_two, Shape.rowMajor_val_three]
    show c.val * 512 + n.val = (0 * 32 + c.val) * 512 + n.val
    omega
  · show Scalar.select (v247 (ix2 c n)) (v245 (ix2 c n)) (v248 (ix2 c n) * v245 (ix2 c n)) = _
    rw [h247 c, h248 c, h245 c]
    rfl

end Cert.KerB

end
-- ==== Proof.KerOut.lean ====
/-
  The kernel's output block at one point: the payloads composed. Channel `ch` of point `n` of the block the kernel
  writes is the network's output at the point whose coordinates are row `n` of the coordinate block and whose
  neighbours are rows `(n, ·)` of the neighbour block, with the weight arrays read as the network's families.
-/
import proofs.«138937_j6992206758069_2_alg».proof.Proof.FrameKI
import proofs.«138937_j6992206758069_2_alg».proof.Proof.Pt
import proofs.«138937_j6992206758069_2_alg».proof.Proof.KerPre
import proofs.«138937_j6992206758069_2_alg».proof.Proof.KerSte
import proofs.«138937_j6992206758069_2_alg».proof.Proof.KerRounds

noncomputable section

namespace Cert.KerB

open Cert.KernelIdeal Cert.KernelIdeal.Gen Cert.KernelIdeal.GenP Idealize.ShloMosaic Idealize.ShloMosaic.ValueIdx

/-- The zero offsets of a whole-block rectangle, at each rank met. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- THE OUTPUT BLOCK at `(0, ch, n)`: the network's output `ch` at point `n` of the block. -/
theorem out_eq (x0 : Vec Ideal S1x512x16x6 .bf16) (x1 : Vec Ideal S1x512x6 .f32) (x2 : Vec Ideal S8x6 .f32) (x3 : Vec Ideal S8 .f32) (x4 : Vec Ideal S8x8 .f32) (x5 : Vec Ideal S8 .f32) (x6 : Vec Ideal S16x20 .f32) (x7 : Vec Ideal S16 .f32) (x8 : Vec Ideal S16 .f32) (x9 : Vec Ideal S16 .f32) (x10 : Vec Ideal S8x16 .f32) (x11 : Vec Ideal S8 .f32) (x12 : Vec Ideal S8 .f32) (x13 : Vec Ideal S8 .f32) (x14 : Vec Ideal S16x16 .f32) (x15 : Vec Ideal S8x16 .f32) (x16 : Vec Ideal S8 .f32) (x17 : Vec Ideal S8 .f32) (x18 : Vec Ideal S8 .f32) (x19 : Vec Ideal S8x8 .f32) (x20 : Vec Ideal S8 .f32) (x21 : Vec Ideal S32x8 .f32) (x22 : Vec Ideal S32 .f32) (x23 : Vec Ideal S32 .f32) (x24 : Vec Ideal S32 .f32) (x25 : Vec Ideal S16x16 .f32) (x26 : Vec Ideal S16x16 .f32) (x27 : Vec Ideal S16 .f32) (x28 : Vec Ideal S16 .f32) (x29 : Vec Ideal S16 .f32) (x30 : Vec Ideal S16x16 .f32) (x31 : Vec Ideal S16 .f32) (x32 : Vec Ideal S32x16 .f32) (x33 : Vec Ideal S32 .f32) (x34 : Vec Ideal S32 .f32) (x35 : Vec Ideal S32 .f32) (x36 : Vec Ideal S24x24 .f32) (x37 : Vec Ideal S32x24 .f32) (x38 : Vec Ideal S32 .f32) (x39 : Vec Ideal S32 .f32) (x40 : Vec Ideal S32 .f32) (x41 : Vec Ideal S32x32 .f32) (x42 : Vec Ideal S32 .f32) (x43 : Vec Ideal S32x32 .f32) (x44 : Vec Ideal S32 .f32) (x45 : Vec Ideal S32x32 .f32) (x46 : Vec Ideal S32 .f32)
    (ch : Fin 32) (n : Fin 512) :
    GenP.out0_47 x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 (ix3 (0 : Fin 1) ch n)
      = Cert.Net.out (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) (Cert.Pt.qBlk x1 n) (Cert.Pt.nbrBlk x0 n) ch := by
  unfold GenP.out0_47
  rw [View.canon_unit_zero hz3]
  simp only [View.ld_unit_zero (S := S1x512x16x6) hz4,
    View.ld_unit_zero (S := S1x512x6) hz3,
    View.ld_unit_zero (S := S8x6) hz2,
    View.ld_unit_zero (S := S8) hz1,
    View.ld_unit_zero (S := S8x8) hz2,
    View.ld_unit_zero (S := S16x20) hz2,
    View.ld_unit_zero (S := S16) hz1,
    View.ld_unit_zero (S := S8x16) hz2,
    View.ld_unit_zero (S := S16x16) hz2,
    View.ld_unit_zero (S := S32x8) hz2,
    View.ld_unit_zero (S := S32) hz1,
    View.ld_unit_zero (S := S32x16) hz2,
    View.ld_unit_zero (S := S24x24) hz2,
    View.ld_unit_zero (S := S32x24) hz2,
    View.ld_unit_zero (S := S32x32) hz2]
  -- the neighbour features, the point's first layer, the zeros
  have h94 : ∀ c k, (k0_pay4 x6 x7 x8 x9 x10 x11 x12 x13 (k0_pay2 x0) x1) (ix3 c k n)
      = Cert.Net.ste (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) (Cert.Pt.qBlk x1 n) (Cert.Pt.nbrBlk x0 n) k c := fun c k => by
    rw [Cert.KerA.pay4_apply (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) x6 x7 x8 x9 x10 x11 x12 x13 (k0_pay2 x0) x1
      (fun _ _ => rfl) (fun _ => rfl) (fun _ => rfl) (fun _ => rfl) (fun _ _ => rfl) (fun _ => rfl) (fun _ => rfl) (fun _ => rfl) c k n]
    refine congrArg (fun nb => Cert.Net.ste (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) (Cert.Pt.qBlk x1 n) nb k c) ?_
    funext k' j
    exact Cert.KerA.pay2_apply x0 n k' j
  have h98 : ∀ c, (k0_pay5 x2 x3 x1) (ix2 c n) = Cert.Net.pre0 (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) (Cert.Pt.qBlk x1 n) c := fun c =>
    Cert.KerA.pay5_apply (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) x2 x3 x1 (fun _ _ => rfl) (fun _ => rfl) c n
  have h99 : ∀ c, (k0_pay6 (F := Ideal)) (ix2 c n) = Cert.Net.zero32 := fun c => Cert.KerA.pay6_apply c n
  -- the first round and its side branch
  have h143 : ∀ c, (k0_pay7 x4 x5 x14 x15 x16 x17 x18 x19 x20 (k0_pay4 x6 x7 x8 x9 x10 x11 x12 x13 (k0_pay2 x0) x1) (k0_pay5 x2 x3 x1) (Scalar.ofBits .f32 0x3E4CCCCD#32 : Ideal .f32) (k0_pay6 (F := Ideal))) (ix2 c n)
      = Cert.Net.f1 (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) (Cert.Pt.qBlk x1 n) (Cert.Pt.nbrBlk x0 n) c := fun c =>
    pay7_apply (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) _ _ n x4 x5 x14 x15 x16 x17 x18 x19 x20 _ _ _ _ h94 h98 h99 rfl (fun _ _ => rfl) (fun _ => rfl) (fun _ _ => rfl) (fun _ _ => rfl) (fun _ => rfl) (fun _ => rfl) (fun _ => rfl) (fun _ _ => rfl) (fun _ => rfl) c
  have h153 : ∀ c, (k0_pay10 x24 (k0_pay8 x4 x5 x14 x15 x16 x17 x18 x19 x20 x21 x22 (k0_pay4 x6 x7 x8 x9 x10 x11 x12 x13 (k0_pay2 x0) x1) (k0_pay5 x2 x3 x1) (Scalar.ofBits .f32 0x3E4CCCCD#32 : Ideal .f32) (k0_pay6 (F := Ideal))) (k0_pay9 x23)) (ix2 c n)
      = Cert.Net.sc0 (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) (Cert.Pt.qBlk x1 n) (Cert.Pt.nbrBlk x0 n) c := fun c =>
    pay10_apply (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) _ _ n x24 _ _
      (fun c' => pay8_apply (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) _ _ n x4 x5 x14 x15 x16 x17 x18 x19 x20 x21 x22 _ _ _ _ h143 (fun _ _ => rfl) (fun _ => rfl) c')
      (fun c' => pay9_apply x23 c' n) (fun _ => rfl) c
  -- the second round and its side branch
  have h189 : ∀ c, (k0_pay11 x25 x26 x27 x28 x29 x30 x31 (k0_pay4 x6 x7 x8 x9 x10 x11 x12 x13 (k0_pay2 x0) x1) (k0_pay7 x4 x5 x14 x15 x16 x17 x18 x19 x20 (k0_pay4 x6 x7 x8 x9 x10 x11 x12 x13 (k0_pay2 x0) x1) (k0_pay5 x2 x3 x1) (Scalar.ofBits .f32 0x3E4CCCCD#32 : Ideal .f32) (k0_pay6 (F := Ideal)))) (ix2 c n)
      = Cert.Net.f2 (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) (Cert.Pt.qBlk x1 n) (Cert.Pt.nbrBlk x0 n) c := fun c =>
    pay11_apply (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) _ _ n x25 x26 x27 x28 x29 x30 x31 _ _ h94 h143 (fun _ _ => rfl) (fun _ _ => rfl) (fun _ => rfl) (fun _ => rfl) (fun _ => rfl) (fun _ _ => rfl) (fun _ => rfl) c
  have h199 : ∀ c, (k0_pay12 x25 x26 x27 x28 x29 x30 x31 x32 x33 x34 x35 (k0_pay4 x6 x7 x8 x9 x10 x11 x12 x13 (k0_pay2 x0) x1) (k0_pay7 x4 x5 x14 x15 x16 x17 x18 x19 x20 (k0_pay4 x6 x7 x8 x9 x10 x11 x12 x13 (k0_pay2 x0) x1) (k0_pay5 x2 x3 x1) (Scalar.ofBits .f32 0x3E4CCCCD#32 : Ideal .f32) (k0_pay6 (F := Ideal)))) (ix2 c n)
      = Cert.Net.sc1 (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) (Cert.Pt.qBlk x1 n) (Cert.Pt.nbrBlk x0 n) c := fun c =>
    pay12_apply (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) _ _ n x25 x26 x27 x28 x29 x30 x31 x32 x33 x34 x35 _ _ h189 (fun _ _ => rfl) (fun _ => rfl) (fun _ => rfl) (fun _ => rfl) c
  have h200 : ∀ c, (k0_pay13 x25 x26 x27 x28 x29 x30 x31 (k0_pay4 x6 x7 x8 x9 x10 x11 x12 x13 (k0_pay2 x0) x1) (k0_pay7 x4 x5 x14 x15 x16 x17 x18 x19 x20 (k0_pay4 x6 x7 x8 x9 x10 x11 x12 x13 (k0_pay2 x0) x1) (k0_pay5 x2 x3 x1) (Scalar.ofBits .f32 0x3E4CCCCD#32 : Ideal .f32) (k0_pay6 (F := Ideal)))) (ix3 c (0 : Fin 1) n)
      = Cert.Net.f2 (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) (Cert.Pt.qBlk x1 n) (Cert.Pt.nbrBlk x0 n) c := fun c =>
    (pay13_apply x25 x26 x27 x28 x29 x30 x31 _ _ c 0 n).trans (h189 c)
  -- the third round, the sum, the last rectifier
  have h245 : ∀ c, (k0_pay14 x36 x37 x38 x39 x40 x41 x42 x43 x44 x45 x46 (k0_pay4 x6 x7 x8 x9 x10 x11 x12 x13 (k0_pay2 x0) x1) (k0_pay10 x24 (k0_pay8 x4 x5 x14 x15 x16 x17 x18 x19 x20 x21 x22 (k0_pay4 x6 x7 x8 x9 x10 x11 x12 x13 (k0_pay2 x0) x1) (k0_pay5 x2 x3 x1) (Scalar.ofBits .f32 0x3E4CCCCD#32 : Ideal .f32) (k0_pay6 (F := Ideal))) (k0_pay9 x23)) (k0_pay12 x25 x26 x27 x28 x29 x30 x31 x32 x33 x34 x35 (k0_pay4 x6 x7 x8 x9 x10 x11 x12 x13 (k0_pay2 x0) x1) (k0_pay7 x4 x5 x14 x15 x16 x17 x18 x19 x20 (k0_pay4 x6 x7 x8 x9 x10 x11 x12 x13 (k0_pay2 x0) x1) (k0_pay5 x2 x3 x1) (Scalar.ofBits .f32 0x3E4CCCCD#32 : Ideal .f32) (k0_pay6 (F := Ideal)))) (k0_pay13 x25 x26 x27 x28 x29 x30 x31 (k0_pay4 x6 x7 x8 x9 x10 x11 x12 x13 (k0_pay2 x0) x1) (k0_pay7 x4 x5 x14 x15 x16 x17 x18 x19 x20 (k0_pay4 x6 x7 x8 x9 x10 x11 x12 x13 (k0_pay2 x0) x1) (k0_pay5 x2 x3 x1) (Scalar.ofBits .f32 0x3E4CCCCD#32 : Ideal .f32) (k0_pay6 (F := Ideal))))) (ix2 c n)
      = Cert.Net.total (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) (Cert.Pt.qBlk x1 n) (Cert.Pt.nbrBlk x0 n) c := fun c =>
    pay14_apply (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) _ _ n x36 x37 x38 x39 x40 x41 x42 x43 x44 x45 x46 _ _ _ _ h94 h153 h199 h200
      (fun _ _ => rfl) (fun _ _ => rfl) (fun _ => rfl) (fun _ => rfl) (fun _ => rfl) (fun _ _ => rfl) (fun _ => rfl) (fun _ _ => rfl) (fun _ => rfl) (fun _ _ => rfl) (fun _ => rfl) c
  exact pay1_apply (Cert.Pt.params x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46) _ _ n (k0_pay14 x36 x37 x38 x39 x40 x41 x42 x43 x44 x45 x46 (k0_pay4 x6 x7 x8 x9 x10 x11 x12 x13 (k0_pay2 x0) x1) (k0_pay10 x24 (k0_pay8 x4 x5 x14 x15 x16 x17 x18 x19 x20 x21 x22 (k0_pay4 x6 x7 x8 x9 x10 x11 x12 x13 (k0_pay2 x0) x1) (k0_pay5 x2 x3 x1) (Scalar.ofBits .f32 0x3E4CCCCD#32 : Ideal .f32) (k0_pay6 (F := Ideal))) (k0_pay9 x23)) (k0_pay12 x25 x26 x27 x28 x29 x30 x31 x32 x33 x34 x35 (k0_pay4 x6 x7 x8 x9 x10 x11 x12 x13 (k0_pay2 x0) x1) (k0_pay7 x4 x5 x14 x15 x16 x17 x18 x19 x20 (k0_pay4 x6 x7 x8 x9 x10 x11 x12 x13 (k0_pay2 x0) x1) (k0_pay5 x2 x3 x1) (Scalar.ofBits .f32 0x3E4CCCCD#32 : Ideal .f32) (k0_pay6 (F := Ideal)))) (k0_pay13 x25 x26 x27 x28 x29 x30 x31 (k0_pay4 x6 x7 x8 x9 x10 x11 x12 x13 (k0_pay2 x0) x1) (k0_pay7 x4 x5 x14 x15 x16 x17 x18 x19 x20 (k0_pay4 x6 x7 x8 x9 x10 x11 x12 x13 (k0_pay2 x0) x1) (k0_pay5 x2 x3 x1) (Scalar.ofBits .f32 0x3E4CCCCD#32 : Ideal .f32) (k0_pay6 (F := Ideal))))) (k0_pay15 x36 x37 x38 x39 x40 x41 x42 x43 x44 x45 x46 (k0_pay4 x6 x7 x8 x9 x10 x11 x12 x13 (k0_pay2 x0) x1) (k0_pay10 x24 (k0_pay8 x4 x5 x14 x15 x16 x17 x18 x19 x20 x21 x22 (k0_pay4 x6 x7 x8 x9 x10 x11 x12 x13 (k0_pay2 x0) x1) (k0_pay5 x2 x3 x1) (Scalar.ofBits .f32 0x3E4CCCCD#32 : Ideal .f32) (k0_pay6 (F := Ideal))) (k0_pay9 x23)) (k0_pay12 x25 x26 x27 x28 x29 x30 x31 x32 x33 x34 x35 (k0_pay4 x6 x7 x8 x9 x10 x11 x12 x13 (k0_pay2 x0) x1) (k0_pay7 x4 x5 x14 x15 x16 x17 x18 x19 x20 (k0_pay4 x6 x7 x8 x9 x10 x11 x12 x13 (k0_pay2 x0) x1) (k0_pay5 x2 x3 x1) (Scalar.ofBits .f32 0x3E4CCCCD#32 : Ideal .f32) (k0_pay6 (F := Ideal)))) (k0_pay13 x25 x26 x27 x28 x29 x30 x31 (k0_pay4 x6 x7 x8 x9 x10 x11 x12 x13 (k0_pay2 x0) x1) (k0_pay7 x4 x5 x14 x15 x16 x17 x18 x19 x20 (k0_pay4 x6 x7 x8 x9 x10 x11 x12 x13 (k0_pay2 x0) x1) (k0_pay5 x2 x3 x1) (Scalar.ofBits .f32 0x3E4CCCCD#32 : Ideal .f32) (k0_pay6 (F := Ideal))))) (k0_pay16 (F := Ideal)) h245
    (fun c => pay15_apply x36 x37 x38 x39 x40 x41 x42 x43 x44 x45 x46 _ _ _ _ c n) (fun c => pay16_apply c n) ch

end Cert.KerB

end
-- ==== Proof.RefOps.lean ====
/-
  The reference's host program as a list of its operations, in program order: one entry per printed line of the
  four windows of its main function, and, at each call of an outlined function (the four rectifiers and the two
  leaky rectifiers, each of which calls the three-way choice), the callee's own lines in its place, over the buffers
  that call names. One list per window; the program is the four laid end to end.
-/
import proofs.«138937_j6992206758069_2_alg».proof.ReferenceIdeal
import Idealize.ShloMosaic.Lib.StableHlo.Run

noncomputable section

namespace Cert.RefRun

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- Window 0: 70 operations. -/
abbrev ops0 : List (HloOp τ sig (Elt F)) :=
  [ StableHlo.nullary main_c (constantI S_ 32 0#32),
    StableHlo.unary main_c main_v0 (broadcastInDim S2x65536x16 ![] bcast_S_S2x65536x16 : (⟨S_, .i32⟩ : BufTy).Contents (Elt F) → (⟨S2x65536x16, .i32⟩ : BufTy).Contents (Elt F)),
    StableHlo.binary main_arg2 main_v0 main_v1 (cmpi .slt : (⟨S2x65536x16, .i32⟩ : BufTy).Contents (Elt F) → (⟨S2x65536x16, .i32⟩ : BufTy).Contents (Elt F) → (⟨S2x65536x16, .i1⟩ : BufTy).Contents (Elt F)),
    StableHlo.nullary main_c_0 (constantI S_ 32 131072#32),
    StableHlo.unary main_c_0 main_v2 (broadcastInDim S2x65536x16 ![] bcast_S_S2x65536x16 : (⟨S_, .i32⟩ : BufTy).Contents (Elt F) → (⟨S2x65536x16, .i32⟩ : BufTy).Contents (Elt F)),
    StableHlo.binary main_arg2 main_v2 main_v3 (addi : (⟨S2x65536x16, .i32⟩ : BufTy).Contents (Elt F) → (⟨S2x65536x16, .i32⟩ : BufTy).Contents (Elt F) → (⟨S2x65536x16, .i32⟩ : BufTy).Contents (Elt F)),
    StableHlo.ternary main_v1 main_v3 main_arg2 main_v4 (select : (⟨S2x65536x16, .i1⟩ : BufTy).Contents (Elt F) → (⟨S2x65536x16, .i32⟩ : BufTy).Contents (Elt F) → (⟨S2x65536x16, .i32⟩ : BufTy).Contents (Elt F) → (⟨S2x65536x16, .i32⟩ : BufTy).Contents (Elt F)),
    StableHlo.unary main_v4 main_v5 (broadcastInDim S2x65536x16x1 ![0, 1, 2] bcast_S2x65536x16_S2x65536x16x1_0_1_2 : (⟨S2x65536x16, .i32⟩ : BufTy).Contents (Elt F) → (⟨S2x65536x16x1, .i32⟩ : BufTy).Contents (Elt F)),
    StableHlo.binary main_arg1 main_v5 main_v6 ((fun x i => Host.gather gather_S2x131072x6_S2x65536x16x1_S2x65536x16x6_3_1_0_0_1_3_116 x i) : (⟨S2x131072x6, .f32⟩ : BufTy).Contents (Elt F) → (⟨S2x65536x16x1, .i32⟩ : BufTy).Contents (Elt F) → (⟨S2x65536x16x6, .f32⟩ : BufTy).Contents (Elt F)),
    StableHlo.unary main_arg0 main_v7 (broadcastInDim S2x65536x1x6 ![0, 1, 3] bcast_S2x65536x6_S2x65536x1x6_0_1_3 : (⟨S2x65536x6, .f32⟩ : BufTy).Contents (Elt F) → (⟨S2x65536x1x6, .f32⟩ : BufTy).Contents (Elt F)),
    StableHlo.unary main_v7 main_v8 (broadcastInDim S2x65536x16x6 ![0, 1, 2, 3] bcast_S2x65536x1x6_S2x65536x16x6_0_1_2_3 : (⟨S2x65536x1x6, .f32⟩ : BufTy).Contents (Elt F) → (⟨S2x65536x16x6, .f32⟩ : BufTy).Contents (Elt F)),
    StableHlo.binary main_v8 main_v6 main_v9 (subf : (⟨S2x65536x16x6, .f32⟩ : BufTy).Contents (Elt F) → (⟨S2x65536x16x6, .f32⟩ : BufTy).Contents (Elt F) → (⟨S2x65536x16x6, .f32⟩ : BufTy).Contents (Elt F)),
    StableHlo.unary main_v9 main_v10 ((extractStridedSlice S2x65536x16x3 ![0, 0, 0, 0] · slices_S2x65536x16x6_S2x65536x16x3_0_0_0_0) : (⟨S2x65536x16x6, .f32⟩ : BufTy).Contents (Elt F) → (⟨S2x65536x16x3, .f32⟩ : BufTy).Contents (Elt F)),
    StableHlo.binary main_v10 main_v10 main_v11 (mulf : (⟨S2x65536x16x3, .f32⟩ : BufTy).Contents (Elt F) → (⟨S2x65536x16x3, .f32⟩ : BufTy).Contents (Elt F) → (⟨S2x65536x16x3, .f32⟩ : BufTy).Contents (Elt F)),
    StableHlo.nullary main_cst (constant S_ .f32 0x00000000#32),
    StableHlo.binary main_v11 main_cst main_v12 ((fun x v => Host.reduceAdd x v reducesTo_S2x65536x16x3_S2x65536x16_d3 h_S_) : (⟨S2x65536x16x3, .f32⟩ : BufTy).Contents (Elt F) → (⟨S_, .f32⟩ : BufTy).Contents (Elt F) → (⟨S2x65536x16, .f32⟩ : BufTy).Contents (Elt F)),
    StableHlo.unary main_v12 main_v13 (broadcastInDim S2x65536x16x1 ![0, 1, 2] bcast_S2x65536x16_S2x65536x16x1_0_1_2 : (⟨S2x65536x16, .f32⟩ : BufTy).Contents (Elt F) → (⟨S2x65536x16x1, .f32⟩ : BufTy).Contents (Elt F)),
    StableHlo.unary main_v13 main_v14 (Host.sqrt : (⟨S2x65536x16x1, .f32⟩ : BufTy).Contents (Elt F) → (⟨S2x65536x16x1, .f32⟩ : BufTy).Contents (Elt F)),
    StableHlo.unary main_v9 main_v15 ((extractStridedSlice S2x65536x16x3 ![0, 0, 0, 3] · slices_S2x65536x16x6_S2x65536x16x3_0_0_0_3) : (⟨S2x65536x16x6, .f32⟩ : BufTy).Contents (Elt F) → (⟨S2x65536x16x3, .f32⟩ : BufTy).Contents (Elt F)),
    StableHlo.binary main_v15 main_v15 main_v16 (mulf : (⟨S2x65536x16x3, .f32⟩ : BufTy).Contents (Elt F) → (⟨S2x65536x16x3, .f32⟩ : BufTy).Contents (Elt F) → (⟨S2x65536x16x3, .f32⟩ : BufTy).Contents (Elt F)),
    StableHlo.nullary main_cst_1 (constant S_ .f32 0x00000000#32),
    StableHlo.binary main_v16 main_cst_1 main_v17 ((fun x v => Host.reduceAdd x v reducesTo_S2x65536x16x3_S2x65536x16_d3 h_S_) : (⟨S2x65536x16x3, .f32⟩ : BufTy).Contents (Elt F) → (⟨S_, .f32⟩ : BufTy).Contents (Elt F) → (⟨S2x65536x16, .f32⟩ : BufTy).Contents (Elt F)),
    StableHlo.unary main_v17 main_v18 (broadcastInDim S2x65536x16x1 ![0, 1, 2] bcast_S2x65536x16_S2x65536x16x1_0_1_2 : (⟨S2x65536x16, .f32⟩ : BufTy).Contents (Elt F) → (⟨S2x65536x16x1, .f32⟩ : BufTy).Contents (Elt F)),
    StableHlo.unary main_v18 main_v19 (Host.sqrt : (⟨S2x65536x16x1, .f32⟩ : BufTy).Contents (Elt F) → (⟨S2x65536x16x1, .f32⟩ : BufTy).Contents (Elt F)),
    StableHlo.nary ![main_v8, main_v6, main_v9, main_v14, main_v19] main_v20 (fun u => concatenate S2x65536x16x20 3 [⟨S2x65536x16x6, u 0⟩, ⟨S2x65536x16x6, u 1⟩, ⟨S2x65536x16x6, u 2⟩, ⟨S2x65536x16x1, u 3⟩, ⟨S2x65536x16x1, u 4⟩] concatenates_S2x65536x16x6_S2x65536x16x6_S2x65536x16x6_S2x65536x16x1_S2x65536x16x1_S2x65536x16x20_d3),
    StableHlo.binary main_v20 main_arg7 main_v21 ((fun l r => Host.dotGeneral dot_S2x65536x16x20_S16x20_S2x65536x16x16_3_1_012_0_n_n none l r) : (⟨S2x65536x16x20, .f32⟩ : BufTy).Contents (Elt F) → (⟨S16x20, .f32⟩ : BufTy).Contents (Elt F) → (⟨S2x65536x16x16, .f32⟩ : BufTy).Contents (Elt F)),
    StableHlo.unary main_arg8 main_v22 (broadcastInDim S1x1x1x16 ![3] bcast_S16_S1x1x1x16_3 : (⟨S16, .f32⟩ : BufTy).Contents (Elt F) → (⟨S1x1x1x16, .f32⟩ : BufTy).Contents (Elt F)),
    StableHlo.unary main_v22 main_v23 (broadcastInDim S2x65536x16x16 ![0, 1, 2, 3] bcast_S1x1x1x16_S2x65536x16x16_0_1_2_3 : (⟨S1x1x1x16, .f32⟩ : BufTy).Contents (Elt F) → (⟨S2x65536x16x16, .f32⟩ : BufTy).Contents (Elt F)),
    StableHlo.binary main_v21 main_v23 main_v24 (addf : (⟨S2x65536x16x16, .f32⟩ : BufTy).Contents (Elt F) → (⟨S2x65536x16x16, .f32⟩ : BufTy).Contents (Elt F) → (⟨S2x65536x16x16, .f32⟩ : BufTy).Contents (Elt F)),
    StableHlo.unary main_arg9 main_v25 (broadcastInDim S1x1x1x16 ![3] bcast_S16_S1x1x1x16_3 : (⟨S16, .f32⟩ : BufTy).Contents (Elt F) → (⟨S1x1x1x16, .f32⟩ : BufTy).Contents (Elt F)),
    StableHlo.unary main_v25 main_v26 (broadcastInDim S2x65536x16x16 ![0, 1, 2, 3] bcast_S1x1x1x16_S2x65536x16x16_0_1_2_3 : (⟨S1x1x1x16, .f32⟩ : BufTy).Contents (Elt F) → (⟨S2x65536x16x16, .f32⟩ : BufTy).Contents (Elt F)),
    StableHlo.binary main_v24 main_v26 main_v27 (mulf : (⟨S2x65536x16x16, .f32⟩ : BufTy).Contents (Elt F) → (⟨S2x65536x16x16, .f32⟩ : BufTy).Contents (Elt F) → (⟨S2x65536x16x16, .f32⟩ : BufTy).Contents (Elt F)),
    StableHlo.unary main_arg10 main_v28 (broadcastInDim S1x1x1x16 ![3] bcast_S16_S1x1x1x16_3 : (⟨S16, .f32⟩ : BufTy).Contents (Elt F) → (⟨S1x1x1x16, .f32⟩ : BufTy).Contents (Elt F)),
    StableHlo.unary main_v28 main_v29 (broadcastInDim S2x65536x16x16 ![0, 1, 2, 3] bcast_S1x1x1x16_S2x65536x16x16_0_1_2_3 : (⟨S1x1x1x16, .f32⟩ : BufTy).Contents (Elt F) → (⟨S2x65536x16x16, .f32⟩ : BufTy).Contents (Elt F)),
    StableHlo.binary main_v27 main_v29 main_v30 (addf : (⟨S2x65536x16x16, .f32⟩ : BufTy).Contents (Elt F) → (⟨S2x65536x16x16, .f32⟩ : BufTy).Contents (Elt F) → (⟨S2x65536x16x16, .f32⟩ : BufTy).Contents (Elt F)),
    TRef.nullary main_call0.cst (constant S_ .f32 0x00000000#32),
    TRef.unary main_call0.cst main_call0.v0 (broadcastInDim S2x65536x16x16 ![] bcast_S_S2x65536x16x16 : (⟨S_, .f32⟩ : BufTy).Contents (Elt F) → (⟨S2x65536x16x16, .f32⟩ : BufTy).Contents (Elt F)),
    TRef.binary (.of main_v30 : TRef sig ⟨S2x65536x16x16, .f32⟩) main_call0.v0 main_call0.v1 (maximumf : (⟨S2x65536x16x16, .f32⟩ : BufTy).Contents (Elt F) → (⟨S2x65536x16x16, .f32⟩ : BufTy).Contents (Elt F) → (⟨S2x65536x16x16, .f32⟩ : BufTy).Contents (Elt F)),
    StableHlo.binary main_v31 main_arg11 main_v32 ((fun l r => Host.dotGeneral dot_S2x65536x16x16_S8x16_S2x65536x16x8_3_1_012_0_n_n none l r) : (⟨S2x65536x16x16, .f32⟩ : BufTy).Contents (Elt F) → (⟨S8x16, .f32⟩ : BufTy).Contents (Elt F) → (⟨S2x65536x16x8, .f32⟩ : BufTy).Contents (Elt F)),
    StableHlo.unary main_arg12 main_v33 (broadcastInDim S1x1x1x8 ![3] bcast_S8_S1x1x1x8_3 : (⟨S8, .f32⟩ : BufTy).Contents (Elt F) → (⟨S1x1x1x8, .f32⟩ : BufTy).Contents (Elt F)),
    StableHlo.unary main_v33 main_v34 (broadcastInDim S2x65536x16x8 ![0, 1, 2, 3] bcast_S1x1x1x8_S2x65536x16x8_0_1_2_3 : (⟨S1x1x1x8, .f32⟩ : BufTy).Contents (Elt F) → (⟨S2x65536x16x8, .f32⟩ : BufTy).Contents (Elt F)),
    StableHlo.binary main_v32 main_v34 main_v35 (addf : (⟨S2x65536x16x8, .f32⟩ : BufTy).Contents (Elt F) → (⟨S2x65536x16x8, .f32⟩ : BufTy).Contents (Elt F) → (⟨S2x65536x16x8, .f32⟩ : BufTy).Contents (Elt F)),
    StableHlo.unary main_arg13 main_v36 (broadcastInDim S1x1x1x8 ![3] bcast_S8_S1x1x1x8_3 : (⟨S8, .f32⟩ : BufTy).Contents (Elt F) → (⟨S1x1x1x8, .f32⟩ : BufTy).Contents (Elt F)),
    StableHlo.unary main_v36 main_v37 (broadcastInDim S2x65536x16x8 ![0, 1, 2, 3] bcast_S1x1x1x8_S2x65536x16x8_0_1_2_3 : (⟨S1x1x1x8, .f32⟩ : BufTy).Contents (Elt F) → (⟨S2x65536x16x8, .f32⟩ : BufTy).Contents (Elt F)),
    StableHlo.binary main_v35 main_v37 main_v38 (mulf : (⟨S2x65536x16x8, .f32⟩ : BufTy).Contents (Elt F) → (⟨S2x65536x16x8, .f32⟩ : BufTy).Contents (Elt F) → (⟨S2x65536x16x8, .f32⟩ : BufTy).Contents (Elt F)),
    StableHlo.unary main_arg14 main_v39 (broadcastInDim S1x1x1x8 ![3] bcast_S8_S1x1x1x8_3 : (⟨S8, .f32⟩ : BufTy).Contents (Elt F) → (⟨S1x1x1x8, .f32⟩ : BufTy).Contents (Elt F)),
    StableHlo.unary main_v39 main_v40 (broadcastInDim S2x65536x16x8 ![0, 1, 2, 3] bcast_S1x1x1x8_S2x65536x16x8_0_1_2_3 : (⟨S1x1x1x8, .f32⟩ : BufTy).Contents (Elt F) → (⟨S2x65536x16x8, .f32⟩ : BufTy).Contents (Elt F)),
    StableHlo.binary main_v38 main_v40 main_v41 (addf : (⟨S2x65536x16x8, .f32⟩ : BufTy).Contents (Elt F) → (⟨S2x65536x16x8, .f32⟩ : BufTy).Contents (Elt F) → (⟨S2x65536x16x8, .f32⟩ : BufTy).Contents (Elt F)),
    TRef.nullary main_call1.cst (constant S_ .f32 0x00000000#32),
    TRef.unary main_call1.cst main_call1.v0 (broadcastInDim S2x65536x16x8 ![] bcast_S_S2x65536x16x8 : (⟨S_, .f32⟩ : BufTy).Contents (Elt F) → (⟨S2x65536x16x8, .f32⟩ : BufTy).Contents (Elt F)),
    TRef.binary (.of main_v41 : TRef sig ⟨S2x65536x16x8, .f32⟩) main_call1.v0 main_call1.v1 (maximumf : (⟨S2x65536x16x8, .f32⟩ : BufTy).Contents (Elt F) → (⟨S2x65536x16x8, .f32⟩ : BufTy).Contents (Elt F) → (⟨S2x65536x16x8, .f32⟩ : BufTy).Contents (Elt F)),
    StableHlo.binary main_arg0 main_arg3 main_v43 ((fun l r => Host.dotGeneral dot_S2x65536x6_S8x6_S2x65536x8_2_1_01_0_n_n none l r) : (⟨S2x65536x6, .f32⟩ : BufTy).Contents (Elt F) → (⟨S8x6, .f32⟩ : BufTy).Contents (Elt F) → (⟨S2x65536x8, .f32⟩ : BufTy).Contents (Elt F)),
    StableHlo.unary main_arg4 main_v44 (broadcastInDim S1x1x8 ![2] bcast_S8_S1x1x8_2 : (⟨S8, .f32⟩ : BufTy).Contents (Elt F) → (⟨S1x1x8, .f32⟩ : BufTy).Contents (Elt F)),
    StableHlo.unary main_v44 main_v45 (broadcastInDim S2x65536x8 ![0, 1, 2] bcast_S1x1x8_S2x65536x8_0_1_2 : (⟨S1x1x8, .f32⟩ : BufTy).Contents (Elt F) → (⟨S2x65536x8, .f32⟩ : BufTy).Contents (Elt F)),
    StableHlo.binary main_v43 main_v45 main_v46 (addf : (⟨S2x65536x8, .f32⟩ : BufTy).Contents (Elt F) → (⟨S2x65536x8, .f32⟩ : BufTy).Contents (Elt F) → (⟨S2x65536x8, .f32⟩ : BufTy).Contents (Elt F)),
    StableHlo.nullary main_cst_2 (constant S_ .f32 0x3E4CCCCD#32),
    TRef.nullary main_call2.cst (constant S_ .f32 0x00000000#32),
    TRef.unary main_call2.cst main_call2.v0 (broadcastInDim S2x65536x8 ![] bcast_S_S2x65536x8 : (⟨S_, .f32⟩ : BufTy).Contents (Elt F) → (⟨S2x65536x8, .f32⟩ : BufTy).Contents (Elt F)),
    TRef.binary (.of main_v46 : TRef sig ⟨S2x65536x8, .f32⟩) main_call2.v0 main_call2.v1 (cmpf .oge : (⟨S2x65536x8, .f32⟩ : BufTy).Contents (Elt F) → (⟨S2x65536x8, .f32⟩ : BufTy).Contents (Elt F) → (⟨S2x65536x8, .i1⟩ : BufTy).Contents (Elt F)),
    TRef.unary (.of main_cst_2 : TRef sig ⟨S_, .f32⟩) main_call2.v2 (id : (⟨S_, .f32⟩ : BufTy).Contents (Elt F) → (⟨S_, .f32⟩ : BufTy).Contents (Elt F)),
    TRef.unary main_call2.v2 main_call2.v3 (broadcastInDim S2x65536x8 ![] bcast_S_S2x65536x8 : (⟨S_, .f32⟩ : BufTy).Contents (Elt F) → (⟨S2x65536x8, .f32⟩ : BufTy).Contents (Elt F)),
    TRef.binary main_call2.v3 (.of main_v46 : TRef sig ⟨S2x65536x8, .f32⟩) main_call2.v4 (mulf : (⟨S2x65536x8, .f32⟩ : BufTy).Contents (Elt F) → (⟨S2x65536x8, .f32⟩ : BufTy).Contents (Elt F) → (⟨S2x65536x8, .f32⟩ : BufTy).Contents (Elt F)),
    TRef.ternary main_call2.v1 (.of main_v46 : TRef sig ⟨S2x65536x8, .f32⟩) main_call2.v4 main_call2.call0.v0 (select : (⟨S2x65536x8, .i1⟩ : BufTy).Contents (Elt F) → (⟨S2x65536x8, .f32⟩ : BufTy).Contents (Elt F) → (⟨S2x65536x8, .f32⟩ : BufTy).Contents (Elt F) → (⟨S2x65536x8, .f32⟩ : BufTy).Contents (Elt F)),
    StableHlo.binary main_v47 main_arg5 main_v48 ((fun l r => Host.dotGeneral dot_S2x65536x8_S8x8_S2x65536x8_2_1_01_0_n_n none l r) : (⟨S2x65536x8, .f32⟩ : BufTy).Contents (Elt F) → (⟨S8x8, .f32⟩ : BufTy).Contents (Elt F) → (⟨S2x65536x8, .f32⟩ : BufTy).Contents (Elt F)),
    StableHlo.unary main_arg6 main_v49 (broadcastInDim S1x1x8 ![2] bcast_S8_S1x1x8_2 : (⟨S8, .f32⟩ : BufTy).Contents (Elt F) → (⟨S1x1x8, .f32⟩ : BufTy).Contents (Elt F)),
    StableHlo.unary main_v49 main_v50 (broadcastInDim S2x65536x8 ![0, 1, 2] bcast_S1x1x8_S2x65536x8_0_1_2 : (⟨S1x1x8, .f32⟩ : BufTy).Contents (Elt F) → (⟨S2x65536x8, .f32⟩ : BufTy).Contents (Elt F)),
    StableHlo.binary main_v48 main_v50 main_v51 (addf : (⟨S2x65536x8, .f32⟩ : BufTy).Contents (Elt F) → (⟨S2x65536x8, .f32⟩ : BufTy).Contents (Elt F) → (⟨S2x65536x8, .f32⟩ : BufTy).Contents (Elt F)),
    StableHlo.unary main_v51 main_v52 (broadcastInDim S2x65536x1x8 ![0, 1, 3] bcast_S2x65536x8_S2x65536x1x8_0_1_3 : (⟨S2x65536x8, .f32⟩ : BufTy).Contents (Elt F) → (⟨S2x65536x1x8, .f32⟩ : BufTy).Contents (Elt F)),
    StableHlo.unary main_v52 main_v53 (broadcastInDim S2x65536x16x8 ![0, 1, 2, 3] bcast_S2x65536x1x8_S2x65536x16x8_0_1_2_3 : (⟨S2x65536x1x8, .f32⟩ : BufTy).Contents (Elt F) → (⟨S2x65536x16x8, .f32⟩ : BufTy).Contents (Elt F)),
    StableHlo.binary main_v42 main_v53 main_v54 ((fun a b => concatenate S2x65536x16x16 3 [⟨S2x65536x16x8, a⟩, ⟨S2x65536x16x8, b⟩] concatenates_S2x65536x16x8_S2x65536x16x8_S2x65536x16x16_d3) : (⟨S2x65536x16x8, .f32⟩ : BufTy).Contents (Elt F) → (⟨S2x65536x16x8, .f32⟩ : BufTy).Contents (Elt F) → (⟨S2x65536x16x16, .f32⟩ : BufTy).Contents (Elt F)) ]

/-- Window 1: 62 operations. -/
abbrev ops1 : List (HloOp τ sig (Elt F)) :=
  [ StableHlo.binary main_v54 main_arg15 main_v55 ((fun l r => Host.dotGeneral dot_S2x65536x16x16_S16x16_S2x65536x16x16_3_1_012_0_n_n none l r) : (⟨S2x65536x16x16, .f32⟩ : BufTy).Contents (Elt F) → (⟨S16x16, .f32⟩ : BufTy).Contents (Elt F) → (⟨S2x65536x16x16, .f32⟩ : BufTy).Contents (Elt F)),
    StableHlo.nullary main_cst_3 (constant S_ .f32 0xFF800000#32),
    StableHlo.binary main_v55 main_cst_3 main_v56 ((fun x v => Host.reduce FloatOps.maximumf x v reducesTo_S2x65536x16x16_S2x65536x16_d2 h_S_) : (⟨S2x65536x16x16, .f32⟩ : BufTy).Contents (Elt F) → (⟨S_, .f32⟩ : BufTy).Contents (Elt F) → (⟨S2x65536x16, .f32⟩ : BufTy).Contents (Elt F)),
    StableHlo.nullary main_cst_4 (constant S_ .f32 0xFF800000#32),
    StableHlo.unary main_cst_4 main_v57 (broadcastInDim S2x65536x16 ![] bcast_S_S2x65536x16 : (⟨S_, .f32⟩ : BufTy).Contents (Elt F) → (⟨S2x65536x16, .f32⟩ : BufTy).Contents (Elt F)),
    StableHlo.binary main_v57 main_v56 main_v58 (maximumf : (⟨S2x65536x16, .f32⟩ : BufTy).Contents (Elt F) → (⟨S2x65536x16, .f32⟩ : BufTy).Contents (Elt F) → (⟨S2x65536x16, .f32⟩ : BufTy).Contents (Elt F)),
    StableHlo.unary main_v58 main_v59 (broadcastInDim S2x65536x1x16 ![0, 1, 3] bcast_S2x65536x16_S2x65536x1x16_0_1_3 : (⟨S2x65536x16, .f32⟩ : BufTy).Contents (Elt F) → (⟨S2x65536x1x16, .f32⟩ : BufTy).Contents (Elt F)),
    StableHlo.unary main_v59 main_v60 (broadcastInDim S2x65536x16x16 ![0, 1, 2, 3] bcast_S2x65536x1x16_S2x65536x16x16_0_1_2_3 : (⟨S2x65536x1x16, .f32⟩ : BufTy).Contents (Elt F) → (⟨S2x65536x16x16, .f32⟩ : BufTy).Contents (Elt F)),
    StableHlo.binary main_v55 main_v60 main_v61 (subf : (⟨S2x65536x16x16, .f32⟩ : BufTy).Contents (Elt F) → (⟨S2x65536x16x16, .f32⟩ : BufTy).Contents (Elt F) → (⟨S2x65536x16x16, .f32⟩ : BufTy).Contents (Elt F)),
    StableHlo.unary main_v61 main_v62 (Host.exp : (⟨S2x65536x16x16, .f32⟩ : BufTy).Contents (Elt F) → (⟨S2x65536x16x16, .f32⟩ : BufTy).Contents (Elt F)),
    StableHlo.nullary main_cst_5 (constant S_ .f32 0x00000000#32),
    StableHlo.binary main_v62 main_cst_5 main_v63 ((fun x v => Host.reduceAdd x v reducesTo_S2x65536x16x16_S2x65536x16_d2 h_S_) : (⟨S2x65536x16x16, .f32⟩ : BufTy).Contents (Elt F) → (⟨S_, .f32⟩ : BufTy).Contents (Elt F) → (⟨S2x65536x16, .f32⟩ : BufTy).Contents (Elt F)),
    StableHlo.unary main_v63 main_v64 (broadcastInDim S2x65536x1x16 ![0, 1, 3] bcast_S2x65536x16_S2x65536x1x16_0_1_3 : (⟨S2x65536x16, .f32⟩ : BufTy).Contents (Elt F) → (⟨S2x65536x1x16, .f32⟩ : BufTy).Contents (Elt F)),
    StableHlo.unary main_v64 main_v65 (broadcastInDim S2x65536x16x16 ![0, 1, 2, 3] bcast_S2x65536x1x16_S2x65536x16x16_0_1_2_3 : (⟨S2x65536x1x16, .f32⟩ : BufTy).Contents (Elt F) → (⟨S2x65536x16x16, .f32⟩ : BufTy).Contents (Elt F)),
    StableHlo.binary main_v62 main_v65 main_v66 (Host.divf : (⟨S2x65536x16x16, .f32⟩ : BufTy).Contents (Elt F) → (⟨S2x65536x16x16, .f32⟩ : BufTy).Contents (Elt F) → (⟨S2x65536x16x16, .f32⟩ : BufTy).Contents (Elt F)),
    StableHlo.binary main_v66 main_v54 main_v67 (mulf : (⟨S2x65536x16x16, .f32⟩ : BufTy).Contents (Elt F) → (⟨S2x65536x16x16, .f32⟩ : BufTy).Contents (Elt F) → (⟨S2x65536x16x16, .f32⟩ : BufTy).Contents (Elt F)),
    StableHlo.nullary main_cst_6 (constant S_ .f32 0x00000000#32),
    StableHlo.binary main_v67 main_cst_6 main_v68 ((fun x v => Host.reduceAdd x v reducesTo_S2x65536x16x16_S2x65536x16_d2 h_S_) : (⟨S2x65536x16x16, .f32⟩ : BufTy).Contents (Elt F) → (⟨S_, .f32⟩ : BufTy).Contents (Elt F) → (⟨S2x65536x16, .f32⟩ : BufTy).Contents (Elt F)),
    StableHlo.binary main_v68 main_arg16 main_v69 ((fun l r => Host.dotGeneral dot_S2x65536x16_S8x16_S2x65536x8_2_1_01_0_n_n none l r) : (⟨S2x65536x16, .f32⟩ : BufTy).Contents (Elt F) → (⟨S8x16, .f32⟩ : BufTy).Contents (Elt F) → (⟨S2x65536x8, .f32⟩ : BufTy).Contents (Elt F)),
    StableHlo.unary main_arg17 main_v70 (broadcastInDim S1x1x8 ![2] bcast_S8_S1x1x8_2 : (⟨S8, .f32⟩ : BufTy).Contents (Elt F) → (⟨S1x1x8, .f32⟩ : BufTy).Contents (Elt F)),
    StableHlo.unary main_v70 main_v71 (broadcastInDim S2x65536x8 ![0, 1, 2] bcast_S1x1x8_S2x65536x8_0_1_2 : (⟨S1x1x8, .f32⟩ : BufTy).Contents (Elt F) → (⟨S2x65536x8, .f32⟩ : BufTy).Contents (Elt F)),
    StableHlo.binary main_v69 main_v71 main_v72 (addf : (⟨S2x65536x8, .f32⟩ : BufTy).Contents (Elt F) → (⟨S2x65536x8, .f32⟩ : BufTy).Contents (Elt F) → (⟨S2x65536x8, .f32⟩ : BufTy).Contents (Elt F)),
    StableHlo.unary main_arg18 main_v73 (broadcastInDim S1x1x8 ![2] bcast_S8_S1x1x8_2 : (⟨S8, .f32⟩ : BufTy).Contents (Elt F) → (⟨S1x1x8, .f32⟩ : BufTy).Contents (Elt F)),
    StableHlo.unary main_v73 main_v74 (broadcastInDim S2x65536x8 ![0, 1, 2] bcast_S1x1x8_S2x65536x8_0_1_2 : (⟨S1x1x8, .f32⟩ : BufTy).Contents (Elt F) → (⟨S2x65536x8, .f32⟩ : BufTy).Contents (Elt F)),
    StableHlo.binary main_v72 main_v74 main_v75 (mulf : (⟨S2x65536x8, .f32⟩ : BufTy).Contents (Elt F) → (⟨S2x65536x8, .f32⟩ : BufTy).Contents (Elt F) → (⟨S2x65536x8, .f32⟩ : BufTy).Contents (Elt F)),
    StableHlo.unary main_arg19 main_v76 (broadcastInDim S1x1x8 ![2] bcast_S8_S1x1x8_2 : (⟨S8, .f32⟩ : BufTy).Contents (Elt F) → (⟨S1x1x8, .f32⟩ : BufTy).Contents (Elt F)),
    StableHlo.unary main_v76 main_v77 (broadcastInDim S2x65536x8 ![0, 1, 2] bcast_S1x1x8_S2x65536x8_0_1_2 : (⟨S1x1x8, .f32⟩ : BufTy).Contents (Elt F) → (⟨S2x65536x8, .f32⟩ : BufTy).Contents (Elt F)),
    StableHlo.binary main_v75 main_v77 main_v78 (addf : (⟨S2x65536x8, .f32⟩ : BufTy).Contents (Elt F) → (⟨S2x65536x8, .f32⟩ : BufTy).Contents (Elt F) → (⟨S2x65536x8, .f32⟩ : BufTy).Contents (Elt F)),
    TRef.nullary main_call3.cst (constant S_ .f32 0x00000000#32),
    TRef.unary main_call3.cst main_call3.v0 (broadcastInDim S2x65536x8 ![] bcast_S_S2x65536x8 : (⟨S_, .f32⟩ : BufTy).Contents (Elt F) → (⟨S2x65536x8, .f32⟩ : BufTy).Contents (Elt F)),
    TRef.binary (.of main_v78 : TRef sig ⟨S2x65536x8, .f32⟩) main_call3.v0 main_call3.v1 (maximumf : (⟨S2x65536x8, .f32⟩ : BufTy).Contents (Elt F) → (⟨S2x65536x8, .f32⟩ : BufTy).Contents (Elt F) → (⟨S2x65536x8, .f32⟩ : BufTy).Contents (Elt F)),
    StableHlo.binary main_v79 main_arg20 main_v80 ((fun l r => Host.dotGeneral dot_S2x65536x8_S8x8_S2x65536x8_2_1_01_0_n_n none l r) : (⟨S2x65536x8, .f32⟩ : BufTy).Contents (Elt F) → (⟨S8x8, .f32⟩ : BufTy).Contents (Elt F) → (⟨S2x65536x8, .f32⟩ : BufTy).Contents (Elt F)),
    StableHlo.unary main_arg21 main_v81 (broadcastInDim S1x1x8 ![2] bcast_S8_S1x1x8_2 : (⟨S8, .f32⟩ : BufTy).Contents (Elt F) → (⟨S1x1x8, .f32⟩ : BufTy).Contents (Elt F)),
    StableHlo.unary main_v81 main_v82 (broadcastInDim S2x65536x8 ![0, 1, 2] bcast_S1x1x8_S2x65536x8_0_1_2 : (⟨S1x1x8, .f32⟩ : BufTy).Contents (Elt F) → (⟨S2x65536x8, .f32⟩ : BufTy).Contents (Elt F)),
    StableHlo.binary main_v80 main_v82 main_v83 (addf : (⟨S2x65536x8, .f32⟩ : BufTy).Contents (Elt F) → (⟨S2x65536x8, .f32⟩ : BufTy).Contents (Elt F) → (⟨S2x65536x8, .f32⟩ : BufTy).Contents (Elt F)),
    StableHlo.binary main_v83 main_arg22 main_v84 ((fun l r => Host.dotGeneral dot_S2x65536x8_S32x8_S2x65536x32_2_1_01_0_n_n none l r) : (⟨S2x65536x8, .f32⟩ : BufTy).Contents (Elt F) → (⟨S32x8, .f32⟩ : BufTy).Contents (Elt F) → (⟨S2x65536x32, .f32⟩ : BufTy).Contents (Elt F)),
    StableHlo.unary main_arg23 main_v85 (broadcastInDim S1x1x32 ![2] bcast_S32_S1x1x32_2 : (⟨S32, .f32⟩ : BufTy).Contents (Elt F) → (⟨S1x1x32, .f32⟩ : BufTy).Contents (Elt F)),
    StableHlo.unary main_v85 main_v86 (broadcastInDim S2x65536x32 ![0, 1, 2] bcast_S1x1x32_S2x65536x32_0_1_2 : (⟨S1x1x32, .f32⟩ : BufTy).Contents (Elt F) → (⟨S2x65536x32, .f32⟩ : BufTy).Contents (Elt F)),
    StableHlo.binary main_v84 main_v86 main_v87 (addf : (⟨S2x65536x32, .f32⟩ : BufTy).Contents (Elt F) → (⟨S2x65536x32, .f32⟩ : BufTy).Contents (Elt F) → (⟨S2x65536x32, .f32⟩ : BufTy).Contents (Elt F)),
    StableHlo.unary main_arg24 main_v88 (broadcastInDim S1x1x32 ![2] bcast_S32_S1x1x32_2 : (⟨S32, .f32⟩ : BufTy).Contents (Elt F) → (⟨S1x1x32, .f32⟩ : BufTy).Contents (Elt F)),
    StableHlo.unary main_v88 main_v89 (broadcastInDim S2x65536x32 ![0, 1, 2] bcast_S1x1x32_S2x65536x32_0_1_2 : (⟨S1x1x32, .f32⟩ : BufTy).Contents (Elt F) → (⟨S2x65536x32, .f32⟩ : BufTy).Contents (Elt F)),
    StableHlo.binary main_v87 main_v89 main_v90 (mulf : (⟨S2x65536x32, .f32⟩ : BufTy).Contents (Elt F) → (⟨S2x65536x32, .f32⟩ : BufTy).Contents (Elt F) → (⟨S2x65536x32, .f32⟩ : BufTy).Contents (Elt F)),
    StableHlo.unary main_arg25 main_v91 (broadcastInDim S1x1x32 ![2] bcast_S32_S1x1x32_2 : (⟨S32, .f32⟩ : BufTy).Contents (Elt F) → (⟨S1x1x32, .f32⟩ : BufTy).Contents (Elt F)),
    StableHlo.unary main_v91 main_v92 (broadcastInDim S2x65536x32 ![0, 1, 2] bcast_S1x1x32_S2x65536x32_0_1_2 : (⟨S1x1x32, .f32⟩ : BufTy).Contents (Elt F) → (⟨S2x65536x32, .f32⟩ : BufTy).Contents (Elt F)),
    StableHlo.binary main_v90 main_v92 main_v93 (addf : (⟨S2x65536x32, .f32⟩ : BufTy).Contents (Elt F) → (⟨S2x65536x32, .f32⟩ : BufTy).Contents (Elt F) → (⟨S2x65536x32, .f32⟩ : BufTy).Contents (Elt F)),
    StableHlo.unary main_v83 main_v94 (broadcastInDim S2x65536x1x8 ![0, 1, 3] bcast_S2x65536x8_S2x65536x1x8_0_1_3 : (⟨S2x65536x8, .f32⟩ : BufTy).Contents (Elt F) → (⟨S2x65536x1x8, .f32⟩ : BufTy).Contents (Elt F)),
    StableHlo.unary main_v94 main_v95 (broadcastInDim S2x65536x16x8 ![0, 1, 2, 3] bcast_S2x65536x1x8_S2x65536x16x8_0_1_2_3 : (⟨S2x65536x1x8, .f32⟩ : BufTy).Contents (Elt F) → (⟨S2x65536x16x8, .f32⟩ : BufTy).Contents (Elt F)),
    StableHlo.binary main_v42 main_v95 main_v96 ((fun a b => concatenate S2x65536x16x16 3 [⟨S2x65536x16x8, a⟩, ⟨S2x65536x16x8, b⟩] concatenates_S2x65536x16x8_S2x65536x16x8_S2x65536x16x16_d3) : (⟨S2x65536x16x8, .f32⟩ : BufTy).Contents (Elt F) → (⟨S2x65536x16x8, .f32⟩ : BufTy).Contents (Elt F) → (⟨S2x65536x16x16, .f32⟩ : BufTy).Contents (Elt F)),
    StableHlo.binary main_v96 main_arg26 main_v97 ((fun l r => Host.dotGeneral dot_S2x65536x16x16_S16x16_S2x65536x16x16_3_1_012_0_n_n none l r) : (⟨S2x65536x16x16, .f32⟩ : BufTy).Contents (Elt F) → (⟨S16x16, .f32⟩ : BufTy).Contents (Elt F) → (⟨S2x65536x16x16, .f32⟩ : BufTy).Contents (Elt F)),
    StableHlo.nullary main_cst_7 (constant S_ .f32 0xFF800000#32),
    StableHlo.binary main_v97 main_cst_7 main_v98 ((fun x v => Host.reduce FloatOps.maximumf x v reducesTo_S2x65536x16x16_S2x65536x16_d2 h_S_) : (⟨S2x65536x16x16, .f32⟩ : BufTy).Contents (Elt F) → (⟨S_, .f32⟩ : BufTy).Contents (Elt F) → (⟨S2x65536x16, .f32⟩ : BufTy).Contents (Elt F)),
    StableHlo.nullary main_cst_8 (constant S_ .f32 0xFF800000#32),
    StableHlo.unary main_cst_8 main_v99 (broadcastInDim S2x65536x16 ![] bcast_S_S2x65536x16 : (⟨S_, .f32⟩ : BufTy).Contents (Elt F) → (⟨S2x65536x16, .f32⟩ : BufTy).Contents (Elt F)),
    StableHlo.binary main_v99 main_v98 main_v100 (maximumf : (⟨S2x65536x16, .f32⟩ : BufTy).Contents (Elt F) → (⟨S2x65536x16, .f32⟩ : BufTy).Contents (Elt F) → (⟨S2x65536x16, .f32⟩ : BufTy).Contents (Elt F)),
    StableHlo.unary main_v100 main_v101 (broadcastInDim S2x65536x1x16 ![0, 1, 3] bcast_S2x65536x16_S2x65536x1x16_0_1_3 : (⟨S2x65536x16, .f32⟩ : BufTy).Contents (Elt F) → (⟨S2x65536x1x16, .f32⟩ : BufTy).Contents (Elt F)),
    StableHlo.unary main_v101 main_v102 (broadcastInDim S2x65536x16x16 ![0, 1, 2, 3] bcast_S2x65536x1x16_S2x65536x16x16_0_1_2_3 : (⟨S2x65536x1x16, .f32⟩ : BufTy).Contents (Elt F) → (⟨S2x65536x16x16, .f32⟩ : BufTy).Contents (Elt F)),
    StableHlo.binary main_v97 main_v102 main_v103 (subf : (⟨S2x65536x16x16, .f32⟩ : BufTy).Contents (Elt F) → (⟨S2x65536x16x16, .f32⟩ : BufTy).Contents (Elt F) → (⟨S2x65536x16x16, .f32⟩ : BufTy).Contents (Elt F)),
    StableHlo.unary main_v103 main_v104 (Host.exp : (⟨S2x65536x16x16, .f32⟩ : BufTy).Contents (Elt F) → (⟨S2x65536x16x16, .f32⟩ : BufTy).Contents (Elt F)),
    StableHlo.nullary main_cst_9 (constant S_ .f32 0x00000000#32),
    StableHlo.binary main_v104 main_cst_9 main_v105 ((fun x v => Host.reduceAdd x v reducesTo_S2x65536x16x16_S2x65536x16_d2 h_S_) : (⟨S2x65536x16x16, .f32⟩ : BufTy).Contents (Elt F) → (⟨S_, .f32⟩ : BufTy).Contents (Elt F) → (⟨S2x65536x16, .f32⟩ : BufTy).Contents (Elt F)),
    StableHlo.unary main_v105 main_v106 (broadcastInDim S2x65536x1x16 ![0, 1, 3] bcast_S2x65536x16_S2x65536x1x16_0_1_3 : (⟨S2x65536x16, .f32⟩ : BufTy).Contents (Elt F) → (⟨S2x65536x1x16, .f32⟩ : BufTy).Contents (Elt F)),
    StableHlo.unary main_v106 main_v107 (broadcastInDim S2x65536x16x16 ![0, 1, 2, 3] bcast_S2x65536x1x16_S2x65536x16x16_0_1_2_3 : (⟨S2x65536x1x16, .f32⟩ : BufTy).Contents (Elt F) → (⟨S2x65536x16x16, .f32⟩ : BufTy).Contents (Elt F)) ]

/-- Window 2: 62 operations. -/
abbrev ops2 : List (HloOp τ sig (Elt F)) :=
  [ StableHlo.binary main_v104 main_v107 main_v108 (Host.divf : (⟨S2x65536x16x16, .f32⟩ : BufTy).Contents (Elt F) → (⟨S2x65536x16x16, .f32⟩ : BufTy).Contents (Elt F) → (⟨S2x65536x16x16, .f32⟩ : BufTy).Contents (Elt F)),
    StableHlo.binary main_v108 main_v96 main_v109 (mulf : (⟨S2x65536x16x16, .f32⟩ : BufTy).Contents (Elt F) → (⟨S2x65536x16x16, .f32⟩ : BufTy).Contents (Elt F) → (⟨S2x65536x16x16, .f32⟩ : BufTy).Contents (Elt F)),
    StableHlo.nullary main_cst_10 (constant S_ .f32 0x00000000#32),
    StableHlo.binary main_v109 main_cst_10 main_v110 ((fun x v => Host.reduceAdd x v reducesTo_S2x65536x16x16_S2x65536x16_d2 h_S_) : (⟨S2x65536x16x16, .f32⟩ : BufTy).Contents (Elt F) → (⟨S_, .f32⟩ : BufTy).Contents (Elt F) → (⟨S2x65536x16, .f32⟩ : BufTy).Contents (Elt F)),
    StableHlo.binary main_v110 main_arg27 main_v111 ((fun l r => Host.dotGeneral dot_S2x65536x16_S16x16_S2x65536x16_2_1_01_0_n_n none l r) : (⟨S2x65536x16, .f32⟩ : BufTy).Contents (Elt F) → (⟨S16x16, .f32⟩ : BufTy).Contents (Elt F) → (⟨S2x65536x16, .f32⟩ : BufTy).Contents (Elt F)),
    StableHlo.unary main_arg28 main_v112 (broadcastInDim S1x1x16 ![2] bcast_S16_S1x1x16_2 : (⟨S16, .f32⟩ : BufTy).Contents (Elt F) → (⟨S1x1x16, .f32⟩ : BufTy).Contents (Elt F)),
    StableHlo.unary main_v112 main_v113 (broadcastInDim S2x65536x16 ![0, 1, 2] bcast_S1x1x16_S2x65536x16_0_1_2 : (⟨S1x1x16, .f32⟩ : BufTy).Contents (Elt F) → (⟨S2x65536x16, .f32⟩ : BufTy).Contents (Elt F)),
    StableHlo.binary main_v111 main_v113 main_v114 (addf : (⟨S2x65536x16, .f32⟩ : BufTy).Contents (Elt F) → (⟨S2x65536x16, .f32⟩ : BufTy).Contents (Elt F) → (⟨S2x65536x16, .f32⟩ : BufTy).Contents (Elt F)),
    StableHlo.unary main_arg29 main_v115 (broadcastInDim S1x1x16 ![2] bcast_S16_S1x1x16_2 : (⟨S16, .f32⟩ : BufTy).Contents (Elt F) → (⟨S1x1x16, .f32⟩ : BufTy).Contents (Elt F)),
    StableHlo.unary main_v115 main_v116 (broadcastInDim S2x65536x16 ![0, 1, 2] bcast_S1x1x16_S2x65536x16_0_1_2 : (⟨S1x1x16, .f32⟩ : BufTy).Contents (Elt F) → (⟨S2x65536x16, .f32⟩ : BufTy).Contents (Elt F)),
    StableHlo.binary main_v114 main_v116 main_v117 (mulf : (⟨S2x65536x16, .f32⟩ : BufTy).Contents (Elt F) → (⟨S2x65536x16, .f32⟩ : BufTy).Contents (Elt F) → (⟨S2x65536x16, .f32⟩ : BufTy).Contents (Elt F)),
    StableHlo.unary main_arg30 main_v118 (broadcastInDim S1x1x16 ![2] bcast_S16_S1x1x16_2 : (⟨S16, .f32⟩ : BufTy).Contents (Elt F) → (⟨S1x1x16, .f32⟩ : BufTy).Contents (Elt F)),
    StableHlo.unary main_v118 main_v119 (broadcastInDim S2x65536x16 ![0, 1, 2] bcast_S1x1x16_S2x65536x16_0_1_2 : (⟨S1x1x16, .f32⟩ : BufTy).Contents (Elt F) → (⟨S2x65536x16, .f32⟩ : BufTy).Contents (Elt F)),
    StableHlo.binary main_v117 main_v119 main_v120 (addf : (⟨S2x65536x16, .f32⟩ : BufTy).Contents (Elt F) → (⟨S2x65536x16, .f32⟩ : BufTy).Contents (Elt F) → (⟨S2x65536x16, .f32⟩ : BufTy).Contents (Elt F)),
    TRef.nullary main_call4.cst (constant S_ .f32 0x00000000#32),
    TRef.unary main_call4.cst main_call4.v0 (broadcastInDim S2x65536x16 ![] bcast_S_S2x65536x16 : (⟨S_, .f32⟩ : BufTy).Contents (Elt F) → (⟨S2x65536x16, .f32⟩ : BufTy).Contents (Elt F)),
    TRef.binary (.of main_v120 : TRef sig ⟨S2x65536x16, .f32⟩) main_call4.v0 main_call4.v1 (maximumf : (⟨S2x65536x16, .f32⟩ : BufTy).Contents (Elt F) → (⟨S2x65536x16, .f32⟩ : BufTy).Contents (Elt F) → (⟨S2x65536x16, .f32⟩ : BufTy).Contents (Elt F)),
    StableHlo.binary main_v121 main_arg31 main_v122 ((fun l r => Host.dotGeneral dot_S2x65536x16_S16x16_S2x65536x16_2_1_01_0_n_n none l r) : (⟨S2x65536x16, .f32⟩ : BufTy).Contents (Elt F) → (⟨S16x16, .f32⟩ : BufTy).Contents (Elt F) → (⟨S2x65536x16, .f32⟩ : BufTy).Contents (Elt F)),
    StableHlo.unary main_arg32 main_v123 (broadcastInDim S1x1x16 ![2] bcast_S16_S1x1x16_2 : (⟨S16, .f32⟩ : BufTy).Contents (Elt F) → (⟨S1x1x16, .f32⟩ : BufTy).Contents (Elt F)),
    StableHlo.unary main_v123 main_v124 (broadcastInDim S2x65536x16 ![0, 1, 2] bcast_S1x1x16_S2x65536x16_0_1_2 : (⟨S1x1x16, .f32⟩ : BufTy).Contents (Elt F) → (⟨S2x65536x16, .f32⟩ : BufTy).Contents (Elt F)),
    StableHlo.binary main_v122 main_v124 main_v125 (addf : (⟨S2x65536x16, .f32⟩ : BufTy).Contents (Elt F) → (⟨S2x65536x16, .f32⟩ : BufTy).Contents (Elt F) → (⟨S2x65536x16, .f32⟩ : BufTy).Contents (Elt F)),
    StableHlo.binary main_v125 main_arg33 main_v126 ((fun l r => Host.dotGeneral dot_S2x65536x16_S32x16_S2x65536x32_2_1_01_0_n_n none l r) : (⟨S2x65536x16, .f32⟩ : BufTy).Contents (Elt F) → (⟨S32x16, .f32⟩ : BufTy).Contents (Elt F) → (⟨S2x65536x32, .f32⟩ : BufTy).Contents (Elt F)),
    StableHlo.unary main_arg34 main_v127 (broadcastInDim S1x1x32 ![2] bcast_S32_S1x1x32_2 : (⟨S32, .f32⟩ : BufTy).Contents (Elt F) → (⟨S1x1x32, .f32⟩ : BufTy).Contents (Elt F)),
    StableHlo.unary main_v127 main_v128 (broadcastInDim S2x65536x32 ![0, 1, 2] bcast_S1x1x32_S2x65536x32_0_1_2 : (⟨S1x1x32, .f32⟩ : BufTy).Contents (Elt F) → (⟨S2x65536x32, .f32⟩ : BufTy).Contents (Elt F)),
    StableHlo.binary main_v126 main_v128 main_v129 (addf : (⟨S2x65536x32, .f32⟩ : BufTy).Contents (Elt F) → (⟨S2x65536x32, .f32⟩ : BufTy).Contents (Elt F) → (⟨S2x65536x32, .f32⟩ : BufTy).Contents (Elt F)),
    StableHlo.unary main_arg35 main_v130 (broadcastInDim S1x1x32 ![2] bcast_S32_S1x1x32_2 : (⟨S32, .f32⟩ : BufTy).Contents (Elt F) → (⟨S1x1x32, .f32⟩ : BufTy).Contents (Elt F)),
    StableHlo.unary main_v130 main_v131 (broadcastInDim S2x65536x32 ![0, 1, 2] bcast_S1x1x32_S2x65536x32_0_1_2 : (⟨S1x1x32, .f32⟩ : BufTy).Contents (Elt F) → (⟨S2x65536x32, .f32⟩ : BufTy).Contents (Elt F)),
    StableHlo.binary main_v129 main_v131 main_v132 (mulf : (⟨S2x65536x32, .f32⟩ : BufTy).Contents (Elt F) → (⟨S2x65536x32, .f32⟩ : BufTy).Contents (Elt F) → (⟨S2x65536x32, .f32⟩ : BufTy).Contents (Elt F)),
    StableHlo.unary main_arg36 main_v133 (broadcastInDim S1x1x32 ![2] bcast_S32_S1x1x32_2 : (⟨S32, .f32⟩ : BufTy).Contents (Elt F) → (⟨S1x1x32, .f32⟩ : BufTy).Contents (Elt F)),
    StableHlo.unary main_v133 main_v134 (broadcastInDim S2x65536x32 ![0, 1, 2] bcast_S1x1x32_S2x65536x32_0_1_2 : (⟨S1x1x32, .f32⟩ : BufTy).Contents (Elt F) → (⟨S2x65536x32, .f32⟩ : BufTy).Contents (Elt F)),
    StableHlo.binary main_v132 main_v134 main_v135 (addf : (⟨S2x65536x32, .f32⟩ : BufTy).Contents (Elt F) → (⟨S2x65536x32, .f32⟩ : BufTy).Contents (Elt F) → (⟨S2x65536x32, .f32⟩ : BufTy).Contents (Elt F)),
    StableHlo.unary main_v125 main_v136 (broadcastInDim S2x65536x1x16 ![0, 1, 3] bcast_S2x65536x16_S2x65536x1x16_0_1_3 : (⟨S2x65536x16, .f32⟩ : BufTy).Contents (Elt F) → (⟨S2x65536x1x16, .f32⟩ : BufTy).Contents (Elt F)),
    StableHlo.unary main_v136 main_v137 (broadcastInDim S2x65536x16x16 ![0, 1, 2, 3] bcast_S2x65536x1x16_S2x65536x16x16_0_1_2_3 : (⟨S2x65536x1x16, .f32⟩ : BufTy).Contents (Elt F) → (⟨S2x65536x16x16, .f32⟩ : BufTy).Contents (Elt F)),
    StableHlo.binary main_v42 main_v137 main_v138 ((fun a b => concatenate S2x65536x16x24 3 [⟨S2x65536x16x8, a⟩, ⟨S2x65536x16x16, b⟩] concatenates_S2x65536x16x8_S2x65536x16x16_S2x65536x16x24_d3) : (⟨S2x65536x16x8, .f32⟩ : BufTy).Contents (Elt F) → (⟨S2x65536x16x16, .f32⟩ : BufTy).Contents (Elt F) → (⟨S2x65536x16x24, .f32⟩ : BufTy).Contents (Elt F)),
    StableHlo.binary main_v138 main_arg37 main_v139 ((fun l r => Host.dotGeneral dot_S2x65536x16x24_S24x24_S2x65536x16x24_3_1_012_0_n_n none l r) : (⟨S2x65536x16x24, .f32⟩ : BufTy).Contents (Elt F) → (⟨S24x24, .f32⟩ : BufTy).Contents (Elt F) → (⟨S2x65536x16x24, .f32⟩ : BufTy).Contents (Elt F)),
    StableHlo.nullary main_cst_11 (constant S_ .f32 0xFF800000#32),
    StableHlo.binary main_v139 main_cst_11 main_v140 ((fun x v => Host.reduce FloatOps.maximumf x v reducesTo_S2x65536x16x24_S2x65536x24_d2 h_S_) : (⟨S2x65536x16x24, .f32⟩ : BufTy).Contents (Elt F) → (⟨S_, .f32⟩ : BufTy).Contents (Elt F) → (⟨S2x65536x24, .f32⟩ : BufTy).Contents (Elt F)),
    StableHlo.nullary main_cst_12 (constant S_ .f32 0xFF800000#32),
    StableHlo.unary main_cst_12 main_v141 (broadcastInDim S2x65536x24 ![] bcast_S_S2x65536x24 : (⟨S_, .f32⟩ : BufTy).Contents (Elt F) → (⟨S2x65536x24, .f32⟩ : BufTy).Contents (Elt F)),
    StableHlo.binary main_v141 main_v140 main_v142 (maximumf : (⟨S2x65536x24, .f32⟩ : BufTy).Contents (Elt F) → (⟨S2x65536x24, .f32⟩ : BufTy).Contents (Elt F) → (⟨S2x65536x24, .f32⟩ : BufTy).Contents (Elt F)),
    StableHlo.unary main_v142 main_v143 (broadcastInDim S2x65536x1x24 ![0, 1, 3] bcast_S2x65536x24_S2x65536x1x24_0_1_3 : (⟨S2x65536x24, .f32⟩ : BufTy).Contents (Elt F) → (⟨S2x65536x1x24, .f32⟩ : BufTy).Contents (Elt F)),
    StableHlo.unary main_v143 main_v144 (broadcastInDim S2x65536x16x24 ![0, 1, 2, 3] bcast_S2x65536x1x24_S2x65536x16x24_0_1_2_3 : (⟨S2x65536x1x24, .f32⟩ : BufTy).Contents (Elt F) → (⟨S2x65536x16x24, .f32⟩ : BufTy).Contents (Elt F)),
    StableHlo.binary main_v139 main_v144 main_v145 (subf : (⟨S2x65536x16x24, .f32⟩ : BufTy).Contents (Elt F) → (⟨S2x65536x16x24, .f32⟩ : BufTy).Contents (Elt F) → (⟨S2x65536x16x24, .f32⟩ : BufTy).Contents (Elt F)),
    StableHlo.unary main_v145 main_v146 (Host.exp : (⟨S2x65536x16x24, .f32⟩ : BufTy).Contents (Elt F) → (⟨S2x65536x16x24, .f32⟩ : BufTy).Contents (Elt F)),
    StableHlo.nullary main_cst_13 (constant S_ .f32 0x00000000#32),
    StableHlo.binary main_v146 main_cst_13 main_v147 ((fun x v => Host.reduceAdd x v reducesTo_S2x65536x16x24_S2x65536x24_d2 h_S_) : (⟨S2x65536x16x24, .f32⟩ : BufTy).Contents (Elt F) → (⟨S_, .f32⟩ : BufTy).Contents (Elt F) → (⟨S2x65536x24, .f32⟩ : BufTy).Contents (Elt F)),
    StableHlo.unary main_v147 main_v148 (broadcastInDim S2x65536x1x24 ![0, 1, 3] bcast_S2x65536x24_S2x65536x1x24_0_1_3 : (⟨S2x65536x24, .f32⟩ : BufTy).Contents (Elt F) → (⟨S2x65536x1x24, .f32⟩ : BufTy).Contents (Elt F)),
    StableHlo.unary main_v148 main_v149 (broadcastInDim S2x65536x16x24 ![0, 1, 2, 3] bcast_S2x65536x1x24_S2x65536x16x24_0_1_2_3 : (⟨S2x65536x1x24, .f32⟩ : BufTy).Contents (Elt F) → (⟨S2x65536x16x24, .f32⟩ : BufTy).Contents (Elt F)),
    StableHlo.binary main_v146 main_v149 main_v150 (Host.divf : (⟨S2x65536x16x24, .f32⟩ : BufTy).Contents (Elt F) → (⟨S2x65536x16x24, .f32⟩ : BufTy).Contents (Elt F) → (⟨S2x65536x16x24, .f32⟩ : BufTy).Contents (Elt F)),
    StableHlo.binary main_v150 main_v138 main_v151 (mulf : (⟨S2x65536x16x24, .f32⟩ : BufTy).Contents (Elt F) → (⟨S2x65536x16x24, .f32⟩ : BufTy).Contents (Elt F) → (⟨S2x65536x16x24, .f32⟩ : BufTy).Contents (Elt F)),
    StableHlo.nullary main_cst_14 (constant S_ .f32 0x00000000#32),
    StableHlo.binary main_v151 main_cst_14 main_v152 ((fun x v => Host.reduceAdd x v reducesTo_S2x65536x16x24_S2x65536x24_d2 h_S_) : (⟨S2x65536x16x24, .f32⟩ : BufTy).Contents (Elt F) → (⟨S_, .f32⟩ : BufTy).Contents (Elt F) → (⟨S2x65536x24, .f32⟩ : BufTy).Contents (Elt F)),
    StableHlo.binary main_v152 main_arg38 main_v153 ((fun l r => Host.dotGeneral dot_S2x65536x24_S32x24_S2x65536x32_2_1_01_0_n_n none l r) : (⟨S2x65536x24, .f32⟩ : BufTy).Contents (Elt F) → (⟨S32x24, .f32⟩ : BufTy).Contents (Elt F) → (⟨S2x65536x32, .f32⟩ : BufTy).Contents (Elt F)),
    StableHlo.unary main_arg39 main_v154 (broadcastInDim S1x1x32 ![2] bcast_S32_S1x1x32_2 : (⟨S32, .f32⟩ : BufTy).Contents (Elt F) → (⟨S1x1x32, .f32⟩ : BufTy).Contents (Elt F)),
    StableHlo.unary main_v154 main_v155 (broadcastInDim S2x65536x32 ![0, 1, 2] bcast_S1x1x32_S2x65536x32_0_1_2 : (⟨S1x1x32, .f32⟩ : BufTy).Contents (Elt F) → (⟨S2x65536x32, .f32⟩ : BufTy).Contents (Elt F)),
    StableHlo.binary main_v153 main_v155 main_v156 (addf : (⟨S2x65536x32, .f32⟩ : BufTy).Contents (Elt F) → (⟨S2x65536x32, .f32⟩ : BufTy).Contents (Elt F) → (⟨S2x65536x32, .f32⟩ : BufTy).Contents (Elt F)),
    StableHlo.unary main_arg40 main_v157 (broadcastInDim S1x1x32 ![2] bcast_S32_S1x1x32_2 : (⟨S32, .f32⟩ : BufTy).Contents (Elt F) → (⟨S1x1x32, .f32⟩ : BufTy).Contents (Elt F)),
    StableHlo.unary main_v157 main_v158 (broadcastInDim S2x65536x32 ![0, 1, 2] bcast_S1x1x32_S2x65536x32_0_1_2 : (⟨S1x1x32, .f32⟩ : BufTy).Contents (Elt F) → (⟨S2x65536x32, .f32⟩ : BufTy).Contents (Elt F)),
    StableHlo.binary main_v156 main_v158 main_v159 (mulf : (⟨S2x65536x32, .f32⟩ : BufTy).Contents (Elt F) → (⟨S2x65536x32, .f32⟩ : BufTy).Contents (Elt F) → (⟨S2x65536x32, .f32⟩ : BufTy).Contents (Elt F)),
    StableHlo.unary main_arg41 main_v160 (broadcastInDim S1x1x32 ![2] bcast_S32_S1x1x32_2 : (⟨S32, .f32⟩ : BufTy).Contents (Elt F) → (⟨S1x1x32, .f32⟩ : BufTy).Contents (Elt F)),
    StableHlo.unary main_v160 main_v161 (broadcastInDim S2x65536x32 ![0, 1, 2] bcast_S1x1x32_S2x65536x32_0_1_2 : (⟨S1x1x32, .f32⟩ : BufTy).Contents (Elt F) → (⟨S2x65536x32, .f32⟩ : BufTy).Contents (Elt F)),
    StableHlo.binary main_v159 main_v161 main_v162 (addf : (⟨S2x65536x32, .f32⟩ : BufTy).Contents (Elt F) → (⟨S2x65536x32, .f32⟩ : BufTy).Contents (Elt F) → (⟨S2x65536x32, .f32⟩ : BufTy).Contents (Elt F)) ]

/-- Window 3: 25 operations. -/
abbrev ops3 : List (HloOp τ sig (Elt F)) :=
  [ TRef.nullary main_call5.cst (constant S_ .f32 0x00000000#32),
    TRef.unary main_call5.cst main_call5.v0 (broadcastInDim S2x65536x32 ![] bcast_S_S2x65536x32 : (⟨S_, .f32⟩ : BufTy).Contents (Elt F) → (⟨S2x65536x32, .f32⟩ : BufTy).Contents (Elt F)),
    TRef.binary (.of main_v162 : TRef sig ⟨S2x65536x32, .f32⟩) main_call5.v0 main_call5.v1 (maximumf : (⟨S2x65536x32, .f32⟩ : BufTy).Contents (Elt F) → (⟨S2x65536x32, .f32⟩ : BufTy).Contents (Elt F) → (⟨S2x65536x32, .f32⟩ : BufTy).Contents (Elt F)),
    StableHlo.binary main_v163 main_arg42 main_v164 ((fun l r => Host.dotGeneral dot_S2x65536x32_S32x32_S2x65536x32_2_1_01_0_n_n none l r) : (⟨S2x65536x32, .f32⟩ : BufTy).Contents (Elt F) → (⟨S32x32, .f32⟩ : BufTy).Contents (Elt F) → (⟨S2x65536x32, .f32⟩ : BufTy).Contents (Elt F)),
    StableHlo.unary main_arg43 main_v165 (broadcastInDim S1x1x32 ![2] bcast_S32_S1x1x32_2 : (⟨S32, .f32⟩ : BufTy).Contents (Elt F) → (⟨S1x1x32, .f32⟩ : BufTy).Contents (Elt F)),
    StableHlo.unary main_v165 main_v166 (broadcastInDim S2x65536x32 ![0, 1, 2] bcast_S1x1x32_S2x65536x32_0_1_2 : (⟨S1x1x32, .f32⟩ : BufTy).Contents (Elt F) → (⟨S2x65536x32, .f32⟩ : BufTy).Contents (Elt F)),
    StableHlo.binary main_v164 main_v166 main_v167 (addf : (⟨S2x65536x32, .f32⟩ : BufTy).Contents (Elt F) → (⟨S2x65536x32, .f32⟩ : BufTy).Contents (Elt F) → (⟨S2x65536x32, .f32⟩ : BufTy).Contents (Elt F)),
    StableHlo.binary main_v167 main_arg44 main_v168 ((fun l r => Host.dotGeneral dot_S2x65536x32_S32x32_S2x65536x32_2_1_01_0_n_n none l r) : (⟨S2x65536x32, .f32⟩ : BufTy).Contents (Elt F) → (⟨S32x32, .f32⟩ : BufTy).Contents (Elt F) → (⟨S2x65536x32, .f32⟩ : BufTy).Contents (Elt F)),
    StableHlo.unary main_arg45 main_v169 (broadcastInDim S1x1x32 ![2] bcast_S32_S1x1x32_2 : (⟨S32, .f32⟩ : BufTy).Contents (Elt F) → (⟨S1x1x32, .f32⟩ : BufTy).Contents (Elt F)),
    StableHlo.unary main_v169 main_v170 (broadcastInDim S2x65536x32 ![0, 1, 2] bcast_S1x1x32_S2x65536x32_0_1_2 : (⟨S1x1x32, .f32⟩ : BufTy).Contents (Elt F) → (⟨S2x65536x32, .f32⟩ : BufTy).Contents (Elt F)),
    StableHlo.binary main_v168 main_v170 main_v171 (addf : (⟨S2x65536x32, .f32⟩ : BufTy).Contents (Elt F) → (⟨S2x65536x32, .f32⟩ : BufTy).Contents (Elt F) → (⟨S2x65536x32, .f32⟩ : BufTy).Contents (Elt F)),
    StableHlo.binary main_v171 main_arg46 main_v172 ((fun l r => Host.dotGeneral dot_S2x65536x32_S32x32_S2x65536x32_2_1_01_0_n_n none l r) : (⟨S2x65536x32, .f32⟩ : BufTy).Contents (Elt F) → (⟨S32x32, .f32⟩ : BufTy).Contents (Elt F) → (⟨S2x65536x32, .f32⟩ : BufTy).Contents (Elt F)),
    StableHlo.unary main_arg47 main_v173 (broadcastInDim S1x1x32 ![2] bcast_S32_S1x1x32_2 : (⟨S32, .f32⟩ : BufTy).Contents (Elt F) → (⟨S1x1x32, .f32⟩ : BufTy).Contents (Elt F)),
    StableHlo.unary main_v173 main_v174 (broadcastInDim S2x65536x32 ![0, 1, 2] bcast_S1x1x32_S2x65536x32_0_1_2 : (⟨S1x1x32, .f32⟩ : BufTy).Contents (Elt F) → (⟨S2x65536x32, .f32⟩ : BufTy).Contents (Elt F)),
    StableHlo.binary main_v172 main_v174 main_v175 (addf : (⟨S2x65536x32, .f32⟩ : BufTy).Contents (Elt F) → (⟨S2x65536x32, .f32⟩ : BufTy).Contents (Elt F) → (⟨S2x65536x32, .f32⟩ : BufTy).Contents (Elt F)),
    StableHlo.binary main_v175 main_v93 main_v176 (addf : (⟨S2x65536x32, .f32⟩ : BufTy).Contents (Elt F) → (⟨S2x65536x32, .f32⟩ : BufTy).Contents (Elt F) → (⟨S2x65536x32, .f32⟩ : BufTy).Contents (Elt F)),
    StableHlo.binary main_v176 main_v135 main_v177 (addf : (⟨S2x65536x32, .f32⟩ : BufTy).Contents (Elt F) → (⟨S2x65536x32, .f32⟩ : BufTy).Contents (Elt F) → (⟨S2x65536x32, .f32⟩ : BufTy).Contents (Elt F)),
    StableHlo.nullary main_cst_15 (constant S_ .f32 0x3C23D70A#32),
    TRef.nullary main_call6.cst (constant S_ .f32 0x00000000#32),
    TRef.unary main_call6.cst main_call6.v0 (broadcastInDim S2x65536x32 ![] bcast_S_S2x65536x32 : (⟨S_, .f32⟩ : BufTy).Contents (Elt F) → (⟨S2x65536x32, .f32⟩ : BufTy).Contents (Elt F)),
    TRef.binary (.of main_v177 : TRef sig ⟨S2x65536x32, .f32⟩) main_call6.v0 main_call6.v1 (cmpf .oge : (⟨S2x65536x32, .f32⟩ : BufTy).Contents (Elt F) → (⟨S2x65536x32, .f32⟩ : BufTy).Contents (Elt F) → (⟨S2x65536x32, .i1⟩ : BufTy).Contents (Elt F)),
    TRef.unary (.of main_cst_15 : TRef sig ⟨S_, .f32⟩) main_call6.v2 (id : (⟨S_, .f32⟩ : BufTy).Contents (Elt F) → (⟨S_, .f32⟩ : BufTy).Contents (Elt F)),
    TRef.unary main_call6.v2 main_call6.v3 (broadcastInDim S2x65536x32 ![] bcast_S_S2x65536x32 : (⟨S_, .f32⟩ : BufTy).Contents (Elt F) → (⟨S2x65536x32, .f32⟩ : BufTy).Contents (Elt F)),
    TRef.binary main_call6.v3 (.of main_v177 : TRef sig ⟨S2x65536x32, .f32⟩) main_call6.v4 (mulf : (⟨S2x65536x32, .f32⟩ : BufTy).Contents (Elt F) → (⟨S2x65536x32, .f32⟩ : BufTy).Contents (Elt F) → (⟨S2x65536x32, .f32⟩ : BufTy).Contents (Elt F)),
    TRef.ternary main_call6.v1 (.of main_v177 : TRef sig ⟨S2x65536x32, .f32⟩) main_call6.v4 main_call6.call0.v0 (select : (⟨S2x65536x32, .i1⟩ : BufTy).Contents (Elt F) → (⟨S2x65536x32, .f32⟩ : BufTy).Contents (Elt F) → (⟨S2x65536x32, .f32⟩ : BufTy).Contents (Elt F) → (⟨S2x65536x32, .f32⟩ : BufTy).Contents (Elt F)) ]

/-- The whole program: 219 operations. -/
abbrev ops : List (HloOp τ sig (Elt F)) := ops0 ++ (ops1 ++ (ops2 ++ ops3))

end Cert.RefRun

end
-- ==== Proof.LibSsa.lean ====
/-
  SINGLE ASSIGNMENT, READ BACK. A straight line of host operations in which every operation writes buffers that no
  earlier operation touches, and in which no operation's result depends on what its own result buffers held, leaves
  the buffers at a FIXED POINT of each of its operations: what the line leaves in an operation's result buffer is
  that operation's function of what the line leaves in its operands' buffers (`after_eqs`). A program that names a
  fresh buffer for every value is such a line, and the fixed-point equations are then the program's own lines read as
  equations between the final contents: one per operation, each usable by itself.

  The side condition is checked in ONE pass by a rank function `key` on buffers under which the line RISES: each
  operation writes only above a bound on everything touched before it (`Ssa`); buffers numbered in program order,
  each operation reading lower numbers than the one it writes, are the case in point. Per builder of an operation a
  lemma puts one more operation in front of such a line (`ssa_nullary` …), and one reads its equation off the front
  (`eqs_nullary` …).
-/
import Idealize.ShloMosaic.Lib.StableHlo.Run

noncomputable section

namespace Cert.Ssa

open Idealize.ShloMosaic Idealize.ShloMosaic.StableHlo

variable {τ : Topo} {sig : RefSig} {Val : EltTy → Type}

/-- What the operation writes does not depend on what the buffers it writes held before it. -/
def Indep (op : HloOp τ sig Val) : Prop :=
  ∀ F G : Valuation τ sig Val, (∀ x ∈ op.bufs, x ∉ op.writes → F x = G x) → ∀ b ∈ op.writes, op.result F b = op.result G b

/-- The contents `R` are a fixed point of every operation of the list, at the buffers it writes. -/
def Eqs (R : Valuation τ sig Val) : List (HloOp τ sig Val) → Prop
  | [] => True
  | op :: rest => (∀ b ∈ op.writes, R b = op.result R b) ∧ Eqs R rest

theorem eqs_nil (R : Valuation τ sig Val) : Eqs R [] ↔ True := Iff.rfl

theorem eqs_append (R : Valuation τ sig Val) : ∀ l₁ l₂ : List (HloOp τ sig Val), Eqs R (l₁ ++ l₂) ↔ Eqs R l₁ ∧ Eqs R l₂
  | [], l₂ => by rw [List.nil_append]; exact ⟨fun h => ⟨trivial, h⟩, fun h => h.2⟩
  | op :: l₁, l₂ => by
    rw [List.cons_append]
    show (_ ∧ Eqs R (l₁ ++ l₂)) ↔ (_ ∧ Eqs R l₁) ∧ Eqs R l₂
    rw [eqs_append R l₁ l₂, and_assoc]

/-- Under the rank `key` the line rises from `lo`: each operation is independent of its result buffers' old
    contents, writes only buffers ranked above `lo`, and `lo` for the rest of the line bounds everything it
    touches. -/
def Ssa (key : DevRef τ sig → Nat) : Nat → List (HloOp τ sig Val) → Prop
  | _, [] => True
  | lo, op :: rest => Indep op ∧ ∃ m, (∀ w ∈ op.writes, lo < key w) ∧ lo ≤ m ∧ (∀ x ∈ op.bufs, key x ≤ m) ∧ Ssa key m rest

variable {key : DevRef τ sig → Nat}

/-- Every buffer a rising line writes is ranked above its bound. -/
theorem Ssa.lt_writes : ∀ {lo : Nat} {ops : List (HloOp τ sig Val)}, Ssa key lo ops → ∀ o ∈ ops, ∀ w ∈ o.writes, lo < key w
  | _, [], _, _, ho, _, _ => absurd ho List.not_mem_nil
  | _, _ :: _, ⟨_, _, hw, hlm, _, hr⟩, o, ho, w, hwo => by
    rcases List.mem_cons.mp ho with rfl | ho
    · exact hw w hwo
    · exact lt_of_le_of_lt hlm (Ssa.lt_writes hr o ho w hwo)

/-- A buffer ranked at or below the bound is not written: the line leaves it as it found it. -/
theorem Ssa.after_low {lo : Nat} {ops : List (HloOp τ sig Val)} (h : Ssa key lo ops) (V : Valuation τ sig Val)
    {x : DevRef τ sig} (hx : key x ≤ lo) : after ops V x = V x :=
  after_of_forall_not_mem ops V fun o ho hxo => absurd (h.lt_writes o ho x hxo) (not_lt.mpr hx)

/-- **The fixed point.** What a rising line leaves is, at every operation's result buffers, that operation's function
    of what the line leaves. -/
theorem after_eqs : ∀ {lo : Nat} (ops : List (HloOp τ sig Val)) (V : Valuation τ sig Val), Ssa key lo ops → Eqs (after ops V) ops
  | _, [], _, _ => trivial
  | _, op :: rest, V, ⟨hI, _, _, _, hb, hr⟩ => by
    -- the rest of the line writes nothing the first operation touches
    have e1 : ∀ x ∈ op.bufs, after rest (op.result V) x = op.result V x := fun x hx =>
      after_of_forall_not_mem rest _ fun o ho hxo => absurd (hr.lt_writes o ho x hxo) (not_lt.mpr (hb x hx))
    refine ⟨fun b hbw => ?_, after_eqs rest (op.result V) hr⟩
    show after rest (op.result V) b = op.result (after rest (op.result V)) b
    rw [e1 b (op.writes_sub hbw)]
    exact hI V _ (fun x hx hxw => by rw [e1 x hx, op.result_of_not_mem V hxw]) b hbw

/-! ## The builders, one more operation in front -/

section Builders

variable {lo : Nat} {rest : List (HloOp τ sig Val)} {R : Valuation τ sig Val}
variable (x a b c y : Ref sig .tc)

theorem ne_of_key_lt {u v : Ref sig .tc} (h : key (Proc.devRef (τ := τ) .tc u) < key (Proc.devRef (τ := τ) .tc v)) : (Proc.devRef (τ := τ) .tc u) ≠ (Proc.devRef (τ := τ) .tc v) :=
  fun e => absurd (congrArg key e) (Nat.ne_of_lt h)

theorem ssa_nullary (v : y.ty.Contents Val) (hy) (h : lo < key (Proc.devRef (τ := τ) .tc y)) (hr : Ssa key (key (Proc.devRef (τ := τ) .tc y)) rest) :
    Ssa key lo (nullary (τ := τ) y v hy :: rest) :=
  ⟨fun F G _ w hw => by
      rw [nullary_writes, Finset.mem_singleton] at hw; subst hw; rw [nullary_result, nullary_result],
    key (Proc.devRef (τ := τ) .tc y), fun w hw => by rw [nullary_writes, Finset.mem_singleton] at hw; subst hw; exact h, h.le,
    fun z hz => by rw [nullary_bufs, Finset.mem_singleton] at hz; subst hz; exact le_rfl, hr⟩

theorem ssa_unary (f : x.ty.Contents Val → y.ty.Contents Val) (hx hy) (h : lo < key (Proc.devRef (τ := τ) .tc y)) (h1 : key (Proc.devRef (τ := τ) .tc x) < key (Proc.devRef (τ := τ) .tc y))
    (hr : Ssa key (key (Proc.devRef (τ := τ) .tc y)) rest) : Ssa key lo (unary (τ := τ) x y f hx hy :: rest) :=
  ⟨fun F G hFG w hw => by
      rw [unary_writes, Finset.mem_singleton] at hw; subst hw
      rw [unary_result, unary_result, hFG _ (by rw [unary_bufs]; exact Finset.mem_insert_self _ _)
        (by rw [unary_writes, Finset.mem_singleton]; exact ne_of_key_lt h1)],
    key (Proc.devRef (τ := τ) .tc y), fun w hw => by rw [unary_writes, Finset.mem_singleton] at hw; subst hw; exact h, h.le,
    fun z hz => by
      rw [unary_bufs, Finset.mem_insert, Finset.mem_singleton] at hz
      rcases hz with rfl | rfl
      · exact h1.le
      · exact le_rfl, hr⟩

theorem ssa_reshape (he hn hx hy) (h : lo < key (Proc.devRef (τ := τ) .tc y)) (h1 : key (Proc.devRef (τ := τ) .tc x) < key (Proc.devRef (τ := τ) .tc y))
    (hr : Ssa key (key (Proc.devRef (τ := τ) .tc y)) rest) : Ssa key lo (reshape (τ := τ) (Val := Val) x y he hn hx hy :: rest) :=
  ⟨fun F G hFG w hw => by
      rw [reshape_writes, Finset.mem_singleton] at hw; subst hw
      rw [reshape_result, reshape_result, hFG _ (by rw [reshape_bufs]; exact Finset.mem_insert_self _ _)
        (by rw [reshape_writes, Finset.mem_singleton]; exact ne_of_key_lt h1)],
    key (Proc.devRef (τ := τ) .tc y), fun w hw => by rw [reshape_writes, Finset.mem_singleton] at hw; subst hw; exact h, h.le,
    fun z hz => by
      rw [reshape_bufs, Finset.mem_insert, Finset.mem_singleton] at hz
      rcases hz with rfl | rfl
      · exact h1.le
      · exact le_rfl, hr⟩

theorem ssa_binary (f : a.ty.Contents Val → b.ty.Contents Val → y.ty.Contents Val) (ha hb hy) (h : lo < key (Proc.devRef (τ := τ) .tc y))
    (h1 : key (Proc.devRef (τ := τ) .tc a) < key (Proc.devRef (τ := τ) .tc y)) (h2 : key (Proc.devRef (τ := τ) .tc b) < key (Proc.devRef (τ := τ) .tc y))
    (hr : Ssa key (key (Proc.devRef (τ := τ) .tc y)) rest) : Ssa key lo (binary (τ := τ) a b y f ha hb hy :: rest) :=
  ⟨fun F G hFG w hw => by
      rw [binary_writes, Finset.mem_singleton] at hw; subst hw
      rw [binary_result, binary_result,
        hFG (Proc.devRef (τ := τ) .tc a) (by rw [binary_bufs]; exact Finset.mem_insert_self _ _)
          (by rw [binary_writes, Finset.mem_singleton]; exact ne_of_key_lt h1),
        hFG (Proc.devRef (τ := τ) .tc b) (by rw [binary_bufs]; exact Finset.mem_insert_of_mem (Finset.mem_insert_self _ _))
          (by rw [binary_writes, Finset.mem_singleton]; exact ne_of_key_lt h2)],
    key (Proc.devRef (τ := τ) .tc y), fun w hw => by rw [binary_writes, Finset.mem_singleton] at hw; subst hw; exact h, h.le,
    fun z hz => by
      rw [binary_bufs, Finset.mem_insert, Finset.mem_insert, Finset.mem_singleton] at hz
      rcases hz with rfl | rfl | rfl
      · exact h1.le
      · exact h2.le
      · exact le_rfl, hr⟩

theorem ssa_ternary (f : c.ty.Contents Val → a.ty.Contents Val → b.ty.Contents Val → y.ty.Contents Val) (hc ha hb hy)
    (h : lo < key (Proc.devRef (τ := τ) .tc y)) (h0 : key (Proc.devRef (τ := τ) .tc c) < key (Proc.devRef (τ := τ) .tc y)) (h1 : key (Proc.devRef (τ := τ) .tc a) < key (Proc.devRef (τ := τ) .tc y)) (h2 : key (Proc.devRef (τ := τ) .tc b) < key (Proc.devRef (τ := τ) .tc y))
    (hr : Ssa key (key (Proc.devRef (τ := τ) .tc y)) rest) : Ssa key lo (ternary (τ := τ) c a b y f hc ha hb hy :: rest) :=
  ⟨fun F G hFG w hw => by
      rw [ternary_writes, Finset.mem_singleton] at hw; subst hw
      rw [ternary_result, ternary_result,
        hFG (Proc.devRef (τ := τ) .tc c) (by rw [ternary_bufs]; exact Finset.mem_insert_self _ _)
          (by rw [ternary_writes, Finset.mem_singleton]; exact ne_of_key_lt h0),
        hFG (Proc.devRef (τ := τ) .tc a) (by rw [ternary_bufs]; exact Finset.mem_insert_of_mem (Finset.mem_insert_self _ _))
          (by rw [ternary_writes, Finset.mem_singleton]; exact ne_of_key_lt h1),
        hFG (Proc.devRef (τ := τ) .tc b) (by rw [ternary_bufs]; exact Finset.mem_insert_of_mem (Finset.mem_insert_of_mem (Finset.mem_insert_self _ _)))
          (by rw [ternary_writes, Finset.mem_singleton]; exact ne_of_key_lt h2)],
    key (Proc.devRef (τ := τ) .tc y), fun w hw => by rw [ternary_writes, Finset.mem_singleton] at hw; subst hw; exact h, h.le,
    fun z hz => by
      rw [ternary_bufs, Finset.mem_insert, Finset.mem_insert, Finset.mem_insert, Finset.mem_singleton] at hz
      rcases hz with rfl | rfl | rfl | rfl
      · exact h0.le
      · exact h1.le
      · exact h2.le
      · exact le_rfl, hr⟩

theorem ssa_nary {n : Nat} (xs : Fin n → Ref sig .tc) (f : ((k : Fin n) → (xs k).ty.Contents Val) → y.ty.Contents Val) (hxs hy)
    (h : lo < key (Proc.devRef (τ := τ) .tc y)) (h1 : ∀ k, key (Proc.devRef (τ := τ) .tc (xs k)) < key (Proc.devRef (τ := τ) .tc y))
    (hr : Ssa key (key (Proc.devRef (τ := τ) .tc y)) rest) : Ssa key lo (nary (τ := τ) xs y f hxs hy :: rest) :=
  ⟨fun F G hFG w hw => by
      rw [nary_writes, Finset.mem_singleton] at hw; subst hw
      rw [nary_result, nary_result]
      congr 1
      funext k
      exact hFG (Proc.devRef (τ := τ) .tc (xs k))
        (show (Proc.devRef (τ := τ) .tc (xs k)) ∈ insert (Proc.devRef (τ := τ) .tc y) (Finset.univ.image fun j => (Proc.devRef (τ := τ) .tc (xs j))) from
          Finset.mem_insert_of_mem (Finset.mem_image_of_mem _ (Finset.mem_univ k)))
        (by rw [nary_writes, Finset.mem_singleton]; exact ne_of_key_lt (h1 k)),
    key (Proc.devRef (τ := τ) .tc y), fun w hw => by rw [nary_writes, Finset.mem_singleton] at hw; subst hw; exact h, h.le,
    fun z hz => by
      rcases Finset.mem_insert.mp (show z ∈ insert (Proc.devRef (τ := τ) .tc y) (Finset.univ.image fun j => (Proc.devRef (τ := τ) .tc (xs j))) from hz) with rfl | hz
      · exact le_rfl
      · obtain ⟨k, -, rfl⟩ := Finset.mem_image.mp hz
        exact (h1 k).le, hr⟩

/-! ## … and its equation read off the front -/

theorem eqs_nullary (v : y.ty.Contents Val) (hy) :
    Eqs R (nullary (τ := τ) y v hy :: rest) ↔ R (Proc.devRef (τ := τ) .tc y) = v ∧ Eqs R rest := by
  show (∀ w ∈ (nullary (τ := τ) y v hy).writes, _) ∧ _ ↔ _
  rw [nullary_writes]; simp only [Finset.mem_singleton, forall_eq]; rw [nullary_result]

theorem eqs_unary (f : x.ty.Contents Val → y.ty.Contents Val) (hx hy) :
    Eqs R (unary (τ := τ) x y f hx hy :: rest) ↔ R (Proc.devRef (τ := τ) .tc y) = f (R (Proc.devRef (τ := τ) .tc x)) ∧ Eqs R rest := by
  show (∀ w ∈ (unary (τ := τ) x y f hx hy).writes, _) ∧ _ ↔ _
  rw [unary_writes]; simp only [Finset.mem_singleton, forall_eq]; rw [unary_result]

theorem eqs_reshape (he hn hx hy) :
    Eqs R (reshape (τ := τ) (Val := Val) x y he hn hx hy :: rest)
      ↔ R (Proc.devRef (τ := τ) .tc y) = (fun i => he ▸ shapeCast y.ty.shape (R (Proc.devRef (τ := τ) .tc x)) hn i) ∧ Eqs R rest := by
  show (∀ w ∈ (reshape (τ := τ) (Val := Val) x y he hn hx hy).writes, _) ∧ _ ↔ _
  rw [reshape_writes]; simp only [Finset.mem_singleton, forall_eq]; rw [reshape_result]

theorem eqs_binary (f : a.ty.Contents Val → b.ty.Contents Val → y.ty.Contents Val) (ha hb hy) :
    Eqs R (binary (τ := τ) a b y f ha hb hy :: rest) ↔ R (Proc.devRef (τ := τ) .tc y) = f (R (Proc.devRef (τ := τ) .tc a)) (R (Proc.devRef (τ := τ) .tc b)) ∧ Eqs R rest := by
  show (∀ w ∈ (binary (τ := τ) a b y f ha hb hy).writes, _) ∧ _ ↔ _
  rw [binary_writes]; simp only [Finset.mem_singleton, forall_eq]; rw [binary_result]

theorem eqs_ternary (f : c.ty.Contents Val → a.ty.Contents Val → b.ty.Contents Val → y.ty.Contents Val) (hc ha hb hy) :
    Eqs R (ternary (τ := τ) c a b y f hc ha hb hy :: rest)
      ↔ R (Proc.devRef (τ := τ) .tc y) = f (R (Proc.devRef (τ := τ) .tc c)) (R (Proc.devRef (τ := τ) .tc a)) (R (Proc.devRef (τ := τ) .tc b)) ∧ Eqs R rest := by
  show (∀ w ∈ (ternary (τ := τ) c a b y f hc ha hb hy).writes, _) ∧ _ ↔ _
  rw [ternary_writes]; simp only [Finset.mem_singleton, forall_eq]; rw [ternary_result]

theorem eqs_nary {n : Nat} (xs : Fin n → Ref sig .tc) (f : ((k : Fin n) → (xs k).ty.Contents Val) → y.ty.Contents Val) (hxs hy) :
    Eqs R (nary (τ := τ) xs y f hxs hy :: rest) ↔ R (Proc.devRef (τ := τ) .tc y) = f (fun k => R (Proc.devRef (τ := τ) .tc (xs k))) ∧ Eqs R rest := by
  show (∀ w ∈ (nary (τ := τ) xs y f hxs hy).writes, _) ∧ _ ↔ _
  rw [nary_writes]; simp only [Finset.mem_singleton, forall_eq]; rw [nary_result]

end Builders

end Cert.Ssa

end
-- ==== Proof.RefSsa.lean ====
/-
  The reference's program is a rising line: its buffers are numbered in program order, every operation writes one
  buffer, numbered above every buffer written or read before it. So (single assignment read back) what the program
  leaves in each operation's result buffer is that operation's function of what it leaves in its operands' buffers,
  and a buffer numbered at or below the last argument's is left as found.
  The rank of a buffer is its number in its table; per operation the three or four comparisons of numbers are
  decided by computation. The line is proved rising window by window, from the last window back, each window's
  proof ending where the next one starts.
-/
import proofs.«138937_j6992206758069_2_alg».proof.Proof.RefOps
import proofs.«138937_j6992206758069_2_alg».proof.Proof.LibSsa

noncomputable section

namespace Cert.RefRun

open Cert.ReferenceIdeal Cert.ReferenceIdeal.Facts₀ Cert.ReferenceIdeal.Facts Idealize.ShloMosaic Idealize.ShloMosaic.TcCoe Idealize.SL.Sem Idealize.ShloMosaic.StableHlo Cert.Ssa

variable {F : FTy → Type} [FloatOps F] [Cert.ReferenceIdeal.Facts]

/-- A buffer's rank: its number in its table. -/
def key : DevRef τ sig → Nat := fun r => r.idx.val

set_option maxRecDepth 16384 in
/-- Window 3 onwards rises from the last buffer before it. -/
theorem ssa3 : Ssa (Val := Elt F) key (key (Proc.devRef (τ := τ) .tc main_v162)) ops3 :=
  ssa_nullary _ _ _ (by decide) <|
  ssa_unary _ _ _ _ _ (by decide) (by decide) <|
  ssa_binary _ _ _ _ _ _ _ (by decide) (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_binary _ _ _ _ _ _ _ (by decide) (by decide) (by decide) <|
  ssa_binary _ _ _ _ _ _ _ (by decide) (by decide) (by decide) <|
  ssa_nullary _ _ _ (by decide) <|
  ssa_nullary _ _ _ (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_ternary _ _ _ _ _ _ _ _ _ (by decide) (by decide) (by decide) (by decide) <|
  trivial

set_option maxRecDepth 16384 in
/-- Window 2 onwards rises from the last buffer before it. -/
theorem ssa2 : Ssa (Val := Elt F) key (key (Proc.devRef (τ := τ) .tc main_v107)) (ops2 ++ ops3) :=
  ssa_binary _ _ _ _ _ _ _ (by decide) (by decide) (by decide) <|
  ssa_binary _ _ _ _ _ _ _ (by decide) (by decide) (by decide) <|
  ssa_nullary _ _ _ (by decide) <|
  ssa_binary _ _ _ _ _ _ _ (by decide) (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_nullary _ _ _ (by decide) <|
  ssa_unary _ _ _ _ _ (by decide) (by decide) <|
  ssa_binary _ _ _ _ _ _ _ (by decide) (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_binary _ _ _ _ _ _ _ (by decide) (by decide) (by decide) <|
  ssa_nullary _ _ _ (by decide) <|
  ssa_binary _ _ _ _ _ _ _ (by decide) (by decide) (by decide) <|
  ssa_nullary _ _ _ (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_nullary _ _ _ (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_binary _ _ _ _ _ _ _ (by decide) (by decide) (by decide) <|
  ssa_nullary _ _ _ (by decide) <|
  ssa_binary _ _ _ _ _ _ _ (by decide) (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa3

set_option maxRecDepth 16384 in
/-- Window 1 onwards rises from the last buffer before it. -/
theorem ssa1 : Ssa (Val := Elt F) key (key (Proc.devRef (τ := τ) .tc main_v54)) (ops1 ++ (ops2 ++ ops3)) :=
  ssa_binary _ _ _ _ _ _ _ (by decide) (by decide) (by decide) <|
  ssa_nullary _ _ _ (by decide) <|
  ssa_binary _ _ _ _ _ _ _ (by decide) (by decide) (by decide) <|
  ssa_nullary _ _ _ (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_nullary _ _ _ (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_binary _ _ _ _ _ _ _ (by decide) (by decide) (by decide) <|
  ssa_nullary _ _ _ (by decide) <|
  ssa_binary _ _ _ _ _ _ _ (by decide) (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_nullary _ _ _ (by decide) <|
  ssa_unary _ _ _ _ _ (by decide) (by decide) <|
  ssa_binary _ _ _ _ _ _ _ (by decide) (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_binary _ _ _ _ _ _ _ (by decide) (by decide) (by decide) <|
  ssa_nullary _ _ _ (by decide) <|
  ssa_binary _ _ _ _ _ _ _ (by decide) (by decide) (by decide) <|
  ssa_nullary _ _ _ (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_nullary _ _ _ (by decide) <|
  ssa_binary _ _ _ _ _ _ _ (by decide) (by decide) (by decide) <|
  ssa_unary _ _ _ _ _ (by decide) (by decide) <|
  ssa_unary _ _ _ _ _ (by decide) (by decide) <|
  ssa2

set_option maxRecDepth 16384 in
/-- Window 0 onwards rises from the last buffer before it. -/
theorem ssa0 : Ssa (Val := Elt F) key 47 ops :=
  ssa_nullary _ _ _ (by decide) <|
  ssa_unary _ _ _ _ _ (by decide) (by decide) <|
  ssa_binary _ _ _ _ _ _ _ (by decide) (by decide) (by decide) <|
  ssa_nullary _ _ _ (by decide) <|
  ssa_unary _ _ _ _ _ (by decide) (by decide) <|
  ssa_binary _ _ _ _ _ _ _ (by decide) (by decide) (by decide) <|
  ssa_ternary _ _ _ _ _ _ _ _ _ (by decide) (by decide) (by decide) (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_binary _ _ _ _ _ _ _ (by decide) (by decide) (by decide) <|
  ssa_nullary _ _ _ (by decide) <|
  ssa_binary _ _ _ _ _ _ _ (by decide) (by decide) (by decide) <|
  ssa_unary _ _ _ _ _ (by decide) (by decide) <|
  ssa_unary _ _ _ _ _ (by decide) (by decide) <|
  ssa_unary _ _ _ _ _ (by decide) (by decide) <|
  ssa_binary _ _ _ _ _ _ _ (by decide) (by decide) (by decide) <|
  ssa_nullary _ _ _ (by decide) <|
  ssa_binary _ _ _ _ _ _ _ (by decide) (by decide) (by decide) <|
  ssa_unary _ _ _ _ _ (by decide) (by decide) <|
  ssa_unary _ _ _ _ _ (by decide) (by decide) <|
  ssa_nary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_nullary _ _ _ (by decide) <|
  ssa_unary _ _ _ _ _ (by decide) (by decide) <|
  ssa_binary _ _ _ _ _ _ _ (by decide) (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_nullary _ _ _ (by decide) <|
  ssa_unary _ _ _ _ _ (by decide) (by decide) <|
  ssa_binary _ _ _ _ _ _ _ (by decide) (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_nullary _ _ _ (by decide) <|
  ssa_nullary _ _ _ (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_ternary _ _ _ _ _ _ _ _ _ (by decide) (by decide) (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa_unary _ _ _ _ _ (by decide) (by decide) <|
  ssa_unary _ _ _ _ _ (by decide) (by decide) <|
  ssa_binary _ _ _ _ _ _ _ (by decide) (by decide) (by decide) <|
  ssa1

/-- The fixed point: what the program leaves is, at every operation's result buffer, that operation's function of
    what the program leaves. -/
theorem eqs_all (V : Valuation τ sig (Elt F)) : Eqs (after (ops (F := F)) V) (ops (F := F)) := after_eqs _ V ssa0

theorem eqs0 (V : Valuation τ sig (Elt F)) : Eqs (after (ops (F := F)) V) (ops0 (F := F)) :=
  ((eqs_append _ _ _).mp (eqs_all V)).1
theorem eqs1 (V : Valuation τ sig (Elt F)) : Eqs (after (ops (F := F)) V) (ops1 (F := F)) :=
  ((eqs_append _ _ _).mp ((eqs_append _ _ _).mp (eqs_all V)).2).1
theorem eqs2 (V : Valuation τ sig (Elt F)) : Eqs (after (ops (F := F)) V) (ops2 (F := F)) :=
  ((eqs_append _ _ _).mp ((eqs_append _ _ _).mp ((eqs_append _ _ _).mp (eqs_all V)).2).2).1
theorem eqs3 (V : Valuation τ sig (Elt F)) : Eqs (after (ops (F := F)) V) (ops3 (F := F)) :=
  ((eqs_append _ _ _).mp ((eqs_append _ _ _).mp ((eqs_append _ _ _).mp (eqs_all V)).2).2).2

/-- A buffer numbered at or below the last argument's is left as found. -/
theorem after_low (V : Valuation τ sig (Elt F)) {x : DevRef τ sig} (hx : key x ≤ 47) : after (ops (F := F)) V x = V x :=
  (ssa0 (F := F)).after_low V hx

end Cert.RefRun

end
-- ==== Proof.RefRun.lean ====
/-
  The reference's run. Its main function is the straight line of its operations (window by window: each window's
  text, the callee bodies unfolded at their calls, is the window's list run in order; the four windows in order are
  the whole list), every operation touches only buffers of the device, none is scoped, and every operation determines
  its results. So every weakly fair execution terminates, and ends with each buffer at the fold of the operations
  over its launch contents; an argument's buffer, numbered below every buffer written, ends as it began.
-/
import proofs.«138937_j6992206758069_2_alg».proof.Proof.RefSsa

noncomputable section

namespace Cert.RefRun

open Cert.ReferenceIdeal Cert.ReferenceIdeal.Facts₀ Cert.ReferenceIdeal.Facts Idealize.ShloMosaic Idealize.ShloMosaic.TcCoe Idealize.SL.Sem Idealize.ShloMosaic.StableHlo Cert.Ssa

variable {F : FTy → Type} [FloatOps F] [Cert.ReferenceIdeal.Facts]

set_option maxRecDepth 16384 in
/-- Window 0 is its list run in order: the callee bodies unfolded, sequencing re-associated. -/
theorem part0_eq (c : Dev nD) : main_part0 (F := F) c = seq ops0 := by
  simp only [main_part0, fn_relu.body, fn_relu_0.body, fn_leaky_relu.body, fn_where.body, seq, bind_assoc, pure_bind]
  all_goals rfl

set_option maxRecDepth 16384 in
/-- Window 1 is its list run in order: the callee bodies unfolded, sequencing re-associated. -/
theorem part1_eq (c : Dev nD) : main_part1 (F := F) c = seq ops1 := by
  simp only [main_part1, fn_relu_1.body, seq, bind_assoc, pure_bind]
  all_goals rfl

set_option maxRecDepth 16384 in
/-- Window 2 is its list run in order: the callee bodies unfolded, sequencing re-associated. -/
theorem part2_eq (c : Dev nD) : main_part2 (F := F) c = seq ops2 := by
  simp only [main_part2, fn_relu_2.body, seq, bind_assoc, pure_bind]
  all_goals rfl

set_option maxRecDepth 16384 in
/-- Window 3 is its list run in order: the callee bodies unfolded, sequencing re-associated. -/
theorem part3_eq (c : Dev nD) : main_part3 (F := F) c = seq ops3 := by
  simp only [main_part3, fn_relu_3.body, fn_leaky_relu_4.body, fn_where_5.body, seq, bind_assoc, pure_bind]
  all_goals rfl

/-- The main function is the whole list run in order. -/
theorem main_eq (c : Dev nD) : main (F := F) c = seq ops := by
  rw [seq_append, seq_append, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem sub0 : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., binary_bufs_sub .., nullary_bufs_sub .., binary_bufs_sub .., unary_bufs_sub .., unary_bufs_sub .., unary_bufs_sub .., binary_bufs_sub .., nullary_bufs_sub .., binary_bufs_sub .., unary_bufs_sub .., unary_bufs_sub .., nary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., unary_bufs_sub .., unary_bufs_sub .., binary_bufs_sub ..⟩

theorem fresh0 : ∀ op ∈ (ops0 : List (HloOp τ sig (Elt F))), op.fresh = ∅ := by
  intro _ h; (repeat (cases h with | head => rfl | tail _ h => ?_)); exact nomatch h

theorem sub1 : (ops1 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub ..⟩

theorem fresh1 : ∀ op ∈ (ops1 : List (HloOp τ sig (Elt F))), op.fresh = ∅ := by
  intro _ h; (repeat (cases h with | head => rfl | tail _ h => ?_)); exact nomatch h

theorem sub2 : (ops2 : List (HloOp τ sig (Elt F))).Forall fun op => op.bufs ⊆ tcRefs τ sig :=
  ⟨binary_bufs_sub .., binary_bufs_sub .., nullary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem fresh2 : ∀ op ∈ (ops2 : List (HloOp τ sig (Elt F))), op.fresh = ∅ := by
  intro _ h; (repeat (cases h with | head => rfl | tail _ h => ?_)); exact nomatch h

theorem sub3 : (ops3 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

theorem fresh3 : ∀ op ∈ (ops3 : List (HloOp τ sig (Elt F))), op.fresh = ∅ := by
  intro _ h; (repeat (cases h with | head => rfl | tail _ h => ?_)); exact nomatch h

/-- Every operation touches only buffers of the device. -/
theorem ops_sub : (ops : List (HloOp τ sig (Elt F))).Forall fun op => op.bufs ⊆ tcRefs τ sig :=
  List.forall_iff_forall_mem.mpr fun op h => by
    rcases List.mem_append.mp h with h | h
    · exact List.forall_iff_forall_mem.mp sub0 op h
    rcases List.mem_append.mp h with h | h
    · exact List.forall_iff_forall_mem.mp sub1 op h
    rcases List.mem_append.mp h with h | h
    · exact List.forall_iff_forall_mem.mp sub2 op h
    · exact List.forall_iff_forall_mem.mp sub3 op h

/-- Every operation determines its results. -/
theorem ops_fresh : ∀ op ∈ (ops : List (HloOp τ sig (Elt F))), op.fresh = ∅ := fun op h => by
  rcases List.mem_append.mp h with h | h
  · exact fresh0 op h
  rcases List.mem_append.mp h with h | h
  · exact fresh1 op h
  rcases List.mem_append.mp h with h | h
  · exact fresh2 op h
  · exact fresh3 op h

/-- On every device, for any float values, from any memory with zero counters: every weakly fair execution of the
    main function terminates, with the result buffer at the operations' fold over the launch contents and every
    argument's buffer unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => ∀ c : Dev nD,
      r.2.mem ((c.tc : Thread nD τ).loc main_v178) = StableHlo.after ops (fun b => m (c, b)) (Proc.devRef .tc main_v178)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)) :=
  (θ_run defs _ _).mono (fun _ h c => ⟨h c main_v178,
      (h c main_arg0).trans (after_low _ (by decide)),
      (h c main_arg1).trans (after_low _ (by decide)),
      (h c main_arg2).trans (after_low _ (by decide)),
      (h c main_arg3).trans (after_low _ (by decide)),
      (h c main_arg4).trans (after_low _ (by decide)),
      (h c main_arg5).trans (after_low _ (by decide)),
      (h c main_arg6).trans (after_low _ (by decide)),
      (h c main_arg7).trans (after_low _ (by decide)),
      (h c main_arg8).trans (after_low _ (by decide)),
      (h c main_arg9).trans (after_low _ (by decide)),
      (h c main_arg10).trans (after_low _ (by decide)),
      (h c main_arg11).trans (after_low _ (by decide)),
      (h c main_arg12).trans (after_low _ (by decide)),
      (h c main_arg13).trans (after_low _ (by decide)),
      (h c main_arg14).trans (after_low _ (by decide)),
      (h c main_arg15).trans (after_low _ (by decide)),
      (h c main_arg16).trans (after_low _ (by decide)),
      (h c main_arg17).trans (after_low _ (by decide)),
      (h c main_arg18).trans (after_low _ (by decide)),
      (h c main_arg19).trans (after_low _ (by decide)),
      (h c main_arg20).trans (after_low _ (by decide)),
      (h c main_arg21).trans (after_low _ (by decide)),
      (h c main_arg22).trans (after_low _ (by decide)),
      (h c main_arg23).trans (after_low _ (by decide)),
      (h c main_arg24).trans (after_low _ (by decide)),
      (h c main_arg25).trans (after_low _ (by decide)),
      (h c main_arg26).trans (after_low _ (by decide)),
      (h c main_arg27).trans (after_low _ (by decide)),
      (h c main_arg28).trans (after_low _ (by decide)),
      (h c main_arg29).trans (after_low _ (by decide)),
      (h c main_arg30).trans (after_low _ (by decide)),
      (h c main_arg31).trans (after_low _ (by decide)),
      (h c main_arg32).trans (after_low _ (by decide)),
      (h c main_arg33).trans (after_low _ (by decide)),
      (h c main_arg34).trans (after_low _ (by decide)),
      (h c main_arg35).trans (after_low _ (by decide)),
      (h c main_arg36).trans (after_low _ (by decide)),
      (h c main_arg37).trans (after_low _ (by decide)),
      (h c main_arg38).trans (after_low _ (by decide)),
      (h c main_arg39).trans (after_low _ (by decide)),
      (h c main_arg40).trans (after_low _ (by decide)),
      (h c main_arg41).trans (after_low _ (by decide)),
      (h c main_arg42).trans (after_low _ (by decide)),
      (h c main_arg43).trans (after_low _ (by decide)),
      (h c main_arg44).trans (after_low _ (by decide)),
      (h c main_arg45).trans (after_low _ (by decide)),
      (h c main_arg46).trans (after_low _ (by decide)),
      (h c main_arg47).trans (after_low _ (by decide))⟩)
    (run_seq scopedRefs_eq scopedSems_eq defs main (fun _ => ops) main_eq (fun _ => ops_sub) m ρ (fun _ => ops_fresh))

end Cert.RefRun

end
-- ==== Proof.RefR.lean ====
/-
  What the reference's program leaves in a buffer: `R V x`, from contents `V`. An argument's buffer, numbered below every
  buffer the program writes, is left as found.
-/
import proofs.«138937_j6992206758069_2_alg».proof.Proof.RefSsa

noncomputable section

namespace Cert.RefRun

open Cert.ReferenceIdeal Cert.ReferenceIdeal.Facts₀ Cert.ReferenceIdeal.Facts Idealize.ShloMosaic Idealize.ShloMosaic.TcCoe Idealize.SL.Sem Idealize.ShloMosaic.StableHlo Cert.Ssa

variable {F : FTy → Type} [FloatOps F] [Cert.ReferenceIdeal.Facts]

/-- What the program leaves in buffer `x`, from contents `V`. -/
abbrev R (V : Valuation τ sig (Elt F)) (x : Ref sig .tc) : (Proc.devRef (τ := τ) .tc x).ty.Contents (Elt F) :=
  StableHlo.after (ops (F := F)) V (Proc.devRef (τ := τ) .tc x)

/-- A buffer numbered at or below the last argument's is left as found. -/
theorem R_low (V : Valuation τ sig (Elt F)) (x : Ref sig .tc) (hx : key (Proc.devRef (τ := τ) .tc x) ≤ 47) :
    R V x = V (Proc.devRef (τ := τ) .tc x) := after_low V hx

theorem R_arg0 (V : Valuation τ sig (Elt F)) : R V main_arg0 = V (Proc.devRef (τ := τ) .tc main_arg0) := R_low V _ (by decide)
theorem R_arg1 (V : Valuation τ sig (Elt F)) : R V main_arg1 = V (Proc.devRef (τ := τ) .tc main_arg1) := R_low V _ (by decide)
theorem R_arg2 (V : Valuation τ sig (Elt F)) : R V main_arg2 = V (Proc.devRef (τ := τ) .tc main_arg2) := R_low V _ (by decide)
theorem R_arg3 (V : Valuation τ sig (Elt F)) : R V main_arg3 = V (Proc.devRef (τ := τ) .tc main_arg3) := R_low V _ (by decide)
theorem R_arg4 (V : Valuation τ sig (Elt F)) : R V main_arg4 = V (Proc.devRef (τ := τ) .tc main_arg4) := R_low V _ (by decide)
theorem R_arg5 (V : Valuation τ sig (Elt F)) : R V main_arg5 = V (Proc.devRef (τ := τ) .tc main_arg5) := R_low V _ (by decide)
theorem R_arg6 (V : Valuation τ sig (Elt F)) : R V main_arg6 = V (Proc.devRef (τ := τ) .tc main_arg6) := R_low V _ (by decide)
theorem R_arg7 (V : Valuation τ sig (Elt F)) : R V main_arg7 = V (Proc.devRef (τ := τ) .tc main_arg7) := R_low V _ (by decide)
theorem R_arg8 (V : Valuation τ sig (Elt F)) : R V main_arg8 = V (Proc.devRef (τ := τ) .tc main_arg8) := R_low V _ (by decide)
theorem R_arg9 (V : Valuation τ sig (Elt F)) : R V main_arg9 = V (Proc.devRef (τ := τ) .tc main_arg9) := R_low V _ (by decide)
theorem R_arg10 (V : Valuation τ sig (Elt F)) : R V main_arg10 = V (Proc.devRef (τ := τ) .tc main_arg10) := R_low V _ (by decide)
theorem R_arg11 (V : Valuation τ sig (Elt F)) : R V main_arg11 = V (Proc.devRef (τ := τ) .tc main_arg11) := R_low V _ (by decide)
theorem R_arg12 (V : Valuation τ sig (Elt F)) : R V main_arg12 = V (Proc.devRef (τ := τ) .tc main_arg12) := R_low V _ (by decide)
theorem R_arg13 (V : Valuation τ sig (Elt F)) : R V main_arg13 = V (Proc.devRef (τ := τ) .tc main_arg13) := R_low V _ (by decide)
theorem R_arg14 (V : Valuation τ sig (Elt F)) : R V main_arg14 = V (Proc.devRef (τ := τ) .tc main_arg14) := R_low V _ (by decide)
theorem R_arg15 (V : Valuation τ sig (Elt F)) : R V main_arg15 = V (Proc.devRef (τ := τ) .tc main_arg15) := R_low V _ (by decide)
theorem R_arg16 (V : Valuation τ sig (Elt F)) : R V main_arg16 = V (Proc.devRef (τ := τ) .tc main_arg16) := R_low V _ (by decide)
theorem R_arg17 (V : Valuation τ sig (Elt F)) : R V main_arg17 = V (Proc.devRef (τ := τ) .tc main_arg17) := R_low V _ (by decide)
theorem R_arg18 (V : Valuation τ sig (Elt F)) : R V main_arg18 = V (Proc.devRef (τ := τ) .tc main_arg18) := R_low V _ (by decide)
theorem R_arg19 (V : Valuation τ sig (Elt F)) : R V main_arg19 = V (Proc.devRef (τ := τ) .tc main_arg19) := R_low V _ (by decide)
theorem R_arg20 (V : Valuation τ sig (Elt F)) : R V main_arg20 = V (Proc.devRef (τ := τ) .tc main_arg20) := R_low V _ (by decide)
theorem R_arg21 (V : Valuation τ sig (Elt F)) : R V main_arg21 = V (Proc.devRef (τ := τ) .tc main_arg21) := R_low V _ (by decide)
theorem R_arg22 (V : Valuation τ sig (Elt F)) : R V main_arg22 = V (Proc.devRef (τ := τ) .tc main_arg22) := R_low V _ (by decide)
theorem R_arg23 (V : Valuation τ sig (Elt F)) : R V main_arg23 = V (Proc.devRef (τ := τ) .tc main_arg23) := R_low V _ (by decide)
theorem R_arg24 (V : Valuation τ sig (Elt F)) : R V main_arg24 = V (Proc.devRef (τ := τ) .tc main_arg24) := R_low V _ (by decide)
theorem R_arg25 (V : Valuation τ sig (Elt F)) : R V main_arg25 = V (Proc.devRef (τ := τ) .tc main_arg25) := R_low V _ (by decide)
theorem R_arg26 (V : Valuation τ sig (Elt F)) : R V main_arg26 = V (Proc.devRef (τ := τ) .tc main_arg26) := R_low V _ (by decide)
theorem R_arg27 (V : Valuation τ sig (Elt F)) : R V main_arg27 = V (Proc.devRef (τ := τ) .tc main_arg27) := R_low V _ (by decide)
theorem R_arg28 (V : Valuation τ sig (Elt F)) : R V main_arg28 = V (Proc.devRef (τ := τ) .tc main_arg28) := R_low V _ (by decide)
theorem R_arg29 (V : Valuation τ sig (Elt F)) : R V main_arg29 = V (Proc.devRef (τ := τ) .tc main_arg29) := R_low V _ (by decide)
theorem R_arg30 (V : Valuation τ sig (Elt F)) : R V main_arg30 = V (Proc.devRef (τ := τ) .tc main_arg30) := R_low V _ (by decide)
theorem R_arg31 (V : Valuation τ sig (Elt F)) : R V main_arg31 = V (Proc.devRef (τ := τ) .tc main_arg31) := R_low V _ (by decide)
theorem R_arg32 (V : Valuation τ sig (Elt F)) : R V main_arg32 = V (Proc.devRef (τ := τ) .tc main_arg32) := R_low V _ (by decide)
theorem R_arg33 (V : Valuation τ sig (Elt F)) : R V main_arg33 = V (Proc.devRef (τ := τ) .tc main_arg33) := R_low V _ (by decide)
theorem R_arg34 (V : Valuation τ sig (Elt F)) : R V main_arg34 = V (Proc.devRef (τ := τ) .tc main_arg34) := R_low V _ (by decide)
theorem R_arg35 (V : Valuation τ sig (Elt F)) : R V main_arg35 = V (Proc.devRef (τ := τ) .tc main_arg35) := R_low V _ (by decide)
theorem R_arg36 (V : Valuation τ sig (Elt F)) : R V main_arg36 = V (Proc.devRef (τ := τ) .tc main_arg36) := R_low V _ (by decide)
theorem R_arg37 (V : Valuation τ sig (Elt F)) : R V main_arg37 = V (Proc.devRef (τ := τ) .tc main_arg37) := R_low V _ (by decide)
theorem R_arg38 (V : Valuation τ sig (Elt F)) : R V main_arg38 = V (Proc.devRef (τ := τ) .tc main_arg38) := R_low V _ (by decide)
theorem R_arg39 (V : Valuation τ sig (Elt F)) : R V main_arg39 = V (Proc.devRef (τ := τ) .tc main_arg39) := R_low V _ (by decide)
theorem R_arg40 (V : Valuation τ sig (Elt F)) : R V main_arg40 = V (Proc.devRef (τ := τ) .tc main_arg40) := R_low V _ (by decide)
theorem R_arg41 (V : Valuation τ sig (Elt F)) : R V main_arg41 = V (Proc.devRef (τ := τ) .tc main_arg41) := R_low V _ (by decide)
theorem R_arg42 (V : Valuation τ sig (Elt F)) : R V main_arg42 = V (Proc.devRef (τ := τ) .tc main_arg42) := R_low V _ (by decide)
theorem R_arg43 (V : Valuation τ sig (Elt F)) : R V main_arg43 = V (Proc.devRef (τ := τ) .tc main_arg43) := R_low V _ (by decide)
theorem R_arg44 (V : Valuation τ sig (Elt F)) : R V main_arg44 = V (Proc.devRef (τ := τ) .tc main_arg44) := R_low V _ (by decide)
theorem R_arg45 (V : Valuation τ sig (Elt F)) : R V main_arg45 = V (Proc.devRef (τ := τ) .tc main_arg45) := R_low V _ (by decide)
theorem R_arg46 (V : Valuation τ sig (Elt F)) : R V main_arg46 = V (Proc.devRef (τ := τ) .tc main_arg46) := R_low V _ (by decide)
theorem R_arg47 (V : Valuation τ sig (Elt F)) : R V main_arg47 = V (Proc.devRef (τ := τ) .tc main_arg47) := R_low V _ (by decide)

end Cert.RefRun

end
-- ==== Proof.RefLines0.lean ====
/-
  The reference's lines as equations between final contents, window 0 (70 operations). Every buffer the program
  writes is written by exactly one operation, and holds that operation's function of what the program leaves in its
  operands' buffers: the printed line, read as an equation. One theorem per operation, named after the buffer it
  writes; a callee's line is over the buffers the call names. The one operation of five operands (the
  concatenation of the geometric features) is stated with its operands written out.
-/
import proofs.«138937_j6992206758069_2_alg».proof.Proof.RefR

noncomputable section

namespace Cert.RefRun

open Cert.ReferenceIdeal Cert.ReferenceIdeal.Facts₀ Cert.ReferenceIdeal.Facts Idealize.ShloMosaic Idealize.ShloMosaic.TcCoe Idealize.SL.Sem Idealize.ShloMosaic.StableHlo Cert.Ssa

variable {F : FTy → Type} [FloatOps F] [Cert.ReferenceIdeal.Facts]

set_option maxRecDepth 16384 in
set_option maxHeartbeats 4000000 in
/-- Window 0's lines, together: the fixed point's conjuncts peeled one by one (at a callee's line the transport of
    contents along the equality of a buffer's type with its value's type is the identity). -/
theorem lines0 (V : Valuation τ sig (Elt F)) :
    (R V main_c = (constantI S_ 32 0#32))
    ∧ (R V main_v0 = (broadcastInDim S2x65536x16 ![] bcast_S_S2x65536x16 : (⟨S_, .i32⟩ : BufTy).Contents (Elt F) → (⟨S2x65536x16, .i32⟩ : BufTy).Contents (Elt F)) (R V main_c))
    ∧ (R V main_v1 = (cmpi .slt : (⟨S2x65536x16, .i32⟩ : BufTy).Contents (Elt F) → (⟨S2x65536x16, .i32⟩ : BufTy).Contents (Elt F) → (⟨S2x65536x16, .i1⟩ : BufTy).Contents (Elt F)) (R V main_arg2) (R V main_v0))
    ∧ (R V main_c_0 = (constantI S_ 32 131072#32))
    ∧ (R V main_v2 = (broadcastInDim S2x65536x16 ![] bcast_S_S2x65536x16 : (⟨S_, .i32⟩ : BufTy).Contents (Elt F) → (⟨S2x65536x16, .i32⟩ : BufTy).Contents (Elt F)) (R V main_c_0))
    ∧ (R V main_v3 = (addi : (⟨S2x65536x16, .i32⟩ : BufTy).Contents (Elt F) → (⟨S2x65536x16, .i32⟩ : BufTy).Contents (Elt F) → (⟨S2x65536x16, .i32⟩ : BufTy).Contents (Elt F)) (R V main_arg2) (R V main_v2))
    ∧ (R V main_v4 = (select : (⟨S2x65536x16, .i1⟩ : BufTy).Contents (Elt F) → (⟨S2x65536x16, .i32⟩ : BufTy).Contents (Elt F) → (⟨S2x65536x16, .i32⟩ : BufTy).Contents (Elt F) → (⟨S2x65536x16, .i32⟩ : BufTy).Contents (Elt F)) (R V main_v1) (R V main_v3) (R V main_arg2))
    ∧ (R V main_v5 = (broadcastInDim S2x65536x16x1 ![0, 1, 2] bcast_S2x65536x16_S2x65536x16x1_0_1_2 : (⟨S2x65536x16, .i32⟩ : BufTy).Contents (Elt F) → (⟨S2x65536x16x1, .i32⟩ : BufTy).Contents (Elt F)) (R V main_v4))
    ∧ (R V main_v6 = ((fun x i => Host.gather gather_S2x131072x6_S2x65536x16x1_S2x65536x16x6_3_1_0_0_1_3_116 x i) : (⟨S2x131072x6, .f32⟩ : BufTy).Contents (Elt F) → (⟨S2x65536x16x1, .i32⟩ : BufTy).Contents (Elt F) → (⟨S2x65536x16x6, .f32⟩ : BufTy).Contents (Elt F)) (R V main_arg1) (R V main_v5))
    ∧ (R V main_v7 = (broadcastInDim S2x65536x1x6 ![0, 1, 3] bcast_S2x65536x6_S2x65536x1x6_0_1_3 : (⟨S2x65536x6, .f32⟩ : BufTy).Contents (Elt F) → (⟨S2x65536x1x6, .f32⟩ : BufTy).Contents (Elt F)) (R V main_arg0))
    ∧ (R V main_v8 = (broadcastInDim S2x65536x16x6 ![0, 1, 2, 3] bcast_S2x65536x1x6_S2x65536x16x6_0_1_2_3 : (⟨S2x65536x1x6, .f32⟩ : BufTy).Contents (Elt F) → (⟨S2x65536x16x6, .f32⟩ : BufTy).Contents (Elt F)) (R V main_v7))
    ∧ (R V main_v9 = (subf : (⟨S2x65536x16x6, .f32⟩ : BufTy).Contents (Elt F) → (⟨S2x65536x16x6, .f32⟩ : BufTy).Contents (Elt F) → (⟨S2x65536x16x6, .f32⟩ : BufTy).Contents (Elt F)) (R V main_v8) (R V main_v6))
    ∧ (R V main_v10 = ((extractStridedSlice S2x65536x16x3 ![0, 0, 0, 0] · slices_S2x65536x16x6_S2x65536x16x3_0_0_0_0) : (⟨S2x65536x16x6, .f32⟩ : BufTy).Contents (Elt F) → (⟨S2x65536x16x3, .f32⟩ : BufTy).Contents (Elt F)) (R V main_v9))
    ∧ (R V main_v11 = (mulf : (⟨S2x65536x16x3, .f32⟩ : BufTy).Contents (Elt F) → (⟨S2x65536x16x3, .f32⟩ : BufTy).Contents (Elt F) → (⟨S2x65536x16x3, .f32⟩ : BufTy).Contents (Elt F)) (R V main_v10) (R V main_v10))
    ∧ (R V main_cst = (constant S_ .f32 0x00000000#32))
    ∧ (R V main_v12 = ((fun x v => Host.reduceAdd x v reducesTo_S2x65536x16x3_S2x65536x16_d3 h_S_) : (⟨S2x65536x16x3, .f32⟩ : BufTy).Contents (Elt F) → (⟨S_, .f32⟩ : BufTy).Contents (Elt F) → (⟨S2x65536x16, .f32⟩ : BufTy).Contents (Elt F)) (R V main_v11) (R V main_cst))
    ∧ (R V main_v13 = (broadcastInDim S2x65536x16x1 ![0, 1, 2] bcast_S2x65536x16_S2x65536x16x1_0_1_2 : (⟨S2x65536x16, .f32⟩ : BufTy).Contents (Elt F) → (⟨S2x65536x16x1, .f32⟩ : BufTy).Contents (Elt F)) (R V main_v12))
    ∧ (R V main_v14 = (Host.sqrt : (⟨S2x65536x16x1, .f32⟩ : BufTy).Contents (Elt F) → (⟨S2x65536x16x1, .f32⟩ : BufTy).Contents (Elt F)) (R V main_v13))
    ∧ (R V main_v15 = ((extractStridedSlice S2x65536x16x3 ![0, 0, 0, 3] · slices_S2x65536x16x6_S2x65536x16x3_0_0_0_3) : (⟨S2x65536x16x6, .f32⟩ : BufTy).Contents (Elt F) → (⟨S2x65536x16x3, .f32⟩ : BufTy).Contents (Elt F)) (R V main_v9))
    ∧ (R V main_v16 = (mulf : (⟨S2x65536x16x3, .f32⟩ : BufTy).Contents (Elt F) → (⟨S2x65536x16x3, .f32⟩ : BufTy).Contents (Elt F) → (⟨S2x65536x16x3, .f32⟩ : BufTy).Contents (Elt F)) (R V main_v15) (R V main_v15))
    ∧ (R V main_cst_1 = (constant S_ .f32 0x00000000#32))
    ∧ (R V main_v17 = ((fun x v => Host.reduceAdd x v reducesTo_S2x65536x16x3_S2x65536x16_d3 h_S_) : (⟨S2x65536x16x3, .f32⟩ : BufTy).Contents (Elt F) → (⟨S_, .f32⟩ : BufTy).Contents (Elt F) → (⟨S2x65536x16, .f32⟩ : BufTy).Contents (Elt F)) (R V main_v16) (R V main_cst_1))
    ∧ (R V main_v18 = (broadcastInDim S2x65536x16x1 ![0, 1, 2] bcast_S2x65536x16_S2x65536x16x1_0_1_2 : (⟨S2x65536x16, .f32⟩ : BufTy).Contents (Elt F) → (⟨S2x65536x16x1, .f32⟩ : BufTy).Contents (Elt F)) (R V main_v17))
    ∧ (R V main_v19 = (Host.sqrt : (⟨S2x65536x16x1, .f32⟩ : BufTy).Contents (Elt F) → (⟨S2x65536x16x1, .f32⟩ : BufTy).Contents (Elt F)) (R V main_v18))
    ∧ (R V main_v20 = concatenate S2x65536x16x20 3 [⟨S2x65536x16x6, R V main_v8⟩, ⟨S2x65536x16x6, R V main_v6⟩, ⟨S2x65536x16x6, R V main_v9⟩, ⟨S2x65536x16x1, R V main_v14⟩, ⟨S2x65536x16x1, R V main_v19⟩] concatenates_S2x65536x16x6_S2x65536x16x6_S2x65536x16x6_S2x65536x16x1_S2x65536x16x1_S2x65536x16x20_d3)
    ∧ (R V main_v21 = ((fun l r => Host.dotGeneral dot_S2x65536x16x20_S16x20_S2x65536x16x16_3_1_012_0_n_n none l r) : (⟨S2x65536x16x20, .f32⟩ : BufTy).Contents (Elt F) → (⟨S16x20, .f32⟩ : BufTy).Contents (Elt F) → (⟨S2x65536x16x16, .f32⟩ : BufTy).Contents (Elt F)) (R V main_v20) (R V main_arg7))
    ∧ (R V main_v22 = (broadcastInDim S1x1x1x16 ![3] bcast_S16_S1x1x1x16_3 : (⟨S16, .f32⟩ : BufTy).Contents (Elt F) → (⟨S1x1x1x16, .f32⟩ : BufTy).Contents (Elt F)) (R V main_arg8))
    ∧ (R V main_v23 = (broadcastInDim S2x65536x16x16 ![0, 1, 2, 3] bcast_S1x1x1x16_S2x65536x16x16_0_1_2_3 : (⟨S1x1x1x16, .f32⟩ : BufTy).Contents (Elt F) → (⟨S2x65536x16x16, .f32⟩ : BufTy).Contents (Elt F)) (R V main_v22))
    ∧ (R V main_v24 = (addf : (⟨S2x65536x16x16, .f32⟩ : BufTy).Contents (Elt F) → (⟨S2x65536x16x16, .f32⟩ : BufTy).Contents (Elt F) → (⟨S2x65536x16x16, .f32⟩ : BufTy).Contents (Elt F)) (R V main_v21) (R V main_v23))
    ∧ (R V main_v25 = (broadcastInDim S1x1x1x16 ![3] bcast_S16_S1x1x1x16_3 : (⟨S16, .f32⟩ : BufTy).Contents (Elt F) → (⟨S1x1x1x16, .f32⟩ : BufTy).Contents (Elt F)) (R V main_arg9))
    ∧ (R V main_v26 = (broadcastInDim S2x65536x16x16 ![0, 1, 2, 3] bcast_S1x1x1x16_S2x65536x16x16_0_1_2_3 : (⟨S1x1x1x16, .f32⟩ : BufTy).Contents (Elt F) → (⟨S2x65536x16x16, .f32⟩ : BufTy).Contents (Elt F)) (R V main_v25))
    ∧ (R V main_v27 = (mulf : (⟨S2x65536x16x16, .f32⟩ : BufTy).Contents (Elt F) → (⟨S2x65536x16x16, .f32⟩ : BufTy).Contents (Elt F) → (⟨S2x65536x16x16, .f32⟩ : BufTy).Contents (Elt F)) (R V main_v24) (R V main_v26))
    ∧ (R V main_v28 = (broadcastInDim S1x1x1x16 ![3] bcast_S16_S1x1x1x16_3 : (⟨S16, .f32⟩ : BufTy).Contents (Elt F) → (⟨S1x1x1x16, .f32⟩ : BufTy).Contents (Elt F)) (R V main_arg10))
    ∧ (R V main_v29 = (broadcastInDim S2x65536x16x16 ![0, 1, 2, 3] bcast_S1x1x1x16_S2x65536x16x16_0_1_2_3 : (⟨S1x1x1x16, .f32⟩ : BufTy).Contents (Elt F) → (⟨S2x65536x16x16, .f32⟩ : BufTy).Contents (Elt F)) (R V main_v28))
    ∧ (R V main_v30 = (addf : (⟨S2x65536x16x16, .f32⟩ : BufTy).Contents (Elt F) → (⟨S2x65536x16x16, .f32⟩ : BufTy).Contents (Elt F) → (⟨S2x65536x16x16, .f32⟩ : BufTy).Contents (Elt F)) (R V main_v27) (R V main_v29))
    ∧ (R V main_call0_cst = (constant S_ .f32 0x00000000#32))
    ∧ (R V main_call0_v0 = (broadcastInDim S2x65536x16x16 ![] bcast_S_S2x65536x16x16 : (⟨S_, .f32⟩ : BufTy).Contents (Elt F) → (⟨S2x65536x16x16, .f32⟩ : BufTy).Contents (Elt F)) (R V main_call0_cst))
    ∧ (R V main_v31 = (maximumf : (⟨S2x65536x16x16, .f32⟩ : BufTy).Contents (Elt F) → (⟨S2x65536x16x16, .f32⟩ : BufTy).Contents (Elt F) → (⟨S2x65536x16x16, .f32⟩ : BufTy).Contents (Elt F)) (R V main_v30) (R V main_call0_v0))
    ∧ (R V main_v32 = ((fun l r => Host.dotGeneral dot_S2x65536x16x16_S8x16_S2x65536x16x8_3_1_012_0_n_n none l r) : (⟨S2x65536x16x16, .f32⟩ : BufTy).Contents (Elt F) → (⟨S8x16, .f32⟩ : BufTy).Contents (Elt F) → (⟨S2x65536x16x8, .f32⟩ : BufTy).Contents (Elt F)) (R V main_v31) (R V main_arg11))
    ∧ (R V main_v33 = (broadcastInDim S1x1x1x8 ![3] bcast_S8_S1x1x1x8_3 : (⟨S8, .f32⟩ : BufTy).Contents (Elt F) → (⟨S1x1x1x8, .f32⟩ : BufTy).Contents (Elt F)) (R V main_arg12))
    ∧ (R V main_v34 = (broadcastInDim S2x65536x16x8 ![0, 1, 2, 3] bcast_S1x1x1x8_S2x65536x16x8_0_1_2_3 : (⟨S1x1x1x8, .f32⟩ : BufTy).Contents (Elt F) → (⟨S2x65536x16x8, .f32⟩ : BufTy).Contents (Elt F)) (R V main_v33))
    ∧ (R V main_v35 = (addf : (⟨S2x65536x16x8, .f32⟩ : BufTy).Contents (Elt F) → (⟨S2x65536x16x8, .f32⟩ : BufTy).Contents (Elt F) → (⟨S2x65536x16x8, .f32⟩ : BufTy).Contents (Elt F)) (R V main_v32) (R V main_v34))
    ∧ (R V main_v36 = (broadcastInDim S1x1x1x8 ![3] bcast_S8_S1x1x1x8_3 : (⟨S8, .f32⟩ : BufTy).Contents (Elt F) → (⟨S1x1x1x8, .f32⟩ : BufTy).Contents (Elt F)) (R V main_arg13))
    ∧ (R V main_v37 = (broadcastInDim S2x65536x16x8 ![0, 1, 2, 3] bcast_S1x1x1x8_S2x65536x16x8_0_1_2_3 : (⟨S1x1x1x8, .f32⟩ : BufTy).Contents (Elt F) → (⟨S2x65536x16x8, .f32⟩ : BufTy).Contents (Elt F)) (R V main_v36))
    ∧ (R V main_v38 = (mulf : (⟨S2x65536x16x8, .f32⟩ : BufTy).Contents (Elt F) → (⟨S2x65536x16x8, .f32⟩ : BufTy).Contents (Elt F) → (⟨S2x65536x16x8, .f32⟩ : BufTy).Contents (Elt F)) (R V main_v35) (R V main_v37))
    ∧ (R V main_v39 = (broadcastInDim S1x1x1x8 ![3] bcast_S8_S1x1x1x8_3 : (⟨S8, .f32⟩ : BufTy).Contents (Elt F) → (⟨S1x1x1x8, .f32⟩ : BufTy).Contents (Elt F)) (R V main_arg14))
    ∧ (R V main_v40 = (broadcastInDim S2x65536x16x8 ![0, 1, 2, 3] bcast_S1x1x1x8_S2x65536x16x8_0_1_2_3 : (⟨S1x1x1x8, .f32⟩ : BufTy).Contents (Elt F) → (⟨S2x65536x16x8, .f32⟩ : BufTy).Contents (Elt F)) (R V main_v39))
    ∧ (R V main_v41 = (addf : (⟨S2x65536x16x8, .f32⟩ : BufTy).Contents (Elt F) → (⟨S2x65536x16x8, .f32⟩ : BufTy).Contents (Elt F) → (⟨S2x65536x16x8, .f32⟩ : BufTy).Contents (Elt F)) (R V main_v38) (R V main_v40))
    ∧ (R V main_call1_cst = (constant S_ .f32 0x00000000#32))
    ∧ (R V main_call1_v0 = (broadcastInDim S2x65536x16x8 ![] bcast_S_S2x65536x16x8 : (⟨S_, .f32⟩ : BufTy).Contents (Elt F) → (⟨S2x65536x16x8, .f32⟩ : BufTy).Contents (Elt F)) (R V main_call1_cst))
    ∧ (R V main_v42 = (maximumf : (⟨S2x65536x16x8, .f32⟩ : BufTy).Contents (Elt F) → (⟨S2x65536x16x8, .f32⟩ : BufTy).Contents (Elt F) → (⟨S2x65536x16x8, .f32⟩ : BufTy).Contents (Elt F)) (R V main_v41) (R V main_call1_v0))
    ∧ (R V main_v43 = ((fun l r => Host.dotGeneral dot_S2x65536x6_S8x6_S2x65536x8_2_1_01_0_n_n none l r) : (⟨S2x65536x6, .f32⟩ : BufTy).Contents (Elt F) → (⟨S8x6, .f32⟩ : BufTy).Contents (Elt F) → (⟨S2x65536x8, .f32⟩ : BufTy).Contents (Elt F)) (R V main_arg0) (R V main_arg3))
    ∧ (R V main_v44 = (broadcastInDim S1x1x8 ![2] bcast_S8_S1x1x8_2 : (⟨S8, .f32⟩ : BufTy).Contents (Elt F) → (⟨S1x1x8, .f32⟩ : BufTy).Contents (Elt F)) (R V main_arg4))
    ∧ (R V main_v45 = (broadcastInDim S2x65536x8 ![0, 1, 2] bcast_S1x1x8_S2x65536x8_0_1_2 : (⟨S1x1x8, .f32⟩ : BufTy).Contents (Elt F) → (⟨S2x65536x8, .f32⟩ : BufTy).Contents (Elt F)) (R V main_v44))
    ∧ (R V main_v46 = (addf : (⟨S2x65536x8, .f32⟩ : BufTy).Contents (Elt F) → (⟨S2x65536x8, .f32⟩ : BufTy).Contents (Elt F) → (⟨S2x65536x8, .f32⟩ : BufTy).Contents (Elt F)) (R V main_v43) (R V main_v45))
    ∧ (R V main_cst_2 = (constant S_ .f32 0x3E4CCCCD#32))
    ∧ (R V main_call2_cst = (constant S_ .f32 0x00000000#32))
    ∧ (R V main_call2_v0 = (broadcastInDim S2x65536x8 ![] bcast_S_S2x65536x8 : (⟨S_, .f32⟩ : BufTy).Contents (Elt F) → (⟨S2x65536x8, .f32⟩ : BufTy).Contents (Elt F)) (R V main_call2_cst))
    ∧ (R V main_call2_v1 = (cmpf .oge : (⟨S2x65536x8, .f32⟩ : BufTy).Contents (Elt F) → (⟨S2x65536x8, .f32⟩ : BufTy).Contents (Elt F) → (⟨S2x65536x8, .i1⟩ : BufTy).Contents (Elt F)) (R V main_v46) (R V main_call2_v0))
    ∧ (R V main_call2_v2 = (id : (⟨S_, .f32⟩ : BufTy).Contents (Elt F) → (⟨S_, .f32⟩ : BufTy).Contents (Elt F)) (R V main_cst_2))
    ∧ (R V main_call2_v3 = (broadcastInDim S2x65536x8 ![] bcast_S_S2x65536x8 : (⟨S_, .f32⟩ : BufTy).Contents (Elt F) → (⟨S2x65536x8, .f32⟩ : BufTy).Contents (Elt F)) (R V main_call2_v2))
    ∧ (R V main_call2_v4 = (mulf : (⟨S2x65536x8, .f32⟩ : BufTy).Contents (Elt F) → (⟨S2x65536x8, .f32⟩ : BufTy).Contents (Elt F) → (⟨S2x65536x8, .f32⟩ : BufTy).Contents (Elt F)) (R V main_call2_v3) (R V main_v46))
    ∧ (R V main_v47 = (select : (⟨S2x65536x8, .i1⟩ : BufTy).Contents (Elt F) → (⟨S2x65536x8, .f32⟩ : BufTy).Contents (Elt F) → (⟨S2x65536x8, .f32⟩ : BufTy).Contents (Elt F) → (⟨S2x65536x8, .f32⟩ : BufTy).Contents (Elt F)) (R V main_call2_v1) (R V main_v46) (R V main_call2_v4))
    ∧ (R V main_v48 = ((fun l r => Host.dotGeneral dot_S2x65536x8_S8x8_S2x65536x8_2_1_01_0_n_n none l r) : (⟨S2x65536x8, .f32⟩ : BufTy).Contents (Elt F) → (⟨S8x8, .f32⟩ : BufTy).Contents (Elt F) → (⟨S2x65536x8, .f32⟩ : BufTy).Contents (Elt F)) (R V main_v47) (R V main_arg5))
    ∧ (R V main_v49 = (broadcastInDim S1x1x8 ![2] bcast_S8_S1x1x8_2 : (⟨S8, .f32⟩ : BufTy).Contents (Elt F) → (⟨S1x1x8, .f32⟩ : BufTy).Contents (Elt F)) (R V main_arg6))
    ∧ (R V main_v50 = (broadcastInDim S2x65536x8 ![0, 1, 2] bcast_S1x1x8_S2x65536x8_0_1_2 : (⟨S1x1x8, .f32⟩ : BufTy).Contents (Elt F) → (⟨S2x65536x8, .f32⟩ : BufTy).Contents (Elt F)) (R V main_v49))
    ∧ (R V main_v51 = (addf : (⟨S2x65536x8, .f32⟩ : BufTy).Contents (Elt F) → (⟨S2x65536x8, .f32⟩ : BufTy).Contents (Elt F) → (⟨S2x65536x8, .f32⟩ : BufTy).Contents (Elt F)) (R V main_v48) (R V main_v50))
    ∧ (R V main_v52 = (broadcastInDim S2x65536x1x8 ![0, 1, 3] bcast_S2x65536x8_S2x65536x1x8_0_1_3 : (⟨S2x65536x8, .f32⟩ : BufTy).Contents (Elt F) → (⟨S2x65536x1x8, .f32⟩ : BufTy).Contents (Elt F)) (R V main_v51))
    ∧ (R V main_v53 = (broadcastInDim S2x65536x16x8 ![0, 1, 2, 3] bcast_S2x65536x1x8_S2x65536x16x8_0_1_2_3 : (⟨S2x65536x1x8, .f32⟩ : BufTy).Contents (Elt F) → (⟨S2x65536x16x8, .f32⟩ : BufTy).Contents (Elt F)) (R V main_v52))
    ∧ (R V main_v54 = ((fun a b => concatenate S2x65536x16x16 3 [⟨S2x65536x16x8, a⟩, ⟨S2x65536x16x8, b⟩] concatenates_S2x65536x16x8_S2x65536x16x8_S2x65536x16x16_d3) : (⟨S2x65536x16x8, .f32⟩ : BufTy).Contents (Elt F) → (⟨S2x65536x16x8, .f32⟩ : BufTy).Contents (Elt F) → (⟨S2x65536x16x16, .f32⟩ : BufTy).Contents (Elt F)) (R V main_v42) (R V main_v53)) := by
  have h := eqs0 V
  refine ⟨((eqs_nullary _ _ _).mp h).1, ?_⟩
  have h := ((eqs_nullary _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_nullary _ _ _).mp h).1, ?_⟩
  have h := ((eqs_nullary _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_ternary _ _ _ _ _ _ _ _ _).mp h).1, ?_⟩
  have h := ((eqs_ternary _ _ _ _ _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_nullary _ _ _).mp h).1, ?_⟩
  have h := ((eqs_nullary _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_nullary _ _ _).mp h).1, ?_⟩
  have h := ((eqs_nullary _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_nary _ _ _ _ _).mp h).1, ?_⟩
  have h := ((eqs_nary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_nullary _ _ _).mp h).1, ?_⟩
  have h := ((eqs_nullary _ _ _).mp h).2
  refine ⟨?_, ?_⟩
  · have e := ((eqs_unary _ _ _ _ _).mp h).1
    simp only [cast_eq] at e
    exact e
  have h := ((eqs_unary _ _ _ _ _).mp h).2
  refine ⟨?_, ?_⟩
  · have e := ((eqs_binary _ _ _ _ _ _ _).mp h).1
    simp only [cast_eq] at e
    exact e
  have h := ((eqs_binary _ _ _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_nullary _ _ _).mp h).1, ?_⟩
  have h := ((eqs_nullary _ _ _).mp h).2
  refine ⟨?_, ?_⟩
  · have e := ((eqs_unary _ _ _ _ _).mp h).1
    simp only [cast_eq] at e
    exact e
  have h := ((eqs_unary _ _ _ _ _).mp h).2
  refine ⟨?_, ?_⟩
  · have e := ((eqs_binary _ _ _ _ _ _ _).mp h).1
    simp only [cast_eq] at e
    exact e
  have h := ((eqs_binary _ _ _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_nullary _ _ _).mp h).1, ?_⟩
  have h := ((eqs_nullary _ _ _).mp h).2
  refine ⟨((eqs_nullary _ _ _).mp h).1, ?_⟩
  have h := ((eqs_nullary _ _ _).mp h).2
  refine ⟨?_, ?_⟩
  · have e := ((eqs_unary _ _ _ _ _).mp h).1
    simp only [cast_eq] at e
    exact e
  have h := ((eqs_unary _ _ _ _ _).mp h).2
  refine ⟨?_, ?_⟩
  · have e := ((eqs_binary _ _ _ _ _ _ _).mp h).1
    simp only [cast_eq] at e
    exact e
  have h := ((eqs_binary _ _ _ _ _ _ _).mp h).2
  refine ⟨?_, ?_⟩
  · have e := ((eqs_unary _ _ _ _ _).mp h).1
    simp only [cast_eq] at e
    exact e
  have h := ((eqs_unary _ _ _ _ _).mp h).2
  refine ⟨?_, ?_⟩
  · have e := ((eqs_unary _ _ _ _ _).mp h).1
    simp only [cast_eq] at e
    exact e
  have h := ((eqs_unary _ _ _ _ _).mp h).2
  refine ⟨?_, ?_⟩
  · have e := ((eqs_binary _ _ _ _ _ _ _).mp h).1
    simp only [cast_eq] at e
    exact e
  have h := ((eqs_binary _ _ _ _ _ _ _).mp h).2
  refine ⟨?_, ?_⟩
  · have e := ((eqs_ternary _ _ _ _ _ _ _ _ _).mp h).1
    simp only [cast_eq] at e
    exact e
  have h := ((eqs_ternary _ _ _ _ _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  exact ((eqs_binary _ _ _ _ _ _ _).mp h).1

theorem line_c (V : Valuation τ sig (Elt F)) : R V main_c = (constantI S_ 32 0#32) := (lines0 V).1
theorem line_v0 (V : Valuation τ sig (Elt F)) : R V main_v0 = (broadcastInDim S2x65536x16 ![] bcast_S_S2x65536x16 : (⟨S_, .i32⟩ : BufTy).Contents (Elt F) → (⟨S2x65536x16, .i32⟩ : BufTy).Contents (Elt F)) (R V main_c) := (lines0 V).2.1
theorem line_v1 (V : Valuation τ sig (Elt F)) : R V main_v1 = (cmpi .slt : (⟨S2x65536x16, .i32⟩ : BufTy).Contents (Elt F) → (⟨S2x65536x16, .i32⟩ : BufTy).Contents (Elt F) → (⟨S2x65536x16, .i1⟩ : BufTy).Contents (Elt F)) (R V main_arg2) (R V main_v0) := (lines0 V).2.2.1
theorem line_c_0 (V : Valuation τ sig (Elt F)) : R V main_c_0 = (constantI S_ 32 131072#32) := (lines0 V).2.2.2.1
theorem line_v2 (V : Valuation τ sig (Elt F)) : R V main_v2 = (broadcastInDim S2x65536x16 ![] bcast_S_S2x65536x16 : (⟨S_, .i32⟩ : BufTy).Contents (Elt F) → (⟨S2x65536x16, .i32⟩ : BufTy).Contents (Elt F)) (R V main_c_0) := (lines0 V).2.2.2.2.1
theorem line_v3 (V : Valuation τ sig (Elt F)) : R V main_v3 = (addi : (⟨S2x65536x16, .i32⟩ : BufTy).Contents (Elt F) → (⟨S2x65536x16, .i32⟩ : BufTy).Contents (Elt F) → (⟨S2x65536x16, .i32⟩ : BufTy).Contents (Elt F)) (R V main_arg2) (R V main_v2) := (lines0 V).2.2.2.2.2.1
theorem line_v4 (V : Valuation τ sig (Elt F)) : R V main_v4 = (select : (⟨S2x65536x16, .i1⟩ : BufTy).Contents (Elt F) → (⟨S2x65536x16, .i32⟩ : BufTy).Contents (Elt F) → (⟨S2x65536x16, .i32⟩ : BufTy).Contents (Elt F) → (⟨S2x65536x16, .i32⟩ : BufTy).Contents (Elt F)) (R V main_v1) (R V main_v3) (R V main_arg2) := (lines0 V).2.2.2.2.2.2.1
theorem line_v5 (V : Valuation τ sig (Elt F)) : R V main_v5 = (broadcastInDim S2x65536x16x1 ![0, 1, 2] bcast_S2x65536x16_S2x65536x16x1_0_1_2 : (⟨S2x65536x16, .i32⟩ : BufTy).Contents (Elt F) → (⟨S2x65536x16x1, .i32⟩ : BufTy).Contents (Elt F)) (R V main_v4) := (lines0 V).2.2.2.2.2.2.2.1
theorem line_v6 (V : Valuation τ sig (Elt F)) : R V main_v6 = ((fun x i => Host.gather gather_S2x131072x6_S2x65536x16x1_S2x65536x16x6_3_1_0_0_1_3_116 x i) : (⟨S2x131072x6, .f32⟩ : BufTy).Contents (Elt F) → (⟨S2x65536x16x1, .i32⟩ : BufTy).Contents (Elt F) → (⟨S2x65536x16x6, .f32⟩ : BufTy).Contents (Elt F)) (R V main_arg1) (R V main_v5) := (lines0 V).2.2.2.2.2.2.2.2.1
theorem line_v7 (V : Valuation τ sig (Elt F)) : R V main_v7 = (broadcastInDim S2x65536x1x6 ![0, 1, 3] bcast_S2x65536x6_S2x65536x1x6_0_1_3 : (⟨S2x65536x6, .f32⟩ : BufTy).Contents (Elt F) → (⟨S2x65536x1x6, .f32⟩ : BufTy).Contents (Elt F)) (R V main_arg0) := (lines0 V).2.2.2.2.2.2.2.2.2.1
theorem line_v8 (V : Valuation τ sig (Elt F)) : R V main_v8 = (broadcastInDim S2x65536x16x6 ![0, 1, 2, 3] bcast_S2x65536x1x6_S2x65536x16x6_0_1_2_3 : (⟨S2x65536x1x6, .f32⟩ : BufTy).Contents (Elt F) → (⟨S2x65536x16x6, .f32⟩ : BufTy).Contents (Elt F)) (R V main_v7) := (lines0 V).2.2.2.2.2.2.2.2.2.2.1
theorem line_v9 (V : Valuation τ sig (Elt F)) : R V main_v9 = (subf : (⟨S2x65536x16x6, .f32⟩ : BufTy).Contents (Elt F) → (⟨S2x65536x16x6, .f32⟩ : BufTy).Contents (Elt F) → (⟨S2x65536x16x6, .f32⟩ : BufTy).Contents (Elt F)) (R V main_v8) (R V main_v6) := (lines0 V).2.2.2.2.2.2.2.2.2.2.2.1
theorem line_v10 (V : Valuation τ sig (Elt F)) : R V main_v10 = ((extractStridedSlice S2x65536x16x3 ![0, 0, 0, 0] · slices_S2x65536x16x6_S2x65536x16x3_0_0_0_0) : (⟨S2x65536x16x6, .f32⟩ : BufTy).Contents (Elt F) → (⟨S2x65536x16x3, .f32⟩ : BufTy).Contents (Elt F)) (R V main_v9) := (lines0 V).2.2.2.2.2.2.2.2.2.2.2.2.1
theorem line_v11 (V : Valuation τ sig (Elt F)) : R V main_v11 = (mulf : (⟨S2x65536x16x3, .f32⟩ : BufTy).Contents (Elt F) → (⟨S2x65536x16x3, .f32⟩ : BufTy).Contents (Elt F) → (⟨S2x65536x16x3, .f32⟩ : BufTy).Contents (Elt F)) (R V main_v10) (R V main_v10) := (lines0 V).2.2.2.2.2.2.2.2.2.2.2.2.2.1
theorem line_cst (V : Valuation τ sig (Elt F)) : R V main_cst = (constant S_ .f32 0x00000000#32) := (lines0 V).2.2.2.2.2.2.2.2.2.2.2.2.2.2.1
theorem line_v12 (V : Valuation τ sig (Elt F)) : R V main_v12 = ((fun x v => Host.reduceAdd x v reducesTo_S2x65536x16x3_S2x65536x16_d3 h_S_) : (⟨S2x65536x16x3, .f32⟩ : BufTy).Contents (Elt F) → (⟨S_, .f32⟩ : BufTy).Contents (Elt F) → (⟨S2x65536x16, .f32⟩ : BufTy).Contents (Elt F)) (R V main_v11) (R V main_cst) := (lines0 V).2.2.2.2.2.2.2.2.2.2.2.2.2.2.2.1
theorem line_v13 (V : Valuation τ sig (Elt F)) : R V main_v13 = (broadcastInDim S2x65536x16x1 ![0, 1, 2] bcast_S2x65536x16_S2x65536x16x1_0_1_2 : (⟨S2x65536x16, .f32⟩ : BufTy).Contents (Elt F) → (⟨S2x65536x16x1, .f32⟩ : BufTy).Contents (Elt F)) (R V main_v12) := (lines0 V).2.2.2.2.2.2.2.2.2.2.2.2.2.2.2.2.1
theorem line_v14 (V : Valuation τ sig (Elt F)) : R V main_v14 = (Host.sqrt : (⟨S2x65536x16x1, .f32⟩ : BufTy).Contents (Elt F) → (⟨S2x65536x16x1, .f32⟩ : BufTy).Contents (Elt F)) (R V main_v13) := (lines0 V).2.2.2.2.2.2.2.2.2.2.2.2.2.2.2.2.2.1
theorem line_v15 (V : Valuation τ sig (Elt F)) : R V main_v15 = ((extractStridedSlice S2x65536x16x3 ![0, 0, 0, 3] · slices_S2x65536x16x6_S2x65536x16x3_0_0_0_3) : (⟨S2x65536x16x6, .f32⟩ : BufTy).Contents (Elt F) → (⟨S2x65536x16x3, .f32⟩ : BufTy).Contents (Elt F)) (R V main_v9) := (lines0 V).2.2.2.2.2.2.2.2.2.2.2.2.2.2.2.2.2.2.1
theorem line_v16 (V : Valuation τ sig (Elt F)) : R V main_v16 = (mulf : (⟨S2x65536x16x3, .f32⟩ : BufTy).Contents (Elt F) → (⟨S2x65536x16x3, .f32⟩ : BufTy).Contents (Elt F) → (⟨S2x65536x16x3, .f32⟩ : BufTy).Contents (Elt F)) (R V main_v15) (R V main_v15) := (lines0 V).2.2.2.2.2.2.2.2.2.2.2.2.2.2.2.2.2.2.2.1
theorem line_cst_1 (V : Valuation τ sig (Elt F)) : R V main_cst_1 = (constant S_ .f32 0x00000000#32) := (lines0 V).2.2.2.2.2.2.2.2.2.2.2.2.2.2.2.2.2.2.2.2.1
theorem line_v17 (V : Valuation τ sig (Elt F)) : R V main_v17 = ((fun x v => Host.reduceAdd x v reducesTo_S2x65536x16x3_S2x65536x16_d3 h_S_) : (⟨S2x65536x16x3, .f32⟩ : BufTy).Contents (Elt F) → (⟨S_, .f32⟩ : BufTy).Contents (Elt F) → (⟨S2x65536x16, .f32⟩ : BufTy).Contents (Elt F)) (R V main_v16) (R V main_cst_1) := (lines0 V).2.2.2.2.2.2.2.2.2.2.2.2.2.2.2.2.2.2.2.2.2.1
theorem line_v18 (V : Valuation τ sig (Elt F)) : R V main_v18 = (broadcastInDim S2x65536x16x1 ![0, 1, 2] bcast_S2x65536x16_S2x65536x16x1_0_1_2 : (⟨S2x65536x16, .f32⟩ : BufTy).Contents (Elt F) → (⟨S2x65536x16x1, .f32⟩ : BufTy).Contents (Elt F)) (R V main_v17) := (lines0 V).2.2.2.2.2.2.2.2.2.2.2.2.2.2.2.2.2.2.2.2.2.2.1
theorem line_v19 (V : Valuation τ sig (Elt F)) : R V main_v19 = (Host.sqrt : (⟨S2x65536x16x1, .f32⟩ : BufTy).Contents (Elt F) → (⟨S2x65536x16x1, .f32⟩ : BufTy).Contents (Elt F)) (R V main_v18) := (lines0 V).2.2.2.2.2.2.2.2.2.2.2.2.2.2.2.2.2.2.2.2.2.2.2.1
theorem line_v20 (V : Valuation τ sig (Elt F)) : R V main_v20 = concatenate S2x65536x16x20 3 [⟨S2x65536x16x6, R V main_v8⟩, ⟨S2x65536x16x6, R V main_v6⟩, ⟨S2x65536x16x6, R V main_v9⟩, ⟨S2x65536x16x1, R V main_v14⟩, ⟨S2x65536x16x1, R V main_v19⟩] concatenates_S2x65536x16x6_S2x65536x16x6_S2x65536x16x6_S2x65536x16x1_S2x65536x16x1_S2x65536x16x20_d3 := (lines0 V).2.2.2.2.2.2.2.2.2.2.2.2.2.2.2.2.2.2.2.2.2.2.2.2.1
theorem line_v21 (V : Valuation τ sig (Elt F)) : R V main_v21 = ((fun l r => Host.dotGeneral dot_S2x65536x16x20_S16x20_S2x65536x16x16_3_1_012_0_n_n none l r) : (⟨S2x65536x16x20, .f32⟩ : BufTy).Contents (Elt F) → (⟨S16x20, .f32⟩ : BufTy).Contents (Elt F) → (⟨S2x65536x16x16, .f32⟩ : BufTy).Contents (Elt F)) (R V main_v20) (R V main_arg7) := (lines0 V).2.2.2.2.2.2.2.2.2.2.2.2.2.2.2.2.2.2.2.2.2.2.2.2.2.1
theorem line_v22 (V : Valuation τ sig (Elt F)) : R V main_v22 = (broadcastInDim S1x1x1x16 ![3] bcast_S16_S1x1x1x16_3 : (⟨S16, .f32⟩ : BufTy).Contents (Elt F) → (⟨S1x1x1x16, .f32⟩ : BufTy).Contents (Elt F)) (R V main_arg8) := (lines0 V).2.2.2.2.2.2.2.2.2.2.2.2.2.2.2.2.2.2.2.2.2.2.2.2.2.2.1
theorem line_v23 (V : Valuation τ sig (Elt F)) : R V main_v23 = (broadcastInDim S2x65536x16x16 ![0, 1, 2, 3] bcast_S1x1x1x16_S2x65536x16x16_0_1_2_3 : (⟨S1x1x1x16, .f32⟩ : BufTy).Contents (Elt F) → (⟨S2x65536x16x16, .f32⟩ : BufTy).Contents (Elt F)) (R V main_v22) := (lines0 V).2.2.2.2.2.2.2.2.2.2.2.2.2.2.2.2.2.2.2.2.2.2.2.2.2.2.2.1
theorem line_v24 (V : Valuation τ sig (Elt F)) : R V main_v24 = (addf : (⟨S2x65536x16x16, .f32⟩ : BufTy).Contents (Elt F) → (⟨S2x65536x16x16, .f32⟩ : BufTy).Contents (Elt F) → (⟨S2x65536x16x16, .f32⟩ : BufTy).Contents (Elt F)) (R V main_v21) (R V main_v23) := (lines0 V).2.2.2.2.2.2.2.2.2.2.2.2.2.2.2.2.2.2.2.2.2.2.2.2.2.2.2.2.1
theorem line_v25 (V : Valuation τ sig (Elt F)) : R V main_v25 = (broadcastInDim S1x1x1x16 ![3] bcast_S16_S1x1x1x16_3 : (⟨S16, .f32⟩ : BufTy).Contents (Elt F) → (⟨S1x1x1x16, .f32⟩ : BufTy).Contents (Elt F)) (R V main_arg9) := (lines0 V).2.2.2.2.2.2.2.2.2.2.2.2.2.2.2.2.2.2.2.2.2.2.2.2.2.2.2.2.2.1
theorem line_v26 (V : Valuation τ sig (Elt F)) : R V main_v26 = (broadcastInDim S2x65536x16x16 ![0, 1, 2, 3] bcast_S1x1x1x16_S2x65536x16x16_0_1_2_3 : (⟨S1x1x1x16, .f32⟩ : BufTy).Contents (Elt F) → (⟨S2x65536x16x16, .f32⟩ : BufTy).Contents (Elt F)) (R V main_v25) := (lines0 V).2.2.2.2.2.2.2.2.2.2.2.2.2.2.2.2.2.2.2.2.2.2.2.2.2.2.2.2.2.2.1
theorem line_v27 (V : Valuation τ sig (Elt F)) : R V main_v27 = (mulf : (⟨S2x65536x16x16, .f32⟩ : BufTy).Contents (Elt F) → (⟨S2x65536x16x16, .f32⟩ : BufTy).Contents (Elt F) → (⟨S2x65536x16x16, .f32⟩ : BufTy).Contents (Elt F)) (R V main_v24) (R V main_v26) := (lines0 V).2.2.2.2.2.2.2.2.2.2.2.2.2.2.2.2.2.2.2.2.2.2.2.2.2.2.2.2.2.2.2.1
theorem line_v28 (V : Valuation τ sig (Elt F)) : R V main_v28 = (broadcastInDim S1x1x1x16 ![3] bcast_S16_S1x1x1x16_3 : (⟨S16, .f32⟩ : BufTy).Contents (Elt F) → (⟨S1x1x1x16, .f32⟩ : BufTy).Contents (Elt F)) (R V main_arg10) := (lines0 V).2.2.2.2.2.2.2.2.2.2.2.2.2.2.2.2.2.2.2.2.2.2.2.2.2.2.2.2.2.2.2.2.1
theorem line_v29 (V : Valuation τ sig (Elt F)) : R V main_v29 = (broadcastInDim S2x65536x16x16 ![0, 1, 2, 3] bcast_S1x1x1x16_S2x65536x16x16_0_1_2_3 : (⟨S1x1x1x16, .f32⟩ : BufTy).Contents (Elt F) → (⟨S2x65536x16x16, .f32⟩ : BufTy).Contents (Elt F)) (R V main_v28) := (lines0 V).2.2.2.2.2.2.2.2.2.2.2.2.2.2.2.2.2.2.2.2.2.2.2.2.2.2.2.2.2.2.2.2.2.1
theorem line_v30 (V : Valuation τ sig (Elt F)) : R V main_v30 = (addf : (⟨S2x65536x16x16, .f32⟩ : BufTy).Contents (Elt F) → (⟨S2x65536x16x16, .f32⟩ : BufTy).Contents (Elt F) → (⟨S2x65536x16x16, .f32⟩ : BufTy).Contents (Elt F)) (R V main_v27) (R V main_v29) := (lines0 V).2.2.2.2.2.2.2.2.2.2.2.2.2.2.2.2.2.2.2.2.2.2.2.2.2.2.2.2.2.2.2.2.2.2.1
theorem line_call0_cst (V : Valuation τ sig (Elt F)) : R V main_call0_cst = (constant S_ .f32 0x00000000#32) := (lines0 V).2.2.2.2.2.2.2.2.2.2.2.2.2.2.2.2.2.2.2.2.2.2.2.2.2.2.2.2.2.2.2.2.2.2.2.1
theorem line_call0_v0 (V : Valuation τ sig (Elt F)) : R V main_call0_v0 = (broadcastInDim S2x65536x16x16 ![] bcast_S_S2x65536x16x16 : (⟨S_, .f32⟩ : BufTy).Contents (Elt F) → (⟨S2x65536x16x16, .f32⟩ : BufTy).Contents (Elt F)) (R V main_call0_cst) := (lines0 V).2.2.2.2.2.2.2.2.2.2.2.2.2.2.2.2.2.2.2.2.2.2.2.2.2.2.2.2.2.2.2.2.2.2.2.2.1
theorem line_v31 (V : Valuation τ sig (Elt F)) : R V main_v31 = (maximumf : (⟨S2x65536x16x16, .f32⟩ : BufTy).Contents (Elt F) → (⟨S2x65536x16x16, .f32⟩ : BufTy).Contents (Elt F) → (⟨S2x65536x16x16, .f32⟩ : BufTy).Contents (Elt F)) (R V main_v30) (R V main_call0_v0) := (lines0 V).2.2.2.2.2.2.2.2.2.2.2.2.2.2.2.2.2.2.2.2.2.2.2.2.2.2.2.2.2.2.2.2.2.2.2.2.2.1
theorem line_v32 (V : Valuation τ sig (Elt F)) : R V main_v32 = ((fun l r => Host.dotGeneral dot_S2x65536x16x16_S8x16_S2x65536x16x8_3_1_012_0_n_n none l r) : (⟨S2x65536x16x16, .f32⟩ : BufTy).Contents (Elt F) → (⟨S8x16, .f32⟩ : BufTy).Contents (Elt F) → (⟨S2x65536x16x8, .f32⟩ : BufTy).Contents (Elt F)) (R V main_v31) (R V main_arg11) := (lines0 V).2.2.2.2.2.2.2.2.2.2.2.2.2.2.2.2.2.2.2.2.2.2.2.2.2.2.2.2.2.2.2.2.2.2.2.2.2.2.1
theorem line_v33 (V : Valuation τ sig (Elt F)) : R V main_v33 = (broadcastInDim S1x1x1x8 ![3] bcast_S8_S1x1x1x8_3 : (⟨S8, .f32⟩ : BufTy).Contents (Elt F) → (⟨S1x1x1x8, .f32⟩ : BufTy).Contents (Elt F)) (R V main_arg12) := (lines0 V).2.2.2.2.2.2.2.2.2.2.2.2.2.2.2.2.2.2.2.2.2.2.2.2.2.2.2.2.2.2.2.2.2.2.2.2.2.2.2.1
theorem line_v34 (V : Valuation τ sig (Elt F)) : R V main_v34 = (broadcastInDim S2x65536x16x8 ![0, 1, 2, 3] bcast_S1x1x1x8_S2x65536x16x8_0_1_2_3 : (⟨S1x1x1x8, .f32⟩ : BufTy).Contents (Elt F) → (⟨S2x65536x16x8, .f32⟩ : BufTy).Contents (Elt F)) (R V main_v33) := (lines0 V).2.2.2.2.2.2.2.2.2.2.2.2.2.2.2.2.2.2.2.2.2.2.2.2.2.2.2.2.2.2.2.2.2.2.2.2.2.2.2.2.1
theorem line_v35 (V : Valuation τ sig (Elt F)) : R V main_v35 = (addf : (⟨S2x65536x16x8, .f32⟩ : BufTy).Contents (Elt F) → (⟨S2x65536x16x8, .f32⟩ : BufTy).Contents (Elt F) → (⟨S2x65536x16x8, .f32⟩ : BufTy).Contents (Elt F)) (R V main_v32) (R V main_v34) := (lines0 V).2.2.2.2.2.2.2.2.2.2.2.2.2.2.2.2.2.2.2.2.2.2.2.2.2.2.2.2.2.2.2.2.2.2.2.2.2.2.2.2.2.1
theorem line_v36 (V : Valuation τ sig (Elt F)) : R V main_v36 = (broadcastInDim S1x1x1x8 ![3] bcast_S8_S1x1x1x8_3 : (⟨S8, .f32⟩ : BufTy).Contents (Elt F) → (⟨S1x1x1x8, .f32⟩ : BufTy).Contents (Elt F)) (R V main_arg13) := (lines0 V).2.2.2.2.2.2.2.2.2.2.2.2.2.2.2.2.2.2.2.2.2.2.2.2.2.2.2.2.2.2.2.2.2.2.2.2.2.2.2.2.2.2.1
theorem line_v37 (V : Valuation τ sig (Elt F)) : R V main_v37 = (broadcastInDim S2x65536x16x8 ![0, 1, 2, 3] bcast_S1x1x1x8_S2x65536x16x8_0_1_2_3 : (⟨S1x1x1x8, .f32⟩ : BufTy).Contents (Elt F) → (⟨S2x65536x16x8, .f32⟩ : BufTy).Contents (Elt F)) (R V main_v36) := (lines0 V).2.2.2.2.2.2.2.2.2.2.2.2.2.2.2.2.2.2.2.2.2.2.2.2.2.2.2.2.2.2.2.2.2.2.2.2.2.2.2.2.2.2.2.1
theorem line_v38 (V : Valuation τ sig (Elt F)) : R V main_v38 = (mulf : (⟨S2x65536x16x8, .f32⟩ : BufTy).Contents (Elt F) → (⟨S2x65536x16x8, .f32⟩ : BufTy).Contents (Elt F) → (⟨S2x65536x16x8, .f32⟩ : BufTy).Contents (Elt F)) (R V main_v35) (R V main_v37) := (lines0 V).2.2.2.2.2.2.2.2.2.2.2.2.2.2.2.2.2.2.2.2.2.2.2.2.2.2.2.2.2.2.2.2.2.2.2.2.2.2.2.2.2.2.2.2.1
theorem line_v39 (V : Valuation τ sig (Elt F)) : R V main_v39 = (broadcastInDim S1x1x1x8 ![3] bcast_S8_S1x1x1x8_3 : (⟨S8, .f32⟩ : BufTy).Contents (Elt F) → (⟨S1x1x1x8, .f32⟩ : BufTy).Contents (Elt F)) (R V main_arg14) := (lines0 V).2.2.2.2.2.2.2.2.2.2.2.2.2.2.2.2.2.2.2.2.2.2.2.2.2.2.2.2.2.2.2.2.2.2.2.2.2.2.2.2.2.2.2.2.2.1
theorem line_v40 (V : Valuation τ sig (Elt F)) : R V main_v40 = (broadcastInDim S2x65536x16x8 ![0, 1, 2, 3] bcast_S1x1x1x8_S2x65536x16x8_0_1_2_3 : (⟨S1x1x1x8, .f32⟩ : BufTy).Contents (Elt F) → (⟨S2x65536x16x8, .f32⟩ : BufTy).Contents (Elt F)) (R V main_v39) := (lines0 V).2.2.2.2.2.2.2.2.2.2.2.2.2.2.2.2.2.2.2.2.2.2.2.2.2.2.2.2.2.2.2.2.2.2.2.2.2.2.2.2.2.2.2.2.2.2.1
theorem line_v41 (V : Valuation τ sig (Elt F)) : R V main_v41 = (addf : (⟨S2x65536x16x8, .f32⟩ : BufTy).Contents (Elt F) → (⟨S2x65536x16x8, .f32⟩ : BufTy).Contents (Elt F) → (⟨S2x65536x16x8, .f32⟩ : BufTy).Contents (Elt F)) (R V main_v38) (R V main_v40) := (lines0 V).2.2.2.2.2.2.2.2.2.2.2.2.2.2.2.2.2.2.2.2.2.2.2.2.2.2.2.2.2.2.2.2.2.2.2.2.2.2.2.2.2.2.2.2.2.2.2.1
theorem line_call1_cst (V : Valuation τ sig (Elt F)) : R V main_call1_cst = (constant S_ .f32 0x00000000#32) := (lines0 V).2.2.2.2.2.2.2.2.2.2.2.2.2.2.2.2.2.2.2.2.2.2.2.2.2.2.2.2.2.2.2.2.2.2.2.2.2.2.2.2.2.2.2.2.2.2.2.2.1
theorem line_call1_v0 (V : Valuation τ sig (Elt F)) : R V main_call1_v0 = (broadcastInDim S2x65536x16x8 ![] bcast_S_S2x65536x16x8 : (⟨S_, .f32⟩ : BufTy).Contents (Elt F) → (⟨S2x65536x16x8, .f32⟩ : BufTy).Contents (Elt F)) (R V main_call1_cst) := (lines0 V).2.2.2.2.2.2.2.2.2.2.2.2.2.2.2.2.2.2.2.2.2.2.2.2.2.2.2.2.2.2.2.2.2.2.2.2.2.2.2.2.2.2.2.2.2.2.2.2.2.1
theorem line_v42 (V : Valuation τ sig (Elt F)) : R V main_v42 = (maximumf : (⟨S2x65536x16x8, .f32⟩ : BufTy).Contents (Elt F) → (⟨S2x65536x16x8, .f32⟩ : BufTy).Contents (Elt F) → (⟨S2x65536x16x8, .f32⟩ : BufTy).Contents (Elt F)) (R V main_v41) (R V main_call1_v0) := (lines0 V).2.2.2.2.2.2.2.2.2.2.2.2.2.2.2.2.2.2.2.2.2.2.2.2.2.2.2.2.2.2.2.2.2.2.2.2.2.2.2.2.2.2.2.2.2.2.2.2.2.2.1
theorem line_v43 (V : Valuation τ sig (Elt F)) : R V main_v43 = ((fun l r => Host.dotGeneral dot_S2x65536x6_S8x6_S2x65536x8_2_1_01_0_n_n none l r) : (⟨S2x65536x6, .f32⟩ : BufTy).Contents (Elt F) → (⟨S8x6, .f32⟩ : BufTy).Contents (Elt F) → (⟨S2x65536x8, .f32⟩ : BufTy).Contents (Elt F)) (R V main_arg0) (R V main_arg3) := (lines0 V).2.2.2.2.2.2.2.2.2.2.2.2.2.2.2.2.2.2.2.2.2.2.2.2.2.2.2.2.2.2.2.2.2.2.2.2.2.2.2.2.2.2.2.2.2.2.2.2.2.2.2.1
theorem line_v44 (V : Valuation τ sig (Elt F)) : R V main_v44 = (broadcastInDim S1x1x8 ![2] bcast_S8_S1x1x8_2 : (⟨S8, .f32⟩ : BufTy).Contents (Elt F) → (⟨S1x1x8, .f32⟩ : BufTy).Contents (Elt F)) (R V main_arg4) := (lines0 V).2.2.2.2.2.2.2.2.2.2.2.2.2.2.2.2.2.2.2.2.2.2.2.2.2.2.2.2.2.2.2.2.2.2.2.2.2.2.2.2.2.2.2.2.2.2.2.2.2.2.2.2.1
theorem line_v45 (V : Valuation τ sig (Elt F)) : R V main_v45 = (broadcastInDim S2x65536x8 ![0, 1, 2] bcast_S1x1x8_S2x65536x8_0_1_2 : (⟨S1x1x8, .f32⟩ : BufTy).Contents (Elt F) → (⟨S2x65536x8, .f32⟩ : BufTy).Contents (Elt F)) (R V main_v44) := (lines0 V).2.2.2.2.2.2.2.2.2.2.2.2.2.2.2.2.2.2.2.2.2.2.2.2.2.2.2.2.2.2.2.2.2.2.2.2.2.2.2.2.2.2.2.2.2.2.2.2.2.2.2.2.2.1
theorem line_v46 (V : Valuation τ sig (Elt F)) : R V main_v46 = (addf : (⟨S2x65536x8, .f32⟩ : BufTy).Contents (Elt F) → (⟨S2x65536x8, .f32⟩ : BufTy).Contents (Elt F) → (⟨S2x65536x8, .f32⟩ : BufTy).Contents (Elt F)) (R V main_v43) (R V main_v45) := (lines0 V).2.2.2.2.2.2.2.2.2.2.2.2.2.2.2.2.2.2.2.2.2.2.2.2.2.2.2.2.2.2.2.2.2.2.2.2.2.2.2.2.2.2.2.2.2.2.2.2.2.2.2.2.2.2.1
theorem line_cst_2 (V : Valuation τ sig (Elt F)) : R V main_cst_2 = (constant S_ .f32 0x3E4CCCCD#32) := (lines0 V).2.2.2.2.2.2.2.2.2.2.2.2.2.2.2.2.2.2.2.2.2.2.2.2.2.2.2.2.2.2.2.2.2.2.2.2.2.2.2.2.2.2.2.2.2.2.2.2.2.2.2.2.2.2.2.1
theorem line_call2_cst (V : Valuation τ sig (Elt F)) : R V main_call2_cst = (constant S_ .f32 0x00000000#32) := (lines0 V).2.2.2.2.2.2.2.2.2.2.2.2.2.2.2.2.2.2.2.2.2.2.2.2.2.2.2.2.2.2.2.2.2.2.2.2.2.2.2.2.2.2.2.2.2.2.2.2.2.2.2.2.2.2.2.2.1
theorem line_call2_v0 (V : Valuation τ sig (Elt F)) : R V main_call2_v0 = (broadcastInDim S2x65536x8 ![] bcast_S_S2x65536x8 : (⟨S_, .f32⟩ : BufTy).Contents (Elt F) → (⟨S2x65536x8, .f32⟩ : BufTy).Contents (Elt F)) (R V main_call2_cst) := (lines0 V).2.2.2.2.2.2.2.2.2.2.2.2.2.2.2.2.2.2.2.2.2.2.2.2.2.2.2.2.2.2.2.2.2.2.2.2.2.2.2.2.2.2.2.2.2.2.2.2.2.2.2.2.2.2.2.2.2.1
theorem line_call2_v1 (V : Valuation τ sig (Elt F)) : R V main_call2_v1 = (cmpf .oge : (⟨S2x65536x8, .f32⟩ : BufTy).Contents (Elt F) → (⟨S2x65536x8, .f32⟩ : BufTy).Contents (Elt F) → (⟨S2x65536x8, .i1⟩ : BufTy).Contents (Elt F)) (R V main_v46) (R V main_call2_v0) := (lines0 V).2.2.2.2.2.2.2.2.2.2.2.2.2.2.2.2.2.2.2.2.2.2.2.2.2.2.2.2.2.2.2.2.2.2.2.2.2.2.2.2.2.2.2.2.2.2.2.2.2.2.2.2.2.2.2.2.2.2.1
theorem line_call2_v2 (V : Valuation τ sig (Elt F)) : R V main_call2_v2 = (id : (⟨S_, .f32⟩ : BufTy).Contents (Elt F) → (⟨S_, .f32⟩ : BufTy).Contents (Elt F)) (R V main_cst_2) := (lines0 V).2.2.2.2.2.2.2.2.2.2.2.2.2.2.2.2.2.2.2.2.2.2.2.2.2.2.2.2.2.2.2.2.2.2.2.2.2.2.2.2.2.2.2.2.2.2.2.2.2.2.2.2.2.2.2.2.2.2.2.1
theorem line_call2_v3 (V : Valuation τ sig (Elt F)) : R V main_call2_v3 = (broadcastInDim S2x65536x8 ![] bcast_S_S2x65536x8 : (⟨S_, .f32⟩ : BufTy).Contents (Elt F) → (⟨S2x65536x8, .f32⟩ : BufTy).Contents (Elt F)) (R V main_call2_v2) := (lines0 V).2.2.2.2.2.2.2.2.2.2.2.2.2.2.2.2.2.2.2.2.2.2.2.2.2.2.2.2.2.2.2.2.2.2.2.2.2.2.2.2.2.2.2.2.2.2.2.2.2.2.2.2.2.2.2.2.2.2.2.2.1
theorem line_call2_v4 (V : Valuation τ sig (Elt F)) : R V main_call2_v4 = (mulf : (⟨S2x65536x8, .f32⟩ : BufTy).Contents (Elt F) → (⟨S2x65536x8, .f32⟩ : BufTy).Contents (Elt F) → (⟨S2x65536x8, .f32⟩ : BufTy).Contents (Elt F)) (R V main_call2_v3) (R V main_v46) := (lines0 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.1
theorem line_v47 (V : Valuation τ sig (Elt F)) : R V main_v47 = (select : (⟨S2x65536x8, .i1⟩ : BufTy).Contents (Elt F) → (⟨S2x65536x8, .f32⟩ : BufTy).Contents (Elt F) → (⟨S2x65536x8, .f32⟩ : BufTy).Contents (Elt F) → (⟨S2x65536x8, .f32⟩ : BufTy).Contents (Elt F)) (R V main_call2_v1) (R V main_v46) (R V main_call2_v4) := (lines0 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
theorem line_v48 (V : Valuation τ sig (Elt F)) : R V main_v48 = ((fun l r => Host.dotGeneral dot_S2x65536x8_S8x8_S2x65536x8_2_1_01_0_n_n none l r) : (⟨S2x65536x8, .f32⟩ : BufTy).Contents (Elt F) → (⟨S8x8, .f32⟩ : BufTy).Contents (Elt F) → (⟨S2x65536x8, .f32⟩ : BufTy).Contents (Elt F)) (R V main_v47) (R V main_arg5) := (lines0 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
theorem line_v49 (V : Valuation τ sig (Elt F)) : R V main_v49 = (broadcastInDim S1x1x8 ![2] bcast_S8_S1x1x8_2 : (⟨S8, .f32⟩ : BufTy).Contents (Elt F) → (⟨S1x1x8, .f32⟩ : BufTy).Contents (Elt F)) (R V main_arg6) := (lines0 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
theorem line_v50 (V : Valuation τ sig (Elt F)) : R V main_v50 = (broadcastInDim S2x65536x8 ![0, 1, 2] bcast_S1x1x8_S2x65536x8_0_1_2 : (⟨S1x1x8, .f32⟩ : BufTy).Contents (Elt F) → (⟨S2x65536x8, .f32⟩ : BufTy).Contents (Elt F)) (R V main_v49) := (lines0 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
theorem line_v51 (V : Valuation τ sig (Elt F)) : R V main_v51 = (addf : (⟨S2x65536x8, .f32⟩ : BufTy).Contents (Elt F) → (⟨S2x65536x8, .f32⟩ : BufTy).Contents (Elt F) → (⟨S2x65536x8, .f32⟩ : BufTy).Contents (Elt F)) (R V main_v48) (R V main_v50) := (lines0 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
theorem line_v52 (V : Valuation τ sig (Elt F)) : R V main_v52 = (broadcastInDim S2x65536x1x8 ![0, 1, 3] bcast_S2x65536x8_S2x65536x1x8_0_1_3 : (⟨S2x65536x8, .f32⟩ : BufTy).Contents (Elt F) → (⟨S2x65536x1x8, .f32⟩ : BufTy).Contents (Elt F)) (R V main_v51) := (lines0 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
theorem line_v53 (V : Valuation τ sig (Elt F)) : R V main_v53 = (broadcastInDim S2x65536x16x8 ![0, 1, 2, 3] bcast_S2x65536x1x8_S2x65536x16x8_0_1_2_3 : (⟨S2x65536x1x8, .f32⟩ : BufTy).Contents (Elt F) → (⟨S2x65536x16x8, .f32⟩ : BufTy).Contents (Elt F)) (R V main_v52) := (lines0 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1
theorem line_v54 (V : Valuation τ sig (Elt F)) : R V main_v54 = ((fun a b => concatenate S2x65536x16x16 3 [⟨S2x65536x16x8, a⟩, ⟨S2x65536x16x8, b⟩] concatenates_S2x65536x16x8_S2x65536x16x8_S2x65536x16x16_d3) : (⟨S2x65536x16x8, .f32⟩ : BufTy).Contents (Elt F) → (⟨S2x65536x16x8, .f32⟩ : BufTy).Contents (Elt F) → (⟨S2x65536x16x16, .f32⟩ : BufTy).Contents (Elt F)) (R V main_v42) (R V main_v53) := (lines0 V).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2

end Cert.RefRun

end
-- ==== Proof.RefLines1.lean ====
/-
  The reference's lines as equations between final contents, window 1 (62 operations). Every buffer the program
  writes is written by exactly one operation, and holds that operation's function of what the program leaves in its
  operands' buffers: the printed line, read as an equation. One theorem per operation, named after the buffer it
  writes; a callee's line is over the buffers the call names.
-/
import proofs.«138937_j6992206758069_2_alg».proof.Proof.RefR

noncomputable section

namespace Cert.RefRun

open Cert.ReferenceIdeal Cert.ReferenceIdeal.Facts₀ Cert.ReferenceIdeal.Facts Idealize.ShloMosaic Idealize.ShloMosaic.TcCoe Idealize.SL.Sem Idealize.ShloMosaic.StableHlo Cert.Ssa

variable {F : FTy → Type} [FloatOps F] [Cert.ReferenceIdeal.Facts]

set_option maxRecDepth 16384 in
set_option maxHeartbeats 4000000 in
/-- Window 1's lines, together: the fixed point's conjuncts peeled one by one (at a callee's line the transport of
    contents along the equality of a buffer's type with its value's type is the identity). -/
theorem lines1 (V : Valuation τ sig (Elt F)) :
    (R V main_v55 = ((fun l r => Host.dotGeneral dot_S2x65536x16x16_S16x16_S2x65536x16x16_3_1_012_0_n_n none l r) : (⟨S2x65536x16x16, .f32⟩ : BufTy).Contents (Elt F) → (⟨S16x16, .f32⟩ : BufTy).Contents (Elt F) → (⟨S2x65536x16x16, .f32⟩ : BufTy).Contents (Elt F)) (R V main_v54) (R V main_arg15))
    ∧ (R V main_cst_3 = (constant S_ .f32 0xFF800000#32))
    ∧ (R V main_v56 = ((fun x v => Host.reduce FloatOps.maximumf x v reducesTo_S2x65536x16x16_S2x65536x16_d2 h_S_) : (⟨S2x65536x16x16, .f32⟩ : BufTy).Contents (Elt F) → (⟨S_, .f32⟩ : BufTy).Contents (Elt F) → (⟨S2x65536x16, .f32⟩ : BufTy).Contents (Elt F)) (R V main_v55) (R V main_cst_3))
    ∧ (R V main_cst_4 = (constant S_ .f32 0xFF800000#32))
    ∧ (R V main_v57 = (broadcastInDim S2x65536x16 ![] bcast_S_S2x65536x16 : (⟨S_, .f32⟩ : BufTy).Contents (Elt F) → (⟨S2x65536x16, .f32⟩ : BufTy).Contents (Elt F)) (R V main_cst_4))
    ∧ (R V main_v58 = (maximumf : (⟨S2x65536x16, .f32⟩ : BufTy).Contents (Elt F) → (⟨S2x65536x16, .f32⟩ : BufTy).Contents (Elt F) → (⟨S2x65536x16, .f32⟩ : BufTy).Contents (Elt F)) (R V main_v57) (R V main_v56))
    ∧ (R V main_v59 = (broadcastInDim S2x65536x1x16 ![0, 1, 3] bcast_S2x65536x16_S2x65536x1x16_0_1_3 : (⟨S2x65536x16, .f32⟩ : BufTy).Contents (Elt F) → (⟨S2x65536x1x16, .f32⟩ : BufTy).Contents (Elt F)) (R V main_v58))
    ∧ (R V main_v60 = (broadcastInDim S2x65536x16x16 ![0, 1, 2, 3] bcast_S2x65536x1x16_S2x65536x16x16_0_1_2_3 : (⟨S2x65536x1x16, .f32⟩ : BufTy).Contents (Elt F) → (⟨S2x65536x16x16, .f32⟩ : BufTy).Contents (Elt F)) (R V main_v59))
    ∧ (R V main_v61 = (subf : (⟨S2x65536x16x16, .f32⟩ : BufTy).Contents (Elt F) → (⟨S2x65536x16x16, .f32⟩ : BufTy).Contents (Elt F) → (⟨S2x65536x16x16, .f32⟩ : BufTy).Contents (Elt F)) (R V main_v55) (R V main_v60))
    ∧ (R V main_v62 = (Host.exp : (⟨S2x65536x16x16, .f32⟩ : BufTy).Contents (Elt F) → (⟨S2x65536x16x16, .f32⟩ : BufTy).Contents (Elt F)) (R V main_v61))
    ∧ (R V main_cst_5 = (constant S_ .f32 0x00000000#32))
    ∧ (R V main_v63 = ((fun x v => Host.reduceAdd x v reducesTo_S2x65536x16x16_S2x65536x16_d2 h_S_) : (⟨S2x65536x16x16, .f32⟩ : BufTy).Contents (Elt F) → (⟨S_, .f32⟩ : BufTy).Contents (Elt F) → (⟨S2x65536x16, .f32⟩ : BufTy).Contents (Elt F)) (R V main_v62) (R V main_cst_5))
    ∧ (R V main_v64 = (broadcastInDim S2x65536x1x16 ![0, 1, 3] bcast_S2x65536x16_S2x65536x1x16_0_1_3 : (⟨S2x65536x16, .f32⟩ : BufTy).Contents (Elt F) → (⟨S2x65536x1x16, .f32⟩ : BufTy).Contents (Elt F)) (R V main_v63))
    ∧ (R V main_v65 = (broadcastInDim S2x65536x16x16 ![0, 1, 2, 3] bcast_S2x65536x1x16_S2x65536x16x16_0_1_2_3 : (⟨S2x65536x1x16, .f32⟩ : BufTy).Contents (Elt F) → (⟨S2x65536x16x16, .f32⟩ : BufTy).Contents (Elt F)) (R V main_v64))
    ∧ (R V main_v66 = (Host.divf : (⟨S2x65536x16x16, .f32⟩ : BufTy).Contents (Elt F) → (⟨S2x65536x16x16, .f32⟩ : BufTy).Contents (Elt F) → (⟨S2x65536x16x16, .f32⟩ : BufTy).Contents (Elt F)) (R V main_v62) (R V main_v65))
    ∧ (R V main_v67 = (mulf : (⟨S2x65536x16x16, .f32⟩ : BufTy).Contents (Elt F) → (⟨S2x65536x16x16, .f32⟩ : BufTy).Contents (Elt F) → (⟨S2x65536x16x16, .f32⟩ : BufTy).Contents (Elt F)) (R V main_v66) (R V main_v54))
    ∧ (R V main_cst_6 = (constant S_ .f32 0x00000000#32))
    ∧ (R V main_v68 = ((fun x v => Host.reduceAdd x v reducesTo_S2x65536x16x16_S2x65536x16_d2 h_S_) : (⟨S2x65536x16x16, .f32⟩ : BufTy).Contents (Elt F) → (⟨S_, .f32⟩ : BufTy).Contents (Elt F) → (⟨S2x65536x16, .f32⟩ : BufTy).Contents (Elt F)) (R V main_v67) (R V main_cst_6))
    ∧ (R V main_v69 = ((fun l r => Host.dotGeneral dot_S2x65536x16_S8x16_S2x65536x8_2_1_01_0_n_n none l r) : (⟨S2x65536x16, .f32⟩ : BufTy).Contents (Elt F) → (⟨S8x16, .f32⟩ : BufTy).Contents (Elt F) → (⟨S2x65536x8, .f32⟩ : BufTy).Contents (Elt F)) (R V main_v68) (R V main_arg16))
    ∧ (R V main_v70 = (broadcastInDim S1x1x8 ![2] bcast_S8_S1x1x8_2 : (⟨S8, .f32⟩ : BufTy).Contents (Elt F) → (⟨S1x1x8, .f32⟩ : BufTy).Contents (Elt F)) (R V main_arg17))
    ∧ (R V main_v71 = (broadcastInDim S2x65536x8 ![0, 1, 2] bcast_S1x1x8_S2x65536x8_0_1_2 : (⟨S1x1x8, .f32⟩ : BufTy).Contents (Elt F) → (⟨S2x65536x8, .f32⟩ : BufTy).Contents (Elt F)) (R V main_v70))
    ∧ (R V main_v72 = (addf : (⟨S2x65536x8, .f32⟩ : BufTy).Contents (Elt F) → (⟨S2x65536x8, .f32⟩ : BufTy).Contents (Elt F) → (⟨S2x65536x8, .f32⟩ : BufTy).Contents (Elt F)) (R V main_v69) (R V main_v71))
    ∧ (R V main_v73 = (broadcastInDim S1x1x8 ![2] bcast_S8_S1x1x8_2 : (⟨S8, .f32⟩ : BufTy).Contents (Elt F) → (⟨S1x1x8, .f32⟩ : BufTy).Contents (Elt F)) (R V main_arg18))
    ∧ (R V main_v74 = (broadcastInDim S2x65536x8 ![0, 1, 2] bcast_S1x1x8_S2x65536x8_0_1_2 : (⟨S1x1x8, .f32⟩ : BufTy).Contents (Elt F) → (⟨S2x65536x8, .f32⟩ : BufTy).Contents (Elt F)) (R V main_v73))
    ∧ (R V main_v75 = (mulf : (⟨S2x65536x8, .f32⟩ : BufTy).Contents (Elt F) → (⟨S2x65536x8, .f32⟩ : BufTy).Contents (Elt F) → (⟨S2x65536x8, .f32⟩ : BufTy).Contents (Elt F)) (R V main_v72) (R V main_v74))
    ∧ (R V main_v76 = (broadcastInDim S1x1x8 ![2] bcast_S8_S1x1x8_2 : (⟨S8, .f32⟩ : BufTy).Contents (Elt F) → (⟨S1x1x8, .f32⟩ : BufTy).Contents (Elt F)) (R V main_arg19))
    ∧ (R V main_v77 = (broadcastInDim S2x65536x8 ![0, 1, 2] bcast_S1x1x8_S2x65536x8_0_1_2 : (⟨S1x1x8, .f32⟩ : BufTy).Contents (Elt F) → (⟨S2x65536x8, .f32⟩ : BufTy).Contents (Elt F)) (R V main_v76))
    ∧ (R V main_v78 = (addf : (⟨S2x65536x8, .f32⟩ : BufTy).Contents (Elt F) → (⟨S2x65536x8, .f32⟩ : BufTy).Contents (Elt F) → (⟨S2x65536x8, .f32⟩ : BufTy).Contents (Elt F)) (R V main_v75) (R V main_v77))
    ∧ (R V main_call3_cst = (constant S_ .f32 0x00000000#32))
    ∧ (R V main_call3_v0 = (broadcastInDim S2x65536x8 ![] bcast_S_S2x65536x8 : (⟨S_, .f32⟩ : BufTy).Contents (Elt F) → (⟨S2x65536x8, .f32⟩ : BufTy).Contents (Elt F)) (R V main_call3_cst))
    ∧ (R V main_v79 = (maximumf : (⟨S2x65536x8, .f32⟩ : BufTy).Contents (Elt F) → (⟨S2x65536x8, .f32⟩ : BufTy).Contents (Elt F) → (⟨S2x65536x8, .f32⟩ : BufTy).Contents (Elt F)) (R V main_v78) (R V main_call3_v0))
    ∧ (R V main_v80 = ((fun l r => Host.dotGeneral dot_S2x65536x8_S8x8_S2x65536x8_2_1_01_0_n_n none l r) : (⟨S2x65536x8, .f32⟩ : BufTy).Contents (Elt F) → (⟨S8x8, .f32⟩ : BufTy).Contents (Elt F) → (⟨S2x65536x8, .f32⟩ : BufTy).Contents (Elt F)) (R V main_v79) (R V main_arg20))
    ∧ (R V main_v81 = (broadcastInDim S1x1x8 ![2] bcast_S8_S1x1x8_2 : (⟨S8, .f32⟩ : BufTy).Contents (Elt F) → (⟨S1x1x8, .f32⟩ : BufTy).Contents (Elt F)) (R V main_arg21))
    ∧ (R V main_v82 = (broadcastInDim S2x65536x8 ![0, 1, 2] bcast_S1x1x8_S2x65536x8_0_1_2 : (⟨S1x1x8, .f32⟩ : BufTy).Contents (Elt F) → (⟨S2x65536x8, .f32⟩ : BufTy).Contents (Elt F)) (R V main_v81))
    ∧ (R V main_v83 = (addf : (⟨S2x65536x8, .f32⟩ : BufTy).Contents (Elt F) → (⟨S2x65536x8, .f32⟩ : BufTy).Contents (Elt F) → (⟨S2x65536x8, .f32⟩ : BufTy).Contents (Elt F)) (R V main_v80) (R V main_v82))
    ∧ (R V main_v84 = ((fun l r => Host.dotGeneral dot_S2x65536x8_S32x8_S2x65536x32_2_1_01_0_n_n none l r) : (⟨S2x65536x8, .f32⟩ : BufTy).Contents (Elt F) → (⟨S32x8, .f32⟩ : BufTy).Contents (Elt F) → (⟨S2x65536x32, .f32⟩ : BufTy).Contents (Elt F)) (R V main_v83) (R V main_arg22))
    ∧ (R V main_v85 = (broadcastInDim S1x1x32 ![2] bcast_S32_S1x1x32_2 : (⟨S32, .f32⟩ : BufTy).Contents (Elt F) → (⟨S1x1x32, .f32⟩ : BufTy).Contents (Elt F)) (R V main_arg23))
    ∧ (R V main_v86 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v85))
    ∧ (R V main_v87 = (addf : (⟨S2x65536x32, .f32⟩ : BufTy).Contents (Elt F) → (⟨S2x65536x32, .f32⟩ : BufTy).Contents (Elt F) → (⟨S2x65536x32, .f32⟩ : BufTy).Contents (Elt F)) (R V main_v84) (R V main_v86))
    ∧ (R V main_v88 = (broadcastInDim S1x1x32 ![2] bcast_S32_S1x1x32_2 : (⟨S32, .f32⟩ : BufTy).Contents (Elt F) → (⟨S1x1x32, .f32⟩ : BufTy).Contents (Elt F)) (R V main_arg24))
    ∧ (R V main_v89 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v88))
    ∧ (R V main_v90 = (mulf : (⟨S2x65536x32, .f32⟩ : BufTy).Contents (Elt F) → (⟨S2x65536x32, .f32⟩ : BufTy).Contents (Elt F) → (⟨S2x65536x32, .f32⟩ : BufTy).Contents (Elt F)) (R V main_v87) (R V main_v89))
    ∧ (R V main_v91 = (broadcastInDim S1x1x32 ![2] bcast_S32_S1x1x32_2 : (⟨S32, .f32⟩ : BufTy).Contents (Elt F) → (⟨S1x1x32, .f32⟩ : BufTy).Contents (Elt F)) (R V main_arg25))
    ∧ (R V main_v92 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v91))
    ∧ (R V main_v93 = (addf : (⟨S2x65536x32, .f32⟩ : BufTy).Contents (Elt F) → (⟨S2x65536x32, .f32⟩ : BufTy).Contents (Elt F) → (⟨S2x65536x32, .f32⟩ : BufTy).Contents (Elt F)) (R V main_v90) (R V main_v92))
    ∧ (R V main_v94 = (broadcastInDim S2x65536x1x8 ![0, 1, 3] bcast_S2x65536x8_S2x65536x1x8_0_1_3 : (⟨S2x65536x8, .f32⟩ : BufTy).Contents (Elt F) → (⟨S2x65536x1x8, .f32⟩ : BufTy).Contents (Elt F)) (R V main_v83))
    ∧ (R V main_v95 = (broadcastInDim S2x65536x16x8 ![0, 1, 2, 3] bcast_S2x65536x1x8_S2x65536x16x8_0_1_2_3 : (⟨S2x65536x1x8, .f32⟩ : BufTy).Contents (Elt F) → (⟨S2x65536x16x8, .f32⟩ : BufTy).Contents (Elt F)) (R V main_v94))
    ∧ (R V main_v96 = ((fun a b => concatenate S2x65536x16x16 3 [⟨S2x65536x16x8, a⟩, ⟨S2x65536x16x8, b⟩] concatenates_S2x65536x16x8_S2x65536x16x8_S2x65536x16x16_d3) : (⟨S2x65536x16x8, .f32⟩ : BufTy).Contents (Elt F) → (⟨S2x65536x16x8, .f32⟩ : BufTy).Contents (Elt F) → (⟨S2x65536x16x16, .f32⟩ : BufTy).Contents (Elt F)) (R V main_v42) (R V main_v95))
    ∧ (R V main_v97 = ((fun l r => Host.dotGeneral dot_S2x65536x16x16_S16x16_S2x65536x16x16_3_1_012_0_n_n none l r) : (⟨S2x65536x16x16, .f32⟩ : BufTy).Contents (Elt F) → (⟨S16x16, .f32⟩ : BufTy).Contents (Elt F) → (⟨S2x65536x16x16, .f32⟩ : BufTy).Contents (Elt F)) (R V main_v96) (R V main_arg26))
    ∧ (R V main_cst_7 = (constant S_ .f32 0xFF800000#32))
    ∧ (R V main_v98 = ((fun x v => Host.reduce FloatOps.maximumf x v reducesTo_S2x65536x16x16_S2x65536x16_d2 h_S_) : (⟨S2x65536x16x16, .f32⟩ : BufTy).Contents (Elt F) → (⟨S_, .f32⟩ : BufTy).Contents (Elt F) → (⟨S2x65536x16, .f32⟩ : BufTy).Contents (Elt F)) (R V main_v97) (R V main_cst_7))
    ∧ (R V main_cst_8 = (constant S_ .f32 0xFF800000#32))
    ∧ (R V main_v99 = (broadcastInDim S2x65536x16 ![] bcast_S_S2x65536x16 : (⟨S_, .f32⟩ : BufTy).Contents (Elt F) → (⟨S2x65536x16, .f32⟩ : BufTy).Contents (Elt F)) (R V main_cst_8))
    ∧ (R V main_v100 = (maximumf : (⟨S2x65536x16, .f32⟩ : BufTy).Contents (Elt F) → (⟨S2x65536x16, .f32⟩ : BufTy).Contents (Elt F) → (⟨S2x65536x16, .f32⟩ : BufTy).Contents (Elt F)) (R V main_v99) (R V main_v98))
    ∧ (R V main_v101 = (broadcastInDim S2x65536x1x16 ![0, 1, 3] bcast_S2x65536x16_S2x65536x1x16_0_1_3 : (⟨S2x65536x16, .f32⟩ : BufTy).Contents (Elt F) → (⟨S2x65536x1x16, .f32⟩ : BufTy).Contents (Elt F)) (R V main_v100))
    ∧ (R V main_v102 = (broadcastInDim S2x65536x16x16 ![0, 1, 2, 3] bcast_S2x65536x1x16_S2x65536x16x16_0_1_2_3 : (⟨S2x65536x1x16, .f32⟩ : BufTy).Contents (Elt F) → (⟨S2x65536x16x16, .f32⟩ : BufTy).Contents (Elt F)) (R V main_v101))
    ∧ (R V main_v103 = (subf : (⟨S2x65536x16x16, .f32⟩ : BufTy).Contents (Elt F) → (⟨S2x65536x16x16, .f32⟩ : BufTy).Contents (Elt F) → (⟨S2x65536x16x16, .f32⟩ : BufTy).Contents (Elt F)) (R V main_v97) (R V main_v102))
    ∧ (R V main_v104 = (Host.exp : (⟨S2x65536x16x16, .f32⟩ : BufTy).Contents (Elt F) → (⟨S2x65536x16x16, .f32⟩ : BufTy).Contents (Elt F)) (R V main_v103))
    ∧ (R V main_cst_9 = (constant S_ .f32 0x00000000#32))
    ∧ (R V main_v105 = ((fun x v => Host.reduceAdd x v reducesTo_S2x65536x16x16_S2x65536x16_d2 h_S_) : (⟨S2x65536x16x16, .f32⟩ : BufTy).Contents (Elt F) → (⟨S_, .f32⟩ : BufTy).Contents (Elt F) → (⟨S2x65536x16, .f32⟩ : BufTy).Contents (Elt F)) (R V main_v104) (R V main_cst_9))
    ∧ (R V main_v106 = (broadcastInDim S2x65536x1x16 ![0, 1, 3] bcast_S2x65536x16_S2x65536x1x16_0_1_3 : (⟨S2x65536x16, .f32⟩ : BufTy).Contents (Elt F) → (⟨S2x65536x1x16, .f32⟩ : BufTy).Contents (Elt F)) (R V main_v105))
    ∧ (R V main_v107 = (broadcastInDim S2x65536x16x16 ![0, 1, 2, 3] bcast_S2x65536x1x16_S2x65536x16x16_0_1_2_3 : (⟨S2x65536x1x16, .f32⟩ : BufTy).Contents (Elt F) → (⟨S2x65536x16x16, .f32⟩ : BufTy).Contents (Elt F)) (R V main_v106)) := by
  have h := eqs1 V
  refine ⟨((eqs_binary _ _ _ _ _ _ _).mp h).1, ?_⟩
  have h := ((eqs_binary _ _ _ _ _ _ _).mp h).2
  refine ⟨((eqs_nullary _ _ _).mp h).1, ?_⟩
  have h := ((eqs_nullary _ _ _).mp h).2
  refine ⟨((eqs_binary _ _ _ _ _ _ _).mp h).1, ?_⟩
  have h := ((eqs_binary _ _ _ _ _ _ _).mp h).2
  refine ⟨((eqs_nullary _ _ _).mp h).1, ?_⟩
  have h := ((eqs_nullary _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_nullary _ _ _).mp h).1, ?_⟩
  have h := ((eqs_nullary _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_binary _ _ _ _ _ _ _).mp h).1, ?_⟩
  have h := ((eqs_binary _ _ _ _ _ _ _).mp h).2
  refine ⟨((eqs_nullary _ _ _).mp h).1, ?_⟩
  have h := ((eqs_nullary _ _ _).mp h).2
  refine ⟨((eqs_binary _ _ _ _ _ _ _).mp h).1, ?_⟩
  have h := ((eqs_binary _ _ _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_nullary _ _ _).mp h).1, ?_⟩
  have h := ((eqs_nullary _ _ _).mp h).2
  refine ⟨?_, ?_⟩
  · have e := ((eqs_unary _ _ _ _ _).mp h).1
    simp only [cast_eq] at e
    exact e
  have h := ((eqs_unary _ _ _ _ _).mp h).2
  refine ⟨?_, ?_⟩
  · have e := ((eqs_binary _ _ _ _ _ _ _).mp h).1
    simp only [cast_eq] at e
    exact e
  have h := ((eqs_binary _ _ _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_binary _ _ _ _ _ _ _).mp h).1, ?_⟩
  have h := ((eqs_binary _ _ _ _ _ _ _).mp h).2
  refine ⟨((eqs_nullary _ _ _).mp h).1, ?_⟩
  have h := ((eqs_nullary _ _ _).mp h).2
  refine ⟨((eqs_binary _ _ _ _ _ _ _).mp h).1, ?_⟩
  have h := ((eqs_binary _ _ _ _ _ _ _).mp h).2
  refine ⟨((eqs_nullary _ _ _).mp h).1, ?_⟩
  have h := ((eqs_nullary _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_nullary _ _ _).mp h).1, ?_⟩
  have h := ((eqs_nullary _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  exact ((eqs_unary _ _ _ _ _).mp h).1

theorem line_v55 (V : Valuation τ sig (Elt F)) : R V main_v55 = ((fun l r => Host.dotGeneral dot_S2x65536x16x16_S16x16_S2x65536x16x16_3_1_012_0_n_n none l r) : (⟨S2x65536x16x16, .f32⟩ : BufTy).Contents (Elt F) → (⟨S16x16, .f32⟩ : BufTy).Contents (Elt F) → (⟨S2x65536x16x16, .f32⟩ : BufTy).Contents (Elt F)) (R V main_v54) (R V main_arg15) := (lines1 V).1
theorem line_cst_3 (V : Valuation τ sig (Elt F)) : R V main_cst_3 = (constant S_ .f32 0xFF800000#32) := (lines1 V).2.1
theorem line_v56 (V : Valuation τ sig (Elt F)) : R V main_v56 = ((fun x v => Host.reduce FloatOps.maximumf x v reducesTo_S2x65536x16x16_S2x65536x16_d2 h_S_) : (⟨S2x65536x16x16, .f32⟩ : BufTy).Contents (Elt F) → (⟨S_, .f32⟩ : BufTy).Contents (Elt F) → (⟨S2x65536x16, .f32⟩ : BufTy).Contents (Elt F)) (R V main_v55) (R V main_cst_3) := (lines1 V).2.2.1
theorem line_cst_4 (V : Valuation τ sig (Elt F)) : R V main_cst_4 = (constant S_ .f32 0xFF800000#32) := (lines1 V).2.2.2.1
theorem line_v57 (V : Valuation τ sig (Elt F)) : R V main_v57 = (broadcastInDim S2x65536x16 ![] bcast_S_S2x65536x16 : (⟨S_, .f32⟩ : BufTy).Contents (Elt F) → (⟨S2x65536x16, .f32⟩ : BufTy).Contents (Elt F)) (R V main_cst_4) := (lines1 V).2.2.2.2.1
theorem line_v58 (V : Valuation τ sig (Elt F)) : R V main_v58 = (maximumf : (⟨S2x65536x16, .f32⟩ : BufTy).Contents (Elt F) → (⟨S2x65536x16, .f32⟩ : BufTy).Contents (Elt F) → (⟨S2x65536x16, .f32⟩ : BufTy).Contents (Elt F)) (R V main_v57) (R V main_v56) := (lines1 V).2.2.2.2.2.1
theorem line_v59 (V : Valuation τ sig (Elt F)) : R V main_v59 = (broadcastInDim S2x65536x1x16 ![0, 1, 3] bcast_S2x65536x16_S2x65536x1x16_0_1_3 : (⟨S2x65536x16, .f32⟩ : BufTy).Contents (Elt F) → (⟨S2x65536x1x16, .f32⟩ : BufTy).Contents (Elt F)) (R V main_v58) := (lines1 V).2.2.2.2.2.2.1
theorem line_v60 (V : Valuation τ sig (Elt F)) : R V main_v60 = (broadcastInDim S2x65536x16x16 ![0, 1, 2, 3] bcast_S2x65536x1x16_S2x65536x16x16_0_1_2_3 : (⟨S2x65536x1x16, .f32⟩ : BufTy).Contents (Elt F) → (⟨S2x65536x16x16, .f32⟩ : BufTy).Contents (Elt F)) (R V main_v59) := (lines1 V).2.2.2.2.2.2.2.1
theorem line_v61 (V : Valuation τ sig (Elt F)) : R V main_v61 = (subf : (⟨S2x65536x16x16, .f32⟩ : BufTy).Contents (Elt F) → (⟨S2x65536x16x16, .f32⟩ : BufTy).Contents (Elt F) → (⟨S2x65536x16x16, .f32⟩ : BufTy).Contents (Elt F)) (R V main_v55) (R V main_v60) := (lines1 V).2.2.2.2.2.2.2.2.1
theorem line_v62 (V : Valuation τ sig (Elt F)) : R V main_v62 = (Host.exp : (⟨S2x65536x16x16, .f32⟩ : BufTy).Contents (Elt F) → (⟨S2x65536x16x16, .f32⟩ : BufTy).Contents (Elt F)) (R V main_v61) := (lines1 V).2.2.2.2.2.2.2.2.2.1
theorem line_cst_5 (V : Valuation τ sig (Elt F)) : R V main_cst_5 = (constant S_ .f32 0x00000000#32) := (lines1 V).2.2.2.2.2.2.2.2.2.2.1
theorem line_v63 (V : Valuation τ sig (Elt F)) : R V main_v63 = ((fun x v => Host.reduceAdd x v reducesTo_S2x65536x16x16_S2x65536x16_d2 h_S_) : (⟨S2x65536x16x16, .f32⟩ : BufTy).Contents (Elt F) → (⟨S_, .f32⟩ : BufTy).Contents (Elt F) → (⟨S2x65536x16, .f32⟩ : BufTy).Contents (Elt F)) (R V main_v62) (R V main_cst_5) := (lines1 V).2.2.2.2.2.2.2.2.2.2.2.1
theorem line_v64 (V : Valuation τ sig (Elt F)) : R V main_v64 = (broadcastInDim S2x65536x1x16 ![0, 1, 3] bcast_S2x65536x16_S2x65536x1x16_0_1_3 : (⟨S2x65536x16, .f32⟩ : BufTy).Contents (Elt F) → (⟨S2x65536x1x16, .f32⟩ : BufTy).Contents (Elt F)) (R V main_v63) := (lines1 V).2.2.2.2.2.2.2.2.2.2.2.2.1
theorem line_v65 (V : Valuation τ sig (Elt F)) : R V main_v65 = (broadcastInDim S2x65536x16x16 ![0, 1, 2, 3] bcast_S2x65536x1x16_S2x65536x16x16_0_1_2_3 : (⟨S2x65536x1x16, .f32⟩ : BufTy).Contents (Elt F) → (⟨S2x65536x16x16, .f32⟩ : BufTy).Contents (Elt F)) (R V main_v64) := (lines1 V).2.2.2.2.2.2.2.2.2.2.2.2.2.1
theorem line_v66 (V : Valuation τ sig (Elt F)) : R V main_v66 = (Host.divf : (⟨S2x65536x16x16, .f32⟩ : BufTy).Contents (Elt F) → (⟨S2x65536x16x16, .f32⟩ : BufTy).Contents (Elt F) → (⟨S2x65536x16x16, .f32⟩ : BufTy).Contents (Elt F)) (R V main_v62) (R V main_v65) := (lines1 V).2.2.2.2.2.2.2.2.2.2.2.2.2.2.1
theorem line_v67 (V : Valuation τ sig (Elt F)) : R V main_v67 = (mulf : (⟨S2x65536x16x16, .f32⟩ : BufTy).Contents (Elt F) → (⟨S2x65536x16x16, .f32⟩ : BufTy).Contents (Elt F) → (⟨S2x65536x16x16, .f32⟩ : BufTy).Contents (Elt F)) (R V main_v66) (R V main_v54) := (lines1 V).2.2.2.2.2.2.2.2.2.2.2.2.2.2.2.1
theorem line_cst_6 (V : Valuation τ sig (Elt F)) : R V main_cst_6 = (constant S_ .f32 0x00000000#32) := (lines1 V).2.2.2.2.2.2.2.2.2.2.2.2.2.2.2.2.1
theorem line_v68 (V : Valuation τ sig (Elt F)) : R V main_v68 = ((fun x v => Host.reduceAdd x v reducesTo_S2x65536x16x16_S2x65536x16_d2 h_S_) : (⟨S2x65536x16x16, .f32⟩ : BufTy).Contents (Elt F) → (⟨S_, .f32⟩ : BufTy).Contents (Elt F) → (⟨S2x65536x16, .f32⟩ : BufTy).Contents (Elt F)) (R V main_v67) (R V main_cst_6) := (lines1 V).2.2.2.2.2.2.2.2.2.2.2.2.2.2.2.2.2.1
theorem line_v69 (V : Valuation τ sig (Elt F)) : R V main_v69 = ((fun l r => Host.dotGeneral dot_S2x65536x16_S8x16_S2x65536x8_2_1_01_0_n_n none l r) : (⟨S2x65536x16, .f32⟩ : BufTy).Contents (Elt F) → (⟨S8x16, .f32⟩ : BufTy).Contents (Elt F) → (⟨S2x65536x8, .f32⟩ : BufTy).Contents (Elt F)) (R V main_v68) (R V main_arg16) := (lines1 V).2.2.2.2.2.2.2.2.2.2.2.2.2.2.2.2.2.2.1
theorem line_v70 (V : Valuation τ sig (Elt F)) : R V main_v70 = (broadcastInDim S1x1x8 ![2] bcast_S8_S1x1x8_2 : (⟨S8, .f32⟩ : BufTy).Contents (Elt F) → (⟨S1x1x8, .f32⟩ : BufTy).Contents (Elt F)) (R V main_arg17) := (lines1 V).2.2.2.2.2.2.2.2.2.2.2.2.2.2.2.2.2.2.2.1
theorem line_v71 (V : Valuation τ sig (Elt F)) : R V main_v71 = (broadcastInDim S2x65536x8 ![0, 1, 2] bcast_S1x1x8_S2x65536x8_0_1_2 : (⟨S1x1x8, .f32⟩ : BufTy).Contents (Elt F) → (⟨S2x65536x8, .f32⟩ : BufTy).Contents (Elt F)) (R V main_v70) := (lines1 V).2.2.2.2.2.2.2.2.2.2.2.2.2.2.2.2.2.2.2.2.1
theorem line_v72 (V : Valuation τ sig (Elt F)) : R V main_v72 = (addf : (⟨S2x65536x8, .f32⟩ : BufTy).Contents (Elt F) → (⟨S2x65536x8, .f32⟩ : BufTy).Contents (Elt F) → (⟨S2x65536x8, .f32⟩ : BufTy).Contents (Elt F)) (R V main_v69) (R V main_v71) := (lines1 V).2.2.2.2.2.2.2.2.2.2.2.2.2.2.2.2.2.2.2.2.2.1
theorem line_v73 (V : Valuation τ sig (Elt F)) : R V main_v73 = (broadcastInDim S1x1x8 ![2] bcast_S8_S1x1x8_2 : (⟨S8, .f32⟩ : BufTy).Contents (Elt F) → (⟨S1x1x8, .f32⟩ : BufTy).Contents (Elt F)) (R V main_arg18) := (lines1 V).2.2.2.2.2.2.2.2.2.2.2.2.2.2.2.2.2.2.2.2.2.2.1
theorem line_v74 (V : Valuation τ sig (Elt F)) : R V main_v74 = (broadcastInDim S2x65536x8 ![0, 1, 2] bcast_S1x1x8_S2x65536x8_0_1_2 : (⟨S1x1x8, .f32⟩ : BufTy).Contents (Elt F) → (⟨S2x65536x8, .f32⟩ : BufTy).Contents (Elt F)) (R V main_v73) := (lines1 V).2.2.2.2.2.2.2.2.2.2.2.2.2.2.2.2.2.2.2.2.2.2.2.1
theorem line_v75 (V : Valuation τ sig (Elt F)) : R V main_v75 = (mulf : (⟨S2x65536x8, .f32⟩ : BufTy).Contents (Elt F) → (⟨S2x65536x8, .f32⟩ : BufTy).Contents (Elt F) → (⟨S2x65536x8, .f32⟩ : BufTy).Contents (Elt F)) (R V main_v72) (R V main_v74) := (lines1 V).2.2.2.2.2.2.2.2.2.2.2.2.2.2.2.2.2.2.2.2.2.2.2.2.1
theorem line_v76 (V : Valuation τ sig (Elt F)) : R V main_v76 = (broadcastInDim S1x1x8 ![2] bcast_S8_S1x1x8_2 : (⟨S8, .f32⟩ : BufTy).Contents (Elt F) → (⟨S1x1x8, .f32⟩ : BufTy).Contents (Elt F)) (R V main_arg19) := (lines1 V).2.2.2.2.2.2.2.2.2.2.2.2.2.2.2.2.2.2.2.2.2.2.2.2.2.1
theorem line_v77 (V : Valuation τ sig (Elt F)) : R V main_v77 = (broadcastInDim S2x65536x8 ![0, 1, 2] bcast_S1x1x8_S2x65536x8_0_1_2 : (⟨S1x1x8, .f32⟩ : BufTy).Contents (Elt F) → (⟨S2x65536x8, .f32⟩ : BufTy).Contents (Elt F)) (R V main_v76) := (lines1 V).2.2.2.2.2.2.2.2.2.2.2.2.2.2.2.2.2.2.2.2.2.2.2.2.2.2.1
theorem line_v78 (V : Valuation τ sig (Elt F)) : R V main_v78 = (addf : (⟨S2x65536x8, .f32⟩ : BufTy).Contents (Elt F) → (⟨S2x65536x8, .f32⟩ : BufTy).Contents (Elt F) → (⟨S2x65536x8, .f32⟩ : BufTy).Contents (Elt F)) (R V main_v75) (R V main_v77) := (lines1 V).2.2.2.2.2.2.2.2.2.2.2.2.2.2.2.2.2.2.2.2.2.2.2.2.2.2.2.1
theorem line_call3_cst (V : Valuation τ sig (Elt F)) : R V main_call3_cst = (constant S_ .f32 0x00000000#32) := (lines1 V).2.2.2.2.2.2.2.2.2.2.2.2.2.2.2.2.2.2.2.2.2.2.2.2.2.2.2.2.1
theorem line_call3_v0 (V : Valuation τ sig (Elt F)) : R V main_call3_v0 = (broadcastInDim S2x65536x8 ![] bcast_S_S2x65536x8 : (⟨S_, .f32⟩ : BufTy).Contents (Elt F) → (⟨S2x65536x8, .f32⟩ : BufTy).Contents (Elt F)) (R V main_call3_cst) := (lines1 V).2.2.2.2.2.2.2.2.2.2.2.2.2.2.2.2.2.2.2.2.2.2.2.2.2.2.2.2.2.1
theorem line_v79 (V : Valuation τ sig (Elt F)) : R V main_v79 = (maximumf : (⟨S2x65536x8, .f32⟩ : BufTy).Contents (Elt F) → (⟨S2x65536x8, .f32⟩ : BufTy).Contents (Elt F) → (⟨S2x65536x8, .f32⟩ : BufTy).Contents (Elt F)) (R V main_v78) (R V main_call3_v0) := (lines1 V).2.2.2.2.2.2.2.2.2.2.2.2.2.2.2.2.2.2.2.2.2.2.2.2.2.2.2.2.2.2.1
theorem line_v80 (V : Valuation τ sig (Elt F)) : R V main_v80 = ((fun l r => Host.dotGeneral dot_S2x65536x8_S8x8_S2x65536x8_2_1_01_0_n_n none l r) : (⟨S2x65536x8, .f32⟩ : BufTy).Contents (Elt F) → (⟨S8x8, .f32⟩ : BufTy).Contents (Elt F) → (⟨S2x65536x8, .f32⟩ : BufTy).Contents (Elt F)) (R V main_v79) (R V main_arg20) := (lines1 V).2.2.2.2.2.2.2.2.2.2.2.2.2.2.2.2.2.2.2.2.2.2.2.2.2.2.2.2.2.2.2.1
theorem line_v81 (V : Valuation τ sig (Elt F)) : R V main_v81 = (broadcastInDim S1x1x8 ![2] bcast_S8_S1x1x8_2 : (⟨S8, .f32⟩ : BufTy).Contents (Elt F) → (⟨S1x1x8, .f32⟩ : BufTy).Contents (Elt F)) (R V main_arg21) := (lines1 V).2.2.2.2.2.2.2.2.2.2.2.2.2.2.2.2.2.2.2.2.2.2.2.2.2.2.2.2.2.2.2.2.1
theorem line_v82 (V : Valuation τ sig (Elt F)) : R V main_v82 = (broadcastInDim S2x65536x8 ![0, 1, 2] bcast_S1x1x8_S2x65536x8_0_1_2 : (⟨S1x1x8, .f32⟩ : BufTy).Contents (Elt F) → (⟨S2x65536x8, .f32⟩ : BufTy).Contents (Elt F)) (R V main_v81) := (lines1 V).2.2.2.2.2.2.2.2.2.2.2.2.2.2.2.2.2.2.2.2.2.2.2.2.2.2.2.2.2.2.2.2.2.1
theorem line_v83 (V : Valuation τ sig (Elt F)) : R V main_v83 = (addf : (⟨S2x65536x8, .f32⟩ : BufTy).Contents (Elt F) → (⟨S2x65536x8, .f32⟩ : BufTy).Contents (Elt F) → (⟨S2x65536x8, .f32⟩ : BufTy).Contents (Elt F)) (R V main_v80) (R V main_v82) := (lines1 V).2.2.2.2.2.2.2.2.2.2.2.2.2.2.2.2.2.2.2.2.2.2.2.2.2.2.2.2.2.2.2.2.2.2.1
theorem line_v84 (V : Valuation τ sig (Elt F)) : R V main_v84 = ((fun l r => Host.dotGeneral dot_S2x65536x8_S32x8_S2x65536x32_2_1_01_0_n_n none l r) : (⟨S2x65536x8, .f32⟩ : BufTy).Contents (Elt F) → (⟨S32x8, .f32⟩ : BufTy).Contents (Elt F) → (⟨S2x65536x32, .f32⟩ : BufTy).Contents (Elt F)) (R V main_v83) (R V main_arg22) := (lines1 V).2.2.2.2.2.2.2.2.2.2.2.2.2.2.2.2.2.2.2.2.2.2.2.2.2.2.2.2.2.2.2.2.2.2.2.1
theorem line_v85 (V : Valuation τ sig (Elt F)) : R V main_v85 = (broadcastInDim S1x1x32 ![2] bcast_S32_S1x1x32_2 : (⟨S32, .f32⟩ : BufTy).Contents (Elt F) → (⟨S1x1x32, .f32⟩ : BufTy).Contents (Elt F)) (R V main_arg23) := (lines1 V).2.2.2.2.2.2.2.2.2.2.2.2.2.2.2.2.2.2.2.2.2.2.2.2.2.2.2.2.2.2.2.2.2.2.2.2.1
theorem line_v86 (V : Valuation τ sig (Elt F)) : R V main_v86 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v85) := (lines1 V).2.2.2.2.2.2.2.2.2.2.2.2.2.2.2.2.2.2.2.2.2.2.2.2.2.2.2.2.2.2.2.2.2.2.2.2.2.1
theorem line_v87 (V : Valuation τ sig (Elt F)) : R V main_v87 = (addf : (⟨S2x65536x32, .f32⟩ : BufTy).Contents (Elt F) → (⟨S2x65536x32, .f32⟩ : BufTy).Contents (Elt F) → (⟨S2x65536x32, .f32⟩ : BufTy).Contents (Elt F)) (R V main_v84) (R V main_v86) := (lines1 V).2.2.2.2.2.2.2.2.2.2.2.2.2.2.2.2.2.2.2.2.2.2.2.2.2.2.2.2.2.2.2.2.2.2.2.2.2.2.1
theorem line_v88 (V : Valuation τ sig (Elt F)) : R V main_v88 = (broadcastInDim S1x1x32 ![2] bcast_S32_S1x1x32_2 : (⟨S32, .f32⟩ : BufTy).Contents (Elt F) → (⟨S1x1x32, .f32⟩ : BufTy).Contents (Elt F)) (R V main_arg24) := (lines1 V).2.2.2.2.2.2.2.2.2.2.2.2.2.2.2.2.2.2.2.2.2.2.2.2.2.2.2.2.2.2.2.2.2.2.2.2.2.2.2.1
theorem line_v89 (V : Valuation τ sig (Elt F)) : R V main_v89 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v88) := (lines1 V).2.2.2.2.2.2.2.2.2.2.2.2.2.2.2.2.2.2.2.2.2.2.2.2.2.2.2.2.2.2.2.2.2.2.2.2.2.2.2.2.1
theorem line_v90 (V : Valuation τ sig (Elt F)) : R V main_v90 = (mulf : (⟨S2x65536x32, .f32⟩ : BufTy).Contents (Elt F) → (⟨S2x65536x32, .f32⟩ : BufTy).Contents (Elt F) → (⟨S2x65536x32, .f32⟩ : BufTy).Contents (Elt F)) (R V main_v87) (R V main_v89) := (lines1 V).2.2.2.2.2.2.2.2.2.2.2.2.2.2.2.2.2.2.2.2.2.2.2.2.2.2.2.2.2.2.2.2.2.2.2.2.2.2.2.2.2.1
theorem line_v91 (V : Valuation τ sig (Elt F)) : R V main_v91 = (broadcastInDim S1x1x32 ![2] bcast_S32_S1x1x32_2 : (⟨S32, .f32⟩ : BufTy).Contents (Elt F) → (⟨S1x1x32, .f32⟩ : BufTy).Contents (Elt F)) (R V main_arg25) := (lines1 V).2.2.2.2.2.2.2.2.2.2.2.2.2.2.2.2.2.2.2.2.2.2.2.2.2.2.2.2.2.2.2.2.2.2.2.2.2.2.2.2.2.2.1
theorem line_v92 (V : Valuation τ sig (Elt F)) : R V main_v92 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v91) := (lines1 V).2.2.2.2.2.2.2.2.2.2.2.2.2.2.2.2.2.2.2.2.2.2.2.2.2.2.2.2.2.2.2.2.2.2.2.2.2.2.2.2.2.2.2.1
theorem line_v93 (V : Valuation τ sig (Elt F)) : R V main_v93 = (addf : (⟨S2x65536x32, .f32⟩ : BufTy).Contents (Elt F) → (⟨S2x65536x32, .f32⟩ : BufTy).Contents (Elt F) → (⟨S2x65536x32, .f32⟩ : BufTy).Contents (Elt F)) (R V main_v90) (R V main_v92) := (lines1 V).2.2.2.2.2.2.2.2.2.2.2.2.2.2.2.2.2.2.2.2.2.2.2.2.2.2.2.2.2.2.2.2.2.2.2.2.2.2.2.2.2.2.2.2.1
theorem line_v94 (V : Valuation τ sig (Elt F)) : R V main_v94 = (broadcastInDim S2x65536x1x8 ![0, 1, 3] bcast_S2x65536x8_S2x65536x1x8_0_1_3 : (⟨S2x65536x8, .f32⟩ : BufTy).Contents (Elt F) → (⟨S2x65536x1x8, .f32⟩ : BufTy).Contents (Elt F)) (R V main_v83) := (lines1 V).2.2.2.2.2.2.2.2.2.2.2.2.2.2.2.2.2.2.2.2.2.2.2.2.2.2.2.2.2.2.2.2.2.2.2.2.2.2.2.2.2.2.2.2.2.1
theorem line_v95 (V : Valuation τ sig (Elt F)) : R V main_v95 = (broadcastInDim S2x65536x16x8 ![0, 1, 2, 3] bcast_S2x65536x1x8_S2x65536x16x8_0_1_2_3 : (⟨S2x65536x1x8, .f32⟩ : BufTy).Contents (Elt F) → (⟨S2x65536x16x8, .f32⟩ : BufTy).Contents (Elt F)) (R V main_v94) := (lines1 V).2.2.2.2.2.2.2.2.2.2.2.2.2.2.2.2.2.2.2.2.2.2.2.2.2.2.2.2.2.2.2.2.2.2.2.2.2.2.2.2.2.2.2.2.2.2.1
theorem line_v96 (V : Valuation τ sig (Elt F)) : R V main_v96 = ((fun a b => concatenate S2x65536x16x16 3 [⟨S2x65536x16x8, a⟩, ⟨S2x65536x16x8, b⟩] concatenates_S2x65536x16x8_S2x65536x16x8_S2x65536x16x16_d3) : (⟨S2x65536x16x8, .f32⟩ : BufTy).Contents (Elt F) → (⟨S2x65536x16x8, .f32⟩ : BufTy).Contents (Elt F) → (⟨S2x65536x16x16, .f32⟩ : BufTy).Contents (Elt F)) (R V main_v42) (R V main_v95) := (lines1 V).2.2.2.2.2.2.2.2.2.2.2.2.2.2.2.2.2.2.2.2.2.2.2.2.2.2.2.2.2.2.2.2.2.2.2.2.2.2.2.2.2.2.2.2.2.2.2.1
theorem line_v97 (V : Valuation τ sig (Elt F)) : R V main_v97 = ((fun l r => Host.dotGeneral dot_S2x65536x16x16_S16x16_S2x65536x16x16_3_1_012_0_n_n none l r) : (⟨S2x65536x16x16, .f32⟩ : BufTy).Contents (Elt F) → (⟨S16x16, .f32⟩ : BufTy).Contents (Elt F) → (⟨S2x65536x16x16, .f32⟩ : BufTy).Contents (Elt F)) (R V main_v96) (R V main_arg26) := (lines1 V).2.2.2.2.2.2.2.2.2.2.2.2.2.2.2.2.2.2.2.2.2.2.2.2.2.2.2.2.2.2.2.2.2.2.2.2.2.2.2.2.2.2.2.2.2.2.2.2.1
theorem line_cst_7 (V : Valuation τ sig (Elt F)) : R V main_cst_7 = (constant S_ .f32 0xFF800000#32) := (lines1 V).2.2.2.2.2.2.2.2.2.2.2.2.2.2.2.2.2.2.2.2.2.2.2.2.2.2.2.2.2.2.2.2.2.2.2.2.2.2.2.2.2.2.2.2.2.2.2.2.2.1
theorem line_v98 (V : Valuation τ sig (Elt F)) : R V main_v98 = ((fun x v => Host.reduce FloatOps.maximumf x v reducesTo_S2x65536x16x16_S2x65536x16_d2 h_S_) : (⟨S2x65536x16x16, .f32⟩ : BufTy).Contents (Elt F) → (⟨S_, .f32⟩ : BufTy).Contents (Elt F) → (⟨S2x65536x16, .f32⟩ : BufTy).Contents (Elt F)) (R V main_v97) (R V main_cst_7) := (lines1 V).2.2.2.2.2.2.2.2.2.2.2.2.2.2.2.2.2.2.2.2.2.2.2.2.2.2.2.2.2.2.2.2.2.2.2.2.2.2.2.2.2.2.2.2.2.2.2.2.2.2.1
theorem line_cst_8 (V : Valuation τ sig (Elt F)) : R V main_cst_8 = (constant S_ .f32 0xFF800000#32) := (lines1 V).2.2.2.2.2.2.2.2.2.2.2.2.2.2.2.2.2.2.2.2.2.2.2.2.2.2.2.2.2.2.2.2.2.2.2.2.2.2.2.2.2.2.2.2.2.2.2.2.2.2.2.1
theorem line_v99 (V : Valuation τ sig (Elt F)) : R V main_v99 = (broadcastInDim S2x65536x16 ![] bcast_S_S2x65536x16 : (⟨S_, .f32⟩ : BufTy).Contents (Elt F) → (⟨S2x65536x16, .f32⟩ : BufTy).Contents (Elt F)) (R V main_cst_8) := (lines1 V).2.2.2.2.2.2.2.2.2.2.2.2.2.2.2.2.2.2.2.2.2.2.2.2.2.2.2.2.2.2.2.2.2.2.2.2.2.2.2.2.2.2.2.2.2.2.2.2.2.2.2.2.1
theorem line_v100 (V : Valuation τ sig (Elt F)) : R V main_v100 = (maximumf : (⟨S2x65536x16, .f32⟩ : BufTy).Contents (Elt F) → (⟨S2x65536x16, .f32⟩ : BufTy).Contents (Elt F) → (⟨S2x65536x16, .f32⟩ : BufTy).Contents (Elt F)) (R V main_v99) (R V main_v98) := (lines1 V).2.2.2.2.2.2.2.2.2.2.2.2.2.2.2.2.2.2.2.2.2.2.2.2.2.2.2.2.2.2.2.2.2.2.2.2.2.2.2.2.2.2.2.2.2.2.2.2.2.2.2.2.2.1
theorem line_v101 (V : Valuation τ sig (Elt F)) : R V main_v101 = (broadcastInDim S2x65536x1x16 ![0, 1, 3] bcast_S2x65536x16_S2x65536x1x16_0_1_3 : (⟨S2x65536x16, .f32⟩ : BufTy).Contents (Elt F) → (⟨S2x65536x1x16, .f32⟩ : BufTy).Contents (Elt F)) (R V main_v100) := (lines1 V).2.2.2.2.2.2.2.2.2.2.2.2.2.2.2.2.2.2.2.2.2.2.2.2.2.2.2.2.2.2.2.2.2.2.2.2.2.2.2.2.2.2.2.2.2.2.2.2.2.2.2.2.2.2.1
theorem line_v102 (V : Valuation τ sig (Elt F)) : R V main_v102 = (broadcastInDim S2x65536x16x16 ![0, 1, 2, 3] bcast_S2x65536x1x16_S2x65536x16x16_0_1_2_3 : (⟨S2x65536x1x16, .f32⟩ : BufTy).Contents (Elt F) → (⟨S2x65536x16x16, .f32⟩ : BufTy).Contents (Elt F)) (R V main_v101) := (lines1 V).2.2.2.2.2.2.2.2.2.2.2.2.2.2.2.2.2.2.2.2.2.2.2.2.2.2.2.2.2.2.2.2.2.2.2.2.2.2.2.2.2.2.2.2.2.2.2.2.2.2.2.2.2.2.2.1
theorem line_v103 (V : Valuation τ sig (Elt F)) : R V main_v103 = (subf : (⟨S2x65536x16x16, .f32⟩ : BufTy).Contents (Elt F) → (⟨S2x65536x16x16, .f32⟩ : BufTy).Contents (Elt F) → (⟨S2x65536x16x16, .f32⟩ : BufTy).Contents (Elt F)) (R V main_v97) (R V main_v102) := (lines1 V).2.2.2.2.2.2.2.2.2.2.2.2.2.2.2.2.2.2.2.2.2.2.2.2.2.2.2.2.2.2.2.2.2.2.2.2.2.2.2.2.2.2.2.2.2.2.2.2.2.2.2.2.2.2.2.2.1
theorem line_v104 (V : Valuation τ sig (Elt F)) : R V main_v104 = (Host.exp : (⟨S2x65536x16x16, .f32⟩ : BufTy).Contents (Elt F) → (⟨S2x65536x16x16, .f32⟩ : BufTy).Contents (Elt F)) (R V main_v103) := (lines1 V).2.2.2.2.2.2.2.2.2.2.2.2.2.2.2.2.2.2.2.2.2.2.2.2.2.2.2.2.2.2.2.2.2.2.2.2.2.2.2.2.2.2.2.2.2.2.2.2.2.2.2.2.2.2.2.2.2.1
theorem line_cst_9 (V : Valuation τ sig (Elt F)) : R V main_cst_9 = (constant S_ .f32 0x00000000#32) := (lines1 V).2.2.2.2.2.2.2.2.2.2.2.2.2.2.2.2.2.2.2.2.2.2.2.2.2.2.2.2.2.2.2.2.2.2.2.2.2.2.2.2.2.2.2.2.2.2.2.2.2.2.2.2.2.2.2.2.2.2.1
theorem line_v105 (V : Valuation τ sig (Elt F)) : R V main_v105 = ((fun x v => Host.reduceAdd x v reducesTo_S2x65536x16x16_S2x65536x16_d2 h_S_) : (⟨S2x65536x16x16, .f32⟩ : BufTy).Contents (Elt F) → (⟨S_, .f32⟩ : BufTy).Contents (Elt F) → (⟨S2x65536x16, .f32⟩ : BufTy).Contents (Elt F)) (R V main_v104) (R V main_cst_9) := (lines1 V).2.2.2.2.2.2.2.2.2.2.2.2.2.2.2.2.2.2.2.2.2.2.2.2.2.2.2.2.2.2.2.2.2.2.2.2.2.2.2.2.2.2.2.2.2.2.2.2.2.2.2.2.2.2.2.2.2.2.2.1
theorem line_v106 (V : Valuation τ sig (Elt F)) : R V main_v106 = (broadcastInDim S2x65536x1x16 ![0, 1, 3] bcast_S2x65536x16_S2x65536x1x16_0_1_3 : (⟨S2x65536x16, .f32⟩ : BufTy).Contents (Elt F) → (⟨S2x65536x1x16, .f32⟩ : BufTy).Contents (Elt F)) (R V main_v105) := (lines1 V).2.2.2.2.2.2.2.2.2.2.2.2.2.2.2.2.2.2.2.2.2.2.2.2.2.2.2.2.2.2.2.2.2.2.2.2.2.2.2.2.2.2.2.2.2.2.2.2.2.2.2.2.2.2.2.2.2.2.2.2.1
theorem line_v107 (V : Valuation τ sig (Elt F)) : R V main_v107 = (broadcastInDim S2x65536x16x16 ![0, 1, 2, 3] bcast_S2x65536x1x16_S2x65536x16x16_0_1_2_3 : (⟨S2x65536x1x16, .f32⟩ : BufTy).Contents (Elt F) → (⟨S2x65536x16x16, .f32⟩ : BufTy).Contents (Elt F)) (R V main_v106) := (lines1 V).2.2.2.2.2.2.2.2.2.2.2.2.2.2.2.2.2.2.2.2.2.2.2.2.2.2.2.2.2.2.2.2.2.2.2.2.2.2.2.2.2.2.2.2.2.2.2.2.2.2.2.2.2.2.2.2.2.2.2.2.2

end Cert.RefRun

end
-- ==== Proof.RefLines2.lean ====
/-
  The reference's lines as equations between final contents, window 2 (62 operations). Every buffer the program
  writes is written by exactly one operation, and holds that operation's function of what the program leaves in its
  operands' buffers: the printed line, read as an equation. One theorem per operation, named after the buffer it
  writes; a callee's line is over the buffers the call names.
-/
import proofs.«138937_j6992206758069_2_alg».proof.Proof.RefR

noncomputable section

namespace Cert.RefRun

open Cert.ReferenceIdeal Cert.ReferenceIdeal.Facts₀ Cert.ReferenceIdeal.Facts Idealize.ShloMosaic Idealize.ShloMosaic.TcCoe Idealize.SL.Sem Idealize.ShloMosaic.StableHlo Cert.Ssa

variable {F : FTy → Type} [FloatOps F] [Cert.ReferenceIdeal.Facts]

set_option maxRecDepth 16384 in
set_option maxHeartbeats 4000000 in
/-- Window 2's lines, together: the fixed point's conjuncts peeled one by one (at a callee's line the transport of
    contents along the equality of a buffer's type with its value's type is the identity). -/
theorem lines2 (V : Valuation τ sig (Elt F)) :
    (R V main_v108 = (Host.divf : (⟨S2x65536x16x16, .f32⟩ : BufTy).Contents (Elt F) → (⟨S2x65536x16x16, .f32⟩ : BufTy).Contents (Elt F) → (⟨S2x65536x16x16, .f32⟩ : BufTy).Contents (Elt F)) (R V main_v104) (R V main_v107))
    ∧ (R V main_v109 = (mulf : (⟨S2x65536x16x16, .f32⟩ : BufTy).Contents (Elt F) → (⟨S2x65536x16x16, .f32⟩ : BufTy).Contents (Elt F) → (⟨S2x65536x16x16, .f32⟩ : BufTy).Contents (Elt F)) (R V main_v108) (R V main_v96))
    ∧ (R V main_cst_10 = (constant S_ .f32 0x00000000#32))
    ∧ (R V main_v110 = ((fun x v => Host.reduceAdd x v reducesTo_S2x65536x16x16_S2x65536x16_d2 h_S_) : (⟨S2x65536x16x16, .f32⟩ : BufTy).Contents (Elt F) → (⟨S_, .f32⟩ : BufTy).Contents (Elt F) → (⟨S2x65536x16, .f32⟩ : BufTy).Contents (Elt F)) (R V main_v109) (R V main_cst_10))
    ∧ (R V main_v111 = ((fun l r => Host.dotGeneral dot_S2x65536x16_S16x16_S2x65536x16_2_1_01_0_n_n none l r) : (⟨S2x65536x16, .f32⟩ : BufTy).Contents (Elt F) → (⟨S16x16, .f32⟩ : BufTy).Contents (Elt F) → (⟨S2x65536x16, .f32⟩ : BufTy).Contents (Elt F)) (R V main_v110) (R V main_arg27))
    ∧ (R V main_v112 = (broadcastInDim S1x1x16 ![2] bcast_S16_S1x1x16_2 : (⟨S16, .f32⟩ : BufTy).Contents (Elt F) → (⟨S1x1x16, .f32⟩ : BufTy).Contents (Elt F)) (R V main_arg28))
    ∧ (R V main_v113 = (broadcastInDim S2x65536x16 ![0, 1, 2] bcast_S1x1x16_S2x65536x16_0_1_2 : (⟨S1x1x16, .f32⟩ : BufTy).Contents (Elt F) → (⟨S2x65536x16, .f32⟩ : BufTy).Contents (Elt F)) (R V main_v112))
    ∧ (R V main_v114 = (addf : (⟨S2x65536x16, .f32⟩ : BufTy).Contents (Elt F) → (⟨S2x65536x16, .f32⟩ : BufTy).Contents (Elt F) → (⟨S2x65536x16, .f32⟩ : BufTy).Contents (Elt F)) (R V main_v111) (R V main_v113))
    ∧ (R V main_v115 = (broadcastInDim S1x1x16 ![2] bcast_S16_S1x1x16_2 : (⟨S16, .f32⟩ : BufTy).Contents (Elt F) → (⟨S1x1x16, .f32⟩ : BufTy).Contents (Elt F)) (R V main_arg29))
    ∧ (R V main_v116 = (broadcastInDim S2x65536x16 ![0, 1, 2] bcast_S1x1x16_S2x65536x16_0_1_2 : (⟨S1x1x16, .f32⟩ : BufTy).Contents (Elt F) → (⟨S2x65536x16, .f32⟩ : BufTy).Contents (Elt F)) (R V main_v115))
    ∧ (R V main_v117 = (mulf : (⟨S2x65536x16, .f32⟩ : BufTy).Contents (Elt F) → (⟨S2x65536x16, .f32⟩ : BufTy).Contents (Elt F) → (⟨S2x65536x16, .f32⟩ : BufTy).Contents (Elt F)) (R V main_v114) (R V main_v116))
    ∧ (R V main_v118 = (broadcastInDim S1x1x16 ![2] bcast_S16_S1x1x16_2 : (⟨S16, .f32⟩ : BufTy).Contents (Elt F) → (⟨S1x1x16, .f32⟩ : BufTy).Contents (Elt F)) (R V main_arg30))
    ∧ (R V main_v119 = (broadcastInDim S2x65536x16 ![0, 1, 2] bcast_S1x1x16_S2x65536x16_0_1_2 : (⟨S1x1x16, .f32⟩ : BufTy).Contents (Elt F) → (⟨S2x65536x16, .f32⟩ : BufTy).Contents (Elt F)) (R V main_v118))
    ∧ (R V main_v120 = (addf : (⟨S2x65536x16, .f32⟩ : BufTy).Contents (Elt F) → (⟨S2x65536x16, .f32⟩ : BufTy).Contents (Elt F) → (⟨S2x65536x16, .f32⟩ : BufTy).Contents (Elt F)) (R V main_v117) (R V main_v119))
    ∧ (R V main_call4_cst = (constant S_ .f32 0x00000000#32))
    ∧ (R V main_call4_v0 = (broadcastInDim S2x65536x16 ![] bcast_S_S2x65536x16 : (⟨S_, .f32⟩ : BufTy).Contents (Elt F) → (⟨S2x65536x16, .f32⟩ : BufTy).Contents (Elt F)) (R V main_call4_cst))
    ∧ (R V main_v121 = (maximumf : (⟨S2x65536x16, .f32⟩ : BufTy).Contents (Elt F) → (⟨S2x65536x16, .f32⟩ : BufTy).Contents (Elt F) → (⟨S2x65536x16, .f32⟩ : BufTy).Contents (Elt F)) (R V main_v120) (R V main_call4_v0))
    ∧ (R V main_v122 = ((fun l r => Host.dotGeneral dot_S2x65536x16_S16x16_S2x65536x16_2_1_01_0_n_n none l r) : (⟨S2x65536x16, .f32⟩ : BufTy).Contents (Elt F) → (⟨S16x16, .f32⟩ : BufTy).Contents (Elt F) → (⟨S2x65536x16, .f32⟩ : BufTy).Contents (Elt F)) (R V main_v121) (R V main_arg31))
    ∧ (R V main_v123 = (broadcastInDim S1x1x16 ![2] bcast_S16_S1x1x16_2 : (⟨S16, .f32⟩ : BufTy).Contents (Elt F) → (⟨S1x1x16, .f32⟩ : BufTy).Contents (Elt F)) (R V main_arg32))
    ∧ (R V main_v124 = (broadcastInDim S2x65536x16 ![0, 1, 2] bcast_S1x1x16_S2x65536x16_0_1_2 : (⟨S1x1x16, .f32⟩ : BufTy).Contents (Elt F) → (⟨S2x65536x16, .f32⟩ : BufTy).Contents (Elt F)) (R V main_v123))
    ∧ (R V main_v125 = (addf : (⟨S2x65536x16, .f32⟩ : BufTy).Contents (Elt F) → (⟨S2x65536x16, .f32⟩ : BufTy).Contents (Elt F) → (⟨S2x65536x16, .f32⟩ : BufTy).Contents (Elt F)) (R V main_v122) (R V main_v124))
    ∧ (R V main_v126 = ((fun l r => Host.dotGeneral dot_S2x65536x16_S32x16_S2x65536x32_2_1_01_0_n_n none l r) : (⟨S2x65536x16, .f32⟩ : BufTy).Contents (Elt F) → (⟨S32x16, .f32⟩ : BufTy).Contents (Elt F) → (⟨S2x65536x32, .f32⟩ : BufTy).Contents (Elt F)) (R V main_v125) (R V main_arg33))
    ∧ (R V main_v127 = (broadcastInDim S1x1x32 ![2] bcast_S32_S1x1x32_2 : (⟨S32, .f32⟩ : BufTy).Contents (Elt F) → (⟨S1x1x32, .f32⟩ : BufTy).Contents (Elt F)) (R V main_arg34))
    ∧ (R V main_v128 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v127))
    ∧ (R V main_v129 = (addf : (⟨S2x65536x32, .f32⟩ : BufTy).Contents (Elt F) → (⟨S2x65536x32, .f32⟩ : BufTy).Contents (Elt F) → (⟨S2x65536x32, .f32⟩ : BufTy).Contents (Elt F)) (R V main_v126) (R V main_v128))
    ∧ (R V main_v130 = (broadcastInDim S1x1x32 ![2] bcast_S32_S1x1x32_2 : (⟨S32, .f32⟩ : BufTy).Contents (Elt F) → (⟨S1x1x32, .f32⟩ : BufTy).Contents (Elt F)) (R V main_arg35))
    ∧ (R V main_v131 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v130))
    ∧ (R V main_v132 = (mulf : (⟨S2x65536x32, .f32⟩ : BufTy).Contents (Elt F) → (⟨S2x65536x32, .f32⟩ : BufTy).Contents (Elt F) → (⟨S2x65536x32, .f32⟩ : BufTy).Contents (Elt F)) (R V main_v129) (R V main_v131))
    ∧ (R V main_v133 = (broadcastInDim S1x1x32 ![2] bcast_S32_S1x1x32_2 : (⟨S32, .f32⟩ : BufTy).Contents (Elt F) → (⟨S1x1x32, .f32⟩ : BufTy).Contents (Elt F)) (R V main_arg36))
    ∧ (R V main_v134 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v133))
    ∧ (R V main_v135 = (addf : (⟨S2x65536x32, .f32⟩ : BufTy).Contents (Elt F) → (⟨S2x65536x32, .f32⟩ : BufTy).Contents (Elt F) → (⟨S2x65536x32, .f32⟩ : BufTy).Contents (Elt F)) (R V main_v132) (R V main_v134))
    ∧ (R V main_v136 = (broadcastInDim S2x65536x1x16 ![0, 1, 3] bcast_S2x65536x16_S2x65536x1x16_0_1_3 : (⟨S2x65536x16, .f32⟩ : BufTy).Contents (Elt F) → (⟨S2x65536x1x16, .f32⟩ : BufTy).Contents (Elt F)) (R V main_v125))
    ∧ (R V main_v137 = (broadcastInDim S2x65536x16x16 ![0, 1, 2, 3] bcast_S2x65536x1x16_S2x65536x16x16_0_1_2_3 : (⟨S2x65536x1x16, .f32⟩ : BufTy).Contents (Elt F) → (⟨S2x65536x16x16, .f32⟩ : BufTy).Contents (Elt F)) (R V main_v136))
    ∧ (R V main_v138 = ((fun a b => concatenate S2x65536x16x24 3 [⟨S2x65536x16x8, a⟩, ⟨S2x65536x16x16, b⟩] concatenates_S2x65536x16x8_S2x65536x16x16_S2x65536x16x24_d3) : (⟨S2x65536x16x8, .f32⟩ : BufTy).Contents (Elt F) → (⟨S2x65536x16x16, .f32⟩ : BufTy).Contents (Elt F) → (⟨S2x65536x16x24, .f32⟩ : BufTy).Contents (Elt F)) (R V main_v42) (R V main_v137))
    ∧ (R V main_v139 = ((fun l r => Host.dotGeneral dot_S2x65536x16x24_S24x24_S2x65536x16x24_3_1_012_0_n_n none l r) : (⟨S2x65536x16x24, .f32⟩ : BufTy).Contents (Elt F) → (⟨S24x24, .f32⟩ : BufTy).Contents (Elt F) → (⟨S2x65536x16x24, .f32⟩ : BufTy).Contents (Elt F)) (R V main_v138) (R V main_arg37))
    ∧ (R V main_cst_11 = (constant S_ .f32 0xFF800000#32))
    ∧ (R V main_v140 = ((fun x v => Host.reduce FloatOps.maximumf x v reducesTo_S2x65536x16x24_S2x65536x24_d2 h_S_) : (⟨S2x65536x16x24, .f32⟩ : BufTy).Contents (Elt F) → (⟨S_, .f32⟩ : BufTy).Contents (Elt F) → (⟨S2x65536x24, .f32⟩ : BufTy).Contents (Elt F)) (R V main_v139) (R V main_cst_11))
    ∧ (R V main_cst_12 = (constant S_ .f32 0xFF800000#32))
    ∧ (R V main_v141 = (broadcastInDim S2x65536x24 ![] bcast_S_S2x65536x24 : (⟨S_, .f32⟩ : BufTy).Contents (Elt F) → (⟨S2x65536x24, .f32⟩ : BufTy).Contents (Elt F)) (R V main_cst_12))
    ∧ (R V main_v142 = (maximumf : (⟨S2x65536x24, .f32⟩ : BufTy).Contents (Elt F) → (⟨S2x65536x24, .f32⟩ : BufTy).Contents (Elt F) → (⟨S2x65536x24, .f32⟩ : BufTy).Contents (Elt F)) (R V main_v141) (R V main_v140))
    ∧ (R V main_v143 = (broadcastInDim S2x65536x1x24 ![0, 1, 3] bcast_S2x65536x24_S2x65536x1x24_0_1_3 : (⟨S2x65536x24, .f32⟩ : BufTy).Contents (Elt F) → (⟨S2x65536x1x24, .f32⟩ : BufTy).Contents (Elt F)) (R V main_v142))
    ∧ (R V main_v144 = (broadcastInDim S2x65536x16x24 ![0, 1, 2, 3] bcast_S2x65536x1x24_S2x65536x16x24_0_1_2_3 : (⟨S2x65536x1x24, .f32⟩ : BufTy).Contents (Elt F) → (⟨S2x65536x16x24, .f32⟩ : BufTy).Contents (Elt F)) (R V main_v143))
    ∧ (R V main_v145 = (subf : (⟨S2x65536x16x24, .f32⟩ : BufTy).Contents (Elt F) → (⟨S2x65536x16x24, .f32⟩ : BufTy).Contents (Elt F) → (⟨S2x65536x16x24, .f32⟩ : BufTy).Contents (Elt F)) (R V main_v139) (R V main_v144))
    ∧ (R V main_v146 = (Host.exp : (⟨S2x65536x16x24, .f32⟩ : BufTy).Contents (Elt F) → (⟨S2x65536x16x24, .f32⟩ : BufTy).Contents (Elt F)) (R V main_v145))
    ∧ (R V main_cst_13 = (constant S_ .f32 0x00000000#32))
    ∧ (R V main_v147 = ((fun x v => Host.reduceAdd x v reducesTo_S2x65536x16x24_S2x65536x24_d2 h_S_) : (⟨S2x65536x16x24, .f32⟩ : BufTy).Contents (Elt F) → (⟨S_, .f32⟩ : BufTy).Contents (Elt F) → (⟨S2x65536x24, .f32⟩ : BufTy).Contents (Elt F)) (R V main_v146) (R V main_cst_13))
    ∧ (R V main_v148 = (broadcastInDim S2x65536x1x24 ![0, 1, 3] bcast_S2x65536x24_S2x65536x1x24_0_1_3 : (⟨S2x65536x24, .f32⟩ : BufTy).Contents (Elt F) → (⟨S2x65536x1x24, .f32⟩ : BufTy).Contents (Elt F)) (R V main_v147))
    ∧ (R V main_v149 = (broadcastInDim S2x65536x16x24 ![0, 1, 2, 3] bcast_S2x65536x1x24_S2x65536x16x24_0_1_2_3 : (⟨S2x65536x1x24, .f32⟩ : BufTy).Contents (Elt F) → (⟨S2x65536x16x24, .f32⟩ : BufTy).Contents (Elt F)) (R V main_v148))
    ∧ (R V main_v150 = (Host.divf : (⟨S2x65536x16x24, .f32⟩ : BufTy).Contents (Elt F) → (⟨S2x65536x16x24, .f32⟩ : BufTy).Contents (Elt F) → (⟨S2x65536x16x24, .f32⟩ : BufTy).Contents (Elt F)) (R V main_v146) (R V main_v149))
    ∧ (R V main_v151 = (mulf : (⟨S2x65536x16x24, .f32⟩ : BufTy).Contents (Elt F) → (⟨S2x65536x16x24, .f32⟩ : BufTy).Contents (Elt F) → (⟨S2x65536x16x24, .f32⟩ : BufTy).Contents (Elt F)) (R V main_v150) (R V main_v138))
    ∧ (R V main_cst_14 = (constant S_ .f32 0x00000000#32))
    ∧ (R V main_v152 = ((fun x v => Host.reduceAdd x v reducesTo_S2x65536x16x24_S2x65536x24_d2 h_S_) : (⟨S2x65536x16x24, .f32⟩ : BufTy).Contents (Elt F) → (⟨S_, .f32⟩ : BufTy).Contents (Elt F) → (⟨S2x65536x24, .f32⟩ : BufTy).Contents (Elt F)) (R V main_v151) (R V main_cst_14))
    ∧ (R V main_v153 = ((fun l r => Host.dotGeneral dot_S2x65536x24_S32x24_S2x65536x32_2_1_01_0_n_n none l r) : (⟨S2x65536x24, .f32⟩ : BufTy).Contents (Elt F) → (⟨S32x24, .f32⟩ : BufTy).Contents (Elt F) → (⟨S2x65536x32, .f32⟩ : BufTy).Contents (Elt F)) (R V main_v152) (R V main_arg38))
    ∧ (R V main_v154 = (broadcastInDim S1x1x32 ![2] bcast_S32_S1x1x32_2 : (⟨S32, .f32⟩ : BufTy).Contents (Elt F) → (⟨S1x1x32, .f32⟩ : BufTy).Contents (Elt F)) (R V main_arg39))
    ∧ (R V main_v155 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v154))
    ∧ (R V main_v156 = (addf : (⟨S2x65536x32, .f32⟩ : BufTy).Contents (Elt F) → (⟨S2x65536x32, .f32⟩ : BufTy).Contents (Elt F) → (⟨S2x65536x32, .f32⟩ : BufTy).Contents (Elt F)) (R V main_v153) (R V main_v155))
    ∧ (R V main_v157 = (broadcastInDim S1x1x32 ![2] bcast_S32_S1x1x32_2 : (⟨S32, .f32⟩ : BufTy).Contents (Elt F) → (⟨S1x1x32, .f32⟩ : BufTy).Contents (Elt F)) (R V main_arg40))
    ∧ (R V main_v158 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v157))
    ∧ (R V main_v159 = (mulf : (⟨S2x65536x32, .f32⟩ : BufTy).Contents (Elt F) → (⟨S2x65536x32, .f32⟩ : BufTy).Contents (Elt F) → (⟨S2x65536x32, .f32⟩ : BufTy).Contents (Elt F)) (R V main_v156) (R V main_v158))
    ∧ (R V main_v160 = (broadcastInDim S1x1x32 ![2] bcast_S32_S1x1x32_2 : (⟨S32, .f32⟩ : BufTy).Contents (Elt F) → (⟨S1x1x32, .f32⟩ : BufTy).Contents (Elt F)) (R V main_arg41))
    ∧ (R V main_v161 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v160))
    ∧ (R V main_v162 = (addf : (⟨S2x65536x32, .f32⟩ : BufTy).Contents (Elt F) → (⟨S2x65536x32, .f32⟩ : BufTy).Contents (Elt F) → (⟨S2x65536x32, .f32⟩ : BufTy).Contents (Elt F)) (R V main_v159) (R V main_v161)) := by
  have h := eqs2 V
  refine ⟨((eqs_binary _ _ _ _ _ _ _).mp h).1, ?_⟩
  have h := ((eqs_binary _ _ _ _ _ _ _).mp h).2
  refine ⟨((eqs_binary _ _ _ _ _ _ _).mp h).1, ?_⟩
  have h := ((eqs_binary _ _ _ _ _ _ _).mp h).2
  refine ⟨((eqs_nullary _ _ _).mp h).1, ?_⟩
  have h := ((eqs_nullary _ _ _).mp h).2
  refine ⟨((eqs_binary _ _ _ _ _ _ _).mp h).1, ?_⟩
  have h := ((eqs_binary _ _ _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_nullary _ _ _).mp h).1, ?_⟩
  have h := ((eqs_nullary _ _ _).mp h).2
  refine ⟨?_, ?_⟩
  · have e := ((eqs_unary _ _ _ _ _).mp h).1
    simp only [cast_eq] at e
    exact e
  have h := ((eqs_unary _ _ _ _ _).mp h).2
  refine ⟨?_, ?_⟩
  · have e := ((eqs_binary _ _ _ _ _ _ _).mp h).1
    simp only [cast_eq] at e
    exact e
  have h := ((eqs_binary _ _ _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_binary _ _ _ _ _ _ _).mp h).1, ?_⟩
  have h := ((eqs_binary _ _ _ _ _ _ _).mp h).2
  refine ⟨((eqs_nullary _ _ _).mp h).1, ?_⟩
  have h := ((eqs_nullary _ _ _).mp h).2
  refine ⟨((eqs_binary _ _ _ _ _ _ _).mp h).1, ?_⟩
  have h := ((eqs_binary _ _ _ _ _ _ _).mp h).2
  refine ⟨((eqs_nullary _ _ _).mp h).1, ?_⟩
  have h := ((eqs_nullary _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_nullary _ _ _).mp h).1, ?_⟩
  have h := ((eqs_nullary _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_binary _ _ _ _ _ _ _).mp h).1, ?_⟩
  have h := ((eqs_binary _ _ _ _ _ _ _).mp h).2
  refine ⟨((eqs_nullary _ _ _).mp h).1, ?_⟩
  have h := ((eqs_nullary _ _ _).mp h).2
  refine ⟨((eqs_binary _ _ _ _ _ _ _).mp h).1, ?_⟩
  have h := ((eqs_binary _ _ _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  exact ((eqs_binary _ _ _ _ _ _ _).mp h).1

theorem line_v108 (V : Valuation τ sig (Elt F)) : R V main_v108 = (Host.divf : (⟨S2x65536x16x16, .f32⟩ : BufTy).Contents (Elt F) → (⟨S2x65536x16x16, .f32⟩ : BufTy).Contents (Elt F) → (⟨S2x65536x16x16, .f32⟩ : BufTy).Contents (Elt F)) (R V main_v104) (R V main_v107) := (lines2 V).1
theorem line_v109 (V : Valuation τ sig (Elt F)) : R V main_v109 = (mulf : (⟨S2x65536x16x16, .f32⟩ : BufTy).Contents (Elt F) → (⟨S2x65536x16x16, .f32⟩ : BufTy).Contents (Elt F) → (⟨S2x65536x16x16, .f32⟩ : BufTy).Contents (Elt F)) (R V main_v108) (R V main_v96) := (lines2 V).2.1
theorem line_cst_10 (V : Valuation τ sig (Elt F)) : R V main_cst_10 = (constant S_ .f32 0x00000000#32) := (lines2 V).2.2.1
theorem line_v110 (V : Valuation τ sig (Elt F)) : R V main_v110 = ((fun x v => Host.reduceAdd x v reducesTo_S2x65536x16x16_S2x65536x16_d2 h_S_) : (⟨S2x65536x16x16, .f32⟩ : BufTy).Contents (Elt F) → (⟨S_, .f32⟩ : BufTy).Contents (Elt F) → (⟨S2x65536x16, .f32⟩ : BufTy).Contents (Elt F)) (R V main_v109) (R V main_cst_10) := (lines2 V).2.2.2.1
theorem line_v111 (V : Valuation τ sig (Elt F)) : R V main_v111 = ((fun l r => Host.dotGeneral dot_S2x65536x16_S16x16_S2x65536x16_2_1_01_0_n_n none l r) : (⟨S2x65536x16, .f32⟩ : BufTy).Contents (Elt F) → (⟨S16x16, .f32⟩ : BufTy).Contents (Elt F) → (⟨S2x65536x16, .f32⟩ : BufTy).Contents (Elt F)) (R V main_v110) (R V main_arg27) := (lines2 V).2.2.2.2.1
theorem line_v112 (V : Valuation τ sig (Elt F)) : R V main_v112 = (broadcastInDim S1x1x16 ![2] bcast_S16_S1x1x16_2 : (⟨S16, .f32⟩ : BufTy).Contents (Elt F) → (⟨S1x1x16, .f32⟩ : BufTy).Contents (Elt F)) (R V main_arg28) := (lines2 V).2.2.2.2.2.1
theorem line_v113 (V : Valuation τ sig (Elt F)) : R V main_v113 = (broadcastInDim S2x65536x16 ![0, 1, 2] bcast_S1x1x16_S2x65536x16_0_1_2 : (⟨S1x1x16, .f32⟩ : BufTy).Contents (Elt F) → (⟨S2x65536x16, .f32⟩ : BufTy).Contents (Elt F)) (R V main_v112) := (lines2 V).2.2.2.2.2.2.1
theorem line_v114 (V : Valuation τ sig (Elt F)) : R V main_v114 = (addf : (⟨S2x65536x16, .f32⟩ : BufTy).Contents (Elt F) → (⟨S2x65536x16, .f32⟩ : BufTy).Contents (Elt F) → (⟨S2x65536x16, .f32⟩ : BufTy).Contents (Elt F)) (R V main_v111) (R V main_v113) := (lines2 V).2.2.2.2.2.2.2.1
theorem line_v115 (V : Valuation τ sig (Elt F)) : R V main_v115 = (broadcastInDim S1x1x16 ![2] bcast_S16_S1x1x16_2 : (⟨S16, .f32⟩ : BufTy).Contents (Elt F) → (⟨S1x1x16, .f32⟩ : BufTy).Contents (Elt F)) (R V main_arg29) := (lines2 V).2.2.2.2.2.2.2.2.1
theorem line_v116 (V : Valuation τ sig (Elt F)) : R V main_v116 = (broadcastInDim S2x65536x16 ![0, 1, 2] bcast_S1x1x16_S2x65536x16_0_1_2 : (⟨S1x1x16, .f32⟩ : BufTy).Contents (Elt F) → (⟨S2x65536x16, .f32⟩ : BufTy).Contents (Elt F)) (R V main_v115) := (lines2 V).2.2.2.2.2.2.2.2.2.1
theorem line_v117 (V : Valuation τ sig (Elt F)) : R V main_v117 = (mulf : (⟨S2x65536x16, .f32⟩ : BufTy).Contents (Elt F) → (⟨S2x65536x16, .f32⟩ : BufTy).Contents (Elt F) → (⟨S2x65536x16, .f32⟩ : BufTy).Contents (Elt F)) (R V main_v114) (R V main_v116) := (lines2 V).2.2.2.2.2.2.2.2.2.2.1
theorem line_v118 (V : Valuation τ sig (Elt F)) : R V main_v118 = (broadcastInDim S1x1x16 ![2] bcast_S16_S1x1x16_2 : (⟨S16, .f32⟩ : BufTy).Contents (Elt F) → (⟨S1x1x16, .f32⟩ : BufTy).Contents (Elt F)) (R V main_arg30) := (lines2 V).2.2.2.2.2.2.2.2.2.2.2.1
theorem line_v119 (V : Valuation τ sig (Elt F)) : R V main_v119 = (broadcastInDim S2x65536x16 ![0, 1, 2] bcast_S1x1x16_S2x65536x16_0_1_2 : (⟨S1x1x16, .f32⟩ : BufTy).Contents (Elt F) → (⟨S2x65536x16, .f32⟩ : BufTy).Contents (Elt F)) (R V main_v118) := (lines2 V).2.2.2.2.2.2.2.2.2.2.2.2.1
theorem line_v120 (V : Valuation τ sig (Elt F)) : R V main_v120 = (addf : (⟨S2x65536x16, .f32⟩ : BufTy).Contents (Elt F) → (⟨S2x65536x16, .f32⟩ : BufTy).Contents (Elt F) → (⟨S2x65536x16, .f32⟩ : BufTy).Contents (Elt F)) (R V main_v117) (R V main_v119) := (lines2 V).2.2.2.2.2.2.2.2.2.2.2.2.2.1
theorem line_call4_cst (V : Valuation τ sig (Elt F)) : R V main_call4_cst = (constant S_ .f32 0x00000000#32) := (lines2 V).2.2.2.2.2.2.2.2.2.2.2.2.2.2.1
theorem line_call4_v0 (V : Valuation τ sig (Elt F)) : R V main_call4_v0 = (broadcastInDim S2x65536x16 ![] bcast_S_S2x65536x16 : (⟨S_, .f32⟩ : BufTy).Contents (Elt F) → (⟨S2x65536x16, .f32⟩ : BufTy).Contents (Elt F)) (R V main_call4_cst) := (lines2 V).2.2.2.2.2.2.2.2.2.2.2.2.2.2.2.1
theorem line_v121 (V : Valuation τ sig (Elt F)) : R V main_v121 = (maximumf : (⟨S2x65536x16, .f32⟩ : BufTy).Contents (Elt F) → (⟨S2x65536x16, .f32⟩ : BufTy).Contents (Elt F) → (⟨S2x65536x16, .f32⟩ : BufTy).Contents (Elt F)) (R V main_v120) (R V main_call4_v0) := (lines2 V).2.2.2.2.2.2.2.2.2.2.2.2.2.2.2.2.1
theorem line_v122 (V : Valuation τ sig (Elt F)) : R V main_v122 = ((fun l r => Host.dotGeneral dot_S2x65536x16_S16x16_S2x65536x16_2_1_01_0_n_n none l r) : (⟨S2x65536x16, .f32⟩ : BufTy).Contents (Elt F) → (⟨S16x16, .f32⟩ : BufTy).Contents (Elt F) → (⟨S2x65536x16, .f32⟩ : BufTy).Contents (Elt F)) (R V main_v121) (R V main_arg31) := (lines2 V).2.2.2.2.2.2.2.2.2.2.2.2.2.2.2.2.2.1
theorem line_v123 (V : Valuation τ sig (Elt F)) : R V main_v123 = (broadcastInDim S1x1x16 ![2] bcast_S16_S1x1x16_2 : (⟨S16, .f32⟩ : BufTy).Contents (Elt F) → (⟨S1x1x16, .f32⟩ : BufTy).Contents (Elt F)) (R V main_arg32) := (lines2 V).2.2.2.2.2.2.2.2.2.2.2.2.2.2.2.2.2.2.1
theorem line_v124 (V : Valuation τ sig (Elt F)) : R V main_v124 = (broadcastInDim S2x65536x16 ![0, 1, 2] bcast_S1x1x16_S2x65536x16_0_1_2 : (⟨S1x1x16, .f32⟩ : BufTy).Contents (Elt F) → (⟨S2x65536x16, .f32⟩ : BufTy).Contents (Elt F)) (R V main_v123) := (lines2 V).2.2.2.2.2.2.2.2.2.2.2.2.2.2.2.2.2.2.2.1
theorem line_v125 (V : Valuation τ sig (Elt F)) : R V main_v125 = (addf : (⟨S2x65536x16, .f32⟩ : BufTy).Contents (Elt F) → (⟨S2x65536x16, .f32⟩ : BufTy).Contents (Elt F) → (⟨S2x65536x16, .f32⟩ : BufTy).Contents (Elt F)) (R V main_v122) (R V main_v124) := (lines2 V).2.2.2.2.2.2.2.2.2.2.2.2.2.2.2.2.2.2.2.2.1
theorem line_v126 (V : Valuation τ sig (Elt F)) : R V main_v126 = ((fun l r => Host.dotGeneral dot_S2x65536x16_S32x16_S2x65536x32_2_1_01_0_n_n none l r) : (⟨S2x65536x16, .f32⟩ : BufTy).Contents (Elt F) → (⟨S32x16, .f32⟩ : BufTy).Contents (Elt F) → (⟨S2x65536x32, .f32⟩ : BufTy).Contents (Elt F)) (R V main_v125) (R V main_arg33) := (lines2 V).2.2.2.2.2.2.2.2.2.2.2.2.2.2.2.2.2.2.2.2.2.1
theorem line_v127 (V : Valuation τ sig (Elt F)) : R V main_v127 = (broadcastInDim S1x1x32 ![2] bcast_S32_S1x1x32_2 : (⟨S32, .f32⟩ : BufTy).Contents (Elt F) → (⟨S1x1x32, .f32⟩ : BufTy).Contents (Elt F)) (R V main_arg34) := (lines2 V).2.2.2.2.2.2.2.2.2.2.2.2.2.2.2.2.2.2.2.2.2.2.1
theorem line_v128 (V : Valuation τ sig (Elt F)) : R V main_v128 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v127) := (lines2 V).2.2.2.2.2.2.2.2.2.2.2.2.2.2.2.2.2.2.2.2.2.2.2.1
theorem line_v129 (V : Valuation τ sig (Elt F)) : R V main_v129 = (addf : (⟨S2x65536x32, .f32⟩ : BufTy).Contents (Elt F) → (⟨S2x65536x32, .f32⟩ : BufTy).Contents (Elt F) → (⟨S2x65536x32, .f32⟩ : BufTy).Contents (Elt F)) (R V main_v126) (R V main_v128) := (lines2 V).2.2.2.2.2.2.2.2.2.2.2.2.2.2.2.2.2.2.2.2.2.2.2.2.1
theorem line_v130 (V : Valuation τ sig (Elt F)) : R V main_v130 = (broadcastInDim S1x1x32 ![2] bcast_S32_S1x1x32_2 : (⟨S32, .f32⟩ : BufTy).Contents (Elt F) → (⟨S1x1x32, .f32⟩ : BufTy).Contents (Elt F)) (R V main_arg35) := (lines2 V).2.2.2.2.2.2.2.2.2.2.2.2.2.2.2.2.2.2.2.2.2.2.2.2.2.1
theorem line_v131 (V : Valuation τ sig (Elt F)) : R V main_v131 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v130) := (lines2 V).2.2.2.2.2.2.2.2.2.2.2.2.2.2.2.2.2.2.2.2.2.2.2.2.2.2.1
theorem line_v132 (V : Valuation τ sig (Elt F)) : R V main_v132 = (mulf : (⟨S2x65536x32, .f32⟩ : BufTy).Contents (Elt F) → (⟨S2x65536x32, .f32⟩ : BufTy).Contents (Elt F) → (⟨S2x65536x32, .f32⟩ : BufTy).Contents (Elt F)) (R V main_v129) (R V main_v131) := (lines2 V).2.2.2.2.2.2.2.2.2.2.2.2.2.2.2.2.2.2.2.2.2.2.2.2.2.2.2.1
theorem line_v133 (V : Valuation τ sig (Elt F)) : R V main_v133 = (broadcastInDim S1x1x32 ![2] bcast_S32_S1x1x32_2 : (⟨S32, .f32⟩ : BufTy).Contents (Elt F) → (⟨S1x1x32, .f32⟩ : BufTy).Contents (Elt F)) (R V main_arg36) := (lines2 V).2.2.2.2.2.2.2.2.2.2.2.2.2.2.2.2.2.2.2.2.2.2.2.2.2.2.2.2.1
theorem line_v134 (V : Valuation τ sig (Elt F)) : R V main_v134 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v133) := (lines2 V).2.2.2.2.2.2.2.2.2.2.2.2.2.2.2.2.2.2.2.2.2.2.2.2.2.2.2.2.2.1
theorem line_v135 (V : Valuation τ sig (Elt F)) : R V main_v135 = (addf : (⟨S2x65536x32, .f32⟩ : BufTy).Contents (Elt F) → (⟨S2x65536x32, .f32⟩ : BufTy).Contents (Elt F) → (⟨S2x65536x32, .f32⟩ : BufTy).Contents (Elt F)) (R V main_v132) (R V main_v134) := (lines2 V).2.2.2.2.2.2.2.2.2.2.2.2.2.2.2.2.2.2.2.2.2.2.2.2.2.2.2.2.2.2.1
theorem line_v136 (V : Valuation τ sig (Elt F)) : R V main_v136 = (broadcastInDim S2x65536x1x16 ![0, 1, 3] bcast_S2x65536x16_S2x65536x1x16_0_1_3 : (⟨S2x65536x16, .f32⟩ : BufTy).Contents (Elt F) → (⟨S2x65536x1x16, .f32⟩ : BufTy).Contents (Elt F)) (R V main_v125) := (lines2 V).2.2.2.2.2.2.2.2.2.2.2.2.2.2.2.2.2.2.2.2.2.2.2.2.2.2.2.2.2.2.2.1
theorem line_v137 (V : Valuation τ sig (Elt F)) : R V main_v137 = (broadcastInDim S2x65536x16x16 ![0, 1, 2, 3] bcast_S2x65536x1x16_S2x65536x16x16_0_1_2_3 : (⟨S2x65536x1x16, .f32⟩ : BufTy).Contents (Elt F) → (⟨S2x65536x16x16, .f32⟩ : BufTy).Contents (Elt F)) (R V main_v136) := (lines2 V).2.2.2.2.2.2.2.2.2.2.2.2.2.2.2.2.2.2.2.2.2.2.2.2.2.2.2.2.2.2.2.2.1
theorem line_v138 (V : Valuation τ sig (Elt F)) : R V main_v138 = ((fun a b => concatenate S2x65536x16x24 3 [⟨S2x65536x16x8, a⟩, ⟨S2x65536x16x16, b⟩] concatenates_S2x65536x16x8_S2x65536x16x16_S2x65536x16x24_d3) : (⟨S2x65536x16x8, .f32⟩ : BufTy).Contents (Elt F) → (⟨S2x65536x16x16, .f32⟩ : BufTy).Contents (Elt F) → (⟨S2x65536x16x24, .f32⟩ : BufTy).Contents (Elt F)) (R V main_v42) (R V main_v137) := (lines2 V).2.2.2.2.2.2.2.2.2.2.2.2.2.2.2.2.2.2.2.2.2.2.2.2.2.2.2.2.2.2.2.2.2.1
theorem line_v139 (V : Valuation τ sig (Elt F)) : R V main_v139 = ((fun l r => Host.dotGeneral dot_S2x65536x16x24_S24x24_S2x65536x16x24_3_1_012_0_n_n none l r) : (⟨S2x65536x16x24, .f32⟩ : BufTy).Contents (Elt F) → (⟨S24x24, .f32⟩ : BufTy).Contents (Elt F) → (⟨S2x65536x16x24, .f32⟩ : BufTy).Contents (Elt F)) (R V main_v138) (R V main_arg37) := (lines2 V).2.2.2.2.2.2.2.2.2.2.2.2.2.2.2.2.2.2.2.2.2.2.2.2.2.2.2.2.2.2.2.2.2.2.1
theorem line_cst_11 (V : Valuation τ sig (Elt F)) : R V main_cst_11 = (constant S_ .f32 0xFF800000#32) := (lines2 V).2.2.2.2.2.2.2.2.2.2.2.2.2.2.2.2.2.2.2.2.2.2.2.2.2.2.2.2.2.2.2.2.2.2.2.1
theorem line_v140 (V : Valuation τ sig (Elt F)) : R V main_v140 = ((fun x v => Host.reduce FloatOps.maximumf x v reducesTo_S2x65536x16x24_S2x65536x24_d2 h_S_) : (⟨S2x65536x16x24, .f32⟩ : BufTy).Contents (Elt F) → (⟨S_, .f32⟩ : BufTy).Contents (Elt F) → (⟨S2x65536x24, .f32⟩ : BufTy).Contents (Elt F)) (R V main_v139) (R V main_cst_11) := (lines2 V).2.2.2.2.2.2.2.2.2.2.2.2.2.2.2.2.2.2.2.2.2.2.2.2.2.2.2.2.2.2.2.2.2.2.2.2.1
theorem line_cst_12 (V : Valuation τ sig (Elt F)) : R V main_cst_12 = (constant S_ .f32 0xFF800000#32) := (lines2 V).2.2.2.2.2.2.2.2.2.2.2.2.2.2.2.2.2.2.2.2.2.2.2.2.2.2.2.2.2.2.2.2.2.2.2.2.2.1
theorem line_v141 (V : Valuation τ sig (Elt F)) : R V main_v141 = (broadcastInDim S2x65536x24 ![] bcast_S_S2x65536x24 : (⟨S_, .f32⟩ : BufTy).Contents (Elt F) → (⟨S2x65536x24, .f32⟩ : BufTy).Contents (Elt F)) (R V main_cst_12) := (lines2 V).2.2.2.2.2.2.2.2.2.2.2.2.2.2.2.2.2.2.2.2.2.2.2.2.2.2.2.2.2.2.2.2.2.2.2.2.2.2.1
theorem line_v142 (V : Valuation τ sig (Elt F)) : R V main_v142 = (maximumf : (⟨S2x65536x24, .f32⟩ : BufTy).Contents (Elt F) → (⟨S2x65536x24, .f32⟩ : BufTy).Contents (Elt F) → (⟨S2x65536x24, .f32⟩ : BufTy).Contents (Elt F)) (R V main_v141) (R V main_v140) := (lines2 V).2.2.2.2.2.2.2.2.2.2.2.2.2.2.2.2.2.2.2.2.2.2.2.2.2.2.2.2.2.2.2.2.2.2.2.2.2.2.2.1
theorem line_v143 (V : Valuation τ sig (Elt F)) : R V main_v143 = (broadcastInDim S2x65536x1x24 ![0, 1, 3] bcast_S2x65536x24_S2x65536x1x24_0_1_3 : (⟨S2x65536x24, .f32⟩ : BufTy).Contents (Elt F) → (⟨S2x65536x1x24, .f32⟩ : BufTy).Contents (Elt F)) (R V main_v142) := (lines2 V).2.2.2.2.2.2.2.2.2.2.2.2.2.2.2.2.2.2.2.2.2.2.2.2.2.2.2.2.2.2.2.2.2.2.2.2.2.2.2.2.1
theorem line_v144 (V : Valuation τ sig (Elt F)) : R V main_v144 = (broadcastInDim S2x65536x16x24 ![0, 1, 2, 3] bcast_S2x65536x1x24_S2x65536x16x24_0_1_2_3 : (⟨S2x65536x1x24, .f32⟩ : BufTy).Contents (Elt F) → (⟨S2x65536x16x24, .f32⟩ : BufTy).Contents (Elt F)) (R V main_v143) := (lines2 V).2.2.2.2.2.2.2.2.2.2.2.2.2.2.2.2.2.2.2.2.2.2.2.2.2.2.2.2.2.2.2.2.2.2.2.2.2.2.2.2.2.1
theorem line_v145 (V : Valuation τ sig (Elt F)) : R V main_v145 = (subf : (⟨S2x65536x16x24, .f32⟩ : BufTy).Contents (Elt F) → (⟨S2x65536x16x24, .f32⟩ : BufTy).Contents (Elt F) → (⟨S2x65536x16x24, .f32⟩ : BufTy).Contents (Elt F)) (R V main_v139) (R V main_v144) := (lines2 V).2.2.2.2.2.2.2.2.2.2.2.2.2.2.2.2.2.2.2.2.2.2.2.2.2.2.2.2.2.2.2.2.2.2.2.2.2.2.2.2.2.2.1
theorem line_v146 (V : Valuation τ sig (Elt F)) : R V main_v146 = (Host.exp : (⟨S2x65536x16x24, .f32⟩ : BufTy).Contents (Elt F) → (⟨S2x65536x16x24, .f32⟩ : BufTy).Contents (Elt F)) (R V main_v145) := (lines2 V).2.2.2.2.2.2.2.2.2.2.2.2.2.2.2.2.2.2.2.2.2.2.2.2.2.2.2.2.2.2.2.2.2.2.2.2.2.2.2.2.2.2.2.1
theorem line_cst_13 (V : Valuation τ sig (Elt F)) : R V main_cst_13 = (constant S_ .f32 0x00000000#32) := (lines2 V).2.2.2.2.2.2.2.2.2.2.2.2.2.2.2.2.2.2.2.2.2.2.2.2.2.2.2.2.2.2.2.2.2.2.2.2.2.2.2.2.2.2.2.2.1
theorem line_v147 (V : Valuation τ sig (Elt F)) : R V main_v147 = ((fun x v => Host.reduceAdd x v reducesTo_S2x65536x16x24_S2x65536x24_d2 h_S_) : (⟨S2x65536x16x24, .f32⟩ : BufTy).Contents (Elt F) → (⟨S_, .f32⟩ : BufTy).Contents (Elt F) → (⟨S2x65536x24, .f32⟩ : BufTy).Contents (Elt F)) (R V main_v146) (R V main_cst_13) := (lines2 V).2.2.2.2.2.2.2.2.2.2.2.2.2.2.2.2.2.2.2.2.2.2.2.2.2.2.2.2.2.2.2.2.2.2.2.2.2.2.2.2.2.2.2.2.2.1
theorem line_v148 (V : Valuation τ sig (Elt F)) : R V main_v148 = (broadcastInDim S2x65536x1x24 ![0, 1, 3] bcast_S2x65536x24_S2x65536x1x24_0_1_3 : (⟨S2x65536x24, .f32⟩ : BufTy).Contents (Elt F) → (⟨S2x65536x1x24, .f32⟩ : BufTy).Contents (Elt F)) (R V main_v147) := (lines2 V).2.2.2.2.2.2.2.2.2.2.2.2.2.2.2.2.2.2.2.2.2.2.2.2.2.2.2.2.2.2.2.2.2.2.2.2.2.2.2.2.2.2.2.2.2.2.1
theorem line_v149 (V : Valuation τ sig (Elt F)) : R V main_v149 = (broadcastInDim S2x65536x16x24 ![0, 1, 2, 3] bcast_S2x65536x1x24_S2x65536x16x24_0_1_2_3 : (⟨S2x65536x1x24, .f32⟩ : BufTy).Contents (Elt F) → (⟨S2x65536x16x24, .f32⟩ : BufTy).Contents (Elt F)) (R V main_v148) := (lines2 V).2.2.2.2.2.2.2.2.2.2.2.2.2.2.2.2.2.2.2.2.2.2.2.2.2.2.2.2.2.2.2.2.2.2.2.2.2.2.2.2.2.2.2.2.2.2.2.1
theorem line_v150 (V : Valuation τ sig (Elt F)) : R V main_v150 = (Host.divf : (⟨S2x65536x16x24, .f32⟩ : BufTy).Contents (Elt F) → (⟨S2x65536x16x24, .f32⟩ : BufTy).Contents (Elt F) → (⟨S2x65536x16x24, .f32⟩ : BufTy).Contents (Elt F)) (R V main_v146) (R V main_v149) := (lines2 V).2.2.2.2.2.2.2.2.2.2.2.2.2.2.2.2.2.2.2.2.2.2.2.2.2.2.2.2.2.2.2.2.2.2.2.2.2.2.2.2.2.2.2.2.2.2.2.2.1
theorem line_v151 (V : Valuation τ sig (Elt F)) : R V main_v151 = (mulf : (⟨S2x65536x16x24, .f32⟩ : BufTy).Contents (Elt F) → (⟨S2x65536x16x24, .f32⟩ : BufTy).Contents (Elt F) → (⟨S2x65536x16x24, .f32⟩ : BufTy).Contents (Elt F)) (R V main_v150) (R V main_v138) := (lines2 V).2.2.2.2.2.2.2.2.2.2.2.2.2.2.2.2.2.2.2.2.2.2.2.2.2.2.2.2.2.2.2.2.2.2.2.2.2.2.2.2.2.2.2.2.2.2.2.2.2.1
theorem line_cst_14 (V : Valuation τ sig (Elt F)) : R V main_cst_14 = (constant S_ .f32 0x00000000#32) := (lines2 V).2.2.2.2.2.2.2.2.2.2.2.2.2.2.2.2.2.2.2.2.2.2.2.2.2.2.2.2.2.2.2.2.2.2.2.2.2.2.2.2.2.2.2.2.2.2.2.2.2.2.1
theorem line_v152 (V : Valuation τ sig (Elt F)) : R V main_v152 = ((fun x v => Host.reduceAdd x v reducesTo_S2x65536x16x24_S2x65536x24_d2 h_S_) : (⟨S2x65536x16x24, .f32⟩ : BufTy).Contents (Elt F) → (⟨S_, .f32⟩ : BufTy).Contents (Elt F) → (⟨S2x65536x24, .f32⟩ : BufTy).Contents (Elt F)) (R V main_v151) (R V main_cst_14) := (lines2 V).2.2.2.2.2.2.2.2.2.2.2.2.2.2.2.2.2.2.2.2.2.2.2.2.2.2.2.2.2.2.2.2.2.2.2.2.2.2.2.2.2.2.2.2.2.2.2.2.2.2.2.1
theorem line_v153 (V : Valuation τ sig (Elt F)) : R V main_v153 = ((fun l r => Host.dotGeneral dot_S2x65536x24_S32x24_S2x65536x32_2_1_01_0_n_n none l r) : (⟨S2x65536x24, .f32⟩ : BufTy).Contents (Elt F) → (⟨S32x24, .f32⟩ : BufTy).Contents (Elt F) → (⟨S2x65536x32, .f32⟩ : BufTy).Contents (Elt F)) (R V main_v152) (R V main_arg38) := (lines2 V).2.2.2.2.2.2.2.2.2.2.2.2.2.2.2.2.2.2.2.2.2.2.2.2.2.2.2.2.2.2.2.2.2.2.2.2.2.2.2.2.2.2.2.2.2.2.2.2.2.2.2.2.1
theorem line_v154 (V : Valuation τ sig (Elt F)) : R V main_v154 = (broadcastInDim S1x1x32 ![2] bcast_S32_S1x1x32_2 : (⟨S32, .f32⟩ : BufTy).Contents (Elt F) → (⟨S1x1x32, .f32⟩ : BufTy).Contents (Elt F)) (R V main_arg39) := (lines2 V).2.2.2.2.2.2.2.2.2.2.2.2.2.2.2.2.2.2.2.2.2.2.2.2.2.2.2.2.2.2.2.2.2.2.2.2.2.2.2.2.2.2.2.2.2.2.2.2.2.2.2.2.2.1
theorem line_v155 (V : Valuation τ sig (Elt F)) : R V main_v155 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v154) := (lines2 V).2.2.2.2.2.2.2.2.2.2.2.2.2.2.2.2.2.2.2.2.2.2.2.2.2.2.2.2.2.2.2.2.2.2.2.2.2.2.2.2.2.2.2.2.2.2.2.2.2.2.2.2.2.2.1
theorem line_v156 (V : Valuation τ sig (Elt F)) : R V main_v156 = (addf : (⟨S2x65536x32, .f32⟩ : BufTy).Contents (Elt F) → (⟨S2x65536x32, .f32⟩ : BufTy).Contents (Elt F) → (⟨S2x65536x32, .f32⟩ : BufTy).Contents (Elt F)) (R V main_v153) (R V main_v155) := (lines2 V).2.2.2.2.2.2.2.2.2.2.2.2.2.2.2.2.2.2.2.2.2.2.2.2.2.2.2.2.2.2.2.2.2.2.2.2.2.2.2.2.2.2.2.2.2.2.2.2.2.2.2.2.2.2.2.1
theorem line_v157 (V : Valuation τ sig (Elt F)) : R V main_v157 = (broadcastInDim S1x1x32 ![2] bcast_S32_S1x1x32_2 : (⟨S32, .f32⟩ : BufTy).Contents (Elt F) → (⟨S1x1x32, .f32⟩ : BufTy).Contents (Elt F)) (R V main_arg40) := (lines2 V).2.2.2.2.2.2.2.2.2.2.2.2.2.2.2.2.2.2.2.2.2.2.2.2.2.2.2.2.2.2.2.2.2.2.2.2.2.2.2.2.2.2.2.2.2.2.2.2.2.2.2.2.2.2.2.2.1
theorem line_v158 (V : Valuation τ sig (Elt F)) : R V main_v158 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v157) := (lines2 V).2.2.2.2.2.2.2.2.2.2.2.2.2.2.2.2.2.2.2.2.2.2.2.2.2.2.2.2.2.2.2.2.2.2.2.2.2.2.2.2.2.2.2.2.2.2.2.2.2.2.2.2.2.2.2.2.2.1
theorem line_v159 (V : Valuation τ sig (Elt F)) : R V main_v159 = (mulf : (⟨S2x65536x32, .f32⟩ : BufTy).Contents (Elt F) → (⟨S2x65536x32, .f32⟩ : BufTy).Contents (Elt F) → (⟨S2x65536x32, .f32⟩ : BufTy).Contents (Elt F)) (R V main_v156) (R V main_v158) := (lines2 V).2.2.2.2.2.2.2.2.2.2.2.2.2.2.2.2.2.2.2.2.2.2.2.2.2.2.2.2.2.2.2.2.2.2.2.2.2.2.2.2.2.2.2.2.2.2.2.2.2.2.2.2.2.2.2.2.2.2.1
theorem line_v160 (V : Valuation τ sig (Elt F)) : R V main_v160 = (broadcastInDim S1x1x32 ![2] bcast_S32_S1x1x32_2 : (⟨S32, .f32⟩ : BufTy).Contents (Elt F) → (⟨S1x1x32, .f32⟩ : BufTy).Contents (Elt F)) (R V main_arg41) := (lines2 V).2.2.2.2.2.2.2.2.2.2.2.2.2.2.2.2.2.2.2.2.2.2.2.2.2.2.2.2.2.2.2.2.2.2.2.2.2.2.2.2.2.2.2.2.2.2.2.2.2.2.2.2.2.2.2.2.2.2.2.1
theorem line_v161 (V : Valuation τ sig (Elt F)) : R V main_v161 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v160) := (lines2 V).2.2.2.2.2.2.2.2.2.2.2.2.2.2.2.2.2.2.2.2.2.2.2.2.2.2.2.2.2.2.2.2.2.2.2.2.2.2.2.2.2.2.2.2.2.2.2.2.2.2.2.2.2.2.2.2.2.2.2.2.1
theorem line_v162 (V : Valuation τ sig (Elt F)) : R V main_v162 = (addf : (⟨S2x65536x32, .f32⟩ : BufTy).Contents (Elt F) → (⟨S2x65536x32, .f32⟩ : BufTy).Contents (Elt F) → (⟨S2x65536x32, .f32⟩ : BufTy).Contents (Elt F)) (R V main_v159) (R V main_v161) := (lines2 V).2.2.2.2.2.2.2.2.2.2.2.2.2.2.2.2.2.2.2.2.2.2.2.2.2.2.2.2.2.2.2.2.2.2.2.2.2.2.2.2.2.2.2.2.2.2.2.2.2.2.2.2.2.2.2.2.2.2.2.2.2

end Cert.RefRun

end
-- ==== Proof.RefLines3.lean ====
/-
  The reference's lines as equations between final contents, window 3 (25 operations). Every buffer the program
  writes is written by exactly one operation, and holds that operation's function of what the program leaves in its
  operands' buffers: the printed line, read as an equation. One theorem per operation, named after the buffer it
  writes; a callee's line is over the buffers the call names.
-/
import proofs.«138937_j6992206758069_2_alg».proof.Proof.RefR

noncomputable section

namespace Cert.RefRun

open Cert.ReferenceIdeal Cert.ReferenceIdeal.Facts₀ Cert.ReferenceIdeal.Facts Idealize.ShloMosaic Idealize.ShloMosaic.TcCoe Idealize.SL.Sem Idealize.ShloMosaic.StableHlo Cert.Ssa

variable {F : FTy → Type} [FloatOps F] [Cert.ReferenceIdeal.Facts]

set_option maxRecDepth 16384 in
set_option maxHeartbeats 4000000 in
/-- Window 3's lines, together: the fixed point's conjuncts peeled one by one (at a callee's line the transport of
    contents along the equality of a buffer's type with its value's type is the identity). -/
theorem lines3 (V : Valuation τ sig (Elt F)) :
    (R V main_call5_cst = (constant S_ .f32 0x00000000#32))
    ∧ (R V main_call5_v0 = (broadcastInDim S2x65536x32 ![] bcast_S_S2x65536x32 : (⟨S_, .f32⟩ : BufTy).Contents (Elt F) → (⟨S2x65536x32, .f32⟩ : BufTy).Contents (Elt F)) (R V main_call5_cst))
    ∧ (R V main_v163 = (maximumf : (⟨S2x65536x32, .f32⟩ : BufTy).Contents (Elt F) → (⟨S2x65536x32, .f32⟩ : BufTy).Contents (Elt F) → (⟨S2x65536x32, .f32⟩ : BufTy).Contents (Elt F)) (R V main_v162) (R V main_call5_v0))
    ∧ (R V main_v164 = ((fun l r => Host.dotGeneral dot_S2x65536x32_S32x32_S2x65536x32_2_1_01_0_n_n none l r) : (⟨S2x65536x32, .f32⟩ : BufTy).Contents (Elt F) → (⟨S32x32, .f32⟩ : BufTy).Contents (Elt F) → (⟨S2x65536x32, .f32⟩ : BufTy).Contents (Elt F)) (R V main_v163) (R V main_arg42))
    ∧ (R V main_v165 = (broadcastInDim S1x1x32 ![2] bcast_S32_S1x1x32_2 : (⟨S32, .f32⟩ : BufTy).Contents (Elt F) → (⟨S1x1x32, .f32⟩ : BufTy).Contents (Elt F)) (R V main_arg43))
    ∧ (R V main_v166 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v165))
    ∧ (R V main_v167 = (addf : (⟨S2x65536x32, .f32⟩ : BufTy).Contents (Elt F) → (⟨S2x65536x32, .f32⟩ : BufTy).Contents (Elt F) → (⟨S2x65536x32, .f32⟩ : BufTy).Contents (Elt F)) (R V main_v164) (R V main_v166))
    ∧ (R V main_v168 = ((fun l r => Host.dotGeneral dot_S2x65536x32_S32x32_S2x65536x32_2_1_01_0_n_n none l r) : (⟨S2x65536x32, .f32⟩ : BufTy).Contents (Elt F) → (⟨S32x32, .f32⟩ : BufTy).Contents (Elt F) → (⟨S2x65536x32, .f32⟩ : BufTy).Contents (Elt F)) (R V main_v167) (R V main_arg44))
    ∧ (R V main_v169 = (broadcastInDim S1x1x32 ![2] bcast_S32_S1x1x32_2 : (⟨S32, .f32⟩ : BufTy).Contents (Elt F) → (⟨S1x1x32, .f32⟩ : BufTy).Contents (Elt F)) (R V main_arg45))
    ∧ (R V main_v170 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v169))
    ∧ (R V main_v171 = (addf : (⟨S2x65536x32, .f32⟩ : BufTy).Contents (Elt F) → (⟨S2x65536x32, .f32⟩ : BufTy).Contents (Elt F) → (⟨S2x65536x32, .f32⟩ : BufTy).Contents (Elt F)) (R V main_v168) (R V main_v170))
    ∧ (R V main_v172 = ((fun l r => Host.dotGeneral dot_S2x65536x32_S32x32_S2x65536x32_2_1_01_0_n_n none l r) : (⟨S2x65536x32, .f32⟩ : BufTy).Contents (Elt F) → (⟨S32x32, .f32⟩ : BufTy).Contents (Elt F) → (⟨S2x65536x32, .f32⟩ : BufTy).Contents (Elt F)) (R V main_v171) (R V main_arg46))
    ∧ (R V main_v173 = (broadcastInDim S1x1x32 ![2] bcast_S32_S1x1x32_2 : (⟨S32, .f32⟩ : BufTy).Contents (Elt F) → (⟨S1x1x32, .f32⟩ : BufTy).Contents (Elt F)) (R V main_arg47))
    ∧ (R V main_v174 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v173))
    ∧ (R V main_v175 = (addf : (⟨S2x65536x32, .f32⟩ : BufTy).Contents (Elt F) → (⟨S2x65536x32, .f32⟩ : BufTy).Contents (Elt F) → (⟨S2x65536x32, .f32⟩ : BufTy).Contents (Elt F)) (R V main_v172) (R V main_v174))
    ∧ (R V main_v176 = (addf : (⟨S2x65536x32, .f32⟩ : BufTy).Contents (Elt F) → (⟨S2x65536x32, .f32⟩ : BufTy).Contents (Elt F) → (⟨S2x65536x32, .f32⟩ : BufTy).Contents (Elt F)) (R V main_v175) (R V main_v93))
    ∧ (R V main_v177 = (addf : (⟨S2x65536x32, .f32⟩ : BufTy).Contents (Elt F) → (⟨S2x65536x32, .f32⟩ : BufTy).Contents (Elt F) → (⟨S2x65536x32, .f32⟩ : BufTy).Contents (Elt F)) (R V main_v176) (R V main_v135))
    ∧ (R V main_cst_15 = (constant S_ .f32 0x3C23D70A#32))
    ∧ (R V main_call6_cst = (constant S_ .f32 0x00000000#32))
    ∧ (R V main_call6_v0 = (broadcastInDim S2x65536x32 ![] bcast_S_S2x65536x32 : (⟨S_, .f32⟩ : BufTy).Contents (Elt F) → (⟨S2x65536x32, .f32⟩ : BufTy).Contents (Elt F)) (R V main_call6_cst))
    ∧ (R V main_call6_v1 = (cmpf .oge : (⟨S2x65536x32, .f32⟩ : BufTy).Contents (Elt F) → (⟨S2x65536x32, .f32⟩ : BufTy).Contents (Elt F) → (⟨S2x65536x32, .i1⟩ : BufTy).Contents (Elt F)) (R V main_v177) (R V main_call6_v0))
    ∧ (R V main_call6_v2 = (id : (⟨S_, .f32⟩ : BufTy).Contents (Elt F) → (⟨S_, .f32⟩ : BufTy).Contents (Elt F)) (R V main_cst_15))
    ∧ (R V main_call6_v3 = (broadcastInDim S2x65536x32 ![] bcast_S_S2x65536x32 : (⟨S_, .f32⟩ : BufTy).Contents (Elt F) → (⟨S2x65536x32, .f32⟩ : BufTy).Contents (Elt F)) (R V main_call6_v2))
    ∧ (R V main_call6_v4 = (mulf : (⟨S2x65536x32, .f32⟩ : BufTy).Contents (Elt F) → (⟨S2x65536x32, .f32⟩ : BufTy).Contents (Elt F) → (⟨S2x65536x32, .f32⟩ : BufTy).Contents (Elt F)) (R V main_call6_v3) (R V main_v177))
    ∧ (R V main_v178 = (select : (⟨S2x65536x32, .i1⟩ : BufTy).Contents (Elt F) → (⟨S2x65536x32, .f32⟩ : BufTy).Contents (Elt F) → (⟨S2x65536x32, .f32⟩ : BufTy).Contents (Elt F) → (⟨S2x65536x32, .f32⟩ : BufTy).Contents (Elt F)) (R V main_call6_v1) (R V main_v177) (R V main_call6_v4)) := by
  have h := eqs3 V
  refine ⟨((eqs_nullary _ _ _).mp h).1, ?_⟩
  have h := ((eqs_nullary _ _ _).mp h).2
  refine ⟨?_, ?_⟩
  · have e := ((eqs_unary _ _ _ _ _).mp h).1
    simp only [cast_eq] at e
    exact e
  have h := ((eqs_unary _ _ _ _ _).mp h).2
  refine ⟨?_, ?_⟩
  · have e := ((eqs_binary _ _ _ _ _ _ _).mp h).1
    simp only [cast_eq] at e
    exact e
  have h := ((eqs_binary _ _ _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_binary _ _ _ _ _ _ _).mp h).1, ?_⟩
  have h := ((eqs_binary _ _ _ _ _ _ _).mp h).2
  refine ⟨((eqs_unary _ _ _ _ _).mp h).1, ?_⟩
  have h := ((eqs_unary _ _ _ _ _).mp h).2
  refine ⟨((eqs_unary _ _ _ _ _).mp h).1, ?_⟩
  have h := ((eqs_unary _ _ _ _ _).mp h).2
  refine ⟨((eqs_binary _ _ _ _ _ _ _).mp h).1, ?_⟩
  have h := ((eqs_binary _ _ _ _ _ _ _).mp h).2
  refine ⟨((eqs_binary _ _ _ _ _ _ _).mp h).1, ?_⟩
  have h := ((eqs_binary _ _ _ _ _ _ _).mp h).2
  refine ⟨((eqs_binary _ _ _ _ _ _ _).mp h).1, ?_⟩
  have h := ((eqs_binary _ _ _ _ _ _ _).mp h).2
  refine ⟨((eqs_nullary _ _ _).mp h).1, ?_⟩
  have h := ((eqs_nullary _ _ _).mp h).2
  refine ⟨((eqs_nullary _ _ _).mp h).1, ?_⟩
  have h := ((eqs_nullary _ _ _).mp h).2
  refine ⟨?_, ?_⟩
  · have e := ((eqs_unary _ _ _ _ _).mp h).1
    simp only [cast_eq] at e
    exact e
  have h := ((eqs_unary _ _ _ _ _).mp h).2
  refine ⟨?_, ?_⟩
  · have e := ((eqs_binary _ _ _ _ _ _ _).mp h).1
    simp only [cast_eq] at e
    exact e
  have h := ((eqs_binary _ _ _ _ _ _ _).mp h).2
  refine ⟨?_, ?_⟩
  · have e := ((eqs_unary _ _ _ _ _).mp h).1
    simp only [cast_eq] at e
    exact e
  have h := ((eqs_unary _ _ _ _ _).mp h).2
  refine ⟨?_, ?_⟩
  · have e := ((eqs_unary _ _ _ _ _).mp h).1
    simp only [cast_eq] at e
    exact e
  have h := ((eqs_unary _ _ _ _ _).mp h).2
  refine ⟨?_, ?_⟩
  · have e := ((eqs_binary _ _ _ _ _ _ _).mp h).1
    simp only [cast_eq] at e
    exact e
  have h := ((eqs_binary _ _ _ _ _ _ _).mp h).2
  have e := ((eqs_ternary _ _ _ _ _ _ _ _ _).mp h).1
  simp only [cast_eq] at e
  exact e

theorem line_call5_cst (V : Valuation τ sig (Elt F)) : R V main_call5_cst = (constant S_ .f32 0x00000000#32) := (lines3 V).1
theorem line_call5_v0 (V : Valuation τ sig (Elt F)) : R V main_call5_v0 = (broadcastInDim S2x65536x32 ![] bcast_S_S2x65536x32 : (⟨S_, .f32⟩ : BufTy).Contents (Elt F) → (⟨S2x65536x32, .f32⟩ : BufTy).Contents (Elt F)) (R V main_call5_cst) := (lines3 V).2.1
theorem line_v163 (V : Valuation τ sig (Elt F)) : R V main_v163 = (maximumf : (⟨S2x65536x32, .f32⟩ : BufTy).Contents (Elt F) → (⟨S2x65536x32, .f32⟩ : BufTy).Contents (Elt F) → (⟨S2x65536x32, .f32⟩ : BufTy).Contents (Elt F)) (R V main_v162) (R V main_call5_v0) := (lines3 V).2.2.1
theorem line_v164 (V : Valuation τ sig (Elt F)) : R V main_v164 = ((fun l r => Host.dotGeneral dot_S2x65536x32_S32x32_S2x65536x32_2_1_01_0_n_n none l r) : (⟨S2x65536x32, .f32⟩ : BufTy).Contents (Elt F) → (⟨S32x32, .f32⟩ : BufTy).Contents (Elt F) → (⟨S2x65536x32, .f32⟩ : BufTy).Contents (Elt F)) (R V main_v163) (R V main_arg42) := (lines3 V).2.2.2.1
theorem line_v165 (V : Valuation τ sig (Elt F)) : R V main_v165 = (broadcastInDim S1x1x32 ![2] bcast_S32_S1x1x32_2 : (⟨S32, .f32⟩ : BufTy).Contents (Elt F) → (⟨S1x1x32, .f32⟩ : BufTy).Contents (Elt F)) (R V main_arg43) := (lines3 V).2.2.2.2.1
theorem line_v166 (V : Valuation τ sig (Elt F)) : R V main_v166 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v165) := (lines3 V).2.2.2.2.2.1
theorem line_v167 (V : Valuation τ sig (Elt F)) : R V main_v167 = (addf : (⟨S2x65536x32, .f32⟩ : BufTy).Contents (Elt F) → (⟨S2x65536x32, .f32⟩ : BufTy).Contents (Elt F) → (⟨S2x65536x32, .f32⟩ : BufTy).Contents (Elt F)) (R V main_v164) (R V main_v166) := (lines3 V).2.2.2.2.2.2.1
theorem line_v168 (V : Valuation τ sig (Elt F)) : R V main_v168 = ((fun l r => Host.dotGeneral dot_S2x65536x32_S32x32_S2x65536x32_2_1_01_0_n_n none l r) : (⟨S2x65536x32, .f32⟩ : BufTy).Contents (Elt F) → (⟨S32x32, .f32⟩ : BufTy).Contents (Elt F) → (⟨S2x65536x32, .f32⟩ : BufTy).Contents (Elt F)) (R V main_v167) (R V main_arg44) := (lines3 V).2.2.2.2.2.2.2.1
theorem line_v169 (V : Valuation τ sig (Elt F)) : R V main_v169 = (broadcastInDim S1x1x32 ![2] bcast_S32_S1x1x32_2 : (⟨S32, .f32⟩ : BufTy).Contents (Elt F) → (⟨S1x1x32, .f32⟩ : BufTy).Contents (Elt F)) (R V main_arg45) := (lines3 V).2.2.2.2.2.2.2.2.1
theorem line_v170 (V : Valuation τ sig (Elt F)) : R V main_v170 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v169) := (lines3 V).2.2.2.2.2.2.2.2.2.1
theorem line_v171 (V : Valuation τ sig (Elt F)) : R V main_v171 = (addf : (⟨S2x65536x32, .f32⟩ : BufTy).Contents (Elt F) → (⟨S2x65536x32, .f32⟩ : BufTy).Contents (Elt F) → (⟨S2x65536x32, .f32⟩ : BufTy).Contents (Elt F)) (R V main_v168) (R V main_v170) := (lines3 V).2.2.2.2.2.2.2.2.2.2.1
theorem line_v172 (V : Valuation τ sig (Elt F)) : R V main_v172 = ((fun l r => Host.dotGeneral dot_S2x65536x32_S32x32_S2x65536x32_2_1_01_0_n_n none l r) : (⟨S2x65536x32, .f32⟩ : BufTy).Contents (Elt F) → (⟨S32x32, .f32⟩ : BufTy).Contents (Elt F) → (⟨S2x65536x32, .f32⟩ : BufTy).Contents (Elt F)) (R V main_v171) (R V main_arg46) := (lines3 V).2.2.2.2.2.2.2.2.2.2.2.1
theorem line_v173 (V : Valuation τ sig (Elt F)) : R V main_v173 = (broadcastInDim S1x1x32 ![2] bcast_S32_S1x1x32_2 : (⟨S32, .f32⟩ : BufTy).Contents (Elt F) → (⟨S1x1x32, .f32⟩ : BufTy).Contents (Elt F)) (R V main_arg47) := (lines3 V).2.2.2.2.2.2.2.2.2.2.2.2.1
theorem line_v174 (V : Valuation τ sig (Elt F)) : R V main_v174 = (broadcastInDim S2x65536x32 ![0, 1, 2] bcast_S1x1x32_S2x65536x32_0_1_2 : (⟨S1x1x32, .f32⟩ : BufTy).Contents (Elt F) → (⟨S2x65536x32, .f32⟩ : BufTy).Contents (Elt F)) (R V main_v173) := (lines3 V).2.2.2.2.2.2.2.2.2.2.2.2.2.1
theorem line_v175 (V : Valuation τ sig (Elt F)) : R V main_v175 = (addf : (⟨S2x65536x32, .f32⟩ : BufTy).Contents (Elt F) → (⟨S2x65536x32, .f32⟩ : BufTy).Contents (Elt F) → (⟨S2x65536x32, .f32⟩ : BufTy).Contents (Elt F)) (R V main_v172) (R V main_v174) := (lines3 V).2.2.2.2.2.2.2.2.2.2.2.2.2.2.1
theorem line_v176 (V : Valuation τ sig (Elt F)) : R V main_v176 = (addf : (⟨S2x65536x32, .f32⟩ : BufTy).Contents (Elt F) → (⟨S2x65536x32, .f32⟩ : BufTy).Contents (Elt F) → (⟨S2x65536x32, .f32⟩ : BufTy).Contents (Elt F)) (R V main_v175) (R V main_v93) := (lines3 V).2.2.2.2.2.2.2.2.2.2.2.2.2.2.2.1
theorem line_v177 (V : Valuation τ sig (Elt F)) : R V main_v177 = (addf : (⟨S2x65536x32, .f32⟩ : BufTy).Contents (Elt F) → (⟨S2x65536x32, .f32⟩ : BufTy).Contents (Elt F) → (⟨S2x65536x32, .f32⟩ : BufTy).Contents (Elt F)) (R V main_v176) (R V main_v135) := (lines3 V).2.2.2.2.2.2.2.2.2.2.2.2.2.2.2.2.1
theorem line_cst_15 (V : Valuation τ sig (Elt F)) : R V main_cst_15 = (constant S_ .f32 0x3C23D70A#32) := (lines3 V).2.2.2.2.2.2.2.2.2.2.2.2.2.2.2.2.2.1
theorem line_call6_cst (V : Valuation τ sig (Elt F)) : R V main_call6_cst = (constant S_ .f32 0x00000000#32) := (lines3 V).2.2.2.2.2.2.2.2.2.2.2.2.2.2.2.2.2.2.1
theorem line_call6_v0 (V : Valuation τ sig (Elt F)) : R V main_call6_v0 = (broadcastInDim S2x65536x32 ![] bcast_S_S2x65536x32 : (⟨S_, .f32⟩ : BufTy).Contents (Elt F) → (⟨S2x65536x32, .f32⟩ : BufTy).Contents (Elt F)) (R V main_call6_cst) := (lines3 V).2.2.2.2.2.2.2.2.2.2.2.2.2.2.2.2.2.2.2.1
theorem line_call6_v1 (V : Valuation τ sig (Elt F)) : R V main_call6_v1 = (cmpf .oge : (⟨S2x65536x32, .f32⟩ : BufTy).Contents (Elt F) → (⟨S2x65536x32, .f32⟩ : BufTy).Contents (Elt F) → (⟨S2x65536x32, .i1⟩ : BufTy).Contents (Elt F)) (R V main_v177) (R V main_call6_v0) := (lines3 V).2.2.2.2.2.2.2.2.2.2.2.2.2.2.2.2.2.2.2.2.1
theorem line_call6_v2 (V : Valuation τ sig (Elt F)) : R V main_call6_v2 = (id : (⟨S_, .f32⟩ : BufTy).Contents (Elt F) → (⟨S_, .f32⟩ : BufTy).Contents (Elt F)) (R V main_cst_15) := (lines3 V).2.2.2.2.2.2.2.2.2.2.2.2.2.2.2.2.2.2.2.2.2.1
theorem line_call6_v3 (V : Valuation τ sig (Elt F)) : R V main_call6_v3 = (broadcastInDim S2x65536x32 ![] bcast_S_S2x65536x32 : (⟨S_, .f32⟩ : BufTy).Contents (Elt F) → (⟨S2x65536x32, .f32⟩ : BufTy).Contents (Elt F)) (R V main_call6_v2) := (lines3 V).2.2.2.2.2.2.2.2.2.2.2.2.2.2.2.2.2.2.2.2.2.2.1
theorem line_call6_v4 (V : Valuation τ sig (Elt F)) : R V main_call6_v4 = (mulf : (⟨S2x65536x32, .f32⟩ : BufTy).Contents (Elt F) → (⟨S2x65536x32, .f32⟩ : BufTy).Contents (Elt F) → (⟨S2x65536x32, .f32⟩ : BufTy).Contents (Elt F)) (R V main_call6_v3) (R V main_v177) := (lines3 V).2.2.2.2.2.2.2.2.2.2.2.2.2.2.2.2.2.2.2.2.2.2.2.1
theorem line_v178 (V : Valuation τ sig (Elt F)) : R V main_v178 = (select : (⟨S2x65536x32, .i1⟩ : BufTy).Contents (Elt F) → (⟨S2x65536x32, .f32⟩ : BufTy).Contents (Elt F) → (⟨S2x65536x32, .f32⟩ : BufTy).Contents (Elt F) → (⟨S2x65536x32, .f32⟩ : BufTy).Contents (Elt F)) (R V main_call6_v1) (R V main_v177) (R V main_call6_v4) := (lines3 V).2.2.2.2.2.2.2.2.2.2.2.2.2.2.2.2.2.2.2.2.2.2.2.2

end Cert.RefRun

end
-- ==== Proof.RefLines.lean ====
/-
  The reference's lines as equations between final contents: the four windows' theorems, together.
-/
import proofs.«138937_j6992206758069_2_alg».proof.Proof.RefLines0
import proofs.«138937_j6992206758069_2_alg».proof.Proof.RefLines1
import proofs.«138937_j6992206758069_2_alg».proof.Proof.RefLines2
import proofs.«138937_j6992206758069_2_alg».proof.Proof.RefLines3
-- ==== Proof.RefLay.lean ====
/-
  Layout lemmas for the reference program's lines, read at one index: a dense layer is a sum over the
  contracted channel, a per-channel vector laid over every point, a per-point row laid over the neighbours,
  a scalar laid over everything. Stated over natural-number extents, so that one lemma serves every
  channel count.
-/
import Idealize.ShloMosaic.Lib.ValueIdx
import Idealize.ShloMosaic.Lib.IdealHost
import Idealize.ShloMosaic.Lib.Pipeline.Value
import Idealize.ShloMosaic.PureOps.Ideal.Laws

noncomputable section

namespace Cert.RefA

open Idealize.ShloMosaic Idealize.ShloMosaic.ValueIdx

/-- The dimension numbers of a dense layer on a rank-4 activation: the last axis of the activation is contracted
    with axis 1 of the weight matrix. -/
def dense4 (B N K Ci Co : ℕ)
    (wf : DotDims.WF ⟨4, ![B, N, K, Ci]⟩ ⟨2, ![Co, Ci]⟩ ⟨4, ![B, N, K, Co]⟩ [3] [1] [0, 1, 2] [0] [] []) :
    DotDims ⟨4, ![B, N, K, Ci]⟩ ⟨2, ![Co, Ci]⟩ ⟨4, ![B, N, K, Co]⟩ where
  lhsContracting := [3]
  rhsContracting := [1]
  lhsNonContracting := [0, 1, 2]
  rhsNonContracting := [0]
  lhsBatch := []
  rhsBatch := []
  wf := wf

/-- A dense layer on a rank-4 activation at an index: the sum over the input channel of activation times weight. -/
theorem dense4_apply (B N K Ci Co : ℕ)
    (wf : DotDims.WF ⟨4, ![B, N, K, Ci]⟩ ⟨2, ![Co, Ci]⟩ ⟨4, ![B, N, K, Co]⟩ [3] [1] [0, 1, 2] [0] [] [])
    (X : FVec Ideal ⟨4, ![B, N, K, Ci]⟩ .f32) (W : FVec Ideal ⟨2, ![Co, Ci]⟩ .f32)
    (b : Fin B) (n : Fin N) (k : Fin K) (o : Fin Co) :
    Host.dotGeneral (F := Ideal) (dense4 B N K Ci Co wf) none X W (ix4 b n k o)
      = ∑ i : Fin Ci, X (ix4 b n k i) * W (ix2 o i) := by
  refine (Ideal.dotGeneral_apply (dense4 B N K Ci Co wf) none .single X W (ix4 b n k o)).trans ?_
  rw [← Equiv.sum_comp (contrEquiv1 (dense4 B N K Ci Co wf) Ci rfl rfl).symm]
  refine Finset.sum_congr rfl fun i _ => ?_
  have hl : (dense4 B N K Ci Co wf).lhsIdx (ix4 b n k o) ((contrEquiv1 (dense4 B N K Ci Co wf) Ci rfl rfl).symm i) = ix4 b n k i := by
    funext a
    apply Fin.ext
    match a with
    | ⟨0, _⟩ => rfl
    | ⟨1, _⟩ => rfl
    | ⟨2, _⟩ => rfl
    | ⟨3, _⟩ =>
      exact ((dense4 B N K Ci Co wf).lhsIdx_val_of_single (cl := 3) rfl _ _).trans
        (contrEquiv1_symm_val (dense4 B N K Ci Co wf) Ci rfl rfl i)
  have hr : (dense4 B N K Ci Co wf).rhsIdx (ix4 b n k o) ((contrEquiv1 (dense4 B N K Ci Co wf) Ci rfl rfl).symm i) = ix2 o i := by
    funext a
    apply Fin.ext
    match a with
    | ⟨0, _⟩ => rfl
    | ⟨1, _⟩ =>
      exact ((dense4 B N K Ci Co wf).rhsIdx_val_of_single (cr := 1) rfl _ _).trans
        (contrEquiv1_symm_val (dense4 B N K Ci Co wf) Ci rfl rfl i)
  rw [hl, hr]

/-- The dimension numbers of a dense layer on a rank-3 activation: its last axis against axis 1 of the weight matrix. -/
def dense3 (B N Ci Co : ℕ)
    (wf : DotDims.WF ⟨3, ![B, N, Ci]⟩ ⟨2, ![Co, Ci]⟩ ⟨3, ![B, N, Co]⟩ [2] [1] [0, 1] [0] [] []) :
    DotDims ⟨3, ![B, N, Ci]⟩ ⟨2, ![Co, Ci]⟩ ⟨3, ![B, N, Co]⟩ where
  lhsContracting := [2]
  rhsContracting := [1]
  lhsNonContracting := [0, 1]
  rhsNonContracting := [0]
  lhsBatch := []
  rhsBatch := []
  wf := wf

/-- A dense layer on a rank-3 activation at an index. -/
theorem dense3_apply (B N Ci Co : ℕ)
    (wf : DotDims.WF ⟨3, ![B, N, Ci]⟩ ⟨2, ![Co, Ci]⟩ ⟨3, ![B, N, Co]⟩ [2] [1] [0, 1] [0] [] [])
    (X : FVec Ideal ⟨3, ![B, N, Ci]⟩ .f32) (W : FVec Ideal ⟨2, ![Co, Ci]⟩ .f32)
    (b : Fin B) (n : Fin N) (o : Fin Co) :
    Host.dotGeneral (F := Ideal) (dense3 B N Ci Co wf) none X W (ix3 b n o)
      = ∑ i : Fin Ci, X (ix3 b n i) * W (ix2 o i) := by
  refine (Ideal.dotGeneral_apply (dense3 B N Ci Co wf) none .single X W (ix3 b n o)).trans ?_
  rw [← Equiv.sum_comp (contrEquiv1 (dense3 B N Ci Co wf) Ci rfl rfl).symm]
  refine Finset.sum_congr rfl fun i _ => ?_
  have hl : (dense3 B N Ci Co wf).lhsIdx (ix3 b n o) ((contrEquiv1 (dense3 B N Ci Co wf) Ci rfl rfl).symm i) = ix3 b n i := by
    funext a
    apply Fin.ext
    match a with
    | ⟨0, _⟩ => rfl
    | ⟨1, _⟩ => rfl
    | ⟨2, _⟩ =>
      exact ((dense3 B N Ci Co wf).lhsIdx_val_of_single (cl := 2) rfl _ _).trans
        (contrEquiv1_symm_val (dense3 B N Ci Co wf) Ci rfl rfl i)
  have hr : (dense3 B N Ci Co wf).rhsIdx (ix3 b n o) ((contrEquiv1 (dense3 B N Ci Co wf) Ci rfl rfl).symm i) = ix2 o i := by
    funext a
    apply Fin.ext
    match a with
    | ⟨0, _⟩ => rfl
    | ⟨1, _⟩ =>
      exact ((dense3 B N Ci Co wf).rhsIdx_val_of_single (cr := 1) rfl _ _).trans
        (contrEquiv1_symm_val (dense3 B N Ci Co wf) Ci rfl rfl i)
  rw [hl, hr]

/-- A per-channel vector laid over every point and neighbour: first as a (1,1,1,C) array, then over (B,N,K,C). -/
theorem chan4_apply (B N K C : ℕ)
    (h1 : (⟨1, ![C]⟩ : Shape).BroadcastsInDim ⟨4, ![1, 1, 1, C]⟩ ![3])
    (h2 : (⟨4, ![1, 1, 1, C]⟩ : Shape).BroadcastsInDim ⟨4, ![B, N, K, C]⟩ ![0, 1, 2, 3])
    {α : Type} (v : (⟨1, ![C]⟩ : Shape).Idx → α) (b : Fin B) (n : Fin N) (k : Fin K) (c : Fin C) :
    broadcastInDim ⟨4, ![B, N, K, C]⟩ ![0, 1, 2, 3] h2 (broadcastInDim ⟨4, ![1, 1, 1, C]⟩ ![3] h1 v) (ix4 b n k c) = v (ix1 c) := by
  refine (broadcastInDim_apply _ h2 _ (ix4 b n k c) (ix4 0 0 0 c) ?_).trans ?_
  · intro a
    match a with
    | ⟨0, _⟩ => rfl
    | ⟨1, _⟩ => rfl
    | ⟨2, _⟩ => rfl
    | ⟨3, _⟩ =>
      show c.val = if C = 1 then 0 else c.val
      split
      · have := c.isLt; omega
      · rfl
  · refine broadcastInDim_apply _ h1 v (ix4 0 0 0 c) (ix1 c) ?_
    intro a
    match a with
    | ⟨0, _⟩ =>
      show c.val = if C = 1 then 0 else c.val
      split
      · have := c.isLt; omega
      · rfl

/-- The rank-3 twin: a per-channel vector laid over every point. -/
theorem chan3_apply (B N C : ℕ)
    (h1 : (⟨1, ![C]⟩ : Shape).BroadcastsInDim ⟨3, ![1, 1, C]⟩ ![2])
    (h2 : (⟨3, ![1, 1, C]⟩ : Shape).BroadcastsInDim ⟨3, ![B, N, C]⟩ ![0, 1, 2])
    {α : Type} (v : (⟨1, ![C]⟩ : Shape).Idx → α) (b : Fin B) (n : Fin N) (c : Fin C) :
    broadcastInDim ⟨3, ![B, N, C]⟩ ![0, 1, 2] h2 (broadcastInDim ⟨3, ![1, 1, C]⟩ ![2] h1 v) (ix3 b n c) = v (ix1 c) := by
  refine (broadcastInDim_apply _ h2 _ (ix3 b n c) (ix3 0 0 c) ?_).trans ?_
  · intro a
    match a with
    | ⟨0, _⟩ => rfl
    | ⟨1, _⟩ => rfl
    | ⟨2, _⟩ =>
      show c.val = if C = 1 then 0 else c.val
      split
      · have := c.isLt; omega
      · rfl
  · refine broadcastInDim_apply _ h1 v (ix3 0 0 c) (ix1 c) ?_
    intro a
    match a with
    | ⟨0, _⟩ =>
      show c.val = if C = 1 then 0 else c.val
      split
      · have := c.isLt; omega
      · rfl

/-- A per-point row laid over the neighbours: first as a (B,N,1,C) array, then over (B,N,K,C). -/
theorem row4_apply (B N K C : ℕ)
    (h1 : (⟨3, ![B, N, C]⟩ : Shape).BroadcastsInDim ⟨4, ![B, N, 1, C]⟩ ![0, 1, 3])
    (h2 : (⟨4, ![B, N, 1, C]⟩ : Shape).BroadcastsInDim ⟨4, ![B, N, K, C]⟩ ![0, 1, 2, 3])
    {α : Type} (f : (⟨3, ![B, N, C]⟩ : Shape).Idx → α) (b : Fin B) (n : Fin N) (k : Fin K) (c : Fin C) :
    broadcastInDim ⟨4, ![B, N, K, C]⟩ ![0, 1, 2, 3] h2 (broadcastInDim ⟨4, ![B, N, 1, C]⟩ ![0, 1, 3] h1 f) (ix4 b n k c) = f (ix3 b n c) := by
  refine (broadcastInDim_apply _ h2 _ (ix4 b n k c) (ix4 b n 0 c) ?_).trans ?_
  · intro a
    match a with
    | ⟨0, _⟩ =>
      show b.val = if B = 1 then 0 else b.val
      split
      · have := b.isLt; omega
      · rfl
    | ⟨1, _⟩ =>
      show n.val = if N = 1 then 0 else n.val
      split
      · have := n.isLt; omega
      · rfl
    | ⟨2, _⟩ => rfl
    | ⟨3, _⟩ =>
      show c.val = if C = 1 then 0 else c.val
      split
      · have := c.isLt; omega
      · rfl
  · refine broadcastInDim_apply _ h1 f (ix4 b n 0 c) (ix3 b n c) ?_
    intro a
    match a with
    | ⟨0, _⟩ =>
      show b.val = if B = 1 then 0 else b.val
      split
      · have := b.isLt; omega
      · rfl
    | ⟨1, _⟩ =>
      show n.val = if N = 1 then 0 else n.val
      split
      · have := n.isLt; omega
      · rfl
    | ⟨2, _⟩ =>
      show c.val = if C = 1 then 0 else c.val
      split
      · have := c.isLt; omega
      · rfl

end Cert.RefA

end
-- ==== Proof.RefPre.lean ====
/-
  The point's own branch of the reference at one point: a dense layer on the six coordinates, the leaky
  rectifier, and a second dense layer. Each line of the program is a hypothesis over array variables; the
  conclusion reads the last array at the point's index.
-/
import Idealize.ShloMosaic.Lib.ValueIdx
import Idealize.ShloMosaic.Lib.IdealHost
import Idealize.ShloMosaic.PureOps.Ideal.Laws
import proofs.«138937_j6992206758069_2_alg».proof.ReferenceIdeal
import proofs.«138937_j6992206758069_2_alg».proof.Proof.Net
import proofs.«138937_j6992206758069_2_alg».proof.Proof.RefLay

noncomputable section

namespace Cert.RefA

open Cert.ReferenceIdeal Cert.ReferenceIdeal.Facts₀ Idealize.ShloMosaic Idealize.ShloMosaic.ValueIdx

variable [Cert.ReferenceIdeal.Facts]

/-- The first dense layer on the point's row: lines %43 to %46. -/
theorem pre0_apply (P : Cert.Net.Params) (q : Fin 6 → EReal) (b : Fin 2) (p : Fin 65536)
    (a0 : FVec Ideal S2x65536x6 .f32) (a3 : FVec Ideal S8x6 .f32) (a4 : FVec Ideal S8 .f32)
    (v43 : FVec Ideal S2x65536x8 .f32) (v44 : FVec Ideal S1x1x8 .f32) (v45 v46 : FVec Ideal S2x65536x8 .f32)
    (e_v43 : v43 = Host.dotGeneral (F := Ideal) dot_S2x65536x6_S8x6_S2x65536x8_2_1_01_0_n_n none a0 a3)
    (e_v44 : v44 = broadcastInDim S1x1x8 ![2] bcast_S8_S1x1x8_2 a4)
    (e_v45 : v45 = broadcastInDim S2x65536x8 ![0, 1, 2] bcast_S1x1x8_S2x65536x8_0_1_2 v44)
    (e_v46 : v46 = addf v43 v45)
    (hq : ∀ j, a0 (ix3 b p j) = q j) (h3 : ∀ o i, a3 (ix2 o i) = P.w_mlp1 o i) (h4 : ∀ o, a4 (ix1 o) = P.b_mlp1 o)
    (c : Fin 8) : v46 (ix3 b p c) = Cert.Net.pre0 P q c := by
  subst e_v46 e_v45 e_v44 e_v43
  rw [addf_apply]
  refine (congrArg₂ (· + ·)
    (dense3_apply 2 65536 6 8 dot_S2x65536x6_S8x6_S2x65536x8_2_1_01_0_n_n_wf a0 a3 b p c)
    (chan3_apply 2 65536 8 bcast_S8_S1x1x8_2 bcast_S1x1x8_S2x65536x8_0_1_2 a4 b p c)).trans ?_
  unfold Cert.Net.pre0 Cert.Net.lin Cert.Net.mat
  rw [h4 c]
  refine congrArg (· + P.b_mlp1 c) (Finset.sum_congr rfl fun i _ => ?_)
  rw [hq i, h3 c i, mul_comm]

/-- The leaky rectifier and the second dense layer, from the first layer's values at the point: the constant
    %cst_2, the rectifier's own lines (zero, the comparison, the slope laid over the array, the product, the
    selection) and lines %48 to %51. -/
theorem feat0_of_pre0 (P : Cert.Net.Params) (q : Fin 6 → EReal) (b : Fin 2) (p : Fin 65536)
    (a5 : FVec Ideal S8x8 .f32) (a6 : FVec Ideal S8 .f32)
    (v46 : FVec Ideal S2x65536x8 .f32)
    (cst_2 call2_cst : FVec Ideal S_ .f32) (call2_v0 : FVec Ideal S2x65536x8 .f32) (call2_v1 : IVec S2x65536x8 1)
    (call2_v2 : FVec Ideal S_ .f32) (call2_v3 call2_v4 v47 v48 : FVec Ideal S2x65536x8 .f32)
    (v49 : FVec Ideal S1x1x8 .f32) (v50 v51 : FVec Ideal S2x65536x8 .f32)
    (e_cst_2 : cst_2 = constant (F := Ideal) S_ .f32 0x3E4CCCCD#32)
    (e_call2_cst : call2_cst = constant (F := Ideal) S_ .f32 0x00000000#32)
    (e_call2_v0 : call2_v0 = broadcastInDim S2x65536x8 ![] bcast_S_S2x65536x8 call2_cst)
    (e_call2_v1 : call2_v1 = cmpf .oge v46 call2_v0)
    (e_call2_v2 : call2_v2 = id cst_2)
    (e_call2_v3 : call2_v3 = broadcastInDim S2x65536x8 ![] bcast_S_S2x65536x8 call2_v2)
    (e_call2_v4 : call2_v4 = mulf call2_v3 v46)
    (e_v47 : v47 = select call2_v1 v46 call2_v4)
    (e_v48 : v48 = Host.dotGeneral (F := Ideal) dot_S2x65536x8_S8x8_S2x65536x8_2_1_01_0_n_n none v47 a5)
    (e_v49 : v49 = broadcastInDim S1x1x8 ![2] bcast_S8_S1x1x8_2 a6)
    (e_v50 : v50 = broadcastInDim S2x65536x8 ![0, 1, 2] bcast_S1x1x8_S2x65536x8_0_1_2 v49)
    (e_v51 : v51 = addf v48 v50)
    (h46 : ∀ c, v46 (ix3 b p c) = Cert.Net.pre0 P q c)
    (h5 : ∀ o i, a5 (ix2 o i) = P.w_mlp1_1 o i) (h6 : ∀ o, a6 (ix1 o) = P.b_mlp1_1 o)
    (c : Fin 8) : v51 (ix3 b p c) = Cert.Net.feat0 P q c := by
  subst e_v51 e_v50 e_v49 e_v48 e_v47 e_call2_v4 e_call2_v3 e_call2_v2 e_call2_v1 e_call2_v0 e_call2_cst e_cst_2
  rw [addf_apply]
  refine (congrArg₂ (· + ·)
    (dense3_apply 2 65536 8 8 dot_S2x65536x8_S8x8_S2x65536x8_2_1_01_0_n_n_wf _ a5 b p c)
    (chan3_apply 2 65536 8 bcast_S8_S1x1x8_2 bcast_S1x1x8_S2x65536x8_0_1_2 a6 b p c)).trans ?_
  unfold Cert.Net.feat0 Cert.Net.lin Cert.Net.mat
  rw [h6 c]
  refine congrArg (· + P.b_mlp1_1 c) (Finset.sum_congr rfl fun i _ => ?_)
  rw [h5 c i, mul_comm]
  refine congrArg (P.w_mlp1_1 c i * ·) ?_
  rw [select_apply, cmpf_apply, mulf_apply, broadcastInDim_scalar_apply, broadcastInDim_scalar_apply, h46 i]
  rfl

/-- The point's own eight features from the program's lines %43 to %51. -/
theorem feat0_apply (P : Cert.Net.Params) (q : Fin 6 → EReal) (b : Fin 2) (p : Fin 65536)
    (a0 : FVec Ideal S2x65536x6 .f32) (a3 : FVec Ideal S8x6 .f32) (a4 : FVec Ideal S8 .f32)
    (a5 : FVec Ideal S8x8 .f32) (a6 : FVec Ideal S8 .f32)
    (v43 : FVec Ideal S2x65536x8 .f32) (v44 : FVec Ideal S1x1x8 .f32) (v45 v46 : FVec Ideal S2x65536x8 .f32)
    (cst_2 call2_cst : FVec Ideal S_ .f32) (call2_v0 : FVec Ideal S2x65536x8 .f32) (call2_v1 : IVec S2x65536x8 1)
    (call2_v2 : FVec Ideal S_ .f32) (call2_v3 call2_v4 v47 v48 : FVec Ideal S2x65536x8 .f32)
    (v49 : FVec Ideal S1x1x8 .f32) (v50 v51 : FVec Ideal S2x65536x8 .f32)
    (e_v43 : v43 = Host.dotGeneral (F := Ideal) dot_S2x65536x6_S8x6_S2x65536x8_2_1_01_0_n_n none a0 a3)
    (e_v44 : v44 = broadcastInDim S1x1x8 ![2] bcast_S8_S1x1x8_2 a4)
    (e_v45 : v45 = broadcastInDim S2x65536x8 ![0, 1, 2] bcast_S1x1x8_S2x65536x8_0_1_2 v44)
    (e_v46 : v46 = addf v43 v45)
    (e_cst_2 : cst_2 = constant (F := Ideal) S_ .f32 0x3E4CCCCD#32)
    (e_call2_cst : call2_cst = constant (F := Ideal) S_ .f32 0x00000000#32)
    (e_call2_v0 : call2_v0 = broadcastInDim S2x65536x8 ![] bcast_S_S2x65536x8 call2_cst)
    (e_call2_v1 : call2_v1 = cmpf .oge v46 call2_v0)
    (e_call2_v2 : call2_v2 = id cst_2)
    (e_call2_v3 : call2_v3 = broadcastInDim S2x65536x8 ![] bcast_S_S2x65536x8 call2_v2)
    (e_call2_v4 : call2_v4 = mulf call2_v3 v46)
    (e_v47 : v47 = select call2_v1 v46 call2_v4)
    (e_v48 : v48 = Host.dotGeneral (F := Ideal) dot_S2x65536x8_S8x8_S2x65536x8_2_1_01_0_n_n none v47 a5)
    (e_v49 : v49 = broadcastInDim S1x1x8 ![2] bcast_S8_S1x1x8_2 a6)
    (e_v50 : v50 = broadcastInDim S2x65536x8 ![0, 1, 2] bcast_S1x1x8_S2x65536x8_0_1_2 v49)
    (e_v51 : v51 = addf v48 v50)
    (hq : ∀ j, a0 (ix3 b p j) = q j) (h3 : ∀ o i, a3 (ix2 o i) = P.w_mlp1 o i) (h4 : ∀ o, a4 (ix1 o) = P.b_mlp1 o)
    (h5 : ∀ o i, a5 (ix2 o i) = P.w_mlp1_1 o i) (h6 : ∀ o, a6 (ix1 o) = P.b_mlp1_1 o)
    (c : Fin 8) : v51 (ix3 b p c) = Cert.Net.feat0 P q c :=
  feat0_of_pre0 P q b p a5 a6 v46 cst_2 call2_cst call2_v0 call2_v1 call2_v2 call2_v3 call2_v4 v47 v48 v49 v50 v51
    e_cst_2 e_call2_cst e_call2_v0 e_call2_v1 e_call2_v2 e_call2_v3 e_call2_v4 e_v47 e_v48 e_v49 e_v50 e_v51
    (fun c' => pre0_apply P q b p a0 a3 a4 v43 v44 v45 v46 e_v43 e_v44 e_v45 e_v46 hq h3 h4 c') h5 h6 c

end Cert.RefA

end
-- ==== Proof.RefGeo.lean ====
/-
  The twenty geometric features of a neighbour, read off the reference's lines %7 to %20: the point's row laid over
  the neighbours, the gathered neighbour rows, their difference, and the Euclidean norms of the difference's
  first and last three coordinates, concatenated along the channel axis.
-/
import Idealize.ShloMosaic.Lib.ValueIdx
import Idealize.ShloMosaic.Lib.IdealHost
import Idealize.ShloMosaic.Lib.Pipeline.Value
import Idealize.ShloMosaic.PureOps.Ideal.Laws
import proofs.«138937_j6992206758069_2_alg».proof.ReferenceIdeal
import proofs.«138937_j6992206758069_2_alg».proof.Proof.Net
import proofs.«138937_j6992206758069_2_alg».proof.Proof.RefLay

noncomputable section

namespace Cert.RefA

open Cert.ReferenceIdeal Cert.ReferenceIdeal.Facts₀ Idealize.ShloMosaic Idealize.ShloMosaic.ValueIdx

/-- A host sum over the last axis of a rank-4 array, at an index: the initial value plus the sum over the channel. -/
theorem sumLast4_apply (B N K C : ℕ) (h' : (⟨4, ![B, N, K, C]⟩ : Shape).ReducesTo [3] ⟨3, ![B, N, K]⟩)
    (hu : 0 < (⟨0, ![]⟩ : Shape).numel)
    (x : FVec Ideal ⟨4, ![B, N, K, C]⟩ .f32) (init : FVec Ideal ⟨0, ![]⟩ .f32) (b : Fin B) (n : Fin N) (k : Fin K) :
    Host.reduceAdd (F := Ideal) x init h' hu (ix3 b n k) = init ix0 + ∑ d : Fin C, x (ix4 b n k d) := by
  have h : (⟨4, ![B, N, K, C]⟩ : Shape).Reduces [3] ⟨3, ![B, N, K]⟩ := ⟨h'.1, Nat.succ_pos 2, h'.2⟩
  rw [hostReduceAdd_apply]
  refine (Ideal.hostReduceAdd_single h' h x _ (ix3 b n k)).trans ?_
  refine congrArg₂ (· + ·) (congrArg init (funext fun a => a.elim0)) ?_
  show ∑ d : Fin C, x (h.lift (ix3 b n k) d) = ∑ d : Fin C, x (ix4 b n k d)
  refine Finset.sum_congr rfl fun d _ => congrArg x ?_
  funext c
  apply Fin.ext
  match c with
  | ⟨0, _⟩ => rfl
  | ⟨1, _⟩ => rfl
  | ⟨2, _⟩ => rfl
  | ⟨3, _⟩ => rfl

/-- A slice of the last axis of a rank-4 array from the offset `off`, at an index. -/
theorem sliceLast4_apply (B N K C C' off : ℕ) (hoff : off + C' ≤ C)
    (h : (⟨4, ![B, N, K, C]⟩ : Shape).Slices ![0, 0, 0, off] ⟨4, ![B, N, K, C']⟩) {α : Type}
    (x : (⟨4, ![B, N, K, C]⟩ : Shape).Idx → α) (b : Fin B) (n : Fin N) (k : Fin K) (d : Fin C') :
    extractStridedSlice ⟨4, ![B, N, K, C']⟩ ![0, 0, 0, off] x h (ix4 b n k d)
      = x (ix4 b n k ⟨off + d.val, by have := d.isLt; omega⟩) := by
  refine extractStridedSlice_apply _ x h (ix4 b n k d) (ix4 b n k ⟨off + d.val, by have := d.isLt; omega⟩) ?_
  intro a
  match a with
  | ⟨0, _⟩ => exact (Nat.zero_add _).symm
  | ⟨1, _⟩ => exact (Nat.zero_add _).symm
  | ⟨2, _⟩ => exact (Nat.zero_add _).symm
  | ⟨3, _⟩ => rfl

/-- A rank-3 array given a trailing unit axis, at an index. -/
theorem unit4_apply (B N K : ℕ) (h : (⟨3, ![B, N, K]⟩ : Shape).BroadcastsInDim ⟨4, ![B, N, K, 1]⟩ ![0, 1, 2]) {α : Type}
    (x : (⟨3, ![B, N, K]⟩ : Shape).Idx → α) (b : Fin B) (n : Fin N) (k : Fin K) (z : Fin 1) :
    broadcastInDim ⟨4, ![B, N, K, 1]⟩ ![0, 1, 2] h x (ix4 b n k z) = x (ix3 b n k) := by
  refine broadcastInDim_apply _ h x (ix4 b n k z) (ix3 b n k) ?_
  intro a
  match a with
  | ⟨0, _⟩ =>
    show b.val = if B = 1 then 0 else b.val
    split
    · have := b.isLt; omega
    · rfl
  | ⟨1, _⟩ =>
    show n.val = if N = 1 then 0 else n.val
    split
    · have := n.isLt; omega
    · rfl
  | ⟨2, _⟩ =>
    show k.val = if K = 1 then 0 else k.val
    split
    · have := k.isLt; omega
    · rfl

/-- The host's square root at an index is the square root of the element. -/
theorem hostSqrt_apply {s : Shape} (x : FVec Ideal s .f32) (i : s.Idx) : Host.sqrt x i = Ideal.sqrt (x i) := rfl

variable [Cert.ReferenceIdeal.Facts]

/-- The Euclidean norm of three consecutive coordinates of the difference, from the offset `off`: the slice, its
    square, the sum over the three, the unit axis and the square root. -/
theorem norm_apply (q : Fin 6 → EReal) (nbr : Fin 16 → Fin 6 → EReal) (b : Fin 2) (p : Fin 65536) (k : Fin 16)
    (off : ℕ) (hoff : off + 3 ≤ 6) (hs : S2x65536x16x6.Slices ![0, 0, 0, off] S2x65536x16x3)
    (v9 : FVec Ideal S2x65536x16x6 .f32) (v10 v11 : FVec Ideal S2x65536x16x3 .f32) (cst : FVec Ideal S_ .f32)
    (v12 : FVec Ideal S2x65536x16 .f32) (v13 v14 : FVec Ideal S2x65536x16x1 .f32)
    (e_v10 : v10 = extractStridedSlice S2x65536x16x3 ![0, 0, 0, off] v9 hs)
    (e_v11 : v11 = mulf v10 v10)
    (e_cst : cst = constant (F := Ideal) S_ .f32 0x00000000#32)
    (e_v12 : v12 = Host.reduceAdd (F := Ideal) v11 cst reducesTo_S2x65536x16x3_S2x65536x16_d3 h_S_)
    (e_v13 : v13 = broadcastInDim S2x65536x16x1 ![0, 1, 2] bcast_S2x65536x16_S2x65536x16x1_0_1_2 v12)
    (e_v14 : v14 = Host.sqrt v13)
    (h9 : ∀ j, v9 (ix4 b p k j) = Cert.Net.rel q nbr k j) (z : Fin 1) :
    v14 (ix4 b p k z) = Cert.Net.norm3 off hoff q nbr k := by
  subst e_v14 e_v13 e_v12 e_cst e_v11 e_v10
  rw [hostSqrt_apply, unit4_apply 2 65536 16 bcast_S2x65536x16_S2x65536x16x1_0_1_2 _ b p k z,
    sumLast4_apply 2 65536 16 3 reducesTo_S2x65536x16x3_S2x65536x16_d3 h_S_ _ _ b p k]
  unfold Cert.Net.norm3
  refine congrArg Ideal.sqrt ?_
  rw [constant_apply, Ideal.ofBits_zero_f32, zero_add]
  refine Finset.sum_congr rfl fun d _ => ?_
  rw [mulf_apply, sliceLast4_apply 2 65536 16 6 3 off hoff hs v9 b p k d, h9]

/-- The twenty geometric features of neighbour `k`: lines %7 to %20. The channel falls in one of the five pieces of the
    concatenation: the point's row (below 6), the neighbour's row (below 12), their difference (below 18), and the
    two norms (18 and 19). -/
theorem geo_apply (q : Fin 6 → EReal) (nbr : Fin 16 → Fin 6 → EReal) (b : Fin 2) (p : Fin 65536)
    (a0 : FVec Ideal S2x65536x6 .f32) (v6 : FVec Ideal S2x65536x16x6 .f32)
    (v7 : FVec Ideal S2x65536x1x6 .f32) (v8 v9 : FVec Ideal S2x65536x16x6 .f32)
    (v10 v11 : FVec Ideal S2x65536x16x3 .f32) (cst : FVec Ideal S_ .f32) (v12 : FVec Ideal S2x65536x16 .f32)
    (v13 v14 : FVec Ideal S2x65536x16x1 .f32)
    (v15 v16 : FVec Ideal S2x65536x16x3 .f32) (cst_1 : FVec Ideal S_ .f32) (v17 : FVec Ideal S2x65536x16 .f32)
    (v18 v19 : FVec Ideal S2x65536x16x1 .f32) (v20 : FVec Ideal S2x65536x16x20 .f32)
    (e_v7 : v7 = broadcastInDim S2x65536x1x6 ![0, 1, 3] bcast_S2x65536x6_S2x65536x1x6_0_1_3 a0)
    (e_v8 : v8 = broadcastInDim S2x65536x16x6 ![0, 1, 2, 3] bcast_S2x65536x1x6_S2x65536x16x6_0_1_2_3 v7)
    (e_v9 : v9 = subf v8 v6)
    (e_v10 : v10 = extractStridedSlice S2x65536x16x3 ![0, 0, 0, 0] v9 slices_S2x65536x16x6_S2x65536x16x3_0_0_0_0)
    (e_v11 : v11 = mulf v10 v10)
    (e_cst : cst = constant (F := Ideal) S_ .f32 0x00000000#32)
    (e_v12 : v12 = Host.reduceAdd (F := Ideal) v11 cst reducesTo_S2x65536x16x3_S2x65536x16_d3 h_S_)
    (e_v13 : v13 = broadcastInDim S2x65536x16x1 ![0, 1, 2] bcast_S2x65536x16_S2x65536x16x1_0_1_2 v12)
    (e_v14 : v14 = Host.sqrt v13)
    (e_v15 : v15 = extractStridedSlice S2x65536x16x3 ![0, 0, 0, 3] v9 slices_S2x65536x16x6_S2x65536x16x3_0_0_0_3)
    (e_v16 : v16 = mulf v15 v15)
    (e_cst_1 : cst_1 = constant (F := Ideal) S_ .f32 0x00000000#32)
    (e_v17 : v17 = Host.reduceAdd (F := Ideal) v16 cst_1 reducesTo_S2x65536x16x3_S2x65536x16_d3 h_S_)
    (e_v18 : v18 = broadcastInDim S2x65536x16x1 ![0, 1, 2] bcast_S2x65536x16_S2x65536x16x1_0_1_2 v17)
    (e_v19 : v19 = Host.sqrt v18)
    (e_v20 : v20 = concatenate S2x65536x16x20 3 [⟨S2x65536x16x6, v8⟩, ⟨S2x65536x16x6, v6⟩, ⟨S2x65536x16x6, v9⟩,
      ⟨S2x65536x16x1, v14⟩, ⟨S2x65536x16x1, v19⟩] concatenates_S2x65536x16x6_S2x65536x16x6_S2x65536x16x6_S2x65536x16x1_S2x65536x16x1_S2x65536x16x20_d3)
    (hq : ∀ j, a0 (ix3 b p j) = q j) (hnb : ∀ k j, v6 (ix4 b p k j) = nbr k j)
    (k : Fin 16) (c : Fin 20) : v20 (ix4 b p k c) = Cert.Net.geo q nbr k c := by
  have h8 : ∀ j, v8 (ix4 b p k j) = q j := fun j => by
    rw [e_v8, e_v7, row4_apply 2 65536 16 6 bcast_S2x65536x6_S2x65536x1x6_0_1_3
      bcast_S2x65536x1x6_S2x65536x16x6_0_1_2_3 a0 b p k j, hq]
  have h9 : ∀ j, v9 (ix4 b p k j) = Cert.Net.rel q nbr k j := fun j => by
    rw [e_v9, subf_apply, h8, hnb]; rfl
  have h14 := norm_apply q nbr b p k 0 (by omega) slices_S2x65536x16x6_S2x65536x16x3_0_0_0_0 v9 v10 v11 cst v12 v13 v14
    e_v10 e_v11 e_cst e_v12 e_v13 e_v14 h9
  have h19 := norm_apply q nbr b p k 3 (by omega) slices_S2x65536x16x6_S2x65536x16x3_0_0_0_3 v9 v15 v16 cst_1 v17 v18 v19
    e_v15 e_v16 e_cst_1 e_v17 e_v18 e_v19 h9
  rw [e_v20]
  unfold Cert.Net.geo
  by_cases h0 : c.val < 6
  · rw [dif_pos h0]
    refine (concatenate_apply_piece (t := S2x65536x16x20) 3
      [⟨S2x65536x16x6, v8⟩, ⟨S2x65536x16x6, v6⟩, ⟨S2x65536x16x6, v9⟩, ⟨S2x65536x16x1, v14⟩, ⟨S2x65536x16x1, v19⟩]
      concatenates_S2x65536x16x6_S2x65536x16x6_S2x65536x16x6_S2x65536x16x1_S2x65536x16x1_S2x65536x16x20_d3 (ix4 b p k c) 0 (by show (0 : ℕ) < 5; omega)
      S2x65536x16x6 v8 rfl rfl 0 rfl (ix4 b p k ⟨c.val, h0⟩) ?_ ?_).trans (h8 _)
    · intro b' hb'
      match b', hb' with
      | ⟨0, _⟩, _ => rfl
      | ⟨1, _⟩, _ => rfl
      | ⟨2, _⟩, _ => rfl
      | ⟨3, _⟩, hb' => exact absurd (Fin.ext rfl) hb'
    · exact Nat.zero_add _
  rw [dif_neg h0]
  by_cases h1 : c.val < 12
  · rw [dif_pos h1]
    refine (concatenate_apply_piece (t := S2x65536x16x20) 3
      [⟨S2x65536x16x6, v8⟩, ⟨S2x65536x16x6, v6⟩, ⟨S2x65536x16x6, v9⟩, ⟨S2x65536x16x1, v14⟩, ⟨S2x65536x16x1, v19⟩]
      concatenates_S2x65536x16x6_S2x65536x16x6_S2x65536x16x6_S2x65536x16x1_S2x65536x16x1_S2x65536x16x20_d3 (ix4 b p k c) 1 (by show (1 : ℕ) < 5; omega)
      S2x65536x16x6 v6 rfl rfl 6 rfl (ix4 b p k ⟨c.val - 6, by omega⟩) ?_ ?_).trans (hnb _ _)
    · intro b' hb'
      match b', hb' with
      | ⟨0, _⟩, _ => rfl
      | ⟨1, _⟩, _ => rfl
      | ⟨2, _⟩, _ => rfl
      | ⟨3, _⟩, hb' => exact absurd (Fin.ext rfl) hb'
    · exact Nat.add_sub_cancel' (by omega)
  rw [dif_neg h1]
  by_cases h2 : c.val < 18
  · rw [dif_pos h2]
    refine (concatenate_apply_piece (t := S2x65536x16x20) 3
      [⟨S2x65536x16x6, v8⟩, ⟨S2x65536x16x6, v6⟩, ⟨S2x65536x16x6, v9⟩, ⟨S2x65536x16x1, v14⟩, ⟨S2x65536x16x1, v19⟩]
      concatenates_S2x65536x16x6_S2x65536x16x6_S2x65536x16x6_S2x65536x16x1_S2x65536x16x1_S2x65536x16x20_d3 (ix4 b p k c) 2 (by show (2 : ℕ) < 5; omega)
      S2x65536x16x6 v9 rfl rfl 12 rfl (ix4 b p k ⟨c.val - 12, by omega⟩) ?_ ?_).trans (h9 _)
    · intro b' hb'
      match b', hb' with
      | ⟨0, _⟩, _ => rfl
      | ⟨1, _⟩, _ => rfl
      | ⟨2, _⟩, _ => rfl
      | ⟨3, _⟩, hb' => exact absurd (Fin.ext rfl) hb'
    · exact Nat.add_sub_cancel' (by omega)
  rw [dif_neg h2]
  by_cases h3 : c.val = 18
  · rw [if_pos h3]
    refine (concatenate_apply_piece (t := S2x65536x16x20) 3
      [⟨S2x65536x16x6, v8⟩, ⟨S2x65536x16x6, v6⟩, ⟨S2x65536x16x6, v9⟩, ⟨S2x65536x16x1, v14⟩, ⟨S2x65536x16x1, v19⟩]
      concatenates_S2x65536x16x6_S2x65536x16x6_S2x65536x16x6_S2x65536x16x1_S2x65536x16x1_S2x65536x16x20_d3 (ix4 b p k c) 3 (by show (3 : ℕ) < 5; omega)
      S2x65536x16x1 v14 rfl rfl 18 rfl (ix4 b p k 0) ?_ ?_).trans (h14 _)
    · intro b' hb'
      match b', hb' with
      | ⟨0, _⟩, _ => rfl
      | ⟨1, _⟩, _ => rfl
      | ⟨2, _⟩, _ => rfl
      | ⟨3, _⟩, hb' => exact absurd (Fin.ext rfl) hb'
    · exact h3.symm
  · rw [if_neg h3]
    have h4 : c.val = 19 := by have := c.isLt; omega
    refine (concatenate_apply_piece (t := S2x65536x16x20) 3
      [⟨S2x65536x16x6, v8⟩, ⟨S2x65536x16x6, v6⟩, ⟨S2x65536x16x6, v9⟩, ⟨S2x65536x16x1, v14⟩, ⟨S2x65536x16x1, v19⟩]
      concatenates_S2x65536x16x6_S2x65536x16x6_S2x65536x16x6_S2x65536x16x1_S2x65536x16x1_S2x65536x16x20_d3 (ix4 b p k c) 4 (by show (4 : ℕ) < 5; omega)
      S2x65536x16x1 v19 rfl rfl 19 rfl (ix4 b p k 0) ?_ ?_).trans (h19 _)
    · intro b' hb'
      match b', hb' with
      | ⟨0, _⟩, _ => rfl
      | ⟨1, _⟩, _ => rfl
      | ⟨2, _⟩, _ => rfl
      | ⟨3, _⟩, hb' => exact absurd (Fin.ext rfl) hb'
    · exact h4.symm

end Cert.RefA

end
-- ==== Proof.RefSte.lean ====
/-
  The neighbour features of the reference at one point: two dense layers on the twenty geometric features, each
  followed by a per-channel affine map and the rectifier (lines %21 to %42, with the two rectifier calls' lines).
-/
import Idealize.ShloMosaic.Lib.ValueIdx
import Idealize.ShloMosaic.Lib.IdealHost
import Idealize.ShloMosaic.PureOps.Ideal.Laws
import proofs.«138937_j6992206758069_2_alg».proof.ReferenceIdeal
import proofs.«138937_j6992206758069_2_alg».proof.Proof.Net
import proofs.«138937_j6992206758069_2_alg».proof.Proof.RefLay
import proofs.«138937_j6992206758069_2_alg».proof.Proof.RefGeo

noncomputable section

namespace Cert.RefA

open Cert.ReferenceIdeal Cert.ReferenceIdeal.Facts₀ Idealize.ShloMosaic Idealize.ShloMosaic.ValueIdx

/-- A dense layer, the per-channel affine map and the rectifier on a rank-4 activation, at one index: with the
    activation's row `x` at the point and neighbour, and the weights as families, it is
    `relu (aff s t (lin W b x))`. The product under the sum is commuted: the program multiplies activation by weight. -/
theorem block4_apply (B N K Ci Co : ℕ)
    (wf : DotDims.WF ⟨4, ![B, N, K, Ci]⟩ ⟨2, ![Co, Ci]⟩ ⟨4, ![B, N, K, Co]⟩ [3] [1] [0, 1, 2] [0] [] [])
    (h1 : (⟨1, ![Co]⟩ : Shape).BroadcastsInDim ⟨4, ![1, 1, 1, Co]⟩ ![3])
    (h2 : (⟨4, ![1, 1, 1, Co]⟩ : Shape).BroadcastsInDim ⟨4, ![B, N, K, Co]⟩ ![0, 1, 2, 3])
    (h0 : (⟨0, ![]⟩ : Shape).BroadcastsInDim ⟨4, ![B, N, K, Co]⟩ ![])
    (X : FVec Ideal ⟨4, ![B, N, K, Ci]⟩ .f32) (W : FVec Ideal ⟨2, ![Co, Ci]⟩ .f32)
    (bias sc sh : FVec Ideal ⟨1, ![Co]⟩ .f32)
    (x : Fin Ci → EReal) (Wf : Fin Co → Fin Ci → EReal) (bf sf tf : Fin Co → EReal)
    (b : Fin B) (n : Fin N) (k : Fin K)
    (hX : ∀ i, X (ix4 b n k i) = x i) (hW : ∀ o i, W (ix2 o i) = Wf o i)
    (hb : ∀ o, bias (ix1 o) = bf o) (hs : ∀ o, sc (ix1 o) = sf o) (ht : ∀ o, sh (ix1 o) = tf o) (o : Fin Co) :
    maximumf
      (addf
        (mulf
          (addf (Host.dotGeneral (F := Ideal) (dense4 B N K Ci Co wf) none X W)
            (broadcastInDim ⟨4, ![B, N, K, Co]⟩ ![0, 1, 2, 3] h2 (broadcastInDim ⟨4, ![1, 1, 1, Co]⟩ ![3] h1 bias)))
          (broadcastInDim ⟨4, ![B, N, K, Co]⟩ ![0, 1, 2, 3] h2 (broadcastInDim ⟨4, ![1, 1, 1, Co]⟩ ![3] h1 sc)))
        (broadcastInDim ⟨4, ![B, N, K, Co]⟩ ![0, 1, 2, 3] h2 (broadcastInDim ⟨4, ![1, 1, 1, Co]⟩ ![3] h1 sh)))
      (broadcastInDim ⟨4, ![B, N, K, Co]⟩ ![] h0 (constant (F := Ideal) ⟨0, ![]⟩ .f32 0x00000000#32)) (ix4 b n k o)
      = Cert.Net.relu (Cert.Net.aff sf tf (Cert.Net.lin Wf bf x)) o := by
  rw [maximumf_apply, addf_apply, mulf_apply, addf_apply, dense4_apply, chan4_apply, chan4_apply, chan4_apply,
    broadcastInDim_scalar_apply, hb, hs, ht]
  unfold Cert.Net.relu Cert.Net.aff Cert.Net.lin Cert.Net.mat
  refine congrArg (fun y => max ((y + bf o) * sf o + tf o) _) (Finset.sum_congr rfl fun i _ => ?_)
  rw [hX i, hW o i, mul_comm]

variable [Cert.ReferenceIdeal.Facts]

/-- The eight neighbour features of neighbour `k`: lines %7 to %42. -/
theorem ste_apply (P : Cert.Net.Params) (q : Fin 6 → EReal) (nbr : Fin 16 → Fin 6 → EReal) (b : Fin 2) (p : Fin 65536)
    (a0 : FVec Ideal S2x65536x6 .f32) (v6 : FVec Ideal S2x65536x16x6 .f32)
    (a7 : FVec Ideal S16x20 .f32) (a8 a9 a10 : FVec Ideal S16 .f32)
    (a11 : FVec Ideal S8x16 .f32) (a12 a13 a14 : FVec Ideal S8 .f32)
   (v7 : FVec Ideal S2x65536x1x6 .f32) (v8 : FVec Ideal S2x65536x16x6 .f32) (v9 : FVec Ideal S2x65536x16x6 .f32)
    (v10 : FVec Ideal S2x65536x16x3 .f32) (v11 : FVec Ideal S2x65536x16x3 .f32) (cst : FVec Ideal S_ .f32)
    (v12 : FVec Ideal S2x65536x16 .f32) (v13 : FVec Ideal S2x65536x16x1 .f32) (v14 : FVec Ideal S2x65536x16x1 .f32)
    (v15 : FVec Ideal S2x65536x16x3 .f32) (v16 : FVec Ideal S2x65536x16x3 .f32) (cst_1 : FVec Ideal S_ .f32)
    (v17 : FVec Ideal S2x65536x16 .f32) (v18 : FVec Ideal S2x65536x16x1 .f32) (v19 : FVec Ideal S2x65536x16x1 .f32)
    (v20 : FVec Ideal S2x65536x16x20 .f32) (v21 : FVec Ideal S2x65536x16x16 .f32) (v22 : FVec Ideal S1x1x1x16 .f32)
    (v23 : FVec Ideal S2x65536x16x16 .f32) (v24 : FVec Ideal S2x65536x16x16 .f32) (v25 : FVec Ideal S1x1x1x16 .f32)
    (v26 : FVec Ideal S2x65536x16x16 .f32) (v27 : FVec Ideal S2x65536x16x16 .f32) (v28 : FVec Ideal S1x1x1x16 .f32)
    (v29 : FVec Ideal S2x65536x16x16 .f32) (v30 : FVec Ideal S2x65536x16x16 .f32) (call0_cst : FVec Ideal S_ .f32)
    (call0_v0 : FVec Ideal S2x65536x16x16 .f32) (v31 : FVec Ideal S2x65536x16x16 .f32)
    (v32 : FVec Ideal S2x65536x16x8 .f32) (v33 : FVec Ideal S1x1x1x8 .f32) (v34 : FVec Ideal S2x65536x16x8 .f32)
    (v35 : FVec Ideal S2x65536x16x8 .f32) (v36 : FVec Ideal S1x1x1x8 .f32) (v37 : FVec Ideal S2x65536x16x8 .f32)
    (v38 : FVec Ideal S2x65536x16x8 .f32) (v39 : FVec Ideal S1x1x1x8 .f32) (v40 : FVec Ideal S2x65536x16x8 .f32)
    (v41 : FVec Ideal S2x65536x16x8 .f32) (call1_cst : FVec Ideal S_ .f32) (call1_v0 : FVec Ideal S2x65536x16x8 .f32)
    (v42 : FVec Ideal S2x65536x16x8 .f32)
    (e_v7 : v7 = broadcastInDim S2x65536x1x6 ![0, 1, 3] bcast_S2x65536x6_S2x65536x1x6_0_1_3 a0)
    (e_v8 : v8 = broadcastInDim S2x65536x16x6 ![0, 1, 2, 3] bcast_S2x65536x1x6_S2x65536x16x6_0_1_2_3 v7)
    (e_v9 : v9 = subf v8 v6)
    (e_v10 : v10 = extractStridedSlice S2x65536x16x3 ![0, 0, 0, 0] v9 slices_S2x65536x16x6_S2x65536x16x3_0_0_0_0)
    (e_v11 : v11 = mulf v10 v10)
    (e_cst : cst = constant (F := Ideal) S_ .f32 0x00000000#32)
    (e_v12 : v12 = Host.reduceAdd (F := Ideal) v11 cst reducesTo_S2x65536x16x3_S2x65536x16_d3 h_S_)
    (e_v13 : v13 = broadcastInDim S2x65536x16x1 ![0, 1, 2] bcast_S2x65536x16_S2x65536x16x1_0_1_2 v12)
    (e_v14 : v14 = Host.sqrt v13)
    (e_v15 : v15 = extractStridedSlice S2x65536x16x3 ![0, 0, 0, 3] v9 slices_S2x65536x16x6_S2x65536x16x3_0_0_0_3)
    (e_v16 : v16 = mulf v15 v15)
    (e_cst_1 : cst_1 = constant (F := Ideal) S_ .f32 0x00000000#32)
    (e_v17 : v17 = Host.reduceAdd (F := Ideal) v16 cst_1 reducesTo_S2x65536x16x3_S2x65536x16_d3 h_S_)
    (e_v18 : v18 = broadcastInDim S2x65536x16x1 ![0, 1, 2] bcast_S2x65536x16_S2x65536x16x1_0_1_2 v17)
    (e_v19 : v19 = Host.sqrt v18)
    (e_v20 : v20 = concatenate S2x65536x16x20 3 [⟨S2x65536x16x6, v8⟩, ⟨S2x65536x16x6, v6⟩, ⟨S2x65536x16x6, v9⟩, ⟨S2x65536x16x1, v14⟩, ⟨S2x65536x16x1, v19⟩] concatenates_S2x65536x16x6_S2x65536x16x6_S2x65536x16x6_S2x65536x16x1_S2x65536x16x1_S2x65536x16x20_d3)
    (e_v21 : v21 = Host.dotGeneral (F := Ideal) dot_S2x65536x16x20_S16x20_S2x65536x16x16_3_1_012_0_n_n none v20 a7)
    (e_v22 : v22 = broadcastInDim S1x1x1x16 ![3] bcast_S16_S1x1x1x16_3 a8)
    (e_v23 : v23 = broadcastInDim S2x65536x16x16 ![0, 1, 2, 3] bcast_S1x1x1x16_S2x65536x16x16_0_1_2_3 v22)
    (e_v24 : v24 = addf v21 v23)
    (e_v25 : v25 = broadcastInDim S1x1x1x16 ![3] bcast_S16_S1x1x1x16_3 a9)
    (e_v26 : v26 = broadcastInDim S2x65536x16x16 ![0, 1, 2, 3] bcast_S1x1x1x16_S2x65536x16x16_0_1_2_3 v25)
    (e_v27 : v27 = mulf v24 v26)
    (e_v28 : v28 = broadcastInDim S1x1x1x16 ![3] bcast_S16_S1x1x1x16_3 a10)
    (e_v29 : v29 = broadcastInDim S2x65536x16x16 ![0, 1, 2, 3] bcast_S1x1x1x16_S2x65536x16x16_0_1_2_3 v28)
    (e_v30 : v30 = addf v27 v29)
    (e_call0_cst : call0_cst = constant (F := Ideal) S_ .f32 0x00000000#32)
    (e_call0_v0 : call0_v0 = broadcastInDim S2x65536x16x16 ![] bcast_S_S2x65536x16x16 call0_cst)
    (e_v31 : v31 = maximumf v30 call0_v0)
    (e_v32 : v32 = Host.dotGeneral (F := Ideal) dot_S2x65536x16x16_S8x16_S2x65536x16x8_3_1_012_0_n_n none v31 a11)
    (e_v33 : v33 = broadcastInDim S1x1x1x8 ![3] bcast_S8_S1x1x1x8_3 a12)
    (e_v34 : v34 = broadcastInDim S2x65536x16x8 ![0, 1, 2, 3] bcast_S1x1x1x8_S2x65536x16x8_0_1_2_3 v33)
    (e_v35 : v35 = addf v32 v34)
    (e_v36 : v36 = broadcastInDim S1x1x1x8 ![3] bcast_S8_S1x1x1x8_3 a13)
    (e_v37 : v37 = broadcastInDim S2x65536x16x8 ![0, 1, 2, 3] bcast_S1x1x1x8_S2x65536x16x8_0_1_2_3 v36)
    (e_v38 : v38 = mulf v35 v37)
    (e_v39 : v39 = broadcastInDim S1x1x1x8 ![3] bcast_S8_S1x1x1x8_3 a14)
    (e_v40 : v40 = broadcastInDim S2x65536x16x8 ![0, 1, 2, 3] bcast_S1x1x1x8_S2x65536x16x8_0_1_2_3 v39)
    (e_v41 : v41 = addf v38 v40)
    (e_call1_cst : call1_cst = constant (F := Ideal) S_ .f32 0x00000000#32)
    (e_call1_v0 : call1_v0 = broadcastInDim S2x65536x16x8 ![] bcast_S_S2x65536x16x8 call1_cst)
    (e_v42 : v42 = maximumf v41 call1_v0)
    (hq : ∀ j, a0 (ix3 b p j) = q j) (hnb : ∀ k j, v6 (ix4 b p k j) = nbr k j)
    (h7 : ∀ o i, a7 (ix2 o i) = P.w_lse0 o i) (h8 : ∀ o, a8 (ix1 o) = P.b_lse0 o)
    (h9 : ∀ o, a9 (ix1 o) = P.s_lse0 o) (h10 : ∀ o, a10 (ix1 o) = P.t_lse0 o)
    (h11 : ∀ o i, a11 (ix2 o i) = P.w_lse1 o i) (h12 : ∀ o, a12 (ix1 o) = P.b_lse1 o)
    (h13 : ∀ o, a13 (ix1 o) = P.s_lse1 o) (h14 : ∀ o, a14 (ix1 o) = P.t_lse1 o)
    (k : Fin 16) (c : Fin 8) : v42 (ix4 b p k c) = Cert.Net.ste P q nbr k c := by
  have h20 : ∀ i, v20 (ix4 b p k i) = Cert.Net.geo q nbr k i := fun i =>
    geo_apply q nbr b p a0 v6 v7 v8 v9 v10 v11 cst v12 v13 v14 v15 v16 cst_1 v17 v18 v19 v20
      e_v7 e_v8 e_v9 e_v10 e_v11 e_cst e_v12 e_v13 e_v14 e_v15 e_v16 e_cst_1 e_v17 e_v18 e_v19 e_v20 hq hnb k i
  have h31 : ∀ i, v31 (ix4 b p k i) = Cert.Net.ste0 P q nbr k i := fun i => by
    subst e_v31 e_call0_v0 e_call0_cst e_v30 e_v29 e_v28 e_v27 e_v26 e_v25 e_v24 e_v23 e_v22 e_v21
    exact block4_apply 2 65536 16 20 16 dot_S2x65536x16x20_S16x20_S2x65536x16x16_3_1_012_0_n_n_wf
      bcast_S16_S1x1x1x16_3 bcast_S1x1x1x16_S2x65536x16x16_0_1_2_3 bcast_S_S2x65536x16x16 v20 a7 a8 a9 a10
      (Cert.Net.geo q nbr k) P.w_lse0 P.b_lse0 P.s_lse0 P.t_lse0 b p k h20 h7 h8 h9 h10 i
  subst e_v42 e_call1_v0 e_call1_cst e_v41 e_v40 e_v39 e_v38 e_v37 e_v36 e_v35 e_v34 e_v33 e_v32
  exact block4_apply 2 65536 16 16 8 dot_S2x65536x16x16_S8x16_S2x65536x16x8_3_1_012_0_n_n_wf
    bcast_S8_S1x1x1x8_3 bcast_S1x1x1x8_S2x65536x16x8_0_1_2_3 bcast_S_S2x65536x16x8 v31 a11 a12 a13 a14
    (Cert.Net.ste0 P q nbr k) P.w_lse1 P.b_lse1 P.s_lse1 P.t_lse1 b p k h31 h11 h12 h13 h14 c

end Cert.RefA

end
-- ==== Proof.RefGlueA.lean ====
/-
  The reference's lines, read at one point, compute the network's first stages. Each stage's lemma is stated over
  array variables with the program's lines as hypotheses; here it is fed the lines themselves, as the equations
  between the contents the run leaves, with the weights, the point's row and its neighbours' rows read from those
  contents.
-/
import proofs.«138937_j6992206758069_2_alg».proof.Proof.RefLines
import proofs.«138937_j6992206758069_2_alg».proof.Proof.RefPre
import proofs.«138937_j6992206758069_2_alg».proof.Proof.RefSte
import proofs.«138937_j6992206758069_2_alg».proof.Proof.Pt

noncomputable section

namespace Cert.RefGlue

open Idealize.ShloMosaic Idealize.ShloMosaic.ValueIdx Cert.ReferenceIdeal Cert.RefRun

variable [Cert.ReferenceIdeal.Facts] (V : Valuation τ sig (Elt Ideal))

/-- The weights, read from the contents the run leaves. -/
abbrev PV : Cert.Net.Params := Cert.Pt.params (R V main_arg3) (R V main_arg4) (R V main_arg5) (R V main_arg6) (R V main_arg7) (R V main_arg8) (R V main_arg9) (R V main_arg10) (R V main_arg11) (R V main_arg12) (R V main_arg13) (R V main_arg14) (R V main_arg15) (R V main_arg16) (R V main_arg17) (R V main_arg18) (R V main_arg19) (R V main_arg20) (R V main_arg21) (R V main_arg22) (R V main_arg23) (R V main_arg24) (R V main_arg25) (R V main_arg26) (R V main_arg27) (R V main_arg28) (R V main_arg29) (R V main_arg30) (R V main_arg31) (R V main_arg32) (R V main_arg33) (R V main_arg34) (R V main_arg35) (R V main_arg36) (R V main_arg37) (R V main_arg38) (R V main_arg39) (R V main_arg40) (R V main_arg41) (R V main_arg42) (R V main_arg43) (R V main_arg44) (R V main_arg45) (R V main_arg46) (R V main_arg47)
/-- The point's row. -/
abbrev qV (b : Fin 2) (p : Fin 65536) : Fin 6 → EReal := Cert.Pt.qOf (R V main_arg0) b p
/-- Its neighbours' rows, from the gathered array. -/
abbrev nbrV (b : Fin 2) (p : Fin 65536) : Fin 16 → Fin 6 → EReal := Cert.Pt.nbrOf (R V main_v6) b p

/-- The point's own features. -/
theorem feat0 (b : Fin 2) (p : Fin 65536) (c : Fin 8) : R V main_v51 (ix3 b p c) = Cert.Net.feat0 (PV V) (qV V b p) c :=
  Cert.RefA.feat0_apply (PV V) (qV V b p) b p (R V main_arg0) (R V main_arg3) (R V main_arg4) (R V main_arg5) (R V main_arg6)
    (R V main_v43) (R V main_v44) (R V main_v45) (R V main_v46) (R V main_cst_2) (R V main_call2_cst) (R V main_call2_v0) (R V main_call2_v1)
    (R V main_call2_v2) (R V main_call2_v3) (R V main_call2_v4) (R V main_v47) (R V main_v48) (R V main_v49) (R V main_v50) (R V main_v51)
    (line_v43 V) (line_v44 V) (line_v45 V) (line_v46 V) (line_cst_2 V) (line_call2_cst V) (line_call2_v0 V) (line_call2_v1 V)
    (line_call2_v2 V) (line_call2_v3 V) (line_call2_v4 V) (line_v47 V) (line_v48 V) (line_v49 V) (line_v50 V) (line_v51 V)
    (fun _ => rfl) (fun _ _ => rfl) (fun _ => rfl) (fun _ _ => rfl) (fun _ => rfl) c

set_option maxHeartbeats 4000000 in
/-- The neighbours' features. -/
theorem ste (b : Fin 2) (p : Fin 65536) (k : Fin 16) (c : Fin 8) :
    R V main_v42 (ix4 b p k c) = Cert.Net.ste (PV V) (qV V b p) (nbrV V b p) k c :=
  Cert.RefA.ste_apply (PV V) (qV V b p) (nbrV V b p) b p (R V main_arg0) (R V main_v6) (R V main_arg7) (R V main_arg8) (R V main_arg9) (R V main_arg10) (R V main_arg11) (R V main_arg12) (R V main_arg13) (R V main_arg14)
    (R V main_v7) (R V main_v8) (R V main_v9) (R V main_v10) (R V main_v11) (R V main_cst) (R V main_v12) (R V main_v13) (R V main_v14) (R V main_v15) (R V main_v16) (R V main_cst_1) (R V main_v17) (R V main_v18) (R V main_v19) (R V main_v20) (R V main_v21) (R V main_v22) (R V main_v23) (R V main_v24) (R V main_v25) (R V main_v26) (R V main_v27) (R V main_v28) (R V main_v29) (R V main_v30) (R V main_call0_cst) (R V main_call0_v0) (R V main_v31) (R V main_v32) (R V main_v33) (R V main_v34) (R V main_v35) (R V main_v36) (R V main_v37) (R V main_v38) (R V main_v39) (R V main_v40) (R V main_v41) (R V main_call1_cst) (R V main_call1_v0) (R V main_v42)
    (line_v7 V) (line_v8 V) (line_v9 V) (line_v10 V) (line_v11 V) (line_cst V) (line_v12 V) (line_v13 V) (line_v14 V) (line_v15 V) (line_v16 V) (line_cst_1 V) (line_v17 V) (line_v18 V) (line_v19 V) (line_v20 V) (line_v21 V) (line_v22 V) (line_v23 V) (line_v24 V) (line_v25 V) (line_v26 V) (line_v27 V) (line_v28 V) (line_v29 V) (line_v30 V) (line_call0_cst V) (line_call0_v0 V) (line_v31 V) (line_v32 V) (line_v33 V) (line_v34 V) (line_v35 V) (line_v36 V) (line_v37 V) (line_v38 V) (line_v39 V) (line_v40 V) (line_v41 V) (line_call1_cst V) (line_call1_v0 V) (line_v42 V)
    (fun _ => rfl) (fun _ _ => rfl) (fun _ _ => rfl) (fun _ => rfl) (fun _ => rfl) (fun _ => rfl) (fun _ _ => rfl) (fun _ => rfl) (fun _ => rfl) (fun _ => rfl) k c

end Cert.RefGlue

end
-- ==== Proof.RefLayB.lean ====
/-
  Layout operations of the reference program read at an index given by coordinates, at the ideal values, over
  natural-number extents. A tensor of rank four is read at (batch, point, neighbour, channel), one of rank three at
  (batch, point, channel).

  * a dense layer: the contraction of the last axis of an activation with axis 1 of a weight matrix [out, in] is, at an
    index, the sum over the input channels of activation times weight; with the weight written first it is the matrix
    applied to the point's row (commutativity of the product, term by term);
  * a per-channel vector laid over every point, a per-point row laid over the neighbours, two blocks of channels laid
    end to end, a scalar laid over everything;
  * the host's sum and maximum over the neighbour axis;
  * the stages built from them: a dense layer with its bias, the per-channel affine map, the rectifier.
-/
import Idealize.ShloMosaic.Lib.ValueIdx
import Idealize.ShloMosaic.Lib.Pipeline.Value
import Idealize.ShloMosaic.Lib.IdealHost
import Idealize.ShloMosaic.PureOps.Ideal.Laws
import proofs.«138937_j6992206758069_2_alg».proof.Proof.Net

noncomputable section

namespace Cert.RefB

open Idealize.ShloMosaic Idealize.ShloMosaic.ValueIdx
open scoped BigOperators

/-- Shapes by their extents. -/
abbrev T0 : Shape := ⟨0, ![]⟩
abbrev T1 (a : ℕ) : Shape := ⟨1, ![a]⟩
abbrev T2 (a b : ℕ) : Shape := ⟨2, ![a, b]⟩
abbrev T3 (a b c : ℕ) : Shape := ⟨3, ![a, b, c]⟩
abbrev T4 (a b c d : ℕ) : Shape := ⟨4, ![a, b, c, d]⟩

/-- A coordinate read through a broadcast: itself, or zero when its axis has extent one (and then it is zero). -/
theorem self_or_zero {n : ℕ} (x : Fin n) : x.val = if n = 1 then 0 else x.val := by
  split
  · have := x.isLt; omega
  · rfl

/-! ## Dense layers -/

/-- Dimension numbers that contract the last axis of a rank-3 activation with axis 1 of a weight matrix and keep the
    other axes in place: the facts a reading at an index uses. -/
structure Dense3 {n0 n1 ci co : ℕ} (D : DotDims (T3 n0 n1 ci) (T2 co ci) (T3 n0 n1 co)) : Prop where
  hl : D.lhsContracting = [(2 : Fin 3)]
  hr : D.rhsContracting = [(1 : Fin 2)]
  hrank : D.contr.rank = 1
  hsize : D.contr.size ⟨0, by omega⟩ = ci
  hl0 : ∀ j k, (D.lhsIdx j k (0 : Fin 3)).val = (j (0 : Fin 3)).val
  hl1 : ∀ j k, (D.lhsIdx j k (1 : Fin 3)).val = (j (1 : Fin 3)).val
  hr0 : ∀ j k, (D.rhsIdx j k (0 : Fin 2)).val = (j (2 : Fin 3)).val

/-- The same for a rank-4 activation. -/
structure Dense4 {n0 n1 n2 ci co : ℕ} (D : DotDims (T4 n0 n1 n2 ci) (T2 co ci) (T4 n0 n1 n2 co)) : Prop where
  hl : D.lhsContracting = [(3 : Fin 4)]
  hr : D.rhsContracting = [(1 : Fin 2)]
  hrank : D.contr.rank = 1
  hsize : D.contr.size ⟨0, by omega⟩ = ci
  hl0 : ∀ j k, (D.lhsIdx j k (0 : Fin 4)).val = (j (0 : Fin 4)).val
  hl1 : ∀ j k, (D.lhsIdx j k (1 : Fin 4)).val = (j (1 : Fin 4)).val
  hl2 : ∀ j k, (D.lhsIdx j k (2 : Fin 4)).val = (j (2 : Fin 4)).val
  hr0 : ∀ j k, (D.rhsIdx j k (0 : Fin 2)).val = (j (3 : Fin 4)).val

/-- A dense layer on a rank-3 activation at (b, p, o): the sum over the input channels. -/
theorem dense3_apply {n0 n1 ci co : ℕ} {D : DotDims (T3 n0 n1 ci) (T2 co ci) (T3 n0 n1 co)} (hD : Dense3 D)
    (X : FVec Ideal (T3 n0 n1 ci) .f32) (W : FVec Ideal (T2 co ci) .f32) (b : Fin n0) (p : Fin n1) (o : Fin co) :
    Host.dotGeneral D none X W (ix3 b p o) = ∑ i : Fin ci, X (ix3 b p i) * W (ix2 o i) := by
  refine (Ideal.dotGeneral_apply D none .single X W (ix3 b p o)).trans ?_
  rw [← Equiv.sum_comp (contrEquiv1 D ci hD.hrank hD.hsize).symm]
  refine Finset.sum_congr rfl fun i _ => ?_
  have e1 : D.lhsIdx (ix3 b p o) ((contrEquiv1 D ci hD.hrank hD.hsize).symm i) = ix3 b p i := by
    funext a; apply Fin.ext
    match a with
    | ⟨0, _⟩ => exact hD.hl0 _ _
    | ⟨1, _⟩ => exact hD.hl1 _ _
    | ⟨2, _⟩ => exact (D.lhsIdx_val_of_single hD.hl _ _).trans (contrEquiv1_symm_val D ci hD.hrank hD.hsize i)
  have e2 : D.rhsIdx (ix3 b p o) ((contrEquiv1 D ci hD.hrank hD.hsize).symm i) = ix2 o i := by
    funext a; apply Fin.ext
    match a with
    | ⟨0, _⟩ => exact hD.hr0 _ _
    | ⟨1, _⟩ => exact (D.rhsIdx_val_of_single hD.hr _ _).trans (contrEquiv1_symm_val D ci hD.hrank hD.hsize i)
  rw [e1, e2]

/-- A dense layer on a rank-4 activation at (b, p, k, o). -/
theorem dense4_apply {n0 n1 n2 ci co : ℕ} {D : DotDims (T4 n0 n1 n2 ci) (T2 co ci) (T4 n0 n1 n2 co)} (hD : Dense4 D)
    (X : FVec Ideal (T4 n0 n1 n2 ci) .f32) (W : FVec Ideal (T2 co ci) .f32) (b : Fin n0) (p : Fin n1) (k : Fin n2)
    (o : Fin co) :
    Host.dotGeneral D none X W (ix4 b p k o) = ∑ i : Fin ci, X (ix4 b p k i) * W (ix2 o i) := by
  refine (Ideal.dotGeneral_apply D none .single X W (ix4 b p k o)).trans ?_
  rw [← Equiv.sum_comp (contrEquiv1 D ci hD.hrank hD.hsize).symm]
  refine Finset.sum_congr rfl fun i _ => ?_
  have e1 : D.lhsIdx (ix4 b p k o) ((contrEquiv1 D ci hD.hrank hD.hsize).symm i) = ix4 b p k i := by
    funext a; apply Fin.ext
    match a with
    | ⟨0, _⟩ => exact hD.hl0 _ _
    | ⟨1, _⟩ => exact hD.hl1 _ _
    | ⟨2, _⟩ => exact hD.hl2 _ _
    | ⟨3, _⟩ => exact (D.lhsIdx_val_of_single hD.hl _ _).trans (contrEquiv1_symm_val D ci hD.hrank hD.hsize i)
  have e2 : D.rhsIdx (ix4 b p k o) ((contrEquiv1 D ci hD.hrank hD.hsize).symm i) = ix2 o i := by
    funext a; apply Fin.ext
    match a with
    | ⟨0, _⟩ => exact hD.hr0 _ _
    | ⟨1, _⟩ => exact (D.rhsIdx_val_of_single hD.hr _ _).trans (contrEquiv1_symm_val D ci hD.hrank hD.hsize i)
  rw [e1, e2]

/-- With the weight first: the matrix applied to the point's row. -/
theorem dense3_mat {n0 n1 ci co : ℕ} {D : DotDims (T3 n0 n1 ci) (T2 co ci) (T3 n0 n1 co)} (hD : Dense3 D)
    (X : FVec Ideal (T3 n0 n1 ci) .f32) (W : FVec Ideal (T2 co ci) .f32) (b : Fin n0) (p : Fin n1)
    {x : Fin ci → EReal} {Wf : Fin co → Fin ci → EReal}
    (hX : ∀ i, X (ix3 b p i) = x i) (hW : ∀ o i, W (ix2 o i) = Wf o i) (o : Fin co) :
    Host.dotGeneral D none X W (ix3 b p o) = Cert.Net.mat Wf x o := by
  rw [dense3_apply hD]
  unfold Cert.Net.mat
  exact Finset.sum_congr rfl fun i _ => by rw [hX, hW, mul_comm]

theorem dense4_mat {n0 n1 n2 ci co : ℕ} {D : DotDims (T4 n0 n1 n2 ci) (T2 co ci) (T4 n0 n1 n2 co)} (hD : Dense4 D)
    (X : FVec Ideal (T4 n0 n1 n2 ci) .f32) (W : FVec Ideal (T2 co ci) .f32) (b : Fin n0) (p : Fin n1) (k : Fin n2)
    {x : Fin ci → EReal} {Wf : Fin co → Fin ci → EReal}
    (hX : ∀ i, X (ix4 b p k i) = x i) (hW : ∀ o i, W (ix2 o i) = Wf o i) (o : Fin co) :
    Host.dotGeneral D none X W (ix4 b p k o) = Cert.Net.mat Wf x o := by
  rw [dense4_apply hD]
  unfold Cert.Net.mat
  exact Finset.sum_congr rfl fun i _ => by rw [hX, hW, mul_comm]

/-! ## Broadcasts -/

variable {α : Type}

/-- A per-channel vector laid over every point of a rank-3 tensor reads, at (b, p, j), the vector at j. -/
theorem vec3_apply {n0 n1 c : ℕ} (v : (T1 c).Idx → α)
    (h1 : (T1 c).BroadcastsInDim (T3 1 1 c) ![2]) (h2 : (T3 1 1 c).BroadcastsInDim (T3 n0 n1 c) ![0, 1, 2])
    (b : Fin n0) (p : Fin n1) (j : Fin c) :
    broadcastInDim (T3 n0 n1 c) ![0, 1, 2] h2 (broadcastInDim (T3 1 1 c) ![2] h1 v) (ix3 b p j) = v (ix1 j) := by
  refine (broadcastInDim_apply ![0, 1, 2] h2 _ (ix3 b p j) (ix3 (0 : Fin 1) (0 : Fin 1) j) fun a => ?_).trans
    (broadcastInDim_apply ![2] h1 v (ix3 (0 : Fin 1) (0 : Fin 1) j) (ix1 j) fun a => ?_)
  · match a with
    | ⟨0, _⟩ => rfl
    | ⟨1, _⟩ => rfl
    | ⟨2, _⟩ => exact self_or_zero j
  · match a with
    | ⟨0, _⟩ => exact self_or_zero j

/-- A per-point row laid over the neighbours reads, at (b, p, k, j), the row at (b, p, j). -/
theorem overNbr_apply {n0 n1 n2 c : ℕ} (f : (T3 n0 n1 c).Idx → α)
    (h1 : (T3 n0 n1 c).BroadcastsInDim (T4 n0 n1 1 c) ![0, 1, 3])
    (h2 : (T4 n0 n1 1 c).BroadcastsInDim (T4 n0 n1 n2 c) ![0, 1, 2, 3])
    (b : Fin n0) (p : Fin n1) (k : Fin n2) (j : Fin c) :
    broadcastInDim (T4 n0 n1 n2 c) ![0, 1, 2, 3] h2 (broadcastInDim (T4 n0 n1 1 c) ![0, 1, 3] h1 f) (ix4 b p k j)
      = f (ix3 b p j) := by
  refine (broadcastInDim_apply ![0, 1, 2, 3] h2 _ (ix4 b p k j) (ix4 b p (0 : Fin 1) j) fun a => ?_).trans
    (broadcastInDim_apply ![0, 1, 3] h1 f (ix4 b p (0 : Fin 1) j) (ix3 b p j) fun a => ?_)
  · match a with
    | ⟨0, _⟩ => exact self_or_zero b
    | ⟨1, _⟩ => exact self_or_zero p
    | ⟨2, _⟩ => rfl
    | ⟨3, _⟩ => exact self_or_zero j
  · match a with
    | ⟨0, _⟩ => exact self_or_zero b
    | ⟨1, _⟩ => exact self_or_zero p
    | ⟨2, _⟩ => exact self_or_zero j

/-! ## Two blocks of channels end to end -/

/-- The concatenation along the channels at (b, p, k, c): the first block's channel c, or the second's c less the
    first block's width. -/
theorem cat4_apply {n0 n1 n2 A B C : ℕ} (hC : C = A + B) (x : (T4 n0 n1 n2 A).Idx → EReal)
    (y : (T4 n0 n1 n2 B).Idx → EReal)
    (h : Shape.Concatenates [T4 n0 n1 n2 A, T4 n0 n1 n2 B] (T4 n0 n1 n2 C) (3 : Fin 4))
    (b : Fin n0) (p : Fin n1) (k : Fin n2) (c : Fin C) :
    concatenate (T4 n0 n1 n2 C) (3 : Fin 4) [⟨T4 n0 n1 n2 A, x⟩, ⟨T4 n0 n1 n2 B, y⟩] h (ix4 b p k c)
      = Cert.Net.cat hC (fun a => x (ix4 b p k a)) (fun d => y (ix4 b p k d)) c := by
  unfold Cert.Net.cat
  split
  · next hlt =>
    exact concatenate_pair_apply_left (3 : Fin 4) x y h (ix4 b p k c) rfl (ix4 b p k ⟨c.val, hlt⟩) fun a => by
      match a with
      | ⟨0, _⟩ => rfl
      | ⟨1, _⟩ => rfl
      | ⟨2, _⟩ => rfl
      | ⟨3, _⟩ => rfl
  · next hge =>
    exact concatenate_pair_apply_right (3 : Fin 4) x y h (ix4 b p k c) rfl rfl
      (ix4 b p k ⟨c.val - A, by have := c.isLt; omega⟩)
      (fun a ha => by
        match a with
        | ⟨0, _⟩ => rfl
        | ⟨1, _⟩ => rfl
        | ⟨2, _⟩ => rfl
        | ⟨3, _⟩ => exact absurd rfl ha)
      (by show c.val - A + A = c.val; omega)

/-! ## The host's reductions over the neighbour axis -/

/-- A host reduction's shape fact gives the fact that names the inserted index, once the result has an axis. -/
theorem reduces_of_reducesTo {s t : Shape} {axes : List (Fin s.rank)} (h' : s.ReducesTo axes t) (hpos : 0 < t.rank) :
    s.Reduces axes t :=
  h'.elim fun hr hs => ⟨hr, hpos, hs⟩

/-- A rank-3 shape has an axis. -/
theorem rank3_pos {a b c : ℕ} : 0 < (T3 a b c).rank := Nat.succ_pos 2

/-- The reduced index (b, p, j) with the neighbour k put back is (b, p, k, j). -/
theorem lift4_2 {n0 n1 n2 c : ℕ} (h : (T4 n0 n1 n2 c).Reduces [(2 : Fin 4)] (T3 n0 n1 c))
    (b : Fin n0) (p : Fin n1) (j : Fin c) (k : Fin n2) : h.lift (ix3 b p j) k = ix4 b p k j :=
  funext fun ax => Fin.ext (by
    match ax with
    | ⟨0, _⟩ => rfl
    | ⟨1, _⟩ => rfl
    | ⟨2, _⟩ => rfl
    | ⟨3, _⟩ => rfl)

/-- The host's sum over the neighbours from an initial scalar, at (b, p, j). -/
theorem hostSum4_apply {n0 n1 n2 c : ℕ} (x : FVec Ideal (T4 n0 n1 n2 c) .f32) (init : T0.Idx → Ideal .f32)
    (h' : (T4 n0 n1 n2 c).ReducesTo [(2 : Fin 4)] (T3 n0 n1 c)) (hu : 0 < T0.numel)
    (b : Fin n0) (p : Fin n1) (j : Fin c) :
    Host.reduceAdd x init h' hu (ix3 b p j) = init (Shape.Idx.first hu) + ∑ k : Fin n2, x (ix4 b p k j) :=
  (hostReduceAdd_apply x init h' hu (ix3 b p j)).trans
    ((Ideal.hostReduceAdd_single h' (reduces_of_reducesTo h' rank3_pos) x _ (ix3 b p j)).trans
      (congrArg (init (Shape.Idx.first hu) + ·)
        (Finset.sum_congr rfl fun k _ => congrArg x (lift4_2 (reduces_of_reducesTo h' rank3_pos) b p j k))))

/-- The host's maximum over the neighbours from an initial scalar, at (b, p, j): the fold of the maximum. -/
theorem hostMax4_apply {n0 n1 n2 c : ℕ} (x : FVec Ideal (T4 n0 n1 n2 c) .f32) (init : T0.Idx → Ideal .f32)
    (h' : (T4 n0 n1 n2 c).ReducesTo [(2 : Fin 4)] (T3 n0 n1 c)) (hu : 0 < T0.numel)
    (b : Fin n0) (p : Fin n1) (j : Fin c) :
    Host.reduce (FloatOps.maximumf (F := Ideal) (φ := .f32)) x init h' hu (ix3 b p j)
      = (Finset.univ : Finset (Fin n2)).fold max (init (Shape.Idx.first hu)) (fun k => x (ix4 b p k j)) := by
  refine (Host.reduce_eq_fold_single _ x init h' (reduces_of_reducesTo h' rank3_pos) hu (ix3 b p j)).trans ?_
  have e : (x ∘ (reduces_of_reducesTo h' rank3_pos).lift (ix3 b p j)) = fun k : Fin n2 => x (ix4 b p k j) :=
    funext fun k => congrArg x (lift4_2 (reduces_of_reducesTo h' rank3_pos) b p j k)
  exact congrArg (fun g => (Finset.univ : Finset (Fin n2)).fold max (init (Shape.Idx.first hu)) g) e

/-! ## Stages on a rank-3 tensor -/

/-- A dense layer with its bias (the product, the bias laid over every point, the sum) at (b, p, o). -/
theorem lin3_apply {n0 n1 ci co : ℕ} {D : DotDims (T3 n0 n1 ci) (T2 co ci) (T3 n0 n1 co)} (hD : Dense3 D)
    (X : FVec Ideal (T3 n0 n1 ci) .f32) (W : FVec Ideal (T2 co ci) .f32) (bv : FVec Ideal (T1 co) .f32)
    (h1 : (T1 co).BroadcastsInDim (T3 1 1 co) ![2]) (h2 : (T3 1 1 co).BroadcastsInDim (T3 n0 n1 co) ![0, 1, 2])
    (b : Fin n0) (p : Fin n1) {x : Fin ci → EReal} {Wf : Fin co → Fin ci → EReal} {bf : Fin co → EReal}
    (hX : ∀ i, X (ix3 b p i) = x i) (hW : ∀ o i, W (ix2 o i) = Wf o i) (hb : ∀ o, bv (ix1 o) = bf o) (o : Fin co) :
    addf (Host.dotGeneral D none X W)
        (broadcastInDim (T3 n0 n1 co) ![0, 1, 2] h2 (broadcastInDim (T3 1 1 co) ![2] h1 bv)) (ix3 b p o)
      = Cert.Net.lin Wf bf x o := by
  rw [addf_apply, dense3_mat hD X W b p hX hW, vec3_apply, hb]
  rfl

/-- The per-channel affine map (times the scale laid over every point, plus the shift laid over every point). -/
theorem aff3_apply {n0 n1 c : ℕ} (Y : FVec Ideal (T3 n0 n1 c) .f32) (sv tv : FVec Ideal (T1 c) .f32)
    (h1 : (T1 c).BroadcastsInDim (T3 1 1 c) ![2]) (h2 : (T3 1 1 c).BroadcastsInDim (T3 n0 n1 c) ![0, 1, 2])
    (b : Fin n0) (p : Fin n1) {y s t : Fin c → EReal}
    (hY : ∀ j, Y (ix3 b p j) = y j) (hs : ∀ j, sv (ix1 j) = s j) (ht : ∀ j, tv (ix1 j) = t j) (j : Fin c) :
    addf (mulf Y (broadcastInDim (T3 n0 n1 c) ![0, 1, 2] h2 (broadcastInDim (T3 1 1 c) ![2] h1 sv)))
        (broadcastInDim (T3 n0 n1 c) ![0, 1, 2] h2 (broadcastInDim (T3 1 1 c) ![2] h1 tv)) (ix3 b p j)
      = Cert.Net.aff s t y j := by
  rw [addf_apply, mulf_apply, vec3_apply, vec3_apply, hY, hs, ht]
  rfl

/-- The rectifier: the maximum with the zero scalar laid over everything. -/
theorem relu3_apply {n0 n1 c : ℕ} (Y : FVec Ideal (T3 n0 n1 c) .f32) (h : T0.BroadcastsInDim (T3 n0 n1 c) ![])
    (b : Fin n0) (p : Fin n1) {y : Fin c → EReal} (hY : ∀ j, Y (ix3 b p j) = y j) (j : Fin c) :
    maximumf Y (broadcastInDim (T3 n0 n1 c) ![] h (constant (F := Ideal) T0 .f32 0x00000000#32)) (ix3 b p j)
      = Cert.Net.relu y j := by
  rw [maximumf_apply, broadcastInDim_scalar_apply, constant_apply, hY]
  rfl

end Cert.RefB

end
-- ==== Proof.RefPool.lean ====
/-
  One round of attentive pooling in the reference's layout, at one point (b, p), over channel counts as variables:
  A neighbour features and B features of the point laid over the sixteen neighbours make C = A + B channels; the scores
  are a square map of them; the softmax over the neighbours is taken channel by channel (the maximum from -inf, the
  exponentials of the differences, their sum, the quotient); the score-weighted features are summed over the
  neighbours; then a dense layer, the per-channel affine map, the rectifier and a second dense layer.

  Every array is a variable and every line of the program an equation between arrays; the conclusion reads the last
  array at (b, p, c). Nothing is used of the extended reals but the commutativity of the product inside the dense
  layers and zero being neutral for the sum.
-/
import proofs.«138937_j6992206758069_2_alg».proof.Proof.RefLayB

noncomputable section

namespace Cert.RefB

open Idealize.ShloMosaic Idealize.ShloMosaic.ValueIdx
open scoped BigOperators

/-- The point's features laid over the neighbours and put after the neighbour features. -/
theorem catStage {n0 n1 A B C : ℕ} (hC : C = A + B)
    (hb1 : (T3 n0 n1 B).BroadcastsInDim (T4 n0 n1 1 B) ![0, 1, 3])
    (hb2 : (T4 n0 n1 1 B).BroadcastsInDim (T4 n0 n1 16 B) ![0, 1, 2, 3])
    (hcat : Shape.Concatenates [T4 n0 n1 16 A, T4 n0 n1 16 B] (T4 n0 n1 16 C) (3 : Fin 4))
    (x : FVec Ideal (T4 n0 n1 16 A) .f32) (f : FVec Ideal (T3 n0 n1 B) .f32)
    (g1 : FVec Ideal (T4 n0 n1 1 B) .f32) (g2 : FVec Ideal (T4 n0 n1 16 B) .f32) (g3 : FVec Ideal (T4 n0 n1 16 C) .f32)
    (e1 : g1 = broadcastInDim (T4 n0 n1 1 B) ![0, 1, 3] hb1 f)
    (e2 : g2 = broadcastInDim (T4 n0 n1 16 B) ![0, 1, 2, 3] hb2 g1)
    (e3 : g3 = concatenate (T4 n0 n1 16 C) (3 : Fin 4) [⟨T4 n0 n1 16 A, x⟩, ⟨T4 n0 n1 16 B, g2⟩] hcat)
    (b : Fin n0) (p : Fin n1) {xn : Fin 16 → Fin A → EReal} {ff : Fin B → EReal}
    (hx : ∀ k a, x (ix4 b p k a) = xn k a) (hf : ∀ d, f (ix3 b p d) = ff d) (k : Fin 16) (c : Fin C) :
    g3 (ix4 b p k c) = Cert.Net.cat hC (xn k) ff c := by
  have hx' : (fun a => x (ix4 b p k a)) = xn k := funext (hx k)
  have hg' : (fun d => g2 (ix4 b p k d)) = ff := funext fun d => by rw [e2, e1, overNbr_apply, hf]
  rw [e3, cat4_apply hC, hx', hg']

/-- Scores, softmax over the neighbours and the weighted sum: from features X at the point to their pooled row. -/
theorem poolStage {n0 n1 C : ℕ}
    {D1 : DotDims (T4 n0 n1 16 C) (T2 C C) (T4 n0 n1 16 C)} (hD1 : Dense4 D1)
    (hred : (T4 n0 n1 16 C).ReducesTo [(2 : Fin 4)] (T3 n0 n1 C)) (hu : 0 < T0.numel)
    (hb0 : T0.BroadcastsInDim (T3 n0 n1 C) ![])
    (hb3 : (T3 n0 n1 C).BroadcastsInDim (T4 n0 n1 1 C) ![0, 1, 3])
    (hb4 : (T4 n0 n1 1 C).BroadcastsInDim (T4 n0 n1 16 C) ![0, 1, 2, 3])
    (g3 : FVec Ideal (T4 n0 n1 16 C) .f32) (Ws : FVec Ideal (T2 C C) .f32)
    (g4 : FVec Ideal (T4 n0 n1 16 C) .f32) (k1 : FVec Ideal T0 .f32) (g5 : FVec Ideal (T3 n0 n1 C) .f32)
    (k2 : FVec Ideal T0 .f32) (g6 g7 : FVec Ideal (T3 n0 n1 C) .f32) (g8 : FVec Ideal (T4 n0 n1 1 C) .f32)
    (g9 g10 g11 : FVec Ideal (T4 n0 n1 16 C) .f32) (k3 : FVec Ideal T0 .f32) (g12 : FVec Ideal (T3 n0 n1 C) .f32)
    (g13 : FVec Ideal (T4 n0 n1 1 C) .f32) (g14 g15 g16 : FVec Ideal (T4 n0 n1 16 C) .f32) (k4 : FVec Ideal T0 .f32)
    (g17 : FVec Ideal (T3 n0 n1 C) .f32)
    (e4 : g4 = Host.dotGeneral D1 none g3 Ws)
    (ek1 : k1 = constant (F := Ideal) T0 .f32 0xFF800000#32)
    (e5 : g5 = Host.reduce (FloatOps.maximumf (F := Ideal) (φ := .f32)) g4 k1 hred hu)
    (ek2 : k2 = constant (F := Ideal) T0 .f32 0xFF800000#32)
    (e6 : g6 = broadcastInDim (T3 n0 n1 C) ![] hb0 k2)
    (e7 : g7 = maximumf g6 g5)
    (e8 : g8 = broadcastInDim (T4 n0 n1 1 C) ![0, 1, 3] hb3 g7)
    (e9 : g9 = broadcastInDim (T4 n0 n1 16 C) ![0, 1, 2, 3] hb4 g8)
    (e10 : g10 = subf g4 g9)
    (e11 : g11 = Host.exp (F := Ideal) g10)
    (ek3 : k3 = constant (F := Ideal) T0 .f32 0x00000000#32)
    (e12 : g12 = Host.reduceAdd (F := Ideal) g11 k3 hred hu)
    (e13 : g13 = broadcastInDim (T4 n0 n1 1 C) ![0, 1, 3] hb3 g12)
    (e14 : g14 = broadcastInDim (T4 n0 n1 16 C) ![0, 1, 2, 3] hb4 g13)
    (e15 : g15 = Host.divf (F := Ideal) g11 g14)
    (e16 : g16 = mulf g15 g3)
    (ek4 : k4 = constant (F := Ideal) T0 .f32 0x00000000#32)
    (e17 : g17 = Host.reduceAdd (F := Ideal) g16 k4 hred hu)
    (b : Fin n0) (p : Fin n1) {X : Fin 16 → Fin C → EReal} {Wsf : Fin C → Fin C → EReal}
    (h3 : ∀ k c, g3 (ix4 b p k c) = X k c) (hWs : ∀ o i, Ws (ix2 o i) = Wsf o i) (c : Fin C) :
    g17 (ix3 b p c) = Cert.Net.pool Wsf X c := by
  have h4 : ∀ k c, g4 (ix4 b p k c) = Cert.Net.mat Wsf (X k) c := fun k c => by
    rw [e4]; exact dense4_mat hD1 g3 Ws b p k (h3 k) hWs c
  have h5 : ∀ c, g5 (ix3 b p c)
      = (Finset.univ : Finset (Fin 16)).fold max Cert.Net.ninf32 (fun k => Cert.Net.mat Wsf (X k) c) := fun c => by
    rw [e5]
    refine (hostMax4_apply g4 k1 hred hu b p c).trans ?_
    rw [ek1, constant_apply]
    exact congrArg (fun g => (Finset.univ : Finset (Fin 16)).fold max Cert.Net.ninf32 g) (funext fun k => h4 k c)
  have h7 : ∀ c, g7 (ix3 b p c) = Cert.Net.rowMax (fun k => Cert.Net.mat Wsf (X k)) c := fun c => by
    rw [e7, maximumf_apply, e6, broadcastInDim_scalar_apply, ek2, constant_apply, h5]
    rfl
  have h9 : ∀ k c, g9 (ix4 b p k c) = Cert.Net.rowMax (fun k => Cert.Net.mat Wsf (X k)) c := fun k c => by
    rw [e9, e8, overNbr_apply, h7]
  have h11 : ∀ k c, g11 (ix4 b p k c) = Cert.Net.expo (fun k => Cert.Net.mat Wsf (X k)) k c := fun k c => by
    rw [e11]
    show FloatOps.hostUnary .exp (g10 (ix4 b p k c)) = _
    rw [e10, subf_apply, h4, h9]
    rfl
  have h12 : ∀ c, g12 (ix3 b p c) = ∑ k : Fin 16, Cert.Net.expo (fun k => Cert.Net.mat Wsf (X k)) k c := fun c => by
    rw [e12]
    refine (hostSum4_apply g11 k3 hred hu b p c).trans ?_
    rw [ek3, constant_apply, Ideal.ofBits_zero_f32, zero_add]
    exact Finset.sum_congr rfl fun k _ => h11 k c
  have h14 : ∀ k c, g14 (ix4 b p k c) = ∑ k' : Fin 16, Cert.Net.expo (fun k => Cert.Net.mat Wsf (X k)) k' c :=
    fun k c => by rw [e14, e13, overNbr_apply, h12]
  have h15 : ∀ k c, g15 (ix4 b p k c) = Cert.Net.weight (fun k => Cert.Net.mat Wsf (X k)) k c := fun k c => by
    rw [e15, hostDivf_apply, h11, h14]
    rfl
  have h16 : ∀ k c, g16 (ix4 b p k c) = Cert.Net.weight (fun k => Cert.Net.mat Wsf (X k)) k c * X k c := fun k c => by
    rw [e16, mulf_apply, h15, h3]
  rw [e17]
  refine (hostSum4_apply g16 k4 hred hu b p c).trans ?_
  rw [ek4, constant_apply, Ideal.ofBits_zero_f32, zero_add]
  exact Finset.sum_congr rfl fun k _ => h16 k c

/-- A dense layer, the per-channel affine map, the rectifier and a second dense layer, from a row z at the point. -/
theorem tailStage {n0 n1 C Ca Cb : ℕ}
    {D2 : DotDims (T3 n0 n1 C) (T2 Ca C) (T3 n0 n1 Ca)} (hD2 : Dense3 D2)
    (hv1 : (T1 Ca).BroadcastsInDim (T3 1 1 Ca) ![2]) (hv2 : (T3 1 1 Ca).BroadcastsInDim (T3 n0 n1 Ca) ![0, 1, 2])
    (hb0a : T0.BroadcastsInDim (T3 n0 n1 Ca) ![])
    {D3 : DotDims (T3 n0 n1 Ca) (T2 Cb Ca) (T3 n0 n1 Cb)} (hD3 : Dense3 D3)
    (hw1 : (T1 Cb).BroadcastsInDim (T3 1 1 Cb) ![2]) (hw2 : (T3 1 1 Cb).BroadcastsInDim (T3 n0 n1 Cb) ![0, 1, 2])
    (g17 : FVec Ideal (T3 n0 n1 C) .f32) (Wa : FVec Ideal (T2 Ca C) .f32) (ba sa ta : FVec Ideal (T1 Ca) .f32)
    (Wb : FVec Ideal (T2 Cb Ca) .f32) (bb : FVec Ideal (T1 Cb) .f32)
    (g18 : FVec Ideal (T3 n0 n1 Ca) .f32) (g19 : FVec Ideal (T3 1 1 Ca) .f32) (g20 g21 : FVec Ideal (T3 n0 n1 Ca) .f32)
    (g22 : FVec Ideal (T3 1 1 Ca) .f32) (g23 g24 : FVec Ideal (T3 n0 n1 Ca) .f32)
    (g25 : FVec Ideal (T3 1 1 Ca) .f32) (g26 g27 : FVec Ideal (T3 n0 n1 Ca) .f32)
    (k5 : FVec Ideal T0 .f32) (g28 g29 : FVec Ideal (T3 n0 n1 Ca) .f32)
    (g30 : FVec Ideal (T3 n0 n1 Cb) .f32) (g31 : FVec Ideal (T3 1 1 Cb) .f32) (g32 g33 : FVec Ideal (T3 n0 n1 Cb) .f32)
    (e18 : g18 = Host.dotGeneral D2 none g17 Wa)
    (e19 : g19 = broadcastInDim (T3 1 1 Ca) ![2] hv1 ba)
    (e20 : g20 = broadcastInDim (T3 n0 n1 Ca) ![0, 1, 2] hv2 g19)
    (e21 : g21 = addf g18 g20)
    (e22 : g22 = broadcastInDim (T3 1 1 Ca) ![2] hv1 sa)
    (e23 : g23 = broadcastInDim (T3 n0 n1 Ca) ![0, 1, 2] hv2 g22)
    (e24 : g24 = mulf g21 g23)
    (e25 : g25 = broadcastInDim (T3 1 1 Ca) ![2] hv1 ta)
    (e26 : g26 = broadcastInDim (T3 n0 n1 Ca) ![0, 1, 2] hv2 g25)
    (e27 : g27 = addf g24 g26)
    (ek5 : k5 = constant (F := Ideal) T0 .f32 0x00000000#32)
    (e28 : g28 = broadcastInDim (T3 n0 n1 Ca) ![] hb0a k5)
    (e29 : g29 = maximumf g27 g28)
    (e30 : g30 = Host.dotGeneral D3 none g29 Wb)
    (e31 : g31 = broadcastInDim (T3 1 1 Cb) ![2] hw1 bb)
    (e32 : g32 = broadcastInDim (T3 n0 n1 Cb) ![0, 1, 2] hw2 g31)
    (e33 : g33 = addf g30 g32)
    (b : Fin n0) (p : Fin n1) {z : Fin C → EReal} {Waf : Fin Ca → Fin C → EReal} {baf saf taf : Fin Ca → EReal}
    {Wbf : Fin Cb → Fin Ca → EReal} {bbf : Fin Cb → EReal}
    (h17 : ∀ c, g17 (ix3 b p c) = z c) (hWa : ∀ o i, Wa (ix2 o i) = Waf o i) (hba : ∀ o, ba (ix1 o) = baf o)
    (hsa : ∀ o, sa (ix1 o) = saf o) (hta : ∀ o, ta (ix1 o) = taf o) (hWb : ∀ o i, Wb (ix2 o i) = Wbf o i)
    (hbb : ∀ o, bb (ix1 o) = bbf o) (c : Fin Cb) :
    g33 (ix3 b p c)
      = Cert.Net.lin Wbf bbf (Cert.Net.relu (Cert.Net.aff saf taf (Cert.Net.lin Waf baf z))) c := by
  have h21 : ∀ o, g21 (ix3 b p o) = Cert.Net.lin Waf baf z o := fun o => by
    rw [e21, e18, e20, e19]; exact lin3_apply hD2 g17 Wa ba hv1 hv2 b p h17 hWa hba o
  have h27 : ∀ o, g27 (ix3 b p o) = Cert.Net.aff saf taf (Cert.Net.lin Waf baf z) o := fun o => by
    rw [e27, e24, e23, e22, e26, e25]; exact aff3_apply g21 sa ta hv1 hv2 b p h21 hsa hta o
  have h29 : ∀ o, g29 (ix3 b p o) = Cert.Net.relu (Cert.Net.aff saf taf (Cert.Net.lin Waf baf z)) o := fun o => by
    rw [e29, e28, ek5]; exact relu3_apply g27 hb0a b p h27 o
  rw [e33, e30, e32, e31]
  exact lin3_apply hD3 g29 Wb bb hw1 hw2 b p h29 hWb hbb c

/-- One round of attentive pooling, its lines in program order: the last array at (b, p, c) is the round applied to the
    neighbour features followed by the point's features. -/
theorem round_apply {n0 n1 A B C Ca Cb : ℕ} (hC : C = A + B)
    {hb1 : (T3 n0 n1 B).BroadcastsInDim (T4 n0 n1 1 B) ![0, 1, 3]}
    {hb2 : (T4 n0 n1 1 B).BroadcastsInDim (T4 n0 n1 16 B) ![0, 1, 2, 3]}
    {hcat : Shape.Concatenates [T4 n0 n1 16 A, T4 n0 n1 16 B] (T4 n0 n1 16 C) (3 : Fin 4)}
    {D1 : DotDims (T4 n0 n1 16 C) (T2 C C) (T4 n0 n1 16 C)} (hD1 : Dense4 D1)
    {hred : (T4 n0 n1 16 C).ReducesTo [(2 : Fin 4)] (T3 n0 n1 C)} {hu : 0 < T0.numel}
    {hb0 : T0.BroadcastsInDim (T3 n0 n1 C) ![]}
    {hb3 : (T3 n0 n1 C).BroadcastsInDim (T4 n0 n1 1 C) ![0, 1, 3]}
    {hb4 : (T4 n0 n1 1 C).BroadcastsInDim (T4 n0 n1 16 C) ![0, 1, 2, 3]}
    {D2 : DotDims (T3 n0 n1 C) (T2 Ca C) (T3 n0 n1 Ca)} (hD2 : Dense3 D2)
    {hv1 : (T1 Ca).BroadcastsInDim (T3 1 1 Ca) ![2]} {hv2 : (T3 1 1 Ca).BroadcastsInDim (T3 n0 n1 Ca) ![0, 1, 2]}
    {hb0a : T0.BroadcastsInDim (T3 n0 n1 Ca) ![]}
    {D3 : DotDims (T3 n0 n1 Ca) (T2 Cb Ca) (T3 n0 n1 Cb)} (hD3 : Dense3 D3)
    {hw1 : (T1 Cb).BroadcastsInDim (T3 1 1 Cb) ![2]} {hw2 : (T3 1 1 Cb).BroadcastsInDim (T3 n0 n1 Cb) ![0, 1, 2]}
    {x : FVec Ideal (T4 n0 n1 16 A) .f32} {f : FVec Ideal (T3 n0 n1 B) .f32}
    {Ws : FVec Ideal (T2 C C) .f32} {Wa : FVec Ideal (T2 Ca C) .f32} {ba sa ta : FVec Ideal (T1 Ca) .f32}
    {Wb : FVec Ideal (T2 Cb Ca) .f32} {bb : FVec Ideal (T1 Cb) .f32}
    {g1 : FVec Ideal (T4 n0 n1 1 B) .f32} {g2 : FVec Ideal (T4 n0 n1 16 B) .f32} {g3 g4 : FVec Ideal (T4 n0 n1 16 C) .f32}
    {k1 : FVec Ideal T0 .f32} {g5 : FVec Ideal (T3 n0 n1 C) .f32}
    {k2 : FVec Ideal T0 .f32} {g6 g7 : FVec Ideal (T3 n0 n1 C) .f32} {g8 : FVec Ideal (T4 n0 n1 1 C) .f32}
    {g9 g10 g11 : FVec Ideal (T4 n0 n1 16 C) .f32} {k3 : FVec Ideal T0 .f32} {g12 : FVec Ideal (T3 n0 n1 C) .f32}
    {g13 : FVec Ideal (T4 n0 n1 1 C) .f32} {g14 g15 g16 : FVec Ideal (T4 n0 n1 16 C) .f32} {k4 : FVec Ideal T0 .f32}
    {g17 : FVec Ideal (T3 n0 n1 C) .f32}
    {g18 : FVec Ideal (T3 n0 n1 Ca) .f32} {g19 : FVec Ideal (T3 1 1 Ca) .f32} {g20 g21 : FVec Ideal (T3 n0 n1 Ca) .f32}
    {g22 : FVec Ideal (T3 1 1 Ca) .f32} {g23 g24 : FVec Ideal (T3 n0 n1 Ca) .f32}
    {g25 : FVec Ideal (T3 1 1 Ca) .f32} {g26 g27 : FVec Ideal (T3 n0 n1 Ca) .f32}
    {k5 : FVec Ideal T0 .f32} {g28 g29 : FVec Ideal (T3 n0 n1 Ca) .f32}
    {g30 : FVec Ideal (T3 n0 n1 Cb) .f32} {g31 : FVec Ideal (T3 1 1 Cb) .f32} {g32 g33 : FVec Ideal (T3 n0 n1 Cb) .f32}
    (e1 : g1 = broadcastInDim (T4 n0 n1 1 B) ![0, 1, 3] hb1 f)
    (e2 : g2 = broadcastInDim (T4 n0 n1 16 B) ![0, 1, 2, 3] hb2 g1)
    (e3 : g3 = concatenate (T4 n0 n1 16 C) (3 : Fin 4) [⟨T4 n0 n1 16 A, x⟩, ⟨T4 n0 n1 16 B, g2⟩] hcat)
    (e4 : g4 = Host.dotGeneral D1 none g3 Ws)
    (ek1 : k1 = constant (F := Ideal) T0 .f32 0xFF800000#32)
    (e5 : g5 = Host.reduce (FloatOps.maximumf (F := Ideal) (φ := .f32)) g4 k1 hred hu)
    (ek2 : k2 = constant (F := Ideal) T0 .f32 0xFF800000#32)
    (e6 : g6 = broadcastInDim (T3 n0 n1 C) ![] hb0 k2)
    (e7 : g7 = maximumf g6 g5)
    (e8 : g8 = broadcastInDim (T4 n0 n1 1 C) ![0, 1, 3] hb3 g7)
    (e9 : g9 = broadcastInDim (T4 n0 n1 16 C) ![0, 1, 2, 3] hb4 g8)
    (e10 : g10 = subf g4 g9)
    (e11 : g11 = Host.exp (F := Ideal) g10)
    (ek3 : k3 = constant (F := Ideal) T0 .f32 0x00000000#32)
    (e12 : g12 = Host.reduceAdd (F := Ideal) g11 k3 hred hu)
    (e13 : g13 = broadcastInDim (T4 n0 n1 1 C) ![0, 1, 3] hb3 g12)
    (e14 : g14 = broadcastInDim (T4 n0 n1 16 C) ![0, 1, 2, 3] hb4 g13)
    (e15 : g15 = Host.divf (F := Ideal) g11 g14)
    (e16 : g16 = mulf g15 g3)
    (ek4 : k4 = constant (F := Ideal) T0 .f32 0x00000000#32)
    (e17 : g17 = Host.reduceAdd (F := Ideal) g16 k4 hred hu)
    (e18 : g18 = Host.dotGeneral D2 none g17 Wa)
    (e19 : g19 = broadcastInDim (T3 1 1 Ca) ![2] hv1 ba)
    (e20 : g20 = broadcastInDim (T3 n0 n1 Ca) ![0, 1, 2] hv2 g19)
    (e21 : g21 = addf g18 g20)
    (e22 : g22 = broadcastInDim (T3 1 1 Ca) ![2] hv1 sa)
    (e23 : g23 = broadcastInDim (T3 n0 n1 Ca) ![0, 1, 2] hv2 g22)
    (e24 : g24 = mulf g21 g23)
    (e25 : g25 = broadcastInDim (T3 1 1 Ca) ![2] hv1 ta)
    (e26 : g26 = broadcastInDim (T3 n0 n1 Ca) ![0, 1, 2] hv2 g25)
    (e27 : g27 = addf g24 g26)
    (ek5 : k5 = constant (F := Ideal) T0 .f32 0x00000000#32)
    (e28 : g28 = broadcastInDim (T3 n0 n1 Ca) ![] hb0a k5)
    (e29 : g29 = maximumf g27 g28)
    (e30 : g30 = Host.dotGeneral D3 none g29 Wb)
    (e31 : g31 = broadcastInDim (T3 1 1 Cb) ![2] hw1 bb)
    (e32 : g32 = broadcastInDim (T3 n0 n1 Cb) ![0, 1, 2] hw2 g31)
    (e33 : g33 = addf g30 g32)
    (b : Fin n0) (p : Fin n1) {xn : Fin 16 → Fin A → EReal} {ff : Fin B → EReal}
    {Wsf : Fin C → Fin C → EReal} {Waf : Fin Ca → Fin C → EReal} {baf saf taf : Fin Ca → EReal}
    {Wbf : Fin Cb → Fin Ca → EReal} {bbf : Fin Cb → EReal}
    (hx : ∀ k a, x (ix4 b p k a) = xn k a) (hf : ∀ d, f (ix3 b p d) = ff d)
    (hWs : ∀ o i, Ws (ix2 o i) = Wsf o i) (hWa : ∀ o i, Wa (ix2 o i) = Waf o i) (hba : ∀ o, ba (ix1 o) = baf o)
    (hsa : ∀ o, sa (ix1 o) = saf o) (hta : ∀ o, ta (ix1 o) = taf o) (hWb : ∀ o i, Wb (ix2 o i) = Wbf o i)
    (hbb : ∀ o, bb (ix1 o) = bbf o) (c : Fin Cb) :
    g33 (ix3 b p c)
      = Cert.Net.attpool Wsf Waf baf saf taf Wbf bbf (fun k => Cert.Net.cat hC (xn k) ff) c := by
  have h3 := catStage hC hb1 hb2 hcat x f g1 g2 g3 e1 e2 e3 b p hx hf
  have h17 := poolStage hD1 hred hu hb0 hb3 hb4 g3 Ws g4 k1 g5 k2 g6 g7 g8 g9 g10 g11 k3 g12 g13 g14 g15 g16 k4 g17
    e4 ek1 e5 ek2 e6 e7 e8 e9 e10 e11 ek3 e12 e13 e14 e15 e16 ek4 e17 b p h3 hWs
  exact tailStage hD2 hv1 hv2 hb0a hD3 hw1 hw2 g17 Wa ba sa ta Wb bb g18 g19 g20 g21 g22 g23 g24 g25 g26 g27 k5 g28 g29
    g30 g31 g32 g33 e18 e19 e20 e21 e22 e23 e24 e25 e26 e27 ek5 e28 e29 e30 e31 e32 e33 b p h17 hWa hba hsa hta hWb hbb c

end Cert.RefB

end
-- ==== Proof.RefRounds.lean ====
/-
  The three rounds of attentive pooling of the reference, line by line: every buffer a variable, every printed line an
  equation, every conclusion at one point (b, p) of the cloud. The dimension numbers of each dense layer are checked to
  contract the activation's last axis with the weight's axis 1; the rounds instantiate the generic round at the channel
  counts 8 + 8, 8 + 8 and 8 + 16.
-/
import proofs.«138937_j6992206758069_2_alg».proof.ReferenceIdeal
import proofs.«138937_j6992206758069_2_alg».proof.Proof.RefPool

noncomputable section

namespace Cert.RefB

open Cert.ReferenceIdeal Cert.ReferenceIdeal.Facts₀ Idealize.ShloMosaic Idealize.ShloMosaic.ValueIdx
open scoped BigOperators

section
variable [Cert.ReferenceIdeal.Facts]

/-- The dimension numbers of one dense layer: the facts a reading at an index uses. -/
theorem dn_0 : Dense4 dot_S2x65536x16x16_S16x16_S2x65536x16x16_3_1_012_0_n_n :=
  ⟨rfl, rfl, rfl, rfl, fun _ _ => rfl, fun _ _ => rfl, fun _ _ => rfl, fun _ _ => rfl⟩

/-- The dimension numbers of one dense layer: the facts a reading at an index uses. -/
theorem dn_1 : Dense3 dot_S2x65536x16_S8x16_S2x65536x8_2_1_01_0_n_n :=
  ⟨rfl, rfl, rfl, rfl, fun _ _ => rfl, fun _ _ => rfl, fun _ _ => rfl⟩

/-- The dimension numbers of one dense layer: the facts a reading at an index uses. -/
theorem dn_2 : Dense3 dot_S2x65536x8_S8x8_S2x65536x8_2_1_01_0_n_n :=
  ⟨rfl, rfl, rfl, rfl, fun _ _ => rfl, fun _ _ => rfl, fun _ _ => rfl⟩

/-- The dimension numbers of one dense layer: the facts a reading at an index uses. -/
theorem dn_3 : Dense3 dot_S2x65536x16_S16x16_S2x65536x16_2_1_01_0_n_n :=
  ⟨rfl, rfl, rfl, rfl, fun _ _ => rfl, fun _ _ => rfl, fun _ _ => rfl⟩

/-- The dimension numbers of one dense layer: the facts a reading at an index uses. -/
theorem dn_4 : Dense4 dot_S2x65536x16x24_S24x24_S2x65536x16x24_3_1_012_0_n_n :=
  ⟨rfl, rfl, rfl, rfl, fun _ _ => rfl, fun _ _ => rfl, fun _ _ => rfl, fun _ _ => rfl⟩

/-- The dimension numbers of one dense layer: the facts a reading at an index uses. -/
theorem dn_5 : Dense3 dot_S2x65536x24_S32x24_S2x65536x32_2_1_01_0_n_n :=
  ⟨rfl, rfl, rfl, rfl, fun _ _ => rfl, fun _ _ => rfl, fun _ _ => rfl⟩

/-- The dimension numbers of one dense layer: the facts a reading at an index uses. -/
theorem dn_6 : Dense3 dot_S2x65536x32_S32x32_S2x65536x32_2_1_01_0_n_n :=
  ⟨rfl, rfl, rfl, rfl, fun _ _ => rfl, fun _ _ => rfl, fun _ _ => rfl⟩

end

/-- The first round: the lines that write %52 to %83, the rectifier's three lines among them. -/
theorem f1_apply [Cert.ReferenceIdeal.Facts] (P : Cert.Net.Params) (q : Fin 6 → EReal) (nbr : Fin 16 → Fin 6 → EReal)
    (b : Fin 2) (p : Fin 65536)
    (v42 : FVec Ideal S2x65536x16x8 .f32) (v51 : FVec Ideal S2x65536x8 .f32) (a15 : FVec Ideal S16x16 .f32)
    (a16 : FVec Ideal S8x16 .f32) (a17 : FVec Ideal S8 .f32) (a18 : FVec Ideal S8 .f32) (a19 : FVec Ideal S8 .f32)
    (a20 : FVec Ideal S8x8 .f32) (a21 : FVec Ideal S8 .f32)
    {v52 : FVec Ideal S2x65536x1x8 .f32} {v53 : FVec Ideal S2x65536x16x8 .f32} {v54 : FVec Ideal S2x65536x16x16 .f32}
    {v55 : FVec Ideal S2x65536x16x16 .f32} {cst_3 : FVec Ideal S_ .f32} {v56 : FVec Ideal S2x65536x16 .f32}
    {cst_4 : FVec Ideal S_ .f32} {v57 : FVec Ideal S2x65536x16 .f32} {v58 : FVec Ideal S2x65536x16 .f32}
    {v59 : FVec Ideal S2x65536x1x16 .f32} {v60 : FVec Ideal S2x65536x16x16 .f32}
    {v61 : FVec Ideal S2x65536x16x16 .f32} {v62 : FVec Ideal S2x65536x16x16 .f32} {cst_5 : FVec Ideal S_ .f32}
    {v63 : FVec Ideal S2x65536x16 .f32} {v64 : FVec Ideal S2x65536x1x16 .f32} {v65 : FVec Ideal S2x65536x16x16 .f32}
    {v66 : FVec Ideal S2x65536x16x16 .f32} {v67 : FVec Ideal S2x65536x16x16 .f32} {cst_6 : FVec Ideal S_ .f32}
    {v68 : FVec Ideal S2x65536x16 .f32} {v69 : FVec Ideal S2x65536x8 .f32} {v70 : FVec Ideal S1x1x8 .f32}
    {v71 : FVec Ideal S2x65536x8 .f32} {v72 : FVec Ideal S2x65536x8 .f32} {v73 : FVec Ideal S1x1x8 .f32}
    {v74 : FVec Ideal S2x65536x8 .f32} {v75 : FVec Ideal S2x65536x8 .f32} {v76 : FVec Ideal S1x1x8 .f32}
    {v77 : FVec Ideal S2x65536x8 .f32} {v78 : FVec Ideal S2x65536x8 .f32} {call3_cst : FVec Ideal S_ .f32}
    {call3_v0 : FVec Ideal S2x65536x8 .f32} {v79 : FVec Ideal S2x65536x8 .f32} {v80 : FVec Ideal S2x65536x8 .f32}
    {v81 : FVec Ideal S1x1x8 .f32} {v82 : FVec Ideal S2x65536x8 .f32} {v83 : FVec Ideal S2x65536x8 .f32}
    (e_v52 : v52 = broadcastInDim S2x65536x1x8 ![0, 1, 3] bcast_S2x65536x8_S2x65536x1x8_0_1_3 v51)
    (e_v53 : v53 = broadcastInDim S2x65536x16x8 ![0, 1, 2, 3] bcast_S2x65536x1x8_S2x65536x16x8_0_1_2_3 v52)
    (e_v54 : v54 = concatenate S2x65536x16x16 3 [⟨S2x65536x16x8, v42⟩, ⟨S2x65536x16x8, v53⟩] concatenates_S2x65536x16x8_S2x65536x16x8_S2x65536x16x16_d3)
    (e_v55 : v55 = Host.dotGeneral (F := Ideal) dot_S2x65536x16x16_S16x16_S2x65536x16x16_3_1_012_0_n_n none v54 a15)
    (e_cst_3 : cst_3 = constant (F := Ideal) S_ .f32 0xFF800000#32)
    (e_v56 : v56 = Host.reduce (FloatOps.maximumf (F := Ideal) (φ := .f32)) v55 cst_3 reducesTo_S2x65536x16x16_S2x65536x16_d2 h_S_)
    (e_cst_4 : cst_4 = constant (F := Ideal) S_ .f32 0xFF800000#32)
    (e_v57 : v57 = broadcastInDim S2x65536x16 ![] bcast_S_S2x65536x16 cst_4)
    (e_v58 : v58 = maximumf v57 v56)
    (e_v59 : v59 = broadcastInDim S2x65536x1x16 ![0, 1, 3] bcast_S2x65536x16_S2x65536x1x16_0_1_3 v58)
    (e_v60 : v60 = broadcastInDim S2x65536x16x16 ![0, 1, 2, 3] bcast_S2x65536x1x16_S2x65536x16x16_0_1_2_3 v59)
    (e_v61 : v61 = subf v55 v60)
    (e_v62 : v62 = Host.exp (F := Ideal) v61)
    (e_cst_5 : cst_5 = constant (F := Ideal) S_ .f32 0x00000000#32)
    (e_v63 : v63 = Host.reduceAdd (F := Ideal) v62 cst_5 reducesTo_S2x65536x16x16_S2x65536x16_d2 h_S_)
    (e_v64 : v64 = broadcastInDim S2x65536x1x16 ![0, 1, 3] bcast_S2x65536x16_S2x65536x1x16_0_1_3 v63)
    (e_v65 : v65 = broadcastInDim S2x65536x16x16 ![0, 1, 2, 3] bcast_S2x65536x1x16_S2x65536x16x16_0_1_2_3 v64)
    (e_v66 : v66 = Host.divf (F := Ideal) v62 v65)
    (e_v67 : v67 = mulf v66 v54)
    (e_cst_6 : cst_6 = constant (F := Ideal) S_ .f32 0x00000000#32)
    (e_v68 : v68 = Host.reduceAdd (F := Ideal) v67 cst_6 reducesTo_S2x65536x16x16_S2x65536x16_d2 h_S_)
    (e_v69 : v69 = Host.dotGeneral (F := Ideal) dot_S2x65536x16_S8x16_S2x65536x8_2_1_01_0_n_n none v68 a16)
    (e_v70 : v70 = broadcastInDim S1x1x8 ![2] bcast_S8_S1x1x8_2 a17)
    (e_v71 : v71 = broadcastInDim S2x65536x8 ![0, 1, 2] bcast_S1x1x8_S2x65536x8_0_1_2 v70)
    (e_v72 : v72 = addf v69 v71)
    (e_v73 : v73 = broadcastInDim S1x1x8 ![2] bcast_S8_S1x1x8_2 a18)
    (e_v74 : v74 = broadcastInDim S2x65536x8 ![0, 1, 2] bcast_S1x1x8_S2x65536x8_0_1_2 v73)
    (e_v75 : v75 = mulf v72 v74)
    (e_v76 : v76 = broadcastInDim S1x1x8 ![2] bcast_S8_S1x1x8_2 a19)
    (e_v77 : v77 = broadcastInDim S2x65536x8 ![0, 1, 2] bcast_S1x1x8_S2x65536x8_0_1_2 v76)
    (e_v78 : v78 = addf v75 v77)
    (e_call3_cst : call3_cst = constant (F := Ideal) S_ .f32 0x00000000#32)
    (e_call3_v0 : call3_v0 = broadcastInDim S2x65536x8 ![] bcast_S_S2x65536x8 call3_cst)
    (e_v79 : v79 = maximumf v78 call3_v0)
    (e_v80 : v80 = Host.dotGeneral (F := Ideal) dot_S2x65536x8_S8x8_S2x65536x8_2_1_01_0_n_n none v79 a20)
    (e_v81 : v81 = broadcastInDim S1x1x8 ![2] bcast_S8_S1x1x8_2 a21)
    (e_v82 : v82 = broadcastInDim S2x65536x8 ![0, 1, 2] bcast_S1x1x8_S2x65536x8_0_1_2 v81)
    (e_v83 : v83 = addf v80 v82)
    (h42 : ∀ k c, v42 (ix4 b p k c) = Cert.Net.ste P q nbr k c)
    (h51 : ∀ c, v51 (ix3 b p c) = Cert.Net.feat0 P q c)
    (hw15 : ∀ o i, a15 (ix2 o i) = P.w_score1 o i) (hw16 : ∀ o i, a16 (ix2 o i) = P.w_p1a o i)
    (hw17 : ∀ o, a17 (ix1 o) = P.b_p1a o) (hw18 : ∀ o, a18 (ix1 o) = P.s_p1a o) (hw19 : ∀ o, a19 (ix1 o) = P.t_p1a o)
    (hw20 : ∀ o i, a20 (ix2 o i) = P.w_p1b o i) (hw21 : ∀ o, a21 (ix1 o) = P.b_p1b o)
    (c : Fin 8) : v83 (ix3 b p c) = Cert.Net.f1 P q nbr c := by
  unfold Cert.Net.f1
  exact round_apply (A := 8) (B := 8) (C := 16) rfl dn_0 dn_1 dn_2
    e_v52 e_v53 e_v54 e_v55 e_cst_3 e_v56 e_cst_4 e_v57 e_v58 e_v59 e_v60 e_v61 e_v62 e_cst_5 e_v63 e_v64 e_v65 e_v66
      e_v67 e_cst_6 e_v68 e_v69 e_v70 e_v71 e_v72 e_v73 e_v74 e_v75 e_v76 e_v77 e_v78 e_call3_cst e_call3_v0 e_v79
      e_v80 e_v81 e_v82 e_v83
    b p h42 h51 hw15 hw16 hw17 hw18 hw19 hw20 hw21 c

/-- The second round (%94 to %125). -/
theorem f2_apply [Cert.ReferenceIdeal.Facts] (P : Cert.Net.Params) (q : Fin 6 → EReal) (nbr : Fin 16 → Fin 6 → EReal)
    (b : Fin 2) (p : Fin 65536)
    (v42 : FVec Ideal S2x65536x16x8 .f32) (v83 : FVec Ideal S2x65536x8 .f32) (a26 : FVec Ideal S16x16 .f32)
    (a27 : FVec Ideal S16x16 .f32) (a28 : FVec Ideal S16 .f32) (a29 : FVec Ideal S16 .f32) (a30 : FVec Ideal S16 .f32)
    (a31 : FVec Ideal S16x16 .f32) (a32 : FVec Ideal S16 .f32)
    {v94 : FVec Ideal S2x65536x1x8 .f32} {v95 : FVec Ideal S2x65536x16x8 .f32} {v96 : FVec Ideal S2x65536x16x16 .f32}
    {v97 : FVec Ideal S2x65536x16x16 .f32} {cst_7 : FVec Ideal S_ .f32} {v98 : FVec Ideal S2x65536x16 .f32}
    {cst_8 : FVec Ideal S_ .f32} {v99 : FVec Ideal S2x65536x16 .f32} {v100 : FVec Ideal S2x65536x16 .f32}
    {v101 : FVec Ideal S2x65536x1x16 .f32} {v102 : FVec Ideal S2x65536x16x16 .f32}
    {v103 : FVec Ideal S2x65536x16x16 .f32} {v104 : FVec Ideal S2x65536x16x16 .f32} {cst_9 : FVec Ideal S_ .f32}
    {v105 : FVec Ideal S2x65536x16 .f32} {v106 : FVec Ideal S2x65536x1x16 .f32}
    {v107 : FVec Ideal S2x65536x16x16 .f32} {v108 : FVec Ideal S2x65536x16x16 .f32}
    {v109 : FVec Ideal S2x65536x16x16 .f32} {cst_10 : FVec Ideal S_ .f32} {v110 : FVec Ideal S2x65536x16 .f32}
    {v111 : FVec Ideal S2x65536x16 .f32} {v112 : FVec Ideal S1x1x16 .f32} {v113 : FVec Ideal S2x65536x16 .f32}
    {v114 : FVec Ideal S2x65536x16 .f32} {v115 : FVec Ideal S1x1x16 .f32} {v116 : FVec Ideal S2x65536x16 .f32}
    {v117 : FVec Ideal S2x65536x16 .f32} {v118 : FVec Ideal S1x1x16 .f32} {v119 : FVec Ideal S2x65536x16 .f32}
    {v120 : FVec Ideal S2x65536x16 .f32} {call4_cst : FVec Ideal S_ .f32} {call4_v0 : FVec Ideal S2x65536x16 .f32}
    {v121 : FVec Ideal S2x65536x16 .f32} {v122 : FVec Ideal S2x65536x16 .f32} {v123 : FVec Ideal S1x1x16 .f32}
    {v124 : FVec Ideal S2x65536x16 .f32} {v125 : FVec Ideal S2x65536x16 .f32}
    (e_v94 : v94 = broadcastInDim S2x65536x1x8 ![0, 1, 3] bcast_S2x65536x8_S2x65536x1x8_0_1_3 v83)
    (e_v95 : v95 = broadcastInDim S2x65536x16x8 ![0, 1, 2, 3] bcast_S2x65536x1x8_S2x65536x16x8_0_1_2_3 v94)
    (e_v96 : v96 = concatenate S2x65536x16x16 3 [⟨S2x65536x16x8, v42⟩, ⟨S2x65536x16x8, v95⟩] concatenates_S2x65536x16x8_S2x65536x16x8_S2x65536x16x16_d3)
    (e_v97 : v97 = Host.dotGeneral (F := Ideal) dot_S2x65536x16x16_S16x16_S2x65536x16x16_3_1_012_0_n_n none v96 a26)
    (e_cst_7 : cst_7 = constant (F := Ideal) S_ .f32 0xFF800000#32)
    (e_v98 : v98 = Host.reduce (FloatOps.maximumf (F := Ideal) (φ := .f32)) v97 cst_7 reducesTo_S2x65536x16x16_S2x65536x16_d2 h_S_)
    (e_cst_8 : cst_8 = constant (F := Ideal) S_ .f32 0xFF800000#32)
    (e_v99 : v99 = broadcastInDim S2x65536x16 ![] bcast_S_S2x65536x16 cst_8)
    (e_v100 : v100 = maximumf v99 v98)
    (e_v101 : v101 = broadcastInDim S2x65536x1x16 ![0, 1, 3] bcast_S2x65536x16_S2x65536x1x16_0_1_3 v100)
    (e_v102 : v102 = broadcastInDim S2x65536x16x16 ![0, 1, 2, 3] bcast_S2x65536x1x16_S2x65536x16x16_0_1_2_3 v101)
    (e_v103 : v103 = subf v97 v102)
    (e_v104 : v104 = Host.exp (F := Ideal) v103)
    (e_cst_9 : cst_9 = constant (F := Ideal) S_ .f32 0x00000000#32)
    (e_v105 : v105 = Host.reduceAdd (F := Ideal) v104 cst_9 reducesTo_S2x65536x16x16_S2x65536x16_d2 h_S_)
    (e_v106 : v106 = broadcastInDim S2x65536x1x16 ![0, 1, 3] bcast_S2x65536x16_S2x65536x1x16_0_1_3 v105)
    (e_v107 : v107 = broadcastInDim S2x65536x16x16 ![0, 1, 2, 3] bcast_S2x65536x1x16_S2x65536x16x16_0_1_2_3 v106)
    (e_v108 : v108 = Host.divf (F := Ideal) v104 v107)
    (e_v109 : v109 = mulf v108 v96)
    (e_cst_10 : cst_10 = constant (F := Ideal) S_ .f32 0x00000000#32)
    (e_v110 : v110 = Host.reduceAdd (F := Ideal) v109 cst_10 reducesTo_S2x65536x16x16_S2x65536x16_d2 h_S_)
    (e_v111 : v111 = Host.dotGeneral (F := Ideal) dot_S2x65536x16_S16x16_S2x65536x16_2_1_01_0_n_n none v110 a27)
    (e_v112 : v112 = broadcastInDim S1x1x16 ![2] bcast_S16_S1x1x16_2 a28)
    (e_v113 : v113 = broadcastInDim S2x65536x16 ![0, 1, 2] bcast_S1x1x16_S2x65536x16_0_1_2 v112)
    (e_v114 : v114 = addf v111 v113)
    (e_v115 : v115 = broadcastInDim S1x1x16 ![2] bcast_S16_S1x1x16_2 a29)
    (e_v116 : v116 = broadcastInDim S2x65536x16 ![0, 1, 2] bcast_S1x1x16_S2x65536x16_0_1_2 v115)
    (e_v117 : v117 = mulf v114 v116)
    (e_v118 : v118 = broadcastInDim S1x1x16 ![2] bcast_S16_S1x1x16_2 a30)
    (e_v119 : v119 = broadcastInDim S2x65536x16 ![0, 1, 2] bcast_S1x1x16_S2x65536x16_0_1_2 v118)
    (e_v120 : v120 = addf v117 v119)
    (e_call4_cst : call4_cst = constant (F := Ideal) S_ .f32 0x00000000#32)
    (e_call4_v0 : call4_v0 = broadcastInDim S2x65536x16 ![] bcast_S_S2x65536x16 call4_cst)
    (e_v121 : v121 = maximumf v120 call4_v0)
    (e_v122 : v122 = Host.dotGeneral (F := Ideal) dot_S2x65536x16_S16x16_S2x65536x16_2_1_01_0_n_n none v121 a31)
    (e_v123 : v123 = broadcastInDim S1x1x16 ![2] bcast_S16_S1x1x16_2 a32)
    (e_v124 : v124 = broadcastInDim S2x65536x16 ![0, 1, 2] bcast_S1x1x16_S2x65536x16_0_1_2 v123)
    (e_v125 : v125 = addf v122 v124)
    (h42 : ∀ k c, v42 (ix4 b p k c) = Cert.Net.ste P q nbr k c)
    (h83 : ∀ c, v83 (ix3 b p c) = Cert.Net.f1 P q nbr c)
    (hw26 : ∀ o i, a26 (ix2 o i) = P.w_score2 o i) (hw27 : ∀ o i, a27 (ix2 o i) = P.w_p2a o i)
    (hw28 : ∀ o, a28 (ix1 o) = P.b_p2a o) (hw29 : ∀ o, a29 (ix1 o) = P.s_p2a o) (hw30 : ∀ o, a30 (ix1 o) = P.t_p2a o)
    (hw31 : ∀ o i, a31 (ix2 o i) = P.w_p2b o i) (hw32 : ∀ o, a32 (ix1 o) = P.b_p2b o)
    (c : Fin 16) : v125 (ix3 b p c) = Cert.Net.f2 P q nbr c := by
  unfold Cert.Net.f2
  exact round_apply (A := 8) (B := 8) (C := 16) rfl dn_0 dn_3 dn_3
    e_v94 e_v95 e_v96 e_v97 e_cst_7 e_v98 e_cst_8 e_v99 e_v100 e_v101 e_v102 e_v103 e_v104 e_cst_9 e_v105 e_v106
      e_v107 e_v108 e_v109 e_cst_10 e_v110 e_v111 e_v112 e_v113 e_v114 e_v115 e_v116 e_v117 e_v118 e_v119 e_v120
      e_call4_cst e_call4_v0 e_v121 e_v122 e_v123 e_v124 e_v125
    b p h42 h83 hw26 hw27 hw28 hw29 hw30 hw31 hw32 c

/-- The third round (%136 to %167). -/
theorem f3_apply [Cert.ReferenceIdeal.Facts] (P : Cert.Net.Params) (q : Fin 6 → EReal) (nbr : Fin 16 → Fin 6 → EReal)
    (b : Fin 2) (p : Fin 65536)
    (v42 : FVec Ideal S2x65536x16x8 .f32) (v125 : FVec Ideal S2x65536x16 .f32) (a37 : FVec Ideal S24x24 .f32)
    (a38 : FVec Ideal S32x24 .f32) (a39 : FVec Ideal S32 .f32) (a40 : FVec Ideal S32 .f32) (a41 : FVec Ideal S32 .f32)
    (a42 : FVec Ideal S32x32 .f32) (a43 : FVec Ideal S32 .f32)
    {v136 : FVec Ideal S2x65536x1x16 .f32} {v137 : FVec Ideal S2x65536x16x16 .f32}
    {v138 : FVec Ideal S2x65536x16x24 .f32} {v139 : FVec Ideal S2x65536x16x24 .f32} {cst_11 : FVec Ideal S_ .f32}
    {v140 : FVec Ideal S2x65536x24 .f32} {cst_12 : FVec Ideal S_ .f32} {v141 : FVec Ideal S2x65536x24 .f32}
    {v142 : FVec Ideal S2x65536x24 .f32} {v143 : FVec Ideal S2x65536x1x24 .f32}
    {v144 : FVec Ideal S2x65536x16x24 .f32} {v145 : FVec Ideal S2x65536x16x24 .f32}
    {v146 : FVec Ideal S2x65536x16x24 .f32} {cst_13 : FVec Ideal S_ .f32} {v147 : FVec Ideal S2x65536x24 .f32}
    {v148 : FVec Ideal S2x65536x1x24 .f32} {v149 : FVec Ideal S2x65536x16x24 .f32}
    {v150 : FVec Ideal S2x65536x16x24 .f32} {v151 : FVec Ideal S2x65536x16x24 .f32} {cst_14 : FVec Ideal S_ .f32}
    {v152 : FVec Ideal S2x65536x24 .f32} {v153 : FVec Ideal S2x65536x32 .f32} {v154 : FVec Ideal S1x1x32 .f32}
    {v155 : FVec Ideal S2x65536x32 .f32} {v156 : FVec Ideal S2x65536x32 .f32} {v157 : FVec Ideal S1x1x32 .f32}
    {v158 : FVec Ideal S2x65536x32 .f32} {v159 : FVec Ideal S2x65536x32 .f32} {v160 : FVec Ideal S1x1x32 .f32}
    {v161 : FVec Ideal S2x65536x32 .f32} {v162 : FVec Ideal S2x65536x32 .f32} {call5_cst : FVec Ideal S_ .f32}
    {call5_v0 : FVec Ideal S2x65536x32 .f32} {v163 : FVec Ideal S2x65536x32 .f32} {v164 : FVec Ideal S2x65536x32 .f32}
    {v165 : FVec Ideal S1x1x32 .f32} {v166 : FVec Ideal S2x65536x32 .f32} {v167 : FVec Ideal S2x65536x32 .f32}
    (e_v136 : v136 = broadcastInDim S2x65536x1x16 ![0, 1, 3] bcast_S2x65536x16_S2x65536x1x16_0_1_3 v125)
    (e_v137 : v137 = broadcastInDim S2x65536x16x16 ![0, 1, 2, 3] bcast_S2x65536x1x16_S2x65536x16x16_0_1_2_3 v136)
    (e_v138 : v138 = concatenate S2x65536x16x24 3 [⟨S2x65536x16x8, v42⟩, ⟨S2x65536x16x16, v137⟩] concatenates_S2x65536x16x8_S2x65536x16x16_S2x65536x16x24_d3)
    (e_v139 : v139 = Host.dotGeneral (F := Ideal) dot_S2x65536x16x24_S24x24_S2x65536x16x24_3_1_012_0_n_n none v138 a37)
    (e_cst_11 : cst_11 = constant (F := Ideal) S_ .f32 0xFF800000#32)
    (e_v140 : v140 = Host.reduce (FloatOps.maximumf (F := Ideal) (φ := .f32)) v139 cst_11 reducesTo_S2x65536x16x24_S2x65536x24_d2 h_S_)
    (e_cst_12 : cst_12 = constant (F := Ideal) S_ .f32 0xFF800000#32)
    (e_v141 : v141 = broadcastInDim S2x65536x24 ![] bcast_S_S2x65536x24 cst_12)
    (e_v142 : v142 = maximumf v141 v140)
    (e_v143 : v143 = broadcastInDim S2x65536x1x24 ![0, 1, 3] bcast_S2x65536x24_S2x65536x1x24_0_1_3 v142)
    (e_v144 : v144 = broadcastInDim S2x65536x16x24 ![0, 1, 2, 3] bcast_S2x65536x1x24_S2x65536x16x24_0_1_2_3 v143)
    (e_v145 : v145 = subf v139 v144)
    (e_v146 : v146 = Host.exp (F := Ideal) v145)
    (e_cst_13 : cst_13 = constant (F := Ideal) S_ .f32 0x00000000#32)
    (e_v147 : v147 = Host.reduceAdd (F := Ideal) v146 cst_13 reducesTo_S2x65536x16x24_S2x65536x24_d2 h_S_)
    (e_v148 : v148 = broadcastInDim S2x65536x1x24 ![0, 1, 3] bcast_S2x65536x24_S2x65536x1x24_0_1_3 v147)
    (e_v149 : v149 = broadcastInDim S2x65536x16x24 ![0, 1, 2, 3] bcast_S2x65536x1x24_S2x65536x16x24_0_1_2_3 v148)
    (e_v150 : v150 = Host.divf (F := Ideal) v146 v149)
    (e_v151 : v151 = mulf v150 v138)
    (e_cst_14 : cst_14 = constant (F := Ideal) S_ .f32 0x00000000#32)
    (e_v152 : v152 = Host.reduceAdd (F := Ideal) v151 cst_14 reducesTo_S2x65536x16x24_S2x65536x24_d2 h_S_)
    (e_v153 : v153 = Host.dotGeneral (F := Ideal) dot_S2x65536x24_S32x24_S2x65536x32_2_1_01_0_n_n none v152 a38)
    (e_v154 : v154 = broadcastInDim S1x1x32 ![2] bcast_S32_S1x1x32_2 a39)
    (e_v155 : v155 = broadcastInDim S2x65536x32 ![0, 1, 2] bcast_S1x1x32_S2x65536x32_0_1_2 v154)
    (e_v156 : v156 = addf v153 v155)
    (e_v157 : v157 = broadcastInDim S1x1x32 ![2] bcast_S32_S1x1x32_2 a40)
    (e_v158 : v158 = broadcastInDim S2x65536x32 ![0, 1, 2] bcast_S1x1x32_S2x65536x32_0_1_2 v157)
    (e_v159 : v159 = mulf v156 v158)
    (e_v160 : v160 = broadcastInDim S1x1x32 ![2] bcast_S32_S1x1x32_2 a41)
    (e_v161 : v161 = broadcastInDim S2x65536x32 ![0, 1, 2] bcast_S1x1x32_S2x65536x32_0_1_2 v160)
    (e_v162 : v162 = addf v159 v161)
    (e_call5_cst : call5_cst = constant (F := Ideal) S_ .f32 0x00000000#32)
    (e_call5_v0 : call5_v0 = broadcastInDim S2x65536x32 ![] bcast_S_S2x65536x32 call5_cst)
    (e_v163 : v163 = maximumf v162 call5_v0)
    (e_v164 : v164 = Host.dotGeneral (F := Ideal) dot_S2x65536x32_S32x32_S2x65536x32_2_1_01_0_n_n none v163 a42)
    (e_v165 : v165 = broadcastInDim S1x1x32 ![2] bcast_S32_S1x1x32_2 a43)
    (e_v166 : v166 = broadcastInDim S2x65536x32 ![0, 1, 2] bcast_S1x1x32_S2x65536x32_0_1_2 v165)
    (e_v167 : v167 = addf v164 v166)
    (h42 : ∀ k c, v42 (ix4 b p k c) = Cert.Net.ste P q nbr k c)
    (h125 : ∀ c, v125 (ix3 b p c) = Cert.Net.f2 P q nbr c)
    (hw37 : ∀ o i, a37 (ix2 o i) = P.w_score3 o i) (hw38 : ∀ o i, a38 (ix2 o i) = P.w_p3a o i)
    (hw39 : ∀ o, a39 (ix1 o) = P.b_p3a o) (hw40 : ∀ o, a40 (ix1 o) = P.s_p3a o) (hw41 : ∀ o, a41 (ix1 o) = P.t_p3a o)
    (hw42 : ∀ o i, a42 (ix2 o i) = P.w_p3b o i) (hw43 : ∀ o, a43 (ix1 o) = P.b_p3b o)
    (c : Fin 32) : v167 (ix3 b p c) = Cert.Net.f3 P q nbr c := by
  unfold Cert.Net.f3
  exact round_apply (A := 8) (B := 16) (C := 24) rfl dn_4 dn_5 dn_6
    e_v136 e_v137 e_v138 e_v139 e_cst_11 e_v140 e_cst_12 e_v141 e_v142 e_v143 e_v144 e_v145 e_v146 e_cst_13 e_v147
      e_v148 e_v149 e_v150 e_v151 e_cst_14 e_v152 e_v153 e_v154 e_v155 e_v156 e_v157 e_v158 e_v159 e_v160 e_v161
      e_v162 e_call5_cst e_call5_v0 e_v163 e_v164 e_v165 e_v166 e_v167
    b p h42 h125 hw37 hw38 hw39 hw40 hw41 hw42 hw43 c

end Cert.RefB

end
-- ==== Proof.RefTail.lean ====
/-
  The small stages of the reference's second part at one point: the two side branches (a dense layer and a
  per-channel affine map on a pooling round's output), the sum of the last two dense layers with the side
  branches, and the final leaky rectifier.
-/
import Idealize.ShloMosaic.Lib.ValueIdx
import Idealize.ShloMosaic.Lib.IdealHost
import Idealize.ShloMosaic.PureOps.Ideal.Laws
import proofs.«138937_j6992206758069_2_alg».proof.ReferenceIdeal
import proofs.«138937_j6992206758069_2_alg».proof.Proof.Net
import proofs.«138937_j6992206758069_2_alg».proof.Proof.RefLay

noncomputable section

namespace Cert.RefA

open Cert.ReferenceIdeal Cert.ReferenceIdeal.Facts₀ Idealize.ShloMosaic Idealize.ShloMosaic.ValueIdx

/-- A dense layer with its bias on a rank-3 activation, at one index: `lin W b x`, the product commuted under the sum. -/
theorem lin3_apply (B N Ci Co : ℕ)
    (wf : DotDims.WF ⟨3, ![B, N, Ci]⟩ ⟨2, ![Co, Ci]⟩ ⟨3, ![B, N, Co]⟩ [2] [1] [0, 1] [0] [] [])
    (h1 : (⟨1, ![Co]⟩ : Shape).BroadcastsInDim ⟨3, ![1, 1, Co]⟩ ![2])
    (h2 : (⟨3, ![1, 1, Co]⟩ : Shape).BroadcastsInDim ⟨3, ![B, N, Co]⟩ ![0, 1, 2])
    (X : FVec Ideal ⟨3, ![B, N, Ci]⟩ .f32) (W : FVec Ideal ⟨2, ![Co, Ci]⟩ .f32) (bias : FVec Ideal ⟨1, ![Co]⟩ .f32)
    (x : Fin Ci → EReal) (Wf : Fin Co → Fin Ci → EReal) (bf : Fin Co → EReal) (b : Fin B) (n : Fin N)
    (hX : ∀ i, X (ix3 b n i) = x i) (hW : ∀ o i, W (ix2 o i) = Wf o i) (hb : ∀ o, bias (ix1 o) = bf o) (o : Fin Co) :
    addf (Host.dotGeneral (F := Ideal) (dense3 B N Ci Co wf) none X W)
      (broadcastInDim ⟨3, ![B, N, Co]⟩ ![0, 1, 2] h2 (broadcastInDim ⟨3, ![1, 1, Co]⟩ ![2] h1 bias)) (ix3 b n o)
      = Cert.Net.lin Wf bf x o := by
  rw [addf_apply, dense3_apply, chan3_apply, hb]
  unfold Cert.Net.lin Cert.Net.mat
  refine congrArg (· + bf o) (Finset.sum_congr rfl fun i _ => ?_)
  rw [hX i, hW o i, mul_comm]

/-- A dense layer with its bias followed by the per-channel affine map, at one index: `aff s t (lin W b x)`. -/
theorem aff3_apply (B N Ci Co : ℕ)
    (wf : DotDims.WF ⟨3, ![B, N, Ci]⟩ ⟨2, ![Co, Ci]⟩ ⟨3, ![B, N, Co]⟩ [2] [1] [0, 1] [0] [] [])
    (h1 : (⟨1, ![Co]⟩ : Shape).BroadcastsInDim ⟨3, ![1, 1, Co]⟩ ![2])
    (h2 : (⟨3, ![1, 1, Co]⟩ : Shape).BroadcastsInDim ⟨3, ![B, N, Co]⟩ ![0, 1, 2])
    (X : FVec Ideal ⟨3, ![B, N, Ci]⟩ .f32) (W : FVec Ideal ⟨2, ![Co, Ci]⟩ .f32) (bias sc sh : FVec Ideal ⟨1, ![Co]⟩ .f32)
    (x : Fin Ci → EReal) (Wf : Fin Co → Fin Ci → EReal) (bf sf tf : Fin Co → EReal) (b : Fin B) (n : Fin N)
    (hX : ∀ i, X (ix3 b n i) = x i) (hW : ∀ o i, W (ix2 o i) = Wf o i)
    (hb : ∀ o, bias (ix1 o) = bf o) (hs : ∀ o, sc (ix1 o) = sf o) (ht : ∀ o, sh (ix1 o) = tf o) (o : Fin Co) :
    addf
      (mulf
        (addf (Host.dotGeneral (F := Ideal) (dense3 B N Ci Co wf) none X W)
          (broadcastInDim ⟨3, ![B, N, Co]⟩ ![0, 1, 2] h2 (broadcastInDim ⟨3, ![1, 1, Co]⟩ ![2] h1 bias)))
        (broadcastInDim ⟨3, ![B, N, Co]⟩ ![0, 1, 2] h2 (broadcastInDim ⟨3, ![1, 1, Co]⟩ ![2] h1 sc)))
      (broadcastInDim ⟨3, ![B, N, Co]⟩ ![0, 1, 2] h2 (broadcastInDim ⟨3, ![1, 1, Co]⟩ ![2] h1 sh)) (ix3 b n o)
      = Cert.Net.aff sf tf (Cert.Net.lin Wf bf x) o := by
  rw [addf_apply, mulf_apply, lin3_apply B N Ci Co wf h1 h2 X W bias x Wf bf b n hX hW hb o, chan3_apply, chan3_apply,
    hs, ht]
  rfl

/-- The leaky rectifier through its lines, at one index: zero laid over the array, the comparison, the slope laid
    over the array, the product and the selection. -/
theorem leaky3_apply (B N C : ℕ) (h0 : (⟨0, ![]⟩ : Shape).BroadcastsInDim ⟨3, ![B, N, C]⟩ ![])
    (X : FVec Ideal ⟨3, ![B, N, C]⟩ .f32) (slope : FVec Ideal ⟨0, ![]⟩ .f32) (x : Fin C → EReal) (b : Fin B) (n : Fin N)
    (hX : ∀ i, X (ix3 b n i) = x i) (c : Fin C) :
    select (cmpf .oge X (broadcastInDim ⟨3, ![B, N, C]⟩ ![] h0 (constant (F := Ideal) ⟨0, ![]⟩ .f32 0x00000000#32))) X
      (mulf (broadcastInDim ⟨3, ![B, N, C]⟩ ![] h0 (id slope)) X) (ix3 b n c)
      = Cert.Net.leaky (slope ix0) x c := by
  rw [select_apply, cmpf_apply, mulf_apply, broadcastInDim_scalar_apply, broadcastInDim_scalar_apply, hX c]
  rfl

variable [Cert.ReferenceIdeal.Facts]

/-- The first side branch: lines %84 to %93, from the first pooling round's output. -/
theorem sc0_apply (P : Cert.Net.Params) (q : Fin 6 → EReal) (nbr : Fin 16 → Fin 6 → EReal) (b : Fin 2) (p : Fin 65536)
    (a22 : FVec Ideal S32x8 .f32) (a23 : FVec Ideal S32 .f32) (a24 : FVec Ideal S32 .f32)
    (a25 : FVec Ideal S32 .f32) (v83 : FVec Ideal S2x65536x8 .f32) (v84 : FVec Ideal S2x65536x32 .f32)
    (v85 : FVec Ideal S1x1x32 .f32) (v86 : FVec Ideal S2x65536x32 .f32) (v87 : FVec Ideal S2x65536x32 .f32)
    (v88 : FVec Ideal S1x1x32 .f32) (v89 : FVec Ideal S2x65536x32 .f32) (v90 : FVec Ideal S2x65536x32 .f32)
    (v91 : FVec Ideal S1x1x32 .f32) (v92 : FVec Ideal S2x65536x32 .f32) (v93 : FVec Ideal S2x65536x32 .f32)
    (e_v84 : v84 = Host.dotGeneral (F := Ideal) dot_S2x65536x8_S32x8_S2x65536x32_2_1_01_0_n_n none v83 a22)
    (e_v85 : v85 = broadcastInDim S1x1x32 ![2] bcast_S32_S1x1x32_2 a23)
    (e_v86 : v86 = broadcastInDim S2x65536x32 ![0, 1, 2] bcast_S1x1x32_S2x65536x32_0_1_2 v85)
    (e_v87 : v87 = addf v84 v86)
    (e_v88 : v88 = broadcastInDim S1x1x32 ![2] bcast_S32_S1x1x32_2 a24)
    (e_v89 : v89 = broadcastInDim S2x65536x32 ![0, 1, 2] bcast_S1x1x32_S2x65536x32_0_1_2 v88)
    (e_v90 : v90 = mulf v87 v89)
    (e_v91 : v91 = broadcastInDim S1x1x32 ![2] bcast_S32_S1x1x32_2 a25)
    (e_v92 : v92 = broadcastInDim S2x65536x32 ![0, 1, 2] bcast_S1x1x32_S2x65536x32_0_1_2 v91)
    (e_v93 : v93 = addf v90 v92)
    (h83 : ∀ c, v83 (ix3 b p c) = Cert.Net.f1 P q nbr c)
    (h22 : ∀ o i, a22 (ix2 o i) = P.w_sc0 o i) (h23 : ∀ o, a23 (ix1 o) = P.b_sc0 o)
    (h24 : ∀ o, a24 (ix1 o) = P.s_sc0 o) (h25 : ∀ o, a25 (ix1 o) = P.t_sc0 o)
    (c : Fin 32) : v93 (ix3 b p c) = Cert.Net.sc0 P q nbr c := by
  subst e_v93 e_v92 e_v91 e_v90 e_v89 e_v88 e_v87 e_v86 e_v85 e_v84
  exact aff3_apply 2 65536 8 32 dot_S2x65536x8_S32x8_S2x65536x32_2_1_01_0_n_n_wf bcast_S32_S1x1x32_2 bcast_S1x1x32_S2x65536x32_0_1_2
    v83 a22 a23 a24 a25 (Cert.Net.f1 P q nbr) P.w_sc0 P.b_sc0 P.s_sc0 P.t_sc0 b p h83 h22 h23 h24 h25 c

/-- The second side branch: lines %126 to %135, from the second pooling round's output. -/
theorem sc1_apply (P : Cert.Net.Params) (q : Fin 6 → EReal) (nbr : Fin 16 → Fin 6 → EReal) (b : Fin 2) (p : Fin 65536)
    (a33 : FVec Ideal S32x16 .f32) (a34 : FVec Ideal S32 .f32) (a35 : FVec Ideal S32 .f32)
    (a36 : FVec Ideal S32 .f32) (v125 : FVec Ideal S2x65536x16 .f32) (v126 : FVec Ideal S2x65536x32 .f32)
    (v127 : FVec Ideal S1x1x32 .f32) (v128 : FVec Ideal S2x65536x32 .f32) (v129 : FVec Ideal S2x65536x32 .f32)
    (v130 : FVec Ideal S1x1x32 .f32) (v131 : FVec Ideal S2x65536x32 .f32) (v132 : FVec Ideal S2x65536x32 .f32)
    (v133 : FVec Ideal S1x1x32 .f32) (v134 : FVec Ideal S2x65536x32 .f32) (v135 : FVec Ideal S2x65536x32 .f32)
    (e_v126 : v126 = Host.dotGeneral (F := Ideal) dot_S2x65536x16_S32x16_S2x65536x32_2_1_01_0_n_n none v125 a33)
    (e_v127 : v127 = broadcastInDim S1x1x32 ![2] bcast_S32_S1x1x32_2 a34)
    (e_v128 : v128 = broadcastInDim S2x65536x32 ![0, 1, 2] bcast_S1x1x32_S2x65536x32_0_1_2 v127)
    (e_v129 : v129 = addf v126 v128)
    (e_v130 : v130 = broadcastInDim S1x1x32 ![2] bcast_S32_S1x1x32_2 a35)
    (e_v131 : v131 = broadcastInDim S2x65536x32 ![0, 1, 2] bcast_S1x1x32_S2x65536x32_0_1_2 v130)
    (e_v132 : v132 = mulf v129 v131)
    (e_v133 : v133 = broadcastInDim S1x1x32 ![2] bcast_S32_S1x1x32_2 a36)
    (e_v134 : v134 = broadcastInDim S2x65536x32 ![0, 1, 2] bcast_S1x1x32_S2x65536x32_0_1_2 v133)
    (e_v135 : v135 = addf v132 v134)
    (h125 : ∀ c, v125 (ix3 b p c) = Cert.Net.f2 P q nbr c)
    (h33 : ∀ o i, a33 (ix2 o i) = P.w_sc1 o i) (h34 : ∀ o, a34 (ix1 o) = P.b_sc1 o)
    (h35 : ∀ o, a35 (ix1 o) = P.s_sc1 o) (h36 : ∀ o, a36 (ix1 o) = P.t_sc1 o)
    (c : Fin 32) : v135 (ix3 b p c) = Cert.Net.sc1 P q nbr c := by
  subst e_v135 e_v134 e_v133 e_v132 e_v131 e_v130 e_v129 e_v128 e_v127 e_v126
  exact aff3_apply 2 65536 16 32 dot_S2x65536x16_S32x16_S2x65536x32_2_1_01_0_n_n_wf bcast_S32_S1x1x32_2 bcast_S1x1x32_S2x65536x32_0_1_2
    v125 a33 a34 a35 a36 (Cert.Net.f2 P q nbr) P.w_sc1 P.b_sc1 P.s_sc1 P.t_sc1 b p h125 h33 h34 h35 h36 c

/-- The sum the last rectifier is applied to: lines %168 to %177, two dense layers on the third round's output,
    plus the two side branches. -/
theorem total_apply (P : Cert.Net.Params) (q : Fin 6 → EReal) (nbr : Fin 16 → Fin 6 → EReal) (b : Fin 2) (p : Fin 65536)
    (a44 : FVec Ideal S32x32 .f32) (a45 : FVec Ideal S32 .f32) (a46 : FVec Ideal S32x32 .f32)
    (a47 : FVec Ideal S32 .f32) (v93 : FVec Ideal S2x65536x32 .f32) (v135 : FVec Ideal S2x65536x32 .f32)
    (v167 : FVec Ideal S2x65536x32 .f32) (v168 : FVec Ideal S2x65536x32 .f32) (v169 : FVec Ideal S1x1x32 .f32)
    (v170 : FVec Ideal S2x65536x32 .f32) (v171 : FVec Ideal S2x65536x32 .f32) (v172 : FVec Ideal S2x65536x32 .f32)
    (v173 : FVec Ideal S1x1x32 .f32) (v174 : FVec Ideal S2x65536x32 .f32) (v175 : FVec Ideal S2x65536x32 .f32)
    (v176 : FVec Ideal S2x65536x32 .f32) (v177 : FVec Ideal S2x65536x32 .f32)
    (e_v168 : v168 = Host.dotGeneral (F := Ideal) dot_S2x65536x32_S32x32_S2x65536x32_2_1_01_0_n_n none v167 a44)
    (e_v169 : v169 = broadcastInDim S1x1x32 ![2] bcast_S32_S1x1x32_2 a45)
    (e_v170 : v170 = broadcastInDim S2x65536x32 ![0, 1, 2] bcast_S1x1x32_S2x65536x32_0_1_2 v169)
    (e_v171 : v171 = addf v168 v170)
    (e_v172 : v172 = Host.dotGeneral (F := Ideal) dot_S2x65536x32_S32x32_S2x65536x32_2_1_01_0_n_n none v171 a46)
    (e_v173 : v173 = broadcastInDim S1x1x32 ![2] bcast_S32_S1x1x32_2 a47)
    (e_v174 : v174 = broadcastInDim S2x65536x32 ![0, 1, 2] bcast_S1x1x32_S2x65536x32_0_1_2 v173)
    (e_v175 : v175 = addf v172 v174)
    (e_v176 : v176 = addf v175 v93)
    (e_v177 : v177 = addf v176 v135)
    (h167 : ∀ c, v167 (ix3 b p c) = Cert.Net.f3 P q nbr c)
    (h93 : ∀ c, v93 (ix3 b p c) = Cert.Net.sc0 P q nbr c) (h135 : ∀ c, v135 (ix3 b p c) = Cert.Net.sc1 P q nbr c)
    (h44 : ∀ o i, a44 (ix2 o i) = P.w_mlp2 o i) (h45 : ∀ o, a45 (ix1 o) = P.b_mlp2 o)
    (h46 : ∀ o i, a46 (ix2 o i) = P.w_mlp2_2 o i) (h47 : ∀ o, a47 (ix1 o) = P.b_mlp2_2 o)
    (c : Fin 32) : v177 (ix3 b p c) = Cert.Net.total P q nbr c := by
  have h171 : ∀ i, v171 (ix3 b p i) = Cert.Net.lin P.w_mlp2 P.b_mlp2 (Cert.Net.f3 P q nbr) i := fun i => by
    subst e_v171 e_v170 e_v169 e_v168
    exact lin3_apply 2 65536 32 32 dot_S2x65536x32_S32x32_S2x65536x32_2_1_01_0_n_n_wf bcast_S32_S1x1x32_2 bcast_S1x1x32_S2x65536x32_0_1_2
      v167 a44 a45 (Cert.Net.f3 P q nbr) P.w_mlp2 P.b_mlp2 b p h167 h44 h45 i
  have h175 : v175 (ix3 b p c)
      = Cert.Net.lin P.w_mlp2_2 P.b_mlp2_2 (Cert.Net.lin P.w_mlp2 P.b_mlp2 (Cert.Net.f3 P q nbr)) c := by
    subst e_v175 e_v174 e_v173 e_v172
    exact lin3_apply 2 65536 32 32 dot_S2x65536x32_S32x32_S2x65536x32_2_1_01_0_n_n_wf bcast_S32_S1x1x32_2 bcast_S1x1x32_S2x65536x32_0_1_2
      v171 a46 a47 _ P.w_mlp2_2 P.b_mlp2_2 b p h171 h46 h47 c
  rw [e_v177, addf_apply, e_v176, addf_apply, h175, h93, h135]
  rfl

/-- The network's output: the constant %cst_15 and the final leaky rectifier's lines. -/
theorem out_apply (P : Cert.Net.Params) (q : Fin 6 → EReal) (nbr : Fin 16 → Fin 6 → EReal) (b : Fin 2) (p : Fin 65536)
    (v177 : FVec Ideal S2x65536x32 .f32) (cst_15 : FVec Ideal S_ .f32) (call6_cst : FVec Ideal S_ .f32)
    (call6_v0 : FVec Ideal S2x65536x32 .f32) (call6_v1 : IVec S2x65536x32 1) (call6_v2 : FVec Ideal S_ .f32)
    (call6_v3 : FVec Ideal S2x65536x32 .f32) (call6_v4 : FVec Ideal S2x65536x32 .f32)
    (v178 : FVec Ideal S2x65536x32 .f32)
    (e_cst_15 : cst_15 = constant (F := Ideal) S_ .f32 0x3C23D70A#32)
    (e_call6_cst : call6_cst = constant (F := Ideal) S_ .f32 0x00000000#32)
    (e_call6_v0 : call6_v0 = broadcastInDim S2x65536x32 ![] bcast_S_S2x65536x32 call6_cst)
    (e_call6_v1 : call6_v1 = cmpf .oge v177 call6_v0)
    (e_call6_v2 : call6_v2 = id cst_15)
    (e_call6_v3 : call6_v3 = broadcastInDim S2x65536x32 ![] bcast_S_S2x65536x32 call6_v2)
    (e_call6_v4 : call6_v4 = mulf call6_v3 v177)
    (e_v178 : v178 = select call6_v1 v177 call6_v4)
    (h177 : ∀ c, v177 (ix3 b p c) = Cert.Net.total P q nbr c)
    (c : Fin 32) : v178 (ix3 b p c) = Cert.Net.out P q nbr c := by
  subst e_v178 e_call6_v4 e_call6_v3 e_call6_v2 e_call6_v1 e_call6_v0 e_call6_cst e_cst_15
  exact leaky3_apply 2 65536 32 bcast_S_S2x65536x32 v177 _ (Cert.Net.total P q nbr) b p h177 c

end Cert.RefA

end
-- ==== Proof.RefGlueB.lean ====
/-
  The reference's lines, read at one point, compute the network's pooling rounds, side branches and result: each
  stage's lemma over array variables is fed the program's own lines, as the equations between the contents the run
  leaves, and the stage before it.
-/
import proofs.«138937_j6992206758069_2_alg».proof.Proof.RefGlueA
import proofs.«138937_j6992206758069_2_alg».proof.Proof.RefRounds
import proofs.«138937_j6992206758069_2_alg».proof.Proof.RefTail

noncomputable section

namespace Cert.RefGlue

open Idealize.ShloMosaic Idealize.ShloMosaic.ValueIdx Cert.ReferenceIdeal Cert.RefRun

variable [Cert.ReferenceIdeal.Facts] (V : Valuation τ sig (Elt Ideal))

set_option maxHeartbeats 4000000 in
/-- The first pooling round. -/
theorem f1 (b : Fin 2) (p : Fin 65536) (c : Fin 8) : R V main_v83 (ix3 b p c) = Cert.Net.f1 (PV V) (qV V b p) (nbrV V b p) c :=
  Cert.RefB.f1_apply (PV V) (qV V b p) (nbrV V b p) b p (R V main_v42) (R V main_v51) (R V main_arg15) (R V main_arg16) (R V main_arg17) (R V main_arg18) (R V main_arg19) (R V main_arg20) (R V main_arg21)
    (line_v52 V) (line_v53 V) (line_v54 V) (line_v55 V) (line_cst_3 V) (line_v56 V) (line_cst_4 V) (line_v57 V) (line_v58 V) (line_v59 V) (line_v60 V) (line_v61 V) (line_v62 V) (line_cst_5 V) (line_v63 V) (line_v64 V) (line_v65 V) (line_v66 V) (line_v67 V) (line_cst_6 V) (line_v68 V) (line_v69 V) (line_v70 V) (line_v71 V) (line_v72 V) (line_v73 V) (line_v74 V) (line_v75 V) (line_v76 V) (line_v77 V) (line_v78 V) (line_call3_cst V) (line_call3_v0 V) (line_v79 V) (line_v80 V) (line_v81 V) (line_v82 V) (line_v83 V)
    (ste V b p) (feat0 V b p) (fun _ _ => rfl) (fun _ _ => rfl) (fun _ => rfl) (fun _ => rfl) (fun _ => rfl) (fun _ _ => rfl) (fun _ => rfl) c

set_option maxHeartbeats 4000000 in
/-- The first side branch. -/
theorem sc0 (b : Fin 2) (p : Fin 65536) (c : Fin 32) : R V main_v93 (ix3 b p c) = Cert.Net.sc0 (PV V) (qV V b p) (nbrV V b p) c :=
  Cert.RefA.sc0_apply (PV V) (qV V b p) (nbrV V b p) b p (R V main_arg22) (R V main_arg23) (R V main_arg24) (R V main_arg25) (R V main_v83)
    (R V main_v84) (R V main_v85) (R V main_v86) (R V main_v87) (R V main_v88) (R V main_v89) (R V main_v90) (R V main_v91) (R V main_v92) (R V main_v93)
    (line_v84 V) (line_v85 V) (line_v86 V) (line_v87 V) (line_v88 V) (line_v89 V) (line_v90 V) (line_v91 V) (line_v92 V) (line_v93 V)
    (f1 V b p) (fun _ _ => rfl) (fun _ => rfl) (fun _ => rfl) (fun _ => rfl) c

set_option maxHeartbeats 4000000 in
/-- The second pooling round. -/
theorem f2 (b : Fin 2) (p : Fin 65536) (c : Fin 16) : R V main_v125 (ix3 b p c) = Cert.Net.f2 (PV V) (qV V b p) (nbrV V b p) c :=
  Cert.RefB.f2_apply (PV V) (qV V b p) (nbrV V b p) b p (R V main_v42) (R V main_v83) (R V main_arg26) (R V main_arg27) (R V main_arg28) (R V main_arg29) (R V main_arg30) (R V main_arg31) (R V main_arg32)
    (line_v94 V) (line_v95 V) (line_v96 V) (line_v97 V) (line_cst_7 V) (line_v98 V) (line_cst_8 V) (line_v99 V) (line_v100 V) (line_v101 V) (line_v102 V) (line_v103 V) (line_v104 V) (line_cst_9 V) (line_v105 V) (line_v106 V) (line_v107 V) (line_v108 V) (line_v109 V) (line_cst_10 V) (line_v110 V) (line_v111 V) (line_v112 V) (line_v113 V) (line_v114 V) (line_v115 V) (line_v116 V) (line_v117 V) (line_v118 V) (line_v119 V) (line_v120 V) (line_call4_cst V) (line_call4_v0 V) (line_v121 V) (line_v122 V) (line_v123 V) (line_v124 V) (line_v125 V)
    (ste V b p) (f1 V b p) (fun _ _ => rfl) (fun _ _ => rfl) (fun _ => rfl) (fun _ => rfl) (fun _ => rfl) (fun _ _ => rfl) (fun _ => rfl) c

set_option maxHeartbeats 4000000 in
/-- The second side branch. -/
theorem sc1 (b : Fin 2) (p : Fin 65536) (c : Fin 32) : R V main_v135 (ix3 b p c) = Cert.Net.sc1 (PV V) (qV V b p) (nbrV V b p) c :=
  Cert.RefA.sc1_apply (PV V) (qV V b p) (nbrV V b p) b p (R V main_arg33) (R V main_arg34) (R V main_arg35) (R V main_arg36) (R V main_v125)
    (R V main_v126) (R V main_v127) (R V main_v128) (R V main_v129) (R V main_v130) (R V main_v131) (R V main_v132) (R V main_v133) (R V main_v134) (R V main_v135)
    (line_v126 V) (line_v127 V) (line_v128 V) (line_v129 V) (line_v130 V) (line_v131 V) (line_v132 V) (line_v133 V) (line_v134 V) (line_v135 V)
    (f2 V b p) (fun _ _ => rfl) (fun _ => rfl) (fun _ => rfl) (fun _ => rfl) c

set_option maxHeartbeats 4000000 in
/-- The third pooling round. -/
theorem f3 (b : Fin 2) (p : Fin 65536) (c : Fin 32) : R V main_v167 (ix3 b p c) = Cert.Net.f3 (PV V) (qV V b p) (nbrV V b p) c :=
  Cert.RefB.f3_apply (PV V) (qV V b p) (nbrV V b p) b p (R V main_v42) (R V main_v125) (R V main_arg37) (R V main_arg38) (R V main_arg39) (R V main_arg40) (R V main_arg41) (R V main_arg42) (R V main_arg43)
    (line_v136 V) (line_v137 V) (line_v138 V) (line_v139 V) (line_cst_11 V) (line_v140 V) (line_cst_12 V) (line_v141 V) (line_v142 V) (line_v143 V) (line_v144 V) (line_v145 V) (line_v146 V) (line_cst_13 V) (line_v147 V) (line_v148 V) (line_v149 V) (line_v150 V) (line_v151 V) (line_cst_14 V) (line_v152 V) (line_v153 V) (line_v154 V) (line_v155 V) (line_v156 V) (line_v157 V) (line_v158 V) (line_v159 V) (line_v160 V) (line_v161 V) (line_v162 V) (line_call5_cst V) (line_call5_v0 V) (line_v163 V) (line_v164 V) (line_v165 V) (line_v166 V) (line_v167 V)
    (ste V b p) (f2 V b p) (fun _ _ => rfl) (fun _ _ => rfl) (fun _ => rfl) (fun _ => rfl) (fun _ => rfl) (fun _ _ => rfl) (fun _ => rfl) c

set_option maxHeartbeats 4000000 in
/-- The sum before the last rectifier. -/
theorem total (b : Fin 2) (p : Fin 65536) (c : Fin 32) : R V main_v177 (ix3 b p c) = Cert.Net.total (PV V) (qV V b p) (nbrV V b p) c :=
  Cert.RefA.total_apply (PV V) (qV V b p) (nbrV V b p) b p (R V main_arg44) (R V main_arg45) (R V main_arg46) (R V main_arg47) (R V main_v93) (R V main_v135) (R V main_v167)
    (R V main_v168) (R V main_v169) (R V main_v170) (R V main_v171) (R V main_v172) (R V main_v173) (R V main_v174) (R V main_v175) (R V main_v176) (R V main_v177)
    (line_v168 V) (line_v169 V) (line_v170 V) (line_v171 V) (line_v172 V) (line_v173 V) (line_v174 V) (line_v175 V) (line_v176 V) (line_v177 V)
    (f3 V b p) (sc0 V b p) (sc1 V b p) (fun _ _ => rfl) (fun _ => rfl) (fun _ _ => rfl) (fun _ => rfl) c

set_option maxHeartbeats 4000000 in
/-- The reference's result at a point is the network's output there. -/
theorem out (b : Fin 2) (p : Fin 65536) (c : Fin 32) : R V main_v178 (ix3 b p c) = Cert.Net.out (PV V) (qV V b p) (nbrV V b p) c :=
  Cert.RefA.out_apply (PV V) (qV V b p) (nbrV V b p) b p (R V main_v177)
    (R V main_cst_15) (R V main_call6_cst) (R V main_call6_v0) (R V main_call6_v1) (R V main_call6_v2) (R V main_call6_v3) (R V main_call6_v4) (R V main_v178)
    (line_cst_15 V) (line_call6_cst V) (line_call6_v0 V) (line_call6_v1 V) (line_call6_v2 V) (line_call6_v3 V) (line_call6_v4 V) (line_v178 V)
    (total V b p) c

end Cert.RefGlue

end
-- ==== Proof.Neighbours.lean ====
/-
  The two programs gather the same neighbour rows. Both wrap a negative neighbour number by the table's length, lay the
  numbers out as a column of indices, and gather rows of the point table; the kernel's program first rounds the table to
  a narrower float format, which on extended reals is the identity. So from memories that agree on the point table and
  on the neighbour numbers, the gathered arrays are one array.
-/
import proofs.«138937_j6992206758069_2_alg».proof.Proof.RefLines
import proofs.«138937_j6992206758069_2_alg».proof.Proof.KerHost

noncomputable section

namespace Cert.Nb

open Idealize.ShloMosaic Idealize.SL.Sem

variable [Cert.KernelIdeal.Facts] [Cert.ReferenceIdeal.Facts]

/-- The two printed gather records are one record. -/
theorem dims_eq : Cert.ReferenceIdeal.gather_S2x131072x6_S2x65536x16x1_S2x65536x16x6_3_1_0_0_1_3_116
    = Cert.KernelIdeal.gather_S2x131072x6_S2x65536x16x1_S2x65536x16x6_3_1_0_0_1_3_116 := rfl

/-- The reference's gathered array, from a launch memory that agrees with the kernel's on the point table and the
    neighbour numbers, is the kernel's. -/
theorem nb_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2)) :
    (Cert.RefRun.R (F := Ideal) (fun b => m' (c, b)) Cert.ReferenceIdeal.main_v6 : Cert.ReferenceIdeal.S2x65536x16x6.Idx → EReal)
      = Cert.KerRun.nbK m c := by
  rw [Cert.RefRun.line_v6, Cert.RefRun.line_v5, Cert.RefRun.line_v4, Cert.RefRun.line_v3, Cert.RefRun.line_v2, Cert.RefRun.line_c_0,
    Cert.RefRun.line_v1, Cert.RefRun.line_v0, Cert.RefRun.line_c, Cert.RefRun.R_arg1, Cert.RefRun.R_arg2]
  show Host.gather _ (m' ((c.tc : Thread Cert.ReferenceIdeal.nD Cert.ReferenceIdeal.τ).loc Cert.ReferenceIdeal.main_arg1)) _ = _
  rw [h1]
  show Host.gather _ _ (broadcastInDim _ _ _ (select (cmpi .slt (m' ((c.tc : Thread Cert.ReferenceIdeal.nD Cert.ReferenceIdeal.τ).loc Cert.ReferenceIdeal.main_arg2)) _)
    (addi (m' ((c.tc : Thread Cert.ReferenceIdeal.nD Cert.ReferenceIdeal.τ).loc Cert.ReferenceIdeal.main_arg2)) _) (m' ((c.tc : Thread Cert.ReferenceIdeal.nD Cert.ReferenceIdeal.τ).loc Cert.ReferenceIdeal.main_arg2)))) = _
  rw [h2]
  rfl

end Cert.Nb

end
-- ==== Proof.Algebraic.lean ====
/-
  The value claim: from memories that agree on the forty-eight arguments, the idealized kernel program and the
  idealized reference both run to completion, leave their arguments untouched, and end with one and the same result
  array of extended reals.

  Index by index: the kernel's result at batch `b`, point `p`, channel `ch` is what the block holding row `p` stored,
  transposed back, and the body's stored block is the network at the block's points; the reference's result there is,
  line by line, the network at that point. Both read the same weights, the same row of the coordinate array and the
  same gathered neighbour rows, so the two results are one number.
-/
import proofs.«138937_j6992206758069_2_alg».proof.Defs
import proofs.«138937_j6992206758069_2_alg».proof.Proof.KerRun
import proofs.«138937_j6992206758069_2_alg».proof.Proof.KerOut
import proofs.«138937_j6992206758069_2_alg».proof.Proof.RefRun
import proofs.«138937_j6992206758069_2_alg».proof.Proof.RefGlueB
import proofs.«138937_j6992206758069_2_alg».proof.Proof.Neighbours

noncomputable section

namespace Cert.Proof.Value

open Idealize.ShloMosaic Idealize.ShloMosaic.ValueIdx Idealize.SL.Sem

variable [Cert.KernelIdeal.Facts] [Cert.ReferenceIdeal.Facts] [Cert.Pre_finite_inputs.Facts]

/-- The reference's frame: its run, with the result dropped. -/
theorem frame_ri : Cert.frame_ReferenceIdeal := fun m g _ =>
  (θ_run _ _ _).mono (fun _ h c => (h c).2) (Cert.RefRun.run (F := Ideal) m g)

set_option maxHeartbeats 2000000 in
/-- The two results agree at every index. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)
      ∧ m' ((c.tc : Thread Cert.ReferenceIdeal.nD Cert.ReferenceIdeal.τ).loc Cert.ReferenceIdeal.main_arg43) = m ((c.tc : Thread Cert.KernelIdeal.nD Cert.KernelIdeal.τ).loc Cert.KernelIdeal.main_arg43)
      ∧ m' ((c.tc : Thread Cert.ReferenceIdeal.nD Cert.ReferenceIdeal.τ).loc Cert.ReferenceIdeal.main_arg44) = m ((c.tc : Thread Cert.KernelIdeal.nD Cert.KernelIdeal.τ).loc Cert.KernelIdeal.main_arg44)
      ∧ m' ((c.tc : Thread Cert.ReferenceIdeal.nD Cert.ReferenceIdeal.τ).loc Cert.ReferenceIdeal.main_arg45) = m ((c.tc : Thread Cert.KernelIdeal.nD Cert.KernelIdeal.τ).loc Cert.KernelIdeal.main_arg45)
      ∧ m' ((c.tc : Thread Cert.ReferenceIdeal.nD Cert.ReferenceIdeal.τ).loc Cert.ReferenceIdeal.main_arg46) = m ((c.tc : Thread Cert.KernelIdeal.nD Cert.KernelIdeal.τ).loc Cert.KernelIdeal.main_arg46)
      ∧ m' ((c.tc : Thread Cert.ReferenceIdeal.nD Cert.ReferenceIdeal.τ).loc Cert.ReferenceIdeal.main_arg47) = m ((c.tc : Thread Cert.KernelIdeal.nD Cert.KernelIdeal.τ).loc Cert.KernelIdeal.main_arg47)) :
    (StableHlo.after (Cert.RefRun.ops (F := Ideal)) (fun b => m' (c, b)) (Proc.devRef .tc Cert.ReferenceIdeal.main_v178) : Cert.ReferenceIdeal.S2x65536x32.Idx → EReal)
      = Cert.KerRun.final m c := by
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47⟩ := hagree
  funext i
  obtain ⟨b, p, ch, rfl⟩ : ∃ (b : Fin 2) (p : Fin 65536) (ch : Fin 32), i = ix3 b p ch := ⟨i 0, i 1, i 2, eq_ix3 i⟩
  have hR := Cert.RefGlue.out (fun b => m' (c, b)) b p ch
  have hK := Cert.KerRun.final_apply Cert.KerB.out_eq m c b p ch
  have hnb := Cert.Nb.nb_eq m m' c h1 h2
  have e0 : Cert.RefRun.R (F := Ideal) (fun b => m' (c, b)) Cert.ReferenceIdeal.main_arg0 = m ((c.tc : Thread Cert.KernelIdeal.nD Cert.KernelIdeal.τ).loc Cert.KernelIdeal.main_arg0) := (Cert.RefRun.R_arg0 _).trans h0
  have e3 : Cert.RefRun.R (F := Ideal) (fun b => m' (c, b)) Cert.ReferenceIdeal.main_arg3 = m ((c.tc : Thread Cert.KernelIdeal.nD Cert.KernelIdeal.τ).loc Cert.KernelIdeal.main_arg3) := (Cert.RefRun.R_arg3 _).trans h3
  have e4 : Cert.RefRun.R (F := Ideal) (fun b => m' (c, b)) Cert.ReferenceIdeal.main_arg4 = m ((c.tc : Thread Cert.KernelIdeal.nD Cert.KernelIdeal.τ).loc Cert.KernelIdeal.main_arg4) := (Cert.RefRun.R_arg4 _).trans h4
  have e5 : Cert.RefRun.R (F := Ideal) (fun b => m' (c, b)) Cert.ReferenceIdeal.main_arg5 = m ((c.tc : Thread Cert.KernelIdeal.nD Cert.KernelIdeal.τ).loc Cert.KernelIdeal.main_arg5) := (Cert.RefRun.R_arg5 _).trans h5
  have e6 : Cert.RefRun.R (F := Ideal) (fun b => m' (c, b)) Cert.ReferenceIdeal.main_arg6 = m ((c.tc : Thread Cert.KernelIdeal.nD Cert.KernelIdeal.τ).loc Cert.KernelIdeal.main_arg6) := (Cert.RefRun.R_arg6 _).trans h6
  have e7 : Cert.RefRun.R (F := Ideal) (fun b => m' (c, b)) Cert.ReferenceIdeal.main_arg7 = m ((c.tc : Thread Cert.KernelIdeal.nD Cert.KernelIdeal.τ).loc Cert.KernelIdeal.main_arg7) := (Cert.RefRun.R_arg7 _).trans h7
  have e8 : Cert.RefRun.R (F := Ideal) (fun b => m' (c, b)) Cert.ReferenceIdeal.main_arg8 = m ((c.tc : Thread Cert.KernelIdeal.nD Cert.KernelIdeal.τ).loc Cert.KernelIdeal.main_arg8) := (Cert.RefRun.R_arg8 _).trans h8
  have e9 : Cert.RefRun.R (F := Ideal) (fun b => m' (c, b)) Cert.ReferenceIdeal.main_arg9 = m ((c.tc : Thread Cert.KernelIdeal.nD Cert.KernelIdeal.τ).loc Cert.KernelIdeal.main_arg9) := (Cert.RefRun.R_arg9 _).trans h9
  have e10 : Cert.RefRun.R (F := Ideal) (fun b => m' (c, b)) Cert.ReferenceIdeal.main_arg10 = m ((c.tc : Thread Cert.KernelIdeal.nD Cert.KernelIdeal.τ).loc Cert.KernelIdeal.main_arg10) := (Cert.RefRun.R_arg10 _).trans h10
  have e11 : Cert.RefRun.R (F := Ideal) (fun b => m' (c, b)) Cert.ReferenceIdeal.main_arg11 = m ((c.tc : Thread Cert.KernelIdeal.nD Cert.KernelIdeal.τ).loc Cert.KernelIdeal.main_arg11) := (Cert.RefRun.R_arg11 _).trans h11
  have e12 : Cert.RefRun.R (F := Ideal) (fun b => m' (c, b)) Cert.ReferenceIdeal.main_arg12 = m ((c.tc : Thread Cert.KernelIdeal.nD Cert.KernelIdeal.τ).loc Cert.KernelIdeal.main_arg12) := (Cert.RefRun.R_arg12 _).trans h12
  have e13 : Cert.RefRun.R (F := Ideal) (fun b => m' (c, b)) Cert.ReferenceIdeal.main_arg13 = m ((c.tc : Thread Cert.KernelIdeal.nD Cert.KernelIdeal.τ).loc Cert.KernelIdeal.main_arg13) := (Cert.RefRun.R_arg13 _).trans h13
  have e14 : Cert.RefRun.R (F := Ideal) (fun b => m' (c, b)) Cert.ReferenceIdeal.main_arg14 = m ((c.tc : Thread Cert.KernelIdeal.nD Cert.KernelIdeal.τ).loc Cert.KernelIdeal.main_arg14) := (Cert.RefRun.R_arg14 _).trans h14
  have e15 : Cert.RefRun.R (F := Ideal) (fun b => m' (c, b)) Cert.ReferenceIdeal.main_arg15 = m ((c.tc : Thread Cert.KernelIdeal.nD Cert.KernelIdeal.τ).loc Cert.KernelIdeal.main_arg15) := (Cert.RefRun.R_arg15 _).trans h15
  have e16 : Cert.RefRun.R (F := Ideal) (fun b => m' (c, b)) Cert.ReferenceIdeal.main_arg16 = m ((c.tc : Thread Cert.KernelIdeal.nD Cert.KernelIdeal.τ).loc Cert.KernelIdeal.main_arg16) := (Cert.RefRun.R_arg16 _).trans h16
  have e17 : Cert.RefRun.R (F := Ideal) (fun b => m' (c, b)) Cert.ReferenceIdeal.main_arg17 = m ((c.tc : Thread Cert.KernelIdeal.nD Cert.KernelIdeal.τ).loc Cert.KernelIdeal.main_arg17) := (Cert.RefRun.R_arg17 _).trans h17
  have e18 : Cert.RefRun.R (F := Ideal) (fun b => m' (c, b)) Cert.ReferenceIdeal.main_arg18 = m ((c.tc : Thread Cert.KernelIdeal.nD Cert.KernelIdeal.τ).loc Cert.KernelIdeal.main_arg18) := (Cert.RefRun.R_arg18 _).trans h18
  have e19 : Cert.RefRun.R (F := Ideal) (fun b => m' (c, b)) Cert.ReferenceIdeal.main_arg19 = m ((c.tc : Thread Cert.KernelIdeal.nD Cert.KernelIdeal.τ).loc Cert.KernelIdeal.main_arg19) := (Cert.RefRun.R_arg19 _).trans h19
  have e20 : Cert.RefRun.R (F := Ideal) (fun b => m' (c, b)) Cert.ReferenceIdeal.main_arg20 = m ((c.tc : Thread Cert.KernelIdeal.nD Cert.KernelIdeal.τ).loc Cert.KernelIdeal.main_arg20) := (Cert.RefRun.R_arg20 _).trans h20
  have e21 : Cert.RefRun.R (F := Ideal) (fun b => m' (c, b)) Cert.ReferenceIdeal.main_arg21 = m ((c.tc : Thread Cert.KernelIdeal.nD Cert.KernelIdeal.τ).loc Cert.KernelIdeal.main_arg21) := (Cert.RefRun.R_arg21 _).trans h21
  have e22 : Cert.RefRun.R (F := Ideal) (fun b => m' (c, b)) Cert.ReferenceIdeal.main_arg22 = m ((c.tc : Thread Cert.KernelIdeal.nD Cert.KernelIdeal.τ).loc Cert.KernelIdeal.main_arg22) := (Cert.RefRun.R_arg22 _).trans h22
  have e23 : Cert.RefRun.R (F := Ideal) (fun b => m' (c, b)) Cert.ReferenceIdeal.main_arg23 = m ((c.tc : Thread Cert.KernelIdeal.nD Cert.KernelIdeal.τ).loc Cert.KernelIdeal.main_arg23) := (Cert.RefRun.R_arg23 _).trans h23
  have e24 : Cert.RefRun.R (F := Ideal) (fun b => m' (c, b)) Cert.ReferenceIdeal.main_arg24 = m ((c.tc : Thread Cert.KernelIdeal.nD Cert.KernelIdeal.τ).loc Cert.KernelIdeal.main_arg24) := (Cert.RefRun.R_arg24 _).trans h24
  have e25 : Cert.RefRun.R (F := Ideal) (fun b => m' (c, b)) Cert.ReferenceIdeal.main_arg25 = m ((c.tc : Thread Cert.KernelIdeal.nD Cert.KernelIdeal.τ).loc Cert.KernelIdeal.main_arg25) := (Cert.RefRun.R_arg25 _).trans h25
  have e26 : Cert.RefRun.R (F := Ideal) (fun b => m' (c, b)) Cert.ReferenceIdeal.main_arg26 = m ((c.tc : Thread Cert.KernelIdeal.nD Cert.KernelIdeal.τ).loc Cert.KernelIdeal.main_arg26) := (Cert.RefRun.R_arg26 _).trans h26
  have e27 : Cert.RefRun.R (F := Ideal) (fun b => m' (c, b)) Cert.ReferenceIdeal.main_arg27 = m ((c.tc : Thread Cert.KernelIdeal.nD Cert.KernelIdeal.τ).loc Cert.KernelIdeal.main_arg27) := (Cert.RefRun.R_arg27 _).trans h27
  have e28 : Cert.RefRun.R (F := Ideal) (fun b => m' (c, b)) Cert.ReferenceIdeal.main_arg28 = m ((c.tc : Thread Cert.KernelIdeal.nD Cert.KernelIdeal.τ).loc Cert.KernelIdeal.main_arg28) := (Cert.RefRun.R_arg28 _).trans h28
  have e29 : Cert.RefRun.R (F := Ideal) (fun b => m' (c, b)) Cert.ReferenceIdeal.main_arg29 = m ((c.tc : Thread Cert.KernelIdeal.nD Cert.KernelIdeal.τ).loc Cert.KernelIdeal.main_arg29) := (Cert.RefRun.R_arg29 _).trans h29
  have e30 : Cert.RefRun.R (F := Ideal) (fun b => m' (c, b)) Cert.ReferenceIdeal.main_arg30 = m ((c.tc : Thread Cert.KernelIdeal.nD Cert.KernelIdeal.τ).loc Cert.KernelIdeal.main_arg30) := (Cert.RefRun.R_arg30 _).trans h30
  have e31 : Cert.RefRun.R (F := Ideal) (fun b => m' (c, b)) Cert.ReferenceIdeal.main_arg31 = m ((c.tc : Thread Cert.KernelIdeal.nD Cert.KernelIdeal.τ).loc Cert.KernelIdeal.main_arg31) := (Cert.RefRun.R_arg31 _).trans h31
  have e32 : Cert.RefRun.R (F := Ideal) (fun b => m' (c, b)) Cert.ReferenceIdeal.main_arg32 = m ((c.tc : Thread Cert.KernelIdeal.nD Cert.KernelIdeal.τ).loc Cert.KernelIdeal.main_arg32) := (Cert.RefRun.R_arg32 _).trans h32
  have e33 : Cert.RefRun.R (F := Ideal) (fun b => m' (c, b)) Cert.ReferenceIdeal.main_arg33 = m ((c.tc : Thread Cert.KernelIdeal.nD Cert.KernelIdeal.τ).loc Cert.KernelIdeal.main_arg33) := (Cert.RefRun.R_arg33 _).trans h33
  have e34 : Cert.RefRun.R (F := Ideal) (fun b => m' (c, b)) Cert.ReferenceIdeal.main_arg34 = m ((c.tc : Thread Cert.KernelIdeal.nD Cert.KernelIdeal.τ).loc Cert.KernelIdeal.main_arg34) := (Cert.RefRun.R_arg34 _).trans h34
  have e35 : Cert.RefRun.R (F := Ideal) (fun b => m' (c, b)) Cert.ReferenceIdeal.main_arg35 = m ((c.tc : Thread Cert.KernelIdeal.nD Cert.KernelIdeal.τ).loc Cert.KernelIdeal.main_arg35) := (Cert.RefRun.R_arg35 _).trans h35
  have e36 : Cert.RefRun.R (F := Ideal) (fun b => m' (c, b)) Cert.ReferenceIdeal.main_arg36 = m ((c.tc : Thread Cert.KernelIdeal.nD Cert.KernelIdeal.τ).loc Cert.KernelIdeal.main_arg36) := (Cert.RefRun.R_arg36 _).trans h36
  have e37 : Cert.RefRun.R (F := Ideal) (fun b => m' (c, b)) Cert.ReferenceIdeal.main_arg37 = m ((c.tc : Thread Cert.KernelIdeal.nD Cert.KernelIdeal.τ).loc Cert.KernelIdeal.main_arg37) := (Cert.RefRun.R_arg37 _).trans h37
  have e38 : Cert.RefRun.R (F := Ideal) (fun b => m' (c, b)) Cert.ReferenceIdeal.main_arg38 = m ((c.tc : Thread Cert.KernelIdeal.nD Cert.KernelIdeal.τ).loc Cert.KernelIdeal.main_arg38) := (Cert.RefRun.R_arg38 _).trans h38
  have e39 : Cert.RefRun.R (F := Ideal) (fun b => m' (c, b)) Cert.ReferenceIdeal.main_arg39 = m ((c.tc : Thread Cert.KernelIdeal.nD Cert.KernelIdeal.τ).loc Cert.KernelIdeal.main_arg39) := (Cert.RefRun.R_arg39 _).trans h39
  have e40 : Cert.RefRun.R (F := Ideal) (fun b => m' (c, b)) Cert.ReferenceIdeal.main_arg40 = m ((c.tc : Thread Cert.KernelIdeal.nD Cert.KernelIdeal.τ).loc Cert.KernelIdeal.main_arg40) := (Cert.RefRun.R_arg40 _).trans h40
  have e41 : Cert.RefRun.R (F := Ideal) (fun b => m' (c, b)) Cert.ReferenceIdeal.main_arg41 = m ((c.tc : Thread Cert.KernelIdeal.nD Cert.KernelIdeal.τ).loc Cert.KernelIdeal.main_arg41) := (Cert.RefRun.R_arg41 _).trans h41
  have e42 : Cert.RefRun.R (F := Ideal) (fun b => m' (c, b)) Cert.ReferenceIdeal.main_arg42 = m ((c.tc : Thread Cert.KernelIdeal.nD Cert.KernelIdeal.τ).loc Cert.KernelIdeal.main_arg42) := (Cert.RefRun.R_arg42 _).trans h42
  have e43 : Cert.RefRun.R (F := Ideal) (fun b => m' (c, b)) Cert.ReferenceIdeal.main_arg43 = m ((c.tc : Thread Cert.KernelIdeal.nD Cert.KernelIdeal.τ).loc Cert.KernelIdeal.main_arg43) := (Cert.RefRun.R_arg43 _).trans h43
  have e44 : Cert.RefRun.R (F := Ideal) (fun b => m' (c, b)) Cert.ReferenceIdeal.main_arg44 = m ((c.tc : Thread Cert.KernelIdeal.nD Cert.KernelIdeal.τ).loc Cert.KernelIdeal.main_arg44) := (Cert.RefRun.R_arg44 _).trans h44
  have e45 : Cert.RefRun.R (F := Ideal) (fun b => m' (c, b)) Cert.ReferenceIdeal.main_arg45 = m ((c.tc : Thread Cert.KernelIdeal.nD Cert.KernelIdeal.τ).loc Cert.KernelIdeal.main_arg45) := (Cert.RefRun.R_arg45 _).trans h45
  have e46 : Cert.RefRun.R (F := Ideal) (fun b => m' (c, b)) Cert.ReferenceIdeal.main_arg46 = m ((c.tc : Thread Cert.KernelIdeal.nD Cert.KernelIdeal.τ).loc Cert.KernelIdeal.main_arg46) := (Cert.RefRun.R_arg46 _).trans h46
  have e47 : Cert.RefRun.R (F := Ideal) (fun b => m' (c, b)) Cert.ReferenceIdeal.main_arg47 = m ((c.tc : Thread Cert.KernelIdeal.nD Cert.KernelIdeal.τ).loc Cert.KernelIdeal.main_arg47) := (Cert.RefRun.R_arg47 _).trans h47
  refine hR.trans (Eq.trans ?_ hK.symm)
  simp only [Cert.RefGlue.PV, Cert.RefGlue.qV, Cert.RefGlue.nbrV, hnb, e0, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47]

/-- The value claim. -/
theorem algebraic : Cert.algebraic_KernelIdeal_ReferenceIdeal := by
  intro m g m' g' _ hagree
  refine ⟨fun c => Cert.KerRun.final m c, Cert.KerRun.run m g, ?_⟩
  refine (θ_run _ _ _).mono (fun r h c => ⟨(h c).1.trans ?_, (h c).2⟩) (Cert.RefRun.run (F := Ideal) m' g')
  exact result_eq m m' c (hagree c)

end Cert.Proof.Value

end
-- ==== Proof.lean ====
/-
  The certificate: the three frame claims, the idealization claim and the value claim, under the witnesses of the
  programs' stated side conditions.
-/
import proofs.«138937_j6992206758069_2_alg».proof.Defs
import proofs.«138937_j6992206758069_2_alg».proof.Proof.Gen.Kernel
import proofs.«138937_j6992206758069_2_alg».proof.Proof.Gen.KernelIdeal
import proofs.«138937_j6992206758069_2_alg».proof.Proof.Gen.ReferenceIdeal
import proofs.«138937_j6992206758069_2_alg».proof.Proof.Gen.Pre_finite_inputs
import proofs.«138937_j6992206758069_2_alg».proof.Proof.Frames
import proofs.«138937_j6992206758069_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Value.frame_ri, Cert.Proof.Frames.preserves,
    Cert.Proof.Value.algebraic⟩

end Cert.Proof

end
